-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100001x128 : Shape := ⟨2, ![100001, 128]⟩
abbrev S512x512 : Shape := ⟨2, ![512, 512]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part5 {F : FTy → Type} [FloatOps F] (main_arg2 : IVec S16384 32) (main_arg3 : IVec S16384 32) (main_v82 : IVec S_ 1) (main_v84 : IVec S16384 1) : IVec S_ 1 :=
  let main_c_33 : IVec S_ 32 := constantI S_ 32 99999#32
  let main_v85 : IVec S16384 32 := broadcastInDim S16384 ![] bcast_S_S16384 main_c_33
  let main_v86 : IVec S16384 1 := cmpi .sle main_arg2 main_v85
  let main_v87 : IVec S16384 1 := andi main_v84 main_v86
  let main_c_34 : IVec S_ 1 := constantI S_ 1 1#1
  let main_v88 : IVec S_ 1 := (fun x v => Host.reduce IntOp.andi x v reducesTo_S16384_S_d0 h_S_) main_v87 main_c_34
  let main_v89 : IVec S_ 1 := andi main_v82 main_v88
  let main_c_35 : IVec S_ 32 := constantI S_ 32 0#32
  let main_v90 : IVec S16384 32 := broadcastInDim S16384 ![] bcast_S_S16384 main_c_35
  let main_v91 : IVec S16384 1 := cmpi .sge main_arg3 main_v90
  let main_c_36 : IVec S_ 32 := constantI S_ 32 99999#32
  let main_v92 : IVec S16384 32 := broadcastInDim S16384 ![] bcast_S_S16384 main_c_36
  let main_v93 : IVec S16384 1 := cmpi .sle main_arg3 main_v92
  let main_v94 : IVec S16384 1 := andi main_v91 main_v93
  let main_c_37 : IVec S_ 1 := constantI S_ 1 1#1
  let main_v95 : IVec S_ 1 := (fun x v => Host.reduce IntOp.andi x v reducesTo_S16384_S_d0 h_S_) main_v94 main_c_37
  let main_v96 : IVec S_ 1 := andi main_v89 main_v95
  main_v96

def fn_part4 {F : FTy → Type} [FloatOps F] (main_arg0 : IVec S16384 32) (main_arg1 : IVec S16384 32) (main_arg2 : IVec S16384 32) (main_arg3 : IVec S16384 32) (main_v63 : IVec S_ 1) (main_v67 : IVec S_ 1) : IVec S_ 1 :=
  let main_v68 : IVec S_ 1 := andi main_v63 main_v67
  let main_c_26 : IVec S_ 32 := constantI S_ 32 0#32
  let main_v69 : IVec S16384 32 := broadcastInDim S16384 ![] bcast_S_S16384 main_c_26
  let main_v70 : IVec S16384 1 := cmpi .sge main_arg0 main_v69
  let main_c_27 : IVec S_ 32 := constantI S_ 32 99999#32
  let main_v71 : IVec S16384 32 := broadcastInDim S16384 ![] bcast_S_S16384 main_c_27
  let main_v72 : IVec S16384 1 := cmpi .sle main_arg0 main_v71
  let main_v73 : IVec S16384 1 := andi main_v70 main_v72
  let main_c_28 : IVec S_ 1 := constantI S_ 1 1#1
  let main_v74 : IVec S_ 1 := (fun x v => Host.reduce IntOp.andi x v reducesTo_S16384_S_d0 h_S_) main_v73 main_c_28
  let main_v75 : IVec S_ 1 := andi main_v68 main_v74
  let main_c_29 : IVec S_ 32 := constantI S_ 32 0#32
  let main_v76 : IVec S16384 32 := broadcastInDim S16384 ![] bcast_S_S16384 main_c_29
  let main_v77 : IVec S16384 1 := cmpi .sge main_arg1 main_v76
  let main_c_30 : IVec S_ 32 := constantI S_ 32 99999#32
  let main_v78 : IVec S16384 32 := broadcastInDim S16384 ![] bcast_S_S16384 main_c_30
  let main_v79 : IVec S16384 1 := cmpi .sle main_arg1 main_v78
  let main_v80 : IVec S16384 1 := andi main_v77 main_v79
  let main_c_31 : IVec S_ 1 := constantI S_ 1 1#1
  let main_v81 : IVec S_ 1 := (fun x v => Host.reduce IntOp.andi x v reducesTo_S16384_S_d0 h_S_) main_v80 main_c_31
  let main_v82 : IVec S_ 1 := andi main_v75 main_v81
  let main_c_32 : IVec S_ 32 := constantI S_ 32 0#32
  let main_v83 : IVec S16384 32 := broadcastInDim S16384 ![] bcast_S_S16384 main_c_32
  let main_v84 : IVec S16384 1 := cmpi .sge main_arg2 main_v83
  fn_part5 (F := F) main_arg2 main_arg3 main_v82 main_v84

def fn_part3 {F : FTy → Type} [FloatOps F] (main_arg0 : IVec S16384 32) (main_arg1 : IVec S16384 32) (main_arg2 : IVec S16384 32) (main_arg3 : IVec S16384 32) (main_arg15 : FVec F S64 .f32) (main_arg16 : FVec F S1x64 .f32) (main_arg17 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg16
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_arg1 main_arg2 main_arg3 main_v63 main_v67

def fn_part2 {F : FTy → Type} [FloatOps F] (main_arg0 : IVec S16384 32) (main_arg1 : IVec S16384 32) (main_arg2 : IVec S16384 32) (main_arg3 : IVec S16384 32) (main_arg11 : FVec F S256 .f32) (main_arg12 : FVec F S128x256 .f32) (main_arg13 : FVec F S128 .f32) (main_arg14 : FVec F S64x128 .f32) (main_arg15 : FVec F S64 .f32) (main_arg16 : FVec F S1x64 .f32) (main_arg17 : FVec F S1 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg12
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg14
  let main_cst_18 : FVec F S_ .f32 := constant S_ .f32 0x7F800000#32
  let main_v50 : FVec F S64x128 .f32 := broadcastInDim S64x128 ![] bcast_S_S64x128 main_cst_18
  fn_part3 (F := F) main_arg0 main_arg1 main_arg2 main_arg3 main_arg15 main_arg16 main_arg17 main_v48 main_v49 main_v50

def fn_part1 {F : FTy → Type} [FloatOps F] (main_arg0 : IVec S16384 32) (main_arg1 : IVec S16384 32) (main_arg2 : IVec S16384 32) (main_arg3 : IVec S16384 32) (main_arg8 : FVec F S512x512 .f32) (main_arg9 : FVec F S512 .f32) (main_arg10 : FVec F S256x512 .f32) (main_arg11 : FVec F S256 .f32) (main_arg12 : FVec F S128x256 .f32) (main_arg13 : FVec F S128 .f32) (main_arg14 : FVec F S64x128 .f32) (main_arg15 : FVec F S64 .f32) (main_arg16 : FVec F S1x64 .f32) (main_arg17 : FVec F S1 .f32) (main_v13 : IVec S_ 1) (main_v16 : IVec S100001x128 1) : IVec S_ 1 :=
  let main_c_5 : IVec S_ 1 := constantI S_ 1 1#1
  let main_v17 : IVec S_ 1 := (fun x v => Host.reduce IntOp.andi x v reducesTo_S100001x128_S_d0_1 h_S_) main_v16 main_c_5
  let main_v18 : IVec S_ 1 := andi main_v13 main_v17
  let main_v19 : FVec F S512x512 .f32 := Host.absf main_arg8
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg9
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x512 .f32 := Host.absf main_arg10
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg0 main_arg1 main_arg2 main_arg3 main_arg11 main_arg12 main_arg13 main_arg14 main_arg15 main_arg16 main_arg17 main_v33

def fn {F : FTy → Type} [FloatOps F] (main_arg0 : IVec S16384 32) (main_arg1 : IVec S16384 32) (main_arg2 : IVec S16384 32) (main_arg3 : IVec S16384 32) (main_arg4 : FVec F S100001x128 .f32) (main_arg5 : FVec F S100001x128 .f32) (main_arg6 : FVec F S100001x128 .f32) (main_arg7 : FVec F S100001x128 .f32) (main_arg8 : FVec F S512x512 .f32) (main_arg9 : FVec F S512 .f32) (main_arg10 : FVec F S256x512 .f32) (main_arg11 : FVec F S256 .f32) (main_arg12 : FVec F S128x256 .f32) (main_arg13 : FVec F S128 .f32) (main_arg14 : FVec F S64x128 .f32) (main_arg15 : FVec F S64 .f32) (main_arg16 : FVec F S1x64 .f32) (main_arg17 : FVec F S1 .f32) : IVec S_ 1 :=
  let main_v0 : FVec F S100001x128 .f32 := Host.absf main_arg4
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_v4 : FVec F S100001x128 .f32 := Host.absf main_arg5
  let main_cst_0 : FVec F S_ .f32 := constant S_ .f32 0x7F800000#32
  let main_v5 : FVec F S100001x128 .f32 := broadcastInDim S100001x128 ![] bcast_S_S100001x128 main_cst_0
  let main_v6 : IVec S100001x128 1 := cmpf .olt main_v4 main_v5
  let main_c_1 : IVec S_ 1 := constantI S_ 1 1#1
  let main_v7 : IVec S_ 1 := (fun x v => Host.reduce IntOp.andi x v reducesTo_S100001x128_S_d0_1 h_S_) main_v6 main_c_1
  let main_v8 : IVec S_ 1 := andi main_v3 main_v7
  let main_v9 : FVec F S100001x128 .f32 := Host.absf main_arg6
  let main_cst_2 : FVec F S_ .f32 := constant S_ .f32 0x7F800000#32
  let main_v10 : FVec F S100001x128 .f32 := broadcastInDim S100001x128 ![] bcast_S_S100001x128 main_cst_2
  let main_v11 : IVec S100001x128 1 := cmpf .olt main_v9 main_v10
  let main_c_3 : IVec S_ 1 := constantI S_ 1 1#1
  let main_v12 : IVec S_ 1 := (fun x v => Host.reduce IntOp.andi x v reducesTo_S100001x128_S_d0_1 h_S_) main_v11 main_c_3
  let main_v13 : IVec S_ 1 := andi main_v8 main_v12
  let main_v14 : FVec F S100001x128 .f32 := Host.absf main_arg7
  let main_cst_4 : FVec F S_ .f32 := constant S_ .f32 0x7F800000#32
  let main_v15 : FVec F S100001x128 .f32 := broadcastInDim S100001x128 ![] bcast_S_S100001x128 main_cst_4
  let main_v16 : IVec S100001x128 1 := cmpf .olt main_v14 main_v15
  fn_part1 (F := F) main_arg0 main_arg1 main_arg2 main_arg3 main_arg8 main_arg9 main_arg10 main_arg11 main_arg12 main_arg13 main_arg14 main_arg15 main_arg16 main_arg17 main_v13 main_v16
-- ==== Kernel.lean ====
abbrev S16384 : Shape := ⟨1, ![16384]⟩
abbrev S100001x128 : Shape := ⟨2, ![100001, 128]⟩
abbrev S512x512 : Shape := ⟨2, ![512, 512]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S8192 : Shape := ⟨1, ![8192]⟩
abbrev S8192x512 : Shape := ⟨2, ![8192, 512]⟩
abbrev S4x256 : Shape := ⟨2, ![4, 256]⟩
abbrev S128x128 : Shape := ⟨2, ![128, 128]⟩
abbrev S_ : Shape := ⟨0, ![]⟩
abbrev S1x256 : Shape := ⟨2, ![1, 256]⟩
abbrev S1x128 : Shape := ⟨2, ![1, 128]⟩
abbrev S1x512 : Shape := ⟨2, ![1, 512]⟩
abbrev S1x1 : Shape := ⟨2, ![1, 1]⟩
abbrev S2048x512 : Shape := ⟨2, ![2048, 512]⟩
abbrev S2048 : Shape := ⟨1, ![2048]⟩
abbrev S2048x256 : Shape := ⟨2, ![2048, 256]⟩
abbrev S2048x128 : Shape := ⟨2, ![2048, 128]⟩
abbrev S2048x64 : Shape := ⟨2, ![2048, 64]⟩

abbrev nBuf : Table → Nat
  | .hbm => 49
  | .local .tc .vmem => 28
  | .local .scVector .vmem => 10
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S100001x128, .f32⟩
  | .hbm, ⟨5, _⟩ => ⟨S100001x128, .f32⟩
  | .hbm, ⟨6, _⟩ => ⟨S100001x128, .f32⟩
  | .hbm, ⟨7, _⟩ => ⟨S100001x128, .f32⟩
  | .hbm, ⟨8, _⟩ => ⟨S512x512, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S64x128, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x512, .f32⟩
  | .hbm, ⟨23, _⟩ => ⟨S512x512, .bf16⟩
  | .hbm, ⟨24, _⟩ => ⟨S1x512, .f32⟩
  | .hbm, ⟨25, _⟩ => ⟨S256x512, .bf16⟩
  | .hbm, ⟨26, _⟩ => ⟨S1x256, .f32⟩
  | .hbm, ⟨27, _⟩ => ⟨S128x256, .bf16⟩
  | .hbm, ⟨28, _⟩ => ⟨S1x128, .f32⟩
  | .hbm, ⟨29, _⟩ => ⟨S64x128, .bf16⟩
  | .hbm, ⟨30, _⟩ => ⟨S1x64, .f32⟩
  | .hbm, ⟨31, _⟩ => ⟨S1x1, .f32⟩
  | .hbm, ⟨32, _⟩ => ⟨S8192, .f32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x512, .f32⟩
  | .hbm, ⟨38, _⟩ => ⟨S512x512, .bf16⟩
  | .hbm, ⟨39, _⟩ => ⟨S1x512, .f32⟩
  | .hbm, ⟨40, _⟩ => ⟨S256x512, .bf16⟩
  | .hbm, ⟨41, _⟩ => ⟨S1x256, .f32⟩
  | .hbm, ⟨42, _⟩ => ⟨S128x256, .bf16⟩
  | .hbm, ⟨43, _⟩ => ⟨S1x128, .f32⟩
  | .hbm, ⟨44, _⟩ => ⟨S64x128, .bf16⟩
  | .hbm, ⟨45, _⟩ => ⟨S1x64, .f32⟩
  | .hbm, ⟨46, _⟩ => ⟨S1x1, .f32⟩
  | .hbm, ⟨47, _⟩ => ⟨S8192, .f32⟩
  | .hbm, ⟨48, _⟩ => ⟨S16384, .f32⟩
  | .local .tc .vmem, ⟨0, _⟩ => ⟨S2048x512, .f32⟩
  | .local .tc .vmem, ⟨1, _⟩ => ⟨S2048x512, .f32⟩
  | .local .tc .vmem, ⟨2, _⟩ => ⟨S512x512, .bf16⟩
  | .local .tc .vmem, ⟨3, _⟩ => ⟨S1x512, .f32⟩
  | .local .tc .vmem, ⟨4, _⟩ => ⟨S256x512, .bf16⟩
  | .local .tc .vmem, ⟨5, _⟩ => ⟨S1x256, .f32⟩
  | .local .tc .vmem, ⟨6, _⟩ => ⟨S128x256, .bf16⟩
  | .local .tc .vmem, ⟨7, _⟩ => ⟨S1x128, .f32⟩
  | .local .tc .vmem, ⟨8, _⟩ => ⟨S64x128, .bf16⟩
  | .local .tc .vmem, ⟨9, _⟩ => ⟨S1x64, .f32⟩
  | .local .tc .vmem, ⟨10, _⟩ => ⟨S1x64, .f32⟩
  | .local .tc .vmem, ⟨11, _⟩ => ⟨S1x1, .f32⟩
  | .local .tc .vmem, ⟨12, _⟩ => ⟨S2048, .f32⟩
  | .local .tc .vmem, ⟨13, _⟩ => ⟨S2048, .f32⟩
  | .local .tc .vmem, ⟨14, _⟩ => ⟨S2048x512, .f32⟩
  | .local .tc .vmem, ⟨15, _⟩ => ⟨S2048x512, .f32⟩
  | .local .tc .vmem, ⟨16, _⟩ => ⟨S512x512, .bf16⟩
  | .local .tc .vmem, ⟨17, _⟩ => ⟨S1x512, .f32⟩
  | .local .tc .vmem, ⟨18, _⟩ => ⟨S256x512, .bf16⟩
  | .local .tc .vmem, ⟨19, _⟩ => ⟨S1x256, .f32⟩
  | .local .tc .vmem, ⟨20, _⟩ => ⟨S128x256, .bf16⟩
  | .local .tc .vmem, ⟨21, _⟩ => ⟨S1x128, .f32⟩
  | .local .tc .vmem, ⟨22, _⟩ => ⟨S64x128, .bf16⟩
  | .local .tc .vmem, ⟨23, _⟩ => ⟨S1x64, .f32⟩
  | .local .tc .vmem, ⟨24, _⟩ => ⟨S1x64, .f32⟩
  | .local .tc .vmem, ⟨25, _⟩ => ⟨S1x1, .f32⟩
  | .local .tc .vmem, ⟨26, _⟩ => ⟨S2048, .f32⟩
  | .local .tc .vmem, ⟨27, _⟩ => ⟨S2048, .f32⟩
  | .local .scVector .vmem, ⟨0, _⟩ => ⟨S4x256, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S4x256, .i32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 52 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTables nBuf rfl bufTy 4 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v0_scv : Ref sig .scVector := ⟨.hbm, 18, rfl⟩
abbrev main_v1_scv : Ref sig .scVector := ⟨.hbm, 19, rfl⟩
abbrev main_v2_scv : Ref sig .scVector := ⟨.hbm, 20, rfl⟩
abbrev main_v3_scv : Ref sig .scVector := ⟨.hbm, 21, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_v4_scv : Ref sig .scVector := ⟨.hbm, 22, rfl⟩
abbrev main_v15_scv : Ref sig .scVector := ⟨.hbm, 33, rfl⟩
abbrev main_v16_scv : Ref sig .scVector := ⟨.hbm, 34, rfl⟩
abbrev main_v17_scv : Ref sig .scVector := ⟨.hbm, 35, rfl⟩
abbrev main_v18_scv : Ref sig .scVector := ⟨.hbm, 36, rfl⟩
abbrev main_v19_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg11_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg9_0 : Ref sig .tc := ⟨.vmem, 24, rfl⟩
abbrev cc3_stg10_0 : Ref sig .tc := ⟨.vmem, 25, rfl⟩
abbrev cc3_stg11_0 : Ref sig .tc := ⟨.vmem, 26, rfl⟩
abbrev cc3_stg11_1 : Ref sig .tc := ⟨.vmem, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem11_1 : DmaSem sig := 51
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v12 : BitVec 32 := Scalar.addi v2 c0_i32_12
  let c0_i32_13 : BitVec 32 := 0#32
  ![v12.toNat, 0]
def k0_off3 (i : grid0.Coords) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v30 : BitVec 32 := Scalar.addi v2 c0_i32_34
  let c128_i32_35 : BitVec 32 := 128#32
  ![v30.toNat, 128]
def k0_off4 (i : grid0.Coords) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v52 : BitVec 32 := Scalar.addi v2 c0_i32_60
  let c256_i32_61 : BitVec 32 := 256#32
  ![v52.toNat, 256]
def k0_off5 (i : grid0.Coords) (c0_i32_86 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v74 : BitVec 32 := Scalar.addi v2 c0_i32_86
  let c384_i32 : BitVec 32 := 384#32
  ![v74.toNat, 384]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k2_off2 (i : grid2.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v12 : BitVec 32 := Scalar.addi v2 c0_i32_12
  let c0_i32_13 : BitVec 32 := 0#32
  ![v12.toNat, 0]
def k2_off3 (i : grid2.Coords) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v30 : BitVec 32 := Scalar.addi v2 c0_i32_34
  let c128_i32_35 : BitVec 32 := 128#32
  ![v30.toNat, 128]
def k2_off4 (i : grid2.Coords) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v52 : BitVec 32 := Scalar.addi v2 c0_i32_60
  let c256_i32_61 : BitVec 32 := 256#32
  ![v52.toNat, 256]
def k2_off5 (i : grid2.Coords) (c0_i32_86 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v74 : BitVec 32 := Scalar.addi v2 c0_i32_86
  let c384_i32 : BitVec 32 := 384#32
  ![v74.toNat, 384]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2048 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S16384_S8192_0 : S16384.Slices ![0] S8192
  inb_S4x256_S1x256_0_0 : ∀ a, (![0, 0] : Fin 2 → Nat) a + S1x256.size a ≤ S4x256.size a
  squeezes_S1x256_S256 : S1x256.Squeezes S256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  inb_S4x256_S1x128_0_0 : ∀ a, (![0, 0] : Fin 2 → Nat) a + S1x128.size a ≤ S4x256.size a
  squeezes_S1x128_S128 : S1x128.Squeezes S128
  inb_S100001x128_S100001x128_0_0 : ∀ a, (![0, 0] : Fin 2 → Nat) a + S100001x128.size a ≤ S100001x128.size a
  gathers_S100001x128_S128x128 : S100001x128.Gathers 0 S128x128
  inb_S4x256_S1x128_0_128 : ∀ a, (![0, 128] : Fin 2 → Nat) a + S1x128.size a ≤ S4x256.size a
  inb_S4x256_S1x128_1_0 : ∀ a, (![1, 0] : Fin 2 → Nat) a + S1x128.size a ≤ S4x256.size a
  inb_S4x256_S1x128_1_128 : ∀ a, (![1, 128] : Fin 2 → Nat) a + S1x128.size a ≤ S4x256.size a
  inb_S4x256_S1x128_2_0 : ∀ a, (![2, 0] : Fin 2 → Nat) a + S1x128.size a ≤ S4x256.size a
  inb_S4x256_S1x128_2_128 : ∀ a, (![2, 128] : Fin 2 → Nat) a + S1x128.size a ≤ S4x256.size a
  inb_S4x256_S1x128_3_0 : ∀ a, (![3, 0] : Fin 2 → Nat) a + S1x128.size a ≤ S4x256.size a
  inb_S4x256_S1x128_3_128 : ∀ a, (![3, 128] : Fin 2 → Nat) a + S1x128.size a ≤ S4x256.size a
  bitsLt_bf16_f32 : FTy.bits .bf16 < FTy.bits .f32
  shapeCasts_S512_S1x512 : S512.ShapeCasts S1x512
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048_S2048_0 : ∀ a, (![0] : Fin 1 → Nat) a + S2048.size a ≤ S2048.size a
  h_S2048 : 0 < S2048.numel
  slices_S16384_S8192_8192 : S16384.Slices ![8192] S8192
  concatenates_S8192_S8192_S16384_d0 : Shape.Concatenates [S8192, S8192] S16384 0
  dot_S2048x512_S512x512_S2048x512_1_1_0_0_n_n_wf : DotDims.WF S2048x512 S512x512 S2048x512 [1] [1] [0] [0] [] []
  dot_S2048x512_S256x512_S2048x256_1_1_0_0_n_n_wf : DotDims.WF S2048x512 S256x512 S2048x256 [1] [1] [0] [0] [] []
  dot_S2048x256_S128x256_S2048x128_1_1_0_0_n_n_wf : DotDims.WF S2048x256 S128x256 S2048x128 [1] [1] [0] [0] [] []
  dot_S2048x128_S64x128_S2048x64_1_1_0_0_n_n_wf : DotDims.WF S2048x128 S64x128 S2048x64 [1] [1] [0] [0] [] []
  hcc0_scratch5 : 0 + S_.numel ≤ 52
  hcc0_scratch6 : 1 + S_.numel ≤ 52
  hcc0_scratch7 : 2 + S_.numel ≤ 52
  hcc0_scratch8 : 3 + S_.numel ≤ 52
  hcc0_scratch9 : 4 + S_.numel ≤ 52
  hcc0_scratch10 : 5 + S_.numel ≤ 52
  hcc0_scratch11 : 6 + S_.numel ≤ 52
  hcc0_scratch12 : 7 + S_.numel ≤ 52
  hcc0_scoped0 : 8 + S_.numel ≤ 52
  hcc0_scoped1 : 9 + S_.numel ≤ 52
  hcc0_scoped2 : 10 + S_.numel ≤ 52
  hcc0_scoped3 : 11 + S_.numel ≤ 52
  hcc2_scratch5 : 26 + S_.numel ≤ 52
  hcc2_scratch6 : 27 + S_.numel ≤ 52
  hcc2_scratch7 : 28 + S_.numel ≤ 52
  hcc2_scratch8 : 29 + S_.numel ≤ 52
  hcc2_scratch9 : 30 + S_.numel ≤ 52
  hcc2_scratch10 : 31 + S_.numel ≤ 52
  hcc2_scratch11 : 32 + S_.numel ≤ 52
  hcc2_scratch12 : 33 + S_.numel ≤ 52
  hcc2_scoped0 : 34 + S_.numel ≤ 52
  hcc2_scoped1 : 35 + S_.numel ≤ 52
  hcc2_scoped2 : 36 + S_.numel ≤ 52
  hcc2_scoped3 : 37 + S_.numel ≤ 52
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S8192.size a
  k0_off2_inb : ∀ i : grid0.Coords, ∀ (r : Fin 2), ∀ a, (k0_off2 i (BitVec.ofNat 32 (128 * r.val))) a + S128x128.size a ≤ S8192x512.size a
  k0_off3_inb : ∀ i : grid0.Coords, ∀ (r : Fin 2), ∀ a, (k0_off3 i (BitVec.ofNat 32 (128 * r.val))) a + S128x128.size a ≤ S8192x512.size a
  k0_off4_inb : ∀ i : grid0.Coords, ∀ (r : Fin 2), ∀ a, (k0_off4 i (BitVec.ofNat 32 (128 * r.val))) a + S128x128.size a ≤ S8192x512.size a
  k0_off5_inb : ∀ i : grid0.Coords, ∀ (r : Fin 2), ∀ a, (k0_off5 i (BitVec.ofNat 32 (128 * r.val))) a + S128x128.size a ≤ S8192x512.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .bf16 = 32 ∨ (Rect.block (s := S64x128) S64x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048.size a ≤ S8192.size a
  hwx1_11 : ∀ i : grid1.Coords, EltTy.bits .f32 = 32 ∨ (Rect.block (s := S8192) S2048.size (cc1_transform_11 i) (hinb1_11 i)).WholeWords (EltTy.packing .f32)
  hcore2 : grid2.bound 0 ≤ τ.nSC
  hsub2 : grid2.bound 1 ≤ τ.nSub
  k2_off1_inb : ∀ i : grid2.Coords, ∀ a, (k2_off1 i) a + S256.size a ≤ S8192.size a
  k2_off2_inb : ∀ i : grid2.Coords, ∀ (r : Fin 2), ∀ a, (k2_off2 i (BitVec.ofNat 32 (128 * r.val))) a + S128x128.size a ≤ S8192x512.size a
  k2_off3_inb : ∀ i : grid2.Coords, ∀ (r : Fin 2), ∀ a, (k2_off3 i (BitVec.ofNat 32 (128 * r.val))) a + S128x128.size a ≤ S8192x512.size a
  k2_off4_inb : ∀ i : grid2.Coords, ∀ (r : Fin 2), ∀ a, (k2_off4 i (BitVec.ofNat 32 (128 * r.val))) a + S128x128.size a ≤ S8192x512.size a
  k2_off5_inb : ∀ i : grid2.Coords, ∀ (r : Fin 2), ∀ a, (k2_off5 i (BitVec.ofNat 32 (128 * r.val))) a + S128x128.size a ≤ S8192x512.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x512.size a
  hwx3_0 : ∀ i : grid3.Coords, EltTy.bits .f32 = 32 ∨ (Rect.block (s := S8192x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x512.size a ≤ S256x512.size a
  hwx3_3 : ∀ i : grid3.Coords, EltTy.bits .bf16 = 32 ∨ (Rect.block (s := S256x512) S256x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .bf16 = 32 ∨ (Rect.block (s := S128x256) S128x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x128.size a ≤ S64x128.size a
  hwx3_7 : ∀ i : grid3.Coords, EltTy.bits .bf16 = 32 ∨ (Rect.block (s := S64x128) S64x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2048.size a ≤ S8192.size a
  hwx3_11 : ∀ i : grid3.Coords, EltTy.bits .f32 = 32 ∨ (Rect.block (s := S8192) S2048.size (cc3_transform_11 i) (hinb3_11 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
abbrev cc0_scoped3 : DmaSems sig S_ := SemArray.consecutive 11 S_ hcc0_scoped3
abbrev cc2_scratch5 : DmaSems sig S_ := SemArray.consecutive 26 S_ hcc2_scratch5
abbrev cc2_scratch6 : DmaSems sig S_ := SemArray.consecutive 27 S_ hcc2_scratch6
abbrev cc2_scratch7 : DmaSems sig S_ := SemArray.consecutive 28 S_ hcc2_scratch7
abbrev cc2_scratch8 : DmaSems sig S_ := SemArray.consecutive 29 S_ hcc2_scratch8
abbrev cc2_scratch9 : DmaSems sig S_ := SemArray.consecutive 30 S_ hcc2_scratch9
abbrev cc2_scratch10 : DmaSems sig S_ := SemArray.consecutive 31 S_ hcc2_scratch10
abbrev cc2_scratch11 : DmaSems sig S_ := SemArray.consecutive 32 S_ hcc2_scratch11
abbrev cc2_scratch12 : DmaSems sig S_ := SemArray.consecutive 33 S_ hcc2_scratch12
abbrev cc2_scoped0 : DmaSems sig S_ := SemArray.consecutive 34 S_ hcc2_scoped0
abbrev cc2_scoped1 : DmaSems sig S_ := SemArray.consecutive 35 S_ hcc2_scoped1
abbrev cc2_scoped2 : DmaSems sig S_ := SemArray.consecutive 36 S_ hcc2_scoped2
abbrev cc2_scoped3 : DmaSems sig S_ := SemArray.consecutive 37 S_ hcc2_scoped3
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf

abbrev win1_0 : Pipeline.Window sig grid1 :=
  Pipeline.Window.ofSpec (Memref.whole main_v4) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S64x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14) S2048.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win3_0 : Pipeline.Window sig grid3 :=
  Pipeline.Window.ofSpec (Memref.whole main_v19) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S256x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v26) S64x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v27) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg16) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v28) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v29) S2048.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S16384 : Shape := ⟨1, ![16384]⟩
abbrev S100001x128 : Shape := ⟨2, ![100001, 128]⟩
abbrev S512x512 : Shape := ⟨2, ![512, 512]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x512 : Shape := ⟨2, ![16384, 512]⟩
abbrev S1x512 : Shape := ⟨2, ![1, 512]⟩
abbrev S512x256 : Shape := ⟨2, ![512, 256]⟩
abbrev S16384x256 : Shape := ⟨2, ![16384, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 181
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S100001x128, .f32⟩
  | 5 => ⟨S100001x128, .f32⟩
  | 6 => ⟨S100001x128, .f32⟩
  | 7 => ⟨S100001x128, .f32⟩
  | 8 => ⟨S512x512, .f32⟩
  | 9 => ⟨S512, .f32⟩
  | 10 => ⟨S256x512, .f32⟩
  | 11 => ⟨S256, .f32⟩
  | 12 => ⟨S128x256, .f32⟩
  | 13 => ⟨S128, .f32⟩
  | 14 => ⟨S64x128, .f32⟩
  | 15 => ⟨S64, .f32⟩
  | 16 => ⟨S1x64, .f32⟩
  | 17 => ⟨S1, .f32⟩
  | 18 => ⟨S_, .i32⟩
  | 19 => ⟨S_, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S_, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S_, .i32⟩
  | 36 => ⟨S_, .i32⟩
  | 37 => ⟨S16384, .i32⟩
  | 38 => ⟨S16384, .i32⟩
  | 39 => ⟨S_, .i32⟩
  | 40 => ⟨S16384, .i32⟩
  | 41 => ⟨S16384, .i32⟩
  | 42 => ⟨S_, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x128, .f32⟩
  | 69 => ⟨S16384x128, .i1⟩
  | 70 => ⟨S_, .f32⟩
  | 71 => ⟨S16384x128, .f32⟩
  | 72 => ⟨S16384x128, .f32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x128, .f32⟩
  | 92 => ⟨S16384x128, .i1⟩
  | 93 => ⟨S_, .f32⟩
  | 94 => ⟨S16384x128, .f32⟩
  | 95 => ⟨S16384x128, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S1, .i32⟩
  | 105 => ⟨S_, .i32⟩
  | 106 => ⟨S16384x1, .i32⟩
  | 107 => ⟨S16384x1, .i1⟩
  | 108 => ⟨S1x1, .i32⟩
  | 109 => ⟨S16384x1, .i32⟩
  | 110 => ⟨S16384x1, .i1⟩
  | 111 => ⟨S16384x1, .i1⟩
  | 112 => ⟨S_, .i1⟩
  | 113 => ⟨S16384, .i1⟩
  | 114 => ⟨S16384x128, .f32⟩
  | 115 => ⟨S16384x128, .i1⟩
  | 116 => ⟨S_, .f32⟩
  | 117 => ⟨S16384x128, .f32⟩
  | 118 => ⟨S16384x128, .f32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S1, .i32⟩
  | _ => ⟨S16384, .i32⟩

abbrev hbmTy0_1 (i : Nat) : BufTy := match i % 128 with
  | 0 => ⟨S_, .i32⟩
  | 1 => ⟨S16384x1, .i32⟩
  | 2 => ⟨S16384x1, .i1⟩
  | 3 => ⟨S1x1, .i32⟩
  | 4 => ⟨S16384x1, .i32⟩
  | 5 => ⟨S16384x1, .i1⟩
  | 6 => ⟨S16384x1, .i1⟩
  | 7 => ⟨S_, .i1⟩
  | 8 => ⟨S16384, .i1⟩
  | 9 => ⟨S16384x128, .f32⟩
  | 10 => ⟨S16384x128, .i1⟩
  | 11 => ⟨S_, .f32⟩
  | 12 => ⟨S16384x128, .f32⟩
  | 13 => ⟨S16384x128, .f32⟩
  | 14 => ⟨S16384x512, .f32⟩
  | 15 => ⟨S512x512, .f32⟩
  | 16 => ⟨S16384x512, .f32⟩
  | 17 => ⟨S1x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S512x256, .f32⟩
  | 24 => ⟨S16384x256, .f32⟩
  | 25 => ⟨S1x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S256x128, .f32⟩
  | 32 => ⟨S16384x128, .f32⟩
  | 33 => ⟨S1x128, .f32⟩
  | 34 => ⟨S16384x128, .f32⟩
  | 35 => ⟨S16384x128, .f32⟩
  | 36 => ⟨S_, .f32⟩
  | 37 => ⟨S16384x128, .f32⟩
  | 38 => ⟨S16384x128, .f32⟩
  | 39 => ⟨S128x64, .f32⟩
  | 40 => ⟨S16384x64, .f32⟩
  | 41 => ⟨S1x64, .f32⟩
  | 42 => ⟨S16384x64, .f32⟩
  | 43 => ⟨S16384x64, .f32⟩
  | 44 => ⟨S_, .f32⟩
  | 45 => ⟨S16384x64, .f32⟩
  | 46 => ⟨S16384x64, .f32⟩
  | 47 => ⟨S64x1, .f32⟩
  | 48 => ⟨S16384x1, .f32⟩
  | 49 => ⟨S1x1, .f32⟩
  | 50 => ⟨S16384x1, .f32⟩
  | 51 => ⟨S16384x1, .f32⟩
  | 52 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v0 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v1 : Ref sig .tc := ⟨.hbm, 33, rfl⟩
abbrev main_c_3 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v2 : Ref sig .tc := ⟨.hbm, 41, rfl⟩
abbrev main_c_5 : Ref sig .tc := ⟨.hbm, 42, rfl⟩
abbrev main_c_6 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v3 : Ref sig .tc := ⟨.hbm, 49, rfl⟩
abbrev main_call4_c : Ref sig .tc := ⟨.hbm, 50, rfl⟩
abbrev main_call4_v0 : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_c_1 : Ref sig .tc := ⟨.hbm, 58, rfl⟩
abbrev main_call4_c_2 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_c_3 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_call4_cst : Ref sig .tc := ⟨.hbm, 70, rfl⟩
abbrev main_call4_v15 : Ref sig .tc := ⟨.hbm, 71, rfl⟩
abbrev main_v4 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_call5_c_0 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_c_1 : Ref sig .tc := ⟨.hbm, 81, rfl⟩
abbrev main_call5_c_2 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_3 : Ref sig .tc := ⟨.hbm, 89, rfl⟩
abbrev main_call5_v12 : Ref sig .tc := ⟨.hbm, 90, rfl⟩
abbrev main_call5_v13 : Ref sig .tc := ⟨.hbm, 91, rfl⟩
abbrev main_call5_v14 : Ref sig .tc := ⟨.hbm, 92, rfl⟩
abbrev main_call5_cst : Ref sig .tc := ⟨.hbm, 93, rfl⟩
abbrev main_call5_v15 : Ref sig .tc := ⟨.hbm, 94, rfl⟩
abbrev main_v5 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_c_1 : Ref sig .tc := ⟨.hbm, 104, rfl⟩
abbrev main_call6_c_2 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_3 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_call6_cst : Ref sig .tc := ⟨.hbm, 116, rfl⟩
abbrev main_call6_v15 : Ref sig .tc := ⟨.hbm, 117, rfl⟩
abbrev main_v6 : Ref sig .tc := ⟨.hbm, 118, rfl⟩
abbrev main_call7_c : Ref sig .tc := ⟨.hbm, 119, rfl⟩
abbrev main_call7_v0 : Ref sig .tc := ⟨.hbm, 120, rfl⟩
abbrev main_call7_v1 : Ref sig .tc := ⟨.hbm, 121, rfl⟩
abbrev main_call7_c_0 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_c_1 : Ref sig .tc := ⟨.hbm, 127, rfl⟩
abbrev main_call7_c_2 : Ref sig .tc := ⟨.hbm, 128, rfl⟩
abbrev main_call7_v6 : Ref sig .tc := ⟨.hbm, 129, rfl⟩
abbrev main_call7_v7 : Ref sig .tc := ⟨.hbm, 130, rfl⟩
abbrev main_call7_v8 : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_3 : Ref sig .tc := ⟨.hbm, 135, rfl⟩
abbrev main_call7_v12 : Ref sig .tc := ⟨.hbm, 136, rfl⟩
abbrev main_call7_v13 : Ref sig .tc := ⟨.hbm, 137, rfl⟩
abbrev main_call7_v14 : Ref sig .tc := ⟨.hbm, 138, rfl⟩
abbrev main_call7_cst : Ref sig .tc := ⟨.hbm, 139, rfl⟩
abbrev main_call7_v15 : Ref sig .tc := ⟨.hbm, 140, rfl⟩
abbrev main_v7 : Ref sig .tc := ⟨.hbm, 141, rfl⟩
abbrev main_v8 : Ref sig .tc := ⟨.hbm, 142, rfl⟩
abbrev main_v9 : Ref sig .tc := ⟨.hbm, 143, rfl⟩
abbrev main_v10 : Ref sig .tc := ⟨.hbm, 144, rfl⟩
abbrev main_v11 : Ref sig .tc := ⟨.hbm, 145, rfl⟩
abbrev main_v12 : Ref sig .tc := ⟨.hbm, 146, rfl⟩
abbrev main_v13 : Ref sig .tc := ⟨.hbm, 147, rfl⟩
abbrev main_call8_cst : Ref sig .tc := ⟨.hbm, 148, rfl⟩
abbrev main_call8_v0 : Ref sig .tc := ⟨.hbm, 149, rfl⟩
abbrev main_v14 : Ref sig .tc := ⟨.hbm, 150, rfl⟩
abbrev main_v15 : Ref sig .tc := ⟨.hbm, 151, rfl⟩
abbrev main_v16 : Ref sig .tc := ⟨.hbm, 152, rfl⟩
abbrev main_v17 : Ref sig .tc := ⟨.hbm, 153, rfl⟩
abbrev main_v18 : Ref sig .tc := ⟨.hbm, 154, rfl⟩
abbrev main_v19 : Ref sig .tc := ⟨.hbm, 155, rfl⟩
abbrev main_call9_cst : Ref sig .tc := ⟨.hbm, 156, rfl⟩
abbrev main_call9_v0 : Ref sig .tc := ⟨.hbm, 157, rfl⟩
abbrev main_v20 : Ref sig .tc := ⟨.hbm, 158, rfl⟩
abbrev main_v21 : Ref sig .tc := ⟨.hbm, 159, rfl⟩
abbrev main_v22 : Ref sig .tc := ⟨.hbm, 160, rfl⟩
abbrev main_v23 : Ref sig .tc := ⟨.hbm, 161, rfl⟩
abbrev main_v24 : Ref sig .tc := ⟨.hbm, 162, rfl⟩
abbrev main_v25 : Ref sig .tc := ⟨.hbm, 163, rfl⟩
abbrev main_call10_cst : Ref sig .tc := ⟨.hbm, 164, rfl⟩
abbrev main_call10_v0 : Ref sig .tc := ⟨.hbm, 165, rfl⟩
abbrev main_v26 : Ref sig .tc := ⟨.hbm, 166, rfl⟩
abbrev main_v27 : Ref sig .tc := ⟨.hbm, 167, rfl⟩
abbrev main_v28 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_call11_cst : Ref sig .tc := ⟨.hbm, 172, rfl⟩
abbrev main_call11_v0 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩
abbrev main_v38 : Ref sig .tc := ⟨.hbm, 180, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x128_S16384x128_S16384x512_d1 : Shape.Concatenates [S16384x128, S16384x128, S16384x128, S16384x128] S16384x512 1
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  shapeCasts_S16384x1_S16384 : S16384x1.ShapeCasts S16384
  gather_S100001x128_S16384x1_S16384x128_1_0_n_n_0_1_1128_wf : GatherDims.WF S100001x128 S16384x1 S16384x128 [1] [0] [] [0] [] 1 ![1, 128]
  dot_S16384x512_S512x512_S16384x512_1_0_0_1_n_n_wf : DotDims.WF S16384x512 S512x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S100001x128_S16384x1_S16384x128_1_0_n_n_0_1_1128 : GatherDims S100001x128 S16384x1 S16384x128 where
  offsetDims := [1]
  collapsedSliceDims := [0]
  operandBatchingDims := []
  startIndicesBatchingDims := []
  startIndexMap := [0]
  indexVectorDim := 1
  sliceSizes := ![1, 128]
  wf := gather_S100001x128_S16384x1_S16384x128_1_0_n_n_0_1_1128_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.ScSetup.lean ====
/-
  The kernel program as the SparseCore launch sees it, and what travels in its handshakes.

  The program makes two SparseCore calls, one per half of the 16384 examples. In each, vector subcore `i` of
  SparseCore `c` is worker `w = 2 i + c` of 32 and owns examples `[256 w, 256 w + 256)` of its half: it reads those
  rows of the four index slices, gathers the rows they name out of the four tables, and writes them side by side into
  rows `[256 w, 256 w + 256)` of the half's 8192 × 512 feature array. So a call's feature array ends, at row `r` and
  column `k`, at column `k mod 128` of row `idx_{k / 128}[r]` of table `k / 128` (`gout`), whatever the order in
  which the workers and the transfer engine proceed: the workers' row strips are disjoint, the index slices and the
  tables are only read.
-/
import proofs.«212020_g4707284156877_cont_8to1c4_553_54_alg».proof.Defs
import proofs.«212020_g4707284156877_cont_8to1c4_553_54_alg».proof.Proof.Gen.KernelIdeal
import proofs.«212020_g4707284156877_cont_8to1c4_553_54_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-! ## The launch memory, the arrays, the workers' strips -/

variable (m : (ℓ : Loc nD τ sig) → Buf (Elt F) ℓ) (ρ : Dev nD → PrngReg)

/-- The TensorCore thread of device `d`: @main's arrays are its. -/
abbrev TT (d : Dev nD) : Thread nD τ := SparseCore.T d

/-- The four index arguments and the four tables at the launch contents. -/
def argI (d : Dev nD) : Fin 4 → S16384.Idx → BitVec 32 :=
  ![m ((TT d).loc main_arg0), m ((TT d).loc main_arg1), m ((TT d).loc main_arg2), m ((TT d).loc main_arg3)]
def tabOf (d : Dev nD) : Fin 4 → S100001x128.Idx → Elt F .f32 :=
  ![m ((TT d).loc main_arg4), m ((TT d).loc main_arg5), m ((TT d).loc main_arg6), m ((TT d).loc main_arg7)]
/-- The two calls' feature arrays at the launch contents. -/
def feat0 (d : Dev nD) : Fin 2 → S8192x512.Idx → Elt F .f32 := ![m ((TT d).loc main_v4), m ((TT d).loc main_v19)]

/-- What every proof here asks of the launch memory: each index word names a row of its table (the certificate's
    precondition gives `≤ 99999`). -/
def PreOK : Prop := ∀ (d : Dev nD) (k : Fin 4) (j : S16384.Idx), (argI m d k j).toNat ≤ 99999

/-- Half `q` of an index array: words `[8192 q, 8192 q + 8192)`. -/
def half (q : Fin 2) (a : S16384.Idx → BitVec 32) : S8192.Idx → BitVec 32 :=
  fun j => a (ix1 ⟨8192 * q.val + (j 0).val, by have h1 : (j 0).val < 8192 := (j 0).isLt; have := q.isLt; omega⟩)

/-- Column `col` of the row of table `e` that word `r` of the index slice `i` names (clamped to the table's last row,
    which no word under `PreOK` exceeds). -/
def gat (i : S8192.Idx → BitVec 32) (e : S100001x128.Idx → Elt F .f32) (r : Fin 8192) (col : Fin 128) : Elt F .f32 :=
  e (ix2 ⟨min (i (ix1 r)).toNat 100000, by omega⟩ col)

/-- A call's feature array: the four gathered rows side by side. -/
def gout (i : Fin 4 → S8192.Idx → BitVec 32) (e : Fin 4 → S100001x128.Idx → Elt F .f32) : S8192x512.Idx → Elt F .f32 :=
  fun j =>
    have h1 : (j 1).val < 512 := (j 1).isLt
    have h0 : (j 0).val < 8192 := (j 0).isLt
    gat (i ⟨(j 1).val / 128, by omega⟩) (e ⟨(j 1).val / 128, by omega⟩) ⟨(j 0).val, h0⟩ ⟨(j 1).val % 128, Nat.mod_lt _ (by decide)⟩

/-- The index slices call `q` reads, and its feature array's value, as functions of the launch memory. -/
def idxOf (d : Dev nD) (q : Fin 2) (k : Fin 4) : S8192.Idx → BitVec 32 := half q (argI m d k)
def featOf (d : Dev nD) (q : Fin 2) : S8192x512.Idx → Elt F .f32 := gout (idxOf m d q) (tabOf m d)

/-- Worker `w` of 32 owns rows `[256 w, 256 w + 256)` of a feature array. -/
theorem odiv : 32 ∣ S8192x512.size 0 := ⟨256, rfl⟩
abbrev orow (w : Fin 32) : Rect S8192x512 := Rect.part (s := S8192x512) (a₀ := 0) odiv w
abbrev oRowSet (w : Fin 32) : Finset S8192x512.Idx := (orow w).set
/-- Vector subcore `i` of SparseCore `c` is worker `2 i + c`. -/
def wid (c : Fin 2) (i : Fin 16) : Fin 32 := ⟨2 * i.val + c.val, by omega⟩

/-- The read shares: SparseCore `c`'s of an array the call only reads, and vector subcore `i`'s of that. -/
abbrev shC (c : Fin 2) : PosShare TreeShare := Transfers.shareTok fullShare 2 c
abbrev shV (c : Fin 2) (i : Fin 16) : PosShare TreeShare := Transfers.shareTok (shC c) 16 i

variable [FloatOps F]

/-- Index slice `k` of call `q` at the contents the host slices left, at share `s`. -/
def slicePts (d : Dev nD) (s : PosShare TreeShare) : Fin 2 → Fin 4 → sProp 𝕄 :=
  ![![((TT d).loc main_v0 ↦{s} idxOf m d 0 0), ((TT d).loc main_v1 ↦{s} idxOf m d 0 1),
      ((TT d).loc main_v2 ↦{s} idxOf m d 0 2), ((TT d).loc main_v3 ↦{s} idxOf m d 0 3)],
    ![((TT d).loc main_v15 ↦{s} idxOf m d 1 0), ((TT d).loc main_v16 ↦{s} idxOf m d 1 1),
      ((TT d).loc main_v17 ↦{s} idxOf m d 1 2), ((TT d).loc main_v18 ↦{s} idxOf m d 1 3)]]
/-- Table `k` at the launch contents, at share `s`. -/
def tabPts (d : Dev nD) (s : PosShare TreeShare) : Fin 4 → sProp 𝕄 :=
  ![((TT d).loc main_arg4 ↦{s} tabOf m d 0), ((TT d).loc main_arg5 ↦{s} tabOf m d 1),
    ((TT d).loc main_arg6 ↦{s} tabOf m d 2), ((TT d).loc main_arg7 ↦{s} tabOf m d 3)]
/-- Worker `w`'s strip of call `q`'s feature array at the contents `f`. -/
def stripPts (d : Dev nD) (w : Fin 32) (f : S8192x512.Idx → Elt F .f32) : Fin 2 → sProp 𝕄 :=
  ![((TT d).loc main_v4 ↦[oRowSet w]{fullShare} f), ((TT d).loc main_v19 ↦[oRowSet w]{fullShare} f)]

/-- What the reads of call `q` hold at share `s`: the four slices and the four tables. -/
def readsPts (d : Dev nD) (q : Fin 2) (s : PosShare TreeShare) : sProp 𝕄 :=
  iprop((bigSep Finset.univ fun k : Fin 4 => slicePts m d s q k) ∗ bigSep Finset.univ fun k : Fin 4 => tabPts m d s k)

/-- A task's operands, and its results: its read shares, and its strip at the launch contents, then at the gathered rows. -/
def goAt (d : Dev nD) (q : Fin 2) (c : Fin 2) (i : Fin 16) : sProp 𝕄 :=
  iprop(readsPts m d q (shV c i) ∗ stripPts d (wid c i) (feat0 m d q) q)
def tdAt (d : Dev nD) (q : Fin 2) (c : Fin 2) (i : Fin 16) : sProp 𝕄 :=
  iprop(readsPts m d q (shV c i) ∗ stripPts d (wid c i) (featOf m d q) q)
/-- A SparseCore's operands and results: its read shares and its sixteen workers' strips. -/
def stAt (d : Dev nD) (q : Fin 2) (c : Fin 2) : sProp 𝕄 :=
  iprop(readsPts m d q (shC c) ∗ bigSep Finset.univ fun i : Fin 16 => stripPts d (wid c i) (feat0 m d q) q)
def dnAt (d : Dev nD) (q : Fin 2) (c : Fin 2) : sProp 𝕄 :=
  iprop(readsPts m d q (shC c) ∗ bigSep Finset.univ fun i : Fin 16 => stripPts d (wid c i) (featOf m d q) q)

/-- What the handshakes carry. -/
def P : (K (F := F)).Pay (nD := nD) (Val := Elt F) (Name := ℕ) (U := UU) where
  st := fun q d c => stAt m d q (Fin.cast (nCore_eq q) c)
  dn := fun q d c => dnAt m d q (Fin.cast (nCore_eq q) c)
  go := fun q d c i => goAt m d q (Fin.cast (nCore_eq q) c) (Fin.cast (nSub_eq q) i)
  td := fun q d c i => tdAt m d q (Fin.cast (nCore_eq q) c) (Fin.cast (nSub_eq q) i)
  x := fun _ _ => iprop(emp)

end Cert.KernelIdeal.Sc

end
-- ==== Proof.ScLaunchA.lean ====
/-
  The launch's fixed facts about the two SparseCore calls, and how a SparseCore's operands split among its sixteen
  workers: every array a call only reads (the four index slices, the four tables) goes out as sixteen read shares of
  the SparseCore's own share, the remainder of that share waiting for them; the sixteen row strips of the feature
  array the SparseCore owns go to their workers outright. At the end the read shares join again and the strips come
  back written.
-/
import proofs.«212020_g4707284156877_cont_8to1c4_553_54_alg».proof.Proof.ScSetup

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) [FloatOps F]

/-- Two pairs regrouped crosswise. -/
theorem sep4 {M : Type} [URA M] (A B C D : sProp M) : iprop((A ∗ B) ∗ (C ∗ D)) = iprop((A ∗ C) ∗ (B ∗ D)) := by
  have h1 : iprop((A ∗ B) ∗ (C ∗ D)) ⊢ iprop((A ∗ C) ∗ (B ∗ D)) := by
    iintro ⟨⟨Ha, Hb⟩, ⟨Hc, Hd⟩⟩
    isplitl [Ha Hc]
    · isplitl [Ha]; · iexact Ha
      iexact Hc
    isplitl [Hb]; · iexact Hb
    iexact Hd
  have h2 : iprop((A ∗ C) ∗ (B ∗ D)) ⊢ iprop((A ∗ B) ∗ (C ∗ D)) := by
    iintro ⟨⟨Ha, Hc⟩, ⟨Hb, Hd⟩⟩
    isplitl [Ha Hb]
    · isplitl [Ha]; · iexact Ha
      iexact Hb
    isplitl [Hc]; · iexact Hc
    iexact Hd
  exact BI.Entails.antisymm h1 h2

/-! ## A read share into sixteen and back -/

theorem slicePts_split (d : Dev nD) (s : PosShare TreeShare) (q : Fin 2) (k : Fin 4) :
    (slicePts m d s q k : sProp 𝕄) = iprop(slicePts m d (Transfers.shareDrop s 16) q k ∗ bigSep Finset.univ fun i : Fin 16 => slicePts m d (Transfers.shareTok s 16 i) q k) := by
  fin_cases q <;> fin_cases k <;> exact BI.Entails.antisymm (Transfers.pointsTo_toks_split _ 16) (Transfers.pointsTo_toks_join _ 16)

theorem tabPts_split (d : Dev nD) (s : PosShare TreeShare) (k : Fin 4) :
    (tabPts m d s k : sProp 𝕄) = iprop(tabPts m d (Transfers.shareDrop s 16) k ∗ bigSep Finset.univ fun i : Fin 16 => tabPts m d (Transfers.shareTok s 16 i) k) := by
  fin_cases k <;> exact BI.Entails.antisymm (Transfers.pointsTo_toks_split _ 16) (Transfers.pointsTo_toks_join _ 16)

/-- All eight read arrays of a call at once. -/
theorem readsPts_split (d : Dev nD) (q : Fin 2) (s : PosShare TreeShare) :
    (readsPts m d q s : sProp 𝕄) = iprop(readsPts m d q (Transfers.shareDrop s 16) ∗ bigSep Finset.univ fun i : Fin 16 => readsPts m d q (Transfers.shareTok s 16 i)) := by
  unfold readsPts
  rw [bigSep_congr (fun k _ => slicePts_split m d s q k), bigSep_congr (fun k _ => tabPts_split m d s k),
    bigSep_sep', bigSep_sep', bigSep_sep',
    bigSep_univ_comm (fun (k : Fin 4) (i : Fin 16) => slicePts m d (Transfers.shareTok s 16 i) q k),
    bigSep_univ_comm (fun (k : Fin 4) (i : Fin 16) => tabPts m d (Transfers.shareTok s 16 i) k)]
  exact sep4 _ _ _ _

/-! ## A SparseCore's operands to its workers, and their results back -/

/-- The split over sixteen workers named by their numbers. -/
theorem split16 (d : Dev nD) (q : Fin 2) (c : Fin 2) :
    (stAt m d q c : sProp 𝕄) ⊢ |={Set.univ}=> iprop((bigSep Finset.univ fun i : Fin 16 => goAt m d q c i)
      ∗ ((bigSep Finset.univ fun i : Fin 16 => tdAt m d q c i) -∗ dnAt m d q c)) := by
  unfold stAt goAt tdAt dnAt
  rw [bigSep_sep', bigSep_sep', readsPts_split m d q (shC c)]
  iintro ⟨⟨Hd, Ht⟩, Hs⟩
  imodintro
  isplitl [Ht Hs]
  · isplitl [Ht]; · iexact Ht
    iexact Hs
  iintro ⟨Ht, Hs⟩
  isplitl [Hd Ht]
  · isplitl [Hd]; · iexact Hd
    iexact Ht
  iexact Hs

omit [FloatOps F] in
theorem bigSep_tasks (q : Fin 2) (Φ : Fin 16 → sProp 𝕄) :
    (bigSep Finset.univ fun i : Fin ((K (F := F)).nSub q) => Φ (Fin.cast (nSub_eq q) i)) = bigSep Finset.univ Φ := by
  fin_cases q <;> exact bigSep_congr fun _ _ => congrArg Φ (Fin.ext rfl)

theorem vecSplit (q : Fin 2) : (K (F := F)).VecSplit' (P m) q := by
  intro d c
  show stAt m d q (Fin.cast (nCore_eq q) c) ⊢ |={Set.univ}=> iprop(
      (bigSep Finset.univ fun i : Fin ((K (F := F)).nSub q) => goAt m d q (Fin.cast (nCore_eq q) c) (Fin.cast (nSub_eq q) i))
      ∗ ((bigSep Finset.univ fun i : Fin ((K (F := F)).nSub q) => tdAt m d q (Fin.cast (nCore_eq q) c) (Fin.cast (nSub_eq q) i))
          -∗ dnAt m d q (Fin.cast (nCore_eq q) c)))
  rw [bigSep_tasks (F := F) q (fun i => goAt m d q (Fin.cast (nCore_eq q) c) i),
    bigSep_tasks (F := F) q (fun i => tdAt m d q (Fin.cast (nCore_eq q) c) i)]
  exact split16 m d q _

end Cert.KernelIdeal.Sc

end
-- ==== Proof.ScLaunchB.lean ====
/-
  A SparseCore call's arrays, held whole by the TensorCore, are the two SparseCores' operands and a remainder: each
  read array's full share is a remainder and one read share per SparseCore; the feature array is its thirty-two row
  strips, sixteen per SparseCore (worker `2 i + c` is vector subcore `i` of SparseCore `c`).
-/
import proofs.«212020_g4707284156877_cont_8to1c4_553_54_alg».proof.Proof.ScLaunchA

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable (m : (ℓ : Loc nD τ sig) → Buf (Elt F) ℓ) [FloatOps F]

/-! ## The read arrays: a full share into a remainder and two -/

theorem slicePts_split2 (d : Dev nD) (s : PosShare TreeShare) (q : Fin 2) (k : Fin 4) :
    (slicePts m d s q k : sProp 𝕄) = iprop(slicePts m d (Transfers.shareDrop s 2) q k ∗ bigSep Finset.univ fun c : Fin 2 => slicePts m d (Transfers.shareTok s 2 c) q k) := by
  fin_cases q <;> fin_cases k <;> exact BI.Entails.antisymm (Transfers.pointsTo_toks_split _ 2) (Transfers.pointsTo_toks_join _ 2)

theorem tabPts_split2 (d : Dev nD) (s : PosShare TreeShare) (k : Fin 4) :
    (tabPts m d s k : sProp 𝕄) = iprop(tabPts m d (Transfers.shareDrop s 2) k ∗ bigSep Finset.univ fun c : Fin 2 => tabPts m d (Transfers.shareTok s 2 c) k) := by
  fin_cases k <;> exact BI.Entails.antisymm (Transfers.pointsTo_toks_split _ 2) (Transfers.pointsTo_toks_join _ 2)

theorem readsPts_split2 (d : Dev nD) (q : Fin 2) (s : PosShare TreeShare) :
    (readsPts m d q s : sProp 𝕄) = iprop(readsPts m d q (Transfers.shareDrop s 2) ∗ bigSep Finset.univ fun c : Fin 2 => readsPts m d q (Transfers.shareTok s 2 c)) := by
  unfold readsPts
  rw [bigSep_congr (fun k _ => slicePts_split2 m d s q k), bigSep_congr (fun k _ => tabPts_split2 m d s k),
    bigSep_sep', bigSep_sep', bigSep_sep',
    bigSep_univ_comm (fun (k : Fin 4) (c : Fin 2) => slicePts m d (Transfers.shareTok s 2 c) q k),
    bigSep_univ_comm (fun (k : Fin 4) (c : Fin 2) => tabPts m d (Transfers.shareTok s 2 c) k)]
  exact sep4 _ _ _ _

/-! ## The feature array: thirty-two strips, sixteen per SparseCore -/

/-- A call's feature array whole at the contents `f`. -/
def featPts (d : Dev nD) (f : S8192x512.Idx → Elt F .f32) : Fin 2 → sProp 𝕄 :=
  ![((TT d).loc main_v4 ↦{fullShare} f), ((TT d).loc main_v19 ↦{fullShare} f)]

omit [FloatOps F] in
theorem strips_disjoint : ∀ w ∈ (Finset.univ : Finset (Fin 32)), ∀ w' ∈ (Finset.univ : Finset (Fin 32)), w ≠ w' → Disjoint (oRowSet w) (oRowSet w') :=
  fun _ _ _ _ h => Rect.part_disjoint odiv h
omit [FloatOps F] in
theorem strips_cover : (Finset.univ : Finset (Fin 32)).biUnion oRowSet = Finset.univ := Rect.biUnion_part odiv

omit [FloatOps F] in
/-- The array is its thirty-two strips. -/
theorem featPts_strips (d : Dev nD) (f : S8192x512.Idx → Elt F .f32) (q : Fin 2) :
    (featPts d f q : sProp 𝕄) = bigSep Finset.univ fun w : Fin 32 => stripPts d w f q := by
  fin_cases q
  · show ((TT d).loc main_v4 ↦{fullShare} f : sProp 𝕄) = bigSep Finset.univ fun w : Fin 32 => (TT d).loc main_v4 ↦[oRowSet w]{fullShare} f
    rw [← pointsTo_biUnion Finset.univ (ℓ := (TT d).loc main_v4) oRowSet strips_disjoint, strips_cover]; try rfl
  · show ((TT d).loc main_v19 ↦{fullShare} f : sProp 𝕄) = bigSep Finset.univ fun w : Fin 32 => (TT d).loc main_v19 ↦[oRowSet w]{fullShare} f
    rw [← pointsTo_biUnion Finset.univ (ℓ := (TT d).loc main_v19) oRowSet strips_disjoint, strips_cover]; try rfl

omit [FloatOps F] in
/-- Thirty-two workers are two SparseCores' sixteen. -/
theorem bigSep_workers (Φ : Fin 32 → sProp 𝕄) :
    bigSep Finset.univ Φ = bigSep Finset.univ fun c : Fin 2 => bigSep Finset.univ fun i : Fin 16 => Φ (wid c i) := by
  rw [bigSep_univ_comm (fun (c : Fin 2) (i : Fin 16) => Φ (wid c i)),
    bigSep_univ_equiv (finProdFinEquiv : Fin 16 × Fin 2 ≃ Fin 32) Φ, bigSep_univ_prod]
  refine bigSep_congr fun i _ => bigSep_congr fun c _ => congrArg Φ (Fin.ext ?_)
  simp [wid, finProdFinEquiv]; omega

/-! ## The call's arrays, to the SparseCores and back -/

/-- The arrays of call `q` held whole, the feature array at `f`, are the read arrays' remainder and the two SparseCores'
    operands with their strips at `f`. -/
theorem callRes_eq (d : Dev nD) (q : Fin 2) (f : S8192x512.Idx → Elt F .f32) :
    (iprop(readsPts m d q fullShare ∗ featPts d f q) : sProp 𝕄)
      = iprop(readsPts m d q (Transfers.shareDrop fullShare 2)
          ∗ bigSep Finset.univ fun c : Fin 2 => iprop(readsPts m d q (shC c) ∗ bigSep Finset.univ fun i : Fin 16 => stripPts d (wid c i) f q)) := by
  rw [readsPts_split2 m d q fullShare, featPts_strips d f q, bigSep_workers (F := F) (fun w => stripPts d w f q), bigSep_sep']
  refine BI.Entails.antisymm ?_ ?_
  · exact BI.sep_assoc
  · exact BI.sep_assoc'

end Cert.KernelIdeal.Sc

end
-- ==== Proof.ScMainOps.lean ====
/-
  @main of the kernel program, read as five straight lines of host operations around two SparseCore calls and two
  TensorCore regions: slice the four index arrays' first halves; gather (call 0); cast the weights and reshape the
  biases; the perceptron on the first half (region 0); the same four steps for the second halves; concatenate the two
  halves' predictions.
-/
import proofs.«212020_g4707284156877_cont_8to1c4_553_54_alg».proof.Proof.ScSetup

noncomputable section

namespace Cert.KernelIdeal.Sc

open Cert.KernelIdeal Cert.KernelIdeal.Gen

open Idealize.ShloMosaic Idealize.ShloMosaic.ValueIdx
open Idealize.SL Idealize.SL.Sem

variable {F : FTy → Type} [FloatOps F]

/-- The first halves of the four index arrays. -/
abbrev opsA : List (HloOp τ sig (Elt F)) :=
  [(StableHlo.unary main_arg0 main_v0 ((extractStridedSlice S8192 ![0] · slices_S16384_S8192_0) : (⟨S16384, .i32⟩ : BufTy).Contents (Elt F) → (⟨S8192, .i32⟩ : BufTy).Contents (Elt F))),
    (StableHlo.unary main_arg1 main_v1 ((extractStridedSlice S8192 ![0] · slices_S16384_S8192_0) : (⟨S16384, .i32⟩ : BufTy).Contents (Elt F) → (⟨S8192, .i32⟩ : BufTy).Contents (Elt F))),
    (StableHlo.unary main_arg2 main_v2 ((extractStridedSlice S8192 ![0] · slices_S16384_S8192_0) : (⟨S16384, .i32⟩ : BufTy).Contents (Elt F) → (⟨S8192, .i32⟩ : BufTy).Contents (Elt F))),
    (StableHlo.unary main_arg3 main_v3 ((extractStridedSlice S8192 ![0] · slices_S16384_S8192_0) : (⟨S16384, .i32⟩ : BufTy).Contents (Elt F) → (⟨S8192, .i32⟩ : BufTy).Contents (Elt F)))]
/-- The weights cast, the biases reshaped, for region 0. -/
abbrev opsB : List (HloOp τ sig (Elt F)) :=
  [(StableHlo.unary main_arg8 main_v5 ((truncf .bf16 · bitsLt_bf16_f32) : (⟨S512x512, .f32⟩ : BufTy).Contents (Elt F) → (⟨S512x512, .bf16⟩ : BufTy).Contents (Elt F))),
    (StableHlo.reshape main_arg9 main_v6 rfl shapeCasts_S512_S1x512),
    (StableHlo.unary main_arg10 main_v7 ((truncf .bf16 · bitsLt_bf16_f32) : (⟨S256x512, .f32⟩ : BufTy).Contents (Elt F) → (⟨S256x512, .bf16⟩ : BufTy).Contents (Elt F))),
    (StableHlo.reshape main_arg11 main_v8 rfl shapeCasts_S256_S1x256),
    (StableHlo.unary main_arg12 main_v9 ((truncf .bf16 · bitsLt_bf16_f32) : (⟨S128x256, .f32⟩ : BufTy).Contents (Elt F) → (⟨S128x256, .bf16⟩ : BufTy).Contents (Elt F))),
    (StableHlo.reshape main_arg13 main_v10 rfl shapeCasts_S128_S1x128),
    (StableHlo.unary main_arg14 main_v11 ((truncf .bf16 · bitsLt_bf16_f32) : (⟨S64x128, .f32⟩ : BufTy).Contents (Elt F) → (⟨S64x128, .bf16⟩ : BufTy).Contents (Elt F))),
    (StableHlo.reshape main_arg15 main_v12 rfl shapeCasts_S64_S1x64),
    (StableHlo.reshape main_arg17 main_v13 rfl shapeCasts_S1_S1x1)]
/-- The second halves of the four index arrays. -/
abbrev opsC : List (HloOp τ sig (Elt F)) :=
  [(StableHlo.unary main_arg0 main_v15 ((extractStridedSlice S8192 ![8192] · slices_S16384_S8192_8192) : (⟨S16384, .i32⟩ : BufTy).Contents (Elt F) → (⟨S8192, .i32⟩ : BufTy).Contents (Elt F))),
    (StableHlo.unary main_arg1 main_v16 ((extractStridedSlice S8192 ![8192] · slices_S16384_S8192_8192) : (⟨S16384, .i32⟩ : BufTy).Contents (Elt F) → (⟨S8192, .i32⟩ : BufTy).Contents (Elt F))),
    (StableHlo.unary main_arg2 main_v17 ((extractStridedSlice S8192 ![8192] · slices_S16384_S8192_8192) : (⟨S16384, .i32⟩ : BufTy).Contents (Elt F) → (⟨S8192, .i32⟩ : BufTy).Contents (Elt F))),
    (StableHlo.unary main_arg3 main_v18 ((extractStridedSlice S8192 ![8192] · slices_S16384_S8192_8192) : (⟨S16384, .i32⟩ : BufTy).Contents (Elt F) → (⟨S8192, .i32⟩ : BufTy).Contents (Elt F)))]
/-- The weights cast, the biases reshaped, for region 1. -/
abbrev opsD : List (HloOp τ sig (Elt F)) :=
  [(StableHlo.unary main_arg8 main_v20 ((truncf .bf16 · bitsLt_bf16_f32) : (⟨S512x512, .f32⟩ : BufTy).Contents (Elt F) → (⟨S512x512, .bf16⟩ : BufTy).Contents (Elt F))),
    (StableHlo.reshape main_arg9 main_v21 rfl shapeCasts_S512_S1x512),
    (StableHlo.unary main_arg10 main_v22 ((truncf .bf16 · bitsLt_bf16_f32) : (⟨S256x512, .f32⟩ : BufTy).Contents (Elt F) → (⟨S256x512, .bf16⟩ : BufTy).Contents (Elt F))),
    (StableHlo.reshape main_arg11 main_v23 rfl shapeCasts_S256_S1x256),
    (StableHlo.unary main_arg12 main_v24 ((truncf .bf16 · bitsLt_bf16_f32) : (⟨S128x256, .f32⟩ : BufTy).Contents (Elt F) → (⟨S128x256, .bf16⟩ : BufTy).Contents (Elt F))),
    (StableHlo.reshape main_arg13 main_v25 rfl shapeCasts_S128_S1x128),
    (StableHlo.unary main_arg14 main_v26 ((truncf .bf16 · bitsLt_bf16_f32) : (⟨S64x128, .f32⟩ : BufTy).Contents (Elt F) → (⟨S64x128, .bf16⟩ : BufTy).Contents (Elt F))),
    (StableHlo.reshape main_arg15 main_v27 rfl shapeCasts_S64_S1x64),
    (StableHlo.reshape main_arg17 main_v28 rfl shapeCasts_S1_S1x1)]
/-- The two halves' predictions joined. -/
abbrev opsE : List (HloOp τ sig (Elt F)) :=
  [(StableHlo.binary main_v14 main_v29 main_v30 ((fun a b => concatenate S16384 0 [⟨S8192, a⟩, ⟨S8192, b⟩] concatenates_S8192_S8192_S16384_d0) : (⟨S8192, .f32⟩ : BufTy).Contents (Elt F) → (⟨S8192, .f32⟩ : BufTy).Contents (Elt F) → (⟨S16384, .f32⟩ : BufTy).Contents (Elt F)))]

/-- A TensorCore region of the program, as @main spells it. -/
abbrev regionCall (p : Fin 2) : Prog (TpuEff nD τ sig (Elt F) (SparseCore.Sig (Pipeline.Sig Λ₀ (Fin 2) fun p => (pcfgs (F := F) p).Adm) 2) .tc) PUnit :=
  Prog.lift (.customCall (SparseCore.inner (Pipeline.entry p)) ())

/-- @main is the five lines, the two calls and the two regions in order. -/
theorem main_eq (d : Dev nD) :
    main (F := F) d = (StableHlo.seq opsA >>= fun _ => sc.run d 0 >>= fun _ => StableHlo.seq opsB >>= fun _ => regionCall 0 >>= fun _ =>
      StableHlo.seq opsC >>= fun _ => sc.run d 1 >>= fun _ => StableHlo.seq opsD >>= fun _ => regionCall 1 >>= fun _ =>
      StableHlo.seq opsE >>= fun _ => pure ⟨⟩) := rfl

end Cert.KernelIdeal.Sc

end
-- ==== Proof.ScVals.lean ====
/-
  The TensorCore's arrays stage by stage through @main, as functions of the launch memory: after each line of host
  operations (`StableHlo.after`), after each SparseCore call (the call's feature array rewritten to the gathered rows),
  after each TensorCore region (the region's result array rewritten to the perceptron `G` of the region's inputs).
-/
import proofs.«212020_g4707284156877_cont_8to1c4_553_54_alg».proof.Proof.ScSetup
import proofs.«212020_g4707284156877_cont_8to1c4_553_54_alg».proof.Proof.ScMainOps
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.StableHlo
open Idealize.SL Idealize.SL.Sem

variable {F : FTy → Type}

/-- The TensorCore's unscoped arrays. -/
abbrev Su : Finset (DevRef τ sig) := Pipeline.ucRefs τ sig
/-- A reference of @main as a buffer of the device. -/
abbrev rf (b : Ref sig .tc) : DevRef τ sig := Proc.devRef .tc b

omit F in
theorem rf_mem (b : Ref sig .tc) (h : (rf b).isScoped = false := by decide) : rf b ∈ Su :=
  Finset.mem_filter.mpr ⟨StableHlo.devRef_mem_tcRefs b, by rw [h]; exact Bool.false_ne_true⟩

/-- The type of a region's perceptron: from the feature array, the four cast weights and reshaped biases, the output
    row and bias, to the half's predictions. -/
abbrev MlpFn (F : FTy → Type) : Type :=
  (S8192x512.Idx → Elt F .f32) → (S512x512.Idx → Elt F .bf16) → (S1x512.Idx → Elt F .f32) → (S256x512.Idx → Elt F .bf16) → (S1x256.Idx → Elt F .f32)
    → (S128x256.Idx → Elt F .bf16) → (S1x128.Idx → Elt F .f32) → (S64x128.Idx → Elt F .bf16) → (S1x64.Idx → Elt F .f32)
    → (S1x64.Idx → Elt F .f32) → (S1x1.Idx → Elt F .f32) → S8192.Idx → Elt F .f32

variable (m : (ℓ : Loc nD τ sig) → Buf (Elt F) ℓ) [FloatOps F] (G : MlpFn F)

/-! ## The stages -/

def V0 (d : Dev nD) : Valuation τ sig (Elt F) := fun b => m (d, b)
def VA (d : Dev nD) : Valuation τ sig (Elt F) := StableHlo.after (opsA (F := F)) (V0 m d)
def VA' (d : Dev nD) : Valuation τ sig (Elt F) := Function.update (VA m d) (rf main_v4) (featOf m d 0)
def VB (d : Dev nD) : Valuation τ sig (Elt F) := StableHlo.after (opsB (F := F)) (VA' m d)
/-- Region 0's result from its eleven inputs as the line before it left them. -/
def res0 (d : Dev nD) : S8192.Idx → Elt F .f32 :=
  G (VB m d (rf main_v4)) (VB m d (rf main_v5)) (VB m d (rf main_v6)) (VB m d (rf main_v7)) (VB m d (rf main_v8)) (VB m d (rf main_v9))
    (VB m d (rf main_v10)) (VB m d (rf main_v11)) (VB m d (rf main_v12)) (VB m d (rf main_arg16)) (VB m d (rf main_v13))
def VB' (d : Dev nD) : Valuation τ sig (Elt F) := Function.update (VB m d) (rf main_v14) (res0 m G d)
def VC (d : Dev nD) : Valuation τ sig (Elt F) := StableHlo.after (opsC (F := F)) (VB' m G d)
def VC' (d : Dev nD) : Valuation τ sig (Elt F) := Function.update (VC m G d) (rf main_v19) (featOf m d 1)
def VD (d : Dev nD) : Valuation τ sig (Elt F) := StableHlo.after (opsD (F := F)) (VC' m G d)
def res1 (d : Dev nD) : S8192.Idx → Elt F .f32 :=
  G (VD m G d (rf main_v19)) (VD m G d (rf main_v20)) (VD m G d (rf main_v21)) (VD m G d (rf main_v22)) (VD m G d (rf main_v23)) (VD m G d (rf main_v24))
    (VD m G d (rf main_v25)) (VD m G d (rf main_v26)) (VD m G d (rf main_v27)) (VD m G d (rf main_arg16)) (VD m G d (rf main_v28))
def VD' (d : Dev nD) : Valuation τ sig (Elt F) := Function.update (VD m G d) (rf main_v29) (res1 m G d)
def VE (d : Dev nD) : Valuation τ sig (Elt F) := StableHlo.after (opsE (F := F)) (VD' m G d)

/-! ## The lines' operations touch unscoped arrays only, and allocate nothing -/

omit [FloatOps F] in
theorem ops_sub_of {ops : List (HloOp τ sig (Elt F))} (h : ∀ op ∈ ops, op.bufs ⊆ StableHlo.tcRefs τ sig) : ∀ op ∈ ops, op.bufs ⊆ Su :=
  fun op hop => Pipeline.sub_ucRefs op (h op hop)

theorem opsA_sub : ∀ op ∈ (opsA (F := F)), op.bufs ⊆ Su := ops_sub_of (by
  intro op hop; simp only [opsA, List.mem_cons, List.not_mem_nil, or_false] at hop
  rcases hop with rfl | rfl | rfl | rfl <;> simp)
theorem opsA_fresh : ∀ op ∈ (opsA (F := F)), op.fresh = ∅ := by
  intro op hop; simp only [opsA, List.mem_cons, List.not_mem_nil, or_false] at hop
  rcases hop with rfl | rfl | rfl | rfl <;> rfl
theorem opsB_sub : ∀ op ∈ (opsB (F := F)), op.bufs ⊆ Su := ops_sub_of (by
  intro op hop; simp only [opsB, List.mem_cons, List.not_mem_nil, or_false] at hop
  rcases hop with rfl | rfl | rfl | rfl | rfl | rfl | rfl | rfl | rfl <;> simp)
theorem opsB_fresh : ∀ op ∈ (opsB (F := F)), op.fresh = ∅ := by
  intro op hop; simp only [opsB, List.mem_cons, List.not_mem_nil, or_false] at hop
  rcases hop with rfl | rfl | rfl | rfl | rfl | rfl | rfl | rfl | rfl <;> rfl
theorem opsC_sub : ∀ op ∈ (opsC (F := F)), op.bufs ⊆ Su := ops_sub_of (by
  intro op hop; simp only [opsC, List.mem_cons, List.not_mem_nil, or_false] at hop
  rcases hop with rfl | rfl | rfl | rfl <;> simp)
theorem opsC_fresh : ∀ op ∈ (opsC (F := F)), op.fresh = ∅ := by
  intro op hop; simp only [opsC, List.mem_cons, List.not_mem_nil, or_false] at hop
  rcases hop with rfl | rfl | rfl | rfl <;> rfl
theorem opsD_sub : ∀ op ∈ (opsD (F := F)), op.bufs ⊆ Su := ops_sub_of (by
  intro op hop; simp only [opsD, List.mem_cons, List.not_mem_nil, or_false] at hop
  rcases hop with rfl | rfl | rfl | rfl | rfl | rfl | rfl | rfl | rfl <;> simp)
theorem opsD_fresh : ∀ op ∈ (opsD (F := F)), op.fresh = ∅ := by
  intro op hop; simp only [opsD, List.mem_cons, List.not_mem_nil, or_false] at hop
  rcases hop with rfl | rfl | rfl | rfl | rfl | rfl | rfl | rfl | rfl <;> rfl
theorem opsE_sub : ∀ op ∈ (opsE (F := F)), op.bufs ⊆ Su := ops_sub_of (by
  intro op hop; simp only [opsE, List.mem_cons, List.not_mem_nil, or_false] at hop
  rcases hop with rfl; simp)
theorem opsE_fresh : ∀ op ∈ (opsE (F := F)), op.fresh = ∅ := by
  intro op hop; simp only [opsE, List.mem_cons, List.not_mem_nil, or_false] at hop
  rcases hop with rfl; rfl

/-! ## A slice of an index array is its half -/

omit [FloatOps F] in
theorem slice0_eq (a : S16384.Idx → BitVec 32) : extractStridedSlice S8192 ![0] a slices_S16384_S8192_0 = half 0 a := by
  funext j; unfold extractStridedSlice half
  congr 1; funext x; match x with | ⟨0, _⟩ => exact Fin.ext (by simp)
omit [FloatOps F] in
theorem slice1_eq (a : S16384.Idx → BitVec 32) : extractStridedSlice S8192 ![8192] a slices_S16384_S8192_8192 = half 1 a := by
  funext j; unfold extractStridedSlice half
  congr 1; funext x; match x with | ⟨0, _⟩ => exact Fin.ext (by simp)

/-! ## What call 0 finds -/

theorem VA_v0 (d : Dev nD) : VA m d (rf main_v0) = idxOf m d 0 0 := by
  unfold VA; dsimp only [opsA]; after_results; exact slice0_eq _
theorem VA_v1 (d : Dev nD) : VA m d (rf main_v1) = idxOf m d 0 1 := by
  unfold VA; dsimp only [opsA]; after_results; exact slice0_eq _
theorem VA_v2 (d : Dev nD) : VA m d (rf main_v2) = idxOf m d 0 2 := by
  unfold VA; dsimp only [opsA]; after_results; exact slice0_eq _
theorem VA_v3 (d : Dev nD) : VA m d (rf main_v3) = idxOf m d 0 3 := by
  unfold VA; dsimp only [opsA]; after_results; exact slice0_eq _
theorem VA_arg4 (d : Dev nD) : VA m d (rf main_arg4) = tabOf m d 0 := by
  unfold VA; dsimp only [opsA]; after_results; rfl
theorem VA_arg5 (d : Dev nD) : VA m d (rf main_arg5) = tabOf m d 1 := by
  unfold VA; dsimp only [opsA]; after_results; rfl
theorem VA_arg6 (d : Dev nD) : VA m d (rf main_arg6) = tabOf m d 2 := by
  unfold VA; dsimp only [opsA]; after_results; rfl
theorem VA_arg7 (d : Dev nD) : VA m d (rf main_arg7) = tabOf m d 3 := by
  unfold VA; dsimp only [opsA]; after_results; rfl
theorem VA_v4 (d : Dev nD) : VA m d (rf main_v4) = feat0 m d 0 := by
  unfold VA; dsimp only [opsA]; after_results; rfl

/-! ## What a line writes, and what keeps its contents across a stage -/

abbrev WA : List (Ref sig .tc) := [main_v0, main_v1, main_v2, main_v3]
abbrev WB : List (Ref sig .tc) := [main_v5, main_v6, main_v7, main_v8, main_v9, main_v10, main_v11, main_v12, main_v13]
abbrev WC : List (Ref sig .tc) := [main_v15, main_v16, main_v17, main_v18]
abbrev WD : List (Ref sig .tc) := [main_v20, main_v21, main_v22, main_v23, main_v24, main_v25, main_v26, main_v27, main_v28]
abbrev WE : List (Ref sig .tc) := [main_v30]

theorem opsA_writes : (opsA (F := F)).Forall fun op => op.writes ⊆ (WA.map (Proc.devRef (τ := τ) .tc)).toFinset := by
  simp only [opsA, List.forall_cons, List.Forall, unary_writes, reshape_writes, binary_writes]; decide
theorem opsB_writes : (opsB (F := F)).Forall fun op => op.writes ⊆ (WB.map (Proc.devRef (τ := τ) .tc)).toFinset := by
  simp only [opsB, List.forall_cons, List.Forall, unary_writes, reshape_writes, binary_writes]; decide
theorem opsC_writes : (opsC (F := F)).Forall fun op => op.writes ⊆ (WC.map (Proc.devRef (τ := τ) .tc)).toFinset := by
  simp only [opsC, List.forall_cons, List.Forall, unary_writes, reshape_writes, binary_writes]; decide
theorem opsD_writes : (opsD (F := F)).Forall fun op => op.writes ⊆ (WD.map (Proc.devRef (τ := τ) .tc)).toFinset := by
  simp only [opsD, List.forall_cons, List.Forall, unary_writes, reshape_writes, binary_writes]; decide
theorem opsE_writes : (opsE (F := F)).Forall fun op => op.writes ⊆ (WE.map (Proc.devRef (τ := τ) .tc)).toFinset := by
  simp only [opsE, List.forall_cons, List.Forall, unary_writes, reshape_writes, binary_writes]; decide

theorem VA_keep (d : Dev nD) (r : Ref sig .tc) (h : r ∉ WA := by decide) : VA m d (rf r) = V0 m d (rf r) :=
  after_of_writes_sub _ _ opsA_writes h
theorem VA'_keep (d : Dev nD) (r : Ref sig .tc) (h : rf r ≠ rf main_v4 := by decide) : VA' m d (rf r) = VA m d (rf r) :=
  Function.update_of_ne h _ _
theorem VB_keep (d : Dev nD) (r : Ref sig .tc) (h : r ∉ WB := by decide) : VB m d (rf r) = VA' m d (rf r) :=
  after_of_writes_sub _ _ opsB_writes h
theorem VB'_keep (d : Dev nD) (r : Ref sig .tc) (h : rf r ≠ rf main_v14 := by decide) : VB' m G d (rf r) = VB m d (rf r) :=
  Function.update_of_ne h _ _
theorem VC_keep (d : Dev nD) (r : Ref sig .tc) (h : r ∉ WC := by decide) : VC m G d (rf r) = VB' m G d (rf r) :=
  after_of_writes_sub _ _ opsC_writes h
theorem VC'_keep (d : Dev nD) (r : Ref sig .tc) (h : rf r ≠ rf main_v19 := by decide) : VC' m G d (rf r) = VC m G d (rf r) :=
  Function.update_of_ne h _ _
theorem VD_keep (d : Dev nD) (r : Ref sig .tc) (h : r ∉ WD := by decide) : VD m G d (rf r) = VC' m G d (rf r) :=
  after_of_writes_sub _ _ opsD_writes h
theorem VD'_keep (d : Dev nD) (r : Ref sig .tc) (h : rf r ≠ rf main_v29 := by decide) : VD' m G d (rf r) = VD m G d (rf r) :=
  Function.update_of_ne h _ _
theorem VE_keep (d : Dev nD) (r : Ref sig .tc) (h : r ∉ WE := by decide) : VE m G d (rf r) = VD' m G d (rf r) :=
  after_of_writes_sub _ _ opsE_writes h

/-- A reference no line writes and no call or region rewrites holds its launch contents before call 1. -/
theorem VC_launch (d : Dev nD) (r : Ref sig .tc) (hA : r ∉ WA := by decide) (hB : r ∉ WB := by decide) (hC : r ∉ WC := by decide)
    (h4 : rf r ≠ rf main_v4 := by decide) (h14 : rf r ≠ rf main_v14 := by decide) : VC m G d (rf r) = V0 m d (rf r) := by
  rw [VC_keep m G d r hC, VB'_keep m G d r h14, VB_keep m d r hB, VA'_keep m d r h4, VA_keep m d r hA]

/-! ## What call 1 finds -/

theorem VC_v15 (d : Dev nD) : VC m G d (rf main_v15) = idxOf m d 1 0 := by
  unfold VC; dsimp only [opsC]; after_results
  rw [VB'_keep m G d main_arg0, VB_keep m d main_arg0, VA'_keep m d main_arg0, VA_keep m d main_arg0]; exact slice1_eq _
theorem VC_v16 (d : Dev nD) : VC m G d (rf main_v16) = idxOf m d 1 1 := by
  unfold VC; dsimp only [opsC]; after_results
  rw [VB'_keep m G d main_arg1, VB_keep m d main_arg1, VA'_keep m d main_arg1, VA_keep m d main_arg1]; exact slice1_eq _
theorem VC_v17 (d : Dev nD) : VC m G d (rf main_v17) = idxOf m d 1 2 := by
  unfold VC; dsimp only [opsC]; after_results
  rw [VB'_keep m G d main_arg2, VB_keep m d main_arg2, VA'_keep m d main_arg2, VA_keep m d main_arg2]; exact slice1_eq _
theorem VC_v18 (d : Dev nD) : VC m G d (rf main_v18) = idxOf m d 1 3 := by
  unfold VC; dsimp only [opsC]; after_results
  rw [VB'_keep m G d main_arg3, VB_keep m d main_arg3, VA'_keep m d main_arg3, VA_keep m d main_arg3]; exact slice1_eq _
theorem VC_arg4 (d : Dev nD) : VC m G d (rf main_arg4) = tabOf m d 0 := VC_launch m G d main_arg4
theorem VC_arg5 (d : Dev nD) : VC m G d (rf main_arg5) = tabOf m d 1 := VC_launch m G d main_arg5
theorem VC_arg6 (d : Dev nD) : VC m G d (rf main_arg6) = tabOf m d 2 := VC_launch m G d main_arg6
theorem VC_arg7 (d : Dev nD) : VC m G d (rf main_arg7) = tabOf m d 3 := VC_launch m G d main_arg7
theorem VC_v19 (d : Dev nD) : VC m G d (rf main_v19) = feat0 m d 1 := VC_launch m G d main_v19

end Cert.KernelIdeal.Sc

end
-- ==== Proof.ScEmb.lean ====
/-
  Where the two rounds libraries live in the certificate's ghost state, and what the TensorCore owes between calls.
-/
import proofs.«212020_g4707284156877_cont_8to1c4_553_54_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The handshakes' rounds and the staging cells' rounds in the certificate's ghost state. -/
abbrev EH : Emb UH (MT nD τ sig (HIx 2) (Elt F) ℕ UU ℕ) := embL
abbrev EP : Emb UP (MT nD τ sig (HIx 2) (Elt F) ℕ UU ℕ) := (Emb.inl : Emb UP (UP × Counters)).trans embR

/-- What the TensorCore of `d` owes before call `n` (the start signals of the calls from `n` on), its recorded waits all
    at levels at most `8 n`. -/
def owesTc (d : Dev nD) (n : ℕ) : sProp 𝕄 :=
  iprop(∃ W, ⌜(K (F := F)).WBelow (T d) W (8 * n)⌝ ∗ owes (T d) ((K (F := F)).Otc d n) W)

/-- The pairs a TensorCore's waits may have recorded before call `n`. -/
def recTc (d : Dev nD) (n : ℕ) : Set (SemLoc sig × HIx 2) := {p | (K (F := F)).lev (T d, p.1) p.2 ≤ 8 * n}

end Cert.KernelIdeal.Sc

end
-- ==== Proof.ScCall.lean ====
/-
  A SparseCore call as one step of @main: the TensorCore holds all its unscoped arrays at the stage before the call;
  the call's nine arrays go to the two SparseCores (the read arrays as shares, the feature array as strips) and come
  back with the feature array at the gathered rows; the TensorCore holds all its arrays at the stage after.
-/
import proofs.«212020_g4707284156877_cont_8to1c4_553_54_alg».proof.Proof.ScLaunchB
import proofs.«212020_g4707284156877_cont_8to1c4_553_54_alg».proof.Proof.ScVals
import proofs.«212020_g4707284156877_cont_8to1c4_553_54_alg».proof.Proof.ScEmb

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 2) (Elt F) ℕ UU ℕ

variable (m : (ℓ : Loc nD τ sig) → Buf (Elt F) ℓ) [FloatOps F]

/-! ## A call's nine arrays among the TensorCore's -/

/-- The arrays of call 0 and of call 1. -/
def R0 : Finset (DevRef τ sig) :=
  {rf main_v0, rf main_v1, rf main_v2, rf main_v3, rf main_arg4, rf main_arg5, rf main_arg6, rf main_arg7, rf main_v4}
def R1 : Finset (DevRef τ sig) :=
  {rf main_v15, rf main_v16, rf main_v17, rf main_v18, rf main_arg4, rf main_arg5, rf main_arg6, rf main_arg7, rf main_v19}

omit F [FloatOps F] in
theorem R0_sub : R0 ⊆ Su := by
  intro b hb; simp only [R0, Finset.mem_insert, Finset.mem_singleton] at hb
  rcases hb with rfl | rfl | rfl | rfl | rfl | rfl | rfl | rfl | rfl <;> exact rf_mem _
omit F [FloatOps F] in
theorem R1_sub : R1 ⊆ Su := by
  intro b hb; simp only [R1, Finset.mem_insert, Finset.mem_singleton] at hb
  rcases hb with rfl | rfl | rfl | rfl | rfl | rfl | rfl | rfl | rfl <;> exact rf_mem _

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- Nine in a row are four, four and one. -/
theorem regroup9 {M : Type} [URA M] (a0 a1 a2 a3 t0 t1 t2 t3 f : sProp M) :
    iprop(a0 ∗ a1 ∗ a2 ∗ a3 ∗ t0 ∗ t1 ∗ t2 ∗ t3 ∗ f) = iprop(((a0 ∗ a1 ∗ a2 ∗ a3) ∗ (t0 ∗ t1 ∗ t2 ∗ t3)) ∗ f) := by
  have h1 : iprop(a0 ∗ a1 ∗ a2 ∗ a3 ∗ t0 ∗ t1 ∗ t2 ∗ t3 ∗ f) ⊢ iprop(((a0 ∗ a1 ∗ a2 ∗ a3) ∗ (t0 ∗ t1 ∗ t2 ∗ t3)) ∗ f) := by
    iintro ⟨H0, H1, H2, H3, H4, H5, H6, H7, H8⟩
    isplitr [H8]
    · isplitl [H0 H1 H2 H3]
      · isplitl [H0]; · iexact H0
        isplitl [H1]; · iexact H1
        isplitl [H2]; · iexact H2
        iexact H3
      · isplitl [H4]; · iexact H4
        isplitl [H5]; · iexact H5
        isplitl [H6]; · iexact H6
        iexact H7
    · iexact H8
  have h2 : iprop(((a0 ∗ a1 ∗ a2 ∗ a3) ∗ (t0 ∗ t1 ∗ t2 ∗ t3)) ∗ f) ⊢ iprop(a0 ∗ a1 ∗ a2 ∗ a3 ∗ t0 ∗ t1 ∗ t2 ∗ t3 ∗ f) := by
    iintro ⟨⟨⟨H0, H1, H2, H3⟩, ⟨H4, H5, H6, H7⟩⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact BI.Entails.antisymm h1 h2

/-! ## The handshake's payloads over the two SparseCores by number -/

theorem st_eq (d : Dev nD) (q : Fin 2) :
    (bigSep Finset.univ fun c : Fin ((K (F := F)).nCore q) => (P m).st q d c) = bigSep Finset.univ fun c : Fin 2 => stAt m d q c := by
  fin_cases q <;> exact bigSep_congr fun c _ => congrArg (stAt m d _) (Fin.ext rfl)
theorem dn_eq (d : Dev nD) (q : Fin 2) :
    (bigSep Finset.univ fun c : Fin ((K (F := F)).nCore q) => (P m).dn q d c) = bigSep Finset.univ fun c : Fin 2 => dnAt m d q c := by
  fin_cases q <;> exact bigSep_congr fun c _ => congrArg (dnAt m d _) (Fin.ext rfl)

omit [FloatOps F] in
theorem held_R0 (d : Dev nD) (W : Valuation τ sig (Elt F)) :
    (held (TT d) R0 W : sProp 𝕄) = iprop(((TT d).loc main_v0 ↦{fullShare} W (rf main_v0))
      ∗ ((TT d).loc main_v1 ↦{fullShare} W (rf main_v1))
      ∗ ((TT d).loc main_v2 ↦{fullShare} W (rf main_v2))
      ∗ ((TT d).loc main_v3 ↦{fullShare} W (rf main_v3))
      ∗ ((TT d).loc main_arg4 ↦{fullShare} W (rf main_arg4))
      ∗ ((TT d).loc main_arg5 ↦{fullShare} W (rf main_arg5))
      ∗ ((TT d).loc main_arg6 ↦{fullShare} W (rf main_arg6))
      ∗ ((TT d).loc main_arg7 ↦{fullShare} W (rf main_arg7))
      ∗ (TT d).loc main_v4 ↦{fullShare} W (rf main_v4)) := by
  unfold held R0
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Call 0's arrays, held at the stage before the call with the feature array at `f`, as the call takes them. -/
theorem held_R0_eq (d : Dev nD) (f : S8192x512.Idx → Elt F .f32) :
    (held (TT d) R0 (Function.update (VA m d) (rf main_v4) f) : sProp 𝕄) = iprop(readsPts m d 0 fullShare ∗ featPts d f 0) := by
  rw [held_R0]
  have e0 : Function.update (VA m d) (rf main_v4) f (rf main_v0) = VA m d (rf main_v0) := Function.update_of_ne (by decide) _ _
  have e1 : Function.update (VA m d) (rf main_v4) f (rf main_v1) = VA m d (rf main_v1) := Function.update_of_ne (by decide) _ _
  have e2 : Function.update (VA m d) (rf main_v4) f (rf main_v2) = VA m d (rf main_v2) := Function.update_of_ne (by decide) _ _
  have e3 : Function.update (VA m d) (rf main_v4) f (rf main_v3) = VA m d (rf main_v3) := Function.update_of_ne (by decide) _ _
  have e4 : Function.update (VA m d) (rf main_v4) f (rf main_arg4) = VA m d (rf main_arg4) := Function.update_of_ne (by decide) _ _
  have e5 : Function.update (VA m d) (rf main_v4) f (rf main_arg5) = VA m d (rf main_arg5) := Function.update_of_ne (by decide) _ _
  have e6 : Function.update (VA m d) (rf main_v4) f (rf main_arg6) = VA m d (rf main_arg6) := Function.update_of_ne (by decide) _ _
  have e7 : Function.update (VA m d) (rf main_v4) f (rf main_arg7) = VA m d (rf main_arg7) := Function.update_of_ne (by decide) _ _
  have e8 : Function.update (VA m d) (rf main_v4) f (rf main_v4) = f := Function.update_self _ _ _
  rw [e0, e1, e2, e3, e4, e5, e6, e7, e8, VA_v0, VA_v1, VA_v2, VA_v3, VA_arg4, VA_arg5, VA_arg6, VA_arg7]
  unfold readsPts
  rw [bigSep_fin4, bigSep_fin4]
  exact regroup9 _ _ _ _ _ _ _ _ _

/-- All the TensorCore's arrays at the stage before call 0, the feature array at `f`: the call's nine and the rest. -/
theorem held_Su_call0 (d : Dev nD) (f : S8192x512.Idx → Elt F .f32) :
    (held (TT d) Su (Function.update (VA m d) (rf main_v4) f) : sProp 𝕄)
      = iprop((readsPts m d 0 fullShare ∗ featPts d f 0) ∗ held (TT d) (Su \ R0) (VA m d)) := by
  have hmem : rf main_v4 ∈ R0 := by simp [R0]
  have h : ∀ b ∈ Su \ R0, Function.update (VA m d) (rf main_v4) f b = VA m d b :=
    fun b hb => Function.update_of_ne (fun (e : b = rf main_v4) => (Finset.mem_sdiff.mp hb).2 (by rw [e]; exact hmem)) _ _
  rw [held_sub_split (TT d) R0_sub, held_R0_eq, held_congr (TT d) h]

theorem VA_self (d : Dev nD) : Function.update (VA m d) (rf main_v4) (feat0 m d 0) = VA m d := by
  rw [← VA_v4]; exact Function.update_eq_self _ _

/-- The same at the stage before the call itself. -/
theorem held_VA_eq (d : Dev nD) :
    (held (TT d) Su (VA m d) : sProp 𝕄) = iprop((readsPts m d 0 fullShare ∗ featPts d (feat0 m d 0) 0) ∗ held (TT d) (Su \ R0) (VA m d)) := by
  rw [← held_Su_call0 m d (feat0 m d 0), VA_self]

/-- Call 0 as a step of @main. -/
theorem call_step0 (κ : GSem nD τ sig → ℕ) (d : Dev nD) (Φ : PUnit → sProp 𝕄) :
    iprop((K (F := F)).ctx EH (P m) κ ∗ (K (F := F)).tcSt EH d 0 ∗ held (TT d) Su (VA m d)
        ∗ (iprop((K (F := F)).tcSt EH d 1 ∗ held (TT d) Su (VA' m d)) -∗ Φ ⟨⟩))
      ⊢ wp frame (wpE ((K (F := F)).defs (D (F := F))) 𝒱 (TT d) none) Set.univ ((K (F := F)).run d 0) Φ := by
  iintro ⟨#Hctx, Hst, Hheld, Hk⟩
  ihave Hh := (Entails.of_eq (held_VA_eq m d)) $$ Hheld
  icases Hh with ⟨Hcall, Hrest⟩
  ihave Hc := (Entails.of_eq (callRes_eq m d 0 (feat0 m d 0))) $$ Hcall
  icases Hc with ⟨Hdrop, Hsts⟩
  iapply ((K (F := F)).wp_run (D (F := F)) 𝒱 (EH := EH) (P := P m) κ d 0) $$ [Hst Hsts Hdrop Hrest Hk]
  isplitr; · iexact Hctx
  isplitl [Hst]; · iexact Hst
  isplitl [Hsts]
  · rw [st_eq]; unfold stAt; iexact Hsts
  iintro ⟨Hst, Hdn⟩
  ihave Hdn' := (Entails.of_eq (dn_eq m d 0)) $$ Hdn
  ihave Hcall := (Entails.of_eq (callRes_eq m d 0 (featOf m d 0)).symm) $$ [Hdrop Hdn']
  · isplitl [Hdrop]; · iexact Hdrop
    unfold dnAt; iexact Hdn'
  ihave Hheld := (Entails.of_eq (held_Su_call0 m d (featOf m d 0)).symm) $$ [Hcall Hrest]
  · isplitl [Hcall]; · iexact Hcall
    iexact Hrest
  iapply Hk
  isplitl [Hst]; · iexact Hst
  unfold VA'; iexact Hheld

omit [FloatOps F] in
theorem held_R1 (d : Dev nD) (W : Valuation τ sig (Elt F)) :
    (held (TT d) R1 W : sProp 𝕄) = iprop(((TT d).loc main_v15 ↦{fullShare} W (rf main_v15))
      ∗ ((TT d).loc main_v16 ↦{fullShare} W (rf main_v16))
      ∗ ((TT d).loc main_v17 ↦{fullShare} W (rf main_v17))
      ∗ ((TT d).loc main_v18 ↦{fullShare} W (rf main_v18))
      ∗ ((TT d).loc main_arg4 ↦{fullShare} W (rf main_arg4))
      ∗ ((TT d).loc main_arg5 ↦{fullShare} W (rf main_arg5))
      ∗ ((TT d).loc main_arg6 ↦{fullShare} W (rf main_arg6))
      ∗ ((TT d).loc main_arg7 ↦{fullShare} W (rf main_arg7))
      ∗ (TT d).loc main_v19 ↦{fullShare} W (rf main_v19)) := by
  unfold held R1
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Call 1's arrays, held at the stage before the call with the feature array at `f`, as the call takes them. -/
theorem held_R1_eq (G : MlpFn F) (d : Dev nD) (f : S8192x512.Idx → Elt F .f32) :
    (held (TT d) R1 (Function.update (VC m G d) (rf main_v19) f) : sProp 𝕄) = iprop(readsPts m d 1 fullShare ∗ featPts d f 1) := by
  rw [held_R1]
  have e0 : Function.update (VC m G d) (rf main_v19) f (rf main_v15) = VC m G d (rf main_v15) := Function.update_of_ne (by decide) _ _
  have e1 : Function.update (VC m G d) (rf main_v19) f (rf main_v16) = VC m G d (rf main_v16) := Function.update_of_ne (by decide) _ _
  have e2 : Function.update (VC m G d) (rf main_v19) f (rf main_v17) = VC m G d (rf main_v17) := Function.update_of_ne (by decide) _ _
  have e3 : Function.update (VC m G d) (rf main_v19) f (rf main_v18) = VC m G d (rf main_v18) := Function.update_of_ne (by decide) _ _
  have e4 : Function.update (VC m G d) (rf main_v19) f (rf main_arg4) = VC m G d (rf main_arg4) := Function.update_of_ne (by decide) _ _
  have e5 : Function.update (VC m G d) (rf main_v19) f (rf main_arg5) = VC m G d (rf main_arg5) := Function.update_of_ne (by decide) _ _
  have e6 : Function.update (VC m G d) (rf main_v19) f (rf main_arg6) = VC m G d (rf main_arg6) := Function.update_of_ne (by decide) _ _
  have e7 : Function.update (VC m G d) (rf main_v19) f (rf main_arg7) = VC m G d (rf main_arg7) := Function.update_of_ne (by decide) _ _
  have e8 : Function.update (VC m G d) (rf main_v19) f (rf main_v19) = f := Function.update_self _ _ _
  rw [e0, e1, e2, e3, e4, e5, e6, e7, e8, VC_v15, VC_v16, VC_v17, VC_v18, VC_arg4, VC_arg5, VC_arg6, VC_arg7]
  unfold readsPts
  rw [bigSep_fin4, bigSep_fin4]
  exact regroup9 _ _ _ _ _ _ _ _ _

/-- All the TensorCore's arrays at the stage before call 1, the feature array at `f`: the call's nine and the rest. -/
theorem held_Su_call1 (G : MlpFn F) (d : Dev nD) (f : S8192x512.Idx → Elt F .f32) :
    (held (TT d) Su (Function.update (VC m G d) (rf main_v19) f) : sProp 𝕄)
      = iprop((readsPts m d 1 fullShare ∗ featPts d f 1) ∗ held (TT d) (Su \ R1) (VC m G d)) := by
  have hmem : rf main_v19 ∈ R1 := by simp [R1]
  have h : ∀ b ∈ Su \ R1, Function.update (VC m G d) (rf main_v19) f b = VC m G d b :=
    fun b hb => Function.update_of_ne (fun (e : b = rf main_v19) => (Finset.mem_sdiff.mp hb).2 (by rw [e]; exact hmem)) _ _
  rw [held_sub_split (TT d) R1_sub, held_R1_eq, held_congr (TT d) h]

theorem VC_self (G : MlpFn F) (d : Dev nD) : Function.update (VC m G d) (rf main_v19) (feat0 m d 1) = VC m G d := by
  rw [← VC_v19]; exact Function.update_eq_self _ _

/-- The same at the stage before the call itself. -/
theorem held_VC_eq (G : MlpFn F) (d : Dev nD) :
    (held (TT d) Su (VC m G d) : sProp 𝕄) = iprop((readsPts m d 1 fullShare ∗ featPts d (feat0 m d 1) 1) ∗ held (TT d) (Su \ R1) (VC m G d)) := by
  rw [← held_Su_call1 m G d (feat0 m d 1), VC_self]

/-- Call 1 as a step of @main. -/
theorem call_step1 (G : MlpFn F) (κ : GSem nD τ sig → ℕ) (d : Dev nD) (Φ : PUnit → sProp 𝕄) :
    iprop((K (F := F)).ctx EH (P m) κ ∗ (K (F := F)).tcSt EH d 1 ∗ held (TT d) Su (VC m G d)
        ∗ (iprop((K (F := F)).tcSt EH d 2 ∗ held (TT d) Su (VC' m G d)) -∗ Φ ⟨⟩))
      ⊢ wp frame (wpE ((K (F := F)).defs (D (F := F))) 𝒱 (TT d) none) Set.univ ((K (F := F)).run d 1) Φ := by
  iintro ⟨#Hctx, Hst, Hheld, Hk⟩
  ihave Hh := (Entails.of_eq (held_VC_eq m G d)) $$ Hheld
  icases Hh with ⟨Hcall, Hrest⟩
  ihave Hc := (Entails.of_eq (callRes_eq m d 1 (feat0 m d 1))) $$ Hcall
  icases Hc with ⟨Hdrop, Hsts⟩
  iapply ((K (F := F)).wp_run (D (F := F)) 𝒱 (EH := EH) (P := P m) κ d 1) $$ [Hst Hsts Hdrop Hrest Hk]
  isplitr; · iexact Hctx
  isplitl [Hst]; · iexact Hst
  isplitl [Hsts]
  · rw [st_eq]; unfold stAt; iexact Hsts
  iintro ⟨Hst, Hdn⟩
  ihave Hdn' := (Entails.of_eq (dn_eq m d 1)) $$ Hdn
  ihave Hcall := (Entails.of_eq (callRes_eq m d 1 (featOf m d 1)).symm) $$ [Hdrop Hdn']
  · isplitl [Hdrop]; · iexact Hdrop
    unfold dnAt; iexact Hdn'
  ihave Hheld := (Entails.of_eq (held_Su_call1 m G d (featOf m d 1)).symm) $$ [Hcall Hrest]
  · isplitl [Hcall]; · iexact Hcall
    iexact Hrest
  iapply Hk
  isplitl [Hst]; · iexact Hst
  unfold VC'; iexact Hheld

end Cert.KernelIdeal.Sc

end
-- ==== Proof.MlpBody1.lean ====
/-
  The perceptron region of the first half of the examples, as the enclosing program enters it.

  The region is a pipeline over four grid points. Point `t` stages rows `[2048 t, 2048 t + 2048)` of the first half's
  8192 × 512 feature array, and the ten weight and bias arrays whole (fetched once, at the first point, and kept);
  the body loads the eleven staged blocks whole, computes the 2048 predictions of its rows — four layers
  `x ↦ max (x · Wᵀ + b) 0`, then the product with the output row summed over its 64 lanes, plus the output bias —
  and stores them over the whole of the result's staged block, which the pipeline writes back to entries
  `[2048 t, 2048 t + 2048)` of the half's result.

  Stated here, at any float instance: what the body leaves in the result's staged block as a function of the
  eleven staged blocks (`out1_11`), the body's triple, the pipeline's proof data over arrays whose contents at the
  region's entry are a parameter (`V`) and, two more, the tallies the core owes throughout and the bound on the waits it has recorded (`O`, `Rd`: the
  body neither pays nor takes on a unit and records no wait), and the body obligation at every point. The invariant is the core's scoped
  buffers that are no staged block of this pipeline, each at some contents: the body touches none of them.
-/
import proofs.«212020_g4707284156877_cont_8to1c4_553_54_alg».proof.Proof.ScSetup
import proofs.«212020_g4707284156877_cont_8to1c4_553_54_alg».proof.Proof.Gen.KernelIdeal.Launch
import proofs.«212020_g4707284156877_cont_8to1c4_553_54_alg».proof.Proof.Gen.KernelIdeal.Skeleton
import proofs.«212020_g4707284156877_cont_8to1c4_553_54_alg».proof.Proof.Gen.KernelIdeal.Points
import Idealize.ShloMosaic.Lib.Pipeline.FrameBody
import Idealize.ShloMosaic.Lib.Tactic

-- membership in a rectangle of 2048 × 512 extents: the elaborator's structural look recurses once per coordinate
set_option maxRecDepth 16384

noncomputable section

namespace Cert.KernelIdeal.Mlp

open Cert.KernelIdeal Cert.KernelIdeal.Gen
open Cert.KernelIdeal.Sc (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered, and what the core owes while it runs: both the caller's
variable (V : (c : Dev nD) → (b : Ref sig .tc) → Buf (Elt F) ((c : Thread nD τ).loc b))
variable (O : Dev nD → CellTallies nD τ sig (HIx 2)) (Rd : Dev nD → Set (SemLoc sig × HIx 2))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staged block is its block of the array at every point, fetched there or not (unfetched,
    its block index has not moved), for any proof data over these arrays whose body leaves the block in place. -/
theorem before1_0_of {c : Dev nD} (dat : Dat τ (Elt F) (HIx 2) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staged block is its block of the array at every point, fetched there or not (unfetched,
    its block index has not moved), for any proof data over these arrays whose body leaves the block in place. -/
theorem before1_1_of {c : Dev nD} (dat : Dat τ (Elt F) (HIx 2) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staged block is its block of the array at every point, fetched there or not (unfetched,
    its block index has not moved), for any proof data over these arrays whose body leaves the block in place. -/
theorem before1_2_of {c : Dev nD} (dat : Dat τ (Elt F) (HIx 2) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staged block is its block of the array at every point, fetched there or not (unfetched,
    its block index has not moved), for any proof data over these arrays whose body leaves the block in place. -/
theorem before1_3_of {c : Dev nD} (dat : Dat τ (Elt F) (HIx 2) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staged block is its block of the array at every point, fetched there or not (unfetched,
    its block index has not moved), for any proof data over these arrays whose body leaves the block in place. -/
theorem before1_4_of {c : Dev nD} (dat : Dat τ (Elt F) (HIx 2) ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staged block is its block of the array at every point, fetched there or not (unfetched,
    its block index has not moved), for any proof data over these arrays whose body leaves the block in place. -/
theorem before1_5_of {c : Dev nD} (dat : Dat τ (Elt F) (HIx 2) ℕ UU ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staged block is its block of the array at every point, fetched there or not (unfetched,
    its block index has not moved), for any proof data over these arrays whose body leaves the block in place. -/
theorem before1_6_of {c : Dev nD} (dat : Dat τ (Elt F) (HIx 2) ℕ UU ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staged block is its block of the array at every point, fetched there or not (unfetched,
    its block index has not moved), for any proof data over these arrays whose body leaves the block in place. -/
theorem before1_7_of {c : Dev nD} (dat : Dat τ (Elt F) (HIx 2) ℕ UU ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staged block is its block of the array at every point, fetched there or not (unfetched,
    its block index has not moved), for any proof data over these arrays whose body leaves the block in place. -/
theorem before1_8_of {c : Dev nD} (dat : Dat τ (Elt F) (HIx 2) ℕ UU ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staged block is its block of the array at every point, fetched there or not (unfetched,
    its block index has not moved), for any proof data over these arrays whose body leaves the block in place. -/
theorem before1_9_of {c : Dev nD} (dat : Dat τ (Elt F) (HIx 2) ℕ UU ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staged block is its block of the array at every point, fetched there or not (unfetched,
    its block index has not moved), for any proof data over these arrays whose body leaves the block in place. -/
theorem before1_10_of {c : Dev nD} (dat : Dat τ (Elt F) (HIx 2) ℕ UU ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staged block whole -/

abbrev r1_0 : Rect S2048x512 := Rect.unit (s := S2048x512) ![0, 0] S2048x512.size inb_S2048x512_S2048x512_0_0
abbrev r1_1 : Rect S512x512 := Rect.unit (s := S512x512) ![0, 0] S512x512.size inb_S512x512_S512x512_0_0
abbrev r1_2 : Rect S1x512 := Rect.unit (s := S1x512) ![0, 0] S1x512.size inb_S1x512_S1x512_0_0
abbrev r1_3 : Rect S256x512 := Rect.unit (s := S256x512) ![0, 0] S256x512.size inb_S256x512_S256x512_0_0
abbrev r1_4 : Rect S1x256 := Rect.unit (s := S1x256) ![0, 0] S1x256.size inb_S1x256_S1x256_0_0
abbrev r1_5 : Rect S128x256 := Rect.unit (s := S128x256) ![0, 0] S128x256.size inb_S128x256_S128x256_0_0
abbrev r1_6 : Rect S1x128 := Rect.unit (s := S1x128) ![0, 0] S1x128.size inb_S1x128_S1x128_0_0
abbrev r1_7 : Rect S64x128 := Rect.unit (s := S64x128) ![0, 0] S64x128.size inb_S64x128_S64x128_0_0
abbrev r1_8 : Rect S1x64 := Rect.unit (s := S1x64) ![0, 0] S1x64.size inb_S1x64_S1x64_0_0
abbrev r1_9 : Rect S1x64 := Rect.unit (s := S1x64) ![0, 0] S1x64.size inb_S1x64_S1x64_0_0
abbrev r1_10 : Rect S1x1 := Rect.unit (s := S1x1) ![0, 0] S1x1.size inb_S1x1_S1x1_0_0
abbrev r1_11 : Rect S2048 := Rect.unit (s := S2048) ![0] S2048.size inb_S2048_S2048_0

/-! ## What the body leaves in the result's staged block -/

/-- The result's staged block after the body, from the eleven staged inputs: its one store, of the 2048 predictions. -/
def out1_11 (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) : Vec F S2048 .f32 :=
  View.canon [⟨r1_11, k1_pay1 (k1_pay2 (View.ld x0 r1_0) (View.ld x1 r1_1) (View.ld x2 r1_2) (View.ld x3 r1_3) (View.ld x4 r1_4) (View.ld x5 r1_5) (View.ld x6 r1_6) (View.ld x7 r1_7)) (View.ld x8 r1_8) (View.ld x9 r1_9) (View.ld x10 r1_10)⟩]

/-- The one store is of the whole block, so it covers it. -/
theorem cover1_11 (p0 : Vec F S2048 .f32) (y : S2048.Idx) :
    ∃ pc ∈ ([⟨r1_11, p0⟩] : List (View.Piece (Elt F) S2048 .f32)), y ∈ pc.1.set :=
  View.cover_of_tiled [⟨r1_11, p0⟩] S2048.size (by rfl) y

/-! ## The body's triple -/

set_option maxHeartbeats 4000000 in
/-- The body on whole staging memrefs, the inputs' at contents `x0 … x10` and the result's at anything, runs to the
    continuation holding the inputs' as they were and the result's at `out1_11` of them: the printed function and its
    part are their skeletons, eleven loads, a load of the result's block that nothing reads, and one store. -/
theorem sound_kernel1 (c : Dev nD) (E : Set ℕ) (i : grid1.Coords) (arg1 : Memref sig .tc .vmem S2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x128 .f32) (harg7 : arg7.IsWhole) (arg8 : Memref sig .tc .vmem S64x128 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S2048 .f32) (harg12 : arg12.IsWhole)
    (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-! ## The pipeline's proof data -/

/-- The proof data on core `c`: the arrays as the region finds them; after the body at point `t` each input's staged
    block still its block of the array, and the result's at `out1_11` of the input blocks; the invariant the core's scoped
    buffers no window of this pipeline stages, each at some contents; full shares; the core owing `O c`, its recorded waits within `Rd c`, at every point. -/
def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.scopedRest (Ix := HIx 2) (Name := ℕ) (U := UU) (Lvl := ℕ) (Val := Elt F) spec1 c
  q _ := fullShare
  owed _ := O c
  recorded _ := Rd c

/-- The proof data's arrays are the region-entry contents. -/
theorem A_eq1 (c : Dev nD) (w : Fin cfg1.W) : (dat1 V O Rd c).A w = V c (Pipeline.arrRef spec1 w) := by
  dsimp only [dat1]

/-- What the body leaves, window by window. -/
theorem after1_0 (c : Dev nD) (t : Fin cfg1.N) : (dat1 V O Rd c).after 0 t = iblk1 V c 0 t := by dsimp only [dat1]
theorem after1_1 (c : Dev nD) (t : Fin cfg1.N) : (dat1 V O Rd c).after 1 t = iblk1 V c 1 t := by dsimp only [dat1]
theorem after1_2 (c : Dev nD) (t : Fin cfg1.N) : (dat1 V O Rd c).after 2 t = iblk1 V c 2 t := by dsimp only [dat1]
theorem after1_3 (c : Dev nD) (t : Fin cfg1.N) : (dat1 V O Rd c).after 3 t = iblk1 V c 3 t := by dsimp only [dat1]
theorem after1_4 (c : Dev nD) (t : Fin cfg1.N) : (dat1 V O Rd c).after 4 t = iblk1 V c 4 t := by dsimp only [dat1]
theorem after1_5 (c : Dev nD) (t : Fin cfg1.N) : (dat1 V O Rd c).after 5 t = iblk1 V c 5 t := by dsimp only [dat1]
theorem after1_6 (c : Dev nD) (t : Fin cfg1.N) : (dat1 V O Rd c).after 6 t = iblk1 V c 6 t := by dsimp only [dat1]
theorem after1_7 (c : Dev nD) (t : Fin cfg1.N) : (dat1 V O Rd c).after 7 t = iblk1 V c 7 t := by dsimp only [dat1]
theorem after1_8 (c : Dev nD) (t : Fin cfg1.N) : (dat1 V O Rd c).after 8 t = iblk1 V c 8 t := by dsimp only [dat1]
theorem after1_9 (c : Dev nD) (t : Fin cfg1.N) : (dat1 V O Rd c).after 9 t = iblk1 V c 9 t := by dsimp only [dat1]
theorem after1_10 (c : Dev nD) (t : Fin cfg1.N) : (dat1 V O Rd c).after 10 t = iblk1 V c 10 t := by dsimp only [dat1]
theorem after1_11 (c : Dev nD) (t : Fin cfg1.N) : (dat1 V O Rd c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staged block is its block of the array at every point. -/
theorem before1_0 (c : Dev nD) (t : Fin cfg1.N) (d) : (dat1 V O Rd c).before 0 t d = iblk1 V c 0 t :=
  before1_0_of V (dat1 V O Rd c) (A_eq1 V O Rd c 0) (after1_0 V O Rd c) t d
theorem before1_1 (c : Dev nD) (t : Fin cfg1.N) (d) : (dat1 V O Rd c).before 1 t d = iblk1 V c 1 t :=
  before1_1_of V (dat1 V O Rd c) (A_eq1 V O Rd c 1) (after1_1 V O Rd c) t d
theorem before1_2 (c : Dev nD) (t : Fin cfg1.N) (d) : (dat1 V O Rd c).before 2 t d = iblk1 V c 2 t :=
  before1_2_of V (dat1 V O Rd c) (A_eq1 V O Rd c 2) (after1_2 V O Rd c) t d
theorem before1_3 (c : Dev nD) (t : Fin cfg1.N) (d) : (dat1 V O Rd c).before 3 t d = iblk1 V c 3 t :=
  before1_3_of V (dat1 V O Rd c) (A_eq1 V O Rd c 3) (after1_3 V O Rd c) t d
theorem before1_4 (c : Dev nD) (t : Fin cfg1.N) (d) : (dat1 V O Rd c).before 4 t d = iblk1 V c 4 t :=
  before1_4_of V (dat1 V O Rd c) (A_eq1 V O Rd c 4) (after1_4 V O Rd c) t d
theorem before1_5 (c : Dev nD) (t : Fin cfg1.N) (d) : (dat1 V O Rd c).before 5 t d = iblk1 V c 5 t :=
  before1_5_of V (dat1 V O Rd c) (A_eq1 V O Rd c 5) (after1_5 V O Rd c) t d
theorem before1_6 (c : Dev nD) (t : Fin cfg1.N) (d) : (dat1 V O Rd c).before 6 t d = iblk1 V c 6 t :=
  before1_6_of V (dat1 V O Rd c) (A_eq1 V O Rd c 6) (after1_6 V O Rd c) t d
theorem before1_7 (c : Dev nD) (t : Fin cfg1.N) (d) : (dat1 V O Rd c).before 7 t d = iblk1 V c 7 t :=
  before1_7_of V (dat1 V O Rd c) (A_eq1 V O Rd c 7) (after1_7 V O Rd c) t d
theorem before1_8 (c : Dev nD) (t : Fin cfg1.N) (d) : (dat1 V O Rd c).before 8 t d = iblk1 V c 8 t :=
  before1_8_of V (dat1 V O Rd c) (A_eq1 V O Rd c 8) (after1_8 V O Rd c) t d
theorem before1_9 (c : Dev nD) (t : Fin cfg1.N) (d) : (dat1 V O Rd c).before 9 t d = iblk1 V c 9 t :=
  before1_9_of V (dat1 V O Rd c) (A_eq1 V O Rd c 9) (after1_9 V O Rd c) t d
theorem before1_10 (c : Dev nD) (t : Fin cfg1.N) (d) : (dat1 V O Rd c).before 10 t d = iblk1 V c 10 t :=
  before1_10_of V (dat1 V O Rd c) (A_eq1 V O Rd c 10) (after1_10 V O Rd c) t d

/-! ## The body obligation, at a generic point -/

/-- What the body is called with at point `t`: the invariant, what the core owes, and every window's current staged block, -/
def bodyPre1 (c : Dev nD) (t : Fin cfg1.N) : sProp 𝕄 :=
  iprop((dat1 V O Rd c).Φ t.castSucc ∗ (dat1 V O Rd c).owesAt none t.castSucc
    ∗ (∃ d, owns (c : Thread nD τ) (st1_0 t) fullShare ((dat1 V O Rd c).before 0 t d))
    ∗ (∃ d, owns (c : Thread nD τ) (st1_1 t) fullShare ((dat1 V O Rd c).before 1 t d))
    ∗ (∃ d, owns (c : Thread nD τ) (st1_2 t) fullShare ((dat1 V O Rd c).before 2 t d))
    ∗ (∃ d, owns (c : Thread nD τ) (st1_3 t) fullShare ((dat1 V O Rd c).before 3 t d))
    ∗ (∃ d, owns (c : Thread nD τ) (st1_4 t) fullShare ((dat1 V O Rd c).before 4 t d))
    ∗ (∃ d, owns (c : Thread nD τ) (st1_5 t) fullShare ((dat1 V O Rd c).before 5 t d))
    ∗ (∃ d, owns (c : Thread nD τ) (st1_6 t) fullShare ((dat1 V O Rd c).before 6 t d))
    ∗ (∃ d, owns (c : Thread nD τ) (st1_7 t) fullShare ((dat1 V O Rd c).before 7 t d))
    ∗ (∃ d, owns (c : Thread nD τ) (st1_8 t) fullShare ((dat1 V O Rd c).before 8 t d))
    ∗ (∃ d, owns (c : Thread nD τ) (st1_9 t) fullShare ((dat1 V O Rd c).before 9 t d))
    ∗ (∃ d, owns (c : Thread nD τ) (st1_10 t) fullShare ((dat1 V O Rd c).before 10 t d))
    ∗ (∃ d, owns (c : Thread nD τ) (st1_11 t) fullShare ((dat1 V O Rd c).before 11 t d)))

/-- and what it returns. -/
def bodyPost1 (c : Dev nD) (t : Fin cfg1.N) : sProp 𝕄 :=
  iprop((dat1 V O Rd c).Φ t.succ ∗ (dat1 V O Rd c).owesAt none t.succ
    ∗ owns (c : Thread nD τ) (st1_0 t) fullShare ((dat1 V O Rd c).after 0 t)
    ∗ owns (c : Thread nD τ) (st1_1 t) fullShare ((dat1 V O Rd c).after 1 t)
    ∗ owns (c : Thread nD τ) (st1_2 t) fullShare ((dat1 V O Rd c).after 2 t)
    ∗ owns (c : Thread nD τ) (st1_3 t) fullShare ((dat1 V O Rd c).after 3 t)
    ∗ owns (c : Thread nD τ) (st1_4 t) fullShare ((dat1 V O Rd c).after 4 t)
    ∗ owns (c : Thread nD τ) (st1_5 t) fullShare ((dat1 V O Rd c).after 5 t)
    ∗ owns (c : Thread nD τ) (st1_6 t) fullShare ((dat1 V O Rd c).after 6 t)
    ∗ owns (c : Thread nD τ) (st1_7 t) fullShare ((dat1 V O Rd c).after 7 t)
    ∗ owns (c : Thread nD τ) (st1_8 t) fullShare ((dat1 V O Rd c).after 8 t)
    ∗ owns (c : Thread nD τ) (st1_9 t) fullShare ((dat1 V O Rd c).after 9 t)
    ∗ owns (c : Thread nD τ) (st1_10 t) fullShare ((dat1 V O Rd c).after 10 t)
    ∗ owns (c : Thread nD τ) (st1_11 t) fullShare ((dat1 V O Rd c).after 11 t))

/-- The body at any point: the inputs' staged blocks are their blocks of the arrays, so the body's triple applies; the
    invariant and what the core owes pass through unread. -/
theorem sound_body1 (c : Dev nD) (t : Fin cfg1.N) :
    bodyPre1 V O Rd c t ⊢ wp frame (wpE (defs₀ (F := F)) Variants.none c none) Set.univ (bodyAt1 t) (fun _ => bodyPost1 V O Rd c t) := by
  unfold bodyPre1 bodyPost1 bodyAt1
  simp only [before1_0, before1_1, before1_2, before1_3, before1_4, before1_5, before1_6, before1_7, before1_8, before1_9, before1_10]
  rw [show (dat1 V O Rd c).Φ t.succ = (dat1 V O Rd c).Φ t.castSucc from rfl,
    show (dat1 V O Rd c).owesAt none t.succ = (dat1 V O Rd c).owesAt none t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point, at the index `none` its staging cells wait at. -/
theorem body_obligation1 (c : Dev nD) : BodyObligation (dat1 (F := F) V O Rd c) (defs₀ (F := F)) Variants.none (none : HIx 2) Set.univ := fun t => by
  rw [bigSep_W1, bigSep_W1]
  exact sound_body1 V O Rd c t

end Cert.KernelIdeal.Mlp

end
-- ==== Proof.MlpBody3.lean ====
/-
  The perceptron region of the second half of the examples, as the enclosing program enters it.

  The region is a pipeline over four grid points. Point `t` stages rows `[2048 t, 2048 t + 2048)` of the second half's
  8192 × 512 feature array, and the ten weight and bias arrays whole (fetched once, at the first point, and kept);
  the body loads the eleven staged blocks whole, computes the 2048 predictions of its rows — four layers
  `x ↦ max (x · Wᵀ + b) 0`, then the product with the output row summed over its 64 lanes, plus the output bias —
  and stores them over the whole of the result's staged block, which the pipeline writes back to entries
  `[2048 t, 2048 t + 2048)` of the half's result.

  Stated here, at any float instance: what the body leaves in the result's staged block as a function of the
  eleven staged blocks (`out3_11`), the body's triple, the pipeline's proof data over arrays whose contents at the
  region's entry are a parameter (`V`) and, two more, the tallies the core owes throughout and the bound on the waits it has recorded (`O`, `Rd`: the
  body neither pays nor takes on a unit and records no wait), and the body obligation at every point. The invariant is the core's scoped
  buffers that are no staged block of this pipeline, each at some contents: the body touches none of them.
-/
import proofs.«212020_g4707284156877_cont_8to1c4_553_54_alg».proof.Proof.ScSetup
import proofs.«212020_g4707284156877_cont_8to1c4_553_54_alg».proof.Proof.Gen.KernelIdeal.Launch
import proofs.«212020_g4707284156877_cont_8to1c4_553_54_alg».proof.Proof.Gen.KernelIdeal.Skeleton
import proofs.«212020_g4707284156877_cont_8to1c4_553_54_alg».proof.Proof.Gen.KernelIdeal.Points
import Idealize.ShloMosaic.Lib.Pipeline.FrameBody
import Idealize.ShloMosaic.Lib.Tactic

-- membership in a rectangle of 2048 × 512 extents: the elaborator's structural look recurses once per coordinate
set_option maxRecDepth 16384

noncomputable section

namespace Cert.KernelIdeal.Mlp

open Cert.KernelIdeal Cert.KernelIdeal.Gen
open Cert.KernelIdeal.Sc (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered, and what the core owes while it runs: both the caller's
variable (V : (c : Dev nD) → (b : Ref sig .tc) → Buf (Elt F) ((c : Thread nD τ).loc b))
variable (O : Dev nD → CellTallies nD τ sig (HIx 2)) (Rd : Dev nD → Set (SemLoc sig × HIx 2))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staged block is its block of the array at every point, fetched there or not (unfetched,
    its block index has not moved), for any proof data over these arrays whose body leaves the block in place. -/
theorem before3_0_of {c : Dev nD} (dat : Dat τ (Elt F) (HIx 2) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staged block is its block of the array at every point, fetched there or not (unfetched,
    its block index has not moved), for any proof data over these arrays whose body leaves the block in place. -/
theorem before3_1_of {c : Dev nD} (dat : Dat τ (Elt F) (HIx 2) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staged block is its block of the array at every point, fetched there or not (unfetched,
    its block index has not moved), for any proof data over these arrays whose body leaves the block in place. -/
theorem before3_2_of {c : Dev nD} (dat : Dat τ (Elt F) (HIx 2) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staged block is its block of the array at every point, fetched there or not (unfetched,
    its block index has not moved), for any proof data over these arrays whose body leaves the block in place. -/
theorem before3_3_of {c : Dev nD} (dat : Dat τ (Elt F) (HIx 2) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staged block is its block of the array at every point, fetched there or not (unfetched,
    its block index has not moved), for any proof data over these arrays whose body leaves the block in place. -/
theorem before3_4_of {c : Dev nD} (dat : Dat τ (Elt F) (HIx 2) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staged block is its block of the array at every point, fetched there or not (unfetched,
    its block index has not moved), for any proof data over these arrays whose body leaves the block in place. -/
theorem before3_5_of {c : Dev nD} (dat : Dat τ (Elt F) (HIx 2) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staged block is its block of the array at every point, fetched there or not (unfetched,
    its block index has not moved), for any proof data over these arrays whose body leaves the block in place. -/
theorem before3_6_of {c : Dev nD} (dat : Dat τ (Elt F) (HIx 2) ℕ UU ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staged block is its block of the array at every point, fetched there or not (unfetched,
    its block index has not moved), for any proof data over these arrays whose body leaves the block in place. -/
theorem before3_7_of {c : Dev nD} (dat : Dat τ (Elt F) (HIx 2) ℕ UU ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staged block is its block of the array at every point, fetched there or not (unfetched,
    its block index has not moved), for any proof data over these arrays whose body leaves the block in place. -/
theorem before3_8_of {c : Dev nD} (dat : Dat τ (Elt F) (HIx 2) ℕ UU ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staged block is its block of the array at every point, fetched there or not (unfetched,
    its block index has not moved), for any proof data over these arrays whose body leaves the block in place. -/
theorem before3_9_of {c : Dev nD} (dat : Dat τ (Elt F) (HIx 2) ℕ UU ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staged block is its block of the array at every point, fetched there or not (unfetched,
    its block index has not moved), for any proof data over these arrays whose body leaves the block in place. -/
theorem before3_10_of {c : Dev nD} (dat : Dat τ (Elt F) (HIx 2) ℕ UU ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staged block whole -/

abbrev r3_0 : Rect S2048x512 := Rect.unit (s := S2048x512) ![0, 0] S2048x512.size inb_S2048x512_S2048x512_0_0
abbrev r3_1 : Rect S512x512 := Rect.unit (s := S512x512) ![0, 0] S512x512.size inb_S512x512_S512x512_0_0
abbrev r3_2 : Rect S1x512 := Rect.unit (s := S1x512) ![0, 0] S1x512.size inb_S1x512_S1x512_0_0
abbrev r3_3 : Rect S256x512 := Rect.unit (s := S256x512) ![0, 0] S256x512.size inb_S256x512_S256x512_0_0
abbrev r3_4 : Rect S1x256 := Rect.unit (s := S1x256) ![0, 0] S1x256.size inb_S1x256_S1x256_0_0
abbrev r3_5 : Rect S128x256 := Rect.unit (s := S128x256) ![0, 0] S128x256.size inb_S128x256_S128x256_0_0
abbrev r3_6 : Rect S1x128 := Rect.unit (s := S1x128) ![0, 0] S1x128.size inb_S1x128_S1x128_0_0
abbrev r3_7 : Rect S64x128 := Rect.unit (s := S64x128) ![0, 0] S64x128.size inb_S64x128_S64x128_0_0
abbrev r3_8 : Rect S1x64 := Rect.unit (s := S1x64) ![0, 0] S1x64.size inb_S1x64_S1x64_0_0
abbrev r3_9 : Rect S1x64 := Rect.unit (s := S1x64) ![0, 0] S1x64.size inb_S1x64_S1x64_0_0
abbrev r3_10 : Rect S1x1 := Rect.unit (s := S1x1) ![0, 0] S1x1.size inb_S1x1_S1x1_0_0
abbrev r3_11 : Rect S2048 := Rect.unit (s := S2048) ![0] S2048.size inb_S2048_S2048_0

/-! ## What the body leaves in the result's staged block -/

/-- The result's staged block after the body, from the eleven staged inputs: its one store, of the 2048 predictions. -/
def out3_11 (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) : Vec F S2048 .f32 :=
  View.canon [⟨r3_11, k3_pay1 (k3_pay2 (View.ld x0 r3_0) (View.ld x1 r3_1) (View.ld x2 r3_2) (View.ld x3 r3_3) (View.ld x4 r3_4) (View.ld x5 r3_5) (View.ld x6 r3_6) (View.ld x7 r3_7)) (View.ld x8 r3_8) (View.ld x9 r3_9) (View.ld x10 r3_10)⟩]

/-- The one store is of the whole block, so it covers it. -/
theorem cover3_11 (p0 : Vec F S2048 .f32) (y : S2048.Idx) :
    ∃ pc ∈ ([⟨r3_11, p0⟩] : List (View.Piece (Elt F) S2048 .f32)), y ∈ pc.1.set :=
  View.cover_of_tiled [⟨r3_11, p0⟩] S2048.size (by rfl) y

/-! ## The body's triple -/

set_option maxHeartbeats 4000000 in
/-- The body on whole staging memrefs, the inputs' at contents `x0 … x10` and the result's at anything, runs to the
    continuation holding the inputs' as they were and the result's at `out3_11` of them: the printed function and its
    part are their skeletons, eleven loads, a load of the result's block that nothing reads, and one store. -/
theorem sound_kernel3 (c : Dev nD) (E : Set ℕ) (i : grid3.Coords) (arg1 : Memref sig .tc .vmem S2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x128 .f32) (harg7 : arg7.IsWhole) (arg8 : Memref sig .tc .vmem S64x128 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S2048 .f32) (harg12 : arg12.IsWhole)
    (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__mlp_body i arg1 harg1 arg2 harg2 arg3 harg3 arg4 harg4 arg5 harg5 arg6 harg6 arg7 harg7 arg8 harg8 arg9 harg9 arg10 harg10 arg11 harg11 arg12 harg12) K := by
  simp only [cc3__mlp_body_eq_skeleton]; unfold cc3__mlp_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data on core `c`: the arrays as the region finds them; after the body at point `t` each input's staged
    block still its block of the array, and the result's at `out3_11` of the input blocks; the invariant the core's scoped
    buffers no window of this pipeline stages, each at some contents; full shares; the core owing `O c`, its recorded waits within `Rd c`, at every point. -/
def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.scopedRest (Ix := HIx 2) (Name := ℕ) (U := UU) (Lvl := ℕ) (Val := Elt F) spec3 c
  q _ := fullShare
  owed _ := O c
  recorded _ := Rd c

/-- The proof data's arrays are the region-entry contents. -/
theorem A_eq3 (c : Dev nD) (w : Fin cfg3.W) : (dat3 V O Rd c).A w = V c (Pipeline.arrRef spec3 w) := by
  dsimp only [dat3]

/-- What the body leaves, window by window. -/
theorem after3_0 (c : Dev nD) (t : Fin cfg3.N) : (dat3 V O Rd c).after 0 t = iblk3 V c 0 t := by dsimp only [dat3]
theorem after3_1 (c : Dev nD) (t : Fin cfg3.N) : (dat3 V O Rd c).after 1 t = iblk3 V c 1 t := by dsimp only [dat3]
theorem after3_2 (c : Dev nD) (t : Fin cfg3.N) : (dat3 V O Rd c).after 2 t = iblk3 V c 2 t := by dsimp only [dat3]
theorem after3_3 (c : Dev nD) (t : Fin cfg3.N) : (dat3 V O Rd c).after 3 t = iblk3 V c 3 t := by dsimp only [dat3]
theorem after3_4 (c : Dev nD) (t : Fin cfg3.N) : (dat3 V O Rd c).after 4 t = iblk3 V c 4 t := by dsimp only [dat3]
theorem after3_5 (c : Dev nD) (t : Fin cfg3.N) : (dat3 V O Rd c).after 5 t = iblk3 V c 5 t := by dsimp only [dat3]
theorem after3_6 (c : Dev nD) (t : Fin cfg3.N) : (dat3 V O Rd c).after 6 t = iblk3 V c 6 t := by dsimp only [dat3]
theorem after3_7 (c : Dev nD) (t : Fin cfg3.N) : (dat3 V O Rd c).after 7 t = iblk3 V c 7 t := by dsimp only [dat3]
theorem after3_8 (c : Dev nD) (t : Fin cfg3.N) : (dat3 V O Rd c).after 8 t = iblk3 V c 8 t := by dsimp only [dat3]
theorem after3_9 (c : Dev nD) (t : Fin cfg3.N) : (dat3 V O Rd c).after 9 t = iblk3 V c 9 t := by dsimp only [dat3]
theorem after3_10 (c : Dev nD) (t : Fin cfg3.N) : (dat3 V O Rd c).after 10 t = iblk3 V c 10 t := by dsimp only [dat3]
theorem after3_11 (c : Dev nD) (t : Fin cfg3.N) : (dat3 V O Rd c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staged block is its block of the array at every point. -/
theorem before3_0 (c : Dev nD) (t : Fin cfg3.N) (d) : (dat3 V O Rd c).before 0 t d = iblk3 V c 0 t :=
  before3_0_of V (dat3 V O Rd c) (A_eq3 V O Rd c 0) (after3_0 V O Rd c) t d
theorem before3_1 (c : Dev nD) (t : Fin cfg3.N) (d) : (dat3 V O Rd c).before 1 t d = iblk3 V c 1 t :=
  before3_1_of V (dat3 V O Rd c) (A_eq3 V O Rd c 1) (after3_1 V O Rd c) t d
theorem before3_2 (c : Dev nD) (t : Fin cfg3.N) (d) : (dat3 V O Rd c).before 2 t d = iblk3 V c 2 t :=
  before3_2_of V (dat3 V O Rd c) (A_eq3 V O Rd c 2) (after3_2 V O Rd c) t d
theorem before3_3 (c : Dev nD) (t : Fin cfg3.N) (d) : (dat3 V O Rd c).before 3 t d = iblk3 V c 3 t :=
  before3_3_of V (dat3 V O Rd c) (A_eq3 V O Rd c 3) (after3_3 V O Rd c) t d
theorem before3_4 (c : Dev nD) (t : Fin cfg3.N) (d) : (dat3 V O Rd c).before 4 t d = iblk3 V c 4 t :=
  before3_4_of V (dat3 V O Rd c) (A_eq3 V O Rd c 4) (after3_4 V O Rd c) t d
theorem before3_5 (c : Dev nD) (t : Fin cfg3.N) (d) : (dat3 V O Rd c).before 5 t d = iblk3 V c 5 t :=
  before3_5_of V (dat3 V O Rd c) (A_eq3 V O Rd c 5) (after3_5 V O Rd c) t d
theorem before3_6 (c : Dev nD) (t : Fin cfg3.N) (d) : (dat3 V O Rd c).before 6 t d = iblk3 V c 6 t :=
  before3_6_of V (dat3 V O Rd c) (A_eq3 V O Rd c 6) (after3_6 V O Rd c) t d
theorem before3_7 (c : Dev nD) (t : Fin cfg3.N) (d) : (dat3 V O Rd c).before 7 t d = iblk3 V c 7 t :=
  before3_7_of V (dat3 V O Rd c) (A_eq3 V O Rd c 7) (after3_7 V O Rd c) t d
theorem before3_8 (c : Dev nD) (t : Fin cfg3.N) (d) : (dat3 V O Rd c).before 8 t d = iblk3 V c 8 t :=
  before3_8_of V (dat3 V O Rd c) (A_eq3 V O Rd c 8) (after3_8 V O Rd c) t d
theorem before3_9 (c : Dev nD) (t : Fin cfg3.N) (d) : (dat3 V O Rd c).before 9 t d = iblk3 V c 9 t :=
  before3_9_of V (dat3 V O Rd c) (A_eq3 V O Rd c 9) (after3_9 V O Rd c) t d
theorem before3_10 (c : Dev nD) (t : Fin cfg3.N) (d) : (dat3 V O Rd c).before 10 t d = iblk3 V c 10 t :=
  before3_10_of V (dat3 V O Rd c) (A_eq3 V O Rd c 10) (after3_10 V O Rd c) t d

/-! ## The body obligation, at a generic point -/

/-- What the body is called with at point `t`: the invariant, what the core owes, and every window's current staged block, -/
def bodyPre3 (c : Dev nD) (t : Fin cfg3.N) : sProp 𝕄 :=
  iprop((dat3 V O Rd c).Φ t.castSucc ∗ (dat3 V O Rd c).owesAt none t.castSucc
    ∗ (∃ d, owns (c : Thread nD τ) (st3_0 t) fullShare ((dat3 V O Rd c).before 0 t d))
    ∗ (∃ d, owns (c : Thread nD τ) (st3_1 t) fullShare ((dat3 V O Rd c).before 1 t d))
    ∗ (∃ d, owns (c : Thread nD τ) (st3_2 t) fullShare ((dat3 V O Rd c).before 2 t d))
    ∗ (∃ d, owns (c : Thread nD τ) (st3_3 t) fullShare ((dat3 V O Rd c).before 3 t d))
    ∗ (∃ d, owns (c : Thread nD τ) (st3_4 t) fullShare ((dat3 V O Rd c).before 4 t d))
    ∗ (∃ d, owns (c : Thread nD τ) (st3_5 t) fullShare ((dat3 V O Rd c).before 5 t d))
    ∗ (∃ d, owns (c : Thread nD τ) (st3_6 t) fullShare ((dat3 V O Rd c).before 6 t d))
    ∗ (∃ d, owns (c : Thread nD τ) (st3_7 t) fullShare ((dat3 V O Rd c).before 7 t d))
    ∗ (∃ d, owns (c : Thread nD τ) (st3_8 t) fullShare ((dat3 V O Rd c).before 8 t d))
    ∗ (∃ d, owns (c : Thread nD τ) (st3_9 t) fullShare ((dat3 V O Rd c).before 9 t d))
    ∗ (∃ d, owns (c : Thread nD τ) (st3_10 t) fullShare ((dat3 V O Rd c).before 10 t d))
    ∗ (∃ d, owns (c : Thread nD τ) (st3_11 t) fullShare ((dat3 V O Rd c).before 11 t d)))

/-- and what it returns. -/
def bodyPost3 (c : Dev nD) (t : Fin cfg3.N) : sProp 𝕄 :=
  iprop((dat3 V O Rd c).Φ t.succ ∗ (dat3 V O Rd c).owesAt none t.succ
    ∗ owns (c : Thread nD τ) (st3_0 t) fullShare ((dat3 V O Rd c).after 0 t)
    ∗ owns (c : Thread nD τ) (st3_1 t) fullShare ((dat3 V O Rd c).after 1 t)
    ∗ owns (c : Thread nD τ) (st3_2 t) fullShare ((dat3 V O Rd c).after 2 t)
    ∗ owns (c : Thread nD τ) (st3_3 t) fullShare ((dat3 V O Rd c).after 3 t)
    ∗ owns (c : Thread nD τ) (st3_4 t) fullShare ((dat3 V O Rd c).after 4 t)
    ∗ owns (c : Thread nD τ) (st3_5 t) fullShare ((dat3 V O Rd c).after 5 t)
    ∗ owns (c : Thread nD τ) (st3_6 t) fullShare ((dat3 V O Rd c).after 6 t)
    ∗ owns (c : Thread nD τ) (st3_7 t) fullShare ((dat3 V O Rd c).after 7 t)
    ∗ owns (c : Thread nD τ) (st3_8 t) fullShare ((dat3 V O Rd c).after 8 t)
    ∗ owns (c : Thread nD τ) (st3_9 t) fullShare ((dat3 V O Rd c).after 9 t)
    ∗ owns (c : Thread nD τ) (st3_10 t) fullShare ((dat3 V O Rd c).after 10 t)
    ∗ owns (c : Thread nD τ) (st3_11 t) fullShare ((dat3 V O Rd c).after 11 t))

/-- The body at any point: the inputs' staged blocks are their blocks of the arrays, so the body's triple applies; the
    invariant and what the core owes pass through unread. -/
theorem sound_body3 (c : Dev nD) (t : Fin cfg3.N) :
    bodyPre3 V O Rd c t ⊢ wp frame (wpE (defs₀ (F := F)) Variants.none c none) Set.univ (bodyAt3 t) (fun _ => bodyPost3 V O Rd c t) := by
  unfold bodyPre3 bodyPost3 bodyAt3
  simp only [before3_0, before3_1, before3_2, before3_3, before3_4, before3_5, before3_6, before3_7, before3_8, before3_9, before3_10]
  rw [show (dat3 V O Rd c).Φ t.succ = (dat3 V O Rd c).Φ t.castSucc from rfl,
    show (dat3 V O Rd c).owesAt none t.succ = (dat3 V O Rd c).owesAt none t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point, at the index `none` its staging cells wait at. -/
theorem body_obligation3 (c : Dev nD) : BodyObligation (dat3 (F := F) V O Rd c) (defs₀ (F := F)) Variants.none (none : HIx 2) Set.univ := fun t => by
  rw [bigSep_W3, bigSep_W3]
  exact sound_body3 V O Rd c t

end Cert.KernelIdeal.Mlp

end
-- ==== Proof.MlpData.lean ====
/-
  The two perceptron regions' proof data as one family, indexed by the pipeline.

  Neither pipeline prefetches a table, so each is admissible at the one, empty, table contents. The family is a
  literal match on the pipeline's number — the first half's data for pipeline 0, the second half's for pipeline 1 — each
  at its own region-entry contents, owed tallies and recorded-wait bound.
-/
import proofs.«212020_g4707284156877_cont_8to1c4_553_54_alg».proof.Proof.MlpBody1
import proofs.«212020_g4707284156877_cont_8to1c4_553_54_alg».proof.Proof.MlpBody3

noncomputable section

namespace Cert.KernelIdeal.Mlp

open Cert.KernelIdeal Cert.KernelIdeal.Gen
open Cert.KernelIdeal.Sc (UU)
open Idealize.ShloMosaic Idealize.ShloMosaic.TcCoe
open Idealize.ShloMosaic.SparseCore.Cfg (HIx)
open Idealize.ShloMosaic.Pipeline (Dat Cfg Window BodyObligation)

variable {F : FTy → Type} [FloatOps F]

/-- The prefetched tables' admissible contents: no pipeline has a table. -/
abbrev adm : (p : Fin 2) → (pcfgs (F := F) p).Adm := fun p => (cfgs p).toPCfg_adm

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- Both pipelines' proof data, each at its region's entry contents, owed tallies and recorded-wait bound. -/
def pdats : (p : Fin 2) → (c : Dev nD) → Dat τ (Elt F) (HIx 2) ℕ UU ℕ (Pipeline.pin (pcfgs (F := F)) adm p) c
  | ⟨0, _⟩ => fun c => dat1 V1 O1 R1 c
  | ⟨1, _⟩ => fun c => dat3 V3 O3 R3 c

/-- The first half's body obligation, over the family. -/
theorem body_obligation_p0 (c : Dev nD) :
    BodyObligation (pdats V1 V3 O1 O3 R1 R3 0 c) (defs₀ (F := F)) Variants.none (none : HIx 2) Set.univ :=
  body_obligation1 V1 O1 R1 c

/-- The second half's body obligation, over the family. -/
theorem body_obligation_p1 (c : Dev nD) :
    BodyObligation (pdats V1 V3 O1 O3 R1 R3 1 c) (defs₀ (F := F)) Variants.none (none : HIx 2) Set.univ :=
  body_obligation3 V3 O3 R3 c

end Cert.KernelIdeal.Mlp

end
-- ==== Proof.MlpFn.lean ====
/-
  The perceptron as a function of whole arrays, at any float instance.

  The kernel's body computes, from a block of 2048 feature rows and the ten weight and bias arrays, the 2048
  predictions of those rows (`blockFn`: the body's arithmetic, as the printed program spells it). The prediction of
  row `r` of a half's 8192 × 512 feature array is therefore entry `r mod 2048` of `blockFn` of the rows
  `[2048 (r / 2048), 2048 (r / 2048) + 2048)` (`mlpG`): the function of the whole arrays whose restriction to entries
  `[2048 t, 2048 t + 2048)` is what the body computes at grid point `t`. Both halves' bodies are the same arithmetic.
-/
import proofs.«212020_g4707284156877_cont_8to1c4_553_54_alg».proof.Proof.Gen.KernelIdeal.Skeleton
import Idealize.ShloMosaic.Lib.ValueIdx

noncomputable section

namespace Cert.KernelIdeal.Mlp

open Cert.KernelIdeal Cert.KernelIdeal.Gen
open Idealize.ShloMosaic Idealize.ShloMosaic.ValueIdx

variable {F : FTy → Type} [FloatOps F]

/-- Rows `[2048 q, 2048 q + 2048)` of a feature array, as a block of 2048 rows. -/
def rowsOf (q : Fin 4) (x : S8192x512.Idx → Elt F .f32) : S2048x512.Idx → Elt F .f32 :=
  fun y => x (ix2 ⟨2048 * q.val + (y 0).val, by have h0 : (y 0).val < 2048 := (y 0).isLt; have := q.isLt; omega⟩ (y 1))

/-- The predictions of a block of 2048 feature rows: the body's arithmetic on the block and the weights. -/
def blockFn (xb : S2048x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) : S2048.Idx → Elt F .f32 :=
  k1_pay1 (k1_pay2 xb w0 b0 w1 b1 w2 b2 w3) b3 wo bo

/-- The second half's body is the same arithmetic. -/
theorem blockFn_eq3 (xb : S2048x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) :
    k3_pay1 (k3_pay2 xb w0 b0 w1 b1 w2 b2 w3) b3 wo bo = blockFn xb w0 b0 w1 b1 w2 b2 w3 b3 wo bo := rfl

/-- The predictions of a half's 8192 feature rows: row `r`'s is entry `r mod 2048` of its block's. -/
def mlpG (x : S8192x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) : S8192.Idx → Elt F .f32 :=
  fun i =>
    have h : (i 0).val < 8192 := (i 0).isLt
    blockFn (rowsOf ⟨(i 0).val / 2048, by omega⟩ x) w0 b0 w1 b1 w2 b2 w3 b3 wo bo (ix1 ⟨(i 0).val % 2048, Nat.mod_lt _ (by decide)⟩)

/-- Entry `2048 q + r` of the predictions is entry `r` of block `q`'s. -/
theorem mlpG_block (x : S8192x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32)
    (q : Fin 4) (i : S8192.Idx) (r : S2048.Idx) (hi : (i 0).val = 2048 * q.val + (r 0).val) :
    mlpG x w0 b0 w1 b1 w2 b2 w3 b3 wo bo i = blockFn (rowsOf q x) w0 b0 w1 b1 w2 b2 w3 b3 wo bo r := by
  have hr : (r 0).val < 2048 := (r 0).isLt
  have hq : (i 0).val / 2048 = q.val := by omega
  have hm : (i 0).val % 2048 = (r 0).val := by omega
  unfold mlpG
  have e1 : (⟨(i 0).val / 2048, by have h : (i 0).val < 8192 := (i 0).isLt; omega⟩ : Fin 4) = q := Fin.ext hq
  have e2 : (ix1 (⟨(i 0).val % 2048, Nat.mod_lt _ (by decide)⟩ : Fin 2048) : S2048.Idx) = r := by
    funext a; match a with | ⟨0, _⟩ => exact Fin.ext hm
  dsimp only
  rw [e1, e2]

end Cert.KernelIdeal.Mlp

end
-- ==== Proof.ScRun.lean ====
/-
  The launch of the whole kernel program: the certificate's launch element (the handshakes' rounds, the two TensorCore
  pipelines' staging cells' rounds, the transfers' counters), @main on the TensorCore step by step, and how the final
  memory is read.
-/
import proofs.«212020_g4707284156877_cont_8to1c4_553_54_alg».proof.Proof.ScCall
import proofs.«212020_g4707284156877_cont_8to1c4_553_54_alg».proof.Proof.MlpData
import proofs.«212020_g4707284156877_cont_8to1c4_553_54_alg».proof.Proof.MlpFn

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Cert.KernelIdeal.Mlp (adm mlpG)

variable {F : FTy → Type}

local notation "𝕄" => MT nD τ sig (HIx 2) (Elt F) ℕ UU ℕ

/-- The two TensorCore pipelines as the regions kit names them. -/
abbrev cfgsP : Fin 2 → Pipeline.Cfg sig Λ₀ := Pipeline.pin (pcfgs (F := F)) adm

theorem cellOf_injP : Function.Injective (Pipeline.cellOf (nD := nD) (τ := τ) (cfgsP (F := F))) := cellOf_inj

/-! ## The launch element -/

/-- The handshake cells' rounds at their launch state, the staging cells' rounds at theirs, no counter in use. -/
def u₀ : UU :=
  (initOf (K (F := F)).hsCells (K (F := F)).hsToks,
    (initOf (Pipeline.cells (cfgsP (F := F)) cellOf_injP) (Pipeline.launchToks (cfgsP (F := F)) cellOf_injP), (1 : Counters)))

/-- What @main's proof on device `d` starts from beside the launch's deal: the two pipelines' staging cells' ghost state
    and duty tokens. -/
def GG (d : Dev nD) : sProp 𝕄 :=
  iprop((bigSep Finset.univ fun p : Fin 2 => Pipeline.cellsGhost (cfgsP (F := F)) EP p d)
    ∗ bigSep Finset.univ fun p : Fin 2 => Pipeline.toksInit (cfgsP (F := F)) EP p d)

variable (m : (ℓ : Loc nD τ sig) → Buf (Elt F) ℓ) (ρ : Dev nD → PrngReg) [FloatOps F]

omit [FloatOps F] in
theorem bigSep_emp' {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    (initOf (Pipeline.cells (cfgsP (F := F)) cellOf_injP) (Pipeline.launchToks (cfgsP (F := F)) cellOf_injP), (1 : Counters))) $$ Hu
  icases H with ⟨HH, HR⟩
  ihave H2 := (own_pair_emb (embR : Emb (UP × Counters) (MT nD τ sig (HIx 2) (Elt F) ℕ UU ℕ))
    (initOf (Pipeline.cells (cfgsP (F := F)) cellOf_injP) (Pipeline.launchToks (cfgsP (F := F)) cellOf_injP)) (1 : Counters)) $$ HR
  icases H2 with ⟨HP, -⟩
  imod (Pipeline.fund_ghost (cfgsP (F := F)) EP cellOf_injP) $$ HP with ⟨Hcg, Htk⟩
  imodintro
  isplitl [HH]; · iexact HH
  isplitl [Hcg Htk]
  · unfold GG; rw [bigSep_sep']
    isplitl [Hcg]; · iexact Hcg
    iexact Htk
  rw [show (bigSep Finset.univ fun thr : Thread nD τ => bigSep Finset.univ fun q : Fin 2 => (P (F := F) m).x q thr) = bigSep Finset.univ fun _ => iprop(emp) from
    bigSep_congr fun _ _ => bigSep_emp' (F := F) _, bigSep_emp']
  iempintro

/-! ## @main on the TensorCore -/

/-- The TensorCore's handshake state before call `n` is what it owes and a rest the regions never touch. -/
theorem tcSt_split (d : Dev nD) (n : ℕ) : ∃ R : sProp 𝕄, ((K (F := F)).tcSt EH d n : sProp 𝕄) = iprop(owesTc d n ∗ R) := by
  unfold SparseCore.Cfg.tcSt owesTc; exact ⟨_, rfl⟩

/-- What @main leaves the claim: every unscoped array of the TensorCore at the last stage. -/
abbrev FIN (d : Dev nD) : sProp 𝕄 := held (TT d) Su (VE m mlpG d)

/-- A TensorCore region as a step of @main: from the arrays at the stage before to the arrays at the stage after,
    what the TensorCore owes passing through. -/
abbrev RegionStep (p : Fin 2) (n : ℕ) (Vb Va : Dev nD → Valuation τ sig (Elt F)) : Prop :=
  ∀ (d : Dev nD) (Φ : PUnit → sProp 𝕄),
    iprop(levAts (K (F := F)).L (K (F := F)).lev ∗ boundary (TT d) ∗ held (TT d) Su (Vb d) ∗ owesTc d n
        ∗ Pipeline.cellsGhost (cfgsP (F := F)) EP p d ∗ Pipeline.toksInit (cfgsP (F := F)) EP p d
        ∗ (iprop(boundary (TT d) ∗ held (TT d) Su (Va d) ∗ owesTc d n) -∗ Φ ⟨⟩))
      ⊢ wp frame (wpE ((K (F := F)).defs (D (F := F))) 𝒱 (TT d) none) Set.univ (regionCall p) Φ

omit [FloatOps F] in
theorem bigSep_fin2 (Φ : Fin 2 → sProp 𝕄) : bigSep Finset.univ Φ = iprop(Φ 0 ∗ Φ 1) := bigSep_univ_two Φ

set_option maxHeartbeats 2000000 in
theorem hmain (hreg0 : RegionStep (F := F) 0 1 (VB m) (VB' m mlpG)) (hreg1 : RegionStep (F := F) 1 2 (VD m mlpG) (VD' m mlpG))
    (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 2 ∗ FIN m d) := by
  obtain ⟨Rs1, hR1⟩ := tcSt_split (F := F) d 1
  obtain ⟨Rs2, hR2⟩ := tcSt_split (F := F) d 2
  unfold SparseCore.Cfg.tcRes GG
  rw [show unscopedBufs d (fun b => m ((SparseCore.T d).loc b)) = held (TT d) Su (V0 m d)
      from Pipeline.unscopedBufs_held (Ix := HIx 2) (Name := ℕ) (U := UU) (Lvl := ℕ) d (V0 m d), main_eq, bigSep_fin2, bigSep_fin2]
  iintro ⟨#Hctx, Hst, ⟨Hb, Hheld, Hsems, Hprng⟩, ⟨⟨Hcg0, Hcg1⟩, ⟨Htk0, Htk1⟩⟩⟩
  -- the first halves sliced
  iapply (wp_seq 𝒱 none Set.univ d Su _ (opsA (F := F)) opsA_sub opsA_fresh (V0 m d)) $$ [Hb Hheld]
  · isplitl [Hb]; · iexact Hb
    iexact Hheld
  iintro ⟨Hb, Hheld⟩
  rw [wp_bind]
  -- call 0
  iapply (call_step0 m κ d _) $$ [Hst Hheld Hb Hsems Hprng Hcg0 Hcg1 Htk0 Htk1]
  isplitr; · iexact Hctx
  isplitl [Hst]; · iexact Hst
  isplitl [Hheld]; · unfold VA; iexact Hheld
  iintro ⟨Hst, Hheld⟩
  -- the weights cast, the biases reshaped
  iapply (wp_seq 𝒱 none Set.univ d Su _ (opsB (F := F)) opsB_sub opsB_fresh (VA' m d)) $$ [Hb Hheld]
  · isplitl [Hb]; · iexact Hb
    iexact Hheld
  iintro ⟨Hb, Hheld⟩
  rw [wp_bind]
  -- region 0
  ihave Hst' := (Entails.of_eq hR1) $$ Hst
  icases Hst' with ⟨Howes, HR⟩
  ihave Hlev := ((K (F := F)).ctx_levAts κ) $$ Hctx
  iapply (hreg0 d _) $$ [Hlev Hb Hheld Howes Hcg0 Htk0 HR Hsems Hprng Hcg1 Htk1]
  isplitl [Hlev]; · iexact Hlev
  isplitl [Hb]; · iexact Hb
  isplitl [Hheld]; · unfold VB; iexact Hheld
  isplitl [Howes]; · iexact Howes
  isplitl [Hcg0]; · iexact Hcg0
  isplitl [Htk0]; · iexact Htk0
  iintro ⟨Hb, Hheld, Howes⟩
  ihave Hst := (Entails.of_eq hR1.symm) $$ [Howes HR]
  · isplitl [Howes]; · iexact Howes
    iexact HR
  -- the second halves sliced
  iapply (wp_seq 𝒱 none Set.univ d Su _ (opsC (F := F)) opsC_sub opsC_fresh (VB' m mlpG d)) $$ [Hb Hheld]
  · isplitl [Hb]; · iexact Hb
    iexact Hheld
  iintro ⟨Hb, Hheld⟩
  rw [wp_bind]
  -- call 1
  iapply (call_step1 m mlpG κ d _) $$ [Hst Hheld Hb Hsems Hprng Hcg1 Htk1]
  isplitr; · iexact Hctx
  isplitl [Hst]; · iexact Hst
  isplitl [Hheld]; · unfold VC; iexact Hheld
  iintro ⟨Hst, Hheld⟩
  -- the weights and biases again
  iapply (wp_seq 𝒱 none Set.univ d Su _ (opsD (F := F)) opsD_sub opsD_fresh (VC' m mlpG d)) $$ [Hb Hheld]
  · isplitl [Hb]; · iexact Hb
    iexact Hheld
  iintro ⟨Hb, Hheld⟩
  rw [wp_bind]
  -- region 1
  ihave Hst' := (Entails.of_eq hR2) $$ Hst
  icases Hst' with ⟨Howes, HR⟩
  ihave Hlev := ((K (F := F)).ctx_levAts κ) $$ Hctx
  iapply (hreg1 d _) $$ [Hlev Hb Hheld Howes Hcg1 Htk1 HR Hsems Hprng]
  isplitl [Hlev]; · iexact Hlev
  isplitl [Hb]; · iexact Hb
  isplitl [Hheld]; · unfold VD; iexact Hheld
  isplitl [Howes]; · iexact Howes
  isplitl [Hcg1]; · iexact Hcg1
  isplitl [Htk1]; · iexact Htk1
  iintro ⟨Hb, Hheld, Howes⟩
  ihave Hst := (Entails.of_eq hR2.symm) $$ [Howes HR]
  · isplitl [Howes]; · iexact Howes
    iexact HR
  -- the two halves joined
  iapply (wp_seq 𝒱 none Set.univ d Su _ (opsE (F := F)) opsE_sub opsE_fresh (VD' m mlpG d)) $$ [Hb Hheld]
  · isplitl [Hb]; · iexact Hb
    iexact Hheld
  iintro ⟨Hb, Hheld⟩
  rw [wp_pure]; imodintro
  isplitl [Hst]; · iexact Hst
  unfold FIN VE; iexact Hheld

/-! ## The final memory -/

/-- What a final memory must say: the TensorCore's unscoped arrays are at the last stage. -/
def fq (d : Dev nD) (s' : Phys nD τ sig (Elt F)) : Prop := ∀ b ∈ Su, s'.mem.mem ((d, b) : Loc nD τ sig) = VE m mlpG d b

theorem hfin (d : Dev nD) (s' : Phys nD τ sig (Elt F)) : iprop(FIN m d ∗ SI s') ⊢ (⌜fq m d s'⌝ : sProp 𝕄) := by
  unfold FIN StableHlo.held
  iintro ⟨H, HSI⟩
  ihave Hr := (pointsTo_read_all Su (fun b => ((d, b) : Loc nD τ sig)) (fun b => VE m mlpG d b) s') $$ [H HSI]
  · isplitl [H] <;> iassumption
  icases Hr with ⟨%h, -⟩
  ipureintro; exact h

end Cert.KernelIdeal.Sc

end
-- ==== Proof.ScStore.lean ====
/-
  Everything the handshakes carry is a finite conjunction of points-to assertions, so it can be stored in an invariant.
-/
import proofs.«212020_g4707284156877_cont_8to1c4_553_54_alg».proof.Proof.ScSetup

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable (m : (ℓ : Loc nD τ sig) → Buf (Elt F) ℓ) [FloatOps F]

instance slicePts_storable (d : Dev nD) (s : PosShare TreeShare) (q : Fin 2) (k : Fin 4) : BI.Storable (upEmb : UEmb _ 𝕄) (slicePts m d s q k) :=
  match q, k with
    | ⟨0, _⟩, ⟨0, _⟩ => (inferInstance : BI.Storable (upEmb : UEmb _ 𝕄) ((TT d).loc main_v0 ↦{s} idxOf m d 0 0))
    | ⟨0, _⟩, ⟨1, _⟩ => (inferInstance : BI.Storable (upEmb : UEmb _ 𝕄) ((TT d).loc main_v1 ↦{s} idxOf m d 0 1))
    | ⟨0, _⟩, ⟨2, _⟩ => (inferInstance : BI.Storable (upEmb : UEmb _ 𝕄) ((TT d).loc main_v2 ↦{s} idxOf m d 0 2))
    | ⟨0, _⟩, ⟨3, _⟩ => (inferInstance : BI.Storable (upEmb : UEmb _ 𝕄) ((TT d).loc main_v3 ↦{s} idxOf m d 0 3))
    | ⟨1, _⟩, ⟨0, _⟩ => (inferInstance : BI.Storable (upEmb : UEmb _ 𝕄) ((TT d).loc main_v15 ↦{s} idxOf m d 1 0))
    | ⟨1, _⟩, ⟨1, _⟩ => (inferInstance : BI.Storable (upEmb : UEmb _ 𝕄) ((TT d).loc main_v16 ↦{s} idxOf m d 1 1))
    | ⟨1, _⟩, ⟨2, _⟩ => (inferInstance : BI.Storable (upEmb : UEmb _ 𝕄) ((TT d).loc main_v17 ↦{s} idxOf m d 1 2))
    | ⟨1, _⟩, ⟨3, _⟩ => (inferInstance : BI.Storable (upEmb : UEmb _ 𝕄) ((TT d).loc main_v18 ↦{s} idxOf m d 1 3))
instance tabPts_storable (d : Dev nD) (s : PosShare TreeShare) (k : Fin 4) : BI.Storable (upEmb : UEmb _ 𝕄) (tabPts m d s k) :=
  match k with
    | ⟨0, _⟩ => (inferInstance : BI.Storable (upEmb : UEmb _ 𝕄) ((TT d).loc main_arg4 ↦{s} tabOf m d 0))
    | ⟨1, _⟩ => (inferInstance : BI.Storable (upEmb : UEmb _ 𝕄) ((TT d).loc main_arg5 ↦{s} tabOf m d 1))
    | ⟨2, _⟩ => (inferInstance : BI.Storable (upEmb : UEmb _ 𝕄) ((TT d).loc main_arg6 ↦{s} tabOf m d 2))
    | ⟨3, _⟩ => (inferInstance : BI.Storable (upEmb : UEmb _ 𝕄) ((TT d).loc main_arg7 ↦{s} tabOf m d 3))
omit [FloatOps F] in
instance stripPts_storable (d : Dev nD) (w : Fin 32) (f : S8192x512.Idx → Elt F .f32) (q : Fin 2) : BI.Storable (upEmb : UEmb _ 𝕄) (stripPts d w f q) :=
  match q with
    | ⟨0, _⟩ => (inferInstance : BI.Storable (upEmb : UEmb _ 𝕄) ((TT d).loc main_v4 ↦[oRowSet w]{fullShare} f))
    | ⟨1, _⟩ => (inferInstance : BI.Storable (upEmb : UEmb _ 𝕄) ((TT d).loc main_v19 ↦[oRowSet w]{fullShare} f))
instance readsPts_storable (d : Dev nD) (q : Fin 2) (s : PosShare TreeShare) : BI.Storable (upEmb : UEmb _ 𝕄) (readsPts m d q s) := by
  unfold readsPts; infer_instance
instance goAt_storable (d : Dev nD) (q c : Fin 2) (i : Fin 16) : BI.Storable (upEmb : UEmb _ 𝕄) (goAt m d q c i) := by unfold goAt; infer_instance
instance tdAt_storable (d : Dev nD) (q c : Fin 2) (i : Fin 16) : BI.Storable (upEmb : UEmb _ 𝕄) (tdAt m d q c i) := by unfold tdAt; infer_instance
instance stAt_storable (d : Dev nD) (q c : Fin 2) : BI.Storable (upEmb : UEmb _ 𝕄) (stAt m d q c) := by unfold stAt; infer_instance
instance dnAt_storable (d : Dev nD) (q c : Fin 2) : BI.Storable (upEmb : UEmb _ 𝕄) (dnAt m d q c) := by unfold dnAt; infer_instance

instance P_storable : (P (F := F) m).IsStorable where
  st q d c := stAt_storable m d q _
  dn q d c := dnAt_storable m d q _
  go q d c i := goAt_storable m d q _ _
  td q d c i := tdAt_storable m d q _ _

end Cert.KernelIdeal.Sc

end
-- ==== Proof.PreFacts.lean ====
/-
  The precondition read back for the four index arrays.

  The precondition is one conjunction: sixteen "every entry of this float array is finite" conjuncts, then, for each of
  the four index arrays, "every word is at least 0 and at most 99999 as a signed number". The whole is 1 exactly when
  every conjunct is 1; a conjunct that is a reduction by `and` over an array is 1 exactly when every entry is 1; and a
  32-bit word that is between 0 and 99999 as a signed number is at most 99999 as an unsigned number.
-/
import proofs.«212020_g4707284156877_cont_8to1c4_553_54_alg».proof.Pre_input_domain
import proofs.«212020_g4707284156877_cont_8to1c4_553_54_alg».proof.Proof.Gen.Pre_input_domain
import Idealize.ShloMosaic.Lib.ReduceAll
import Idealize.ShloMosaic.Lib.ValueIdx

noncomputable section

namespace Cert.PreFacts

open Idealize.ShloMosaic Cert.Pre_input_domain

/-- The scalar shape has one index. -/
instance : Subsingleton S_.Idx := ⟨fun a b => funext fun d => d.elim0⟩

/-- A one-bit word made from a truth value is 1 exactly when the value is true. -/
theorem ofBool_eq_one (p : Bool) : (BitVec.ofBool p = 1#1) ↔ p = true := by cases p <;> decide

/-- A word between 0 and 99999 as a signed number is at most 99999 as an unsigned number. -/
theorem toNat_le (w : BitVec 32) (h0 : IntOp.cmpi .sge w 0#32 = 1#1) (h1 : IntOp.cmpi .sle w 99999#32 = 1#1) :
    w.toNat ≤ 99999 := by
  simp only [IntOp.cmpi, ofBool_eq_one, BitVec.sle_eq_decide, decide_eq_true_eq, BitVec.toInt_eq_toNat_cond,
    BitVec.toNat_ofNat, Nat.reducePow, Nat.reduceMod] at h0 h1
  omega

variable {F : FTy → Type} [FloatOps F] [Facts]

/-- The last part of the conjunction: what came before it, the two halves of the third array's range, and the fourth
    array's range. -/
theorem part5 (a2 a3 : IVec S16384 32) (v82 : IVec S_ 1) (v84 : IVec S16384 1) (j0 : S_.Idx)
    (h : fn_part5 (F := F) a2 a3 v82 v84 j0 = 1#1) :
    v82 j0 = 1#1 ∧ (∀ j, v84 j = 1#1 ∧ IntOp.cmpi .sle (a2 j) 99999#32 = 1#1)
      ∧ (∀ j, IntOp.cmpi .sge (a3 j) 0#32 = 1#1 ∧ IntOp.cmpi .sle (a3 j) 99999#32 = 1#1) := by
  unfold fn_part5 at h
  simp only [andi, IntOp.andi_eq_one] at h
  obtain ⟨⟨h82, h88⟩, h95⟩ := h
  refine ⟨h82, fun j => ?_, fun j => ?_⟩
  · have e := Host.reduce_andi_all _ _ _ _ _ h88 j
    simpa only [andi, cmpi, broadcastInDim, constantI, IntOp.andi_eq_one] using e
  · have e := Host.reduce_andi_all _ _ _ _ _ h95 j
    simpa only [andi, cmpi, broadcastInDim, constantI, IntOp.andi_eq_one] using e

/-- The part before it: what came before, the first and second arrays' ranges, and the last part. -/
theorem part4 (a0 a1 a2 a3 : IVec S16384 32) (v63 v67 : IVec S_ 1) (j0 : S_.Idx)
    (h : fn_part4 (F := F) a0 a1 a2 a3 v63 v67 j0 = 1#1) :
    (∀ j, (a0 j).toNat ≤ 99999) ∧ (∀ j, (a1 j).toNat ≤ 99999) ∧ (∀ j, (a2 j).toNat ≤ 99999)
      ∧ (∀ j, (a3 j).toNat ≤ 99999) := by
  unfold fn_part4 at h
  obtain ⟨h82, h2, h3⟩ := part5 (F := F) _ _ _ _ _ h
  simp only [andi, IntOp.andi_eq_one] at h82
  obtain ⟨⟨-, h74⟩, h81⟩ := h82
  refine ⟨fun j => ?_, fun j => ?_, fun j => ?_, fun j => toNat_le _ (h3 j).1 (h3 j).2⟩
  · have e := Host.reduce_andi_all _ _ _ _ _ h74 j
    simp only [andi, cmpi, broadcastInDim, constantI, IntOp.andi_eq_one] at e
    exact toNat_le _ e.1 e.2
  · have e := Host.reduce_andi_all _ _ _ _ _ h81 j
    simp only [andi, cmpi, broadcastInDim, constantI, IntOp.andi_eq_one] at e
    exact toNat_le _ e.1 e.2
  · have e := (h2 j).1
    simp only [cmpi, broadcastInDim, constantI] at e
    exact toNat_le _ e (h2 j).2

/-- The whole precondition ends in the part that holds the four ranges: the sixteen finiteness conjuncts come first
    and are carried in as two one-bit values. -/
theorem fn_eq_part4 (a0 a1 a2 a3 : IVec S16384 32)
    (a4 a5 a6 a7 : FVec F S100001x128 .f32) (a8 : FVec F S512x512 .f32) (a9 : FVec F S512 .f32)
    (a10 : FVec F S256x512 .f32) (a11 : FVec F S256 .f32) (a12 : FVec F S128x256 .f32) (a13 : FVec F S128 .f32)
    (a14 : FVec F S64x128 .f32) (a15 : FVec F S64 .f32) (a16 : FVec F S1x64 .f32) (a17 : FVec F S1 .f32) :
    ∃ v63 v67 : IVec S_ 1, fn (F := F) a0 a1 a2 a3 a4 a5 a6 a7 a8 a9 a10 a11 a12 a13 a14 a15 a16 a17
      = fn_part4 (F := F) a0 a1 a2 a3 v63 v67 :=
  ⟨_, _, rfl⟩

/-- Under the precondition every index word is at most 99999 as an unsigned number. -/
theorem idx_range (a0 a1 a2 a3 : IVec S16384 32)
    (a4 a5 a6 a7 : FVec F S100001x128 .f32) (a8 : FVec F S512x512 .f32) (a9 : FVec F S512 .f32)
    (a10 : FVec F S256x512 .f32) (a11 : FVec F S256 .f32) (a12 : FVec F S128x256 .f32) (a13 : FVec F S128 .f32)
    (a14 : FVec F S64x128 .f32) (a15 : FVec F S64 .f32) (a16 : FVec F S1x64 .f32) (a17 : FVec F S1 .f32)
    (h : fn (F := F) a0 a1 a2 a3 a4 a5 a6 a7 a8 a9 a10 a11 a12 a13 a14 a15 a16 a17 = fun _ => 1#1) :
    (∀ j, (a0 j).toNat ≤ 99999) ∧ (∀ j, (a1 j).toNat ≤ 99999) ∧ (∀ j, (a2 j).toNat ≤ 99999)
      ∧ (∀ j, (a3 j).toNat ≤ 99999) := by
  obtain ⟨v63, v67, e⟩ := fn_eq_part4 (F := F) a0 a1 a2 a3 a4 a5 a6 a7 a8 a9 a10 a11 a12 a13 a14 a15 a16 a17
  rw [e] at h
  exact part4 (F := F) a0 a1 a2 a3 v63 v67 ValueIdx.ix0 (congrFun h ValueIdx.ix0)

end Cert.PreFacts

end
-- ==== Proof.ScPre.lean ====
/-
  The precondition gives what the gathers ask of the launch memory: every word of the four index arrays is at most
  99999 as an unsigned number, so it names a row of its table.
-/
import proofs.«212020_g4707284156877_cont_8to1c4_553_54_alg».proof.Defs
import proofs.«212020_g4707284156877_cont_8to1c4_553_54_alg».proof.Proof.PreFacts
import proofs.«212020_g4707284156877_cont_8to1c4_553_54_alg».proof.Proof.ScSetup

noncomputable section

namespace Cert.KernelIdeal.Sc

open Cert.KernelIdeal Cert.KernelIdeal.Gen

open Idealize.ShloMosaic Idealize.ShloMosaic.ValueIdx
open Idealize.SL Idealize.SL.Sem

variable {F : FTy → Type} [FloatOps F]

theorem preOK_of_pre [Cert.Pre_input_domain.Facts] (m : (ℓ : Loc nD τ sig) → Buf (Elt F) ℓ)
    (h : ∀ c : Dev nD,
      Cert.Pre_input_domain.fn (F := F) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        = fun _ => 1#1) :
    PreOK m := by
  intro d k j
  obtain ⟨h0, h1, h2, h3⟩ := Cert.PreFacts.idx_range (F := F) _ _ _ _ _ _ _ _ _ _ _ _ _ _ _ _ _ _ (h d)
  match k with
  | ⟨0, _⟩ => exact h0 j
  | ⟨1, _⟩ => exact h1 j
  | ⟨2, _⟩ => exact h2 j
  | ⟨3, _⟩ => exact h3 j

end Cert.KernelIdeal.Sc

end
-- ==== Proof.KValArgs.lean ====
/-
  No line of host operations writes an argument array, and no call or region rewrites one: after the last line each of
  the eighteen argument arrays holds its launch contents.
-/
import proofs.«212020_g4707284156877_cont_8to1c4_553_54_alg».proof.Proof.ScVals

noncomputable section

namespace Cert.KernelIdeal.Sc

open Cert.KernelIdeal Cert.KernelIdeal.Gen

open Idealize.ShloMosaic Idealize.ShloMosaic.ValueIdx
open Idealize.ShloMosaic.StableHlo
open Idealize.SL Idealize.SL.Sem

variable {F : FTy → Type} (m : (ℓ : Loc nD τ sig) → Buf (Elt F) ℓ) [FloatOps F] (G : MlpFn F)

/-- A reference no line writes and no call or region rewrites holds its launch contents before region 1. -/
theorem VD_launch (d : Dev nD) (r : Ref sig .tc) (hA : r ∉ WA := by decide) (hB : r ∉ WB := by decide) (hC : r ∉ WC := by decide)
    (hD : r ∉ WD := by decide) (h4 : rf r ≠ rf main_v4 := by decide) (h14 : rf r ≠ rf main_v14 := by decide)
    (h19 : rf r ≠ rf main_v19 := by decide) : VD m G d (rf r) = V0 m d (rf r) := by
  rw [VD_keep m G d r hD, VC'_keep m G d r h19, VC_launch m G d r hA hB hC h4 h14]

/-- … and after the last line. -/
theorem VE_launch (d : Dev nD) (r : Ref sig .tc) (hA : r ∉ WA := by decide) (hB : r ∉ WB := by decide) (hC : r ∉ WC := by decide)
    (hD : r ∉ WD := by decide) (hE : r ∉ WE := by decide) (h4 : rf r ≠ rf main_v4 := by decide)
    (h14 : rf r ≠ rf main_v14 := by decide) (h19 : rf r ≠ rf main_v19 := by decide) (h29 : rf r ≠ rf main_v29 := by decide) :
    VE m G d (rf r) = m ((TT d).loc r) := by
  rw [VE_keep m G d r hE, VD'_keep m G d r h29, VD_launch m G d r hA hB hC hD h4 h14 h19]
  rfl

theorem VE_arg0 (d : Dev nD) : VE m G d (rf main_arg0) = m ((TT d).loc main_arg0) := VE_launch m G d main_arg0
theorem VE_arg1 (d : Dev nD) : VE m G d (rf main_arg1) = m ((TT d).loc main_arg1) := VE_launch m G d main_arg1
theorem VE_arg2 (d : Dev nD) : VE m G d (rf main_arg2) = m ((TT d).loc main_arg2) := VE_launch m G d main_arg2
theorem VE_arg3 (d : Dev nD) : VE m G d (rf main_arg3) = m ((TT d).loc main_arg3) := VE_launch m G d main_arg3
theorem VE_arg4 (d : Dev nD) : VE m G d (rf main_arg4) = m ((TT d).loc main_arg4) := VE_launch m G d main_arg4
theorem VE_arg5 (d : Dev nD) : VE m G d (rf main_arg5) = m ((TT d).loc main_arg5) := VE_launch m G d main_arg5
theorem VE_arg6 (d : Dev nD) : VE m G d (rf main_arg6) = m ((TT d).loc main_arg6) := VE_launch m G d main_arg6
theorem VE_arg7 (d : Dev nD) : VE m G d (rf main_arg7) = m ((TT d).loc main_arg7) := VE_launch m G d main_arg7
theorem VE_arg8 (d : Dev nD) : VE m G d (rf main_arg8) = m ((TT d).loc main_arg8) := VE_launch m G d main_arg8
theorem VE_arg9 (d : Dev nD) : VE m G d (rf main_arg9) = m ((TT d).loc main_arg9) := VE_launch m G d main_arg9
theorem VE_arg10 (d : Dev nD) : VE m G d (rf main_arg10) = m ((TT d).loc main_arg10) := VE_launch m G d main_arg10
theorem VE_arg11 (d : Dev nD) : VE m G d (rf main_arg11) = m ((TT d).loc main_arg11) := VE_launch m G d main_arg11
theorem VE_arg12 (d : Dev nD) : VE m G d (rf main_arg12) = m ((TT d).loc main_arg12) := VE_launch m G d main_arg12
theorem VE_arg13 (d : Dev nD) : VE m G d (rf main_arg13) = m ((TT d).loc main_arg13) := VE_launch m G d main_arg13
theorem VE_arg14 (d : Dev nD) : VE m G d (rf main_arg14) = m ((TT d).loc main_arg14) := VE_launch m G d main_arg14
theorem VE_arg15 (d : Dev nD) : VE m G d (rf main_arg15) = m ((TT d).loc main_arg15) := VE_launch m G d main_arg15
theorem VE_arg16 (d : Dev nD) : VE m G d (rf main_arg16) = m ((TT d).loc main_arg16) := VE_launch m G d main_arg16
theorem VE_arg17 (d : Dev nD) : VE m G d (rf main_arg17) = m ((TT d).loc main_arg17) := VE_launch m G d main_arg17

end Cert.KernelIdeal.Sc

end
-- ==== Proof.ScFinal.lean ====
/-
  The kernel program's run from the launch theorem, and the claims read off it: every weakly fair execution of the
  TensorCore's @main, the two sequencers and the thirty-two vector subcores terminates without a fault; the final
  memory has the eighteen arguments as launched and the result at the stage valuation's last array, which at the ideal
  instance is the common specification — as is the reference's result.
-/
import proofs.«212020_g4707284156877_cont_8to1c4_553_54_alg».proof.Proof.ScRun
import proofs.«212020_g4707284156877_cont_8to1c4_553_54_alg».proof.Proof.ScStore
import proofs.«212020_g4707284156877_cont_8to1c4_553_54_alg».proof.Proof.ScPre
import proofs.«212020_g4707284156877_cont_8to1c4_553_54_alg».proof.Proof.KValArgs

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Mlp (adm mlpG)

variable {F : FTy → Type}

local notation "𝕄" => MT nD τ sig (HIx 2) (Elt F) ℕ UU ℕ

variable (m : (ℓ : Loc nD τ sig) → Buf (Elt F) ℓ) (ρ : Dev nD → PrngReg) [FloatOps F]

/-- What the run establishes of every final memory: each device's unscoped TensorCore arrays at the last stage. -/
def QC : PUnit × MemSt nD τ sig (Elt F) → Prop :=
  fun r => ∀ (c : Dev nD) (b : DevRef τ sig), b ∈ Su → r.2.mem ((c, b) : Loc nD τ sig) = VE m mlpG c b

omit [FloatOps F] in
theorem kind_vec (q : Fin 2) : (K (F := F)).kind q = .scVector := by fin_cases q <;> rfl

theorem run_main [∀ e, Nonempty (Elt F e)]
    (htile : ∀ q, (K (F := F)).kind q = .scVector → (K (F := F)).TileObl (D (F := F)) 𝒱 (P m) v₀ q)
    (hreg0 : RegionStep (F := F) 0 1 (VB m) (VB' m mlpG)) (hreg1 : RegionStep (F := F) 1 2 (VD m mlpG) (VD' m mlpG)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => absurd ((kind_vec (F := F) q).symm.trans hq) (by decide))
    htile
    (fun q _ => SparseCore.Cfg.VecSplit.of_plain (vecSplit m q))
    m ρ main (GG (F := F)) (FIN m) (u₀ (F := F)) (sep_elim_left.trans (hu₀ m)) (hmain m ρ hreg0 hreg1) (fq m) (hfin m) (QC m)
    (fun _ h c b hb => h c b hb)

/-- The frame's post from the run's: no line, call or region writes an argument. -/
theorem frame_of_QC (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  ⟨(h c (rf main_arg0) (rf_mem _)).trans (VE_arg0 m mlpG c), ⟨(h c (rf main_arg1) (rf_mem _)).trans (VE_arg1 m mlpG c), ⟨(h c (rf main_arg2) (rf_mem _)).trans (VE_arg2 m mlpG c), ⟨(h c (rf main_arg3) (rf_mem _)).trans (VE_arg3 m mlpG c), ⟨(h c (rf main_arg4) (rf_mem _)).trans (VE_arg4 m mlpG c), ⟨(h c (rf main_arg5) (rf_mem _)).trans (VE_arg5 m mlpG c), ⟨(h c (rf main_arg6) (rf_mem _)).trans (VE_arg6 m mlpG c), ⟨(h c (rf main_arg7) (rf_mem _)).trans (VE_arg7 m mlpG c), ⟨(h c (rf main_arg8) (rf_mem _)).trans (VE_arg8 m mlpG c), ⟨(h c (rf main_arg9) (rf_mem _)).trans (VE_arg9 m mlpG c), ⟨(h c (rf main_arg10) (rf_mem _)).trans (VE_arg10 m mlpG c), ⟨(h c (rf main_arg11) (rf_mem _)).trans (VE_arg11 m mlpG c), ⟨(h c (rf main_arg12) (rf_mem _)).trans (VE_arg12 m mlpG c), ⟨(h c (rf main_arg13) (rf_mem _)).trans (VE_arg13 m mlpG c), ⟨(h c (rf main_arg14) (rf_mem _)).trans (VE_arg14 m mlpG c), ⟨(h c (rf main_arg15) (rf_mem _)).trans (VE_arg15 m mlpG c), ⟨(h c (rf main_arg16) (rf_mem _)).trans (VE_arg16 m mlpG c), (h c (rf main_arg17) (rf_mem _)).trans (VE_arg17 m mlpG c)⟩⟩⟩⟩⟩⟩⟩⟩⟩⟩⟩⟩⟩⟩⟩⟩⟩

end Cert.KernelIdeal.Sc

end
-- ==== Proof.ScObl.lean ====
/-
  The vector subcores' obligations of the launch theorem from one worker's task proved at a symbolic point of the
  call's grid: the task's program is the kernel's row of the body table at that subcore, lifted to the pipeline
  library's table; the recorded waits of the task all sit at the kernel's own index.
-/
import proofs.«212020_g4707284156877_cont_8to1c4_553_54_alg».proof.Proof.ScLaunchA

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) [FloatOps F]

/-! ## Call 0 -/

def coordsV0 (c : Fin (grid0.bound 0)) (s : Fin (grid0.bound 1)) : grid0.Coords :=
  fun | 0 => c | 1 => s | ⟨_ + 2, h⟩ => absurd h (Nat.not_lt.2 (Nat.le_add_left _ _))

/-- The thread and the worker's two numbers of a point of the call's grid. -/
abbrev wcV0 (L : grid0.Coords) : Fin τ.nSC := (L 0).castLE hcore0
abbrev wjV0 (L : grid0.Coords) : Fin τ.nSub := (L 1).castLE hsub0
abbrev wcL0 (L : grid0.Coords) : Fin 2 := ⟨(L 0).val, (L 0).isLt⟩
abbrev wiL0 (L : grid0.Coords) : Fin 16 := ⟨(L 1).val, (L 1).isLt⟩

/-- One worker's task of call 0, as the body's proof states it. -/
abbrev TileBody0 : Prop :=
  ∀ (hF : (K (F := F)).Facts) (hpre : PreOK m) (d : Dev nD) (L : grid0.Coords) (O : CellTallies nD τ sig (HIx 2)) (W : Waits sig (HIx 2)) (hO : ∀ g, O g none = 0),
    iprop(levAts (K (F := F)).L (K (F := F)).lev ∗ emp ∗ goAt m d 0 (wcL0 L) (wiL0 L)
        ∗ scopedBufs (V d (wcV0 L) (wjV0 L)) ∗ scopedSems0 (V d (wcV0 L) (wjV0 L)) ∗ owes (V d (wcV0 L) (wjV0 L)) O W)
      ⊢ wp frame (wpE (defs₀ (F := F)) 𝒱₀ (V d (wcV0 L) (wjV0 L)) none) Set.univ
          (cc0__sc_gather_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (wcL0 L) (wiL0 L) ∗ scopedBufs (V d (wcV0 L) (wjV0 L)) ∗ scopedSems0 (V d (wcV0 L) (wjV0 L))
            ∗ ∃ W', ⌜∀ p ∈ W', p ∈ W ∨ p.2 = none⌝ ∗ owes (V d (wcV0 L) (wjV0 L)) O W')

theorem defs₀_vector0 (c : Fin τ.nSC) (s : Fin τ.nSub) :
    defs₀ (F := F) (.scVector c s) 0 ()
      = SparseCore.onTile hcore0 hsub0 (fun c s => cc0__sc_gather_body (coordsV0 c s) (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scoped0 cc0_scoped1 cc0_scoped2 cc0_scoped3) ⟨⟩ c s := rfl

set_option maxRecDepth 16384 in
theorem tileObl0 (hb : TileBody0 (F := F) m) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hb facts hpre d (coordsV0 ⟨_, hci.1⟩ ⟨_, hci.2⟩) O W hO).trans (wp_mono frame _ _ fun _ => obl_post)

/-! ## Call 1 -/

def coordsV1 (c : Fin (grid2.bound 0)) (s : Fin (grid2.bound 1)) : grid2.Coords :=
  fun | 0 => c | 1 => s | ⟨_ + 2, h⟩ => absurd h (Nat.not_lt.2 (Nat.le_add_left _ _))

/-- The thread and the worker's two numbers of a point of the call's grid. -/
abbrev wcV1 (L : grid2.Coords) : Fin τ.nSC := (L 0).castLE hcore2
abbrev wjV1 (L : grid2.Coords) : Fin τ.nSub := (L 1).castLE hsub2
abbrev wcL1 (L : grid2.Coords) : Fin 2 := ⟨(L 0).val, (L 0).isLt⟩
abbrev wiL1 (L : grid2.Coords) : Fin 16 := ⟨(L 1).val, (L 1).isLt⟩

/-- One worker's task of call 1, as the body's proof states it. -/
abbrev TileBody1 : Prop :=
  ∀ (hF : (K (F := F)).Facts) (hpre : PreOK m) (d : Dev nD) (L : grid2.Coords) (O : CellTallies nD τ sig (HIx 2)) (W : Waits sig (HIx 2)) (hO : ∀ g, O g none = 0),
    iprop(levAts (K (F := F)).L (K (F := F)).lev ∗ emp ∗ goAt m d 1 (wcL1 L) (wiL1 L)
        ∗ scopedBufs (V d (wcV1 L) (wjV1 L)) ∗ scopedSems0 (V d (wcV1 L) (wjV1 L)) ∗ owes (V d (wcV1 L) (wjV1 L)) O W)
      ⊢ wp frame (wpE (defs₀ (F := F)) 𝒱₀ (V d (wcV1 L) (wjV1 L)) none) Set.univ
          (cc2__sc_gather_body L (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (wcL1 L) (wiL1 L) ∗ scopedBufs (V d (wcV1 L) (wjV1 L)) ∗ scopedSems0 (V d (wcV1 L) (wjV1 L))
            ∗ ∃ W', ⌜∀ p ∈ W', p ∈ W ∨ p.2 = none⌝ ∗ owes (V d (wcV1 L) (wjV1 L)) O W')

theorem defs₀_vector1 (c : Fin τ.nSC) (s : Fin τ.nSub) :
    defs₀ (F := F) (.scVector c s) 2 ()
      = SparseCore.onTile hcore2 hsub2 (fun c s => cc2__sc_gather_body (coordsV1 c s) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scratch9 cc2_scratch10 cc2_scratch11 cc2_scratch12 cc2_scoped0 cc2_scoped1 cc2_scoped2 cc2_scoped3) ⟨⟩ c s := rfl

set_option maxRecDepth 16384 in
theorem tileObl1 (hb : TileBody1 (F := F) m) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hb facts hpre d (coordsV1 ⟨_, hci.1⟩ ⟨_, hci.2⟩) O W hO).trans (wp_mono frame _ _ fun _ => obl_post)

end Cert.KernelIdeal.Sc

end
-- ==== Proof.ScRegionData.lean ====
/-
  The two perceptron regions' proof data at the enclosing program's stages.

  Region 0 finds the arrays as the line of casts and reshapes before it left them, region 1 as the second such line
  left them. While either runs the TensorCore owes the start signals of the calls still to come, all at those calls'
  indices, never at the index `none` the pipeline's staging cells wait at; the waits it has recorded by then lie within
  the bound of the calls already made.
-/
import proofs.«212020_g4707284156877_cont_8to1c4_553_54_alg».proof.Proof.MlpData
import proofs.«212020_g4707284156877_cont_8to1c4_553_54_alg».proof.Proof.MlpFn
import proofs.«212020_g4707284156877_cont_8to1c4_553_54_alg».proof.Proof.ScEmb
import proofs.«212020_g4707284156877_cont_8to1c4_553_54_alg».proof.Proof.ScVals
import proofs.«212020_g4707284156877_cont_8to1c4_553_54_alg».proof.Proof.ScSetup
import Idealize.ShloMosaic.Lib.SparseCore.Threads

noncomputable section

namespace Cert.KernelIdeal.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The family of proof data at the program's stages -/

/-- The arrays as the line before region 0 left them, and as the line before region 1 left them. -/
def V1s (c : Dev nD) (b : Ref sig .tc) : Buf (Elt F) ((c : Thread nD τ).loc b) := VB m c (rf b)
def V3s (c : Dev nD) (b : Ref sig .tc) : Buf (Elt F) ((c : Thread nD τ).loc b) := VD m Mlp.mlpG c (rf b)

/-- What the TensorCore owes while region 0, and while region 1, runs: the start signals of the calls still to come; -/
abbrev O1s (c : Dev nD) : CellTallies nD τ sig (HIx 2) := (K (F := F)).Otc c 1
abbrev O3s (c : Dev nD) : CellTallies nD τ sig (HIx 2) := (K (F := F)).Otc c 2
/-- and the bound on the waits it has recorded by then. -/
abbrev R1s (c : Dev nD) : Set (SemLoc sig × HIx 2) := recTc (F := F) c 1
abbrev R3s (c : Dev nD) : Set (SemLoc sig × HIx 2) := recTc (F := F) c 2

/-- Both regions' proof data, each at its stage. -/
abbrev pd : (p : Fin 2) → (c : Dev nD) → Pipeline.Dat τ (Elt F) (HIx 2) ℕ UU ℕ (Pipeline.pin (pcfgs (F := F)) Mlp.adm p) c :=
  Mlp.pdats (V1s m) (V3s m) (O1s (F := F)) (O3s (F := F)) (R1s (F := F)) (R3s (F := F))

omit [FloatOps F] in
/-- A start signal owed is at a call's index, never at `none`. -/
theorem Otc_none (d : Dev nD) (n : ℕ) (g : GSem nD τ sig) : (K (F := F)).Otc d n g none = 0 :=
  Nat.eq_zero_of_not_pos fun h => by
    have h1 := SparseCore.Cfg.lev_of_Otc_pos h
    rw [SparseCore.Cfg.lev_none] at h1
    omega

end Cert.KernelIdeal.Sc

end
-- ==== Proof.MlpRegion.lean ====
/-
  The two perceptron regions as segments of the enclosing program.

  A region is entered from a thread state and left at another, both the caller's. What the region itself fixes: its
  pipeline's layout, that the kernel has no semaphore of its own, the body obligation, and its invariant — the core's
  scoped buffers that no window of the pipeline stages, which come from the region's boundary at entry and go back to
  it at exit, so that nothing of the thread state passes through the invariant. The caller supplies the evidence that
  the core may wait on the pipeline's staging cells while owing what it owes, and how the arrays and the owed tallies
  are sorted out of its thread state at entry and put back at exit.
-/
import proofs.«212020_g4707284156877_cont_8to1c4_553_54_alg».proof.Proof.MlpData
import Idealize.ShloMosaic.Lib.Pipeline.Regions

noncomputable section

namespace Cert.KernelIdeal.Mlp

open Cert.KernelIdeal Cert.KernelIdeal.Gen
open Cert.KernelIdeal.Sc (UU)
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 2) (Elt F) ℕ UU ℕ

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- The first half's region as a segment of the enclosing program, between thread states of the caller's choosing:
    the pipeline's decided layout; no semaphore of the kernel's own; the body obligation; the caller's wait evidence;
    nothing enters the invariant from the thread state and nothing comes back from it (the invariant is the scoped
    buffers the pipeline does not stage, which the region's boundary supplies and takes back); the caller's entry and
    exit entailments, stated with `emp` in the invariant's places. -/
def region1 (L : GSem nD τ sig → Finset (HIx 2)) (lv : GSem nD τ sig → HIx 2 → ℕ) (pre post Z : Dev nD → sProp 𝕄)
    (hwaits : ∀ c, (levAts L lv : sProp 𝕄) ⊢ Pipeline.cellsWaits (Pipeline.pin (pcfgs (F := F)) adm) (pdats V1 V3 O1 O3 R1 R3) (none : HIx 2) 0 c)
    (hentry : ∀ c, iprop(pre c ∗ Pipeline.ownSems0 (fun k : PEmpty => k.elim) c ∗ levAts L lv)
      ⊢ |={Set.univ}=> iprop((pdats V1 V3 O1 O3 R1 R3 0 c).arrays ((pdats V1 V3 O1 O3 R1 R3 0 c).arrAt · 0)
          ∗ Pipeline.prefHeld (pcfgs (F := F) 0).pre c (fun _ => fullShare) (adm (F := F) 0).1
          ∗ (pdats V1 V3 O1 O3 R1 R3 0 c).owesAt (none : HIx 2) 0 ∗ emp ∗ Z c))
    (hexit : ∀ c, iprop((pdats V1 V3 O1 O3 R1 R3 0 c).arrays ((pdats V1 V3 O1 O3 R1 R3 0 c).arrAt · (Pipeline.pin (pcfgs (F := F)) adm 0).N)
          ∗ (pdats V1 V3 O1 O3 R1 R3 0 c).owesAt (none : HIx 2) (Fin.last (Pipeline.pin (pcfgs (F := F)) adm 0).N) ∗ emp ∗ Z c)
      ⊢ |={Set.univ}=> post c) :
    Pipeline.RegionSeg (pcfgs (F := F)) adm (pdats V1 V3 O1 O3 R1 R3) (none : HIx 2) defs₀ Variants.none L lv 0 where
  win := launch1.win.to₀
  block_pos := launch1.block_pos
  stage_whole := launch1.stage_whole
  K := PEmpty
  osem k := k.elim
  ho := Pipeline.OwnSemFacts.none _
  hbody c := (body_obligation_p0 V1 V3 O1 O3 R1 R3 c).loose
  hwaits := hwaits
  pre := pre
  post := post
  X _ := iprop(emp)
  Y _ := iprop(emp)
  Z := Z
  hentry := hentry
  hin c := by
    rw [show (pdats V1 V3 O1 O3 R1 R3 0 c).Φ 0 = Pipeline.scopedRest (Ix := HIx 2) (Name := ℕ) (U := UU) (Lvl := ℕ) (Val := Elt F) spec1 c from rfl]
    iintro ⟨-, -, Hr⟩
    iexact Hr
  hout c := by
    rw [Pipeline.ownSems0_none, show (pdats V1 V3 O1 O3 R1 R3 0 c).Φ (Fin.last (Pipeline.pin (pcfgs (F := F)) adm 0).N) = Pipeline.scopedRest (Ix := HIx 2) (Name := ℕ) (U := UU) (Lvl := ℕ) (Val := Elt F) spec1 c from rfl]
    iintro Hr
    isplitr; · iempintro
    isplitr; · iempintro
    iexact Hr
  hexit := hexit

/-- The second half's region as a segment of the enclosing program, between thread states of the caller's choosing:
    the pipeline's decided layout; no semaphore of the kernel's own; the body obligation; the caller's wait evidence;
    nothing enters the invariant from the thread state and nothing comes back from it (the invariant is the scoped
    buffers the pipeline does not stage, which the region's boundary supplies and takes back); the caller's entry and
    exit entailments, stated with `emp` in the invariant's places. -/
def region3 (L : GSem nD τ sig → Finset (HIx 2)) (lv : GSem nD τ sig → HIx 2 → ℕ) (pre post Z : Dev nD → sProp 𝕄)
    (hwaits : ∀ c, (levAts L lv : sProp 𝕄) ⊢ Pipeline.cellsWaits (Pipeline.pin (pcfgs (F := F)) adm) (pdats V1 V3 O1 O3 R1 R3) (none : HIx 2) 1 c)
    (hentry : ∀ c, iprop(pre c ∗ Pipeline.ownSems0 (fun k : PEmpty => k.elim) c ∗ levAts L lv)
      ⊢ |={Set.univ}=> iprop((pdats V1 V3 O1 O3 R1 R3 1 c).arrays ((pdats V1 V3 O1 O3 R1 R3 1 c).arrAt · 0)
          ∗ Pipeline.prefHeld (pcfgs (F := F) 1).pre c (fun _ => fullShare) (adm (F := F) 1).1
          ∗ (pdats V1 V3 O1 O3 R1 R3 1 c).owesAt (none : HIx 2) 0 ∗ emp ∗ Z c))
    (hexit : ∀ c, iprop((pdats V1 V3 O1 O3 R1 R3 1 c).arrays ((pdats V1 V3 O1 O3 R1 R3 1 c).arrAt · (Pipeline.pin (pcfgs (F := F)) adm 1).N)
          ∗ (pdats V1 V3 O1 O3 R1 R3 1 c).owesAt (none : HIx 2) (Fin.last (Pipeline.pin (pcfgs (F := F)) adm 1).N) ∗ emp ∗ Z c)
      ⊢ |={Set.univ}=> post c) :
    Pipeline.RegionSeg (pcfgs (F := F)) adm (pdats V1 V3 O1 O3 R1 R3) (none : HIx 2) defs₀ Variants.none L lv 1 where
  win := launch3.win.to₀
  block_pos := launch3.block_pos
  stage_whole := launch3.stage_whole
  K := PEmpty
  osem k := k.elim
  ho := Pipeline.OwnSemFacts.none _
  hbody c := (body_obligation_p1 V1 V3 O1 O3 R1 R3 c).loose
  hwaits := hwaits
  pre := pre
  post := post
  X _ := iprop(emp)
  Y _ := iprop(emp)
  Z := Z
  hentry := hentry
  hin c := by
    rw [show (pdats V1 V3 O1 O3 R1 R3 1 c).Φ 0 = Pipeline.scopedRest (Ix := HIx 2) (Name := ℕ) (U := UU) (Lvl := ℕ) (Val := Elt F) spec3 c from rfl]
    iintro ⟨-, -, Hr⟩
    iexact Hr
  hout c := by
    rw [Pipeline.ownSems0_none, show (pdats V1 V3 O1 O3 R1 R3 1 c).Φ (Fin.last (Pipeline.pin (pcfgs (F := F)) adm 1).N) = Pipeline.scopedRest (Ix := HIx 2) (Name := ℕ) (U := UU) (Lvl := ℕ) (Val := Elt F) spec3 c from rfl]
    iintro Hr
    isplitr; · iempintro
    isplitr; · iempintro
    iexact Hr
  hexit := hexit

end Cert.KernelIdeal.Mlp

end
-- ==== Proof.MlpArr1.lean ====
/-
  What the first half's perceptron region leaves in its arrays.

  The ten weight and bias arrays and the feature array are only read: each ends as the region found it. The result
  array's entries `[2048 t, 2048 t + 2048)` are written back at grid point `t` from the result's staged block, which
  the body left at the predictions of the feature rows `[2048 t, 2048 t + 2048)`; entry `r` lies in the block of point
  `r / 2048`, so the four blocks cover the array and it ends at `mlpG` of the arrays as the region found them.
-/
import proofs.«212020_g4707284156877_cont_8to1c4_553_54_alg».proof.Proof.MlpBody1
import proofs.«212020_g4707284156877_cont_8to1c4_553_54_alg».proof.Proof.MlpFn
import Idealize.ShloMosaic.Lib.Pipeline.Value

set_option maxRecDepth 16384

noncomputable section

namespace Cert.KernelIdeal.Mlp

open Cert.KernelIdeal Cert.KernelIdeal.Gen
open Cert.KernelIdeal.Sc (UU)
open Idealize.ShloMosaic Idealize.ShloMosaic.TcCoe Idealize.ShloMosaic.ValueIdx
open Idealize.ShloMosaic.SparseCore.Cfg (HIx)
open Idealize.ShloMosaic.Pipeline (Dat Cfg Window)

variable {F : FTy → Type} [FloatOps F]

variable (V : (c : Dev nD) → (b : Ref sig .tc) → Buf (Elt F) ((c : Thread nD τ).loc b))
variable (O : Dev nD → CellTallies nD τ sig (HIx 2)) (Rd : Dev nD → Set (SemLoc sig × HIx 2))

theorem hz1_1 : (![0] : Fin 1 → Nat) = fun _ => 0 := funext fun a => by fin_cases a; rfl
theorem hz2_1 : (![0, 0] : Fin 2 → Nat) = fun _ => 0 := funext fun a => by fin_cases a <;> rfl

/-- The printed index maps, decided over the four points: the feature window's row block and the result's block are
    the point's number, every other block index is zero. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 1) = t.val
    ∧ t.val < 4 :=
  (by decide +kernel : ∀ t : Fin grid1.N, _)

/-! ## The input blocks -/

/-- The feature window's block at point `t` is rows `[2048 t, 2048 t + 2048)` of the feature array. -/
theorem iblk1_0 (c : Dev nD) (t : Fin cfg1.N) (q : Fin 4) (hq : q.val = t.val) :
    (iblk1 V c 0 t : S2048x512.Idx → Elt F .f32) = rowsOf q (V c main_v4) := by
  obtain ⟨e0, e1, e2, e3, e4, e5, e6, e7, e8, e9, e10, e11, e12, e13, e14, e15, e16, e17, e18, e19, e20, e21, e22, e23⟩ := idx_facts1 t
  funext y
  show V c main_v4 (((cfg1.win 0).blk t).view.emb y) = V c main_v4 (ix2 ⟨2048 * q.val + (y 0).val, _⟩ (y 1))
  refine congrArg _ (funext fun a => Fin.ext ?_)
  match a with
  | ⟨0, _⟩ => show win1_0.index t (0 : Fin 2) * 2048 + 1 * (y 0).val = 2048 * q.val + (y 0).val; omega
  | ⟨1, _⟩ => show win1_0.index t (1 : Fin 2) * 512 + 1 * (y 1).val = (y 1).val; omega

/-- Window 1's block at any point is its whole array. -/
theorem iblk1_1 (c : Dev nD) (t : Fin cfg1.N) : (iblk1 V c 1 t : S512x512.Idx → Elt F .bf16) = V c main_v5 := by
  obtain ⟨e0, e1, e2, e3, e4, e5, e6, e7, e8, e9, e10, e11, e12, e13, e14, e15, e16, e17, e18, e19, e20, e21, e22, e23⟩ := idx_facts1 t
  funext y
  show V c main_v5 (((cfg1.win 1).blk t).view.emb y) = V c main_v5 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega
/-- Window 2's block at any point is its whole array. -/
theorem iblk1_2 (c : Dev nD) (t : Fin cfg1.N) : (iblk1 V c 2 t : S1x512.Idx → Elt F .f32) = V c main_v6 := by
  obtain ⟨e0, e1, e2, e3, e4, e5, e6, e7, e8, e9, e10, e11, e12, e13, e14, e15, e16, e17, e18, e19, e20, e21, e22, e23⟩ := idx_facts1 t
  funext y
  show V c main_v6 (((cfg1.win 2).blk t).view.emb y) = V c main_v6 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega
/-- Window 3's block at any point is its whole array. -/
theorem iblk1_3 (c : Dev nD) (t : Fin cfg1.N) : (iblk1 V c 3 t : S256x512.Idx → Elt F .bf16) = V c main_v7 := by
  obtain ⟨e0, e1, e2, e3, e4, e5, e6, e7, e8, e9, e10, e11, e12, e13, e14, e15, e16, e17, e18, e19, e20, e21, e22, e23⟩ := idx_facts1 t
  funext y
  show V c main_v7 (((cfg1.win 3).blk t).view.emb y) = V c main_v7 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 512 + 1 * (y 1).val = (y 1).val; omega
/-- Window 4's block at any point is its whole array. -/
theorem iblk1_4 (c : Dev nD) (t : Fin cfg1.N) : (iblk1 V c 4 t : S1x256.Idx → Elt F .f32) = V c main_v8 := by
  obtain ⟨e0, e1, e2, e3, e4, e5, e6, e7, e8, e9, e10, e11, e12, e13, e14, e15, e16, e17, e18, e19, e20, e21, e22, e23⟩ := idx_facts1 t
  funext y
  show V c main_v8 (((cfg1.win 4).blk t).view.emb y) = V c main_v8 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega
/-- Window 5's block at any point is its whole array. -/
theorem iblk1_5 (c : Dev nD) (t : Fin cfg1.N) : (iblk1 V c 5 t : S128x256.Idx → Elt F .bf16) = V c main_v9 := by
  obtain ⟨e0, e1, e2, e3, e4, e5, e6, e7, e8, e9, e10, e11, e12, e13, e14, e15, e16, e17, e18, e19, e20, e21, e22, e23⟩ := idx_facts1 t
  funext y
  show V c main_v9 (((cfg1.win 5).blk t).view.emb y) = V c main_v9 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 256 + 1 * (y 1).val = (y 1).val; omega
/-- Window 6's block at any point is its whole array. -/
theorem iblk1_6 (c : Dev nD) (t : Fin cfg1.N) : (iblk1 V c 6 t : S1x128.Idx → Elt F .f32) = V c main_v10 := by
  obtain ⟨e0, e1, e2, e3, e4, e5, e6, e7, e8, e9, e10, e11, e12, e13, e14, e15, e16, e17, e18, e19, e20, e21, e22, e23⟩ := idx_facts1 t
  funext y
  show V c main_v10 (((cfg1.win 6).blk t).view.emb y) = V c main_v10 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega
/-- Window 7's block at any point is its whole array. -/
theorem iblk1_7 (c : Dev nD) (t : Fin cfg1.N) : (iblk1 V c 7 t : S64x128.Idx → Elt F .bf16) = V c main_v11 := by
  obtain ⟨e0, e1, e2, e3, e4, e5, e6, e7, e8, e9, e10, e11, e12, e13, e14, e15, e16, e17, e18, e19, e20, e21, e22, e23⟩ := idx_facts1 t
  funext y
  show V c main_v11 (((cfg1.win 7).blk t).view.emb y) = V c main_v11 y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 128 + 1 * (y 1).val = (y 1).val; omega
/-- Window 8's block at any point is its whole array. -/
theorem iblk1_8 (c : Dev nD) (t : Fin cfg1.N) : (iblk1 V c 8 t : S1x64.Idx → Elt F .f32) = V c main_v12 := by
  obtain ⟨e0, e1, e2, e3, e4, e5, e6, e7, e8, e9, e10, e11, e12, e13, e14, e15, e16, e17, e18, e19, e20, e21, e22, e23⟩ := idx_facts1 t
  funext y
  show V c main_v12 (((cfg1.win 8).blk t).view.emb y) = V c main_v12 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega
/-- Window 9's block at any point is its whole array. -/
theorem iblk1_9 (c : Dev nD) (t : Fin cfg1.N) : (iblk1 V c 9 t : S1x64.Idx → Elt F .f32) = V c main_arg16 := by
  obtain ⟨e0, e1, e2, e3, e4, e5, e6, e7, e8, e9, e10, e11, e12, e13, e14, e15, e16, e17, e18, e19, e20, e21, e22, e23⟩ := idx_facts1 t
  funext y
  show V c main_arg16 (((cfg1.win 9).blk t).view.emb y) = V c main_arg16 y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega
/-- Window 10's block at any point is its whole array. -/
theorem iblk1_10 (c : Dev nD) (t : Fin cfg1.N) : (iblk1 V c 10 t : S1x1.Idx → Elt F .f32) = V c main_v13 := by
  obtain ⟨e0, e1, e2, e3, e4, e5, e6, e7, e8, e9, e10, e11, e12, e13, e14, e15, e16, e17, e18, e19, e20, e21, e22, e23⟩ := idx_facts1 t
  funext y
  show V c main_v13 (((cfg1.win 10).blk t).view.emb y) = V c main_v13 y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 1 + 1 * (y 1).val = (y 1).val; omega

/-! ## What a point writes back -/

/-- What point `t` writes back is block `t` of the predictions of the arrays as the region found them. -/
theorem flushed1_eq (c : Dev nD) (t : Fin cfg1.N) :
    (dat1 V O Rd c).flushed 11 t = ((cfg1.win 11).blk t).view.read (Elt F) (mlpG (V c main_v4) (V c main_v5) (V c main_v6) (V c main_v7) (V c main_v8) (V c main_v9) (V c main_v10) (V c main_v11) (V c main_v12) (V c main_arg16) (V c main_v13)) := by
  show (cfg1.win 11).cut (grid1.coords t) ((dat1 V O Rd c).after 11 t) = _
  rw [after1_11]
  unfold out1_11
  rw [View.canon_unit_zero hz1_1]
  simp only [View.ld_unit_zero (S := S2048x512) hz2_1, View.ld_unit_zero (S := S512x512) hz2_1, View.ld_unit_zero (S := S1x512) hz2_1, View.ld_unit_zero (S := S256x512) hz2_1, View.ld_unit_zero (S := S1x256) hz2_1, View.ld_unit_zero (S := S128x256) hz2_1, View.ld_unit_zero (S := S1x128) hz2_1, View.ld_unit_zero (S := S64x128) hz2_1, View.ld_unit_zero (S := S1x64) hz2_1, View.ld_unit_zero (S := S1x1) hz2_1]
  obtain ⟨e0, e1, e2, e3, e4, e5, e6, e7, e8, e9, e10, e11, e12, e13, e14, e15, e16, e17, e18, e19, e20, e21, e22, e23⟩ := idx_facts1 t
  rw [iblk1_0 V c t ⟨t.val, e23⟩ rfl, iblk1_1 V c t, iblk1_2 V c t, iblk1_3 V c t, iblk1_4 V c t, iblk1_5 V c t, iblk1_6 V c t, iblk1_7 V c t, iblk1_8 V c t, iblk1_9 V c t, iblk1_10 V c t]
  funext j
  refine (mlpG_block (V c main_v4) (V c main_v5) (V c main_v6) (V c main_v7) (V c main_v8) (V c main_v9) (V c main_v10) (V c main_v11) (V c main_v12) (V c main_arg16) (V c main_v13) ⟨t.val, e23⟩ _ j ?_).symm
  show win1_11.index t (0 : Fin 1) * 2048 + 1 * (j 0).val = 2048 * t.val + (j 0).val
  omega

/-! ## The cover -/

/-- An entry of the result is in point `t`'s block iff it lies in the block's range. -/
theorem mem_blk1 (t : Fin cfg1.N) (i : S8192.Idx) :
    i ∈ ((cfg1.win 11).blk t).view.set ↔ ∀ a : Fin 1, win1_11.index t a * S2048.size a ≤ (i a).val ∧ (i a).val < win1_11.index t a * S2048.size a + S2048.size a := by
  show i ∈ ((View.whole main_v14).slice (win1_11.rect t)).set ↔ _
  rw [View.set_slice_whole, Rect.mem_set_unit]
  exact Iff.rfl

/-- Entry `r` of the result is written back at point `r / 2048`. -/
theorem cover1 (i : S8192.Idx) : ∃ t : Fin cfg1.N, (cfg1.win 11).flush t = true ∧ i ∈ ((cfg1.win 11).blk t).view.set := by
  have hi : (i 0).val < 8192 := (i 0).isLt
  obtain ⟨t, ht⟩ : ∃ t : Fin cfg1.N, t.val = (i 0).val / 2048 := ⟨⟨(i 0).val / 2048, by show _ < grid1.N; rw [N_1]; omega⟩, rfl⟩
  obtain ⟨e0, e1, e2, e3, e4, e5, e6, e7, e8, e9, e10, e11, e12, e13, e14, e15, e16, e17, e18, e19, e20, e21, e22, e23⟩ := idx_facts1 t
  refine ⟨t, flush1_11 t, ?_⟩
  rw [mem_blk1]
  intro a
  match a with
  | ⟨0, _⟩ => show win1_11.index t (0 : Fin 1) * 2048 ≤ (i 0).val ∧ (i 0).val < win1_11.index t (0 : Fin 1) * 2048 + 2048; omega

/-! ## The arrays at the region's exit -/

/-- The result array ends at the predictions of the arrays as the region found them. -/
theorem arrAt1_out (c : Dev nD) : (dat1 V O Rd c).arrAt 11 cfg1.N = mlpG (V c main_v4) (V c main_v5) (V c main_v6) (V c main_v7) (V c main_v8) (V c main_v9) (V c main_v10) (V c main_v11) (V c main_v12) (V c main_arg16) (V c main_v13) :=
  (dat1 V O Rd c).arrAt_eq_of_cover 11 (mlpG (V c main_v4) (V c main_v5) (V c main_v6) (V c main_v7) (V c main_v8) (V c main_v9) (V c main_v10) (V c main_v11) (V c main_v12) (V c main_arg16) (V c main_v13)) (fun t _ => flushed1_eq V O Rd c t) cover1

/-- Every window but the result's is an input. -/
theorem isOut1 : ∀ w : Fin 12, w ≠ 11 → (cfg1.win w).isOut = false := by decide

/-- An input array is as the region found it, at every point. -/
theorem arrAt1_in (c : Dev nD) (w : Fin cfg1.W) (hw : w ≠ 11) (n : Nat) : (dat1 V O Rd c).arrAt w n = V c (Pipeline.arrRef spec1 w) :=
  ((dat1 V O Rd c).arrAt_in w (isOut1 w hw) n).trans (A_eq1 V O Rd c w)

end Cert.KernelIdeal.Mlp

end
-- ==== Proof.MlpArr3.lean ====
/-
  What the second half's perceptron region leaves in its arrays.

  The ten weight and bias arrays and the feature array are only read: each ends as the region found it. The result
  array's entries `[2048 t, 2048 t + 2048)` are written back at grid point `t` from the result's staged block, which
  the body left at the predictions of the feature rows `[2048 t, 2048 t + 2048)`; entry `r` lies in the block of point
  `r / 2048`, so the four blocks cover the array and it ends at `mlpG` of the arrays as the region found them.
-/
import proofs.«212020_g4707284156877_cont_8to1c4_553_54_alg».proof.Proof.MlpBody3
import proofs.«212020_g4707284156877_cont_8to1c4_553_54_alg».proof.Proof.MlpFn
import Idealize.ShloMosaic.Lib.Pipeline.Value

set_option maxRecDepth 16384

noncomputable section

namespace Cert.KernelIdeal.Mlp

open Cert.KernelIdeal Cert.KernelIdeal.Gen
open Cert.KernelIdeal.Sc (UU)
open Idealize.ShloMosaic Idealize.ShloMosaic.TcCoe Idealize.ShloMosaic.ValueIdx
open Idealize.ShloMosaic.SparseCore.Cfg (HIx)
open Idealize.ShloMosaic.Pipeline (Dat Cfg Window)

variable {F : FTy → Type} [FloatOps F]

variable (V : (c : Dev nD) → (b : Ref sig .tc) → Buf (Elt F) ((c : Thread nD τ).loc b))
variable (O : Dev nD → CellTallies nD τ sig (HIx 2)) (Rd : Dev nD → Set (SemLoc sig × HIx 2))

theorem hz1_3 : (![0] : Fin 1 → Nat) = fun _ => 0 := funext fun a => by fin_cases a; rfl
theorem hz2_3 : (![0, 0] : Fin 2 → Nat) = fun _ => 0 := funext fun a => by fin_cases a <;> rfl

/-- The printed index maps, decided over the four points: the feature window's row block and the result's block are
    the point's number, every other block index is zero. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 1) = t.val
    ∧ t.val < 4 :=
  (by decide +kernel : ∀ t : Fin grid3.N, _)

/-! ## The input blocks -/

/-- The feature window's block at point `t` is rows `[2048 t, 2048 t + 2048)` of the feature array. -/
theorem iblk3_0 (c : Dev nD) (t : Fin cfg3.N) (q : Fin 4) (hq : q.val = t.val) :
    (iblk3 V c 0 t : S2048x512.Idx → Elt F .f32) = rowsOf q (V c main_v19) := by
  obtain ⟨e0, e1, e2, e3, e4, e5, e6, e7, e8, e9, e10, e11, e12, e13, e14, e15, e16, e17, e18, e19, e20, e21, e22, e23⟩ := idx_facts3 t
  funext y
  show V c main_v19 (((cfg3.win 0).blk t).view.emb y) = V c main_v19 (ix2 ⟨2048 * q.val + (y 0).val, _⟩ (y 1))
  refine congrArg _ (funext fun a => Fin.ext ?_)
  match a with
  | ⟨0, _⟩ => show win3_0.index t (0 : Fin 2) * 2048 + 1 * (y 0).val = 2048 * q.val + (y 0).val; omega
  | ⟨1, _⟩ => show win3_0.index t (1 : Fin 2) * 512 + 1 * (y 1).val = (y 1).val; omega

/-- Window 1's block at any point is its whole array. -/
theorem iblk3_1 (c : Dev nD) (t : Fin cfg3.N) : (iblk3 V c 1 t : S512x512.Idx → Elt F .bf16) = V c main_v20 := by
  obtain ⟨e0, e1, e2, e3, e4, e5, e6, e7, e8, e9, e10, e11, e12, e13, e14, e15, e16, e17, e18, e19, e20, e21, e22, e23⟩ := idx_facts3 t
  funext y
  show V c main_v20 (((cfg3.win 1).blk t).view.emb y) = V c main_v20 y
  refine congrArg _ (funext fun a => Fin.ext ?_)
  match a with
  | ⟨0, _⟩ => show win3_1.index t (0 : Fin 2) * 512 + 1 * (y 0).val = (y 0).val; omega
  | ⟨1, _⟩ => show win3_1.index t (1 : Fin 2) * 512 + 1 * (y 1).val = (y 1).val; omega
/-- Window 2's block at any point is its whole array. -/
theorem iblk3_2 (c : Dev nD) (t : Fin cfg3.N) : (iblk3 V c 2 t : S1x512.Idx → Elt F .f32) = V c main_v21 := by
  obtain ⟨e0, e1, e2, e3, e4, e5, e6, e7, e8, e9, e10, e11, e12, e13, e14, e15, e16, e17, e18, e19, e20, e21, e22, e23⟩ := idx_facts3 t
  funext y
  show V c main_v21 (((cfg3.win 2).blk t).view.emb y) = V c main_v21 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 512 + 1 * (y 1).val = (y 1).val; omega
/-- Window 3's block at any point is its whole array. -/
theorem iblk3_3 (c : Dev nD) (t : Fin cfg3.N) : (iblk3 V c 3 t : S256x512.Idx → Elt F .bf16) = V c main_v22 := by
  obtain ⟨e0, e1, e2, e3, e4, e5, e6, e7, e8, e9, e10, e11, e12, e13, e14, e15, e16, e17, e18, e19, e20, e21, e22, e23⟩ := idx_facts3 t
  funext y
  show V c main_v22 (((cfg3.win 3).blk t).view.emb y) = V c main_v22 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 512 + 1 * (y 1).val = (y 1).val; omega
/-- Window 4's block at any point is its whole array. -/
theorem iblk3_4 (c : Dev nD) (t : Fin cfg3.N) : (iblk3 V c 4 t : S1x256.Idx → Elt F .f32) = V c main_v23 := by
  obtain ⟨e0, e1, e2, e3, e4, e5, e6, e7, e8, e9, e10, e11, e12, e13, e14, e15, e16, e17, e18, e19, e20, e21, e22, e23⟩ := idx_facts3 t
  funext y
  show V c main_v23 (((cfg3.win 4).blk t).view.emb y) = V c main_v23 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega
/-- Window 5's block at any point is its whole array. -/
theorem iblk3_5 (c : Dev nD) (t : Fin cfg3.N) : (iblk3 V c 5 t : S128x256.Idx → Elt F .bf16) = V c main_v24 := by
  obtain ⟨e0, e1, e2, e3, e4, e5, e6, e7, e8, e9, e10, e11, e12, e13, e14, e15, e16, e17, e18, e19, e20, e21, e22, e23⟩ := idx_facts3 t
  funext y
  show V c main_v24 (((cfg3.win 5).blk t).view.emb y) = V c main_v24 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 256 + 1 * (y 1).val = (y 1).val; omega
/-- Window 6's block at any point is its whole array. -/
theorem iblk3_6 (c : Dev nD) (t : Fin cfg3.N) : (iblk3 V c 6 t : S1x128.Idx → Elt F .f32) = V c main_v25 := by
  obtain ⟨e0, e1, e2, e3, e4, e5, e6, e7, e8, e9, e10, e11, e12, e13, e14, e15, e16, e17, e18, e19, e20, e21, e22, e23⟩ := idx_facts3 t
  funext y
  show V c main_v25 (((cfg3.win 6).blk t).view.emb y) = V c main_v25 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega
/-- Window 7's block at any point is its whole array. -/
theorem iblk3_7 (c : Dev nD) (t : Fin cfg3.N) : (iblk3 V c 7 t : S64x128.Idx → Elt F .bf16) = V c main_v26 := by
  obtain ⟨e0, e1, e2, e3, e4, e5, e6, e7, e8, e9, e10, e11, e12, e13, e14, e15, e16, e17, e18, e19, e20, e21, e22, e23⟩ := idx_facts3 t
  funext y
  show V c main_v26 (((cfg3.win 7).blk t).view.emb y) = V c main_v26 y
  refine congrArg _ (funext fun a => Fin.ext ?_)
  match a with
  | ⟨0, _⟩ => show win3_7.index t (0 : Fin 2) * 64 + 1 * (y 0).val = (y 0).val; omega
  | ⟨1, _⟩ => show win3_7.index t (1 : Fin 2) * 128 + 1 * (y 1).val = (y 1).val; omega
/-- Window 8's block at any point is its whole array. -/
theorem iblk3_8 (c : Dev nD) (t : Fin cfg3.N) : (iblk3 V c 8 t : S1x64.Idx → Elt F .f32) = V c main_v27 := by
  obtain ⟨e0, e1, e2, e3, e4, e5, e6, e7, e8, e9, e10, e11, e12, e13, e14, e15, e16, e17, e18, e19, e20, e21, e22, e23⟩ := idx_facts3 t
  funext y
  show V c main_v27 (((cfg3.win 8).blk t).view.emb y) = V c main_v27 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 64 + 1 * (y 1).val = (y 1).val; omega
/-- Window 9's block at any point is its whole array. -/
theorem iblk3_9 (c : Dev nD) (t : Fin cfg3.N) : (iblk3 V c 9 t : S1x64.Idx → Elt F .f32) = V c main_arg16 := by
  obtain ⟨e0, e1, e2, e3, e4, e5, e6, e7, e8, e9, e10, e11, e12, e13, e14, e15, e16, e17, e18, e19, e20, e21, e22, e23⟩ := idx_facts3 t
  funext y
  show V c main_arg16 (((cfg3.win 9).blk t).view.emb y) = V c main_arg16 y
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 64 + 1 * (y 1).val = (y 1).val; omega
/-- Window 10's block at any point is its whole array. -/
theorem iblk3_10 (c : Dev nD) (t : Fin cfg3.N) : (iblk3 V c 10 t : S1x1.Idx → Elt F .f32) = V c main_v28 := by
  obtain ⟨e0, e1, e2, e3, e4, e5, e6, e7, e8, e9, e10, e11, e12, e13, e14, e15, e16, e17, e18, e19, e20, e21, e22, e23⟩ := idx_facts3 t
  funext y
  show V c main_v28 (((cfg3.win 10).blk t).view.emb y) = V c main_v28 y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 1 + 1 * (y 1).val = (y 1).val; omega

/-! ## What a point writes back -/

/-- What point `t` writes back is block `t` of the predictions of the arrays as the region found them. -/
theorem flushed3_eq (c : Dev nD) (t : Fin cfg3.N) :
    (dat3 V O Rd c).flushed 11 t = ((cfg3.win 11).blk t).view.read (Elt F) (mlpG (V c main_v19) (V c main_v20) (V c main_v21) (V c main_v22) (V c main_v23) (V c main_v24) (V c main_v25) (V c main_v26) (V c main_v27) (V c main_arg16) (V c main_v28)) := by
  show (cfg3.win 11).cut (grid3.coords t) ((dat3 V O Rd c).after 11 t) = _
  rw [after3_11]
  unfold out3_11
  rw [View.canon_unit_zero hz1_3]
  simp only [View.ld_unit_zero (S := S2048x512) hz2_3, View.ld_unit_zero (S := S512x512) hz2_3, View.ld_unit_zero (S := S1x512) hz2_3, View.ld_unit_zero (S := S256x512) hz2_3, View.ld_unit_zero (S := S1x256) hz2_3, View.ld_unit_zero (S := S128x256) hz2_3, View.ld_unit_zero (S := S1x128) hz2_3, View.ld_unit_zero (S := S64x128) hz2_3, View.ld_unit_zero (S := S1x64) hz2_3, View.ld_unit_zero (S := S1x1) hz2_3]
  obtain ⟨e0, e1, e2, e3, e4, e5, e6, e7, e8, e9, e10, e11, e12, e13, e14, e15, e16, e17, e18, e19, e20, e21, e22, e23⟩ := idx_facts3 t
  rw [iblk3_0 V c t ⟨t.val, e23⟩ rfl, iblk3_1 V c t, iblk3_2 V c t, iblk3_3 V c t, iblk3_4 V c t, iblk3_5 V c t, iblk3_6 V c t, iblk3_7 V c t, iblk3_8 V c t, iblk3_9 V c t, iblk3_10 V c t]
  funext j
  refine (mlpG_block (V c main_v19) (V c main_v20) (V c main_v21) (V c main_v22) (V c main_v23) (V c main_v24) (V c main_v25) (V c main_v26) (V c main_v27) (V c main_arg16) (V c main_v28) ⟨t.val, e23⟩ _ j ?_).symm
  show win3_11.index t (0 : Fin 1) * 2048 + 1 * (j 0).val = 2048 * t.val + (j 0).val
  omega

/-! ## The cover -/

/-- An entry of the result is in point `t`'s block iff it lies in the block's range. -/
theorem mem_blk3 (t : Fin cfg3.N) (i : S8192.Idx) :
    i ∈ ((cfg3.win 11).blk t).view.set ↔ ∀ a : Fin 1, win3_11.index t a * S2048.size a ≤ (i a).val ∧ (i a).val < win3_11.index t a * S2048.size a + S2048.size a := by
  show i ∈ ((View.whole main_v29).slice (win3_11.rect t)).set ↔ _
  rw [View.set_slice_whole, Rect.mem_set_unit]
  exact Iff.rfl

/-- Entry `r` of the result is written back at point `r / 2048`. -/
theorem cover3 (i : S8192.Idx) : ∃ t : Fin cfg3.N, (cfg3.win 11).flush t = true ∧ i ∈ ((cfg3.win 11).blk t).view.set := by
  have hi : (i 0).val < 8192 := (i 0).isLt
  obtain ⟨t, ht⟩ : ∃ t : Fin cfg3.N, t.val = (i 0).val / 2048 := ⟨⟨(i 0).val / 2048, by show _ < grid3.N; rw [N_3]; omega⟩, rfl⟩
  obtain ⟨e0, e1, e2, e3, e4, e5, e6, e7, e8, e9, e10, e11, e12, e13, e14, e15, e16, e17, e18, e19, e20, e21, e22, e23⟩ := idx_facts3 t
  refine ⟨t, flush3_11 t, ?_⟩
  rw [mem_blk3]
  intro a
  match a with
  | ⟨0, _⟩ => show win3_11.index t (0 : Fin 1) * 2048 ≤ (i 0).val ∧ (i 0).val < win3_11.index t (0 : Fin 1) * 2048 + 2048; omega

/-! ## The arrays at the region's exit -/

/-- The result array ends at the predictions of the arrays as the region found them. -/
theorem arrAt3_out (c : Dev nD) : (dat3 V O Rd c).arrAt 11 cfg3.N = mlpG (V c main_v19) (V c main_v20) (V c main_v21) (V c main_v22) (V c main_v23) (V c main_v24) (V c main_v25) (V c main_v26) (V c main_v27) (V c main_arg16) (V c main_v28) :=
  (dat3 V O Rd c).arrAt_eq_of_cover 11 (mlpG (V c main_v19) (V c main_v20) (V c main_v21) (V c main_v22) (V c main_v23) (V c main_v24) (V c main_v25) (V c main_v26) (V c main_v27) (V c main_arg16) (V c main_v28)) (fun t _ => flushed3_eq V O Rd c t) cover3

/-- Every window but the result's is an input. -/
theorem isOut3 : ∀ w : Fin 12, w ≠ 11 → (cfg3.win w).isOut = false := by decide

/-- An input array is as the region found it, at every point. -/
theorem arrAt3_in (c : Dev nD) (w : Fin cfg3.W) (hw : w ≠ 11) (n : Nat) : (dat3 V O Rd c).arrAt w n = V c (Pipeline.arrRef spec3 w) :=
  ((dat3 V O Rd c).arrAt_in w (isOut3 w hw) n).trans (A_eq3 V O Rd c w)

end Cert.KernelIdeal.Mlp

end
-- ==== Proof.MlpArrays.lean ====
/-
  What the two perceptron regions leave in their arrays, stated over the family of proof data: each region's inputs as
  it found them, its result at the predictions of the arrays as it found them.
-/
import proofs.«212020_g4707284156877_cont_8to1c4_553_54_alg».proof.Proof.MlpData
import proofs.«212020_g4707284156877_cont_8to1c4_553_54_alg».proof.Proof.MlpArr1
import proofs.«212020_g4707284156877_cont_8to1c4_553_54_alg».proof.Proof.MlpArr3

noncomputable section

namespace Cert.KernelIdeal.Mlp

open Cert.KernelIdeal Cert.KernelIdeal.Gen
open Cert.KernelIdeal.Sc (UU)
open Idealize.ShloMosaic Idealize.ShloMosaic.TcCoe
open Idealize.ShloMosaic.SparseCore.Cfg (HIx)
open Idealize.ShloMosaic.Pipeline (Dat Cfg Window)

variable {F : FTy → Type} [FloatOps F]

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- Pipeline 0's result array at the region's exit: the predictions of the arrays as the region found them. -/
theorem arrAt_p0_out (c : Dev nD) :
    (pdats V1 V3 O1 O3 R1 R3 0 c).arrAt 11 (Pipeline.pin (pcfgs (F := F)) adm 0).N = mlpG (V1 c main_v4) (V1 c main_v5) (V1 c main_v6) (V1 c main_v7) (V1 c main_v8) (V1 c main_v9) (V1 c main_v10) (V1 c main_v11) (V1 c main_v12) (V1 c main_arg16) (V1 c main_v13) :=
  arrAt1_out V1 O1 R1 c

/-- Pipeline 0's input arrays, at every point and at the exit: as the region found them. -/
theorem arrAt_p0_in (c : Dev nD) (w : Fin 12) (hw : w ≠ 11) (n : Nat) :
    (pdats V1 V3 O1 O3 R1 R3 0 c).arrAt w n = V1 c (Pipeline.arrRef spec1 w) :=
  arrAt1_in V1 O1 R1 c w hw n

/-- Pipeline 1's result array at the region's exit: the predictions of the arrays as the region found them. -/
theorem arrAt_p1_out (c : Dev nD) :
    (pdats V1 V3 O1 O3 R1 R3 1 c).arrAt 11 (Pipeline.pin (pcfgs (F := F)) adm 1).N = mlpG (V3 c main_v19) (V3 c main_v20) (V3 c main_v21) (V3 c main_v22) (V3 c main_v23) (V3 c main_v24) (V3 c main_v25) (V3 c main_v26) (V3 c main_v27) (V3 c main_arg16) (V3 c main_v28) :=
  arrAt3_out V3 O3 R3 c

/-- Pipeline 1's input arrays, at every point and at the exit: as the region found them. -/
theorem arrAt_p1_in (c : Dev nD) (w : Fin 12) (hw : w ≠ 11) (n : Nat) :
    (pdats V1 V3 O1 O3 R1 R3 1 c).arrAt w n = V3 c (Pipeline.arrRef spec3 w) :=
  arrAt3_in V3 O3 R3 c w hw n

end Cert.KernelIdeal.Mlp

end
-- ==== Proof.ScRegion0.lean ====
/-
  The first half's perceptron region as one step of the enclosing program's TensorCore thread.

  The thread enters the region holding every unscoped array at the contents the line before it left, and owing the
  start signals of the calls still to come; it leaves holding the arrays at the same contents but for the region's
  result, which is now the predictions of the region's eleven inputs, and owing the same. At the entry the region's
  twelve arrays are sorted out of the unscoped arrays; the pipeline's staging waits sit at level 0, below every start
  signal owed; at the exit the arrays are put back, and the waits the pipeline recorded, all at level 0, stay within
  the bound the thread keeps on its recorded waits.
-/
import proofs.«212020_g4707284156877_cont_8to1c4_553_54_alg».proof.Proof.ScRegionData
import proofs.«212020_g4707284156877_cont_8to1c4_553_54_alg».proof.Proof.MlpRegion
import proofs.«212020_g4707284156877_cont_8to1c4_553_54_alg».proof.Proof.MlpArrays
import proofs.«212020_g4707284156877_cont_8to1c4_553_54_alg».proof.Proof.MlpFn
import proofs.«212020_g4707284156877_cont_8to1c4_553_54_alg».proof.Proof.ScEmb
import proofs.«212020_g4707284156877_cont_8to1c4_553_54_alg».proof.Proof.ScVals
import proofs.«212020_g4707284156877_cont_8to1c4_553_54_alg».proof.Proof.ScMainOps
import proofs.«212020_g4707284156877_cont_8to1c4_553_54_alg».proof.Proof.ScSetup
import Idealize.ShloMosaic.Lib.Pipeline.Regions
import Idealize.ShloMosaic.Lib.Pipeline.RegionsLoop
import Idealize.ShloMosaic.Lib.SparseCore.Threads

noncomputable section

namespace Cert.KernelIdeal.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The region's thread states -/

/-- Entered holding every unscoped array as the line before the region left it, owing the later calls' start signals; -/
def pre0 (c : Dev nD) : sProp 𝕄 := iprop(unscopedBufs c (V1s m c) ∗ owesTc c 1)
/-- left holding them with the region's result at the predictions, owing the same; -/
def post0 (c : Dev nD) : sProp 𝕄 := iprop(unscopedBufs c (fun b => VB' m Mlp.mlpG c (rf b)) ∗ owesTc c 1)
/-- the unscoped arrays that are not the region's bypass it. -/
def byp0 (c : Dev nD) : sProp 𝕄 := Pipeline.unscopedRest (Ix := HIx 2) (Name := ℕ) (U := UU) (Lvl := ℕ) spec1 c (V1s m c)

/-- The pipeline's staging waits, at index `none`, sit below every start signal the thread owes. -/
theorem hwaits0 (c : Dev nD) :
    (levAts (K (F := F)).L (K (F := F)).lev : sProp 𝕄) ⊢ Pipeline.cellsWaits (Pipeline.pin (pcfgs (F := F)) Mlp.adm) (pd m) (none : HIx 2) 0 c :=
  Pipeline.cellsWaits_intro _ (pd m) (none : HIx 2) 0 c fun w s t => (K (F := F)).mayWait_none _ (fun g => Otc_none c 1 g)

/-- At the exit each of the region's arrays is at the stage valuation after the region: an input as the region found
    it, which the rewriting of the result's array leaves alone; the result at the predictions of the eleven inputs. -/
theorem hF0 (c : Dev nD) (w : Fin 12) :
    (pd m 0 c).arrAt w (Pipeline.pin (pcfgs (F := F)) Mlp.adm 0).N = VB' m Mlp.mlpG c (rf (Pipeline.arrRef spec1 w)) := by
  by_cases hw : w = 11
  · subst hw
    exact (Mlp.arrAt_p0_out (V1s m) (V3s m) (O1s (F := F)) (O3s (F := F)) (R1s (F := F)) (R3s (F := F)) c).trans
      (Function.update_self (rf main_v14) (res0 m Mlp.mlpG c) (VB m c)).symm
  · refine (Mlp.arrAt_p0_in (V1s m) (V3s m) (O1s (F := F)) (O3s (F := F)) (R1s (F := F)) (R3s (F := F)) c w hw _).trans (VB'_keep m Mlp.mlpG c (Pipeline.arrRef spec1 w) ?_).symm
    intro e
    exact hw (launch1.win.arr_inj ((Proc.devRef_injective _ e).trans (rfl : main_v14 = Pipeline.arrRef spec1 11)))

/-- Off the region's arrays the stage valuation after the region is the one before it. -/
theorem hrest0 (c : Dev nD) (b : Ref sig .tc) (hb : b ∉ Finset.univ.image (Pipeline.arrRef (Pipeline.pin (pcfgs (F := F)) Mlp.adm 0).spec)) :
    VB' m Mlp.mlpG c (rf b) = V1s m c b :=
  VB'_keep m Mlp.mlpG c b fun e => hb (Finset.mem_image.mpr ⟨11, Finset.mem_univ _, (Proc.devRef_injective _ e).symm⟩)

set_option backward.isDefEq.respectTransparency.types false in
/-- ENTRY: the region's arrays out of the unscoped arrays, no prefetched table, the owed tallies with their recorded
    waits within the thread's bound, the other unscoped arrays bypassing. -/
theorem hentry0 (c : Dev nD) :
    iprop(pre0 m c ∗ Pipeline.ownSems0 (fun k : PEmpty => k.elim) c ∗ levAts (K (F := F)).L (K (F := F)).lev)
      ⊢ |={Set.univ}=> iprop((pd m 0 c).arrays ((pd m 0 c).arrAt · 0)
          ∗ Pipeline.prefHeld (pcfgs (F := F) 0).pre c (fun _ => fullShare) (Mlp.adm (F := F) 0).1
          ∗ (pd m 0 c).owesAt (none : HIx 2) 0 ∗ emp ∗ byp0 m c) := by
  have hsplit := Pipeline.arrays_of_unscopedBufs (p := 0) (pcfgs (F := F)) Mlp.adm (pd m) launch1.win launch1.arr_whole c
    ((pd m 0 c).share_full fun _ => rfl) (V1s m c) fun _ => rfl
  unfold pre0 byp0
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold owesTc Pipeline.Dat.owesAt Pipeline.owesWithin
    icases HO with ⟨%W, %hW, HO⟩; iexists W; isplitr
    · ipureintro; exact fun q hq => Or.inl (hW q hq)
    iexact HO
  isplitr; · iempintro
  iexact Hrest

set_option backward.isDefEq.respectTransparency.types false in
/-- EXIT: the arrays back among the unscoped arrays at the valuation after the region; the recorded waits, the
    thread's own and the pipeline's staging waits at level 0, within the thread's bound. -/
theorem hexit0 (c : Dev nD) :
    iprop((pd m 0 c).arrays ((pd m 0 c).arrAt · (Pipeline.pin (pcfgs (F := F)) Mlp.adm 0).N)
        ∗ (pd m 0 c).owesAt (none : HIx 2) (Fin.last (Pipeline.pin (pcfgs (F := F)) Mlp.adm 0).N) ∗ emp ∗ byp0 m c)
      ⊢ |={Set.univ}=> post0 m c := by
  have hjoin := Pipeline.unscopedBufs_of_arrays (p := 0) (pcfgs (F := F)) Mlp.adm (Ix := HIx 2) (Name := ℕ) (U := UU) (Lvl := ℕ)
    launch1.win launch1.arr_whole c (pd m) ((pd m 0 c).share_full fun _ => rfl)
    (V1s m c) (fun b => VB' m Mlp.mlpG c (rf b)) ((pd m 0 c).arrAt · (Pipeline.pin (pcfgs (F := F)) Mlp.adm 0).N) (hF0 m c) (hrest0 m c)
  unfold post0 byp0
  iintro ⟨Ha, HO, -, Hrest⟩
  imodintro
  isplitl [Ha Hrest]
  · iapply hjoin; isplitl [Ha] <;> iassumption
  unfold owesTc Pipeline.Dat.owesAt Pipeline.owesWithin
  icases HO with ⟨%W, %hW, HO⟩; iexists W; isplitr
  · ipureintro
    intro q hq
    rcases hW hq with h | ⟨w, s, rfl⟩
    · exact h
    · show (K (F := F)).lev _ none ≤ _; rw [SparseCore.Cfg.lev_none]; exact Nat.zero_le _
  iexact HO

/-- The region as a segment between the two thread states. -/
def seg0 : Pipeline.RegionSeg (pcfgs (F := F)) Mlp.adm (pd m) (none : HIx 2) defs₀ Variants.none (K (F := F)).L (K (F := F)).lev 0 :=
  Mlp.region1 (V1s m) (V3s m) (O1s (F := F)) (O3s (F := F)) (R1s (F := F)) (R3s (F := F)) (K (F := F)).L (K (F := F)).lev (pre0 m) (post0 m) (byp0 m) (hwaits0 m) (hentry0 m) (hexit0 m)

/-- The region's call, as the enclosing program spells it, is the pipeline program's call lifted. -/
theorem regionCall0_eq : regionCall (F := F) 0 = SparseCore.liftProg (Prog.lift (.customCall (Pipeline.entry 0) ())) := rfl

set_option backward.isDefEq.respectTransparency.types false in
/-- THE STEP: from the level facts, the region boundary, every unscoped array as the line before the region left it,
    the start signals owed and the pipeline's ghost state, the region's call runs to the boundary, the arrays with the
    region's result at the predictions, and the same start signals owed. -/
theorem region_step0 (d : Dev nD) (Φ : PUnit → sProp 𝕄) :
    iprop(levAts (K (F := F)).L (K (F := F)).lev ∗ boundary (TT d) ∗ StableHlo.held (TT d) Su (VB m d) ∗ owesTc d 1
        ∗ Pipeline.cellsGhost (Pipeline.pin (pcfgs (F := F)) Mlp.adm) EP 0 d ∗ Pipeline.toksInit (Pipeline.pin (pcfgs (F := F)) Mlp.adm) EP 0 d
        ∗ (iprop(boundary (TT d) ∗ StableHlo.held (TT d) Su (VB' m Mlp.mlpG d) ∗ owesTc d 1) -∗ Φ ⟨⟩))
      ⊢ wp frame (wpE ((K (F := F)).defs (D (F := F))) 𝒱 (TT d) none) Set.univ (regionCall 0) Φ := by
  rw [regionCall0_eq]
  refine .trans ?_ ((K (F := F)).wp_liftProg (D (F := F)) 𝒱 (TT d) Set.univ none (Prog.lift (.customCall (Pipeline.entry 0) ())) Φ)
  have hstep := Pipeline.RegionSeg.wp (pcfgs (F := F)) Mlp.adm (pd m) (none : HIx 2) cellOf_inj EP defs₀ 𝒱₀
    (K (F := F)).L (K (F := F)).lev (seg0 m) d none (fun _ h => by cases h) (fun x => .ret x) Φ
  refine .trans ?_ hstep
  rw [show (seg0 m).pre d = pre0 m d from rfl, show (seg0 m).post d = post0 m d from rfl]
  unfold pre0 post0
  have e1 : (unscopedBufs d (V1s m d) : sProp 𝕄) = StableHlo.held (TT d) Su (VB m d) := Pipeline.unscopedBufs_held d (VB m d)
  have e2 : (unscopedBufs d (fun b => VB' m Mlp.mlpG d (rf b)) : sProp 𝕄) = StableHlo.held (TT d) Su (VB' m Mlp.mlpG d) := Pipeline.unscopedBufs_held d (VB' m Mlp.mlpG d)
  rw [e1, e2]
  iintro ⟨Hlev, Hbd, Hheld, HO, Hg, Ht, Hk⟩
  isplitl [Hk]
  · iintro ⟨Hbd, Hheld, HO⟩; rw [wp_ret]; imodintro; iapply Hk
    isplitl [Hbd]; · iexact Hbd
    isplitl [Hheld]; · iexact Hheld
    iexact HO
  isplitl [Hbd]; · iexact Hbd
  isplitl [Hheld HO]
  · isplitl [Hheld]; · iexact Hheld
    iexact HO
  isplitl [Hlev]; · iexact Hlev
  isplitl [Hg]; · iexact Hg
  iexact Ht

end Cert.KernelIdeal.Sc

end
-- ==== Proof.ScRegion1.lean ====
/-
  The second half's perceptron region as one step of the enclosing program's TensorCore thread.

  The thread enters the region holding every unscoped array at the contents the line before it left, and owing the
  start signals of the calls still to come; it leaves holding the arrays at the same contents but for the region's
  result, which is now the predictions of the region's eleven inputs, and owing the same. At the entry the region's
  twelve arrays are sorted out of the unscoped arrays; the pipeline's staging waits sit at level 0, below every start
  signal owed; at the exit the arrays are put back, and the waits the pipeline recorded, all at level 0, stay within
  the bound the thread keeps on its recorded waits.
-/
import proofs.«212020_g4707284156877_cont_8to1c4_553_54_alg».proof.Proof.ScRegionData
import proofs.«212020_g4707284156877_cont_8to1c4_553_54_alg».proof.Proof.MlpRegion
import proofs.«212020_g4707284156877_cont_8to1c4_553_54_alg».proof.Proof.MlpArrays
import proofs.«212020_g4707284156877_cont_8to1c4_553_54_alg».proof.Proof.MlpFn
import proofs.«212020_g4707284156877_cont_8to1c4_553_54_alg».proof.Proof.ScEmb
import proofs.«212020_g4707284156877_cont_8to1c4_553_54_alg».proof.Proof.ScVals
import proofs.«212020_g4707284156877_cont_8to1c4_553_54_alg».proof.Proof.ScMainOps
import proofs.«212020_g4707284156877_cont_8to1c4_553_54_alg».proof.Proof.ScSetup
import Idealize.ShloMosaic.Lib.Pipeline.Regions
import Idealize.ShloMosaic.Lib.Pipeline.RegionsLoop
import Idealize.ShloMosaic.Lib.SparseCore.Threads

noncomputable section

namespace Cert.KernelIdeal.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The region's thread states -/

/-- Entered holding every unscoped array as the line before the region left it, owing the later calls' start signals; -/
def pre1 (c : Dev nD) : sProp 𝕄 := iprop(unscopedBufs c (V3s m c) ∗ owesTc c 2)
/-- left holding them with the region's result at the predictions, owing the same; -/
def post1 (c : Dev nD) : sProp 𝕄 := iprop(unscopedBufs c (fun b => VD' m Mlp.mlpG c (rf b)) ∗ owesTc c 2)
/-- the unscoped arrays that are not the region's bypass it. -/
def byp1 (c : Dev nD) : sProp 𝕄 := Pipeline.unscopedRest (Ix := HIx 2) (Name := ℕ) (U := UU) (Lvl := ℕ) spec3 c (V3s m c)

/-- The pipeline's staging waits, at index `none`, sit below every start signal the thread owes. -/
theorem hwaits1 (c : Dev nD) :
    (levAts (K (F := F)).L (K (F := F)).lev : sProp 𝕄) ⊢ Pipeline.cellsWaits (Pipeline.pin (pcfgs (F := F)) Mlp.adm) (pd m) (none : HIx 2) 1 c :=
  Pipeline.cellsWaits_intro _ (pd m) (none : HIx 2) 1 c fun w s t => (K (F := F)).mayWait_none _ (fun g => Otc_none c 2 g)

/-- At the exit each of the region's arrays is at the stage valuation after the region: an input as the region found
    it, which the rewriting of the result's array leaves alone; the result at the predictions of the eleven inputs. -/
theorem hF1 (c : Dev nD) (w : Fin 12) :
    (pd m 1 c).arrAt w (Pipeline.pin (pcfgs (F := F)) Mlp.adm 1).N = VD' m Mlp.mlpG c (rf (Pipeline.arrRef spec3 w)) := by
  by_cases hw : w = 11
  · subst hw
    exact (Mlp.arrAt_p1_out (V1s m) (V3s m) (O1s (F := F)) (O3s (F := F)) (R1s (F := F)) (R3s (F := F)) c).trans
      (Function.update_self (rf main_v29) (res1 m Mlp.mlpG c) (VD m Mlp.mlpG c)).symm
  · refine (Mlp.arrAt_p1_in (V1s m) (V3s m) (O1s (F := F)) (O3s (F := F)) (R1s (F := F)) (R3s (F := F)) c w hw _).trans (VD'_keep m Mlp.mlpG c (Pipeline.arrRef spec3 w) ?_).symm
    intro e
    exact hw (launch3.win.arr_inj ((Proc.devRef_injective _ e).trans (rfl : main_v29 = Pipeline.arrRef spec3 11)))

/-- Off the region's arrays the stage valuation after the region is the one before it. -/
theorem hrest1 (c : Dev nD) (b : Ref sig .tc) (hb : b ∉ Finset.univ.image (Pipeline.arrRef (Pipeline.pin (pcfgs (F := F)) Mlp.adm 1).spec)) :
    VD' m Mlp.mlpG c (rf b) = V3s m c b :=
  VD'_keep m Mlp.mlpG c b fun e => hb (Finset.mem_image.mpr ⟨11, Finset.mem_univ _, (Proc.devRef_injective _ e).symm⟩)

set_option backward.isDefEq.respectTransparency.types false in
/-- ENTRY: the region's arrays out of the unscoped arrays, no prefetched table, the owed tallies with their recorded
    waits within the thread's bound, the other unscoped arrays bypassing. -/
theorem hentry1 (c : Dev nD) :
    iprop(pre1 m c ∗ Pipeline.ownSems0 (fun k : PEmpty => k.elim) c ∗ levAts (K (F := F)).L (K (F := F)).lev)
      ⊢ |={Set.univ}=> iprop((pd m 1 c).arrays ((pd m 1 c).arrAt · 0)
          ∗ Pipeline.prefHeld (pcfgs (F := F) 1).pre c (fun _ => fullShare) (Mlp.adm (F := F) 1).1
          ∗ (pd m 1 c).owesAt (none : HIx 2) 0 ∗ emp ∗ byp1 m c) := by
  have hsplit := Pipeline.arrays_of_unscopedBufs (p := 1) (pcfgs (F := F)) Mlp.adm (pd m) launch3.win launch3.arr_whole c
    ((pd m 1 c).share_full fun _ => rfl) (V3s m c) fun _ => rfl
  unfold pre1 byp1
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold owesTc Pipeline.Dat.owesAt Pipeline.owesWithin
    icases HO with ⟨%W, %hW, HO⟩; iexists W; isplitr
    · ipureintro; exact fun q hq => Or.inl (hW q hq)
    iexact HO
  isplitr; · iempintro
  iexact Hrest

set_option backward.isDefEq.respectTransparency.types false in
/-- EXIT: the arrays back among the unscoped arrays at the valuation after the region; the recorded waits, the
    thread's own and the pipeline's staging waits at level 0, within the thread's bound. -/
theorem hexit1 (c : Dev nD) :
    iprop((pd m 1 c).arrays ((pd m 1 c).arrAt · (Pipeline.pin (pcfgs (F := F)) Mlp.adm 1).N)
        ∗ (pd m 1 c).owesAt (none : HIx 2) (Fin.last (Pipeline.pin (pcfgs (F := F)) Mlp.adm 1).N) ∗ emp ∗ byp1 m c)
      ⊢ |={Set.univ}=> post1 m c := by
  have hjoin := Pipeline.unscopedBufs_of_arrays (p := 1) (pcfgs (F := F)) Mlp.adm (Ix := HIx 2) (Name := ℕ) (U := UU) (Lvl := ℕ)
    launch3.win launch3.arr_whole c (pd m) ((pd m 1 c).share_full fun _ => rfl)
    (V3s m c) (fun b => VD' m Mlp.mlpG c (rf b)) ((pd m 1 c).arrAt · (Pipeline.pin (pcfgs (F := F)) Mlp.adm 1).N) (hF1 m c) (hrest1 m c)
  unfold post1 byp1
  iintro ⟨Ha, HO, -, Hrest⟩
  imodintro
  isplitl [Ha Hrest]
  · iapply hjoin; isplitl [Ha] <;> iassumption
  unfold owesTc Pipeline.Dat.owesAt Pipeline.owesWithin
  icases HO with ⟨%W, %hW, HO⟩; iexists W; isplitr
  · ipureintro
    intro q hq
    rcases hW hq with h | ⟨w, s, rfl⟩
    · exact h
    · show (K (F := F)).lev _ none ≤ _; rw [SparseCore.Cfg.lev_none]; exact Nat.zero_le _
  iexact HO

/-- The region as a segment between the two thread states. -/
def seg1 : Pipeline.RegionSeg (pcfgs (F := F)) Mlp.adm (pd m) (none : HIx 2) defs₀ Variants.none (K (F := F)).L (K (F := F)).lev 1 :=
  Mlp.region3 (V1s m) (V3s m) (O1s (F := F)) (O3s (F := F)) (R1s (F := F)) (R3s (F := F)) (K (F := F)).L (K (F := F)).lev (pre1 m) (post1 m) (byp1 m) (hwaits1 m) (hentry1 m) (hexit1 m)

/-- The region's call, as the enclosing program spells it, is the pipeline program's call lifted. -/
theorem regionCall1_eq : regionCall (F := F) 1 = SparseCore.liftProg (Prog.lift (.customCall (Pipeline.entry 1) ())) := rfl

set_option backward.isDefEq.respectTransparency.types false in
/-- THE STEP: from the level facts, the region boundary, every unscoped array as the line before the region left it,
    the start signals owed and the pipeline's ghost state, the region's call runs to the boundary, the arrays with the
    region's result at the predictions, and the same start signals owed. -/
theorem region_step1 (d : Dev nD) (Φ : PUnit → sProp 𝕄) :
    iprop(levAts (K (F := F)).L (K (F := F)).lev ∗ boundary (TT d) ∗ StableHlo.held (TT d) Su (VD m Mlp.mlpG d) ∗ owesTc d 2
        ∗ Pipeline.cellsGhost (Pipeline.pin (pcfgs (F := F)) Mlp.adm) EP 1 d ∗ Pipeline.toksInit (Pipeline.pin (pcfgs (F := F)) Mlp.adm) EP 1 d
        ∗ (iprop(boundary (TT d) ∗ StableHlo.held (TT d) Su (VD' m Mlp.mlpG d) ∗ owesTc d 2) -∗ Φ ⟨⟩))
      ⊢ wp frame (wpE ((K (F := F)).defs (D (F := F))) 𝒱 (TT d) none) Set.univ (regionCall 1) Φ := by
  rw [regionCall1_eq]
  refine .trans ?_ ((K (F := F)).wp_liftProg (D (F := F)) 𝒱 (TT d) Set.univ none (Prog.lift (.customCall (Pipeline.entry 1) ())) Φ)
  have hstep := Pipeline.RegionSeg.wp (pcfgs (F := F)) Mlp.adm (pd m) (none : HIx 2) cellOf_inj EP defs₀ 𝒱₀
    (K (F := F)).L (K (F := F)).lev (seg1 m) d none (fun _ h => by cases h) (fun x => .ret x) Φ
  refine .trans ?_ hstep
  rw [show (seg1 m).pre d = pre1 m d from rfl, show (seg1 m).post d = post1 m d from rfl]
  unfold pre1 post1
  have e1 : (unscopedBufs d (V3s m d) : sProp 𝕄) = StableHlo.held (TT d) Su (VD m Mlp.mlpG d) := Pipeline.unscopedBufs_held d (VD m Mlp.mlpG d)
  have e2 : (unscopedBufs d (fun b => VD' m Mlp.mlpG d (rf b)) : sProp 𝕄) = StableHlo.held (TT d) Su (VD' m Mlp.mlpG d) := Pipeline.unscopedBufs_held d (VD' m Mlp.mlpG d)
  rw [e1, e2]
  iintro ⟨Hlev, Hbd, Hheld, HO, Hg, Ht, Hk⟩
  isplitl [Hk]
  · iintro ⟨Hbd, Hheld, HO⟩; rw [wp_ret]; imodintro; iapply Hk
    isplitl [Hbd]; · iexact Hbd
    isplitl [Hheld]; · iexact Hheld
    iexact HO
  isplitl [Hbd]; · iexact Hbd
  isplitl [Hheld HO]
  · isplitl [Hheld]; · iexact Hheld
    iexact HO
  isplitl [Hlev]; · iexact Hlev
  isplitl [Hg]; · iexact Hg
  iexact Ht

end Cert.KernelIdeal.Sc

end
-- ==== Proof.ScAll.lean ====
/-
  The kernel program's run from the two workers' tasks: the launch theorem applied to the tasks' obligations, the
  operands' split, the launch element, @main's steps and the reading of the final memory.
-/
import proofs.«212020_g4707284156877_cont_8to1c4_553_54_alg».proof.Proof.ScFinal
import proofs.«212020_g4707284156877_cont_8to1c4_553_54_alg».proof.Proof.ScObl
import proofs.«212020_g4707284156877_cont_8to1c4_553_54_alg».proof.Proof.ScRegion0
import proofs.«212020_g4707284156877_cont_8to1c4_553_54_alg».proof.Proof.ScRegion1

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type}

variable (m : (ℓ : Loc nD τ sig) → Buf (Elt F) ℓ) (ρ : Dev nD → PrngReg) [FloatOps F]

theorem run_all [∀ e, Nonempty (Elt F e)] (hb0 : TileBody0 (F := F) m) (hb1 : TileBody1 (F := F) m) (hpre : PreOK m) :
    θ_run (Cert.KernelIdeal.defs (F := F)) (Cert.KernelIdeal.threads (F := F)) ⟨m, fun _ => 0, ρ⟩ (QC m) :=
  run_main m ρ (fun q _ => match q with | 0 => tileObl0 m hb0 hpre | 1 => tileObl1 m hb1 hpre) (region_step0 m) (region_step1 m)

end Cert.KernelIdeal.Sc

end
-- ==== Proof.BScSetup.lean ====
/-
  The kernel program as the SparseCore launch sees it, and what travels in its handshakes.

  The program makes two SparseCore calls, one per half of the 16384 examples. In each, vector subcore `i` of
  SparseCore `c` is worker `w = 2 i + c` of 32 and owns examples `[256 w, 256 w + 256)` of its half: it reads those
  rows of the four index slices, gathers the rows they name out of the four tables, and writes them side by side into
  rows `[256 w, 256 w + 256)` of the half's 8192 × 512 feature array. So a call's feature array ends, at row `r` and
  column `k`, at column `k mod 128` of row `idx_{k / 128}[r]` of table `k / 128` (`gout`), whatever the order in
  which the workers and the transfer engine proceed: the workers' row strips are disjoint, the index slices and the
  tables are only read.
-/
import proofs.«212020_g4707284156877_cont_8to1c4_553_54_alg».proof.Defs
import proofs.«212020_g4707284156877_cont_8to1c4_553_54_alg».proof.Proof.Gen.Kernel
import proofs.«212020_g4707284156877_cont_8to1c4_553_54_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-! ## The launch memory, the arrays, the workers' strips -/

variable (m : (ℓ : Loc nD τ sig) → Buf (Elt F) ℓ) (ρ : Dev nD → PrngReg)

/-- The TensorCore thread of device `d`: @main's arrays are its. -/
abbrev TT (d : Dev nD) : Thread nD τ := SparseCore.T d

/-- The four index arguments and the four tables at the launch contents. -/
def argI (d : Dev nD) : Fin 4 → S16384.Idx → BitVec 32 :=
  ![m ((TT d).loc main_arg0), m ((TT d).loc main_arg1), m ((TT d).loc main_arg2), m ((TT d).loc main_arg3)]
def tabOf (d : Dev nD) : Fin 4 → S100001x128.Idx → Elt F .f32 :=
  ![m ((TT d).loc main_arg4), m ((TT d).loc main_arg5), m ((TT d).loc main_arg6), m ((TT d).loc main_arg7)]
/-- The two calls' feature arrays at the launch contents. -/
def feat0 (d : Dev nD) : Fin 2 → S8192x512.Idx → Elt F .f32 := ![m ((TT d).loc main_v4), m ((TT d).loc main_v19)]

/-- What every proof here asks of the launch memory: each index word names a row of its table (the certificate's
    precondition gives `≤ 99999`). -/
def PreOK : Prop := ∀ (d : Dev nD) (k : Fin 4) (j : S16384.Idx), (argI m d k j).toNat ≤ 99999

/-- Half `q` of an index array: words `[8192 q, 8192 q + 8192)`. -/
def half (q : Fin 2) (a : S16384.Idx → BitVec 32) : S8192.Idx → BitVec 32 :=
  fun j => a (ix1 ⟨8192 * q.val + (j 0).val, by have h1 : (j 0).val < 8192 := (j 0).isLt; have := q.isLt; omega⟩)

/-- Column `col` of the row of table `e` that word `r` of the index slice `i` names (clamped to the table's last row,
    which no word under `PreOK` exceeds). -/
def gat (i : S8192.Idx → BitVec 32) (e : S100001x128.Idx → Elt F .f32) (r : Fin 8192) (col : Fin 128) : Elt F .f32 :=
  e (ix2 ⟨min (i (ix1 r)).toNat 100000, by omega⟩ col)

/-- A call's feature array: the four gathered rows side by side. -/
def gout (i : Fin 4 → S8192.Idx → BitVec 32) (e : Fin 4 → S100001x128.Idx → Elt F .f32) : S8192x512.Idx → Elt F .f32 :=
  fun j =>
    have h1 : (j 1).val < 512 := (j 1).isLt
    have h0 : (j 0).val < 8192 := (j 0).isLt
    gat (i ⟨(j 1).val / 128, by omega⟩) (e ⟨(j 1).val / 128, by omega⟩) ⟨(j 0).val, h0⟩ ⟨(j 1).val % 128, Nat.mod_lt _ (by decide)⟩

/-- The index slices call `q` reads, and its feature array's value, as functions of the launch memory. -/
def idxOf (d : Dev nD) (q : Fin 2) (k : Fin 4) : S8192.Idx → BitVec 32 := half q (argI m d k)
def featOf (d : Dev nD) (q : Fin 2) : S8192x512.Idx → Elt F .f32 := gout (idxOf m d q) (tabOf m d)

/-- Worker `w` of 32 owns rows `[256 w, 256 w + 256)` of a feature array. -/
theorem odiv : 32 ∣ S8192x512.size 0 := ⟨256, rfl⟩
abbrev orow (w : Fin 32) : Rect S8192x512 := Rect.part (s := S8192x512) (a₀ := 0) odiv w
abbrev oRowSet (w : Fin 32) : Finset S8192x512.Idx := (orow w).set
/-- Vector subcore `i` of SparseCore `c` is worker `2 i + c`. -/
def wid (c : Fin 2) (i : Fin 16) : Fin 32 := ⟨2 * i.val + c.val, by omega⟩

/-- The read shares: SparseCore `c`'s of an array the call only reads, and vector subcore `i`'s of that. -/
abbrev shC (c : Fin 2) : PosShare TreeShare := Transfers.shareTok fullShare 2 c
abbrev shV (c : Fin 2) (i : Fin 16) : PosShare TreeShare := Transfers.shareTok (shC c) 16 i

variable [FloatOps F]

/-- Index slice `k` of call `q` at the contents the host slices left, at share `s`. -/
def slicePts (d : Dev nD) (s : PosShare TreeShare) : Fin 2 → Fin 4 → sProp 𝕄 :=
  ![![((TT d).loc main_v0 ↦{s} idxOf m d 0 0), ((TT d).loc main_v1 ↦{s} idxOf m d 0 1),
      ((TT d).loc main_v2 ↦{s} idxOf m d 0 2), ((TT d).loc main_v3 ↦{s} idxOf m d 0 3)],
    ![((TT d).loc main_v15 ↦{s} idxOf m d 1 0), ((TT d).loc main_v16 ↦{s} idxOf m d 1 1),
      ((TT d).loc main_v17 ↦{s} idxOf m d 1 2), ((TT d).loc main_v18 ↦{s} idxOf m d 1 3)]]
/-- Table `k` at the launch contents, at share `s`. -/
def tabPts (d : Dev nD) (s : PosShare TreeShare) : Fin 4 → sProp 𝕄 :=
  ![((TT d).loc main_arg4 ↦{s} tabOf m d 0), ((TT d).loc main_arg5 ↦{s} tabOf m d 1),
    ((TT d).loc main_arg6 ↦{s} tabOf m d 2), ((TT d).loc main_arg7 ↦{s} tabOf m d 3)]
/-- Worker `w`'s strip of call `q`'s feature array at the contents `f`. -/
def stripPts (d : Dev nD) (w : Fin 32) (f : S8192x512.Idx → Elt F .f32) : Fin 2 → sProp 𝕄 :=
  ![((TT d).loc main_v4 ↦[oRowSet w]{fullShare} f), ((TT d).loc main_v19 ↦[oRowSet w]{fullShare} f)]

/-- What the reads of call `q` hold at share `s`: the four slices and the four tables. -/
def readsPts (d : Dev nD) (q : Fin 2) (s : PosShare TreeShare) : sProp 𝕄 :=
  iprop((bigSep Finset.univ fun k : Fin 4 => slicePts m d s q k) ∗ bigSep Finset.univ fun k : Fin 4 => tabPts m d s k)

/-- A task's operands, and its results: its read shares, and its strip at the launch contents, then at the gathered rows. -/
def goAt (d : Dev nD) (q : Fin 2) (c : Fin 2) (i : Fin 16) : sProp 𝕄 :=
  iprop(readsPts m d q (shV c i) ∗ stripPts d (wid c i) (feat0 m d q) q)
def tdAt (d : Dev nD) (q : Fin 2) (c : Fin 2) (i : Fin 16) : sProp 𝕄 :=
  iprop(readsPts m d q (shV c i) ∗ stripPts d (wid c i) (featOf m d q) q)
/-- A SparseCore's operands and results: its read shares and its sixteen workers' strips. -/
def stAt (d : Dev nD) (q : Fin 2) (c : Fin 2) : sProp 𝕄 :=
  iprop(readsPts m d q (shC c) ∗ bigSep Finset.univ fun i : Fin 16 => stripPts d (wid c i) (feat0 m d q) q)
def dnAt (d : Dev nD) (q : Fin 2) (c : Fin 2) : sProp 𝕄 :=
  iprop(readsPts m d q (shC c) ∗ bigSep Finset.univ fun i : Fin 16 => stripPts d (wid c i) (featOf m d q) q)

/-- What the handshakes carry. -/
def P : (K (F := F)).Pay (nD := nD) (Val := Elt F) (Name := ℕ) (U := UU) where
  st := fun q d c => stAt m d q (Fin.cast (nCore_eq q) c)
  dn := fun q d c => dnAt m d q (Fin.cast (nCore_eq q) c)
  go := fun q d c i => goAt m d q (Fin.cast (nCore_eq q) c) (Fin.cast (nSub_eq q) i)
  td := fun q d c i => tdAt m d q (Fin.cast (nCore_eq q) c) (Fin.cast (nSub_eq q) i)
  x := fun _ _ => iprop(emp)

end Cert.Kernel.Sc

end
-- ==== Proof.BScLaunchA.lean ====
/-
  The launch's fixed facts about the two SparseCore calls, and how a SparseCore's operands split among its sixteen
  workers: every array a call only reads (the four index slices, the four tables) goes out as sixteen read shares of
  the SparseCore's own share, the remainder of that share waiting for them; the sixteen row strips of the feature
  array the SparseCore owns go to their workers outright. At the end the read shares join again and the strips come
  back written.
-/
import proofs.«212020_g4707284156877_cont_8to1c4_553_54_alg».proof.Proof.BScSetup

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) [FloatOps F]

/-- Two pairs regrouped crosswise. -/
theorem sep4 {M : Type} [URA M] (A B C D : sProp M) : iprop((A ∗ B) ∗ (C ∗ D)) = iprop((A ∗ C) ∗ (B ∗ D)) := by
  have h1 : iprop((A ∗ B) ∗ (C ∗ D)) ⊢ iprop((A ∗ C) ∗ (B ∗ D)) := by
    iintro ⟨⟨Ha, Hb⟩, ⟨Hc, Hd⟩⟩
    isplitl [Ha Hc]
    · isplitl [Ha]; · iexact Ha
      iexact Hc
    isplitl [Hb]; · iexact Hb
    iexact Hd
  have h2 : iprop((A ∗ C) ∗ (B ∗ D)) ⊢ iprop((A ∗ B) ∗ (C ∗ D)) := by
    iintro ⟨⟨Ha, Hc⟩, ⟨Hb, Hd⟩⟩
    isplitl [Ha Hb]
    · isplitl [Ha]; · iexact Ha
      iexact Hb
    isplitl [Hc]; · iexact Hc
    iexact Hd
  exact BI.Entails.antisymm h1 h2

/-! ## A read share into sixteen and back -/

theorem slicePts_split (d : Dev nD) (s : PosShare TreeShare) (q : Fin 2) (k : Fin 4) :
    (slicePts m d s q k : sProp 𝕄) = iprop(slicePts m d (Transfers.shareDrop s 16) q k ∗ bigSep Finset.univ fun i : Fin 16 => slicePts m d (Transfers.shareTok s 16 i) q k) := by
  fin_cases q <;> fin_cases k <;> exact BI.Entails.antisymm (Transfers.pointsTo_toks_split _ 16) (Transfers.pointsTo_toks_join _ 16)

theorem tabPts_split (d : Dev nD) (s : PosShare TreeShare) (k : Fin 4) :
    (tabPts m d s k : sProp 𝕄) = iprop(tabPts m d (Transfers.shareDrop s 16) k ∗ bigSep Finset.univ fun i : Fin 16 => tabPts m d (Transfers.shareTok s 16 i) k) := by
  fin_cases k <;> exact BI.Entails.antisymm (Transfers.pointsTo_toks_split _ 16) (Transfers.pointsTo_toks_join _ 16)

/-- All eight read arrays of a call at once. -/
theorem readsPts_split (d : Dev nD) (q : Fin 2) (s : PosShare TreeShare) :
    (readsPts m d q s : sProp 𝕄) = iprop(readsPts m d q (Transfers.shareDrop s 16) ∗ bigSep Finset.univ fun i : Fin 16 => readsPts m d q (Transfers.shareTok s 16 i)) := by
  unfold readsPts
  rw [bigSep_congr (fun k _ => slicePts_split m d s q k), bigSep_congr (fun k _ => tabPts_split m d s k),
    bigSep_sep', bigSep_sep', bigSep_sep',
    bigSep_univ_comm (fun (k : Fin 4) (i : Fin 16) => slicePts m d (Transfers.shareTok s 16 i) q k),
    bigSep_univ_comm (fun (k : Fin 4) (i : Fin 16) => tabPts m d (Transfers.shareTok s 16 i) k)]
  exact sep4 _ _ _ _

/-! ## A SparseCore's operands to its workers, and their results back -/

/-- The split over sixteen workers named by their numbers. -/
theorem split16 (d : Dev nD) (q : Fin 2) (c : Fin 2) :
    (stAt m d q c : sProp 𝕄) ⊢ |={Set.univ}=> iprop((bigSep Finset.univ fun i : Fin 16 => goAt m d q c i)
      ∗ ((bigSep Finset.univ fun i : Fin 16 => tdAt m d q c i) -∗ dnAt m d q c)) := by
  unfold stAt goAt tdAt dnAt
  rw [bigSep_sep', bigSep_sep', readsPts_split m d q (shC c)]
  iintro ⟨⟨Hd, Ht⟩, Hs⟩
  imodintro
  isplitl [Ht Hs]
  · isplitl [Ht]; · iexact Ht
    iexact Hs
  iintro ⟨Ht, Hs⟩
  isplitl [Hd Ht]
  · isplitl [Hd]; · iexact Hd
    iexact Ht
  iexact Hs

omit [FloatOps F] in
theorem bigSep_tasks (q : Fin 2) (Φ : Fin 16 → sProp 𝕄) :
    (bigSep Finset.univ fun i : Fin ((K (F := F)).nSub q) => Φ (Fin.cast (nSub_eq q) i)) = bigSep Finset.univ Φ := by
  fin_cases q <;> exact bigSep_congr fun _ _ => congrArg Φ (Fin.ext rfl)

theorem vecSplit (q : Fin 2) : (K (F := F)).VecSplit' (P m) q := by
  intro d c
  show stAt m d q (Fin.cast (nCore_eq q) c) ⊢ |={Set.univ}=> iprop(
      (bigSep Finset.univ fun i : Fin ((K (F := F)).nSub q) => goAt m d q (Fin.cast (nCore_eq q) c) (Fin.cast (nSub_eq q) i))
      ∗ ((bigSep Finset.univ fun i : Fin ((K (F := F)).nSub q) => tdAt m d q (Fin.cast (nCore_eq q) c) (Fin.cast (nSub_eq q) i))
          -∗ dnAt m d q (Fin.cast (nCore_eq q) c)))
  rw [bigSep_tasks (F := F) q (fun i => goAt m d q (Fin.cast (nCore_eq q) c) i),
    bigSep_tasks (F := F) q (fun i => tdAt m d q (Fin.cast (nCore_eq q) c) i)]
  exact split16 m d q _

end Cert.Kernel.Sc

end
-- ==== Proof.BScLaunchB.lean ====
/-
  A SparseCore call's arrays, held whole by the TensorCore, are the two SparseCores' operands and a remainder: each
  read array's full share is a remainder and one read share per SparseCore; the feature array is its thirty-two row
  strips, sixteen per SparseCore (worker `2 i + c` is vector subcore `i` of SparseCore `c`).
-/
import proofs.«212020_g4707284156877_cont_8to1c4_553_54_alg».proof.Proof.BScLaunchA

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable (m : (ℓ : Loc nD τ sig) → Buf (Elt F) ℓ) [FloatOps F]

/-! ## The read arrays: a full share into a remainder and two -/

theorem slicePts_split2 (d : Dev nD) (s : PosShare TreeShare) (q : Fin 2) (k : Fin 4) :
    (slicePts m d s q k : sProp 𝕄) = iprop(slicePts m d (Transfers.shareDrop s 2) q k ∗ bigSep Finset.univ fun c : Fin 2 => slicePts m d (Transfers.shareTok s 2 c) q k) := by
  fin_cases q <;> fin_cases k <;> exact BI.Entails.antisymm (Transfers.pointsTo_toks_split _ 2) (Transfers.pointsTo_toks_join _ 2)

theorem tabPts_split2 (d : Dev nD) (s : PosShare TreeShare) (k : Fin 4) :
    (tabPts m d s k : sProp 𝕄) = iprop(tabPts m d (Transfers.shareDrop s 2) k ∗ bigSep Finset.univ fun c : Fin 2 => tabPts m d (Transfers.shareTok s 2 c) k) := by
  fin_cases k <;> exact BI.Entails.antisymm (Transfers.pointsTo_toks_split _ 2) (Transfers.pointsTo_toks_join _ 2)

theorem readsPts_split2 (d : Dev nD) (q : Fin 2) (s : PosShare TreeShare) :
    (readsPts m d q s : sProp 𝕄) = iprop(readsPts m d q (Transfers.shareDrop s 2) ∗ bigSep Finset.univ fun c : Fin 2 => readsPts m d q (Transfers.shareTok s 2 c)) := by
  unfold readsPts
  rw [bigSep_congr (fun k _ => slicePts_split2 m d s q k), bigSep_congr (fun k _ => tabPts_split2 m d s k),
    bigSep_sep', bigSep_sep', bigSep_sep',
    bigSep_univ_comm (fun (k : Fin 4) (c : Fin 2) => slicePts m d (Transfers.shareTok s 2 c) q k),
    bigSep_univ_comm (fun (k : Fin 4) (c : Fin 2) => tabPts m d (Transfers.shareTok s 2 c) k)]
  exact sep4 _ _ _ _

/-! ## The feature array: thirty-two strips, sixteen per SparseCore -/

/-- A call's feature array whole at the contents `f`. -/
def featPts (d : Dev nD) (f : S8192x512.Idx → Elt F .f32) : Fin 2 → sProp 𝕄 :=
  ![((TT d).loc main_v4 ↦{fullShare} f), ((TT d).loc main_v19 ↦{fullShare} f)]

omit [FloatOps F] in
theorem strips_disjoint : ∀ w ∈ (Finset.univ : Finset (Fin 32)), ∀ w' ∈ (Finset.univ : Finset (Fin 32)), w ≠ w' → Disjoint (oRowSet w) (oRowSet w') :=
  fun _ _ _ _ h => Rect.part_disjoint odiv h
omit [FloatOps F] in
theorem strips_cover : (Finset.univ : Finset (Fin 32)).biUnion oRowSet = Finset.univ := Rect.biUnion_part odiv

omit [FloatOps F] in
/-- The array is its thirty-two strips. -/
theorem featPts_strips (d : Dev nD) (f : S8192x512.Idx → Elt F .f32) (q : Fin 2) :
    (featPts d f q : sProp 𝕄) = bigSep Finset.univ fun w : Fin 32 => stripPts d w f q := by
  fin_cases q
  · show ((TT d).loc main_v4 ↦{fullShare} f : sProp 𝕄) = bigSep Finset.univ fun w : Fin 32 => (TT d).loc main_v4 ↦[oRowSet w]{fullShare} f
    rw [← pointsTo_biUnion Finset.univ (ℓ := (TT d).loc main_v4) oRowSet strips_disjoint, strips_cover]; try rfl
  · show ((TT d).loc main_v19 ↦{fullShare} f : sProp 𝕄) = bigSep Finset.univ fun w : Fin 32 => (TT d).loc main_v19 ↦[oRowSet w]{fullShare} f
    rw [← pointsTo_biUnion Finset.univ (ℓ := (TT d).loc main_v19) oRowSet strips_disjoint, strips_cover]; try rfl

omit [FloatOps F] in
/-- Thirty-two workers are two SparseCores' sixteen. -/
theorem bigSep_workers (Φ : Fin 32 → sProp 𝕄) :
    bigSep Finset.univ Φ = bigSep Finset.univ fun c : Fin 2 => bigSep Finset.univ fun i : Fin 16 => Φ (wid c i) := by
  rw [bigSep_univ_comm (fun (c : Fin 2) (i : Fin 16) => Φ (wid c i)),
    bigSep_univ_equiv (finProdFinEquiv : Fin 16 × Fin 2 ≃ Fin 32) Φ, bigSep_univ_prod]
  refine bigSep_congr fun i _ => bigSep_congr fun c _ => congrArg Φ (Fin.ext ?_)
  simp [wid, finProdFinEquiv]; omega

/-! ## The call's arrays, to the SparseCores and back -/

/-- The arrays of call `q` held whole, the feature array at `f`, are the read arrays' remainder and the two SparseCores'
    operands with their strips at `f`. -/
theorem callRes_eq (d : Dev nD) (q : Fin 2) (f : S8192x512.Idx → Elt F .f32) :
    (iprop(readsPts m d q fullShare ∗ featPts d f q) : sProp 𝕄)
      = iprop(readsPts m d q (Transfers.shareDrop fullShare 2)
          ∗ bigSep Finset.univ fun c : Fin 2 => iprop(readsPts m d q (shC c) ∗ bigSep Finset.univ fun i : Fin 16 => stripPts d (wid c i) f q)) := by
  rw [readsPts_split2 m d q fullShare, featPts_strips d f q, bigSep_workers (F := F) (fun w => stripPts d w f q), bigSep_sep']
  refine BI.Entails.antisymm ?_ ?_
  · exact BI.sep_assoc
  · exact BI.sep_assoc'

end Cert.Kernel.Sc

end
-- ==== Proof.BScMainOps.lean ====
/-
  @main of the kernel program, read as five straight lines of host operations around two SparseCore calls and two
  TensorCore regions: slice the four index arrays' first halves; gather (call 0); cast the weights and reshape the
  biases; the perceptron on the first half (region 0); the same four steps for the second halves; concatenate the two
  halves' predictions.
-/
import proofs.«212020_g4707284156877_cont_8to1c4_553_54_alg».proof.Proof.BScSetup

noncomputable section

namespace Cert.Kernel.Sc

open Cert.Kernel Cert.Kernel.Gen

open Idealize.ShloMosaic Idealize.ShloMosaic.ValueIdx
open Idealize.SL Idealize.SL.Sem

variable {F : FTy → Type} [FloatOps F]

/-- The first halves of the four index arrays. -/
abbrev opsA : List (HloOp τ sig (Elt F)) :=
  [(StableHlo.unary main_arg0 main_v0 ((extractStridedSlice S8192 ![0] · slices_S16384_S8192_0) : (⟨S16384, .i32⟩ : BufTy).Contents (Elt F) → (⟨S8192, .i32⟩ : BufTy).Contents (Elt F))),
    (StableHlo.unary main_arg1 main_v1 ((extractStridedSlice S8192 ![0] · slices_S16384_S8192_0) : (⟨S16384, .i32⟩ : BufTy).Contents (Elt F) → (⟨S8192, .i32⟩ : BufTy).Contents (Elt F))),
    (StableHlo.unary main_arg2 main_v2 ((extractStridedSlice S8192 ![0] · slices_S16384_S8192_0) : (⟨S16384, .i32⟩ : BufTy).Contents (Elt F) → (⟨S8192, .i32⟩ : BufTy).Contents (Elt F))),
    (StableHlo.unary main_arg3 main_v3 ((extractStridedSlice S8192 ![0] · slices_S16384_S8192_0) : (⟨S16384, .i32⟩ : BufTy).Contents (Elt F) → (⟨S8192, .i32⟩ : BufTy).Contents (Elt F)))]
/-- The weights cast, the biases reshaped, for region 0. -/
abbrev opsB : List (HloOp τ sig (Elt F)) :=
  [(StableHlo.unary main_arg8 main_v5 ((truncf .bf16 · bitsLt_bf16_f32) : (⟨S512x512, .f32⟩ : BufTy).Contents (Elt F) → (⟨S512x512, .bf16⟩ : BufTy).Contents (Elt F))),
    (StableHlo.reshape main_arg9 main_v6 rfl shapeCasts_S512_S1x512),
    (StableHlo.unary main_arg10 main_v7 ((truncf .bf16 · bitsLt_bf16_f32) : (⟨S256x512, .f32⟩ : BufTy).Contents (Elt F) → (⟨S256x512, .bf16⟩ : BufTy).Contents (Elt F))),
    (StableHlo.reshape main_arg11 main_v8 rfl shapeCasts_S256_S1x256),
    (StableHlo.unary main_arg12 main_v9 ((truncf .bf16 · bitsLt_bf16_f32) : (⟨S128x256, .f32⟩ : BufTy).Contents (Elt F) → (⟨S128x256, .bf16⟩ : BufTy).Contents (Elt F))),
    (StableHlo.reshape main_arg13 main_v10 rfl shapeCasts_S128_S1x128),
    (StableHlo.unary main_arg14 main_v11 ((truncf .bf16 · bitsLt_bf16_f32) : (⟨S64x128, .f32⟩ : BufTy).Contents (Elt F) → (⟨S64x128, .bf16⟩ : BufTy).Contents (Elt F))),
    (StableHlo.reshape main_arg15 main_v12 rfl shapeCasts_S64_S1x64),
    (StableHlo.reshape main_arg17 main_v13 rfl shapeCasts_S1_S1x1)]
/-- The second halves of the four index arrays. -/
abbrev opsC : List (HloOp τ sig (Elt F)) :=
  [(StableHlo.unary main_arg0 main_v15 ((extractStridedSlice S8192 ![8192] · slices_S16384_S8192_8192) : (⟨S16384, .i32⟩ : BufTy).Contents (Elt F) → (⟨S8192, .i32⟩ : BufTy).Contents (Elt F))),
    (StableHlo.unary main_arg1 main_v16 ((extractStridedSlice S8192 ![8192] · slices_S16384_S8192_8192) : (⟨S16384, .i32⟩ : BufTy).Contents (Elt F) → (⟨S8192, .i32⟩ : BufTy).Contents (Elt F))),
    (StableHlo.unary main_arg2 main_v17 ((extractStridedSlice S8192 ![8192] · slices_S16384_S8192_8192) : (⟨S16384, .i32⟩ : BufTy).Contents (Elt F) → (⟨S8192, .i32⟩ : BufTy).Contents (Elt F))),
    (StableHlo.unary main_arg3 main_v18 ((extractStridedSlice S8192 ![8192] · slices_S16384_S8192_8192) : (⟨S16384, .i32⟩ : BufTy).Contents (Elt F) → (⟨S8192, .i32⟩ : BufTy).Contents (Elt F)))]
/-- The weights cast, the biases reshaped, for region 1. -/
abbrev opsD : List (HloOp τ sig (Elt F)) :=
  [(StableHlo.unary main_arg8 main_v20 ((truncf .bf16 · bitsLt_bf16_f32) : (⟨S512x512, .f32⟩ : BufTy).Contents (Elt F) → (⟨S512x512, .bf16⟩ : BufTy).Contents (Elt F))),
    (StableHlo.reshape main_arg9 main_v21 rfl shapeCasts_S512_S1x512),
    (StableHlo.unary main_arg10 main_v22 ((truncf .bf16 · bitsLt_bf16_f32) : (⟨S256x512, .f32⟩ : BufTy).Contents (Elt F) → (⟨S256x512, .bf16⟩ : BufTy).Contents (Elt F))),
    (StableHlo.reshape main_arg11 main_v23 rfl shapeCasts_S256_S1x256),
    (StableHlo.unary main_arg12 main_v24 ((truncf .bf16 · bitsLt_bf16_f32) : (⟨S128x256, .f32⟩ : BufTy).Contents (Elt F) → (⟨S128x256, .bf16⟩ : BufTy).Contents (Elt F))),
    (StableHlo.reshape main_arg13 main_v25 rfl shapeCasts_S128_S1x128),
    (StableHlo.unary main_arg14 main_v26 ((truncf .bf16 · bitsLt_bf16_f32) : (⟨S64x128, .f32⟩ : BufTy).Contents (Elt F) → (⟨S64x128, .bf16⟩ : BufTy).Contents (Elt F))),
    (StableHlo.reshape main_arg15 main_v27 rfl shapeCasts_S64_S1x64),
    (StableHlo.reshape main_arg17 main_v28 rfl shapeCasts_S1_S1x1)]
/-- The two halves' predictions joined. -/
abbrev opsE : List (HloOp τ sig (Elt F)) :=
  [(StableHlo.binary main_v14 main_v29 main_v30 ((fun a b => concatenate S16384 0 [⟨S8192, a⟩, ⟨S8192, b⟩] concatenates_S8192_S8192_S16384_d0) : (⟨S8192, .f32⟩ : BufTy).Contents (Elt F) → (⟨S8192, .f32⟩ : BufTy).Contents (Elt F) → (⟨S16384, .f32⟩ : BufTy).Contents (Elt F)))]

/-- A TensorCore region of the program, as @main spells it. -/
abbrev regionCall (p : Fin 2) : Prog (TpuEff nD τ sig (Elt F) (SparseCore.Sig (Pipeline.Sig Λ₀ (Fin 2) fun p => (pcfgs (F := F) p).Adm) 2) .tc) PUnit :=
  Prog.lift (.customCall (SparseCore.inner (Pipeline.entry p)) ())

/-- @main is the five lines, the two calls and the two regions in order. -/
theorem main_eq (d : Dev nD) :
    main (F := F) d = (StableHlo.seq opsA >>= fun _ => sc.run d 0 >>= fun _ => StableHlo.seq opsB >>= fun _ => regionCall 0 >>= fun _ =>
      StableHlo.seq opsC >>= fun _ => sc.run d 1 >>= fun _ => StableHlo.seq opsD >>= fun _ => regionCall 1 >>= fun _ =>
      StableHlo.seq opsE >>= fun _ => pure ⟨⟩) := rfl

end Cert.Kernel.Sc

end
-- ==== Proof.BScVals.lean ====
/-
  The TensorCore's arrays stage by stage through @main, as functions of the launch memory: after each line of host
  operations (`StableHlo.after`), after each SparseCore call (the call's feature array rewritten to the gathered rows),
  after each TensorCore region (the region's result array rewritten to the perceptron `G` of the region's inputs).
-/
import proofs.«212020_g4707284156877_cont_8to1c4_553_54_alg».proof.Proof.BScSetup
import proofs.«212020_g4707284156877_cont_8to1c4_553_54_alg».proof.Proof.BScMainOps
import Idealize.ShloMosaic.Lib.Pipeline.Frame

noncomputable section

namespace Cert.Kernel.Sc

open Cert.Kernel Cert.Kernel.Gen

open Idealize.ShloMosaic Idealize.ShloMosaic.ValueIdx
open Idealize.ShloMosaic.StableHlo
open Idealize.SL Idealize.SL.Sem

variable {F : FTy → Type}

/-- The TensorCore's unscoped arrays. -/
abbrev Su : Finset (DevRef τ sig) := Pipeline.ucRefs τ sig
/-- A reference of @main as a buffer of the device. -/
abbrev rf (b : Ref sig .tc) : DevRef τ sig := Proc.devRef .tc b

omit F in
theorem rf_mem (b : Ref sig .tc) (h : (rf b).isScoped = false := by decide) : rf b ∈ Su :=
  Finset.mem_filter.mpr ⟨StableHlo.devRef_mem_tcRefs b, by rw [h]; exact Bool.false_ne_true⟩

/-- The type of a region's perceptron: from the feature array, the four cast weights and reshaped biases, the output
    row and bias, to the half's predictions. -/
abbrev MlpFn (F : FTy → Type) : Type :=
  (S8192x512.Idx → Elt F .f32) → (S512x512.Idx → Elt F .bf16) → (S1x512.Idx → Elt F .f32) → (S256x512.Idx → Elt F .bf16) → (S1x256.Idx → Elt F .f32)
    → (S128x256.Idx → Elt F .bf16) → (S1x128.Idx → Elt F .f32) → (S64x128.Idx → Elt F .bf16) → (S1x64.Idx → Elt F .f32)
    → (S1x64.Idx → Elt F .f32) → (S1x1.Idx → Elt F .f32) → S8192.Idx → Elt F .f32

variable (m : (ℓ : Loc nD τ sig) → Buf (Elt F) ℓ) [FloatOps F] (G : MlpFn F)

/-! ## The stages -/

def V0 (d : Dev nD) : Valuation τ sig (Elt F) := fun b => m (d, b)
def VA (d : Dev nD) : Valuation τ sig (Elt F) := StableHlo.after (opsA (F := F)) (V0 m d)
def VA' (d : Dev nD) : Valuation τ sig (Elt F) := Function.update (VA m d) (rf main_v4) (featOf m d 0)
def VB (d : Dev nD) : Valuation τ sig (Elt F) := StableHlo.after (opsB (F := F)) (VA' m d)
/-- Region 0's result from its eleven inputs as the line before it left them. -/
def res0 (d : Dev nD) : S8192.Idx → Elt F .f32 :=
  G (VB m d (rf main_v4)) (VB m d (rf main_v5)) (VB m d (rf main_v6)) (VB m d (rf main_v7)) (VB m d (rf main_v8)) (VB m d (rf main_v9))
    (VB m d (rf main_v10)) (VB m d (rf main_v11)) (VB m d (rf main_v12)) (VB m d (rf main_arg16)) (VB m d (rf main_v13))
def VB' (d : Dev nD) : Valuation τ sig (Elt F) := Function.update (VB m d) (rf main_v14) (res0 m G d)
def VC (d : Dev nD) : Valuation τ sig (Elt F) := StableHlo.after (opsC (F := F)) (VB' m G d)
def VC' (d : Dev nD) : Valuation τ sig (Elt F) := Function.update (VC m G d) (rf main_v19) (featOf m d 1)
def VD (d : Dev nD) : Valuation τ sig (Elt F) := StableHlo.after (opsD (F := F)) (VC' m G d)
def res1 (d : Dev nD) : S8192.Idx → Elt F .f32 :=
  G (VD m G d (rf main_v19)) (VD m G d (rf main_v20)) (VD m G d (rf main_v21)) (VD m G d (rf main_v22)) (VD m G d (rf main_v23)) (VD m G d (rf main_v24))
    (VD m G d (rf main_v25)) (VD m G d (rf main_v26)) (VD m G d (rf main_v27)) (VD m G d (rf main_arg16)) (VD m G d (rf main_v28))
def VD' (d : Dev nD) : Valuation τ sig (Elt F) := Function.update (VD m G d) (rf main_v29) (res1 m G d)
def VE (d : Dev nD) : Valuation τ sig (Elt F) := StableHlo.after (opsE (F := F)) (VD' m G d)

/-! ## The lines' operations touch unscoped arrays only, and allocate nothing -/

omit [FloatOps F] in
theorem ops_sub_of {ops : List (HloOp τ sig (Elt F))} (h : ∀ op ∈ ops, op.bufs ⊆ StableHlo.tcRefs τ sig) : ∀ op ∈ ops, op.bufs ⊆ Su :=
  fun op hop => Pipeline.sub_ucRefs op (h op hop)

theorem opsA_sub : ∀ op ∈ (opsA (F := F)), op.bufs ⊆ Su := ops_sub_of (by
  intro op hop; simp only [opsA, List.mem_cons, List.not_mem_nil, or_false] at hop
  rcases hop with rfl | rfl | rfl | rfl <;> simp)
theorem opsA_fresh : ∀ op ∈ (opsA (F := F)), op.fresh = ∅ := by
  intro op hop; simp only [opsA, List.mem_cons, List.not_mem_nil, or_false] at hop
  rcases hop with rfl | rfl | rfl | rfl <;> rfl
theorem opsB_sub : ∀ op ∈ (opsB (F := F)), op.bufs ⊆ Su := ops_sub_of (by
  intro op hop; simp only [opsB, List.mem_cons, List.not_mem_nil, or_false] at hop
  rcases hop with rfl | rfl | rfl | rfl | rfl | rfl | rfl | rfl | rfl <;> simp)
theorem opsB_fresh : ∀ op ∈ (opsB (F := F)), op.fresh = ∅ := by
  intro op hop; simp only [opsB, List.mem_cons, List.not_mem_nil, or_false] at hop
  rcases hop with rfl | rfl | rfl | rfl | rfl | rfl | rfl | rfl | rfl <;> rfl
theorem opsC_sub : ∀ op ∈ (opsC (F := F)), op.bufs ⊆ Su := ops_sub_of (by
  intro op hop; simp only [opsC, List.mem_cons, List.not_mem_nil, or_false] at hop
  rcases hop with rfl | rfl | rfl | rfl <;> simp)
theorem opsC_fresh : ∀ op ∈ (opsC (F := F)), op.fresh = ∅ := by
  intro op hop; simp only [opsC, List.mem_cons, List.not_mem_nil, or_false] at hop
  rcases hop with rfl | rfl | rfl | rfl <;> rfl
theorem opsD_sub : ∀ op ∈ (opsD (F := F)), op.bufs ⊆ Su := ops_sub_of (by
  intro op hop; simp only [opsD, List.mem_cons, List.not_mem_nil, or_false] at hop
  rcases hop with rfl | rfl | rfl | rfl | rfl | rfl | rfl | rfl | rfl <;> simp)
theorem opsD_fresh : ∀ op ∈ (opsD (F := F)), op.fresh = ∅ := by
  intro op hop; simp only [opsD, List.mem_cons, List.not_mem_nil, or_false] at hop
  rcases hop with rfl | rfl | rfl | rfl | rfl | rfl | rfl | rfl | rfl <;> rfl
theorem opsE_sub : ∀ op ∈ (opsE (F := F)), op.bufs ⊆ Su := ops_sub_of (by
  intro op hop; simp only [opsE, List.mem_cons, List.not_mem_nil, or_false] at hop
  rcases hop with rfl; simp)
theorem opsE_fresh : ∀ op ∈ (opsE (F := F)), op.fresh = ∅ := by
  intro op hop; simp only [opsE, List.mem_cons, List.not_mem_nil, or_false] at hop
  rcases hop with rfl; rfl

/-! ## A slice of an index array is its half -/

omit [FloatOps F] in
theorem slice0_eq (a : S16384.Idx → BitVec 32) : extractStridedSlice S8192 ![0] a slices_S16384_S8192_0 = half 0 a := by
  funext j; unfold extractStridedSlice half
  congr 1; funext x; match x with | ⟨0, _⟩ => exact Fin.ext (by simp)
omit [FloatOps F] in
theorem slice1_eq (a : S16384.Idx → BitVec 32) : extractStridedSlice S8192 ![8192] a slices_S16384_S8192_8192 = half 1 a := by
  funext j; unfold extractStridedSlice half
  congr 1; funext x; match x with | ⟨0, _⟩ => exact Fin.ext (by simp)

/-! ## What call 0 finds -/

theorem VA_v0 (d : Dev nD) : VA m d (rf main_v0) = idxOf m d 0 0 := by
  unfold VA; dsimp only [opsA]; after_results; exact slice0_eq _
theorem VA_v1 (d : Dev nD) : VA m d (rf main_v1) = idxOf m d 0 1 := by
  unfold VA; dsimp only [opsA]; after_results; exact slice0_eq _
theorem VA_v2 (d : Dev nD) : VA m d (rf main_v2) = idxOf m d 0 2 := by
  unfold VA; dsimp only [opsA]; after_results; exact slice0_eq _
theorem VA_v3 (d : Dev nD) : VA m d (rf main_v3) = idxOf m d 0 3 := by
  unfold VA; dsimp only [opsA]; after_results; exact slice0_eq _
theorem VA_arg4 (d : Dev nD) : VA m d (rf main_arg4) = tabOf m d 0 := by
  unfold VA; dsimp only [opsA]; after_results; rfl
theorem VA_arg5 (d : Dev nD) : VA m d (rf main_arg5) = tabOf m d 1 := by
  unfold VA; dsimp only [opsA]; after_results; rfl
theorem VA_arg6 (d : Dev nD) : VA m d (rf main_arg6) = tabOf m d 2 := by
  unfold VA; dsimp only [opsA]; after_results; rfl
theorem VA_arg7 (d : Dev nD) : VA m d (rf main_arg7) = tabOf m d 3 := by
  unfold VA; dsimp only [opsA]; after_results; rfl
theorem VA_v4 (d : Dev nD) : VA m d (rf main_v4) = feat0 m d 0 := by
  unfold VA; dsimp only [opsA]; after_results; rfl

/-! ## What a line writes, and what keeps its contents across a stage -/

abbrev WA : List (Ref sig .tc) := [main_v0, main_v1, main_v2, main_v3]
abbrev WB : List (Ref sig .tc) := [main_v5, main_v6, main_v7, main_v8, main_v9, main_v10, main_v11, main_v12, main_v13]
abbrev WC : List (Ref sig .tc) := [main_v15, main_v16, main_v17, main_v18]
abbrev WD : List (Ref sig .tc) := [main_v20, main_v21, main_v22, main_v23, main_v24, main_v25, main_v26, main_v27, main_v28]
abbrev WE : List (Ref sig .tc) := [main_v30]

theorem opsA_writes : (opsA (F := F)).Forall fun op => op.writes ⊆ (WA.map (Proc.devRef (τ := τ) .tc)).toFinset := by
  simp only [opsA, List.forall_cons, List.Forall, unary_writes, reshape_writes, binary_writes]; decide
theorem opsB_writes : (opsB (F := F)).Forall fun op => op.writes ⊆ (WB.map (Proc.devRef (τ := τ) .tc)).toFinset := by
  simp only [opsB, List.forall_cons, List.Forall, unary_writes, reshape_writes, binary_writes]; decide
theorem opsC_writes : (opsC (F := F)).Forall fun op => op.writes ⊆ (WC.map (Proc.devRef (τ := τ) .tc)).toFinset := by
  simp only [opsC, List.forall_cons, List.Forall, unary_writes, reshape_writes, binary_writes]; decide
theorem opsD_writes : (opsD (F := F)).Forall fun op => op.writes ⊆ (WD.map (Proc.devRef (τ := τ) .tc)).toFinset := by
  simp only [opsD, List.forall_cons, List.Forall, unary_writes, reshape_writes, binary_writes]; decide
theorem opsE_writes : (opsE (F := F)).Forall fun op => op.writes ⊆ (WE.map (Proc.devRef (τ := τ) .tc)).toFinset := by
  simp only [opsE, List.forall_cons, List.Forall, unary_writes, reshape_writes, binary_writes]; decide

theorem VA_keep (d : Dev nD) (r : Ref sig .tc) (h : r ∉ WA := by decide) : VA m d (rf r) = V0 m d (rf r) :=
  after_of_writes_sub _ _ opsA_writes h
theorem VA'_keep (d : Dev nD) (r : Ref sig .tc) (h : rf r ≠ rf main_v4 := by decide) : VA' m d (rf r) = VA m d (rf r) :=
  Function.update_of_ne h _ _
theorem VB_keep (d : Dev nD) (r : Ref sig .tc) (h : r ∉ WB := by decide) : VB m d (rf r) = VA' m d (rf r) :=
  after_of_writes_sub _ _ opsB_writes h
theorem VB'_keep (d : Dev nD) (r : Ref sig .tc) (h : rf r ≠ rf main_v14 := by decide) : VB' m G d (rf r) = VB m d (rf r) :=
  Function.update_of_ne h _ _
theorem VC_keep (d : Dev nD) (r : Ref sig .tc) (h : r ∉ WC := by decide) : VC m G d (rf r) = VB' m G d (rf r) :=
  after_of_writes_sub _ _ opsC_writes h
theorem VC'_keep (d : Dev nD) (r : Ref sig .tc) (h : rf r ≠ rf main_v19 := by decide) : VC' m G d (rf r) = VC m G d (rf r) :=
  Function.update_of_ne h _ _
theorem VD_keep (d : Dev nD) (r : Ref sig .tc) (h : r ∉ WD := by decide) : VD m G d (rf r) = VC' m G d (rf r) :=
  after_of_writes_sub _ _ opsD_writes h
theorem VD'_keep (d : Dev nD) (r : Ref sig .tc) (h : rf r ≠ rf main_v29 := by decide) : VD' m G d (rf r) = VD m G d (rf r) :=
  Function.update_of_ne h _ _
theorem VE_keep (d : Dev nD) (r : Ref sig .tc) (h : r ∉ WE := by decide) : VE m G d (rf r) = VD' m G d (rf r) :=
  after_of_writes_sub _ _ opsE_writes h

/-- A reference no line writes and no call or region rewrites holds its launch contents before call 1. -/
theorem VC_launch (d : Dev nD) (r : Ref sig .tc) (hA : r ∉ WA := by decide) (hB : r ∉ WB := by decide) (hC : r ∉ WC := by decide)
    (h4 : rf r ≠ rf main_v4 := by decide) (h14 : rf r ≠ rf main_v14 := by decide) : VC m G d (rf r) = V0 m d (rf r) := by
  rw [VC_keep m G d r hC, VB'_keep m G d r h14, VB_keep m d r hB, VA'_keep m d r h4, VA_keep m d r hA]

/-! ## What call 1 finds -/

theorem VC_v15 (d : Dev nD) : VC m G d (rf main_v15) = idxOf m d 1 0 := by
  unfold VC; dsimp only [opsC]; after_results
  rw [VB'_keep m G d main_arg0, VB_keep m d main_arg0, VA'_keep m d main_arg0, VA_keep m d main_arg0]; exact slice1_eq _
theorem VC_v16 (d : Dev nD) : VC m G d (rf main_v16) = idxOf m d 1 1 := by
  unfold VC; dsimp only [opsC]; after_results
  rw [VB'_keep m G d main_arg1, VB_keep m d main_arg1, VA'_keep m d main_arg1, VA_keep m d main_arg1]; exact slice1_eq _
theorem VC_v17 (d : Dev nD) : VC m G d (rf main_v17) = idxOf m d 1 2 := by
  unfold VC; dsimp only [opsC]; after_results
  rw [VB'_keep m G d main_arg2, VB_keep m d main_arg2, VA'_keep m d main_arg2, VA_keep m d main_arg2]; exact slice1_eq _
theorem VC_v18 (d : Dev nD) : VC m G d (rf main_v18) = idxOf m d 1 3 := by
  unfold VC; dsimp only [opsC]; after_results
  rw [VB'_keep m G d main_arg3, VB_keep m d main_arg3, VA'_keep m d main_arg3, VA_keep m d main_arg3]; exact slice1_eq _
theorem VC_arg4 (d : Dev nD) : VC m G d (rf main_arg4) = tabOf m d 0 := VC_launch m G d main_arg4
theorem VC_arg5 (d : Dev nD) : VC m G d (rf main_arg5) = tabOf m d 1 := VC_launch m G d main_arg5
theorem VC_arg6 (d : Dev nD) : VC m G d (rf main_arg6) = tabOf m d 2 := VC_launch m G d main_arg6
theorem VC_arg7 (d : Dev nD) : VC m G d (rf main_arg7) = tabOf m d 3 := VC_launch m G d main_arg7
theorem VC_v19 (d : Dev nD) : VC m G d (rf main_v19) = feat0 m d 1 := VC_launch m G d main_v19

end Cert.Kernel.Sc

end
-- ==== Proof.BScEmb.lean ====
/-
  Where the two rounds libraries live in the certificate's ghost state, and what the TensorCore owes between calls.
-/
import proofs.«212020_g4707284156877_cont_8to1c4_553_54_alg».proof.Proof.BScSetup

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The handshakes' rounds and the staging cells' rounds in the certificate's ghost state. -/
abbrev EH : Emb UH (MT nD τ sig (HIx 2) (Elt F) ℕ UU ℕ) := embL
abbrev EP : Emb UP (MT nD τ sig (HIx 2) (Elt F) ℕ UU ℕ) := (Emb.inl : Emb UP (UP × Counters)).trans embR

/-- What the TensorCore of `d` owes before call `n` (the start signals of the calls from `n` on), its recorded waits all
    at levels at most `8 n`. -/
def owesTc (d : Dev nD) (n : ℕ) : sProp 𝕄 :=
  iprop(∃ W, ⌜(K (F := F)).WBelow (T d) W (8 * n)⌝ ∗ owes (T d) ((K (F := F)).Otc d n) W)

/-- The pairs a TensorCore's waits may have recorded before call `n`. -/
def recTc (d : Dev nD) (n : ℕ) : Set (SemLoc sig × HIx 2) := {p | (K (F := F)).lev (T d, p.1) p.2 ≤ 8 * n}

end Cert.Kernel.Sc

end
-- ==== Proof.BScCall.lean ====
/-
  A SparseCore call as one step of @main: the TensorCore holds all its unscoped arrays at the stage before the call;
  the call's nine arrays go to the two SparseCores (the read arrays as shares, the feature array as strips) and come
  back with the feature array at the gathered rows; the TensorCore holds all its arrays at the stage after.
-/
import proofs.«212020_g4707284156877_cont_8to1c4_553_54_alg».proof.Proof.BScLaunchB
import proofs.«212020_g4707284156877_cont_8to1c4_553_54_alg».proof.Proof.BScVals
import proofs.«212020_g4707284156877_cont_8to1c4_553_54_alg».proof.Proof.BScEmb

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 2) (Elt F) ℕ UU ℕ

variable (m : (ℓ : Loc nD τ sig) → Buf (Elt F) ℓ) [FloatOps F]

/-! ## A call's nine arrays among the TensorCore's -/

/-- The arrays of call 0 and of call 1. -/
def R0 : Finset (DevRef τ sig) :=
  {rf main_v0, rf main_v1, rf main_v2, rf main_v3, rf main_arg4, rf main_arg5, rf main_arg6, rf main_arg7, rf main_v4}
def R1 : Finset (DevRef τ sig) :=
  {rf main_v15, rf main_v16, rf main_v17, rf main_v18, rf main_arg4, rf main_arg5, rf main_arg6, rf main_arg7, rf main_v19}

omit F [FloatOps F] in
theorem R0_sub : R0 ⊆ Su := by
  intro b hb; simp only [R0, Finset.mem_insert, Finset.mem_singleton] at hb
  rcases hb with rfl | rfl | rfl | rfl | rfl | rfl | rfl | rfl | rfl <;> exact rf_mem _
omit F [FloatOps F] in
theorem R1_sub : R1 ⊆ Su := by
  intro b hb; simp only [R1, Finset.mem_insert, Finset.mem_singleton] at hb
  rcases hb with rfl | rfl | rfl | rfl | rfl | rfl | rfl | rfl | rfl <;> exact rf_mem _

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- Nine in a row are four, four and one. -/
theorem regroup9 {M : Type} [URA M] (a0 a1 a2 a3 t0 t1 t2 t3 f : sProp M) :
    iprop(a0 ∗ a1 ∗ a2 ∗ a3 ∗ t0 ∗ t1 ∗ t2 ∗ t3 ∗ f) = iprop(((a0 ∗ a1 ∗ a2 ∗ a3) ∗ (t0 ∗ t1 ∗ t2 ∗ t3)) ∗ f) := by
  have h1 : iprop(a0 ∗ a1 ∗ a2 ∗ a3 ∗ t0 ∗ t1 ∗ t2 ∗ t3 ∗ f) ⊢ iprop(((a0 ∗ a1 ∗ a2 ∗ a3) ∗ (t0 ∗ t1 ∗ t2 ∗ t3)) ∗ f) := by
    iintro ⟨H0, H1, H2, H3, H4, H5, H6, H7, H8⟩
    isplitr [H8]
    · isplitl [H0 H1 H2 H3]
      · isplitl [H0]; · iexact H0
        isplitl [H1]; · iexact H1
        isplitl [H2]; · iexact H2
        iexact H3
      · isplitl [H4]; · iexact H4
        isplitl [H5]; · iexact H5
        isplitl [H6]; · iexact H6
        iexact H7
    · iexact H8
  have h2 : iprop(((a0 ∗ a1 ∗ a2 ∗ a3) ∗ (t0 ∗ t1 ∗ t2 ∗ t3)) ∗ f) ⊢ iprop(a0 ∗ a1 ∗ a2 ∗ a3 ∗ t0 ∗ t1 ∗ t2 ∗ t3 ∗ f) := by
    iintro ⟨⟨⟨H0, H1, H2, H3⟩, ⟨H4, H5, H6, H7⟩⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact BI.Entails.antisymm h1 h2

/-! ## The handshake's payloads over the two SparseCores by number -/

theorem st_eq (d : Dev nD) (q : Fin 2) :
    (bigSep Finset.univ fun c : Fin ((K (F := F)).nCore q) => (P m).st q d c) = bigSep Finset.univ fun c : Fin 2 => stAt m d q c := by
  fin_cases q <;> exact bigSep_congr fun c _ => congrArg (stAt m d _) (Fin.ext rfl)
theorem dn_eq (d : Dev nD) (q : Fin 2) :
    (bigSep Finset.univ fun c : Fin ((K (F := F)).nCore q) => (P m).dn q d c) = bigSep Finset.univ fun c : Fin 2 => dnAt m d q c := by
  fin_cases q <;> exact bigSep_congr fun c _ => congrArg (dnAt m d _) (Fin.ext rfl)

omit [FloatOps F] in
theorem held_R0 (d : Dev nD) (W : Valuation τ sig (Elt F)) :
    (held (TT d) R0 W : sProp 𝕄) = iprop(((TT d).loc main_v0 ↦{fullShare} W (rf main_v0))
      ∗ ((TT d).loc main_v1 ↦{fullShare} W (rf main_v1))
      ∗ ((TT d).loc main_v2 ↦{fullShare} W (rf main_v2))
      ∗ ((TT d).loc main_v3 ↦{fullShare} W (rf main_v3))
      ∗ ((TT d).loc main_arg4 ↦{fullShare} W (rf main_arg4))
      ∗ ((TT d).loc main_arg5 ↦{fullShare} W (rf main_arg5))
      ∗ ((TT d).loc main_arg6 ↦{fullShare} W (rf main_arg6))
      ∗ ((TT d).loc main_arg7 ↦{fullShare} W (rf main_arg7))
      ∗ (TT d).loc main_v4 ↦{fullShare} W (rf main_v4)) := by
  unfold held R0
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Call 0's arrays, held at the stage before the call with the feature array at `f`, as the call takes them. -/
theorem held_R0_eq (d : Dev nD) (f : S8192x512.Idx → Elt F .f32) :
    (held (TT d) R0 (Function.update (VA m d) (rf main_v4) f) : sProp 𝕄) = iprop(readsPts m d 0 fullShare ∗ featPts d f 0) := by
  rw [held_R0]
  have e0 : Function.update (VA m d) (rf main_v4) f (rf main_v0) = VA m d (rf main_v0) := Function.update_of_ne (by decide) _ _
  have e1 : Function.update (VA m d) (rf main_v4) f (rf main_v1) = VA m d (rf main_v1) := Function.update_of_ne (by decide) _ _
  have e2 : Function.update (VA m d) (rf main_v4) f (rf main_v2) = VA m d (rf main_v2) := Function.update_of_ne (by decide) _ _
  have e3 : Function.update (VA m d) (rf main_v4) f (rf main_v3) = VA m d (rf main_v3) := Function.update_of_ne (by decide) _ _
  have e4 : Function.update (VA m d) (rf main_v4) f (rf main_arg4) = VA m d (rf main_arg4) := Function.update_of_ne (by decide) _ _
  have e5 : Function.update (VA m d) (rf main_v4) f (rf main_arg5) = VA m d (rf main_arg5) := Function.update_of_ne (by decide) _ _
  have e6 : Function.update (VA m d) (rf main_v4) f (rf main_arg6) = VA m d (rf main_arg6) := Function.update_of_ne (by decide) _ _
  have e7 : Function.update (VA m d) (rf main_v4) f (rf main_arg7) = VA m d (rf main_arg7) := Function.update_of_ne (by decide) _ _
  have e8 : Function.update (VA m d) (rf main_v4) f (rf main_v4) = f := Function.update_self _ _ _
  rw [e0, e1, e2, e3, e4, e5, e6, e7, e8, VA_v0, VA_v1, VA_v2, VA_v3, VA_arg4, VA_arg5, VA_arg6, VA_arg7]
  unfold readsPts
  rw [bigSep_fin4, bigSep_fin4]
  exact regroup9 _ _ _ _ _ _ _ _ _

/-- All the TensorCore's arrays at the stage before call 0, the feature array at `f`: the call's nine and the rest. -/
theorem held_Su_call0 (d : Dev nD) (f : S8192x512.Idx → Elt F .f32) :
    (held (TT d) Su (Function.update (VA m d) (rf main_v4) f) : sProp 𝕄)
      = iprop((readsPts m d 0 fullShare ∗ featPts d f 0) ∗ held (TT d) (Su \ R0) (VA m d)) := by
  have hmem : rf main_v4 ∈ R0 := by simp [R0]
  have h : ∀ b ∈ Su \ R0, Function.update (VA m d) (rf main_v4) f b = VA m d b :=
    fun b hb => Function.update_of_ne (fun (e : b = rf main_v4) => (Finset.mem_sdiff.mp hb).2 (by rw [e]; exact hmem)) _ _
  rw [held_sub_split (TT d) R0_sub, held_R0_eq, held_congr (TT d) h]

theorem VA_self (d : Dev nD) : Function.update (VA m d) (rf main_v4) (feat0 m d 0) = VA m d := by
  rw [← VA_v4]; exact Function.update_eq_self _ _

/-- The same at the stage before the call itself. -/
theorem held_VA_eq (d : Dev nD) :
    (held (TT d) Su (VA m d) : sProp 𝕄) = iprop((readsPts m d 0 fullShare ∗ featPts d (feat0 m d 0) 0) ∗ held (TT d) (Su \ R0) (VA m d)) := by
  rw [← held_Su_call0 m d (feat0 m d 0), VA_self]

/-- Call 0 as a step of @main. -/
theorem call_step0 (κ : GSem nD τ sig → ℕ) (d : Dev nD) (Φ : PUnit → sProp 𝕄) :
    iprop((K (F := F)).ctx EH (P m) κ ∗ (K (F := F)).tcSt EH d 0 ∗ held (TT d) Su (VA m d)
        ∗ (iprop((K (F := F)).tcSt EH d 1 ∗ held (TT d) Su (VA' m d)) -∗ Φ ⟨⟩))
      ⊢ wp frame (wpE ((K (F := F)).defs (D (F := F))) 𝒱 (TT d) none) Set.univ ((K (F := F)).run d 0) Φ := by
  iintro ⟨#Hctx, Hst, Hheld, Hk⟩
  ihave Hh := (Entails.of_eq (held_VA_eq m d)) $$ Hheld
  icases Hh with ⟨Hcall, Hrest⟩
  ihave Hc := (Entails.of_eq (callRes_eq m d 0 (feat0 m d 0))) $$ Hcall
  icases Hc with ⟨Hdrop, Hsts⟩
  iapply ((K (F := F)).wp_run (D (F := F)) 𝒱 (EH := EH) (P := P m) κ d 0) $$ [Hst Hsts Hdrop Hrest Hk]
  isplitr; · iexact Hctx
  isplitl [Hst]; · iexact Hst
  isplitl [Hsts]
  · rw [st_eq]; unfold stAt; iexact Hsts
  iintro ⟨Hst, Hdn⟩
  ihave Hdn' := (Entails.of_eq (dn_eq m d 0)) $$ Hdn
  ihave Hcall := (Entails.of_eq (callRes_eq m d 0 (featOf m d 0)).symm) $$ [Hdrop Hdn']
  · isplitl [Hdrop]; · iexact Hdrop
    unfold dnAt; iexact Hdn'
  ihave Hheld := (Entails.of_eq (held_Su_call0 m d (featOf m d 0)).symm) $$ [Hcall Hrest]
  · isplitl [Hcall]; · iexact Hcall
    iexact Hrest
  iapply Hk
  isplitl [Hst]; · iexact Hst
  unfold VA'; iexact Hheld

omit [FloatOps F] in
theorem held_R1 (d : Dev nD) (W : Valuation τ sig (Elt F)) :
    (held (TT d) R1 W : sProp 𝕄) = iprop(((TT d).loc main_v15 ↦{fullShare} W (rf main_v15))
      ∗ ((TT d).loc main_v16 ↦{fullShare} W (rf main_v16))
      ∗ ((TT d).loc main_v17 ↦{fullShare} W (rf main_v17))
      ∗ ((TT d).loc main_v18 ↦{fullShare} W (rf main_v18))
      ∗ ((TT d).loc main_arg4 ↦{fullShare} W (rf main_arg4))
      ∗ ((TT d).loc main_arg5 ↦{fullShare} W (rf main_arg5))
      ∗ ((TT d).loc main_arg6 ↦{fullShare} W (rf main_arg6))
      ∗ ((TT d).loc main_arg7 ↦{fullShare} W (rf main_arg7))
      ∗ (TT d).loc main_v19 ↦{fullShare} W (rf main_v19)) := by
  unfold held R1
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Call 1's arrays, held at the stage before the call with the feature array at `f`, as the call takes them. -/
theorem held_R1_eq (G : MlpFn F) (d : Dev nD) (f : S8192x512.Idx → Elt F .f32) :
    (held (TT d) R1 (Function.update (VC m G d) (rf main_v19) f) : sProp 𝕄) = iprop(readsPts m d 1 fullShare ∗ featPts d f 1) := by
  rw [held_R1]
  have e0 : Function.update (VC m G d) (rf main_v19) f (rf main_v15) = VC m G d (rf main_v15) := Function.update_of_ne (by decide) _ _
  have e1 : Function.update (VC m G d) (rf main_v19) f (rf main_v16) = VC m G d (rf main_v16) := Function.update_of_ne (by decide) _ _
  have e2 : Function.update (VC m G d) (rf main_v19) f (rf main_v17) = VC m G d (rf main_v17) := Function.update_of_ne (by decide) _ _
  have e3 : Function.update (VC m G d) (rf main_v19) f (rf main_v18) = VC m G d (rf main_v18) := Function.update_of_ne (by decide) _ _
  have e4 : Function.update (VC m G d) (rf main_v19) f (rf main_arg4) = VC m G d (rf main_arg4) := Function.update_of_ne (by decide) _ _
  have e5 : Function.update (VC m G d) (rf main_v19) f (rf main_arg5) = VC m G d (rf main_arg5) := Function.update_of_ne (by decide) _ _
  have e6 : Function.update (VC m G d) (rf main_v19) f (rf main_arg6) = VC m G d (rf main_arg6) := Function.update_of_ne (by decide) _ _
  have e7 : Function.update (VC m G d) (rf main_v19) f (rf main_arg7) = VC m G d (rf main_arg7) := Function.update_of_ne (by decide) _ _
  have e8 : Function.update (VC m G d) (rf main_v19) f (rf main_v19) = f := Function.update_self _ _ _
  rw [e0, e1, e2, e3, e4, e5, e6, e7, e8, VC_v15, VC_v16, VC_v17, VC_v18, VC_arg4, VC_arg5, VC_arg6, VC_arg7]
  unfold readsPts
  rw [bigSep_fin4, bigSep_fin4]
  exact regroup9 _ _ _ _ _ _ _ _ _

/-- All the TensorCore's arrays at the stage before call 1, the feature array at `f`: the call's nine and the rest. -/
theorem held_Su_call1 (G : MlpFn F) (d : Dev nD) (f : S8192x512.Idx → Elt F .f32) :
    (held (TT d) Su (Function.update (VC m G d) (rf main_v19) f) : sProp 𝕄)
      = iprop((readsPts m d 1 fullShare ∗ featPts d f 1) ∗ held (TT d) (Su \ R1) (VC m G d)) := by
  have hmem : rf main_v19 ∈ R1 := by simp [R1]
  have h : ∀ b ∈ Su \ R1, Function.update (VC m G d) (rf main_v19) f b = VC m G d b :=
    fun b hb => Function.update_of_ne (fun (e : b = rf main_v19) => (Finset.mem_sdiff.mp hb).2 (by rw [e]; exact hmem)) _ _
  rw [held_sub_split (TT d) R1_sub, held_R1_eq, held_congr (TT d) h]

theorem VC_self (G : MlpFn F) (d : Dev nD) : Function.update (VC m G d) (rf main_v19) (feat0 m d 1) = VC m G d := by
  rw [← VC_v19]; exact Function.update_eq_self _ _

/-- The same at the stage before the call itself. -/
theorem held_VC_eq (G : MlpFn F) (d : Dev nD) :
    (held (TT d) Su (VC m G d) : sProp 𝕄) = iprop((readsPts m d 1 fullShare ∗ featPts d (feat0 m d 1) 1) ∗ held (TT d) (Su \ R1) (VC m G d)) := by
  rw [← held_Su_call1 m G d (feat0 m d 1), VC_self]

/-- Call 1 as a step of @main. -/
theorem call_step1 (G : MlpFn F) (κ : GSem nD τ sig → ℕ) (d : Dev nD) (Φ : PUnit → sProp 𝕄) :
    iprop((K (F := F)).ctx EH (P m) κ ∗ (K (F := F)).tcSt EH d 1 ∗ held (TT d) Su (VC m G d)
        ∗ (iprop((K (F := F)).tcSt EH d 2 ∗ held (TT d) Su (VC' m G d)) -∗ Φ ⟨⟩))
      ⊢ wp frame (wpE ((K (F := F)).defs (D (F := F))) 𝒱 (TT d) none) Set.univ ((K (F := F)).run d 1) Φ := by
  iintro ⟨#Hctx, Hst, Hheld, Hk⟩
  ihave Hh := (Entails.of_eq (held_VC_eq m G d)) $$ Hheld
  icases Hh with ⟨Hcall, Hrest⟩
  ihave Hc := (Entails.of_eq (callRes_eq m d 1 (feat0 m d 1))) $$ Hcall
  icases Hc with ⟨Hdrop, Hsts⟩
  iapply ((K (F := F)).wp_run (D (F := F)) 𝒱 (EH := EH) (P := P m) κ d 1) $$ [Hst Hsts Hdrop Hrest Hk]
  isplitr; · iexact Hctx
  isplitl [Hst]; · iexact Hst
  isplitl [Hsts]
  · rw [st_eq]; unfold stAt; iexact Hsts
  iintro ⟨Hst, Hdn⟩
  ihave Hdn' := (Entails.of_eq (dn_eq m d 1)) $$ Hdn
  ihave Hcall := (Entails.of_eq (callRes_eq m d 1 (featOf m d 1)).symm) $$ [Hdrop Hdn']
  · isplitl [Hdrop]; · iexact Hdrop
    unfold dnAt; iexact Hdn'
  ihave Hheld := (Entails.of_eq (held_Su_call1 m G d (featOf m d 1)).symm) $$ [Hcall Hrest]
  · isplitl [Hcall]; · iexact Hcall
    iexact Hrest
  iapply Hk
  isplitl [Hst]; · iexact Hst
  unfold VC'; iexact Hheld

end Cert.Kernel.Sc

end
-- ==== Proof.BMlpBody1.lean ====
/-
  The perceptron region of the first half of the examples, as the enclosing program enters it.

  The region is a pipeline over four grid points. Point `t` stages rows `[2048 t, 2048 t + 2048)` of the first half's
  8192 × 512 feature array, and the ten weight and bias arrays whole (fetched once, at the first point, and kept);
  the body loads the eleven staged blocks whole, computes the 2048 predictions of its rows — four layers
  `x ↦ max (x · Wᵀ + b) 0`, then the product with the output row summed over its 64 lanes, plus the output bias —
  and stores them over the whole of the result's staged block, which the pipeline writes back to entries
  `[2048 t, 2048 t + 2048)` of the half's result.

  Stated here, at any float instance: what the body leaves in the result's staged block as a function of the
  eleven staged blocks (`out1_11`), the body's triple, the pipeline's proof data over arrays whose contents at the
  region's entry are a parameter (`V`) and, two more, the tallies the core owes throughout and the bound on the waits it has recorded (`O`, `Rd`: the
  body neither pays nor takes on a unit and records no wait), and the body obligation at every point. The invariant is the core's scoped
  buffers that are no staged block of this pipeline, each at some contents: the body touches none of them.
-/
import proofs.«212020_g4707284156877_cont_8to1c4_553_54_alg».proof.Proof.BScSetup
import proofs.«212020_g4707284156877_cont_8to1c4_553_54_alg».proof.Proof.Gen.Kernel.Launch
import proofs.«212020_g4707284156877_cont_8to1c4_553_54_alg».proof.Proof.Gen.Kernel.Skeleton
import proofs.«212020_g4707284156877_cont_8to1c4_553_54_alg».proof.Proof.Gen.Kernel.Points
import Idealize.ShloMosaic.Lib.Pipeline.FrameBody
import Idealize.ShloMosaic.Lib.Tactic

-- membership in a rectangle of 2048 × 512 extents: the elaborator's structural look recurses once per coordinate
set_option maxRecDepth 16384

noncomputable section

namespace Cert.Kernel.Mlp

open Cert.Kernel Cert.Kernel.Gen
open Cert.Kernel.Sc (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered, and what the core owes while it runs: both the caller's
variable (V : (c : Dev nD) → (b : Ref sig .tc) → Buf (Elt F) ((c : Thread nD τ).loc b))
variable (O : Dev nD → CellTallies nD τ sig (HIx 2)) (Rd : Dev nD → Set (SemLoc sig × HIx 2))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staged block is its block of the array at every point, fetched there or not (unfetched,
    its block index has not moved), for any proof data over these arrays whose body leaves the block in place. -/
theorem before1_0_of {c : Dev nD} (dat : Dat τ (Elt F) (HIx 2) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staged block is its block of the array at every point, fetched there or not (unfetched,
    its block index has not moved), for any proof data over these arrays whose body leaves the block in place. -/
theorem before1_1_of {c : Dev nD} (dat : Dat τ (Elt F) (HIx 2) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staged block is its block of the array at every point, fetched there or not (unfetched,
    its block index has not moved), for any proof data over these arrays whose body leaves the block in place. -/
theorem before1_2_of {c : Dev nD} (dat : Dat τ (Elt F) (HIx 2) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staged block is its block of the array at every point, fetched there or not (unfetched,
    its block index has not moved), for any proof data over these arrays whose body leaves the block in place. -/
theorem before1_3_of {c : Dev nD} (dat : Dat τ (Elt F) (HIx 2) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staged block is its block of the array at every point, fetched there or not (unfetched,
    its block index has not moved), for any proof data over these arrays whose body leaves the block in place. -/
theorem before1_4_of {c : Dev nD} (dat : Dat τ (Elt F) (HIx 2) ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staged block is its block of the array at every point, fetched there or not (unfetched,
    its block index has not moved), for any proof data over these arrays whose body leaves the block in place. -/
theorem before1_5_of {c : Dev nD} (dat : Dat τ (Elt F) (HIx 2) ℕ UU ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staged block is its block of the array at every point, fetched there or not (unfetched,
    its block index has not moved), for any proof data over these arrays whose body leaves the block in place. -/
theorem before1_6_of {c : Dev nD} (dat : Dat τ (Elt F) (HIx 2) ℕ UU ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staged block is its block of the array at every point, fetched there or not (unfetched,
    its block index has not moved), for any proof data over these arrays whose body leaves the block in place. -/
theorem before1_7_of {c : Dev nD} (dat : Dat τ (Elt F) (HIx 2) ℕ UU ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staged block is its block of the array at every point, fetched there or not (unfetched,
    its block index has not moved), for any proof data over these arrays whose body leaves the block in place. -/
theorem before1_8_of {c : Dev nD} (dat : Dat τ (Elt F) (HIx 2) ℕ UU ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staged block is its block of the array at every point, fetched there or not (unfetched,
    its block index has not moved), for any proof data over these arrays whose body leaves the block in place. -/
theorem before1_9_of {c : Dev nD} (dat : Dat τ (Elt F) (HIx 2) ℕ UU ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staged block is its block of the array at every point, fetched there or not (unfetched,
    its block index has not moved), for any proof data over these arrays whose body leaves the block in place. -/
theorem before1_10_of {c : Dev nD} (dat : Dat τ (Elt F) (HIx 2) ℕ UU ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staged block whole -/

abbrev r1_0 : Rect S2048x512 := Rect.unit (s := S2048x512) ![0, 0] S2048x512.size inb_S2048x512_S2048x512_0_0
abbrev r1_1 : Rect S512x512 := Rect.unit (s := S512x512) ![0, 0] S512x512.size inb_S512x512_S512x512_0_0
abbrev r1_2 : Rect S1x512 := Rect.unit (s := S1x512) ![0, 0] S1x512.size inb_S1x512_S1x512_0_0
abbrev r1_3 : Rect S256x512 := Rect.unit (s := S256x512) ![0, 0] S256x512.size inb_S256x512_S256x512_0_0
abbrev r1_4 : Rect S1x256 := Rect.unit (s := S1x256) ![0, 0] S1x256.size inb_S1x256_S1x256_0_0
abbrev r1_5 : Rect S128x256 := Rect.unit (s := S128x256) ![0, 0] S128x256.size inb_S128x256_S128x256_0_0
abbrev r1_6 : Rect S1x128 := Rect.unit (s := S1x128) ![0, 0] S1x128.size inb_S1x128_S1x128_0_0
abbrev r1_7 : Rect S64x128 := Rect.unit (s := S64x128) ![0, 0] S64x128.size inb_S64x128_S64x128_0_0
abbrev r1_8 : Rect S1x64 := Rect.unit (s := S1x64) ![0, 0] S1x64.size inb_S1x64_S1x64_0_0
abbrev r1_9 : Rect S1x64 := Rect.unit (s := S1x64) ![0, 0] S1x64.size inb_S1x64_S1x64_0_0
abbrev r1_10 : Rect S1x1 := Rect.unit (s := S1x1) ![0, 0] S1x1.size inb_S1x1_S1x1_0_0
abbrev r1_11 : Rect S2048 := Rect.unit (s := S2048) ![0] S2048.size inb_S2048_S2048_0

/-! ## What the body leaves in the result's staged block -/

/-- The result's staged block after the body, from the eleven staged inputs: its one store, of the 2048 predictions. -/
def out1_11 (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) : Vec F S2048 .f32 :=
  View.canon [⟨r1_11, k1_pay1 (k1_pay2 (View.ld x0 r1_0) (View.ld x1 r1_1) (View.ld x2 r1_2) (View.ld x3 r1_3) (View.ld x4 r1_4) (View.ld x5 r1_5) (View.ld x6 r1_6) (View.ld x7 r1_7)) (View.ld x8 r1_8) (View.ld x9 r1_9) (View.ld x10 r1_10)⟩]

/-- The one store is of the whole block, so it covers it. -/
theorem cover1_11 (p0 : Vec F S2048 .f32) (y : S2048.Idx) :
    ∃ pc ∈ ([⟨r1_11, p0⟩] : List (View.Piece (Elt F) S2048 .f32)), y ∈ pc.1.set :=
  View.cover_of_tiled [⟨r1_11, p0⟩] S2048.size (by rfl) y

/-! ## The body's triple -/

set_option maxHeartbeats 4000000 in
/-- The body on whole staging memrefs, the inputs' at contents `x0 … x10` and the result's at anything, runs to the
    continuation holding the inputs' as they were and the result's at `out1_11` of them: the printed function and its
    part are their skeletons, eleven loads, a load of the result's block that nothing reads, and one store. -/
theorem sound_kernel1 (c : Dev nD) (E : Set ℕ) (i : grid1.Coords) (arg1 : Memref sig .tc .vmem S2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x128 .f32) (harg7 : arg7.IsWhole) (arg8 : Memref sig .tc .vmem S64x128 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S2048 .f32) (harg12 : arg12.IsWhole)
    (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-! ## The pipeline's proof data -/

/-- The proof data on core `c`: the arrays as the region finds them; after the body at point `t` each input's staged
    block still its block of the array, and the result's at `out1_11` of the input blocks; the invariant the core's scoped
    buffers no window of this pipeline stages, each at some contents; full shares; the core owing `O c`, its recorded waits within `Rd c`, at every point. -/
def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.scopedRest (Ix := HIx 2) (Name := ℕ) (U := UU) (Lvl := ℕ) (Val := Elt F) spec1 c
  q _ := fullShare
  owed _ := O c
  recorded _ := Rd c

/-- The proof data's arrays are the region-entry contents. -/
theorem A_eq1 (c : Dev nD) (w : Fin cfg1.W) : (dat1 V O Rd c).A w = V c (Pipeline.arrRef spec1 w) := by
  dsimp only [dat1]

/-- What the body leaves, window by window. -/
theorem after1_0 (c : Dev nD) (t : Fin cfg1.N) : (dat1 V O Rd c).after 0 t = iblk1 V c 0 t := by dsimp only [dat1]
theorem after1_1 (c : Dev nD) (t : Fin cfg1.N) : (dat1 V O Rd c).after 1 t = iblk1 V c 1 t := by dsimp only [dat1]
theorem after1_2 (c : Dev nD) (t : Fin cfg1.N) : (dat1 V O Rd c).after 2 t = iblk1 V c 2 t := by dsimp only [dat1]
theorem after1_3 (c : Dev nD) (t : Fin cfg1.N) : (dat1 V O Rd c).after 3 t = iblk1 V c 3 t := by dsimp only [dat1]
theorem after1_4 (c : Dev nD) (t : Fin cfg1.N) : (dat1 V O Rd c).after 4 t = iblk1 V c 4 t := by dsimp only [dat1]
theorem after1_5 (c : Dev nD) (t : Fin cfg1.N) : (dat1 V O Rd c).after 5 t = iblk1 V c 5 t := by dsimp only [dat1]
theorem after1_6 (c : Dev nD) (t : Fin cfg1.N) : (dat1 V O Rd c).after 6 t = iblk1 V c 6 t := by dsimp only [dat1]
theorem after1_7 (c : Dev nD) (t : Fin cfg1.N) : (dat1 V O Rd c).after 7 t = iblk1 V c 7 t := by dsimp only [dat1]
theorem after1_8 (c : Dev nD) (t : Fin cfg1.N) : (dat1 V O Rd c).after 8 t = iblk1 V c 8 t := by dsimp only [dat1]
theorem after1_9 (c : Dev nD) (t : Fin cfg1.N) : (dat1 V O Rd c).after 9 t = iblk1 V c 9 t := by dsimp only [dat1]
theorem after1_10 (c : Dev nD) (t : Fin cfg1.N) : (dat1 V O Rd c).after 10 t = iblk1 V c 10 t := by dsimp only [dat1]
theorem after1_11 (c : Dev nD) (t : Fin cfg1.N) : (dat1 V O Rd c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staged block is its block of the array at every point. -/
theorem before1_0 (c : Dev nD) (t : Fin cfg1.N) (d) : (dat1 V O Rd c).before 0 t d = iblk1 V c 0 t :=
  before1_0_of V (dat1 V O Rd c) (A_eq1 V O Rd c 0) (after1_0 V O Rd c) t d
theorem before1_1 (c : Dev nD) (t : Fin cfg1.N) (d) : (dat1 V O Rd c).before 1 t d = iblk1 V c 1 t :=
  before1_1_of V (dat1 V O Rd c) (A_eq1 V O Rd c 1) (after1_1 V O Rd c) t d
theorem before1_2 (c : Dev nD) (t : Fin cfg1.N) (d) : (dat1 V O Rd c).before 2 t d = iblk1 V c 2 t :=
  before1_2_of V (dat1 V O Rd c) (A_eq1 V O Rd c 2) (after1_2 V O Rd c) t d
theorem before1_3 (c : Dev nD) (t : Fin cfg1.N) (d) : (dat1 V O Rd c).before 3 t d = iblk1 V c 3 t :=
  before1_3_of V (dat1 V O Rd c) (A_eq1 V O Rd c 3) (after1_3 V O Rd c) t d
theorem before1_4 (c : Dev nD) (t : Fin cfg1.N) (d) : (dat1 V O Rd c).before 4 t d = iblk1 V c 4 t :=
  before1_4_of V (dat1 V O Rd c) (A_eq1 V O Rd c 4) (after1_4 V O Rd c) t d
theorem before1_5 (c : Dev nD) (t : Fin cfg1.N) (d) : (dat1 V O Rd c).before 5 t d = iblk1 V c 5 t :=
  before1_5_of V (dat1 V O Rd c) (A_eq1 V O Rd c 5) (after1_5 V O Rd c) t d
theorem before1_6 (c : Dev nD) (t : Fin cfg1.N) (d) : (dat1 V O Rd c).before 6 t d = iblk1 V c 6 t :=
  before1_6_of V (dat1 V O Rd c) (A_eq1 V O Rd c 6) (after1_6 V O Rd c) t d
theorem before1_7 (c : Dev nD) (t : Fin cfg1.N) (d) : (dat1 V O Rd c).before 7 t d = iblk1 V c 7 t :=
  before1_7_of V (dat1 V O Rd c) (A_eq1 V O Rd c 7) (after1_7 V O Rd c) t d
theorem before1_8 (c : Dev nD) (t : Fin cfg1.N) (d) : (dat1 V O Rd c).before 8 t d = iblk1 V c 8 t :=
  before1_8_of V (dat1 V O Rd c) (A_eq1 V O Rd c 8) (after1_8 V O Rd c) t d
theorem before1_9 (c : Dev nD) (t : Fin cfg1.N) (d) : (dat1 V O Rd c).before 9 t d = iblk1 V c 9 t :=
  before1_9_of V (dat1 V O Rd c) (A_eq1 V O Rd c 9) (after1_9 V O Rd c) t d
theorem before1_10 (c : Dev nD) (t : Fin cfg1.N) (d) : (dat1 V O Rd c).before 10 t d = iblk1 V c 10 t :=
  before1_10_of V (dat1 V O Rd c) (A_eq1 V O Rd c 10) (after1_10 V O Rd c) t d

/-! ## The body obligation, at a generic point -/

/-- What the body is called with at point `t`: the invariant, what the core owes, and every window's current staged block, -/
def bodyPre1 (c : Dev nD) (t : Fin cfg1.N) : sProp 𝕄 :=
  iprop((dat1 V O Rd c).Φ t.castSucc ∗ (dat1 V O Rd c).owesAt none t.castSucc
    ∗ (∃ d, owns (c : Thread nD τ) (st1_0 t) fullShare ((dat1 V O Rd c).before 0 t d))
    ∗ (∃ d, owns (c : Thread nD τ) (st1_1 t) fullShare ((dat1 V O Rd c).before 1 t d))
    ∗ (∃ d, owns (c : Thread nD τ) (st1_2 t) fullShare ((dat1 V O Rd c).before 2 t d))
    ∗ (∃ d, owns (c : Thread nD τ) (st1_3 t) fullShare ((dat1 V O Rd c).before 3 t d))
    ∗ (∃ d, owns (c : Thread nD τ) (st1_4 t) fullShare ((dat1 V O Rd c).before 4 t d))
    ∗ (∃ d, owns (c : Thread nD τ) (st1_5 t) fullShare ((dat1 V O Rd c).before 5 t d))
    ∗ (∃ d, owns (c : Thread nD τ) (st1_6 t) fullShare ((dat1 V O Rd c).before 6 t d))
    ∗ (∃ d, owns (c : Thread nD τ) (st1_7 t) fullShare ((dat1 V O Rd c).before 7 t d))
    ∗ (∃ d, owns (c : Thread nD τ) (st1_8 t) fullShare ((dat1 V O Rd c).before 8 t d))
    ∗ (∃ d, owns (c : Thread nD τ) (st1_9 t) fullShare ((dat1 V O Rd c).before 9 t d))
    ∗ (∃ d, owns (c : Thread nD τ) (st1_10 t) fullShare ((dat1 V O Rd c).before 10 t d))
    ∗ (∃ d, owns (c : Thread nD τ) (st1_11 t) fullShare ((dat1 V O Rd c).before 11 t d)))

/-- and what it returns. -/
def bodyPost1 (c : Dev nD) (t : Fin cfg1.N) : sProp 𝕄 :=
  iprop((dat1 V O Rd c).Φ t.succ ∗ (dat1 V O Rd c).owesAt none t.succ
    ∗ owns (c : Thread nD τ) (st1_0 t) fullShare ((dat1 V O Rd c).after 0 t)
    ∗ owns (c : Thread nD τ) (st1_1 t) fullShare ((dat1 V O Rd c).after 1 t)
    ∗ owns (c : Thread nD τ) (st1_2 t) fullShare ((dat1 V O Rd c).after 2 t)
    ∗ owns (c : Thread nD τ) (st1_3 t) fullShare ((dat1 V O Rd c).after 3 t)
    ∗ owns (c : Thread nD τ) (st1_4 t) fullShare ((dat1 V O Rd c).after 4 t)
    ∗ owns (c : Thread nD τ) (st1_5 t) fullShare ((dat1 V O Rd c).after 5 t)
    ∗ owns (c : Thread nD τ) (st1_6 t) fullShare ((dat1 V O Rd c).after 6 t)
    ∗ owns (c : Thread nD τ) (st1_7 t) fullShare ((dat1 V O Rd c).after 7 t)
    ∗ owns (c : Thread nD τ) (st1_8 t) fullShare ((dat1 V O Rd c).after 8 t)
    ∗ owns (c : Thread nD τ) (st1_9 t) fullShare ((dat1 V O Rd c).after 9 t)
    ∗ owns (c : Thread nD τ) (st1_10 t) fullShare ((dat1 V O Rd c).after 10 t)
    ∗ owns (c : Thread nD τ) (st1_11 t) fullShare ((dat1 V O Rd c).after 11 t))

/-- The body at any point: the inputs' staged blocks are their blocks of the arrays, so the body's triple applies; the
    invariant and what the core owes pass through unread. -/
theorem sound_body1 (c : Dev nD) (t : Fin cfg1.N) :
    bodyPre1 V O Rd c t ⊢ wp frame (wpE (defs₀ (F := F)) Variants.none c none) Set.univ (bodyAt1 t) (fun _ => bodyPost1 V O Rd c t) := by
  unfold bodyPre1 bodyPost1 bodyAt1
  simp only [before1_0, before1_1, before1_2, before1_3, before1_4, before1_5, before1_6, before1_7, before1_8, before1_9, before1_10]
  rw [show (dat1 V O Rd c).Φ t.succ = (dat1 V O Rd c).Φ t.castSucc from rfl,
    show (dat1 V O Rd c).owesAt none t.succ = (dat1 V O Rd c).owesAt none t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point, at the index `none` its staging cells wait at. -/
theorem body_obligation1 (c : Dev nD) : BodyObligation (dat1 (F := F) V O Rd c) (defs₀ (F := F)) Variants.none (none : HIx 2) Set.univ := fun t => by
  rw [bigSep_W1, bigSep_W1]
  exact sound_body1 V O Rd c t

end Cert.Kernel.Mlp

end
-- ==== Proof.BMlpBody3.lean ====
/-
  The perceptron region of the second half of the examples, as the enclosing program enters it.

  The region is a pipeline over four grid points. Point `t` stages rows `[2048 t, 2048 t + 2048)` of the second half's
  8192 × 512 feature array, and the ten weight and bias arrays whole (fetched once, at the first point, and kept);
  the body loads the eleven staged blocks whole, computes the 2048 predictions of its rows — four layers
  `x ↦ max (x · Wᵀ + b) 0`, then the product with the output row summed over its 64 lanes, plus the output bias —
  and stores them over the whole of the result's staged block, which the pipeline writes back to entries
  `[2048 t, 2048 t + 2048)` of the half's result.

  Stated here, at any float instance: what the body leaves in the result's staged block as a function of the
  eleven staged blocks (`out3_11`), the body's triple, the pipeline's proof data over arrays whose contents at the
  region's entry are a parameter (`V`) and, two more, the tallies the core owes throughout and the bound on the waits it has recorded (`O`, `Rd`: the
  body neither pays nor takes on a unit and records no wait), and the body obligation at every point. The invariant is the core's scoped
  buffers that are no staged block of this pipeline, each at some contents: the body touches none of them.
-/
import proofs.«212020_g4707284156877_cont_8to1c4_553_54_alg».proof.Proof.BScSetup
import proofs.«212020_g4707284156877_cont_8to1c4_553_54_alg».proof.Proof.Gen.Kernel.Launch
import proofs.«212020_g4707284156877_cont_8to1c4_553_54_alg».proof.Proof.Gen.Kernel.Skeleton
import proofs.«212020_g4707284156877_cont_8to1c4_553_54_alg».proof.Proof.Gen.Kernel.Points
import Idealize.ShloMosaic.Lib.Pipeline.FrameBody
import Idealize.ShloMosaic.Lib.Tactic

-- membership in a rectangle of 2048 × 512 extents: the elaborator's structural look recurses once per coordinate
set_option maxRecDepth 16384

noncomputable section

namespace Cert.Kernel.Mlp

open Cert.Kernel Cert.Kernel.Gen
open Cert.Kernel.Sc (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered, and what the core owes while it runs: both the caller's
variable (V : (c : Dev nD) → (b : Ref sig .tc) → Buf (Elt F) ((c : Thread nD τ).loc b))
variable (O : Dev nD → CellTallies nD τ sig (HIx 2)) (Rd : Dev nD → Set (SemLoc sig × HIx 2))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staged block is its block of the array at every point, fetched there or not (unfetched,
    its block index has not moved), for any proof data over these arrays whose body leaves the block in place. -/
theorem before3_0_of {c : Dev nD} (dat : Dat τ (Elt F) (HIx 2) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staged block is its block of the array at every point, fetched there or not (unfetched,
    its block index has not moved), for any proof data over these arrays whose body leaves the block in place. -/
theorem before3_1_of {c : Dev nD} (dat : Dat τ (Elt F) (HIx 2) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staged block is its block of the array at every point, fetched there or not (unfetched,
    its block index has not moved), for any proof data over these arrays whose body leaves the block in place. -/
theorem before3_2_of {c : Dev nD} (dat : Dat τ (Elt F) (HIx 2) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staged block is its block of the array at every point, fetched there or not (unfetched,
    its block index has not moved), for any proof data over these arrays whose body leaves the block in place. -/
theorem before3_3_of {c : Dev nD} (dat : Dat τ (Elt F) (HIx 2) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staged block is its block of the array at every point, fetched there or not (unfetched,
    its block index has not moved), for any proof data over these arrays whose body leaves the block in place. -/
theorem before3_4_of {c : Dev nD} (dat : Dat τ (Elt F) (HIx 2) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staged block is its block of the array at every point, fetched there or not (unfetched,
    its block index has not moved), for any proof data over these arrays whose body leaves the block in place. -/
theorem before3_5_of {c : Dev nD} (dat : Dat τ (Elt F) (HIx 2) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staged block is its block of the array at every point, fetched there or not (unfetched,
    its block index has not moved), for any proof data over these arrays whose body leaves the block in place. -/
theorem before3_6_of {c : Dev nD} (dat : Dat τ (Elt F) (HIx 2) ℕ UU ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staged block is its block of the array at every point, fetched there or not (unfetched,
    its block index has not moved), for any proof data over these arrays whose body leaves the block in place. -/
theorem before3_7_of {c : Dev nD} (dat : Dat τ (Elt F) (HIx 2) ℕ UU ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staged block is its block of the array at every point, fetched there or not (unfetched,
    its block index has not moved), for any proof data over these arrays whose body leaves the block in place. -/
theorem before3_8_of {c : Dev nD} (dat : Dat τ (Elt F) (HIx 2) ℕ UU ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staged block is its block of the array at every point, fetched there or not (unfetched,
    its block index has not moved), for any proof data over these arrays whose body leaves the block in place. -/
theorem before3_9_of {c : Dev nD} (dat : Dat τ (Elt F) (HIx 2) ℕ UU ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staged block is its block of the array at every point, fetched there or not (unfetched,
    its block index has not moved), for any proof data over these arrays whose body leaves the block in place. -/
theorem before3_10_of {c : Dev nD} (dat : Dat τ (Elt F) (HIx 2) ℕ UU ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staged block whole -/

abbrev r3_0 : Rect S2048x512 := Rect.unit (s := S2048x512) ![0, 0] S2048x512.size inb_S2048x512_S2048x512_0_0
abbrev r3_1 : Rect S512x512 := Rect.unit (s := S512x512) ![0, 0] S512x512.size inb_S512x512_S512x512_0_0
abbrev r3_2 : Rect S1x512 := Rect.unit (s := S1x512) ![0, 0] S1x512.size inb_S1x512_S1x512_0_0
abbrev r3_3 : Rect S256x512 := Rect.unit (s := S256x512) ![0, 0] S256x512.size inb_S256x512_S256x512_0_0
abbrev r3_4 : Rect S1x256 := Rect.unit (s := S1x256) ![0, 0] S1x256.size inb_S1x256_S1x256_0_0
abbrev r3_5 : Rect S128x256 := Rect.unit (s := S128x256) ![0, 0] S128x256.size inb_S128x256_S128x256_0_0
abbrev r3_6 : Rect S1x128 := Rect.unit (s := S1x128) ![0, 0] S1x128.size inb_S1x128_S1x128_0_0
abbrev r3_7 : Rect S64x128 := Rect.unit (s := S64x128) ![0, 0] S64x128.size inb_S64x128_S64x128_0_0
abbrev r3_8 : Rect S1x64 := Rect.unit (s := S1x64) ![0, 0] S1x64.size inb_S1x64_S1x64_0_0
abbrev r3_9 : Rect S1x64 := Rect.unit (s := S1x64) ![0, 0] S1x64.size inb_S1x64_S1x64_0_0
abbrev r3_10 : Rect S1x1 := Rect.unit (s := S1x1) ![0, 0] S1x1.size inb_S1x1_S1x1_0_0
abbrev r3_11 : Rect S2048 := Rect.unit (s := S2048) ![0] S2048.size inb_S2048_S2048_0

/-! ## What the body leaves in the result's staged block -/

/-- The result's staged block after the body, from the eleven staged inputs: its one store, of the 2048 predictions. -/
def out3_11 (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) : Vec F S2048 .f32 :=
  View.canon [⟨r3_11, k3_pay1 (k3_pay2 (View.ld x0 r3_0) (View.ld x1 r3_1) (View.ld x2 r3_2) (View.ld x3 r3_3) (View.ld x4 r3_4) (View.ld x5 r3_5) (View.ld x6 r3_6) (View.ld x7 r3_7)) (View.ld x8 r3_8) (View.ld x9 r3_9) (View.ld x10 r3_10)⟩]

/-- The one store is of the whole block, so it covers it. -/
theorem cover3_11 (p0 : Vec F S2048 .f32) (y : S2048.Idx) :
    ∃ pc ∈ ([⟨r3_11, p0⟩] : List (View.Piece (Elt F) S2048 .f32)), y ∈ pc.1.set :=
  View.cover_of_tiled [⟨r3_11, p0⟩] S2048.size (by rfl) y

/-! ## The body's triple -/

set_option maxHeartbeats 4000000 in
/-- The body on whole staging memrefs, the inputs' at contents `x0 … x10` and the result's at anything, runs to the
    continuation holding the inputs' as they were and the result's at `out3_11` of them: the printed function and its
    part are their skeletons, eleven loads, a load of the result's block that nothing reads, and one store. -/
theorem sound_kernel3 (c : Dev nD) (E : Set ℕ) (i : grid3.Coords) (arg1 : Memref sig .tc .vmem S2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S256x512 .bf16) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x128 .f32) (harg7 : arg7.IsWhole) (arg8 : Memref sig .tc .vmem S64x128 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x1 .f32) (harg11 : arg11.IsWhole) (arg12 : Memref sig .tc .vmem S2048 .f32) (harg12 : arg12.IsWhole)
    (x0 : Vec F S2048x512 .f32) (x1 : Vec F S512x512 .bf16) (x2 : Vec F S1x512 .f32) (x3 : Vec F S256x512 .bf16) (x4 : Vec F S1x256 .f32) (x5 : Vec F S128x256 .bf16) (x6 : Vec F S1x128 .f32) (x7 : Vec F S64x128 .bf16) (x8 : Vec F S1x64 .f32) (x9 : Vec F S1x64 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__mlp_body i arg1 harg1 arg2 harg2 arg3 harg3 arg4 harg4 arg5 harg5 arg6 harg6 arg7 harg7 arg8 harg8 arg9 harg9 arg10 harg10 arg11 harg11 arg12 harg12) K := by
  simp only [cc3__mlp_body_eq_skeleton]; unfold cc3__mlp_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data on core `c`: the arrays as the region finds them; after the body at point `t` each input's staged
    block still its block of the array, and the result's at `out3_11` of the input blocks; the invariant the core's scoped
    buffers no window of this pipeline stages, each at some contents; full shares; the core owing `O c`, its recorded waits within `Rd c`, at every point. -/
def dat3 (c : Dev nD) : Dat τ (Elt F) (HIx 2) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.scopedRest (Ix := HIx 2) (Name := ℕ) (U := UU) (Lvl := ℕ) (Val := Elt F) spec3 c
  q _ := fullShare
  owed _ := O c
  recorded _ := Rd c

/-- The proof data's arrays are the region-entry contents. -/
theorem A_eq3 (c : Dev nD) (w : Fin cfg3.W) : (dat3 V O Rd c).A w = V c (Pipeline.arrRef spec3 w) := by
  dsimp only [dat3]

/-- What the body leaves, window by window. -/
theorem after3_0 (c : Dev nD) (t : Fin cfg3.N) : (dat3 V O Rd c).after 0 t = iblk3 V c 0 t := by dsimp only [dat3]
theorem after3_1 (c : Dev nD) (t : Fin cfg3.N) : (dat3 V O Rd c).after 1 t = iblk3 V c 1 t := by dsimp only [dat3]
theorem after3_2 (c : Dev nD) (t : Fin cfg3.N) : (dat3 V O Rd c).after 2 t = iblk3 V c 2 t := by dsimp only [dat3]
theorem after3_3 (c : Dev nD) (t : Fin cfg3.N) : (dat3 V O Rd c).after 3 t = iblk3 V c 3 t := by dsimp only [dat3]
theorem after3_4 (c : Dev nD) (t : Fin cfg3.N) : (dat3 V O Rd c).after 4 t = iblk3 V c 4 t := by dsimp only [dat3]
theorem after3_5 (c : Dev nD) (t : Fin cfg3.N) : (dat3 V O Rd c).after 5 t = iblk3 V c 5 t := by dsimp only [dat3]
theorem after3_6 (c : Dev nD) (t : Fin cfg3.N) : (dat3 V O Rd c).after 6 t = iblk3 V c 6 t := by dsimp only [dat3]
theorem after3_7 (c : Dev nD) (t : Fin cfg3.N) : (dat3 V O Rd c).after 7 t = iblk3 V c 7 t := by dsimp only [dat3]
theorem after3_8 (c : Dev nD) (t : Fin cfg3.N) : (dat3 V O Rd c).after 8 t = iblk3 V c 8 t := by dsimp only [dat3]
theorem after3_9 (c : Dev nD) (t : Fin cfg3.N) : (dat3 V O Rd c).after 9 t = iblk3 V c 9 t := by dsimp only [dat3]
theorem after3_10 (c : Dev nD) (t : Fin cfg3.N) : (dat3 V O Rd c).after 10 t = iblk3 V c 10 t := by dsimp only [dat3]
theorem after3_11 (c : Dev nD) (t : Fin cfg3.N) : (dat3 V O Rd c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staged block is its block of the array at every point. -/
theorem before3_0 (c : Dev nD) (t : Fin cfg3.N) (d) : (dat3 V O Rd c).before 0 t d = iblk3 V c 0 t :=
  before3_0_of V (dat3 V O Rd c) (A_eq3 V O Rd c 0) (after3_0 V O Rd c) t d
theorem before3_1 (c : Dev nD) (t : Fin cfg3.N) (d) : (dat3 V O Rd c).before 1 t d = iblk3 V c 1 t :=
  before3_1_of V (dat3 V O Rd c) (A_eq3 V O Rd c 1) (after3_1 V O Rd c) t d
theorem before3_2 (c : Dev nD) (t : Fin cfg3.N) (d) : (dat3 V O Rd c).before 2 t d = iblk3 V c 2 t :=
  before3_2_of V (dat3 V O Rd c) (A_eq3 V O Rd c 2) (after3_2 V O Rd c) t d
theorem before3_3 (c : Dev nD) (t : Fin cfg3.N) (d) : (dat3 V O Rd c).before 3 t d = iblk3 V c 3 t :=
  before3_3_of V (dat3 V O Rd c) (A_eq3 V O Rd c 3) (after3_3 V O Rd c) t d
theorem before3_4 (c : Dev nD) (t : Fin cfg3.N) (d) : (dat3 V O Rd c).before 4 t d = iblk3 V c 4 t :=
  before3_4_of V (dat3 V O Rd c) (A_eq3 V O Rd c 4) (after3_4 V O Rd c) t d
theorem before3_5 (c : Dev nD) (t : Fin cfg3.N) (d) : (dat3 V O Rd c).before 5 t d = iblk3 V c 5 t :=
  before3_5_of V (dat3 V O Rd c) (A_eq3 V O Rd c 5) (after3_5 V O Rd c) t d
theorem before3_6 (c : Dev nD) (t : Fin cfg3.N) (d) : (dat3 V O Rd c).before 6 t d = iblk3 V c 6 t :=
  before3_6_of V (dat3 V O Rd c) (A_eq3 V O Rd c 6) (after3_6 V O Rd c) t d
theorem before3_7 (c : Dev nD) (t : Fin cfg3.N) (d) : (dat3 V O Rd c).before 7 t d = iblk3 V c 7 t :=
  before3_7_of V (dat3 V O Rd c) (A_eq3 V O Rd c 7) (after3_7 V O Rd c) t d
theorem before3_8 (c : Dev nD) (t : Fin cfg3.N) (d) : (dat3 V O Rd c).before 8 t d = iblk3 V c 8 t :=
  before3_8_of V (dat3 V O Rd c) (A_eq3 V O Rd c 8) (after3_8 V O Rd c) t d
theorem before3_9 (c : Dev nD) (t : Fin cfg3.N) (d) : (dat3 V O Rd c).before 9 t d = iblk3 V c 9 t :=
  before3_9_of V (dat3 V O Rd c) (A_eq3 V O Rd c 9) (after3_9 V O Rd c) t d
theorem before3_10 (c : Dev nD) (t : Fin cfg3.N) (d) : (dat3 V O Rd c).before 10 t d = iblk3 V c 10 t :=
  before3_10_of V (dat3 V O Rd c) (A_eq3 V O Rd c 10) (after3_10 V O Rd c) t d

/-! ## The body obligation, at a generic point -/

/-- What the body is called with at point `t`: the invariant, what the core owes, and every window's current staged block, -/
def bodyPre3 (c : Dev nD) (t : Fin cfg3.N) : sProp 𝕄 :=
  iprop((dat3 V O Rd c).Φ t.castSucc ∗ (dat3 V O Rd c).owesAt none t.castSucc
    ∗ (∃ d, owns (c : Thread nD τ) (st3_0 t) fullShare ((dat3 V O Rd c).before 0 t d))
    ∗ (∃ d, owns (c : Thread nD τ) (st3_1 t) fullShare ((dat3 V O Rd c).before 1 t d))
    ∗ (∃ d, owns (c : Thread nD τ) (st3_2 t) fullShare ((dat3 V O Rd c).before 2 t d))
    ∗ (∃ d, owns (c : Thread nD τ) (st3_3 t) fullShare ((dat3 V O Rd c).before 3 t d))
    ∗ (∃ d, owns (c : Thread nD τ) (st3_4 t) fullShare ((dat3 V O Rd c).before 4 t d))
    ∗ (∃ d, owns (c : Thread nD τ) (st3_5 t) fullShare ((dat3 V O Rd c).before 5 t d))
    ∗ (∃ d, owns (c : Thread nD τ) (st3_6 t) fullShare ((dat3 V O Rd c).before 6 t d))
    ∗ (∃ d, owns (c : Thread nD τ) (st3_7 t) fullShare ((dat3 V O Rd c).before 7 t d))
    ∗ (∃ d, owns (c : Thread nD τ) (st3_8 t) fullShare ((dat3 V O Rd c).before 8 t d))
    ∗ (∃ d, owns (c : Thread nD τ) (st3_9 t) fullShare ((dat3 V O Rd c).before 9 t d))
    ∗ (∃ d, owns (c : Thread nD τ) (st3_10 t) fullShare ((dat3 V O Rd c).before 10 t d))
    ∗ (∃ d, owns (c : Thread nD τ) (st3_11 t) fullShare ((dat3 V O Rd c).before 11 t d)))

/-- and what it returns. -/
def bodyPost3 (c : Dev nD) (t : Fin cfg3.N) : sProp 𝕄 :=
  iprop((dat3 V O Rd c).Φ t.succ ∗ (dat3 V O Rd c).owesAt none t.succ
    ∗ owns (c : Thread nD τ) (st3_0 t) fullShare ((dat3 V O Rd c).after 0 t)
    ∗ owns (c : Thread nD τ) (st3_1 t) fullShare ((dat3 V O Rd c).after 1 t)
    ∗ owns (c : Thread nD τ) (st3_2 t) fullShare ((dat3 V O Rd c).after 2 t)
    ∗ owns (c : Thread nD τ) (st3_3 t) fullShare ((dat3 V O Rd c).after 3 t)
    ∗ owns (c : Thread nD τ) (st3_4 t) fullShare ((dat3 V O Rd c).after 4 t)
    ∗ owns (c : Thread nD τ) (st3_5 t) fullShare ((dat3 V O Rd c).after 5 t)
    ∗ owns (c : Thread nD τ) (st3_6 t) fullShare ((dat3 V O Rd c).after 6 t)
    ∗ owns (c : Thread nD τ) (st3_7 t) fullShare ((dat3 V O Rd c).after 7 t)
    ∗ owns (c : Thread nD τ) (st3_8 t) fullShare ((dat3 V O Rd c).after 8 t)
    ∗ owns (c : Thread nD τ) (st3_9 t) fullShare ((dat3 V O Rd c).after 9 t)
    ∗ owns (c : Thread nD τ) (st3_10 t) fullShare ((dat3 V O Rd c).after 10 t)
    ∗ owns (c : Thread nD τ) (st3_11 t) fullShare ((dat3 V O Rd c).after 11 t))

/-- The body at any point: the inputs' staged blocks are their blocks of the arrays, so the body's triple applies; the
    invariant and what the core owes pass through unread. -/
theorem sound_body3 (c : Dev nD) (t : Fin cfg3.N) :
    bodyPre3 V O Rd c t ⊢ wp frame (wpE (defs₀ (F := F)) Variants.none c none) Set.univ (bodyAt3 t) (fun _ => bodyPost3 V O Rd c t) := by
  unfold bodyPre3 bodyPost3 bodyAt3
  simp only [before3_0, before3_1, before3_2, before3_3, before3_4, before3_5, before3_6, before3_7, before3_8, before3_9, before3_10]
  rw [show (dat3 V O Rd c).Φ t.succ = (dat3 V O Rd c).Φ t.castSucc from rfl,
    show (dat3 V O Rd c).owesAt none t.succ = (dat3 V O Rd c).owesAt none t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point, at the index `none` its staging cells wait at. -/
theorem body_obligation3 (c : Dev nD) : BodyObligation (dat3 (F := F) V O Rd c) (defs₀ (F := F)) Variants.none (none : HIx 2) Set.univ := fun t => by
  rw [bigSep_W3, bigSep_W3]
  exact sound_body3 V O Rd c t

end Cert.Kernel.Mlp

end
-- ==== Proof.BMlpData.lean ====
/-
  The two perceptron regions' proof data as one family, indexed by the pipeline.

  Neither pipeline prefetches a table, so each is admissible at the one, empty, table contents. The family is a
  literal match on the pipeline's number — the first half's data for pipeline 0, the second half's for pipeline 1 — each
  at its own region-entry contents, owed tallies and recorded-wait bound.
-/
import proofs.«212020_g4707284156877_cont_8to1c4_553_54_alg».proof.Proof.BMlpBody1
import proofs.«212020_g4707284156877_cont_8to1c4_553_54_alg».proof.Proof.BMlpBody3

noncomputable section

namespace Cert.Kernel.Mlp

open Cert.Kernel Cert.Kernel.Gen
open Cert.Kernel.Sc (UU)
open Idealize.ShloMosaic Idealize.ShloMosaic.TcCoe
open Idealize.ShloMosaic.SparseCore.Cfg (HIx)
open Idealize.ShloMosaic.Pipeline (Dat Cfg Window BodyObligation)

variable {F : FTy → Type} [FloatOps F]

/-- The prefetched tables' admissible contents: no pipeline has a table. -/
abbrev adm : (p : Fin 2) → (pcfgs (F := F) p).Adm := fun p => (cfgs p).toPCfg_adm

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- Both pipelines' proof data, each at its region's entry contents, owed tallies and recorded-wait bound. -/
def pdats : (p : Fin 2) → (c : Dev nD) → Dat τ (Elt F) (HIx 2) ℕ UU ℕ (Pipeline.pin (pcfgs (F := F)) adm p) c
  | ⟨0, _⟩ => fun c => dat1 V1 O1 R1 c
  | ⟨1, _⟩ => fun c => dat3 V3 O3 R3 c

/-- The first half's body obligation, over the family. -/
theorem body_obligation_p0 (c : Dev nD) :
    BodyObligation (pdats V1 V3 O1 O3 R1 R3 0 c) (defs₀ (F := F)) Variants.none (none : HIx 2) Set.univ :=
  body_obligation1 V1 O1 R1 c

/-- The second half's body obligation, over the family. -/
theorem body_obligation_p1 (c : Dev nD) :
    BodyObligation (pdats V1 V3 O1 O3 R1 R3 1 c) (defs₀ (F := F)) Variants.none (none : HIx 2) Set.univ :=
  body_obligation3 V3 O3 R3 c

end Cert.Kernel.Mlp

end
-- ==== Proof.BMlpFn.lean ====
/-
  The perceptron as a function of whole arrays, at any float instance.

  The kernel's body computes, from a block of 2048 feature rows and the ten weight and bias arrays, the 2048
  predictions of those rows (`blockFn`: the body's arithmetic, as the printed program spells it). The prediction of
  row `r` of a half's 8192 × 512 feature array is therefore entry `r mod 2048` of `blockFn` of the rows
  `[2048 (r / 2048), 2048 (r / 2048) + 2048)` (`mlpG`): the function of the whole arrays whose restriction to entries
  `[2048 t, 2048 t + 2048)` is what the body computes at grid point `t`. Both halves' bodies are the same arithmetic.
-/
import proofs.«212020_g4707284156877_cont_8to1c4_553_54_alg».proof.Proof.Gen.Kernel.Skeleton
import Idealize.ShloMosaic.Lib.ValueIdx

noncomputable section

namespace Cert.Kernel.Mlp

open Cert.Kernel Cert.Kernel.Gen
open Idealize.ShloMosaic Idealize.ShloMosaic.ValueIdx

variable {F : FTy → Type} [FloatOps F]

/-- Rows `[2048 q, 2048 q + 2048)` of a feature array, as a block of 2048 rows. -/
def rowsOf (q : Fin 4) (x : S8192x512.Idx → Elt F .f32) : S2048x512.Idx → Elt F .f32 :=
  fun y => x (ix2 ⟨2048 * q.val + (y 0).val, by have h0 : (y 0).val < 2048 := (y 0).isLt; have := q.isLt; omega⟩ (y 1))

/-- The predictions of a block of 2048 feature rows: the body's arithmetic on the block and the weights. -/
def blockFn (xb : S2048x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) : S2048.Idx → Elt F .f32 :=
  k1_pay1 (k1_pay2 xb w0 b0 w1 b1 w2 b2 w3) b3 wo bo

/-- The second half's body is the same arithmetic. -/
theorem blockFn_eq3 (xb : S2048x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) :
    k3_pay1 (k3_pay2 xb w0 b0 w1 b1 w2 b2 w3) b3 wo bo = blockFn xb w0 b0 w1 b1 w2 b2 w3 b3 wo bo := rfl

/-- The predictions of a half's 8192 feature rows: row `r`'s is entry `r mod 2048` of its block's. -/
def mlpG (x : S8192x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32) : S8192.Idx → Elt F .f32 :=
  fun i =>
    have h : (i 0).val < 8192 := (i 0).isLt
    blockFn (rowsOf ⟨(i 0).val / 2048, by omega⟩ x) w0 b0 w1 b1 w2 b2 w3 b3 wo bo (ix1 ⟨(i 0).val % 2048, Nat.mod_lt _ (by decide)⟩)

/-- Entry `2048 q + r` of the predictions is entry `r` of block `q`'s. -/
theorem mlpG_block (x : S8192x512.Idx → Elt F .f32) (w0 : S512x512.Idx → Elt F .bf16) (b0 : S1x512.Idx → Elt F .f32)
    (w1 : S256x512.Idx → Elt F .bf16) (b1 : S1x256.Idx → Elt F .f32) (w2 : S128x256.Idx → Elt F .bf16) (b2 : S1x128.Idx → Elt F .f32)
    (w3 : S64x128.Idx → Elt F .bf16) (b3 : S1x64.Idx → Elt F .f32) (wo : S1x64.Idx → Elt F .f32) (bo : S1x1.Idx → Elt F .f32)
    (q : Fin 4) (i : S8192.Idx) (r : S2048.Idx) (hi : (i 0).val = 2048 * q.val + (r 0).val) :
    mlpG x w0 b0 w1 b1 w2 b2 w3 b3 wo bo i = blockFn (rowsOf q x) w0 b0 w1 b1 w2 b2 w3 b3 wo bo r := by
  have hr : (r 0).val < 2048 := (r 0).isLt
  have hq : (i 0).val / 2048 = q.val := by omega
  have hm : (i 0).val % 2048 = (r 0).val := by omega
  unfold mlpG
  have e1 : (⟨(i 0).val / 2048, by have h : (i 0).val < 8192 := (i 0).isLt; omega⟩ : Fin 4) = q := Fin.ext hq
  have e2 : (ix1 (⟨(i 0).val % 2048, Nat.mod_lt _ (by decide)⟩ : Fin 2048) : S2048.Idx) = r := by
    funext a; match a with | ⟨0, _⟩ => exact Fin.ext hm
  dsimp only
  rw [e1, e2]

end Cert.Kernel.Mlp

end
-- ==== Proof.BScRun.lean ====
/-
  The launch of the whole kernel program: the certificate's launch element (the handshakes' rounds, the two TensorCore
  pipelines' staging cells' rounds, the transfers' counters), @main on the TensorCore step by step, and how the final
  memory is read.
-/
import proofs.«212020_g4707284156877_cont_8to1c4_553_54_alg».proof.Proof.BScCall
import proofs.«212020_g4707284156877_cont_8to1c4_553_54_alg».proof.Proof.BMlpData
import proofs.«212020_g4707284156877_cont_8to1c4_553_54_alg».proof.Proof.BMlpFn

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Cert.Kernel.Mlp (adm mlpG)

variable {F : FTy → Type}

local notation "𝕄" => MT nD τ sig (HIx 2) (Elt F) ℕ UU ℕ

/-- The two TensorCore pipelines as the regions kit names them. -/
abbrev cfgsP : Fin 2 → Pipeline.Cfg sig Λ₀ := Pipeline.pin (pcfgs (F := F)) adm

theorem cellOf_injP : Function.Injective (Pipeline.cellOf (nD := nD) (τ := τ) (cfgsP (F := F))) := cellOf_inj

/-! ## The launch element -/

/-- The handshake cells' rounds at their launch state, the staging cells' rounds at theirs, no counter in use. -/
def u₀ : UU :=
  (initOf (K (F := F)).hsCells (K (F := F)).hsToks,
    (initOf (Pipeline.cells (cfgsP (F := F)) cellOf_injP) (Pipeline.launchToks (cfgsP (F := F)) cellOf_injP), (1 : Counters)))

/-- What @main's proof on device `d` starts from beside the launch's deal: the two pipelines' staging cells' ghost state
    and duty tokens. -/
def GG (d : Dev nD) : sProp 𝕄 :=
  iprop((bigSep Finset.univ fun p : Fin 2 => Pipeline.cellsGhost (cfgsP (F := F)) EP p d)
    ∗ bigSep Finset.univ fun p : Fin 2 => Pipeline.toksInit (cfgsP (F := F)) EP p d)

variable (m : (ℓ : Loc nD τ sig) → Buf (Elt F) ℓ) (ρ : Dev nD → PrngReg) [FloatOps F]

omit [FloatOps F] in
theorem bigSep_emp' {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks)
    (initOf (Pipeline.cells (cfgsP (F := F)) cellOf_injP) (Pipeline.launchToks (cfgsP (F := F)) cellOf_injP), (1 : Counters))) $$ Hu
  icases H with ⟨HH, HR⟩
  ihave H2 := (own_pair_emb (embR : Emb (UP × Counters) (MT nD τ sig (HIx 2) (Elt F) ℕ UU ℕ))
    (initOf (Pipeline.cells (cfgsP (F := F)) cellOf_injP) (Pipeline.launchToks (cfgsP (F := F)) cellOf_injP)) (1 : Counters)) $$ HR
  icases H2 with ⟨HP, -⟩
  imod (Pipeline.fund_ghost (cfgsP (F := F)) EP cellOf_injP) $$ HP with ⟨Hcg, Htk⟩
  imodintro
  isplitl [HH]; · iexact HH
  isplitl [Hcg Htk]
  · unfold GG; rw [bigSep_sep']
    isplitl [Hcg]; · iexact Hcg
    iexact Htk
  rw [show (bigSep Finset.univ fun thr : Thread nD τ => bigSep Finset.univ fun q : Fin 2 => (P (F := F) m).x q thr) = bigSep Finset.univ fun _ => iprop(emp) from
    bigSep_congr fun _ _ => bigSep_emp' (F := F) _, bigSep_emp']
  iempintro

/-! ## @main on the TensorCore -/

/-- The TensorCore's handshake state before call `n` is what it owes and a rest the regions never touch. -/
theorem tcSt_split (d : Dev nD) (n : ℕ) : ∃ R : sProp 𝕄, ((K (F := F)).tcSt EH d n : sProp 𝕄) = iprop(owesTc d n ∗ R) := by
  unfold SparseCore.Cfg.tcSt owesTc; exact ⟨_, rfl⟩

/-- What @main leaves the claim: every unscoped array of the TensorCore at the last stage. -/
abbrev FIN (d : Dev nD) : sProp 𝕄 := held (TT d) Su (VE m mlpG d)

/-- A TensorCore region as a step of @main: from the arrays at the stage before to the arrays at the stage after,
    what the TensorCore owes passing through. -/
abbrev RegionStep (p : Fin 2) (n : ℕ) (Vb Va : Dev nD → Valuation τ sig (Elt F)) : Prop :=
  ∀ (d : Dev nD) (Φ : PUnit → sProp 𝕄),
    iprop(levAts (K (F := F)).L (K (F := F)).lev ∗ boundary (TT d) ∗ held (TT d) Su (Vb d) ∗ owesTc d n
        ∗ Pipeline.cellsGhost (cfgsP (F := F)) EP p d ∗ Pipeline.toksInit (cfgsP (F := F)) EP p d
        ∗ (iprop(boundary (TT d) ∗ held (TT d) Su (Va d) ∗ owesTc d n) -∗ Φ ⟨⟩))
      ⊢ wp frame (wpE ((K (F := F)).defs (D (F := F))) 𝒱 (TT d) none) Set.univ (regionCall p) Φ

omit [FloatOps F] in
theorem bigSep_fin2 (Φ : Fin 2 → sProp 𝕄) : bigSep Finset.univ Φ = iprop(Φ 0 ∗ Φ 1) := bigSep_univ_two Φ

set_option maxHeartbeats 2000000 in
theorem hmain (hreg0 : RegionStep (F := F) 0 1 (VB m) (VB' m mlpG)) (hreg1 : RegionStep (F := F) 1 2 (VD m mlpG) (VD' m mlpG))
    (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 2 ∗ FIN m d) := by
  obtain ⟨Rs1, hR1⟩ := tcSt_split (F := F) d 1
  obtain ⟨Rs2, hR2⟩ := tcSt_split (F := F) d 2
  unfold SparseCore.Cfg.tcRes GG
  rw [show unscopedBufs d (fun b => m ((SparseCore.T d).loc b)) = held (TT d) Su (V0 m d)
      from Pipeline.unscopedBufs_held (Ix := HIx 2) (Name := ℕ) (U := UU) (Lvl := ℕ) d (V0 m d), main_eq, bigSep_fin2, bigSep_fin2]
  iintro ⟨#Hctx, Hst, ⟨Hb, Hheld, Hsems, Hprng⟩, ⟨⟨Hcg0, Hcg1⟩, ⟨Htk0, Htk1⟩⟩⟩
  -- the first halves sliced
  iapply (wp_seq 𝒱 none Set.univ d Su _ (opsA (F := F)) opsA_sub opsA_fresh (V0 m d)) $$ [Hb Hheld]
  · isplitl [Hb]; · iexact Hb
    iexact Hheld
  iintro ⟨Hb, Hheld⟩
  rw [wp_bind]
  -- call 0
  iapply (call_step0 m κ d _) $$ [Hst Hheld Hb Hsems Hprng Hcg0 Hcg1 Htk0 Htk1]
  isplitr; · iexact Hctx
  isplitl [Hst]; · iexact Hst
  isplitl [Hheld]; · unfold VA; iexact Hheld
  iintro ⟨Hst, Hheld⟩
  -- the weights cast, the biases reshaped
  iapply (wp_seq 𝒱 none Set.univ d Su _ (opsB (F := F)) opsB_sub opsB_fresh (VA' m d)) $$ [Hb Hheld]
  · isplitl [Hb]; · iexact Hb
    iexact Hheld
  iintro ⟨Hb, Hheld⟩
  rw [wp_bind]
  -- region 0
  ihave Hst' := (Entails.of_eq hR1) $$ Hst
  icases Hst' with ⟨Howes, HR⟩
  ihave Hlev := ((K (F := F)).ctx_levAts κ) $$ Hctx
  iapply (hreg0 d _) $$ [Hlev Hb Hheld Howes Hcg0 Htk0 HR Hsems Hprng Hcg1 Htk1]
  isplitl [Hlev]; · iexact Hlev
  isplitl [Hb]; · iexact Hb
  isplitl [Hheld]; · unfold VB; iexact Hheld
  isplitl [Howes]; · iexact Howes
  isplitl [Hcg0]; · iexact Hcg0
  isplitl [Htk0]; · iexact Htk0
  iintro ⟨Hb, Hheld, Howes⟩
  ihave Hst := (Entails.of_eq hR1.symm) $$ [Howes HR]
  · isplitl [Howes]; · iexact Howes
    iexact HR
  -- the second halves sliced
  iapply (wp_seq 𝒱 none Set.univ d Su _ (opsC (F := F)) opsC_sub opsC_fresh (VB' m mlpG d)) $$ [Hb Hheld]
  · isplitl [Hb]; · iexact Hb
    iexact Hheld
  iintro ⟨Hb, Hheld⟩
  rw [wp_bind]
  -- call 1
  iapply (call_step1 m mlpG κ d _) $$ [Hst Hheld Hb Hsems Hprng Hcg1 Htk1]
  isplitr; · iexact Hctx
  isplitl [Hst]; · iexact Hst
  isplitl [Hheld]; · unfold VC; iexact Hheld
  iintro ⟨Hst, Hheld⟩
  -- the weights and biases again
  iapply (wp_seq 𝒱 none Set.univ d Su _ (opsD (F := F)) opsD_sub opsD_fresh (VC' m mlpG d)) $$ [Hb Hheld]
  · isplitl [Hb]; · iexact Hb
    iexact Hheld
  iintro ⟨Hb, Hheld⟩
  rw [wp_bind]
  -- region 1
  ihave Hst' := (Entails.of_eq hR2) $$ Hst
  icases Hst' with ⟨Howes, HR⟩
  ihave Hlev := ((K (F := F)).ctx_levAts κ) $$ Hctx
  iapply (hreg1 d _) $$ [Hlev Hb Hheld Howes Hcg1 Htk1 HR Hsems Hprng]
  isplitl [Hlev]; · iexact Hlev
  isplitl [Hb]; · iexact Hb
  isplitl [Hheld]; · unfold VD; iexact Hheld
  isplitl [Howes]; · iexact Howes
  isplitl [Hcg1]; · iexact Hcg1
  isplitl [Htk1]; · iexact Htk1
  iintro ⟨Hb, Hheld, Howes⟩
  ihave Hst := (Entails.of_eq hR2.symm) $$ [Howes HR]
  · isplitl [Howes]; · iexact Howes
    iexact HR
  -- the two halves joined
  iapply (wp_seq 𝒱 none Set.univ d Su _ (opsE (F := F)) opsE_sub opsE_fresh (VD' m mlpG d)) $$ [Hb Hheld]
  · isplitl [Hb]; · iexact Hb
    iexact Hheld
  iintro ⟨Hb, Hheld⟩
  rw [wp_pure]; imodintro
  isplitl [Hst]; · iexact Hst
  unfold FIN VE; iexact Hheld

/-! ## The final memory -/

/-- What a final memory must say: the TensorCore's unscoped arrays are at the last stage. -/
def fq (d : Dev nD) (s' : Phys nD τ sig (Elt F)) : Prop := ∀ b ∈ Su, s'.mem.mem ((d, b) : Loc nD τ sig) = VE m mlpG d b

theorem hfin (d : Dev nD) (s' : Phys nD τ sig (Elt F)) : iprop(FIN m d ∗ SI s') ⊢ (⌜fq m d s'⌝ : sProp 𝕄) := by
  unfold FIN StableHlo.held
  iintro ⟨H, HSI⟩
  ihave Hr := (pointsTo_read_all Su (fun b => ((d, b) : Loc nD τ sig)) (fun b => VE m mlpG d b) s') $$ [H HSI]
  · isplitl [H] <;> iassumption
  icases Hr with ⟨%h, -⟩
  ipureintro; exact h

end Cert.Kernel.Sc

end
-- ==== Proof.BScStore.lean ====
/-
  Everything the handshakes carry is a finite conjunction of points-to assertions, so it can be stored in an invariant.
-/
import proofs.«212020_g4707284156877_cont_8to1c4_553_54_alg».proof.Proof.BScSetup

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable (m : (ℓ : Loc nD τ sig) → Buf (Elt F) ℓ) [FloatOps F]

instance slicePts_storable (d : Dev nD) (s : PosShare TreeShare) (q : Fin 2) (k : Fin 4) : BI.Storable (upEmb : UEmb _ 𝕄) (slicePts m d s q k) :=
  match q, k with
    | ⟨0, _⟩, ⟨0, _⟩ => (inferInstance : BI.Storable (upEmb : UEmb _ 𝕄) ((TT d).loc main_v0 ↦{s} idxOf m d 0 0))
    | ⟨0, _⟩, ⟨1, _⟩ => (inferInstance : BI.Storable (upEmb : UEmb _ 𝕄) ((TT d).loc main_v1 ↦{s} idxOf m d 0 1))
    | ⟨0, _⟩, ⟨2, _⟩ => (inferInstance : BI.Storable (upEmb : UEmb _ 𝕄) ((TT d).loc main_v2 ↦{s} idxOf m d 0 2))
    | ⟨0, _⟩, ⟨3, _⟩ => (inferInstance : BI.Storable (upEmb : UEmb _ 𝕄) ((TT d).loc main_v3 ↦{s} idxOf m d 0 3))
    | ⟨1, _⟩, ⟨0, _⟩ => (inferInstance : BI.Storable (upEmb : UEmb _ 𝕄) ((TT d).loc main_v15 ↦{s} idxOf m d 1 0))
    | ⟨1, _⟩, ⟨1, _⟩ => (inferInstance : BI.Storable (upEmb : UEmb _ 𝕄) ((TT d).loc main_v16 ↦{s} idxOf m d 1 1))
    | ⟨1, _⟩, ⟨2, _⟩ => (inferInstance : BI.Storable (upEmb : UEmb _ 𝕄) ((TT d).loc main_v17 ↦{s} idxOf m d 1 2))
    | ⟨1, _⟩, ⟨3, _⟩ => (inferInstance : BI.Storable (upEmb : UEmb _ 𝕄) ((TT d).loc main_v18 ↦{s} idxOf m d 1 3))
instance tabPts_storable (d : Dev nD) (s : PosShare TreeShare) (k : Fin 4) : BI.Storable (upEmb : UEmb _ 𝕄) (tabPts m d s k) :=
  match k with
    | ⟨0, _⟩ => (inferInstance : BI.Storable (upEmb : UEmb _ 𝕄) ((TT d).loc main_arg4 ↦{s} tabOf m d 0))
    | ⟨1, _⟩ => (inferInstance : BI.Storable (upEmb : UEmb _ 𝕄) ((TT d).loc main_arg5 ↦{s} tabOf m d 1))
    | ⟨2, _⟩ => (inferInstance : BI.Storable (upEmb : UEmb _ 𝕄) ((TT d).loc main_arg6 ↦{s} tabOf m d 2))
    | ⟨3, _⟩ => (inferInstance : BI.Storable (upEmb : UEmb _ 𝕄) ((TT d).loc main_arg7 ↦{s} tabOf m d 3))
omit [FloatOps F] in
instance stripPts_storable (d : Dev nD) (w : Fin 32) (f : S8192x512.Idx → Elt F .f32) (q : Fin 2) : BI.Storable (upEmb : UEmb _ 𝕄) (stripPts d w f q) :=
  match q with
    | ⟨0, _⟩ => (inferInstance : BI.Storable (upEmb : UEmb _ 𝕄) ((TT d).loc main_v4 ↦[oRowSet w]{fullShare} f))
    | ⟨1, _⟩ => (inferInstance : BI.Storable (upEmb : UEmb _ 𝕄) ((TT d).loc main_v19 ↦[oRowSet w]{fullShare} f))
instance readsPts_storable (d : Dev nD) (q : Fin 2) (s : PosShare TreeShare) : BI.Storable (upEmb : UEmb _ 𝕄) (readsPts m d q s) := by
  unfold readsPts; infer_instance
instance goAt_storable (d : Dev nD) (q c : Fin 2) (i : Fin 16) : BI.Storable (upEmb : UEmb _ 𝕄) (goAt m d q c i) := by unfold goAt; infer_instance
instance tdAt_storable (d : Dev nD) (q c : Fin 2) (i : Fin 16) : BI.Storable (upEmb : UEmb _ 𝕄) (tdAt m d q c i) := by unfold tdAt; infer_instance
instance stAt_storable (d : Dev nD) (q c : Fin 2) : BI.Storable (upEmb : UEmb _ 𝕄) (stAt m d q c) := by unfold stAt; infer_instance
instance dnAt_storable (d : Dev nD) (q c : Fin 2) : BI.Storable (upEmb : UEmb _ 𝕄) (dnAt m d q c) := by unfold dnAt; infer_instance

instance P_storable : (P (F := F) m).IsStorable where
  st q d c := stAt_storable m d q _
  dn q d c := dnAt_storable m d q _
  go q d c i := goAt_storable m d q _ _
  td q d c i := tdAt_storable m d q _ _

end Cert.Kernel.Sc

end
-- ==== Proof.BScPre.lean ====
/-
  The precondition gives what the gathers ask of the launch memory: every word of the four index arrays is at most
  99999 as an unsigned number, so it names a row of its table.
-/
import proofs.«212020_g4707284156877_cont_8to1c4_553_54_alg».proof.Defs
import proofs.«212020_g4707284156877_cont_8to1c4_553_54_alg».proof.Proof.PreFacts
import proofs.«212020_g4707284156877_cont_8to1c4_553_54_alg».proof.Proof.BScSetup

noncomputable section

namespace Cert.Kernel.Sc

open Cert.Kernel Cert.Kernel.Gen

open Idealize.ShloMosaic Idealize.ShloMosaic.ValueIdx
open Idealize.SL Idealize.SL.Sem

variable {F : FTy → Type} [FloatOps F]

theorem preOK_of_pre [Cert.Pre_input_domain.Facts] (m : (ℓ : Loc nD τ sig) → Buf (Elt F) ℓ)
    (h : ∀ c : Dev nD,
      Cert.Pre_input_domain.fn (F := F) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        = fun _ => 1#1) :
    PreOK m := by
  intro d k j
  obtain ⟨h0, h1, h2, h3⟩ := Cert.PreFacts.idx_range (F := F) _ _ _ _ _ _ _ _ _ _ _ _ _ _ _ _ _ _ (h d)
  match k with
  | ⟨0, _⟩ => exact h0 j
  | ⟨1, _⟩ => exact h1 j
  | ⟨2, _⟩ => exact h2 j
  | ⟨3, _⟩ => exact h3 j

end Cert.Kernel.Sc

end
-- ==== Proof.BKValArgs.lean ====
/-
  No line of host operations writes an argument array, and no call or region rewrites one: after the last line each of
  the eighteen argument arrays holds its launch contents.
-/
import proofs.«212020_g4707284156877_cont_8to1c4_553_54_alg».proof.Proof.BScVals

noncomputable section

namespace Cert.Kernel.Sc

open Cert.Kernel Cert.Kernel.Gen

open Idealize.ShloMosaic Idealize.ShloMosaic.ValueIdx
open Idealize.ShloMosaic.StableHlo
open Idealize.SL Idealize.SL.Sem

variable {F : FTy → Type} (m : (ℓ : Loc nD τ sig) → Buf (Elt F) ℓ) [FloatOps F] (G : MlpFn F)

/-- A reference no line writes and no call or region rewrites holds its launch contents before region 1. -/
theorem VD_launch (d : Dev nD) (r : Ref sig .tc) (hA : r ∉ WA := by decide) (hB : r ∉ WB := by decide) (hC : r ∉ WC := by decide)
    (hD : r ∉ WD := by decide) (h4 : rf r ≠ rf main_v4 := by decide) (h14 : rf r ≠ rf main_v14 := by decide)
    (h19 : rf r ≠ rf main_v19 := by decide) : VD m G d (rf r) = V0 m d (rf r) := by
  rw [VD_keep m G d r hD, VC'_keep m G d r h19, VC_launch m G d r hA hB hC h4 h14]

/-- … and after the last line. -/
theorem VE_launch (d : Dev nD) (r : Ref sig .tc) (hA : r ∉ WA := by decide) (hB : r ∉ WB := by decide) (hC : r ∉ WC := by decide)
    (hD : r ∉ WD := by decide) (hE : r ∉ WE := by decide) (h4 : rf r ≠ rf main_v4 := by decide)
    (h14 : rf r ≠ rf main_v14 := by decide) (h19 : rf r ≠ rf main_v19 := by decide) (h29 : rf r ≠ rf main_v29 := by decide) :
    VE m G d (rf r) = m ((TT d).loc r) := by
  rw [VE_keep m G d r hE, VD'_keep m G d r h29, VD_launch m G d r hA hB hC hD h4 h14 h19]
  rfl

theorem VE_arg0 (d : Dev nD) : VE m G d (rf main_arg0) = m ((TT d).loc main_arg0) := VE_launch m G d main_arg0
theorem VE_arg1 (d : Dev nD) : VE m G d (rf main_arg1) = m ((TT d).loc main_arg1) := VE_launch m G d main_arg1
theorem VE_arg2 (d : Dev nD) : VE m G d (rf main_arg2) = m ((TT d).loc main_arg2) := VE_launch m G d main_arg2
theorem VE_arg3 (d : Dev nD) : VE m G d (rf main_arg3) = m ((TT d).loc main_arg3) := VE_launch m G d main_arg3
theorem VE_arg4 (d : Dev nD) : VE m G d (rf main_arg4) = m ((TT d).loc main_arg4) := VE_launch m G d main_arg4
theorem VE_arg5 (d : Dev nD) : VE m G d (rf main_arg5) = m ((TT d).loc main_arg5) := VE_launch m G d main_arg5
theorem VE_arg6 (d : Dev nD) : VE m G d (rf main_arg6) = m ((TT d).loc main_arg6) := VE_launch m G d main_arg6
theorem VE_arg7 (d : Dev nD) : VE m G d (rf main_arg7) = m ((TT d).loc main_arg7) := VE_launch m G d main_arg7
theorem VE_arg8 (d : Dev nD) : VE m G d (rf main_arg8) = m ((TT d).loc main_arg8) := VE_launch m G d main_arg8
theorem VE_arg9 (d : Dev nD) : VE m G d (rf main_arg9) = m ((TT d).loc main_arg9) := VE_launch m G d main_arg9
theorem VE_arg10 (d : Dev nD) : VE m G d (rf main_arg10) = m ((TT d).loc main_arg10) := VE_launch m G d main_arg10
theorem VE_arg11 (d : Dev nD) : VE m G d (rf main_arg11) = m ((TT d).loc main_arg11) := VE_launch m G d main_arg11
theorem VE_arg12 (d : Dev nD) : VE m G d (rf main_arg12) = m ((TT d).loc main_arg12) := VE_launch m G d main_arg12
theorem VE_arg13 (d : Dev nD) : VE m G d (rf main_arg13) = m ((TT d).loc main_arg13) := VE_launch m G d main_arg13
theorem VE_arg14 (d : Dev nD) : VE m G d (rf main_arg14) = m ((TT d).loc main_arg14) := VE_launch m G d main_arg14
theorem VE_arg15 (d : Dev nD) : VE m G d (rf main_arg15) = m ((TT d).loc main_arg15) := VE_launch m G d main_arg15
theorem VE_arg16 (d : Dev nD) : VE m G d (rf main_arg16) = m ((TT d).loc main_arg16) := VE_launch m G d main_arg16
theorem VE_arg17 (d : Dev nD) : VE m G d (rf main_arg17) = m ((TT d).loc main_arg17) := VE_launch m G d main_arg17

end Cert.Kernel.Sc

end
-- ==== Proof.BScFinal.lean ====
/-
  The kernel program's run from the launch theorem, and the claims read off it: every weakly fair execution of the
  TensorCore's @main, the two sequencers and the thirty-two vector subcores terminates without a fault; the final
  memory has the eighteen arguments as launched and the result at the stage valuation's last array, which at the ideal
  instance is the common specification — as is the reference's result.
-/
import proofs.«212020_g4707284156877_cont_8to1c4_553_54_alg».proof.Proof.BScRun
import proofs.«212020_g4707284156877_cont_8to1c4_553_54_alg».proof.Proof.BScStore
import proofs.«212020_g4707284156877_cont_8to1c4_553_54_alg».proof.Proof.BScPre
import proofs.«212020_g4707284156877_cont_8to1c4_553_54_alg».proof.Proof.BKValArgs

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Mlp (adm mlpG)

variable {F : FTy → Type}

local notation "𝕄" => MT nD τ sig (HIx 2) (Elt F) ℕ UU ℕ

variable (m : (ℓ : Loc nD τ sig) → Buf (Elt F) ℓ) (ρ : Dev nD → PrngReg) [FloatOps F]

/-- What the run establishes of every final memory: each device's unscoped TensorCore arrays at the last stage. -/
def QC : PUnit × MemSt nD τ sig (Elt F) → Prop :=
  fun r => ∀ (c : Dev nD) (b : DevRef τ sig), b ∈ Su → r.2.mem ((c, b) : Loc nD τ sig) = VE m mlpG c b

omit [FloatOps F] in
theorem kind_vec (q : Fin 2) : (K (F := F)).kind q = .scVector := by fin_cases q <;> rfl

theorem run_main [∀ e, Nonempty (Elt F e)]
    (htile : ∀ q, (K (F := F)).kind q = .scVector → (K (F := F)).TileObl (D (F := F)) 𝒱 (P m) v₀ q)
    (hreg0 : RegionStep (F := F) 0 1 (VB m) (VB' m mlpG)) (hreg1 : RegionStep (F := F) 1 2 (VD m mlpG) (VD' m mlpG)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => absurd ((kind_vec (F := F) q).symm.trans hq) (by decide))
    htile
    (fun q _ => SparseCore.Cfg.VecSplit.of_plain (vecSplit m q))
    m ρ main (GG (F := F)) (FIN m) (u₀ (F := F)) (sep_elim_left.trans (hu₀ m)) (hmain m ρ hreg0 hreg1) (fq m) (hfin m) (QC m)
    (fun _ h c b hb => h c b hb)

/-- The frame's post from the run's: no line, call or region writes an argument. -/
theorem frame_of_QC (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  ⟨(h c (rf main_arg0) (rf_mem _)).trans (VE_arg0 m mlpG c), ⟨(h c (rf main_arg1) (rf_mem _)).trans (VE_arg1 m mlpG c), ⟨(h c (rf main_arg2) (rf_mem _)).trans (VE_arg2 m mlpG c), ⟨(h c (rf main_arg3) (rf_mem _)).trans (VE_arg3 m mlpG c), ⟨(h c (rf main_arg4) (rf_mem _)).trans (VE_arg4 m mlpG c), ⟨(h c (rf main_arg5) (rf_mem _)).trans (VE_arg5 m mlpG c), ⟨(h c (rf main_arg6) (rf_mem _)).trans (VE_arg6 m mlpG c), ⟨(h c (rf main_arg7) (rf_mem _)).trans (VE_arg7 m mlpG c), ⟨(h c (rf main_arg8) (rf_mem _)).trans (VE_arg8 m mlpG c), ⟨(h c (rf main_arg9) (rf_mem _)).trans (VE_arg9 m mlpG c), ⟨(h c (rf main_arg10) (rf_mem _)).trans (VE_arg10 m mlpG c), ⟨(h c (rf main_arg11) (rf_mem _)).trans (VE_arg11 m mlpG c), ⟨(h c (rf main_arg12) (rf_mem _)).trans (VE_arg12 m mlpG c), ⟨(h c (rf main_arg13) (rf_mem _)).trans (VE_arg13 m mlpG c), ⟨(h c (rf main_arg14) (rf_mem _)).trans (VE_arg14 m mlpG c), ⟨(h c (rf main_arg15) (rf_mem _)).trans (VE_arg15 m mlpG c), ⟨(h c (rf main_arg16) (rf_mem _)).trans (VE_arg16 m mlpG c), (h c (rf main_arg17) (rf_mem _)).trans (VE_arg17 m mlpG c)⟩⟩⟩⟩⟩⟩⟩⟩⟩⟩⟩⟩⟩⟩⟩⟩⟩

end Cert.Kernel.Sc

end
-- ==== Proof.BScObl.lean ====
/-
  The vector subcores' obligations of the launch theorem from one worker's task proved at a symbolic point of the
  call's grid: the task's program is the kernel's row of the body table at that subcore, lifted to the pipeline
  library's table; the recorded waits of the task all sit at the kernel's own index.
-/
import proofs.«212020_g4707284156877_cont_8to1c4_553_54_alg».proof.Proof.BScLaunchA

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) [FloatOps F]

/-! ## Call 0 -/

def coordsV0 (c : Fin (grid0.bound 0)) (s : Fin (grid0.bound 1)) : grid0.Coords :=
  fun | 0 => c | 1 => s | ⟨_ + 2, h⟩ => absurd h (Nat.not_lt.2 (Nat.le_add_left _ _))

/-- The thread and the worker's two numbers of a point of the call's grid. -/
abbrev wcV0 (L : grid0.Coords) : Fin τ.nSC := (L 0).castLE hcore0
abbrev wjV0 (L : grid0.Coords) : Fin τ.nSub := (L 1).castLE hsub0
abbrev wcL0 (L : grid0.Coords) : Fin 2 := ⟨(L 0).val, (L 0).isLt⟩
abbrev wiL0 (L : grid0.Coords) : Fin 16 := ⟨(L 1).val, (L 1).isLt⟩

/-- One worker's task of call 0, as the body's proof states it. -/
abbrev TileBody0 : Prop :=
  ∀ (hF : (K (F := F)).Facts) (hpre : PreOK m) (d : Dev nD) (L : grid0.Coords) (O : CellTallies nD τ sig (HIx 2)) (W : Waits sig (HIx 2)) (hO : ∀ g, O g none = 0),
    iprop(levAts (K (F := F)).L (K (F := F)).lev ∗ emp ∗ goAt m d 0 (wcL0 L) (wiL0 L)
        ∗ scopedBufs (V d (wcV0 L) (wjV0 L)) ∗ scopedSems0 (V d (wcV0 L) (wjV0 L)) ∗ owes (V d (wcV0 L) (wjV0 L)) O W)
      ⊢ wp frame (wpE (defs₀ (F := F)) 𝒱₀ (V d (wcV0 L) (wjV0 L)) none) Set.univ
          (cc0__sc_gather_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (wcL0 L) (wiL0 L) ∗ scopedBufs (V d (wcV0 L) (wjV0 L)) ∗ scopedSems0 (V d (wcV0 L) (wjV0 L))
            ∗ ∃ W', ⌜∀ p ∈ W', p ∈ W ∨ p.2 = none⌝ ∗ owes (V d (wcV0 L) (wjV0 L)) O W')

theorem defs₀_vector0 (c : Fin τ.nSC) (s : Fin τ.nSub) :
    defs₀ (F := F) (.scVector c s) 0 ()
      = SparseCore.onTile hcore0 hsub0 (fun c s => cc0__sc_gather_body (coordsV0 c s) (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scoped0 cc0_scoped1 cc0_scoped2 cc0_scoped3) ⟨⟩ c s := rfl

set_option maxRecDepth 16384 in
theorem tileObl0 (hb : TileBody0 (F := F) m) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hb facts hpre d (coordsV0 ⟨_, hci.1⟩ ⟨_, hci.2⟩) O W hO).trans (wp_mono frame _ _ fun _ => obl_post)

/-! ## Call 1 -/

def coordsV1 (c : Fin (grid2.bound 0)) (s : Fin (grid2.bound 1)) : grid2.Coords :=
  fun | 0 => c | 1 => s | ⟨_ + 2, h⟩ => absurd h (Nat.not_lt.2 (Nat.le_add_left _ _))

/-- The thread and the worker's two numbers of a point of the call's grid. -/
abbrev wcV1 (L : grid2.Coords) : Fin τ.nSC := (L 0).castLE hcore2
abbrev wjV1 (L : grid2.Coords) : Fin τ.nSub := (L 1).castLE hsub2
abbrev wcL1 (L : grid2.Coords) : Fin 2 := ⟨(L 0).val, (L 0).isLt⟩
abbrev wiL1 (L : grid2.Coords) : Fin 16 := ⟨(L 1).val, (L 1).isLt⟩

/-- One worker's task of call 1, as the body's proof states it. -/
abbrev TileBody1 : Prop :=
  ∀ (hF : (K (F := F)).Facts) (hpre : PreOK m) (d : Dev nD) (L : grid2.Coords) (O : CellTallies nD τ sig (HIx 2)) (W : Waits sig (HIx 2)) (hO : ∀ g, O g none = 0),
    iprop(levAts (K (F := F)).L (K (F := F)).lev ∗ emp ∗ goAt m d 1 (wcL1 L) (wiL1 L)
        ∗ scopedBufs (V d (wcV1 L) (wjV1 L)) ∗ scopedSems0 (V d (wcV1 L) (wjV1 L)) ∗ owes (V d (wcV1 L) (wjV1 L)) O W)
      ⊢ wp frame (wpE (defs₀ (F := F)) 𝒱₀ (V d (wcV1 L) (wjV1 L)) none) Set.univ
          (cc2__sc_gather_body L (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (wcL1 L) (wiL1 L) ∗ scopedBufs (V d (wcV1 L) (wjV1 L)) ∗ scopedSems0 (V d (wcV1 L) (wjV1 L))
            ∗ ∃ W', ⌜∀ p ∈ W', p ∈ W ∨ p.2 = none⌝ ∗ owes (V d (wcV1 L) (wjV1 L)) O W')

theorem defs₀_vector1 (c : Fin τ.nSC) (s : Fin τ.nSub) :
    defs₀ (F := F) (.scVector c s) 2 ()
      = SparseCore.onTile hcore2 hsub2 (fun c s => cc2__sc_gather_body (coordsV1 c s) (Memref.whole main_v15_scv) (Memref.isWhole_whole _) (Memref.whole main_v16_scv) (Memref.isWhole_whole _) (Memref.whole main_v17_scv) (Memref.isWhole_whole _) (Memref.whole main_v18_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scratch9 cc2_scratch10 cc2_scratch11 cc2_scratch12 cc2_scoped0 cc2_scoped1 cc2_scoped2 cc2_scoped3) ⟨⟩ c s := rfl

set_option maxRecDepth 16384 in
theorem tileObl1 (hb : TileBody1 (F := F) m) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hb facts hpre d (coordsV1 ⟨_, hci.1⟩ ⟨_, hci.2⟩) O W hO).trans (wp_mono frame _ _ fun _ => obl_post)

end Cert.Kernel.Sc

end
-- ==== Proof.BScRegionData.lean ====
/-
  The two perceptron regions' proof data at the enclosing program's stages.

  Region 0 finds the arrays as the line of casts and reshapes before it left them, region 1 as the second such line
  left them. While either runs the TensorCore owes the start signals of the calls still to come, all at those calls'
  indices, never at the index `none` the pipeline's staging cells wait at; the waits it has recorded by then lie within
  the bound of the calls already made.
-/
import proofs.«212020_g4707284156877_cont_8to1c4_553_54_alg».proof.Proof.BMlpData
import proofs.«212020_g4707284156877_cont_8to1c4_553_54_alg».proof.Proof.BMlpFn
import proofs.«212020_g4707284156877_cont_8to1c4_553_54_alg».proof.Proof.BScEmb
import proofs.«212020_g4707284156877_cont_8to1c4_553_54_alg».proof.Proof.BScVals
import proofs.«212020_g4707284156877_cont_8to1c4_553_54_alg».proof.Proof.BScSetup
import Idealize.ShloMosaic.Lib.SparseCore.Threads

noncomputable section

namespace Cert.Kernel.Sc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The family of proof data at the program's stages -/

/-- The arrays as the line before region 0 left them, and as the line before region 1 left them. -/
def V1s (c : Dev nD) (b : Ref sig .tc) : Buf (Elt F) ((c : Thread nD τ).loc b) := VB m c (rf b)
def V3s (c : Dev nD) (b : Ref sig .tc) : Buf (Elt F) ((c : Thread nD τ).loc b) := VD m Mlp.mlpG c (rf b)

/-- What the TensorCore owes while region 0, and while region 1, runs: the start signals of the calls still to come; -/
abbrev O1s (c : Dev nD) : CellTallies nD τ sig (HIx 2) := (K (F := F)).Otc c 1
abbrev O3s (c : Dev nD) : CellTallies nD τ sig (HIx 2) := (K (F := F)).Otc c 2
/-- and the bound on the waits it has recorded by then. -/
abbrev R1s (c : Dev nD) : Set (SemLoc sig × HIx 2) := recTc (F := F) c 1
abbrev R3s (c : Dev nD) : Set (SemLoc sig × HIx 2) := recTc (F := F) c 2

/-- Both regions' proof data, each at its stage. -/
abbrev pd : (p : Fin 2) → (c : Dev nD) → Pipeline.Dat τ (Elt F) (HIx 2) ℕ UU ℕ (Pipeline.pin (pcfgs (F := F)) Mlp.adm p) c :=
  Mlp.pdats (V1s m) (V3s m) (O1s (F := F)) (O3s (F := F)) (R1s (F := F)) (R3s (F := F))

omit [FloatOps F] in
/-- A start signal owed is at a call's index, never at `none`. -/
theorem Otc_none (d : Dev nD) (n : ℕ) (g : GSem nD τ sig) : (K (F := F)).Otc d n g none = 0 :=
  Nat.eq_zero_of_not_pos fun h => by
    have h1 := SparseCore.Cfg.lev_of_Otc_pos h
    rw [SparseCore.Cfg.lev_none] at h1
    omega

end Cert.Kernel.Sc

end
-- ==== Proof.BMlpRegion.lean ====
/-
  The two perceptron regions as segments of the enclosing program.

  A region is entered from a thread state and left at another, both the caller's. What the region itself fixes: its
  pipeline's layout, that the kernel has no semaphore of its own, the body obligation, and its invariant — the core's
  scoped buffers that no window of the pipeline stages, which come from the region's boundary at entry and go back to
  it at exit, so that nothing of the thread state passes through the invariant. The caller supplies the evidence that
  the core may wait on the pipeline's staging cells while owing what it owes, and how the arrays and the owed tallies
  are sorted out of its thread state at entry and put back at exit.
-/
import proofs.«212020_g4707284156877_cont_8to1c4_553_54_alg».proof.Proof.BMlpData
import Idealize.ShloMosaic.Lib.Pipeline.Regions

noncomputable section

namespace Cert.Kernel.Mlp

open Cert.Kernel Cert.Kernel.Gen
open Cert.Kernel.Sc (UU)
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 2) (Elt F) ℕ UU ℕ

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- The first half's region as a segment of the enclosing program, between thread states of the caller's choosing:
    the pipeline's decided layout; no semaphore of the kernel's own; the body obligation; the caller's wait evidence;
    nothing enters the invariant from the thread state and nothing comes back from it (the invariant is the scoped
    buffers the pipeline does not stage, which the region's boundary supplies and takes back); the caller's entry and
    exit entailments, stated with `emp` in the invariant's places. -/
def region1 (L : GSem nD τ sig → Finset (HIx 2)) (lv : GSem nD τ sig → HIx 2 → ℕ) (pre post Z : Dev nD → sProp 𝕄)
    (hwaits : ∀ c, (levAts L lv : sProp 𝕄) ⊢ Pipeline.cellsWaits (Pipeline.pin (pcfgs (F := F)) adm) (pdats V1 V3 O1 O3 R1 R3) (none : HIx 2) 0 c)
    (hentry : ∀ c, iprop(pre c ∗ Pipeline.ownSems0 (fun k : PEmpty => k.elim) c ∗ levAts L lv)
      ⊢ |={Set.univ}=> iprop((pdats V1 V3 O1 O3 R1 R3 0 c).arrays ((pdats V1 V3 O1 O3 R1 R3 0 c).arrAt · 0)
          ∗ Pipeline.prefHeld (pcfgs (F := F) 0).pre c (fun _ => fullShare) (adm (F := F) 0).1
          ∗ (pdats V1 V3 O1 O3 R1 R3 0 c).owesAt (none : HIx 2) 0 ∗ emp ∗ Z c))
    (hexit : ∀ c, iprop((pdats V1 V3 O1 O3 R1 R3 0 c).arrays ((pdats V1 V3 O1 O3 R1 R3 0 c).arrAt · (Pipeline.pin (pcfgs (F := F)) adm 0).N)
          ∗ (pdats V1 V3 O1 O3 R1 R3 0 c).owesAt (none : HIx 2) (Fin.last (Pipeline.pin (pcfgs (F := F)) adm 0).N) ∗ emp ∗ Z c)
      ⊢ |={Set.univ}=> post c) :
    Pipeline.RegionSeg (pcfgs (F := F)) adm (pdats V1 V3 O1 O3 R1 R3) (none : HIx 2) defs₀ Variants.none L lv 0 where
  win := launch1.win.to₀
  block_pos := launch1.block_pos
  stage_whole := launch1.stage_whole
  K := PEmpty
  osem k := k.elim
  ho := Pipeline.OwnSemFacts.none _
  hbody c := (body_obligation_p0 V1 V3 O1 O3 R1 R3 c).loose
  hwaits := hwaits
  pre := pre
  post := post
  X _ := iprop(emp)
  Y _ := iprop(emp)
  Z := Z
  hentry := hentry
  hin c := by
    rw [show (pdats V1 V3 O1 O3 R1 R3 0 c).Φ 0 = Pipeline.scopedRest (Ix := HIx 2) (Name := ℕ) (U := UU) (Lvl := ℕ) (Val := Elt F) spec1 c from rfl]
    iintro ⟨-, -, Hr⟩
    iexact Hr
  hout c := by
    rw [Pipeline.ownSems0_none, show (pdats V1 V3 O1 O3 R1 R3 0 c).Φ (Fin.last (Pipeline.pin (pcfgs (F := F)) adm 0).N) = Pipeline.scopedRest (Ix := HIx 2) (Name := ℕ) (U := UU) (Lvl := ℕ) (Val := Elt F) spec1 c from rfl]
    iintro Hr
    isplitr; · iempintro
    isplitr; · iempintro
    iexact Hr
  hexit := hexit

/-- The second half's region as a segment of the enclosing program, between thread states of the caller's choosing:
    the pipeline's decided layout; no semaphore of the kernel's own; the body obligation; the caller's wait evidence;
    nothing enters the invariant from the thread state and nothing comes back from it (the invariant is the scoped
    buffers the pipeline does not stage, which the region's boundary supplies and takes back); the caller's entry and
    exit entailments, stated with `emp` in the invariant's places. -/
def region3 (L : GSem nD τ sig → Finset (HIx 2)) (lv : GSem nD τ sig → HIx 2 → ℕ) (pre post Z : Dev nD → sProp 𝕄)
    (hwaits : ∀ c, (levAts L lv : sProp 𝕄) ⊢ Pipeline.cellsWaits (Pipeline.pin (pcfgs (F := F)) adm) (pdats V1 V3 O1 O3 R1 R3) (none : HIx 2) 1 c)
    (hentry : ∀ c, iprop(pre c ∗ Pipeline.ownSems0 (fun k : PEmpty => k.elim) c ∗ levAts L lv)
      ⊢ |={Set.univ}=> iprop((pdats V1 V3 O1 O3 R1 R3 1 c).arrays ((pdats V1 V3 O1 O3 R1 R3 1 c).arrAt · 0)
          ∗ Pipeline.prefHeld (pcfgs (F := F) 1).pre c (fun _ => fullShare) (adm (F := F) 1).1
          ∗ (pdats V1 V3 O1 O3 R1 R3 1 c).owesAt (none : HIx 2) 0 ∗ emp ∗ Z c))
    (hexit : ∀ c, iprop((pdats V1 V3 O1 O3 R1 R3 1 c).arrays ((pdats V1 V3 O1 O3 R1 R3 1 c).arrAt · (Pipeline.pin (pcfgs (F := F)) adm 1).N)
          ∗ (pdats V1 V3 O1 O3 R1 R3 1 c).owesAt (none : HIx 2) (Fin.last (Pipeline.pin (pcfgs (F := F)) adm 1).N) ∗ emp ∗ Z c)
      ⊢ |={Set.univ}=> post c) :
    Pipeline.RegionSeg (pcfgs (F := F)) adm (pdats V1 V3 O1 O3 R1 R3) (none : HIx 2) defs₀ Variants.none L lv 1 where
  win := launch3.win.to₀
  block_pos := launch3.block_pos
  stage_whole := launch3.stage_whole
  K := PEmpty
  osem k := k.elim
  ho := Pipeline.OwnSemFacts.none _
  hbody c := (body_obligation_p1 V1 V3 O1 O3 R1 R3 c).loose
  hwaits := hwaits
  pre := pre
  post := post
  X _ := iprop(emp)
  Y _ := iprop(emp)
  Z := Z
  hentry := hentry
  hin c := by
    rw [show (pdats V1 V3 O1 O3 R1 R3 1 c).Φ 0 = Pipeline.scopedRest (Ix := HIx 2) (Name := ℕ) (U := UU) (Lvl := ℕ) (Val := Elt F) spec3 c from rfl]
    iintro ⟨-, -, Hr⟩
    iexact Hr
  hout c := by
    rw [Pipeline.ownSems0_none, show (pdats V1 V3 O1 O3 R1 R3 1 c).Φ (Fin.last (Pipeline.pin (pcfgs (F := F)) adm 1).N) = Pipeline.scopedRest (Ix := HIx 2) (Name := ℕ) (U := UU) (Lvl := ℕ) (Val := Elt F) spec3 c from rfl]
    iintro Hr
    isplitr; · iempintro
    isplitr; · iempintro
    iexact Hr
  hexit := hexit

end Cert.Kernel.Mlp

end
-- ==== Proof.BMlpArr1.lean ====
/-
  What the first half's perceptron region leaves in its arrays.

  The ten weight and bias arrays and the feature array are only read: each ends as the region found it. The result
  array's entries `[2048 t, 2048 t + 2048)` are written back at grid point `t` from the result's staged block, which
  the body left at the predictions of the feature rows `[2048 t, 2048 t + 2048)`; entry `r` lies in the block of point
  `r / 2048`, so the four blocks cover the array and it ends at `mlpG` of the arrays as the region found them.
-/
import proofs.«212020_g4707284156877_cont_8to1c4_553_54_alg».proof.Proof.BMlpBody1
import proofs.«212020_g4707284156877_cont_8to1c4_553_54_alg».proof.Proof.BMlpFn
import Idealize.ShloMosaic.Lib.Pipeline.Value

set_option maxRecDepth 16384

noncomputable section

namespace Cert.Kernel.Mlp

open Cert.Kernel Cert.Kernel.Gen
open Cert.Kernel.Sc (UU)
open Idealize.ShloMosaic Idealize.ShloMosaic.TcCoe Idealize.ShloMosaic.ValueIdx
open Idealize.ShloMosaic.SparseCore.Cfg (HIx)
open Idealize.ShloMosaic.Pipeline (Dat Cfg Window)

variable {F : FTy → Type} [FloatOps F]

variable (V : (c : Dev nD) → (b : Ref sig .tc) → Buf (Elt F) ((c : Thread nD τ).loc b))
variable (O : Dev nD → CellTallies nD τ sig (HIx 2)) (Rd : Dev nD → Set (SemLoc sig × HIx 2))

theorem hz1_1 : (![0] : Fin 1 → Nat) = fun _ => 0 := funext fun a => by fin_cases a; rfl
theorem hz2_1 : (![0, 0] : Fin 2 → Nat) = fun _ => 0 := funext fun a => by fin_cases a <;> rfl

/-- The printed index maps, decided over the four points: the feature window's row block and the result's block are
    the point's number, every other block index is zero. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 1) = t.val
    ∧ t.val < 4 :=
  (by decide +kernel : ∀ t : Fin grid1.N, _)

/-! ## The input blocks -/

/-- The feature window's block at point `t` is rows `[2048 t, 2048 t + 2048)` of the feature array. -/
theorem iblk1_0 (c : Dev nD) (t : Fin cfg1.N) (q : Fin 4) (hq : q.val = t.val) :
    (iblk1 V c 0 t : S2048x512.Idx → Elt F .f32) = rowsOf q (V c main_v4) := by
  obtain ⟨e0, e1, e2, e3, e4, e5, e6, e7, e8, e9, e10, e11, e12, e13, e14, e15, e16, e17, e18, e19, e20, e21, e22, e23⟩ := idx_facts1 t
  funext y
  show V c main_v4 (((cfg1.win 0).blk t).view.emb y) = V c main_v4 (ix2 ⟨2048 * q.val + (y 0).val, _⟩ (y 1))
  refine congrArg _ (funext fun a => Fin.ext ?_)
  match a with
  | ⟨0, _⟩ => show win1_0.index t (0 : Fin 2) * 2048 + 1 * (y 0).val = 2048 * q.val + (y 0).val; omega
  | ⟨1, _⟩ => show win1_0.index t (1 : Fin 2) * 512 + 1 * (y 1).val = (y 1).val; omega

/-- Window 1's block at any point is its whole array. -/
theorem iblk1_1 (c : Dev nD) (t : Fin cfg1.N) : (iblk1 V c 1 t : S512x512.Idx → Elt F .bf16) = V c main_v5 := by
  obtain ⟨e0, e1, e2, e3, e4, e5, e6, e7, e8, e9, e10, e11, e12, e13, e14, e15, e16, e17, e18, e19, e20, e21, e22, e23⟩ := idx_facts1 t
  funext y
  show V c main_v5 (((cfg1.win 1).blk t).view.emb y) = V c main_v5 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega
/-- Window 2's block at any point is its whole array. -/
theorem iblk1_2 (c : Dev nD) (t : Fin cfg1.N) : (iblk1 V c 2 t : S1x512.Idx → Elt F .f32) = V c main_v6 := by
  obtain ⟨e0, e1, e2, e3, e4, e5, e6, e7, e8, e9, e10, e11, e12, e13, e14, e15, e16, e17, e18, e19, e20, e21, e22, e23⟩ := idx_facts1 t
  funext y
  show V c main_v6 (((cfg1.win 2).blk t).view.emb y) = V c main_v6 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega
/-- Window 3's block at any point is its whole array. -/
theorem iblk1_3 (c : Dev nD) (t : Fin cfg1.N) : (iblk1 V c 3 t : S256x512.Idx → Elt F .bf16) = V c main_v7 := by
  obtain ⟨e0, e1, e2, e3, e4, e5, e6, e7, e8, e9, e10, e11, e12, e13, e14, e15, e16, e17, e18, e19, e20, e21, e22, e23⟩ := idx_facts1 t
  funext y
  show V c main_v7 (((cfg1.win 3).blk t).view.emb y) = V c main_v7 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 512 + 1 * (y 1).val = (y 1).val; omega
/-- Window 4's block at any point is its whole array. -/
theorem iblk1_4 (c : Dev nD) (t : Fin cfg1.N) : (iblk1 V c 4 t : S1x256.Idx → Elt F .f32) = V c main_v8 := by
  obtain ⟨e0, e1, e2, e3, e4, e5, e6, e7, e8, e9, e10, e11, e12, e13, e14, e15, e16, e17, e18, e19, e20, e21, e22, e23⟩ := idx_facts1 t
  funext y
  show V c main_v8 (((cfg1.win 4).blk t).view.emb y) = V c main_v8 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega
/-- Window 5's block at any point is its whole array. -/
theorem iblk1_5 (c : Dev nD) (t : Fin cfg1.N) : (iblk1 V c 5 t : S128x256.Idx → Elt F .bf16) = V c main_v9 := by
  obtain ⟨e0, e1, e2, e3, e4, e5, e6, e7, e8, e9, e10, e11, e12, e13, e14, e15, e16, e17, e18, e19, e20, e21, e22, e23⟩ := idx_facts1 t
  funext y
  show V c main_v9 (((cfg1.win 5).blk t).view.emb y) = V c main_v9 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 256 + 1 * (y 1).val = (y 1).val; omega
/-- Window 6's block at any point is its whole array. -/
theorem iblk1_6 (c : Dev nD) (t : Fin cfg1.N) : (iblk1 V c 6 t : S1x128.Idx → Elt F .f32) = V c main_v10 := by
  obtain ⟨e0, e1, e2, e3, e4, e5, e6, e7, e8, e9, e10, e11, e12, e13, e14, e15, e16, e17, e18, e19, e20, e21, e22, e23⟩ := idx_facts1 t
  funext y
  show V c main_v10 (((cfg1.win 6).blk t).view.emb y) = V c main_v10 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega
/-- Window 7's block at any point is its whole array. -/
theorem iblk1_7 (c : Dev nD) (t : Fin cfg1.N) : (iblk1 V c 7 t : S64x128.Idx → Elt F .bf16) = V c main_v11 := by
  obtain ⟨e0, e1, e2, e3, e4, e5, e6, e7, e8, e9, e10, e11, e12, e13, e14, e15, e16, e17, e18, e19, e20, e21, e22, e23⟩ := idx_facts1 t
  funext y
  show V c main_v11 (((cfg1.win 7).blk t).view.emb y) = V c main_v11 y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 128 + 1 * (y 1).val = (y 1).val; omega
/-- Window 8's block at any point is its whole array. -/
theorem iblk1_8 (c : Dev nD) (t : Fin cfg1.N) : (iblk1 V c 8 t : S1x64.Idx → Elt F .f32) = V c main_v12 := by
  obtain ⟨e0, e1, e2, e3, e4, e5, e6, e7, e8, e9, e10, e11, e12, e13, e14, e15, e16, e17, e18, e19, e20, e21, e22, e23⟩ := idx_facts1 t
  funext y
  show V c main_v12 (((cfg1.win 8).blk t).view.emb y) = V c main_v12 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega
/-- Window 9's block at any point is its whole array. -/
theorem iblk1_9 (c : Dev nD) (t : Fin cfg1.N) : (iblk1 V c 9 t : S1x64.Idx → Elt F .f32) = V c main_arg16 := by
  obtain ⟨e0, e1, e2, e3, e4, e5, e6, e7, e8, e9, e10, e11, e12, e13, e14, e15, e16, e17, e18, e19, e20, e21, e22, e23⟩ := idx_facts1 t
  funext y
  show V c main_arg16 (((cfg1.win 9).blk t).view.emb y) = V c main_arg16 y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega
/-- Window 10's block at any point is its whole array. -/
theorem iblk1_10 (c : Dev nD) (t : Fin cfg1.N) : (iblk1 V c 10 t : S1x1.Idx → Elt F .f32) = V c main_v13 := by
  obtain ⟨e0, e1, e2, e3, e4, e5, e6, e7, e8, e9, e10, e11, e12, e13, e14, e15, e16, e17, e18, e19, e20, e21, e22, e23⟩ := idx_facts1 t
  funext y
  show V c main_v13 (((cfg1.win 10).blk t).view.emb y) = V c main_v13 y
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 1 + 1 * (y 1).val = (y 1).val; omega

/-! ## What a point writes back -/

/-- What point `t` writes back is block `t` of the predictions of the arrays as the region found them. -/
theorem flushed1_eq (c : Dev nD) (t : Fin cfg1.N) :
    (dat1 V O Rd c).flushed 11 t = ((cfg1.win 11).blk t).view.read (Elt F) (mlpG (V c main_v4) (V c main_v5) (V c main_v6) (V c main_v7) (V c main_v8) (V c main_v9) (V c main_v10) (V c main_v11) (V c main_v12) (V c main_arg16) (V c main_v13)) := by
  show (cfg1.win 11).cut (grid1.coords t) ((dat1 V O Rd c).after 11 t) = _
  rw [after1_11]
  unfold out1_11
  rw [View.canon_unit_zero hz1_1]
  simp only [View.ld_unit_zero (S := S2048x512) hz2_1, View.ld_unit_zero (S := S512x512) hz2_1, View.ld_unit_zero (S := S1x512) hz2_1, View.ld_unit_zero (S := S256x512) hz2_1, View.ld_unit_zero (S := S1x256) hz2_1, View.ld_unit_zero (S := S128x256) hz2_1, View.ld_unit_zero (S := S1x128) hz2_1, View.ld_unit_zero (S := S64x128) hz2_1, View.ld_unit_zero (S := S1x64) hz2_1, View.ld_unit_zero (S := S1x1) hz2_1]
  obtain ⟨e0, e1, e2, e3, e4, e5, e6, e7, e8, e9, e10, e11, e12, e13, e14, e15, e16, e17, e18, e19, e20, e21, e22, e23⟩ := idx_facts1 t
  rw [iblk1_0 V c t ⟨t.val, e23⟩ rfl, iblk1_1 V c t, iblk1_2 V c t, iblk1_3 V c t, iblk1_4 V c t, iblk1_5 V c t, iblk1_6 V c t, iblk1_7 V c t, iblk1_8 V c t, iblk1_9 V c t, iblk1_10 V c t]
  funext j
  refine (mlpG_block (V c main_v4) (V c main_v5) (V c main_v6) (V c main_v7) (V c main_v8) (V c main_v9) (V c main_v10) (V c main_v11) (V c main_v12) (V c main_arg16) (V c main_v13) ⟨t.val, e23⟩ _ j ?_).symm
  show win1_11.index t (0 : Fin 1) * 2048 + 1 * (j 0).val = 2048 * t.val + (j 0).val
  omega

/-! ## The cover -/

/-- An entry of the result is in point `t`'s block iff it lies in the block's range. -/
theorem mem_blk1 (t : Fin cfg1.N) (i : S8192.Idx) :
    i ∈ ((cfg1.win 11).blk t).view.set ↔ ∀ a : Fin 1, win1_11.index t a * S2048.size a ≤ (i a).val ∧ (i a).val < win1_11.index t a * S2048.size a + S2048.size a := by
  show i ∈ ((View.whole main_v14).slice (win1_11.rect t)).set ↔ _
  rw [View.set_slice_whole, Rect.mem_set_unit]
  exact Iff.rfl

/-- Entry `r` of the result is written back at point `r / 2048`. -/
theorem cover1 (i : S8192.Idx) : ∃ t : Fin cfg1.N, (cfg1.win 11).flush t = true ∧ i ∈ ((cfg1.win 11).blk t).view.set := by
  have hi : (i 0).val < 8192 := (i 0).isLt
  obtain ⟨t, ht⟩ : ∃ t : Fin cfg1.N, t.val = (i 0).val / 2048 := ⟨⟨(i 0).val / 2048, by show _ < grid1.N; rw [N_1]; omega⟩, rfl⟩
  obtain ⟨e0, e1, e2, e3, e4, e5, e6, e7, e8, e9, e10, e11, e12, e13, e14, e15, e16, e17, e18, e19, e20, e21, e22, e23⟩ := idx_facts1 t
  refine ⟨t, flush1_11 t, ?_⟩
  rw [mem_blk1]
  intro a
  match a with
  | ⟨0, _⟩ => show win1_11.index t (0 : Fin 1) * 2048 ≤ (i 0).val ∧ (i 0).val < win1_11.index t (0 : Fin 1) * 2048 + 2048; omega

/-! ## The arrays at the region's exit -/

/-- The result array ends at the predictions of the arrays as the region found them. -/
theorem arrAt1_out (c : Dev nD) : (dat1 V O Rd c).arrAt 11 cfg1.N = mlpG (V c main_v4) (V c main_v5) (V c main_v6) (V c main_v7) (V c main_v8) (V c main_v9) (V c main_v10) (V c main_v11) (V c main_v12) (V c main_arg16) (V c main_v13) :=
  (dat1 V O Rd c).arrAt_eq_of_cover 11 (mlpG (V c main_v4) (V c main_v5) (V c main_v6) (V c main_v7) (V c main_v8) (V c main_v9) (V c main_v10) (V c main_v11) (V c main_v12) (V c main_arg16) (V c main_v13)) (fun t _ => flushed1_eq V O Rd c t) cover1

/-- Every window but the result's is an input. -/
theorem isOut1 : ∀ w : Fin 12, w ≠ 11 → (cfg1.win w).isOut = false := by decide

/-- An input array is as the region found it, at every point. -/
theorem arrAt1_in (c : Dev nD) (w : Fin cfg1.W) (hw : w ≠ 11) (n : Nat) : (dat1 V O Rd c).arrAt w n = V c (Pipeline.arrRef spec1 w) :=
  ((dat1 V O Rd c).arrAt_in w (isOut1 w hw) n).trans (A_eq1 V O Rd c w)

end Cert.Kernel.Mlp

end
-- ==== Proof.BMlpArr3.lean ====
/-
  What the second half's perceptron region leaves in its arrays.

  The ten weight and bias arrays and the feature array are only read: each ends as the region found it. The result
  array's entries `[2048 t, 2048 t + 2048)` are written back at grid point `t` from the result's staged block, which
  the body left at the predictions of the feature rows `[2048 t, 2048 t + 2048)`; entry `r` lies in the block of point
  `r / 2048`, so the four blocks cover the array and it ends at `mlpG` of the arrays as the region found them.
-/
import proofs.«212020_g4707284156877_cont_8to1c4_553_54_alg».proof.Proof.BMlpBody3
import proofs.«212020_g4707284156877_cont_8to1c4_553_54_alg».proof.Proof.BMlpFn
import Idealize.ShloMosaic.Lib.Pipeline.Value

set_option maxRecDepth 16384

noncomputable section

namespace Cert.Kernel.Mlp

open Cert.Kernel Cert.Kernel.Gen
open Cert.Kernel.Sc (UU)
open Idealize.ShloMosaic Idealize.ShloMosaic.TcCoe Idealize.ShloMosaic.ValueIdx
open Idealize.ShloMosaic.SparseCore.Cfg (HIx)
open Idealize.ShloMosaic.Pipeline (Dat Cfg Window)

variable {F : FTy → Type} [FloatOps F]

variable (V : (c : Dev nD) → (b : Ref sig .tc) → Buf (Elt F) ((c : Thread nD τ).loc b))
variable (O : Dev nD → CellTallies nD τ sig (HIx 2)) (Rd : Dev nD → Set (SemLoc sig × HIx 2))

theorem hz1_3 : (![0] : Fin 1 → Nat) = fun _ => 0 := funext fun a => by fin_cases a; rfl
theorem hz2_3 : (![0, 0] : Fin 2 → Nat) = fun _ => 0 := funext fun a => by fin_cases a <;> rfl

/-- The printed index maps, decided over the four points: the feature window's row block and the result's block are
    the point's number, every other block index is zero. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 1) = t.val
    ∧ t.val < 4 :=
  (by decide +kernel : ∀ t : Fin grid3.N, _)

/-! ## The input blocks -/

/-- The feature window's block at point `t` is rows `[2048 t, 2048 t + 2048)` of the feature array. -/
theorem iblk3_0 (c : Dev nD) (t : Fin cfg3.N) (q : Fin 4) (hq : q.val = t.val) :
    (iblk3 V c 0 t : S2048x512.Idx → Elt F .f32) = rowsOf q (V c main_v19) := by
  obtain ⟨e0, e1, e2, e3, e4, e5, e6, e7, e8, e9, e10, e11, e12, e13, e14, e15, e16, e17, e18, e19, e20, e21, e22, e23⟩ := idx_facts3 t
  funext y
  show V c main_v19 (((cfg3.win 0).blk t).view.emb y) = V c main_v19 (ix2 ⟨2048 * q.val + (y 0).val, _⟩ (y 1))
  refine congrArg _ (funext fun a => Fin.ext ?_)
  match a with
  | ⟨0, _⟩ => show win3_0.index t (0 : Fin 2) * 2048 + 1 * (y 0).val = 2048 * q.val + (y 0).val; omega
  | ⟨1, _⟩ => show win3_0.index t (1 : Fin 2) * 512 + 1 * (y 1).val = (y 1).val; omega

/-- Window 1's block at any point is its whole array. -/
theorem iblk3_1 (c : Dev nD) (t : Fin cfg3.N) : (iblk3 V c 1 t : S512x512.Idx → Elt F .bf16) = V c main_v20 := by
  obtain ⟨e0, e1, e2, e3, e4, e5, e6, e7, e8, e9, e10, e11, e12, e13, e14, e15, e16, e17, e18, e19, e20, e21, e22, e23⟩ := idx_facts3 t
  funext y
  show V c main_v20 (((cfg3.win 1).blk t).view.emb y) = V c main_v20 y
  refine congrArg _ (funext fun a => Fin.ext ?_)
  match a with
  | ⟨0, _⟩ => show win3_1.index t (0 : Fin 2) * 512 + 1 * (y 0).val = (y 0).val; omega
  | ⟨1, _⟩ => show win3_1.index t (1 : Fin 2) * 512 + 1 * (y 1).val = (y 1).val; omega
/-- Window 2's block at any point is its whole array. -/
theorem iblk3_2 (c : Dev nD) (t : Fin cfg3.N) : (iblk3 V c 2 t : S1x512.Idx → Elt F .f32) = V c main_v21 := by
  obtain ⟨e0, e1, e2, e3, e4, e5, e6, e7, e8, e9, e10, e11, e12, e13, e14, e15, e16, e17, e18, e19, e20, e21, e22, e23⟩ := idx_facts3 t
  funext y
  show V c main_v21 (((cfg3.win 2).blk t).view.emb y) = V c main_v21 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 512 + 1 * (y 1).val = (y 1).val; omega
/-- Window 3's block at any point is its whole array. -/
theorem iblk3_3 (c : Dev nD) (t : Fin cfg3.N) : (iblk3 V c 3 t : S256x512.Idx → Elt F .bf16) = V c main_v22 := by
  obtain ⟨e0, e1, e2, e3, e4, e5, e6, e7, e8, e9, e10, e11, e12, e13, e14, e15, e16, e17, e18, e19, e20, e21, e22, e23⟩ := idx_facts3 t
  funext y
  show V c main_v22 (((cfg3.win 3).blk t).view.emb y) = V c main_v22 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 512 + 1 * (y 1).val = (y 1).val; omega
/-- Window 4's block at any point is its whole array. -/
theorem iblk3_4 (c : Dev nD) (t : Fin cfg3.N) : (iblk3 V c 4 t : S1x256.Idx → Elt F .f32) = V c main_v23 := by
  obtain ⟨e0, e1, e2, e3, e4, e5, e6, e7, e8, e9, e10, e11, e12, e13, e14, e15, e16, e17, e18, e19, e20, e21, e22, e23⟩ := idx_facts3 t
  funext y
  show V c main_v23 (((cfg3.win 4).blk t).view.emb y) = V c main_v23 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega
/-- Window 5's block at any point is its whole array. -/
theorem iblk3_5 (c : Dev nD) (t : Fin cfg3.N) : (iblk3 V c 5 t : S128x256.Idx → Elt F .bf16) = V c main_v24 := by
  obtain ⟨e0, e1, e2, e3, e4, e5, e6, e7, e8, e9, e10, e11, e12, e13, e14, e15, e16, e17, e18, e19, e20, e21, e22, e23⟩ := idx_facts3 t
  funext y
  show V c main_v24 (((cfg3.win 5).blk t).view.emb y) = V c main_v24 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 256 + 1 * (y 1).val = (y 1).val; omega
/-- Window 6's block at any point is its whole array. -/
theorem iblk3_6 (c : Dev nD) (t : Fin cfg3.N) : (iblk3 V c 6 t : S1x128.Idx → Elt F .f32) = V c main_v25 := by
  obtain ⟨e0, e1, e2, e3, e4, e5, e6, e7, e8, e9, e10, e11, e12, e13, e14, e15, e16, e17, e18, e19, e20, e21, e22, e23⟩ := idx_facts3 t
  funext y
  show V c main_v25 (((cfg3.win 6).blk t).view.emb y) = V c main_v25 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega
/-- Window 7's block at any point is its whole array. -/
theorem iblk3_7 (c : Dev nD) (t : Fin cfg3.N) : (iblk3 V c 7 t : S64x128.Idx → Elt F .bf16) = V c main_v26 := by
  obtain ⟨e0, e1, e2, e3, e4, e5, e6, e7, e8, e9, e10, e11, e12, e13, e14, e15, e16, e17, e18, e19, e20, e21, e22, e23⟩ := idx_facts3 t
  funext y
  show V c main_v26 (((cfg3.win 7).blk t).view.emb y) = V c main_v26 y
  refine congrArg _ (funext fun a => Fin.ext ?_)
  match a with
  | ⟨0, _⟩ => show win3_7.index t (0 : Fin 2) * 64 + 1 * (y 0).val = (y 0).val; omega
  | ⟨1, _⟩ => show win3_7.index t (1 : Fin 2) * 128 + 1 * (y 1).val = (y 1).val; omega
/-- Window 8's block at any point is its whole array. -/
theorem iblk3_8 (c : Dev nD) (t : Fin cfg3.N) : (iblk3 V c 8 t : S1x64.Idx → Elt F .f32) = V c main_v27 := by
  obtain ⟨e0, e1, e2, e3, e4, e5, e6, e7, e8, e9, e10, e11, e12, e13, e14, e15, e16, e17, e18, e19, e20, e21, e22, e23⟩ := idx_facts3 t
  funext y
  show V c main_v27 (((cfg3.win 8).blk t).view.emb y) = V c main_v27 y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 64 + 1 * (y 1).val = (y 1).val; omega
/-- Window 9's block at any point is its whole array. -/
theorem iblk3_9 (c : Dev nD) (t : Fin cfg3.N) : (iblk3 V c 9 t : S1x64.Idx → Elt F .f32) = V c main_arg16 := by
  obtain ⟨e0, e1, e2, e3, e4, e5, e6, e7, e8, e9, e10, e11, e12, e13, e14, e15, e16, e17, e18, e19, e20, e21, e22, e23⟩ := idx_facts3 t
  funext y
  show V c main_arg16 (((cfg3.win 9).blk t).view.emb y) = V c main_arg16 y
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 64 + 1 * (y 1).val = (y 1).val; omega
/-- Window 10's block at any point is its whole array. -/
theorem iblk3_10 (c : Dev nD) (t : Fin cfg3.N) : (iblk3 V c 10 t : S1x1.Idx → Elt F .f32) = V c main_v28 := by
  obtain ⟨e0, e1, e2, e3, e4, e5, e6, e7, e8, e9, e10, e11, e12, e13, e14, e15, e16, e17, e18, e19, e20, e21, e22, e23⟩ := idx_facts3 t
  funext y
  show V c main_v28 (((cfg3.win 10).blk t).view.emb y) = V c main_v28 y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 1 + 1 * (y 1).val = (y 1).val; omega

/-! ## What a point writes back -/

/-- What point `t` writes back is block `t` of the predictions of the arrays as the region found them. -/
theorem flushed3_eq (c : Dev nD) (t : Fin cfg3.N) :
    (dat3 V O Rd c).flushed 11 t = ((cfg3.win 11).blk t).view.read (Elt F) (mlpG (V c main_v19) (V c main_v20) (V c main_v21) (V c main_v22) (V c main_v23) (V c main_v24) (V c main_v25) (V c main_v26) (V c main_v27) (V c main_arg16) (V c main_v28)) := by
  show (cfg3.win 11).cut (grid3.coords t) ((dat3 V O Rd c).after 11 t) = _
  rw [after3_11]
  unfold out3_11
  rw [View.canon_unit_zero hz1_3]
  simp only [View.ld_unit_zero (S := S2048x512) hz2_3, View.ld_unit_zero (S := S512x512) hz2_3, View.ld_unit_zero (S := S1x512) hz2_3, View.ld_unit_zero (S := S256x512) hz2_3, View.ld_unit_zero (S := S1x256) hz2_3, View.ld_unit_zero (S := S128x256) hz2_3, View.ld_unit_zero (S := S1x128) hz2_3, View.ld_unit_zero (S := S64x128) hz2_3, View.ld_unit_zero (S := S1x64) hz2_3, View.ld_unit_zero (S := S1x1) hz2_3]
  obtain ⟨e0, e1, e2, e3, e4, e5, e6, e7, e8, e9, e10, e11, e12, e13, e14, e15, e16, e17, e18, e19, e20, e21, e22, e23⟩ := idx_facts3 t
  rw [iblk3_0 V c t ⟨t.val, e23⟩ rfl, iblk3_1 V c t, iblk3_2 V c t, iblk3_3 V c t, iblk3_4 V c t, iblk3_5 V c t, iblk3_6 V c t, iblk3_7 V c t, iblk3_8 V c t, iblk3_9 V c t, iblk3_10 V c t]
  funext j
  refine (mlpG_block (V c main_v19) (V c main_v20) (V c main_v21) (V c main_v22) (V c main_v23) (V c main_v24) (V c main_v25) (V c main_v26) (V c main_v27) (V c main_arg16) (V c main_v28) ⟨t.val, e23⟩ _ j ?_).symm
  show win3_11.index t (0 : Fin 1) * 2048 + 1 * (j 0).val = 2048 * t.val + (j 0).val
  omega

/-! ## The cover -/

/-- An entry of the result is in point `t`'s block iff it lies in the block's range. -/
theorem mem_blk3 (t : Fin cfg3.N) (i : S8192.Idx) :
    i ∈ ((cfg3.win 11).blk t).view.set ↔ ∀ a : Fin 1, win3_11.index t a * S2048.size a ≤ (i a).val ∧ (i a).val < win3_11.index t a * S2048.size a + S2048.size a := by
  show i ∈ ((View.whole main_v29).slice (win3_11.rect t)).set ↔ _
  rw [View.set_slice_whole, Rect.mem_set_unit]
  exact Iff.rfl

/-- Entry `r` of the result is written back at point `r / 2048`. -/
theorem cover3 (i : S8192.Idx) : ∃ t : Fin cfg3.N, (cfg3.win 11).flush t = true ∧ i ∈ ((cfg3.win 11).blk t).view.set := by
  have hi : (i 0).val < 8192 := (i 0).isLt
  obtain ⟨t, ht⟩ : ∃ t : Fin cfg3.N, t.val = (i 0).val / 2048 := ⟨⟨(i 0).val / 2048, by show _ < grid3.N; rw [N_3]; omega⟩, rfl⟩
  obtain ⟨e0, e1, e2, e3, e4, e5, e6, e7, e8, e9, e10, e11, e12, e13, e14, e15, e16, e17, e18, e19, e20, e21, e22, e23⟩ := idx_facts3 t
  refine ⟨t, flush3_11 t, ?_⟩
  rw [mem_blk3]
  intro a
  match a with
  | ⟨0, _⟩ => show win3_11.index t (0 : Fin 1) * 2048 ≤ (i 0).val ∧ (i 0).val < win3_11.index t (0 : Fin 1) * 2048 + 2048; omega

/-! ## The arrays at the region's exit -/

/-- The result array ends at the predictions of the arrays as the region found them. -/
theorem arrAt3_out (c : Dev nD) : (dat3 V O Rd c).arrAt 11 cfg3.N = mlpG (V c main_v19) (V c main_v20) (V c main_v21) (V c main_v22) (V c main_v23) (V c main_v24) (V c main_v25) (V c main_v26) (V c main_v27) (V c main_arg16) (V c main_v28) :=
  (dat3 V O Rd c).arrAt_eq_of_cover 11 (mlpG (V c main_v19) (V c main_v20) (V c main_v21) (V c main_v22) (V c main_v23) (V c main_v24) (V c main_v25) (V c main_v26) (V c main_v27) (V c main_arg16) (V c main_v28)) (fun t _ => flushed3_eq V O Rd c t) cover3

/-- Every window but the result's is an input. -/
theorem isOut3 : ∀ w : Fin 12, w ≠ 11 → (cfg3.win w).isOut = false := by decide

/-- An input array is as the region found it, at every point. -/
theorem arrAt3_in (c : Dev nD) (w : Fin cfg3.W) (hw : w ≠ 11) (n : Nat) : (dat3 V O Rd c).arrAt w n = V c (Pipeline.arrRef spec3 w) :=
  ((dat3 V O Rd c).arrAt_in w (isOut3 w hw) n).trans (A_eq3 V O Rd c w)

end Cert.Kernel.Mlp

end
-- ==== Proof.BMlpArrays.lean ====
/-
  What the two perceptron regions leave in their arrays, stated over the family of proof data: each region's inputs as
  it found them, its result at the predictions of the arrays as it found them.
-/
import proofs.«212020_g4707284156877_cont_8to1c4_553_54_alg».proof.Proof.BMlpData
import proofs.«212020_g4707284156877_cont_8to1c4_553_54_alg».proof.Proof.BMlpArr1
import proofs.«212020_g4707284156877_cont_8to1c4_553_54_alg».proof.Proof.BMlpArr3

noncomputable section

namespace Cert.Kernel.Mlp

open Cert.Kernel Cert.Kernel.Gen
open Cert.Kernel.Sc (UU)
open Idealize.ShloMosaic Idealize.ShloMosaic.TcCoe
open Idealize.ShloMosaic.SparseCore.Cfg (HIx)
open Idealize.ShloMosaic.Pipeline (Dat Cfg Window)

variable {F : FTy → Type} [FloatOps F]

variable (V1 V3 : (c : Dev nD) → (b : Ref sig .tc) → Buf (Elt F) ((c : Thread nD τ).loc b))
variable (O1 O3 : Dev nD → CellTallies nD τ sig (HIx 2)) (R1 R3 : Dev nD → Set (SemLoc sig × HIx 2))

/-- Pipeline 0's result array at the region's exit: the predictions of the arrays as the region found them. -/
theorem arrAt_p0_out (c : Dev nD) :
    (pdats V1 V3 O1 O3 R1 R3 0 c).arrAt 11 (Pipeline.pin (pcfgs (F := F)) adm 0).N = mlpG (V1 c main_v4) (V1 c main_v5) (V1 c main_v6) (V1 c main_v7) (V1 c main_v8) (V1 c main_v9) (V1 c main_v10) (V1 c main_v11) (V1 c main_v12) (V1 c main_arg16) (V1 c main_v13) :=
  arrAt1_out V1 O1 R1 c

/-- Pipeline 0's input arrays, at every point and at the exit: as the region found them. -/
theorem arrAt_p0_in (c : Dev nD) (w : Fin 12) (hw : w ≠ 11) (n : Nat) :
    (pdats V1 V3 O1 O3 R1 R3 0 c).arrAt w n = V1 c (Pipeline.arrRef spec1 w) :=
  arrAt1_in V1 O1 R1 c w hw n

/-- Pipeline 1's result array at the region's exit: the predictions of the arrays as the region found them. -/
theorem arrAt_p1_out (c : Dev nD) :
    (pdats V1 V3 O1 O3 R1 R3 1 c).arrAt 11 (Pipeline.pin (pcfgs (F := F)) adm 1).N = mlpG (V3 c main_v19) (V3 c main_v20) (V3 c main_v21) (V3 c main_v22) (V3 c main_v23) (V3 c main_v24) (V3 c main_v25) (V3 c main_v26) (V3 c main_v27) (V3 c main_arg16) (V3 c main_v28) :=
  arrAt3_out V3 O3 R3 c

/-- Pipeline 1's input arrays, at every point and at the exit: as the region found them. -/
theorem arrAt_p1_in (c : Dev nD) (w : Fin 12) (hw : w ≠ 11) (n : Nat) :
    (pdats V1 V3 O1 O3 R1 R3 1 c).arrAt w n = V3 c (Pipeline.arrRef spec3 w) :=
  arrAt3_in V3 O3 R3 c w hw n

end Cert.Kernel.Mlp

end
-- ==== Proof.BScRegion0.lean ====
/-
  The first half's perceptron region as one step of the enclosing program's TensorCore thread.

  The thread enters the region holding every unscoped array at the contents the line before it left, and owing the
  start signals of the calls still to come; it leaves holding the arrays at the same contents but for the region's
  result, which is now the predictions of the region's eleven inputs, and owing the same. At the entry the region's
  twelve arrays are sorted out of the unscoped arrays; the pipeline's staging waits sit at level 0, below every start
  signal owed; at the exit the arrays are put back, and the waits the pipeline recorded, all at level 0, stay within
  the bound the thread keeps on its recorded waits.
-/
import proofs.«212020_g4707284156877_cont_8to1c4_553_54_alg».proof.Proof.BScRegionData
import proofs.«212020_g4707284156877_cont_8to1c4_553_54_alg».proof.Proof.BMlpRegion
import proofs.«212020_g4707284156877_cont_8to1c4_553_54_alg».proof.Proof.BMlpArrays
import proofs.«212020_g4707284156877_cont_8to1c4_553_54_alg».proof.Proof.BMlpFn
import proofs.«212020_g4707284156877_cont_8to1c4_553_54_alg».proof.Proof.BScEmb
import proofs.«212020_g4707284156877_cont_8to1c4_553_54_alg».proof.Proof.BScVals
import proofs.«212020_g4707284156877_cont_8to1c4_553_54_alg».proof.Proof.BScMainOps
import proofs.«212020_g4707284156877_cont_8to1c4_553_54_alg».proof.Proof.BScSetup
import Idealize.ShloMosaic.Lib.Pipeline.Regions
import Idealize.ShloMosaic.Lib.Pipeline.RegionsLoop
import Idealize.ShloMosaic.Lib.SparseCore.Threads

noncomputable section

namespace Cert.Kernel.Sc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The region's thread states -/

/-- Entered holding every unscoped array as the line before the region left it, owing the later calls' start signals; -/
def pre0 (c : Dev nD) : sProp 𝕄 := iprop(unscopedBufs c (V1s m c) ∗ owesTc c 1)
/-- left holding them with the region's result at the predictions, owing the same; -/
def post0 (c : Dev nD) : sProp 𝕄 := iprop(unscopedBufs c (fun b => VB' m Mlp.mlpG c (rf b)) ∗ owesTc c 1)
/-- the unscoped arrays that are not the region's bypass it. -/
def byp0 (c : Dev nD) : sProp 𝕄 := Pipeline.unscopedRest (Ix := HIx 2) (Name := ℕ) (U := UU) (Lvl := ℕ) spec1 c (V1s m c)

/-- The pipeline's staging waits, at index `none`, sit below every start signal the thread owes. -/
theorem hwaits0 (c : Dev nD) :
    (levAts (K (F := F)).L (K (F := F)).lev : sProp 𝕄) ⊢ Pipeline.cellsWaits (Pipeline.pin (pcfgs (F := F)) Mlp.adm) (pd m) (none : HIx 2) 0 c :=
  Pipeline.cellsWaits_intro _ (pd m) (none : HIx 2) 0 c fun w s t => (K (F := F)).mayWait_none _ (fun g => Otc_none c 1 g)

/-- At the exit each of the region's arrays is at the stage valuation after the region: an input as the region found
    it, which the rewriting of the result's array leaves alone; the result at the predictions of the eleven inputs. -/
theorem hF0 (c : Dev nD) (w : Fin 12) :
    (pd m 0 c).arrAt w (Pipeline.pin (pcfgs (F := F)) Mlp.adm 0).N = VB' m Mlp.mlpG c (rf (Pipeline.arrRef spec1 w)) := by
  by_cases hw : w = 11
  · subst hw
    exact (Mlp.arrAt_p0_out (V1s m) (V3s m) (O1s (F := F)) (O3s (F := F)) (R1s (F := F)) (R3s (F := F)) c).trans
      (Function.update_self (rf main_v14) (res0 m Mlp.mlpG c) (VB m c)).symm
  · refine (Mlp.arrAt_p0_in (V1s m) (V3s m) (O1s (F := F)) (O3s (F := F)) (R1s (F := F)) (R3s (F := F)) c w hw _).trans (VB'_keep m Mlp.mlpG c (Pipeline.arrRef spec1 w) ?_).symm
    intro e
    exact hw (launch1.win.arr_inj ((Proc.devRef_injective _ e).trans (rfl : main_v14 = Pipeline.arrRef spec1 11)))

/-- Off the region's arrays the stage valuation after the region is the one before it. -/
theorem hrest0 (c : Dev nD) (b : Ref sig .tc) (hb : b ∉ Finset.univ.image (Pipeline.arrRef (Pipeline.pin (pcfgs (F := F)) Mlp.adm 0).spec)) :
    VB' m Mlp.mlpG c (rf b) = V1s m c b :=
  VB'_keep m Mlp.mlpG c b fun e => hb (Finset.mem_image.mpr ⟨11, Finset.mem_univ _, (Proc.devRef_injective _ e).symm⟩)

set_option backward.isDefEq.respectTransparency.types false in
/-- ENTRY: the region's arrays out of the unscoped arrays, no prefetched table, the owed tallies with their recorded
    waits within the thread's bound, the other unscoped arrays bypassing. -/
theorem hentry0 (c : Dev nD) :
    iprop(pre0 m c ∗ Pipeline.ownSems0 (fun k : PEmpty => k.elim) c ∗ levAts (K (F := F)).L (K (F := F)).lev)
      ⊢ |={Set.univ}=> iprop((pd m 0 c).arrays ((pd m 0 c).arrAt · 0)
          ∗ Pipeline.prefHeld (pcfgs (F := F) 0).pre c (fun _ => fullShare) (Mlp.adm (F := F) 0).1
          ∗ (pd m 0 c).owesAt (none : HIx 2) 0 ∗ emp ∗ byp0 m c) := by
  have hsplit := Pipeline.arrays_of_unscopedBufs (p := 0) (pcfgs (F := F)) Mlp.adm (pd m) launch1.win launch1.arr_whole c
    ((pd m 0 c).share_full fun _ => rfl) (V1s m c) fun _ => rfl
  unfold pre0 byp0
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold owesTc Pipeline.Dat.owesAt Pipeline.owesWithin
    icases HO with ⟨%W, %hW, HO⟩; iexists W; isplitr
    · ipureintro; exact fun q hq => Or.inl (hW q hq)
    iexact HO
  isplitr; · iempintro
  iexact Hrest

set_option backward.isDefEq.respectTransparency.types false in
/-- EXIT: the arrays back among the unscoped arrays at the valuation after the region; the recorded waits, the
    thread's own and the pipeline's staging waits at level 0, within the thread's bound. -/
theorem hexit0 (c : Dev nD) :
    iprop((pd m 0 c).arrays ((pd m 0 c).arrAt · (Pipeline.pin (pcfgs (F := F)) Mlp.adm 0).N)
        ∗ (pd m 0 c).owesAt (none : HIx 2) (Fin.last (Pipeline.pin (pcfgs (F := F)) Mlp.adm 0).N) ∗ emp ∗ byp0 m c)
      ⊢ |={Set.univ}=> post0 m c := by
  have hjoin := Pipeline.unscopedBufs_of_arrays (p := 0) (pcfgs (F := F)) Mlp.adm (Ix := HIx 2) (Name := ℕ) (U := UU) (Lvl := ℕ)
    launch1.win launch1.arr_whole c (pd m) ((pd m 0 c).share_full fun _ => rfl)
    (V1s m c) (fun b => VB' m Mlp.mlpG c (rf b)) ((pd m 0 c).arrAt · (Pipeline.pin (pcfgs (F := F)) Mlp.adm 0).N) (hF0 m c) (hrest0 m c)
  unfold post0 byp0
  iintro ⟨Ha, HO, -, Hrest⟩
  imodintro
  isplitl [Ha Hrest]
  · iapply hjoin; isplitl [Ha] <;> iassumption
  unfold owesTc Pipeline.Dat.owesAt Pipeline.owesWithin
  icases HO with ⟨%W, %hW, HO⟩; iexists W; isplitr
  · ipureintro
    intro q hq
    rcases hW hq with h | ⟨w, s, rfl⟩
    · exact h
    · show (K (F := F)).lev _ none ≤ _; rw [SparseCore.Cfg.lev_none]; exact Nat.zero_le _
  iexact HO

/-- The region as a segment between the two thread states. -/
def seg0 : Pipeline.RegionSeg (pcfgs (F := F)) Mlp.adm (pd m) (none : HIx 2) defs₀ Variants.none (K (F := F)).L (K (F := F)).lev 0 :=
  Mlp.region1 (V1s m) (V3s m) (O1s (F := F)) (O3s (F := F)) (R1s (F := F)) (R3s (F := F)) (K (F := F)).L (K (F := F)).lev (pre0 m) (post0 m) (byp0 m) (hwaits0 m) (hentry0 m) (hexit0 m)

/-- The region's call, as the enclosing program spells it, is the pipeline program's call lifted. -/
theorem regionCall0_eq : regionCall (F := F) 0 = SparseCore.liftProg (Prog.lift (.customCall (Pipeline.entry 0) ())) := rfl

set_option backward.isDefEq.respectTransparency.types false in
/-- THE STEP: from the level facts, the region boundary, every unscoped array as the line before the region left it,
    the start signals owed and the pipeline's ghost state, the region's call runs to the boundary, the arrays with the
    region's result at the predictions, and the same start signals owed. -/
theorem region_step0 (d : Dev nD) (Φ : PUnit → sProp 𝕄) :
    iprop(levAts (K (F := F)).L (K (F := F)).lev ∗ boundary (TT d) ∗ StableHlo.held (TT d) Su (VB m d) ∗ owesTc d 1
        ∗ Pipeline.cellsGhost (Pipeline.pin (pcfgs (F := F)) Mlp.adm) EP 0 d ∗ Pipeline.toksInit (Pipeline.pin (pcfgs (F := F)) Mlp.adm) EP 0 d
        ∗ (iprop(boundary (TT d) ∗ StableHlo.held (TT d) Su (VB' m Mlp.mlpG d) ∗ owesTc d 1) -∗ Φ ⟨⟩))
      ⊢ wp frame (wpE ((K (F := F)).defs (D (F := F))) 𝒱 (TT d) none) Set.univ (regionCall 0) Φ := by
  rw [regionCall0_eq]
  refine .trans ?_ ((K (F := F)).wp_liftProg (D (F := F)) 𝒱 (TT d) Set.univ none (Prog.lift (.customCall (Pipeline.entry 0) ())) Φ)
  have hstep := Pipeline.RegionSeg.wp (pcfgs (F := F)) Mlp.adm (pd m) (none : HIx 2) cellOf_inj EP defs₀ 𝒱₀
    (K (F := F)).L (K (F := F)).lev (seg0 m) d none (fun _ h => by cases h) (fun x => .ret x) Φ
  refine .trans ?_ hstep
  rw [show (seg0 m).pre d = pre0 m d from rfl, show (seg0 m).post d = post0 m d from rfl]
  unfold pre0 post0
  have e1 : (unscopedBufs d (V1s m d) : sProp 𝕄) = StableHlo.held (TT d) Su (VB m d) := Pipeline.unscopedBufs_held d (VB m d)
  have e2 : (unscopedBufs d (fun b => VB' m Mlp.mlpG d (rf b)) : sProp 𝕄) = StableHlo.held (TT d) Su (VB' m Mlp.mlpG d) := Pipeline.unscopedBufs_held d (VB' m Mlp.mlpG d)
  rw [e1, e2]
  iintro ⟨Hlev, Hbd, Hheld, HO, Hg, Ht, Hk⟩
  isplitl [Hk]
  · iintro ⟨Hbd, Hheld, HO⟩; rw [wp_ret]; imodintro; iapply Hk
    isplitl [Hbd]; · iexact Hbd
    isplitl [Hheld]; · iexact Hheld
    iexact HO
  isplitl [Hbd]; · iexact Hbd
  isplitl [Hheld HO]
  · isplitl [Hheld]; · iexact Hheld
    iexact HO
  isplitl [Hlev]; · iexact Hlev
  isplitl [Hg]; · iexact Hg
  iexact Ht

end Cert.Kernel.Sc

end
-- ==== Proof.BScRegion1.lean ====
/-
  The second half's perceptron region as one step of the enclosing program's TensorCore thread.

  The thread enters the region holding every unscoped array at the contents the line before it left, and owing the
  start signals of the calls still to come; it leaves holding the arrays at the same contents but for the region's
  result, which is now the predictions of the region's eleven inputs, and owing the same. At the entry the region's
  twelve arrays are sorted out of the unscoped arrays; the pipeline's staging waits sit at level 0, below every start
  signal owed; at the exit the arrays are put back, and the waits the pipeline recorded, all at level 0, stay within
  the bound the thread keeps on its recorded waits.
-/
import proofs.«212020_g4707284156877_cont_8to1c4_553_54_alg».proof.Proof.BScRegionData
import proofs.«212020_g4707284156877_cont_8to1c4_553_54_alg».proof.Proof.BMlpRegion
import proofs.«212020_g4707284156877_cont_8to1c4_553_54_alg».proof.Proof.BMlpArrays
import proofs.«212020_g4707284156877_cont_8to1c4_553_54_alg».proof.Proof.BMlpFn
import proofs.«212020_g4707284156877_cont_8to1c4_553_54_alg».proof.Proof.BScEmb
import proofs.«212020_g4707284156877_cont_8to1c4_553_54_alg».proof.Proof.BScVals
import proofs.«212020_g4707284156877_cont_8to1c4_553_54_alg».proof.Proof.BScMainOps
import proofs.«212020_g4707284156877_cont_8to1c4_553_54_alg».proof.Proof.BScSetup
import Idealize.ShloMosaic.Lib.Pipeline.Regions
import Idealize.ShloMosaic.Lib.Pipeline.RegionsLoop
import Idealize.ShloMosaic.Lib.SparseCore.Threads

noncomputable section

namespace Cert.Kernel.Sc

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## The region's thread states -/

/-- Entered holding every unscoped array as the line before the region left it, owing the later calls' start signals; -/
def pre1 (c : Dev nD) : sProp 𝕄 := iprop(unscopedBufs c (V3s m c) ∗ owesTc c 2)
/-- left holding them with the region's result at the predictions, owing the same; -/
def post1 (c : Dev nD) : sProp 𝕄 := iprop(unscopedBufs c (fun b => VD' m Mlp.mlpG c (rf b)) ∗ owesTc c 2)
/-- the unscoped arrays that are not the region's bypass it. -/
def byp1 (c : Dev nD) : sProp 𝕄 := Pipeline.unscopedRest (Ix := HIx 2) (Name := ℕ) (U := UU) (Lvl := ℕ) spec3 c (V3s m c)

/-- The pipeline's staging waits, at index `none`, sit below every start signal the thread owes. -/
theorem hwaits1 (c : Dev nD) :
    (levAts (K (F := F)).L (K (F := F)).lev : sProp 𝕄) ⊢ Pipeline.cellsWaits (Pipeline.pin (pcfgs (F := F)) Mlp.adm) (pd m) (none : HIx 2) 1 c :=
  Pipeline.cellsWaits_intro _ (pd m) (none : HIx 2) 1 c fun w s t => (K (F := F)).mayWait_none _ (fun g => Otc_none c 2 g)

/-- At the exit each of the region's arrays is at the stage valuation after the region: an input as the region found
    it, which the rewriting of the result's array leaves alone; the result at the predictions of the eleven inputs. -/
theorem hF1 (c : Dev nD) (w : Fin 12) :
    (pd m 1 c).arrAt w (Pipeline.pin (pcfgs (F := F)) Mlp.adm 1).N = VD' m Mlp.mlpG c (rf (Pipeline.arrRef spec3 w)) := by
  by_cases hw : w = 11
  · subst hw
    exact (Mlp.arrAt_p1_out (V1s m) (V3s m) (O1s (F := F)) (O3s (F := F)) (R1s (F := F)) (R3s (F := F)) c).trans
      (Function.update_self (rf main_v29) (res1 m Mlp.mlpG c) (VD m Mlp.mlpG c)).symm
  · refine (Mlp.arrAt_p1_in (V1s m) (V3s m) (O1s (F := F)) (O3s (F := F)) (R1s (F := F)) (R3s (F := F)) c w hw _).trans (VD'_keep m Mlp.mlpG c (Pipeline.arrRef spec3 w) ?_).symm
    intro e
    exact hw (launch3.win.arr_inj ((Proc.devRef_injective _ e).trans (rfl : main_v29 = Pipeline.arrRef spec3 11)))

/-- Off the region's arrays the stage valuation after the region is the one before it. -/
theorem hrest1 (c : Dev nD) (b : Ref sig .tc) (hb : b ∉ Finset.univ.image (Pipeline.arrRef (Pipeline.pin (pcfgs (F := F)) Mlp.adm 1).spec)) :
    VD' m Mlp.mlpG c (rf b) = V3s m c b :=
  VD'_keep m Mlp.mlpG c b fun e => hb (Finset.mem_image.mpr ⟨11, Finset.mem_univ _, (Proc.devRef_injective _ e).symm⟩)

set_option backward.isDefEq.respectTransparency.types false in
/-- ENTRY: the region's arrays out of the unscoped arrays, no prefetched table, the owed tallies with their recorded
    waits within the thread's bound, the other unscoped arrays bypassing. -/
theorem hentry1 (c : Dev nD) :
    iprop(pre1 m c ∗ Pipeline.ownSems0 (fun k : PEmpty => k.elim) c ∗ levAts (K (F := F)).L (K (F := F)).lev)
      ⊢ |={Set.univ}=> iprop((pd m 1 c).arrays ((pd m 1 c).arrAt · 0)
          ∗ Pipeline.prefHeld (pcfgs (F := F) 1).pre c (fun _ => fullShare) (Mlp.adm (F := F) 1).1
          ∗ (pd m 1 c).owesAt (none : HIx 2) 0 ∗ emp ∗ byp1 m c) := by
  have hsplit := Pipeline.arrays_of_unscopedBufs (p := 1) (pcfgs (F := F)) Mlp.adm (pd m) launch3.win launch3.arr_whole c
    ((pd m 1 c).share_full fun _ => rfl) (V3s m c) fun _ => rfl
  unfold pre1 byp1
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold owesTc Pipeline.Dat.owesAt Pipeline.owesWithin
    icases HO with ⟨%W, %hW, HO⟩; iexists W; isplitr
    · ipureintro; exact fun q hq => Or.inl (hW q hq)
    iexact HO
  isplitr; · iempintro
  iexact Hrest

set_option backward.isDefEq.respectTransparency.types false in
/-- EXIT: the arrays back among the unscoped arrays at the valuation after the region; the recorded waits, the
    thread's own and the pipeline's staging waits at level 0, within the thread's bound. -/
theorem hexit1 (c : Dev nD) :
    iprop((pd m 1 c).arrays ((pd m 1 c).arrAt · (Pipeline.pin (pcfgs (F := F)) Mlp.adm 1).N)
        ∗ (pd m 1 c).owesAt (none : HIx 2) (Fin.last (Pipeline.pin (pcfgs (F := F)) Mlp.adm 1).N) ∗ emp ∗ byp1 m c)
      ⊢ |={Set.univ}=> post1 m c := by
  have hjoin := Pipeline.unscopedBufs_of_arrays (p := 1) (pcfgs (F := F)) Mlp.adm (Ix := HIx 2) (Name := ℕ) (U := UU) (Lvl := ℕ)
    launch3.win launch3.arr_whole c (pd m) ((pd m 1 c).share_full fun _ => rfl)
    (V3s m c) (fun b => VD' m Mlp.mlpG c (rf b)) ((pd m 1 c).arrAt · (Pipeline.pin (pcfgs (F := F)) Mlp.adm 1).N) (hF1 m c) (hrest1 m c)
  unfold post1 byp1
  iintro ⟨Ha, HO, -, Hrest⟩
  imodintro
  isplitl [Ha Hrest]
  · iapply hjoin; isplitl [Ha] <;> iassumption
  unfold owesTc Pipeline.Dat.owesAt Pipeline.owesWithin
  icases HO with ⟨%W, %hW, HO⟩; iexists W; isplitr
  · ipureintro
    intro q hq
    rcases hW hq with h | ⟨w, s, rfl⟩
    · exact h
    · show (K (F := F)).lev _ none ≤ _; rw [SparseCore.Cfg.lev_none]; exact Nat.zero_le _
  iexact HO

/-- The region as a segment between the two thread states. -/
def seg1 : Pipeline.RegionSeg (pcfgs (F := F)) Mlp.adm (pd m) (none : HIx 2) defs₀ Variants.none (K (F := F)).L (K (F := F)).lev 1 :=
  Mlp.region3 (V1s m) (V3s m) (O1s (F := F)) (O3s (F := F)) (R1s (F := F)) (R3s (F := F)) (K (F := F)).L (K (F := F)).lev (pre1 m) (post1 m) (byp1 m) (hwaits1 m) (hentry1 m) (hexit1 m)

/-- The region's call, as the enclosing program spells it, is the pipeline program's call lifted. -/
theorem regionCall1_eq : regionCall (F := F) 1 = SparseCore.liftProg (Prog.lift (.customCall (Pipeline.entry 1) ())) := rfl

set_option backward.isDefEq.respectTransparency.types false in
/-- THE STEP: from the level facts, the region boundary, every unscoped array as the line before the region left it,
    the start signals owed and the pipeline's ghost state, the region's call runs to the boundary, the arrays with the
    region's result at the predictions, and the same start signals owed. -/
theorem region_step1 (d : Dev nD) (Φ : PUnit → sProp 𝕄) :
    iprop(levAts (K (F := F)).L (K (F := F)).lev ∗ boundary (TT d) ∗ StableHlo.held (TT d) Su (VD m Mlp.mlpG d) ∗ owesTc d 2
        ∗ Pipeline.cellsGhost (Pipeline.pin (pcfgs (F := F)) Mlp.adm) EP 1 d ∗ Pipeline.toksInit (Pipeline.pin (pcfgs (F := F)) Mlp.adm) EP 1 d
        ∗ (iprop(boundary (TT d) ∗ StableHlo.held (TT d) Su (VD' m Mlp.mlpG d) ∗ owesTc d 2) -∗ Φ ⟨⟩))
      ⊢ wp frame (wpE ((K (F := F)).defs (D (F := F))) 𝒱 (TT d) none) Set.univ (regionCall 1) Φ := by
  rw [regionCall1_eq]
  refine .trans ?_ ((K (F := F)).wp_liftProg (D (F := F)) 𝒱 (TT d) Set.univ none (Prog.lift (.customCall (Pipeline.entry 1) ())) Φ)
  have hstep := Pipeline.RegionSeg.wp (pcfgs (F := F)) Mlp.adm (pd m) (none : HIx 2) cellOf_inj EP defs₀ 𝒱₀
    (K (F := F)).L (K (F := F)).lev (seg1 m) d none (fun _ h => by cases h) (fun x => .ret x) Φ
  refine .trans ?_ hstep
  rw [show (seg1 m).pre d = pre1 m d from rfl, show (seg1 m).post d = post1 m d from rfl]
  unfold pre1 post1
  have e1 : (unscopedBufs d (V3s m d) : sProp 𝕄) = StableHlo.held (TT d) Su (VD m Mlp.mlpG d) := Pipeline.unscopedBufs_held d (VD m Mlp.mlpG d)
  have e2 : (unscopedBufs d (fun b => VD' m Mlp.mlpG d (rf b)) : sProp 𝕄) = StableHlo.held (TT d) Su (VD' m Mlp.mlpG d) := Pipeline.unscopedBufs_held d (VD' m Mlp.mlpG d)
  rw [e1, e2]
  iintro ⟨Hlev, Hbd, Hheld, HO, Hg, Ht, Hk⟩
  isplitl [Hk]
  · iintro ⟨Hbd, Hheld, HO⟩; rw [wp_ret]; imodintro; iapply Hk
    isplitl [Hbd]; · iexact Hbd
    isplitl [Hheld]; · iexact Hheld
    iexact HO
  isplitl [Hbd]; · iexact Hbd
  isplitl [Hheld HO]
  · isplitl [Hheld]; · iexact Hheld
    iexact HO
  isplitl [Hlev]; · iexact Hlev
  isplitl [Hg]; · iexact Hg
  iexact Ht

end Cert.Kernel.Sc

end
-- ==== Proof.BScAll.lean ====
/-
  The kernel program's run from the two workers' tasks: the launch theorem applied to the tasks' obligations, the
  operands' split, the launch element, @main's steps and the reading of the final memory.
-/
import proofs.«212020_g4707284156877_cont_8to1c4_553_54_alg».proof.Proof.BScFinal
import proofs.«212020_g4707284156877_cont_8to1c4_553_54_alg».proof.Proof.BScObl
import proofs.«212020_g4707284156877_cont_8to1c4_553_54_alg».proof.Proof.BScRegion0
import proofs.«212020_g4707284156877_cont_8to1c4_553_54_alg».proof.Proof.BScRegion1

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type}

variable (m : (ℓ : Loc nD τ sig) → Buf (Elt F) ℓ) (ρ : Dev nD → PrngReg) [FloatOps F]

theorem run_all [∀ e, Nonempty (Elt F e)] (hb0 : TileBody0 (F := F) m) (hb1 : TileBody1 (F := F) m) (hpre : PreOK m) :
    θ_run (Cert.Kernel.defs (F := F)) (Cert.Kernel.threads (F := F)) ⟨m, fun _ => 0, ρ⟩ (QC m) :=
  run_main m ρ (fun q _ => match q with | 0 => tileObl0 m hb0 hpre | 1 => tileObl1 m hb1 hpre) (region_step0 m) (region_step1 m)

end Cert.Kernel.Sc

end
-- ==== Proof.ScTile0Lib.lean ====
/-
  One vector subcore's task of the first SparseCore call, the pieces its proof is made of.

  The task owns rows `[256 w, 256 w + 256)` of the call's 8192 × 512 feature array, `w = 2 s + c`. It copies its 256
  words of each of the four index slices into the four rows of its index scratch, and then, eight times, gathers 128
  table rows named by 128 of those words into a row buffer and writes the buffer out to one 128 × 128 rectangle of its
  strip: unit `2 t + ch` reads table `t` at the words `128 ch .. 128 ch + 128` of row `t` of the scratch and writes
  rows `256 w + 128 ch ..`, columns `128 t ..` of the feature array.

  Here: the subcore's own buffers and semaphores opened into the task's five scratch buffers and twelve DMA semaphores;
  the strip as the disjoint union of the eight rectangles; what the index scratch holds once the four copies have
  landed, and that every word of it names a table row; and the value of a rectangle after its write-out — column
  `k mod 128` of the row of table `k / 128` that the example's index word names, the call's feature array there.
-/
import proofs.«212020_g4707284156877_cont_8to1c4_553_54_alg».proof.Proof.ScSetup

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-- A separating conjunction over a finite set, with the terms of a duplicate-free list of its members taken out in order. -/
theorem bigSep_list_split {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by simp
  | a :: l, s, hnd, hs => by
    have ha : a ∈ s := hs a (List.mem_cons_self)
    have hnd' := List.nodup_cons.mp hnd
    rw [bigSep_erase ha, bigSep_list_split Φ l (s.erase a) hnd'.2 (fun x hx => Finset.mem_erase.mpr
      ⟨fun e => hnd'.1 (e ▸ hx), hs x (List.mem_cons_of_mem _ hx)⟩)]
    have : s.erase a \ l.toFinset = s \ (a :: l).toFinset := by
      ext x; simp only [Finset.mem_sdiff, Finset.mem_erase, List.toFinset_cons, Finset.mem_insert, List.mem_toFinset]; tauto
    rw [this]; rfl

section Tile

variable (d : Dev nD) (L : grid0.Coords)

/-- The SparseCore and the vector subcore a grid point names, as the thread's coordinates and as numbers below the grid's bounds. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

local notation "i0V" => (Memref.whole Cert.KernelIdeal.main_v0_scv : Memref Cert.KernelIdeal.sig Kind.scVector Space.hbm Cert.KernelIdeal.S8192 EltTy.i32)
local notation "i1V" => (Memref.whole Cert.KernelIdeal.main_v1_scv : Memref Cert.KernelIdeal.sig Kind.scVector Space.hbm Cert.KernelIdeal.S8192 EltTy.i32)
local notation "i2V" => (Memref.whole Cert.KernelIdeal.main_v2_scv : Memref Cert.KernelIdeal.sig Kind.scVector Space.hbm Cert.KernelIdeal.S8192 EltTy.i32)
local notation "i3V" => (Memref.whole Cert.KernelIdeal.main_v3_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v4_scv : Memref Cert.KernelIdeal.sig Kind.scVector Space.hbm Cert.KernelIdeal.S8192x512 EltTy.f32)
local notation "xV" => (Memref.whole Cert.KernelIdeal.cc0_scratch0 : Memref Cert.KernelIdeal.sig Kind.scVector Space.vmem Cert.KernelIdeal.S4x256 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

/-- The twelve DMA semaphores of the task, in the order of its parameters: the four gather semaphores, the four write-out
    semaphores, the four scoped semaphores of the index copies. -/
def semList : List (DmaSem sig) :=
  [cc0_scratch5.sem, cc0_scratch6.sem, cc0_scratch7.sem, cc0_scratch8.sem, cc0_scratch9.sem, cc0_scratch10.sem,
   cc0_scratch11.sem, cc0_scratch12.sem, cc0_scoped0.sem, cc0_scoped1.sem, cc0_scoped2.sem, cc0_scoped3.sem]
def cellOf (thr : Thread nD τ) (x : DmaSem sig) : GSem nD τ sig := (thr, SemLoc.dma x)
def cellList (thr : Thread nD τ) : List (GSem nD τ sig) := semList.map (cellOf thr)

theorem cellList_nodup (thr : Thread nD τ) : (cellList thr).Nodup :=
  List.Nodup.map (fun a b h => by simpa [cellOf] using h) (by decide)

theorem cellList_mem (c : Fin τ.nSC) (j : Fin τ.nSub) : ∀ g ∈ cellList (V d c j), g ∈ ownCells (V d c j) := by
  intro g hg
  obtain ⟨x, hx, rfl⟩ := List.mem_map.mp hg
  refine mem_ownCells.mpr ⟨rfl, ?_⟩
  show (SemLoc.dma x : SemLoc sig).isScoped .scVector = true
  clear hg; revert x; unfold semList; decide

/-- The subcore's own semaphores at zero are the task's twelve and the rest. -/
theorem ownSems0_V :
    (ownSems0 (V d (cV L) (jV L)) : sProp 𝕄)
      = (cellList (V d (cV L) (jV L))).foldr (fun x acc => iprop(semVal x 0 ∗ acc))
          (bigSep (ownCells (V d (cV L) (jV L)) \ (cellList (V d (cV L) (jV L))).toFinset) fun g => semVal g 0) := by
  unfold SparseCore.Cfg.ownSems0
  exact bigSep_list_split _ _ _ (cellList_nodup _) (cellList_mem d _ _)

def refList (c : Fin τ.nSC) (j : Fin τ.nSub) : List (DevRef τ sig) :=
  ([cc0_scratch0, cc0_scratch1, cc0_scratch2, cc0_scratch3, cc0_scratch4] : List (Ref sig .scVector)).map (Proc.scVector c j).devRef

theorem scratch_nodup : ([cc0_scratch0, cc0_scratch1, cc0_scratch2, cc0_scratch3, cc0_scratch4] : List (Ref sig .scVector)).Nodup := by decide

theorem refList_nodup (c : Fin τ.nSC) (j : Fin τ.nSub) : (refList c j).Nodup :=
  List.Nodup.map (Proc.devRef_injective _) scratch_nodup

theorem refList_mem (c : Fin τ.nSC) (j : Fin τ.nSub) : ∀ b ∈ refList c j, b ∈ ownRefs (τ := τ) (.scVector c j) := by
  intro b hb
  simp only [refList, List.map_cons, List.map_nil, List.mem_cons, List.not_mem_nil, or_false] at hb
  rcases hb with rfl | rfl | rfl | rfl | rfl <;> exact SparseCore.Cfg.mem_ownRefs_of_owner (p := Proc.scVector c j) rfl

/-- The subcore's own buffers are the task's five scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (ownRefs (τ := τ) (.scVector (cV L) (jV L)) \ (refList (cV L) (jV L)).toFinset)
              fun b => iprop(∃ f, ((d, b) : Loc nD τ sig) ↦{fullShare} f)) := by
  unfold SparseCore.Cfg.ownBufs
  exact bigSep_list_split _ _ _ (refList_nodup _ _) (refList_mem _ _)

end Tile

section Geo
variable (L : grid0.Coords)

local notation "i0V" => (Memref.whole Cert.KernelIdeal.main_v0_scv : Memref Cert.KernelIdeal.sig Kind.scVector Space.hbm Cert.KernelIdeal.S8192 EltTy.i32)
local notation "i1V" => (Memref.whole Cert.KernelIdeal.main_v1_scv : Memref Cert.KernelIdeal.sig Kind.scVector Space.hbm Cert.KernelIdeal.S8192 EltTy.i32)
local notation "i2V" => (Memref.whole Cert.KernelIdeal.main_v2_scv : Memref Cert.KernelIdeal.sig Kind.scVector Space.hbm Cert.KernelIdeal.S8192 EltTy.i32)
local notation "i3V" => (Memref.whole Cert.KernelIdeal.main_v3_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v4_scv : Memref Cert.KernelIdeal.sig Kind.scVector Space.hbm Cert.KernelIdeal.S8192x512 EltTy.f32)
local notation "xV" => (Memref.whole Cert.KernelIdeal.cc0_scratch0 : Memref Cert.KernelIdeal.sig Kind.scVector Space.vmem Cert.KernelIdeal.S4x256 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

/-- The eight 128 × 128 rectangles of the feature array the task writes, unit `2 t + ch` at rows
    `256 w + 128 ch` and columns `128 t`, as the program slices them. -/
abbrev oS0 (L : grid0.Coords) : Memref sig .scVector .hbm S128x128 .f32 := (oV).slice (Rect.unit (s := S8192x512) (k0_off2 L 0#32) S128x128.size (k0_off2_inb L 0)) (fun _ => rfl)
abbrev oS1 (L : grid0.Coords) : Memref sig .scVector .hbm S128x128 .f32 := (oV).slice (Rect.unit (s := S8192x512) (k0_off2 L 128#32) S128x128.size (k0_off2_inb L 1)) (fun _ => rfl)
abbrev oS2 (L : grid0.Coords) : Memref sig .scVector .hbm S128x128 .f32 := (oV).slice (Rect.unit (s := S8192x512) (k0_off3 L 0#32) S128x128.size (k0_off3_inb L 0)) (fun _ => rfl)
abbrev oS3 (L : grid0.Coords) : Memref sig .scVector .hbm S128x128 .f32 := (oV).slice (Rect.unit (s := S8192x512) (k0_off3 L 128#32) S128x128.size (k0_off3_inb L 1)) (fun _ => rfl)
abbrev oS4 (L : grid0.Coords) : Memref sig .scVector .hbm S128x128 .f32 := (oV).slice (Rect.unit (s := S8192x512) (k0_off4 L 0#32) S128x128.size (k0_off4_inb L 0)) (fun _ => rfl)
abbrev oS5 (L : grid0.Coords) : Memref sig .scVector .hbm S128x128 .f32 := (oV).slice (Rect.unit (s := S8192x512) (k0_off4 L 128#32) S128x128.size (k0_off4_inb L 1)) (fun _ => rfl)
abbrev oS6 (L : grid0.Coords) : Memref sig .scVector .hbm S128x128 .f32 := (oV).slice (Rect.unit (s := S8192x512) (k0_off5 L 0#32) S128x128.size (k0_off5_inb L 0)) (fun _ => rfl)
abbrev oS7 (L : grid0.Coords) : Memref sig .scVector .hbm S128x128 .f32 := (oV).slice (Rect.unit (s := S8192x512) (k0_off5 L 128#32) S128x128.size (k0_off5_inb L 1)) (fun _ => rfl)

/-- Membership in a unit-stride rectangle of the feature array, coordinate by coordinate. -/
theorem mem_unit2 (off size : Fin 2 → ℕ) (inb : ∀ a, off a + size a ≤ S8192x512.size a) (j : S8192x512.Idx) :
    j ∈ (Rect.unit (s := S8192x512) off size inb).set
      ↔ ((off 0 ≤ (j 0).val ∧ (j 0).val < off 0 + size 0) ∧ (off 1 ≤ (j 1).val ∧ (j 1).val < off 1 + size 1)) := by
  rw [(Rect.unit (s := S8192x512) off size inb).mem_set]
  simp only [Rect.off_unit, Rect.size_unit, Rect.stride_unit, Nat.one_mul]
  rw [Fin.forall_fin_two]
  constructor
  · rintro ⟨⟨k0, hk0, e0⟩, ⟨k1, hk1, e1⟩⟩; omega
  · rintro ⟨⟨h1, h2⟩, ⟨h3, h4⟩⟩
    exact ⟨⟨(j 0).val - off 0, by omega, by omega⟩, ⟨(j 1).val - off 1, by omega, by omega⟩⟩

theorem set_oSlice (r : Rect S8192x512) (hr : ∀ a, r.stride a = 1) : ((oV).slice r hr).view.set = r.set := by
  show ((View.whole (main_v4_scv : Ref sig .scVector)).slice r).set = _
  rw [View.set_slice]; exact Finset.map_refl

theorem mem_oSlice (off size : Fin 2 → ℕ) (inb : ∀ a, off a + size a ≤ S8192x512.size a) (j : S8192x512.Idx) :
    j ∈ ((oV).slice (Rect.unit (s := S8192x512) off size inb) (fun _ => rfl)).view.set
      ↔ ((off 0 ≤ (j 0).val ∧ (j 0).val < off 0 + size 0) ∧ (off 1 ≤ (j 1).val ∧ (j 1).val < off 1 + size 1)) :=
  (Finset.ext_iff.mp (set_oSlice (Rect.unit (s := S8192x512) off size inb) (fun _ => rfl)) j).trans (mem_unit2 off size inb j)

/-- The rectangles as a family over the eight units. -/
def oSet (L : grid0.Coords) : Fin 8 → Finset S8192x512.Idx :=
  ![(oS0 L).view.set, (oS1 L).view.set, (oS2 L).view.set, (oS3 L).view.set, (oS4 L).view.set, (oS5 L).view.set, (oS6 L).view.set, (oS7 L).view.set]

theorem mem_oSet (u : Fin 8) (j : S8192x512.Idx) :
    j ∈ oSet L u ↔ ((512 * (L 1).val + 256 * (L 0).val + 128 * (u.val % 2) ≤ (j 0).val ∧ (j 0).val < 512 * (L 1).val + 256 * (L 0).val + 128 * (u.val % 2) + 128)
      ∧ (128 * (u.val / 2) ≤ (j 1).val ∧ (j 1).val < 128 * (u.val / 2) + 128)) := by
  fin_cases u
  all_goals simp only [oSet, Matrix.cons_val_zero, Matrix.cons_val_one, Matrix.cons_val, Fin.zero_eta, Fin.mk_one, Fin.reduceFinMk]
  · have e : k0_off2 L 0#32 = ![512 * (L 1).val + 256 * (L 0).val + 128 * 0, 0] := k0_off2_eq L 0
    refine (mem_oSlice _ _ _ j).trans ?_; rw [e]; simp
  · have e : k0_off2 L 128#32 = ![512 * (L 1).val + 256 * (L 0).val + 128 * 1, 0] := k0_off2_eq L 1
    refine (mem_oSlice _ _ _ j).trans ?_; rw [e]; simp
  · have e : k0_off3 L 0#32 = ![512 * (L 1).val + 256 * (L 0).val + 128 * 0, 128] := k0_off3_eq L 0
    refine (mem_oSlice _ _ _ j).trans ?_; rw [e]; simp
  · have e : k0_off3 L 128#32 = ![512 * (L 1).val + 256 * (L 0).val + 128 * 1, 128] := k0_off3_eq L 1
    refine (mem_oSlice _ _ _ j).trans ?_; rw [e]; simp
  · have e : k0_off4 L 0#32 = ![512 * (L 1).val + 256 * (L 0).val + 128 * 0, 256] := k0_off4_eq L 0
    refine (mem_oSlice _ _ _ j).trans ?_; rw [e]; simp
  · have e : k0_off4 L 128#32 = ![512 * (L 1).val + 256 * (L 0).val + 128 * 1, 256] := k0_off4_eq L 1
    refine (mem_oSlice _ _ _ j).trans ?_; rw [e]; simp
  · have e : k0_off5 L 0#32 = ![512 * (L 1).val + 256 * (L 0).val + 128 * 0, 384] := k0_off5_eq L 0
    refine (mem_oSlice _ _ _ j).trans ?_; rw [e]; simp
  · have e : k0_off5 L 128#32 = ![512 * (L 1).val + 256 * (L 0).val + 128 * 1, 384] := k0_off5_eq L 1
    refine (mem_oSlice _ _ _ j).trans ?_; rw [e]; simp

theorem oSet_disjoint : ∀ u ∈ (Finset.univ : Finset (Fin 8)), ∀ u' ∈ (Finset.univ : Finset (Fin 8)), u ≠ u' → Disjoint (oSet L u) (oSet L u') := by
  intro u _ u' _ hne
  rw [Finset.disjoint_left]
  intro j h1 h2
  rw [mem_oSet] at h1 h2
  exact hne (Fin.ext (by omega))

/-- The worker's strip of the feature array is the eight rectangles. -/
theorem oSet_cover : oRowSet (wid (cL L) (iL L)) = Finset.univ.biUnion (oSet L) := by
  ext j
  rw [Finset.mem_biUnion]
  simp only [Finset.mem_univ, true_and, mem_oSet]
  have h0 : (j 0).val < 8192 := (j 0).isLt
  have h1 : (j 1).val < 512 := (j 1).isLt
  have hw : j ∈ oRowSet (wid (cL L) (iL L))
      ↔ (256 * (2 * (L 1).val + (L 0).val) ≤ (j 0).val ∧ (j 0).val < 256 * (2 * (L 1).val + (L 0).val) + 256) := by
    show j ∈ (Rect.unit (s := S8192x512) _ _ _).set ↔ _
    rw [mem_unit2]
    simp [Shape.partIx, Shape.partSize, wid]
    omega
  rw [hw]
  constructor
  · intro h
    have hn : 2 * ((j 1).val / 128) + ((j 0).val - (512 * (L 1).val + 256 * (L 0).val)) / 128 < 8 := by omega
    refine ⟨⟨_, hn⟩, ?_⟩
    simp only []
    omega
  · rintro ⟨u, hu⟩
    have := u.isLt
    omega

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]; rfl

/-- The strip held at one contents is the eight rectangles held at it, each through its own slice. -/
theorem strip_split (d : Dev nD) (f : S8192x512.Idx → Elt F .f32) :
    ((TT d).loc main_v4 ↦[oRowSet (wid (cL L) (iL L))]{fullShare} f : sProp 𝕄)
      = iprop(((oS0 L).view.loc (V d (cV L) (jV L)) ↦[(oS0 L).view.set]{fullShare} f) ∗ ((oS1 L).view.loc (V d (cV L) (jV L)) ↦[(oS1 L).view.set]{fullShare} f)
          ∗ ((oS2 L).view.loc (V d (cV L) (jV L)) ↦[(oS2 L).view.set]{fullShare} f) ∗ ((oS3 L).view.loc (V d (cV L) (jV L)) ↦[(oS3 L).view.set]{fullShare} f)
          ∗ ((oS4 L).view.loc (V d (cV L) (jV L)) ↦[(oS4 L).view.set]{fullShare} f) ∗ ((oS5 L).view.loc (V d (cV L) (jV L)) ↦[(oS5 L).view.set]{fullShare} f)
          ∗ ((oS6 L).view.loc (V d (cV L) (jV L)) ↦[(oS6 L).view.set]{fullShare} f) ∗ ((oS7 L).view.loc (V d (cV L) (jV L)) ↦[(oS7 L).view.set]{fullShare} f)) := by
  rw [oSet_cover, pointsTo_biUnion _ _ (oSet_disjoint L), bigSep_fin8]; rfl

end Geo

section Scratch
variable (L : grid0.Coords)

local notation "i0V" => (Memref.whole Cert.KernelIdeal.main_v0_scv : Memref Cert.KernelIdeal.sig Kind.scVector Space.hbm Cert.KernelIdeal.S8192 EltTy.i32)
local notation "i1V" => (Memref.whole Cert.KernelIdeal.main_v1_scv : Memref Cert.KernelIdeal.sig Kind.scVector Space.hbm Cert.KernelIdeal.S8192 EltTy.i32)
local notation "i2V" => (Memref.whole Cert.KernelIdeal.main_v2_scv : Memref Cert.KernelIdeal.sig Kind.scVector Space.hbm Cert.KernelIdeal.S8192 EltTy.i32)
local notation "i3V" => (Memref.whole Cert.KernelIdeal.main_v3_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v4_scv : Memref Cert.KernelIdeal.sig Kind.scVector Space.hbm Cert.KernelIdeal.S8192x512 EltTy.f32)
local notation "xV" => (Memref.whole Cert.KernelIdeal.cc0_scratch0 : Memref Cert.KernelIdeal.sig Kind.scVector Space.vmem Cert.KernelIdeal.S4x256 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

/-- Where a squeezed one-row slice of the index scratch puts its words: row `t`, columns from `c`. -/
theorem xRow_emb (t c n : ℕ) (inb : ∀ a, (![t, c] : Fin 2 → ℕ) a + (![1, n] : Fin 2 → ℕ) a ≤ S4x256.size a)
    (hq : (Rect.unit (s := S4x256) ![t, c] ![1, n] inb).shape.Squeezes ⟨1, ![n]⟩) (x : (⟨1, ![n]⟩ : Shape).Idx) :
    (((((xV).slice (Rect.unit (s := S4x256) ![t, c] ![1, n] inb) (fun _ => rfl)).squeeze ⟨1, ![n]⟩ hq).view.emb x) 0).val = t
      ∧ (((((xV).slice (Rect.unit (s := S4x256) ![t, c] ![1, n] inb) (fun _ => rfl)).squeeze ⟨1, ![n]⟩ hq).view.emb x) 1).val = c + (x 0).val := by
  have e : Shape.reshapeEquiv (s := (Rect.unit (s := S4x256) ![t, c] ![1, n] inb).shape) (s' := ⟨1, ![n]⟩) hq.numel_eq x = Fin.cons ⟨0, Nat.one_pos⟩ x :=
    Shape.reshapeEquiv_cons_one (n := 1) (d := ![n]) hq.numel_eq x
  show (((Rect.unit (s := S4x256) ![t, c] ![1, n] inb).emb (Shape.reshapeEquiv hq.numel_eq x)) 0).val = t
    ∧ (((Rect.unit (s := S4x256) ![t, c] ![1, n] inb).emb (Shape.reshapeEquiv hq.numel_eq x)) 1).val = c + (x 0).val
  rw [e]
  simp only [Rect.emb_apply, Rect.off_unit, Rect.stride_unit, Nat.one_mul]
  refine ⟨?_, ?_⟩
  · exact Nat.add_zero t
  · rfl

/-- Writing one row of the index scratch through its squeezed slice: row `t` takes the payload, the other rows keep theirs. -/
theorem xRow_write (t : ℕ) (inb : ∀ a, (![t, 0] : Fin 2 → ℕ) a + (![1, 256] : Fin 2 → ℕ) a ≤ S4x256.size a)
    (hq : (Rect.unit (s := S4x256) ![t, 0] ![1, 256] inb).shape.Squeezes S256)
    (f : S4x256.Idx → Elt F .i32) (w : S256.Idx → Elt F .i32) (j : S4x256.Idx) :
    View.write (Elt F) (((xV).slice (Rect.unit (s := S4x256) ![t, 0] ![1, 256] inb) (fun _ => rfl)).squeeze S256 hq).view f w Finset.univ j
      = if (j 0).val = t then w (ix1 (j 1)) else f j := by
  by_cases h : (j 0).val = t
  · rw [if_pos h]
    have hj : (((xV).slice (Rect.unit (s := S4x256) ![t, 0] ![1, 256] inb) (fun _ => rfl)).squeeze S256 hq).view.emb (ix1 (j 1)) = j := by
      obtain ⟨h0, h1⟩ := xRow_emb t 0 256 inb hq (ix1 (j 1))
      funext a
      refine Fin.ext ?_
      match a with
      | 0 => exact h0.trans h.symm
      | 1 => rw [h1]; simp [ix1]
    conv_lhs => rw [← hj]
    rw [View.write_emb_of_mem _ _ (Finset.mem_univ _)]
    rfl
  · rw [if_neg h]
    refine View.write_of_not_mem _ _ _ fun hm => h ?_
    rw [View.setOn_univ] at hm
    obtain ⟨x, _, rfl⟩ := Finset.mem_map.mp hm
    exact (xRow_emb t 0 256 inb hq x).1

/-- The index scratch once the four copies have landed: row `t` holds the payload of copy `t`. -/
def xFill (p0 p1 p2 p3 : S256.Idx → Elt F .i32) : S4x256.Idx → Elt F .i32 := fun j =>
  if (j 0).val = 3 then p3 (ix1 (j 1)) else if (j 0).val = 2 then p2 (ix1 (j 1)) else if (j 0).val = 1 then p1 (ix1 (j 1)) else p0 (ix1 (j 1))

theorem xFill_le (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999) (j : S4x256.Idx) : (xFill p0 p1 p2 p3 j).toNat ≤ 99999 := by
  unfold xFill; split_ifs <;> first | exact h0 _ | exact h1 _ | exact h2 _ | exact h3 _

/-- The four copies, one after the other, fill the scratch. -/
theorem scratch_eq (fx : S4x256.Idx → Elt F .i32) (p0 p1 p2 p3 : S256.Idx → Elt F .i32) (j : S4x256.Idx) :
    View.write (Elt F) (((xV).slice (Rect.unit (s := S4x256) ![3, 0] S1x256.size inb_S4x256_S1x256_3_0) (fun _ => rfl)).squeeze S256 squeezes_S1x256_S256).view
      (View.write (Elt F) (((xV).slice (Rect.unit (s := S4x256) ![2, 0] S1x256.size inb_S4x256_S1x256_2_0) (fun _ => rfl)).squeeze S256 squeezes_S1x256_S256).view
        (View.write (Elt F) (((xV).slice (Rect.unit (s := S4x256) ![1, 0] S1x256.size inb_S4x256_S1x256_1_0) (fun _ => rfl)).squeeze S256 squeezes_S1x256_S256).view
          (View.write (Elt F) (((xV).slice (Rect.unit (s := S4x256) ![0, 0] S1x256.size inb_S4x256_S1x256_0_0) (fun _ => rfl)).squeeze S256 squeezes_S1x256_S256).view fx p0 Finset.univ) p1 Finset.univ) p2 Finset.univ) p3 Finset.univ j
      = xFill p0 p1 p2 p3 j := by
  have hj : (j 0).val < 4 := (j 0).isLt
  unfold xFill
  refine (xRow_write 3 _ _ _ _ j).trans ?_
  by_cases h3 : (j 0).val = 3
  · rw [if_pos h3, if_pos h3]
  rw [if_neg h3, if_neg h3]
  refine (xRow_write 2 _ _ _ _ j).trans ?_
  by_cases h2 : (j 0).val = 2
  · rw [if_pos h2, if_pos h2]
  rw [if_neg h2, if_neg h2]
  refine (xRow_write 1 _ _ _ _ j).trans ?_
  by_cases h1 : (j 0).val = 1
  · rw [if_pos h1, if_pos h1]
  rw [if_neg h1, if_neg h1]
  refine (xRow_write 0 _ _ _ _ j).trans ?_
  rw [if_pos (by omega)]

theorem idxOf_le (hpre : PreOK m) (d : Dev nD) (q : Fin 2) (k : Fin 4) (j : S8192.Idx) : (idxOf m d q k j).toNat ≤ 99999 := hpre d k _

/-- An offset list read out of the filled scratch names rows of a table. -/
theorem hin_xFill (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999)
    (r : Rect S4x256) (hr : ∀ a, r.stride a = 1) (hq : r.shape.Squeezes S128) :
    ∀ x, ((((xV).slice r hr).squeeze S128 hq).view.read (Elt F) (xFill p0 p1 p2 p3) x).toNat < S100001x128.size gathers_S100001x128_S128x128.axis := by
  intro x
  rw [show (((xV).slice r hr).squeeze S128 hq).view.read (Elt F) (xFill p0 p1 p2 p3) x = xFill p0 p1 p2 p3 ((((xV).slice r hr).squeeze S128 hq).view.emb x)
    from (View.read_apply _ _).trans (cast_eq _ _)]
  exact Nat.lt_of_le_of_lt (xFill_le p0 p1 p2 p3 h0 h1 h2 h3 _) (by decide)

end Scratch

section Value
variable (d : Dev nD) (L : grid0.Coords)

local notation "i0V" => (Memref.whole Cert.KernelIdeal.main_v0_scv : Memref Cert.KernelIdeal.sig Kind.scVector Space.hbm Cert.KernelIdeal.S8192 EltTy.i32)
local notation "i1V" => (Memref.whole Cert.KernelIdeal.main_v1_scv : Memref Cert.KernelIdeal.sig Kind.scVector Space.hbm Cert.KernelIdeal.S8192 EltTy.i32)
local notation "i2V" => (Memref.whole Cert.KernelIdeal.main_v2_scv : Memref Cert.KernelIdeal.sig Kind.scVector Space.hbm Cert.KernelIdeal.S8192 EltTy.i32)
local notation "i3V" => (Memref.whole Cert.KernelIdeal.main_v3_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v4_scv : Memref Cert.KernelIdeal.sig Kind.scVector Space.hbm Cert.KernelIdeal.S8192x512 EltTy.f32)
local notation "xV" => (Memref.whole Cert.KernelIdeal.cc0_scratch0 : Memref Cert.KernelIdeal.sig Kind.scVector Space.vmem Cert.KernelIdeal.S4x256 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

/-- Word `r` of an index slice as a number, and column `c` of row `r` of a table, total on the naturals. -/
def rowOf (i : S8192.Idx → BitVec 32) (r : ℕ) : ℕ := if h : r < 8192 then (i (ix1 ⟨r, h⟩)).toNat else 0
def tabAt (e : S100001x128.Idx → Elt F .f32) (r c : ℕ) : Elt F .f32 :=
  if h : r < 100001 ∧ c < 128 then e (ix2 ⟨r, h.1⟩ ⟨c, h.2⟩) else e (ix2 ⟨0, by decide⟩ ⟨0, by decide⟩)
/-- Column `c` of the row of table `t` that word `r` of call 0's index slice `t` names. -/
def valAt (t : Fin 4) (r c : ℕ) : Elt F .f32 := tabAt (tabOf m d t) (rowOf (idxOf m d 0 t) r) c

/-- The call's feature array at an index, through `valAt`. -/
theorem featOf_eq (hpre : PreOK m) (j : S8192x512.Idx) (t : Fin 4) (ht : (j 1).val / 128 = t.val) :
    featOf m d 0 j = valAt m d t (j 0).val ((j 1).val % 128) := by
  have h0 : (j 0).val < 8192 := (j 0).isLt
  have h1 : (j 1).val < 512 := (j 1).isLt
  have et : (⟨(j 1).val / 128, by omega⟩ : Fin 4) = t := Fin.ext ht
  have hle : (idxOf m d 0 t (ix1 ⟨(j 0).val, h0⟩)).toNat ≤ 99999 := idxOf_le m hpre d 0 t _
  unfold valAt tabAt rowOf
  rw [dif_pos h0, dif_pos ⟨by omega, Nat.mod_lt _ (by decide)⟩]
  show tabOf m d ⟨(j 1).val / 128, _⟩ (ix2 ⟨min (idxOf m d 0 ⟨(j 1).val / 128, _⟩ (ix1 ⟨(j 0).val, _⟩)).toNat 100000, _⟩ ⟨(j 1).val % 128, _⟩) = _
  simp only [et]
  congr 2
  exact Fin.ext (Nat.min_eq_left (by omega))

/-- The gather's payload at an index: the source at the row the list's word names, same column. -/
theorem gather_val (g : S100001x128.Idx → Elt F .f32) (idf : S128.Idx → Elt F .i32)
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = g (ix2 ⟨(idf (ix1 (x 0))).toNat, hin _⟩ (x 1)) := by
  unfold SparseCore.gatherPayload
  congr 1
  funext a
  refine Fin.ext ?_
  match a with
  | 0 =>
    have h1 := Shape.Gathers.idx_axis gathers_S100001x128_S128x128 (SparseCore.rows idf hn hin) x
    have h2 : S128.rowMajor.symm ((x gathers_S100001x128_S128x128.axis').cast hn.symm) = ix1 (x 0) := by
      exact (Equiv.symm_apply_eq _).mpr (Fin.ext (Shape.rowMajor_val_one (d := ![128]) (ix1 (x 0))).symm)
    show ((gathers_S100001x128_S128x128.idx (SparseCore.rows idf hn hin) x) gathers_S100001x128_S128x128.axis).val = (idf (ix1 (x 0))).toNat
    rw [h1]
    show (idf (S128.rowMajor.symm ((x gathers_S100001x128_S128x128.axis').cast hn.symm))).toNat = _
    rw [h2]
    rfl
  | 1 =>
    exact Shape.Gathers.idx_of_ne gathers_S100001x128_S128x128 _ x 1 (by decide)

/-- A whole-shape piece at the head of a list of writes is what the view reads back. -/
theorem read_writes_whole {sig' : RefSig} {κ : Kind} {sp : Space} {s : Shape} {e : EltTy} {Val : EltTy → Type}
    (v : View sig' κ sp s e) (f : v.ty.Contents Val) (w : (Rect.whole s).shape.Idx → Val e) (Ls : List (View.Piece Val s e)) (x : (Rect.whole s).shape.Idx) :
    v.read Val (v.writes Val f (⟨Rect.whole s, w⟩ :: Ls)) x = w x := by
  have := View.read_writes_cons_emb v f (Rect.whole s) w Ls x
  rwa [Rect.emb_whole_apply] at this

/-- One of the eight rectangles after its write-out, where the payload is the gathered rows: the call's feature array there. -/
theorem rect_val (hpre : PreOK m) (off : Fin 2 → ℕ) (inb : ∀ a, off a + S128x128.size a ≤ S8192x512.size a) (t : Fin 4) (ch : ℕ)
    (hoff0 : off 0 = 512 * (L 1).val + 256 * (L 0).val + 128 * ch) (hoff1 : off 1 = 128 * t.val)
    (w : S128x128.Idx → Elt F .f32) (hw : ∀ x, w x = valAt m d t (512 * (L 1).val + 256 * (L 0).val + 128 * ch + (x 0).val) (x 1).val)
    (f : S8192x512.Idx → Elt F .f32) :
    ∀ j ∈ ((oV).slice (Rect.unit (s := S8192x512) off S128x128.size inb) (fun _ => rfl)).view.set,
      ((oV).slice (Rect.unit (s := S8192x512) off S128x128.size inb) (fun _ => rfl)).view.writes (Elt F) f [⟨Rect.whole S128x128, w⟩] j = featOf m d 0 j := by
  intro j hj
  obtain ⟨x, _, rfl⟩ := Finset.mem_map.mp hj
  have e0 : ((((oV).slice (Rect.unit (s := S8192x512) off S128x128.size inb) (fun _ => rfl)).view.emb x) 0).val = off 0 + (x 0).val := by
    show off 0 + 1 * (x 0).val = _; rw [Nat.one_mul]
  have e1 : ((((oV).slice (Rect.unit (s := S8192x512) off S128x128.size inb) (fun _ => rfl)).view.emb x) 1).val = off 1 + (x 1).val := by
    show off 1 + 1 * (x 1).val = _; rw [Nat.one_mul]
  have hx1 : (x 1).val < 128 := (x 1).isLt
  have hr := read_writes_whole ((oV).slice (Rect.unit (s := S8192x512) off S128x128.size inb) (fun _ => rfl)).view f w [] x
  rw [View.read_apply] at hr
  rw [featOf_eq m d hpre _ t (by rw [e1, hoff1]; omega), e0, e1, hoff0, hoff1]
  refine Eq.trans ?_ ((hw x).trans ?_)
  · exact (cast_eq _ _).symm.trans hr
  · congr 1; omega

theorem Lbounds : (L 0).val < 2 ∧ (L 1).val < 16 := ⟨(L 0).isLt, (L 1).isLt⟩

theorem tabRead0 (inb : ∀ a, (![0, 0] : Fin 2 → ℕ) a + S100001x128.size a ≤ S100001x128.size a) (y : S100001x128.Idx) :
    View.read (Elt F) ((t0V).slice (Rect.unit (s := S100001x128) ![0, 0] S100001x128.size inb) (fun _ => rfl)).view (tabOf m d 0) y = tabOf m d 0 y := by
  rw [View.read_apply]
  refine (cast_eq _ _).trans (congrArg (tabOf m d 0) ?_)
  funext a; refine Fin.ext ?_
  show (![0, 0] : Fin 2 → ℕ) a + 1 * (y a).val = (y a).val
  match a with
  | 0 => simp
  | 1 => simp
theorem tabRead1 (inb : ∀ a, (![0, 0] : Fin 2 → ℕ) a + S100001x128.size a ≤ S100001x128.size a) (y : S100001x128.Idx) :
    View.read (Elt F) ((t1V).slice (Rect.unit (s := S100001x128) ![0, 0] S100001x128.size inb) (fun _ => rfl)).view (tabOf m d 1) y = tabOf m d 1 y := by
  rw [View.read_apply]
  refine (cast_eq _ _).trans (congrArg (tabOf m d 1) ?_)
  funext a; refine Fin.ext ?_
  show (![0, 0] : Fin 2 → ℕ) a + 1 * (y a).val = (y a).val
  match a with
  | 0 => simp
  | 1 => simp
theorem tabRead2 (inb : ∀ a, (![0, 0] : Fin 2 → ℕ) a + S100001x128.size a ≤ S100001x128.size a) (y : S100001x128.Idx) :
    View.read (Elt F) ((t2V).slice (Rect.unit (s := S100001x128) ![0, 0] S100001x128.size inb) (fun _ => rfl)).view (tabOf m d 2) y = tabOf m d 2 y := by
  rw [View.read_apply]
  refine (cast_eq _ _).trans (congrArg (tabOf m d 2) ?_)
  funext a; refine Fin.ext ?_
  show (![0, 0] : Fin 2 → ℕ) a + 1 * (y a).val = (y a).val
  match a with
  | 0 => simp
  | 1 => simp
theorem tabRead3 (inb : ∀ a, (![0, 0] : Fin 2 → ℕ) a + S100001x128.size a ≤ S100001x128.size a) (y : S100001x128.Idx) :
    View.read (Elt F) ((t3V).slice (Rect.unit (s := S100001x128) ![0, 0] S100001x128.size inb) (fun _ => rfl)).view (tabOf m d 3) y = tabOf m d 3 y := by
  rw [View.read_apply]
  refine (cast_eq _ _).trans (congrArg (tabOf m d 3) ?_)
  funext a; refine Fin.ext ?_
  show (![0, 0] : Fin 2 → ℕ) a + 1 * (y a).val = (y a).val
  match a with
  | 0 => simp
  | 1 => simp

theorem idxRead0 (y : S256.Idx) :
    (View.read (Elt F) ((i0V).slice (Rect.unit (s := S8192) (k0_off1 L) S256.size (k0_off1_inb L)) (fun _ => rfl)).view (idxOf m d 0 0) y).toNat
      = rowOf (idxOf m d 0 0) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 0) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead1 (y : S256.Idx) :
    (View.read (Elt F) ((i1V).slice (Rect.unit (s := S8192) (k0_off1 L) S256.size (k0_off1_inb L)) (fun _ => rfl)).view (idxOf m d 0 1) y).toNat
      = rowOf (idxOf m d 0 1) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 1) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead2 (y : S256.Idx) :
    (View.read (Elt F) ((i2V).slice (Rect.unit (s := S8192) (k0_off1 L) S256.size (k0_off1_inb L)) (fun _ => rfl)).view (idxOf m d 0 2) y).toNat
      = rowOf (idxOf m d 0 2) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 2) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead3 (y : S256.Idx) :
    (View.read (Elt F) ((i3V).slice (Rect.unit (s := S8192) (k0_off1 L) S256.size (k0_off1_inb L)) (fun _ => rfl)).view (idxOf m d 0 3) y).toNat
      = rowOf (idxOf m d 0 3) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 3) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega

/-- A squeezed one-row slice of the index scratch reads the scratch at its row, from its column. -/
theorem offsRead (t c : ℕ) (inb : ∀ a, (![t, c] : Fin 2 → ℕ) a + (![1, 128] : Fin 2 → ℕ) a ≤ S4x256.size a)
    (hq : (Rect.unit (s := S4x256) ![t, c] ![1, 128] inb).shape.Squeezes S128)
    (X : S4x256.Idx → Elt F .i32) (y : S128.Idx) (J : S4x256.Idx) (hJ0 : (J 0).val = t) (hJ1 : (J 1).val = c + (y 0).val) :
    View.read (Elt F) (((xV).slice (Rect.unit (s := S4x256) ![t, c] ![1, 128] inb) (fun _ => rfl)).squeeze S128 hq).view X y = X J := by
  rw [View.read_apply]
  refine (cast_eq _ _).trans (congrArg X ?_)
  obtain ⟨h0, h1⟩ := xRow_emb t c 128 inb hq y
  funext a; refine Fin.ext ?_
  match a with
  | 0 => exact h0.trans hJ0.symm
  | 1 => exact h1.trans hJ1.symm

/-- One unit's gather: with the source reading table `t` and the list reading the words `128 ch ..` of the worker's part of
    index slice `t`, the payload is `valAt` of those words. -/
theorem unit_val (t : Fin 4) (ch : ℕ)
    (g : S100001x128.Idx → Elt F .f32) (hg : ∀ y, g y = tabOf m d t y)
    (idf : S128.Idx → Elt F .i32)
    (hidf : ∀ y, (idf y).toNat = rowOf (idxOf m d 0 t) (512 * (L 1).val + 256 * (L 0).val + 128 * ch + (y 0).val))
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = valAt m d t (512 * (L 1).val + 256 * (L 0).val + 128 * ch + (x 0).val) (x 1).val := by
  have hx1 : (x 1).val < 128 := (x 1).isLt
  have hlt : (idf (ix1 (x 0))).toNat < 100001 := hin _
  rw [gather_val, hg, valAt, ← hidf (ix1 (x 0)), tabAt, dif_pos ⟨hlt, hx1⟩]
  rfl

end Value

end Cert.KernelIdeal.Sc

end
-- ==== Proof.ScTile0.lean ====
/-
  One vector subcore's task of the first SparseCore call: run from its first copy to its return, it leaves the index
  slices and the tables as they were and its strip of the feature array at the gathered rows.

  The four index copies and their waits, the eight indirect gathers (two in flight at a time, each on its own semaphore,
  each reading its table through one half of the task's read share and its offsets through its own 128 words of the
  index scratch), the eight write-outs and all the waits are stepped in program order; the offsets are in range
  because the scratch then holds words of the index slices, which the precondition bounds. Each rectangle of the strip
  is written once, by its own unit, with the payload of that unit's gather; the eight rectangles tile the strip.
-/
import proofs.«212020_g4707284156877_cont_8to1c4_553_54_alg».proof.Proof.ScTile0Lib

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

section Body
variable [FloatOps F] (d : Dev nD) (L : grid0.Coords)

local notation "i0V" => (Memref.whole Cert.KernelIdeal.main_v0_scv : Memref Cert.KernelIdeal.sig Kind.scVector Space.hbm Cert.KernelIdeal.S8192 EltTy.i32)
local notation "i1V" => (Memref.whole Cert.KernelIdeal.main_v1_scv : Memref Cert.KernelIdeal.sig Kind.scVector Space.hbm Cert.KernelIdeal.S8192 EltTy.i32)
local notation "i2V" => (Memref.whole Cert.KernelIdeal.main_v2_scv : Memref Cert.KernelIdeal.sig Kind.scVector Space.hbm Cert.KernelIdeal.S8192 EltTy.i32)
local notation "i3V" => (Memref.whole Cert.KernelIdeal.main_v3_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v4_scv : Memref Cert.KernelIdeal.sig Kind.scVector Space.hbm Cert.KernelIdeal.S8192x512 EltTy.f32)
local notation "xV" => (Memref.whole Cert.KernelIdeal.cc0_scratch0 : Memref Cert.KernelIdeal.sig Kind.scVector Space.vmem Cert.KernelIdeal.S4x256 EltTy.i32)
local notation "b0V" => (Memref.whole Cert.KernelIdeal.cc0_scratch1 : Memref Cert.KernelIdeal.sig Kind.scVector Space.vmem Cert.KernelIdeal.S128x128 EltTy.f32)
local notation "b1V" => (Memref.whole Cert.KernelIdeal.cc0_scratch2 : Memref Cert.KernelIdeal.sig Kind.scVector Space.vmem Cert.KernelIdeal.S128x128 EltTy.f32)
local notation "b2V" => (Memref.whole Cert.KernelIdeal.cc0_scratch3 : Memref Cert.KernelIdeal.sig Kind.scVector Space.vmem Cert.KernelIdeal.S128x128 EltTy.f32)
local notation "b3V" => (Memref.whole Cert.KernelIdeal.cc0_scratch4 : Memref Cert.KernelIdeal.sig Kind.scVector Space.vmem Cert.KernelIdeal.S128x128 EltTy.f32)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]; rfl

/-- A task's operands, one by one: the four index slices, the four tables, its strip of the feature array. -/
theorem goAt0_eq (c : Fin 2) (i : Fin 16) (f : S8192x512.Idx → Elt F .f32) :
    (iprop(readsPts m d 0 (shV c i) ∗ stripPts d (wid c i) f 0) : sProp 𝕄)
      = iprop(((((TT d).loc main_v0 ↦{shV c i} idxOf m d 0 0) ∗ ((TT d).loc main_v1 ↦{shV c i} idxOf m d 0 1)
            ∗ ((TT d).loc main_v2 ↦{shV c i} idxOf m d 0 2) ∗ ((TT d).loc main_v3 ↦{shV c i} idxOf m d 0 3))
          ∗ (((TT d).loc main_arg4 ↦{shV c i} tabOf m d 0) ∗ ((TT d).loc main_arg5 ↦{shV c i} tabOf m d 1)
            ∗ ((TT d).loc main_arg6 ↦{shV c i} tabOf m d 2) ∗ ((TT d).loc main_arg7 ↦{shV c i} tabOf m d 3)))
          ∗ ((TT d).loc main_v4 ↦[oRowSet (wid c i)]{fullShare} f)) := by
  unfold readsPts; rw [bigSep_fin4, bigSep_fin4]; rfl

omit [FloatOps F] in
theorem waits_ins {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with rfl | hp
  · exact .inr rfl
  · exact h p hp

set_option maxHeartbeats 8000000 in
theorem tile_run0 (hF : (K (F := F)).Facts) (hpre : PreOK m) (O : CellTallies nD τ sig (HIx 2)) (W : Waits sig (HIx 2)) (hO : ∀ g, O g none = 0) :
    iprop(levAts (K (F := F)).L (K (F := F)).lev ∗ emp ∗ goAt m d 0 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  simp only [cellList, semList, List.map_cons, List.map_nil, List.foldr_cons, List.foldr_nil, cellOf]
  unfold goAt tdAt
  rw [goAt0_eq, goAt0_eq, strip_split L d (feat0 m d 0), strip_split L d (featOf m d 0)]
  iintro ⟨#Hlv, -, ⟨⟨⟨Hi0, Hi1, Hi2, Hi3⟩, ⟨Ht0, Ht1, Ht2, Ht3⟩⟩, ⟨Ho0, Ho1, Ho2, Ho3, Ho4, Ho5, Ho6, Ho7⟩⟩, ⟨⟨%fx, Hx⟩, ⟨%fb0, Hb0⟩, ⟨%fb1, Hb1⟩, ⟨%fb2, Hb2⟩, ⟨%fb3, Hb3⟩, Hbufs⟩,
    ⟨Hg0, Hg1, Hg2, Hg3, Hw0, Hw1, Hw2, Hw3, Hs0, Hs1, Hs2, Hs3, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi0' := (Entails.of_eq (show ((TT d).loc main_v0 ↦{shV (cL L) (iL L)} idxOf m d 0 0 : sProp 𝕄) = (i0V).view.loc (V d (cV L) (jV L)) ↦{shV (cL L) (iL L)} idxOf m d 0 0 from rfl)) $$ Hi0
  ihave Hi1' := (Entails.of_eq (show ((TT d).loc main_v1 ↦{shV (cL L) (iL L)} idxOf m d 0 1 : sProp 𝕄) = (i1V).view.loc (V d (cV L) (jV L)) ↦{shV (cL L) (iL L)} idxOf m d 0 1 from rfl)) $$ Hi1
  ihave Hi2' := (Entails.of_eq (show ((TT d).loc main_v2 ↦{shV (cL L) (iL L)} idxOf m d 0 2 : sProp 𝕄) = (i2V).view.loc (V d (cV L) (jV L)) ↦{shV (cL L) (iL L)} idxOf m d 0 2 from rfl)) $$ Hi2
  ihave Hi3' := (Entails.of_eq (show ((TT d).loc main_v3 ↦{shV (cL L) (iL L)} idxOf m d 0 3 : sProp 𝕄) = (i3V).view.loc (V d (cV L) (jV L)) ↦{shV (cL L) (iL L)} idxOf m d 0 3 from rfl)) $$ Hi3
  ihave Ht0' := (Entails.of_eq (show ((TT d).loc main_arg4 ↦{shV (cL L) (iL L)} tabOf m d 0 : sProp 𝕄) = (t0V).view.loc (V d (cV L) (jV L)) ↦{shV (cL L) (iL L)} tabOf m d 0 from rfl)) $$ Ht0
  ihave Ht1' := (Entails.of_eq (show ((TT d).loc main_arg5 ↦{shV (cL L) (iL L)} tabOf m d 1 : sProp 𝕄) = (t1V).view.loc (V d (cV L) (jV L)) ↦{shV (cL L) (iL L)} tabOf m d 1 from rfl)) $$ Ht1
  ihave Ht2' := (Entails.of_eq (show ((TT d).loc main_arg6 ↦{shV (cL L) (iL L)} tabOf m d 2 : sProp 𝕄) = (t2V).view.loc (V d (cV L) (jV L)) ↦{shV (cL L) (iL L)} tabOf m d 2 from rfl)) $$ Ht2
  ihave Ht3' := (Entails.of_eq (show ((TT d).loc main_arg7 ↦{shV (cL L) (iL L)} tabOf m d 3 : sProp 𝕄) = (t3V).view.loc (V d (cV L) (jV L)) ↦{shV (cL L) (iL L)} tabOf m d 3 from rfl)) $$ Ht3
  ihave Hx' := (Entails.of_eq (show ((V d (cV L) (jV L)).loc cc0_scratch0 ↦{fullShare} fx : sProp 𝕄) = (xV).view.loc (V d (cV L) (jV L)) ↦{fullShare} fx from rfl)) $$ Hx
  ihave Hb0' := (Entails.of_eq (show ((V d (cV L) (jV L)).loc cc0_scratch1 ↦{fullShare} fb0 : sProp 𝕄) = (b0V).view.loc (V d (cV L) (jV L)) ↦{fullShare} fb0 from rfl)) $$ Hb0
  ihave Hb1' := (Entails.of_eq (show ((V d (cV L) (jV L)).loc cc0_scratch2 ↦{fullShare} fb1 : sProp 𝕄) = (b1V).view.loc (V d (cV L) (jV L)) ↦{fullShare} fb1 from rfl)) $$ Hb1
  ihave Hb2' := (Entails.of_eq (show ((V d (cV L) (jV L)).loc cc0_scratch3 ↦{fullShare} fb2 : sProp 𝕄) = (b2V).view.loc (V d (cV L) (jV L)) ↦{fullShare} fb2 from rfl)) $$ Hb2
  ihave Hb3' := (Entails.of_eq (show ((V d (cV L) (jV L)).loc cc0_scratch4 ↦{fullShare} fb3 : sProp 𝕄) = (b3V).view.loc (V d (cV L) (jV L)) ↦{fullShare} fb3 from rfl)) $$ Hb3
  ihave Ht0s := (pointsTo_share (PosShare.mem_left_op_right (shV (cL L) (iL L)))).1 $$ Ht0'
  icases Ht0s with ⟨Ht0a, Ht0b⟩
  ihave Ht1s := (pointsTo_share (PosShare.mem_left_op_right (shV (cL L) (iL L)))).1 $$ Ht1'
  icases Ht1s with ⟨Ht1a, Ht1b⟩
  ihave Ht2s := (pointsTo_share (PosShare.mem_left_op_right (shV (cL L) (iL L)))).1 $$ Ht2'
  icases Ht2s with ⟨Ht2a, Ht2b⟩
  ihave Ht3s := (pointsTo_share (PosShare.mem_left_op_right (shV (cL L) (iL L)))).1 $$ Ht3'
  icases Ht3s with ⟨Ht3a, Ht3b⟩
  sl_exec
  ihave Hx2 := (Entails.of_eq (pointsTo_congr (q := fullShare) (I := Finset.univ) (fun j _ => scratch_eq fx (tile_run0.sl.dma0 m d L) (tile_run0.sl.dma0_1 m d L) (tile_run0.sl.dma0_2 m d L) (tile_run0.sl.dma0_3 m d L) j))) $$ Hx'
  have hp0 : ∀ x, (tile_run0.sl.dma0 m d L x).toNat ≤ 99999 := fun x => by
    show (idxOf m d 0 0 (((i0V).slice (Rect.unit (s := S8192) (k0_off1 L) S256.size (k0_off1_inb L)) (fun _ => rfl)).view.emb x)).toNat ≤ 99999
    exact idxOf_le m hpre d 0 0 _
  have hp1 : ∀ x, (tile_run0.sl.dma0_1 m d L x).toNat ≤ 99999 := fun x => by
    show (idxOf m d 0 1 (((i1V).slice (Rect.unit (s := S8192) (k0_off1 L) S256.size (k0_off1_inb L)) (fun _ => rfl)).view.emb x)).toNat ≤ 99999
    exact idxOf_le m hpre d 0 1 _
  have hp2 : ∀ x, (tile_run0.sl.dma0_2 m d L x).toNat ≤ 99999 := fun x => by
    show (idxOf m d 0 2 (((i2V).slice (Rect.unit (s := S8192) (k0_off1 L) S256.size (k0_off1_inb L)) (fun _ => rfl)).view.emb x)).toNat ≤ 99999
    exact idxOf_le m hpre d 0 2 _
  have hp3 : ∀ x, (tile_run0.sl.dma0_3 m d L x).toNat ≤ 99999 := fun x => by
    show (idxOf m d 0 3 (((i3V).slice (Rect.unit (s := S8192) (k0_off1 L) S256.size (k0_off1_inb L)) (fun _ => rfl)).view.emb x)).toNat ≤ 99999
    exact idxOf_le m hpre d 0 3 _
  have hin0 := hin_xFill (tile_run0.sl.dma0 m d L) (tile_run0.sl.dma0_1 m d L) (tile_run0.sl.dma0_2 m d L) (tile_run0.sl.dma0_3 m d L) hp0 hp1 hp2 hp3 (Rect.unit (s := S4x256) ![0, 0] S1x128.size inb_S4x256_S1x128_0_0) (fun _ => rfl) squeezes_S1x128_S128
  have hin1 := hin_xFill (tile_run0.sl.dma0 m d L) (tile_run0.sl.dma0_1 m d L) (tile_run0.sl.dma0_2 m d L) (tile_run0.sl.dma0_3 m d L) hp0 hp1 hp2 hp3 (Rect.unit (s := S4x256) ![0, 128] S1x128.size inb_S4x256_S1x128_0_128) (fun _ => rfl) squeezes_S1x128_S128
  have hin2 := hin_xFill (tile_run0.sl.dma0 m d L) (tile_run0.sl.dma0_1 m d L) (tile_run0.sl.dma0_2 m d L) (tile_run0.sl.dma0_3 m d L) hp0 hp1 hp2 hp3 (Rect.unit (s := S4x256) ![1, 0] S1x128.size inb_S4x256_S1x128_1_0) (fun _ => rfl) squeezes_S1x128_S128
  have hin3 := hin_xFill (tile_run0.sl.dma0 m d L) (tile_run0.sl.dma0_1 m d L) (tile_run0.sl.dma0_2 m d L) (tile_run0.sl.dma0_3 m d L) hp0 hp1 hp2 hp3 (Rect.unit (s := S4x256) ![1, 128] S1x128.size inb_S4x256_S1x128_1_128) (fun _ => rfl) squeezes_S1x128_S128
  have hin4 := hin_xFill (tile_run0.sl.dma0 m d L) (tile_run0.sl.dma0_1 m d L) (tile_run0.sl.dma0_2 m d L) (tile_run0.sl.dma0_3 m d L) hp0 hp1 hp2 hp3 (Rect.unit (s := S4x256) ![2, 0] S1x128.size inb_S4x256_S1x128_2_0) (fun _ => rfl) squeezes_S1x128_S128
  have hin5 := hin_xFill (tile_run0.sl.dma0 m d L) (tile_run0.sl.dma0_1 m d L) (tile_run0.sl.dma0_2 m d L) (tile_run0.sl.dma0_3 m d L) hp0 hp1 hp2 hp3 (Rect.unit (s := S4x256) ![2, 128] S1x128.size inb_S4x256_S1x128_2_128) (fun _ => rfl) squeezes_S1x128_S128
  have hin6 := hin_xFill (tile_run0.sl.dma0 m d L) (tile_run0.sl.dma0_1 m d L) (tile_run0.sl.dma0_2 m d L) (tile_run0.sl.dma0_3 m d L) hp0 hp1 hp2 hp3 (Rect.unit (s := S4x256) ![3, 0] S1x128.size inb_S4x256_S1x128_3_0) (fun _ => rfl) squeezes_S1x128_S128
  have hin7 := hin_xFill (tile_run0.sl.dma0 m d L) (tile_run0.sl.dma0_1 m d L) (tile_run0.sl.dma0_2 m d L) (tile_run0.sl.dma0_3 m d L) hp0 hp1 hp2 hp3 (Rect.unit (s := S4x256) ![3, 128] S1x128.size inb_S4x256_S1x128_3_128) (fun _ => rfl) squeezes_S1x128_S128
  sl_exec
  sl_step
  have hw0 : ∀ x, tile_run0.sl.dma0_4 m d L fb0 hin0 x
      = valAt m d 0 (512 * (L 1).val + 256 * (L 0).val + 128 * 0 + (x 0).val) (x 1).val := fun x =>
    (read_writes_whole (b0V).view fb0 _ _ x).trans
      (unit_val m d L 0 0 _ (tabRead0 m d inb_S100001x128_S100001x128_0_0) _
        (fun y => (congrArg BitVec.toNat (offsRead 0 0 inb_S4x256_S1x128_0_0 squeezes_S1x128_S128
              (xFill (tile_run0.sl.dma0 m d L) (tile_run0.sl.dma0_1 m d L) (tile_run0.sl.dma0_2 m d L) (tile_run0.sl.dma0_3 m d L)) y
              (ix2 ⟨0, by decide⟩ ⟨0 + (y 0).val, by have h : (y 0).val < 128 := (y 0).isLt; omega⟩) rfl rfl)).trans
          ((idxRead0 m d L _).trans (congrArg (rowOf (idxOf m d 0 0))
            (by show 512 * (L 1).val + 256 * (L 0).val + (0 + (y 0).val) = _; omega)))) _ hin0 x)
  have hw1 : ∀ x, tile_run0.sl.dma0_5 m d L fb1 hin1 x
      = valAt m d 0 (512 * (L 1).val + 256 * (L 0).val + 128 * 1 + (x 0).val) (x 1).val := fun x =>
    (read_writes_whole (b1V).view fb1 _ _ x).trans
      (unit_val m d L 0 1 _ (tabRead0 m d inb_S100001x128_S100001x128_0_0) _
        (fun y => (congrArg BitVec.toNat (offsRead 0 128 inb_S4x256_S1x128_0_128 squeezes_S1x128_S128
              (xFill (tile_run0.sl.dma0 m d L) (tile_run0.sl.dma0_1 m d L) (tile_run0.sl.dma0_2 m d L) (tile_run0.sl.dma0_3 m d L)) y
              (ix2 ⟨0, by decide⟩ ⟨128 + (y 0).val, by have h : (y 0).val < 128 := (y 0).isLt; omega⟩) rfl rfl)).trans
          ((idxRead0 m d L _).trans (congrArg (rowOf (idxOf m d 0 0))
            (by show 512 * (L 1).val + 256 * (L 0).val + (128 + (y 0).val) = _; omega)))) _ hin1 x)
  have hw2 : ∀ x, tile_run0.sl.dma0_6 m d L fb2 hin2 x
      = valAt m d 1 (512 * (L 1).val + 256 * (L 0).val + 128 * 0 + (x 0).val) (x 1).val := fun x =>
    (read_writes_whole (b2V).view fb2 _ _ x).trans
      (unit_val m d L 1 0 _ (tabRead1 m d inb_S100001x128_S100001x128_0_0) _
        (fun y => (congrArg BitVec.toNat (offsRead 1 0 inb_S4x256_S1x128_1_0 squeezes_S1x128_S128
              (xFill (tile_run0.sl.dma0 m d L) (tile_run0.sl.dma0_1 m d L) (tile_run0.sl.dma0_2 m d L) (tile_run0.sl.dma0_3 m d L)) y
              (ix2 ⟨1, by decide⟩ ⟨0 + (y 0).val, by have h : (y 0).val < 128 := (y 0).isLt; omega⟩) rfl rfl)).trans
          ((idxRead1 m d L _).trans (congrArg (rowOf (idxOf m d 0 1))
            (by show 512 * (L 1).val + 256 * (L 0).val + (0 + (y 0).val) = _; omega)))) _ hin2 x)
  have hw3 : ∀ x, tile_run0.sl.dma0_7 m d L fb3 hin3 x
      = valAt m d 1 (512 * (L 1).val + 256 * (L 0).val + 128 * 1 + (x 0).val) (x 1).val := fun x =>
    (read_writes_whole (b3V).view fb3 _ _ x).trans
      (unit_val m d L 1 1 _ (tabRead1 m d inb_S100001x128_S100001x128_0_0) _
        (fun y => (congrArg BitVec.toNat (offsRead 1 128 inb_S4x256_S1x128_1_128 squeezes_S1x128_S128
              (xFill (tile_run0.sl.dma0 m d L) (tile_run0.sl.dma0_1 m d L) (tile_run0.sl.dma0_2 m d L) (tile_run0.sl.dma0_3 m d L)) y
              (ix2 ⟨1, by decide⟩ ⟨128 + (y 0).val, by have h : (y 0).val < 128 := (y 0).isLt; omega⟩) rfl rfl)).trans
          ((idxRead1 m d L _).trans (congrArg (rowOf (idxOf m d 0 1))
            (by show 512 * (L 1).val + 256 * (L 0).val + (128 + (y 0).val) = _; omega)))) _ hin3 x)
  have hw4 : ∀ x, tile_run0.sl.dma0_8 m d L fb0 hin0 hin4 x
      = valAt m d 2 (512 * (L 1).val + 256 * (L 0).val + 128 * 0 + (x 0).val) (x 1).val := fun x =>
    (read_writes_whole (b0V).view fb0 _ _ x).trans
      (unit_val m d L 2 0 _ (tabRead2 m d inb_S100001x128_S100001x128_0_0) _
        (fun y => (congrArg BitVec.toNat (offsRead 2 0 inb_S4x256_S1x128_2_0 squeezes_S1x128_S128
              (xFill (tile_run0.sl.dma0 m d L) (tile_run0.sl.dma0_1 m d L) (tile_run0.sl.dma0_2 m d L) (tile_run0.sl.dma0_3 m d L)) y
              (ix2 ⟨2, by decide⟩ ⟨0 + (y 0).val, by have h : (y 0).val < 128 := (y 0).isLt; omega⟩) rfl rfl)).trans
          ((idxRead2 m d L _).trans (congrArg (rowOf (idxOf m d 0 2))
            (by show 512 * (L 1).val + 256 * (L 0).val + (0 + (y 0).val) = _; omega)))) _ hin4 x)
  have hw5 : ∀ x, tile_run0.sl.dma0_9 m d L fb1 hin1 hin5 x
      = valAt m d 2 (512 * (L 1).val + 256 * (L 0).val + 128 * 1 + (x 0).val) (x 1).val := fun x =>
    (read_writes_whole (b1V).view fb1 _ _ x).trans
      (unit_val m d L 2 1 _ (tabRead2 m d inb_S100001x128_S100001x128_0_0) _
        (fun y => (congrArg BitVec.toNat (offsRead 2 128 inb_S4x256_S1x128_2_128 squeezes_S1x128_S128
              (xFill (tile_run0.sl.dma0 m d L) (tile_run0.sl.dma0_1 m d L) (tile_run0.sl.dma0_2 m d L) (tile_run0.sl.dma0_3 m d L)) y
              (ix2 ⟨2, by decide⟩ ⟨128 + (y 0).val, by have h : (y 0).val < 128 := (y 0).isLt; omega⟩) rfl rfl)).trans
          ((idxRead2 m d L _).trans (congrArg (rowOf (idxOf m d 0 2))
            (by show 512 * (L 1).val + 256 * (L 0).val + (128 + (y 0).val) = _; omega)))) _ hin5 x)
  have hw6 : ∀ x, tile_run0.sl.dma0_10 m d L fb2 hin2 hin6 x
      = valAt m d 3 (512 * (L 1).val + 256 * (L 0).val + 128 * 0 + (x 0).val) (x 1).val := fun x =>
    (read_writes_whole (b2V).view fb2 _ _ x).trans
      (unit_val m d L 3 0 _ (tabRead3 m d inb_S100001x128_S100001x128_0_0) _
        (fun y => (congrArg BitVec.toNat (offsRead 3 0 inb_S4x256_S1x128_3_0 squeezes_S1x128_S128
              (xFill (tile_run0.sl.dma0 m d L) (tile_run0.sl.dma0_1 m d L) (tile_run0.sl.dma0_2 m d L) (tile_run0.sl.dma0_3 m d L)) y
              (ix2 ⟨3, by decide⟩ ⟨0 + (y 0).val, by have h : (y 0).val < 128 := (y 0).isLt; omega⟩) rfl rfl)).trans
          ((idxRead3 m d L _).trans (congrArg (rowOf (idxOf m d 0 3))
            (by show 512 * (L 1).val + 256 * (L 0).val + (0 + (y 0).val) = _; omega)))) _ hin6 x)
  have hw7 : ∀ x, tile_run0.sl.dma0_11 m d L fb3 hin3 hin7 x
      = valAt m d 3 (512 * (L 1).val + 256 * (L 0).val + 128 * 1 + (x 0).val) (x 1).val := fun x =>
    (read_writes_whole (b3V).view fb3 _ _ x).trans
      (unit_val m d L 3 1 _ (tabRead3 m d inb_S100001x128_S100001x128_0_0) _
        (fun y => (congrArg BitVec.toNat (offsRead 3 128 inb_S4x256_S1x128_3_128 squeezes_S1x128_S128
              (xFill (tile_run0.sl.dma0 m d L) (tile_run0.sl.dma0_1 m d L) (tile_run0.sl.dma0_2 m d L) (tile_run0.sl.dma0_3 m d L)) y
              (ix2 ⟨3, by decide⟩ ⟨128 + (y 0).val, by have h : (y 0).val < 128 := (y 0).isLt; omega⟩) rfl rfl)).trans
          ((idxRead3 m d L _).trans (congrArg (rowOf (idxOf m d 0 3))
            (by show 512 * (L 1).val + 256 * (L 0).val + (128 + (y 0).val) = _; omega)))) _ hin7 x)
  isplitl [Hi0' Hi1' Hi2' Hi3' Ht0a Ht0b Ht1a Ht1b Ht2a Ht2b Ht3a Ht3b Ho0 Ho1 Ho2 Ho3 Ho4 Ho5 Ho6 Ho7]
  · isplitl [Hi0' Hi1' Hi2' Hi3' Ht0a Ht0b Ht1a Ht1b Ht2a Ht2b Ht3a Ht3b]
    · isplitl [Hi0' Hi1' Hi2' Hi3']
      · isplitl [Hi0']; · iexact Hi0'
        isplitl [Hi1']; · iexact Hi1'
        isplitl [Hi2']; · iexact Hi2'
        iexact Hi3'
      isplitl [Ht0a Ht0b]
      · iapply (pointsTo_share (PosShare.mem_left_op_right (shV (cL L) (iL L)))).2
        isplitl [Ht0a]; · iexact Ht0a
        iexact Ht0b
      isplitl [Ht1a Ht1b]
      · iapply (pointsTo_share (PosShare.mem_left_op_right (shV (cL L) (iL L)))).2
        isplitl [Ht1a]; · iexact Ht1a
        iexact Ht1b
      isplitl [Ht2a Ht2b]
      · iapply (pointsTo_share (PosShare.mem_left_op_right (shV (cL L) (iL L)))).2
        isplitl [Ht2a]; · iexact Ht2a
        iexact Ht2b
      iapply (pointsTo_share (PosShare.mem_left_op_right (shV (cL L) (iL L)))).2
      isplitl [Ht3a]; · iexact Ht3a
      iexact Ht3b
    isplitl [Ho0]
    · iapply (Entails.of_eq (pointsTo_congr (rect_val m d L hpre (k0_off2 L 0#32) (k0_off2_inb L 0) 0 0
          (congrFun (k0_off2_eq L 0) 0) (congrFun (k0_off2_eq L 0) 1) _ hw0 (feat0 m d 0))))
      iexact Ho0
    isplitl [Ho1]
    · iapply (Entails.of_eq (pointsTo_congr (rect_val m d L hpre (k0_off2 L 128#32) (k0_off2_inb L 1) 0 1
          (congrFun (k0_off2_eq L 1) 0) (congrFun (k0_off2_eq L 1) 1) _ hw1 (feat0 m d 0))))
      iexact Ho1
    isplitl [Ho2]
    · iapply (Entails.of_eq (pointsTo_congr (rect_val m d L hpre (k0_off3 L 0#32) (k0_off3_inb L 0) 1 0
          (congrFun (k0_off3_eq L 0) 0) (congrFun (k0_off3_eq L 0) 1) _ hw2 (feat0 m d 0))))
      iexact Ho2
    isplitl [Ho3]
    · iapply (Entails.of_eq (pointsTo_congr (rect_val m d L hpre (k0_off3 L 128#32) (k0_off3_inb L 1) 1 1
          (congrFun (k0_off3_eq L 1) 0) (congrFun (k0_off3_eq L 1) 1) _ hw3 (feat0 m d 0))))
      iexact Ho3
    isplitl [Ho4]
    · iapply (Entails.of_eq (pointsTo_congr (rect_val m d L hpre (k0_off4 L 0#32) (k0_off4_inb L 0) 2 0
          (congrFun (k0_off4_eq L 0) 0) (congrFun (k0_off4_eq L 0) 1) _ hw4 (feat0 m d 0))))
      iexact Ho4
    isplitl [Ho5]
    · iapply (Entails.of_eq (pointsTo_congr (rect_val m d L hpre (k0_off4 L 128#32) (k0_off4_inb L 1) 2 1
          (congrFun (k0_off4_eq L 1) 0) (congrFun (k0_off4_eq L 1) 1) _ hw5 (feat0 m d 0))))
      iexact Ho5
    isplitl [Ho6]
    · iapply (Entails.of_eq (pointsTo_congr (rect_val m d L hpre (k0_off5 L 0#32) (k0_off5_inb L 0) 3 0
          (congrFun (k0_off5_eq L 0) 0) (congrFun (k0_off5_eq L 0) 1) _ hw6 (feat0 m d 0))))
      iexact Ho6
    iapply (Entails.of_eq (pointsTo_congr (rect_val m d L hpre (k0_off5 L 128#32) (k0_off5_inb L 1) 3 1
        (congrFun (k0_off5_eq L 1) 0) (congrFun (k0_off5_eq L 1) 1) _ hw7 (feat0 m d 0))))
    iexact Ho7
  isplitl [Hx2 Hb0' Hb1' Hb2' Hb3' Hbufs]
  · isplitl [Hx2]; · iexists _; iexact Hx2
    isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hg0 Hg1 Hg2 Hg3 Hw0 Hw1 Hw2 Hw3 Hs0 Hs1 Hs2 Hs3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    isplitl [Hs2]; · iexact Hs2
    isplitl [Hs3]; · iexact Hs3
    iexact Hsems
  iexists _; isplitr
  swap; · iexact HO
  ipureintro
  repeat (first | exact fun p hp => Or.inl hp | refine waits_ins ?_ _)

/-- The task's obligation, in the order of arguments the launch applies it at. -/
theorem tile_body0 (m : (ℓ : Loc nD τ sig) → Buf (Elt F) ℓ) (hF : (K (F := F)).Facts) (hpre : PreOK m) (d : Dev nD) (L : grid0.Coords) (O : CellTallies nD τ sig (HIx 2)) (W : Waits sig (HIx 2)) (hO : ∀ g, O g none = 0) :
    iprop(levAts (K (F := F)).L (K (F := F)).lev ∗ emp ∗ goAt m d 0 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_run0 m d L hF hpre O W hO

end Body
end Cert.KernelIdeal.Sc

end
-- ==== Proof.ScTile1Lib.lean ====
/-
  One vector subcore's task of the second SparseCore call, the pieces its proof is made of.

  The task owns rows `[256 w, 256 w + 256)` of the call's 8192 × 512 feature array, `w = 2 s + c`. It copies its 256
  words of each of the four index slices into the four rows of its index scratch, and then, eight times, gathers 128
  table rows named by 128 of those words into a row buffer and writes the buffer out to one 128 × 128 rectangle of its
  strip: unit `2 t + ch` reads table `t` at the words `128 ch .. 128 ch + 128` of row `t` of the scratch and writes
  rows `256 w + 128 ch ..`, columns `128 t ..` of the feature array.

  Here: the subcore's own buffers and semaphores opened into the task's five scratch buffers and twelve DMA semaphores;
  the strip as the disjoint union of the eight rectangles; what the index scratch holds once the four copies have
  landed, and that every word of it names a table row; and the value of a rectangle after its write-out — column
  `k mod 128` of the row of table `k / 128` that the example's index word names, the call's feature array there.
-/
import proofs.«212020_g4707284156877_cont_8to1c4_553_54_alg».proof.Proof.ScSetup

noncomputable section

namespace Cert.KernelIdeal.Sc.C1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-- A separating conjunction over a finite set, with the terms of a duplicate-free list of its members taken out in order. -/
theorem bigSep_list_split {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by simp
  | a :: l, s, hnd, hs => by
    have ha : a ∈ s := hs a (List.mem_cons_self)
    have hnd' := List.nodup_cons.mp hnd
    rw [bigSep_erase ha, bigSep_list_split Φ l (s.erase a) hnd'.2 (fun x hx => Finset.mem_erase.mpr
      ⟨fun e => hnd'.1 (e ▸ hx), hs x (List.mem_cons_of_mem _ hx)⟩)]
    have : s.erase a \ l.toFinset = s \ (a :: l).toFinset := by
      ext x; simp only [Finset.mem_sdiff, Finset.mem_erase, List.toFinset_cons, Finset.mem_insert, List.mem_toFinset]; tauto
    rw [this]; rfl

section Tile

variable (d : Dev nD) (L : grid2.Coords)

/-- The SparseCore and the vector subcore a grid point names, as the thread's coordinates and as numbers below the grid's bounds. -/
abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

local notation "i0V" => (Memref.whole Cert.KernelIdeal.main_v15_scv : Memref Cert.KernelIdeal.sig Kind.scVector Space.hbm Cert.KernelIdeal.S8192 EltTy.i32)
local notation "i1V" => (Memref.whole Cert.KernelIdeal.main_v16_scv : Memref Cert.KernelIdeal.sig Kind.scVector Space.hbm Cert.KernelIdeal.S8192 EltTy.i32)
local notation "i2V" => (Memref.whole Cert.KernelIdeal.main_v17_scv : Memref Cert.KernelIdeal.sig Kind.scVector Space.hbm Cert.KernelIdeal.S8192 EltTy.i32)
local notation "i3V" => (Memref.whole Cert.KernelIdeal.main_v18_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v19_scv : Memref Cert.KernelIdeal.sig Kind.scVector Space.hbm Cert.KernelIdeal.S8192x512 EltTy.f32)
local notation "xV" => (Memref.whole Cert.KernelIdeal.cc2_scratch0 : Memref Cert.KernelIdeal.sig Kind.scVector Space.vmem Cert.KernelIdeal.S4x256 EltTy.i32)
local notation "b0V" => (Memref.whole Cert.KernelIdeal.cc2_scratch1 : Memref Cert.KernelIdeal.sig Kind.scVector Space.vmem Cert.KernelIdeal.S128x128 EltTy.f32)
local notation "b1V" => (Memref.whole Cert.KernelIdeal.cc2_scratch2 : Memref Cert.KernelIdeal.sig Kind.scVector Space.vmem Cert.KernelIdeal.S128x128 EltTy.f32)
local notation "b2V" => (Memref.whole Cert.KernelIdeal.cc2_scratch3 : Memref Cert.KernelIdeal.sig Kind.scVector Space.vmem Cert.KernelIdeal.S128x128 EltTy.f32)
local notation "b3V" => (Memref.whole Cert.KernelIdeal.cc2_scratch4 : Memref Cert.KernelIdeal.sig Kind.scVector Space.vmem Cert.KernelIdeal.S128x128 EltTy.f32)

/-- The twelve DMA semaphores of the task, in the order of its parameters: the four gather semaphores, the four write-out
    semaphores, the four scoped semaphores of the index copies. -/
def semList : List (DmaSem sig) :=
  [cc2_scratch5.sem, cc2_scratch6.sem, cc2_scratch7.sem, cc2_scratch8.sem, cc2_scratch9.sem, cc2_scratch10.sem,
   cc2_scratch11.sem, cc2_scratch12.sem, cc2_scoped0.sem, cc2_scoped1.sem, cc2_scoped2.sem, cc2_scoped3.sem]
def cellOf (thr : Thread nD τ) (x : DmaSem sig) : GSem nD τ sig := (thr, SemLoc.dma x)
def cellList (thr : Thread nD τ) : List (GSem nD τ sig) := semList.map (cellOf thr)

theorem cellList_nodup (thr : Thread nD τ) : (cellList thr).Nodup :=
  List.Nodup.map (fun a b h => by simpa [cellOf] using h) (by decide)

theorem cellList_mem (c : Fin τ.nSC) (j : Fin τ.nSub) : ∀ g ∈ cellList (V d c j), g ∈ ownCells (V d c j) := by
  intro g hg
  obtain ⟨x, hx, rfl⟩ := List.mem_map.mp hg
  refine mem_ownCells.mpr ⟨rfl, ?_⟩
  show (SemLoc.dma x : SemLoc sig).isScoped .scVector = true
  clear hg; revert x; unfold semList; decide

/-- The subcore's own semaphores at zero are the task's twelve and the rest. -/
theorem ownSems0_V :
    (ownSems0 (V d (cV L) (jV L)) : sProp 𝕄)
      = (cellList (V d (cV L) (jV L))).foldr (fun x acc => iprop(semVal x 0 ∗ acc))
          (bigSep (ownCells (V d (cV L) (jV L)) \ (cellList (V d (cV L) (jV L))).toFinset) fun g => semVal g 0) := by
  unfold SparseCore.Cfg.ownSems0
  exact bigSep_list_split _ _ _ (cellList_nodup _) (cellList_mem d _ _)

def refList (c : Fin τ.nSC) (j : Fin τ.nSub) : List (DevRef τ sig) :=
  ([cc2_scratch0, cc2_scratch1, cc2_scratch2, cc2_scratch3, cc2_scratch4] : List (Ref sig .scVector)).map (Proc.scVector c j).devRef

theorem scratch_nodup : ([cc2_scratch0, cc2_scratch1, cc2_scratch2, cc2_scratch3, cc2_scratch4] : List (Ref sig .scVector)).Nodup := by decide

theorem refList_nodup (c : Fin τ.nSC) (j : Fin τ.nSub) : (refList c j).Nodup :=
  List.Nodup.map (Proc.devRef_injective _) scratch_nodup

theorem refList_mem (c : Fin τ.nSC) (j : Fin τ.nSub) : ∀ b ∈ refList c j, b ∈ ownRefs (τ := τ) (.scVector c j) := by
  intro b hb
  simp only [refList, List.map_cons, List.map_nil, List.mem_cons, List.not_mem_nil, or_false] at hb
  rcases hb with rfl | rfl | rfl | rfl | rfl <;> exact SparseCore.Cfg.mem_ownRefs_of_owner (p := Proc.scVector c j) rfl

/-- The subcore's own buffers are the task's five scratch buffers, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ (∃ f, (V d (cV L) (jV L)).loc cc2_scratch4 ↦{fullShare} f)
          ∗ bigSep (ownRefs (τ := τ) (.scVector (cV L) (jV L)) \ (refList (cV L) (jV L)).toFinset)
              fun b => iprop(∃ f, ((d, b) : Loc nD τ sig) ↦{fullShare} f)) := by
  unfold SparseCore.Cfg.ownBufs
  exact bigSep_list_split _ _ _ (refList_nodup _ _) (refList_mem _ _)

end Tile

section Geo
variable (L : grid2.Coords)

local notation "i0V" => (Memref.whole Cert.KernelIdeal.main_v15_scv : Memref Cert.KernelIdeal.sig Kind.scVector Space.hbm Cert.KernelIdeal.S8192 EltTy.i32)
local notation "i1V" => (Memref.whole Cert.KernelIdeal.main_v16_scv : Memref Cert.KernelIdeal.sig Kind.scVector Space.hbm Cert.KernelIdeal.S8192 EltTy.i32)
local notation "i2V" => (Memref.whole Cert.KernelIdeal.main_v17_scv : Memref Cert.KernelIdeal.sig Kind.scVector Space.hbm Cert.KernelIdeal.S8192 EltTy.i32)
local notation "i3V" => (Memref.whole Cert.KernelIdeal.main_v18_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v19_scv : Memref Cert.KernelIdeal.sig Kind.scVector Space.hbm Cert.KernelIdeal.S8192x512 EltTy.f32)
local notation "xV" => (Memref.whole Cert.KernelIdeal.cc2_scratch0 : Memref Cert.KernelIdeal.sig Kind.scVector Space.vmem Cert.KernelIdeal.S4x256 EltTy.i32)
local notation "b0V" => (Memref.whole Cert.KernelIdeal.cc2_scratch1 : Memref Cert.KernelIdeal.sig Kind.scVector Space.vmem Cert.KernelIdeal.S128x128 EltTy.f32)
local notation "b1V" => (Memref.whole Cert.KernelIdeal.cc2_scratch2 : Memref Cert.KernelIdeal.sig Kind.scVector Space.vmem Cert.KernelIdeal.S128x128 EltTy.f32)
local notation "b2V" => (Memref.whole Cert.KernelIdeal.cc2_scratch3 : Memref Cert.KernelIdeal.sig Kind.scVector Space.vmem Cert.KernelIdeal.S128x128 EltTy.f32)
local notation "b3V" => (Memref.whole Cert.KernelIdeal.cc2_scratch4 : Memref Cert.KernelIdeal.sig Kind.scVector Space.vmem Cert.KernelIdeal.S128x128 EltTy.f32)

/-- The eight 128 × 128 rectangles of the feature array the task writes, unit `2 t + ch` at rows
    `256 w + 128 ch` and columns `128 t`, as the program slices them. -/
abbrev oS0 (L : grid2.Coords) : Memref sig .scVector .hbm S128x128 .f32 := (oV).slice (Rect.unit (s := S8192x512) (k2_off2 L 0#32) S128x128.size (k2_off2_inb L 0)) (fun _ => rfl)
abbrev oS1 (L : grid2.Coords) : Memref sig .scVector .hbm S128x128 .f32 := (oV).slice (Rect.unit (s := S8192x512) (k2_off2 L 128#32) S128x128.size (k2_off2_inb L 1)) (fun _ => rfl)
abbrev oS2 (L : grid2.Coords) : Memref sig .scVector .hbm S128x128 .f32 := (oV).slice (Rect.unit (s := S8192x512) (k2_off3 L 0#32) S128x128.size (k2_off3_inb L 0)) (fun _ => rfl)
abbrev oS3 (L : grid2.Coords) : Memref sig .scVector .hbm S128x128 .f32 := (oV).slice (Rect.unit (s := S8192x512) (k2_off3 L 128#32) S128x128.size (k2_off3_inb L 1)) (fun _ => rfl)
abbrev oS4 (L : grid2.Coords) : Memref sig .scVector .hbm S128x128 .f32 := (oV).slice (Rect.unit (s := S8192x512) (k2_off4 L 0#32) S128x128.size (k2_off4_inb L 0)) (fun _ => rfl)
abbrev oS5 (L : grid2.Coords) : Memref sig .scVector .hbm S128x128 .f32 := (oV).slice (Rect.unit (s := S8192x512) (k2_off4 L 128#32) S128x128.size (k2_off4_inb L 1)) (fun _ => rfl)
abbrev oS6 (L : grid2.Coords) : Memref sig .scVector .hbm S128x128 .f32 := (oV).slice (Rect.unit (s := S8192x512) (k2_off5 L 0#32) S128x128.size (k2_off5_inb L 0)) (fun _ => rfl)
abbrev oS7 (L : grid2.Coords) : Memref sig .scVector .hbm S128x128 .f32 := (oV).slice (Rect.unit (s := S8192x512) (k2_off5 L 128#32) S128x128.size (k2_off5_inb L 1)) (fun _ => rfl)

/-- Membership in a unit-stride rectangle of the feature array, coordinate by coordinate. -/
theorem mem_unit2 (off size : Fin 2 → ℕ) (inb : ∀ a, off a + size a ≤ S8192x512.size a) (j : S8192x512.Idx) :
    j ∈ (Rect.unit (s := S8192x512) off size inb).set
      ↔ ((off 0 ≤ (j 0).val ∧ (j 0).val < off 0 + size 0) ∧ (off 1 ≤ (j 1).val ∧ (j 1).val < off 1 + size 1)) := by
  rw [(Rect.unit (s := S8192x512) off size inb).mem_set]
  simp only [Rect.off_unit, Rect.size_unit, Rect.stride_unit, Nat.one_mul]
  rw [Fin.forall_fin_two]
  constructor
  · rintro ⟨⟨k0, hk0, e0⟩, ⟨k1, hk1, e1⟩⟩; omega
  · rintro ⟨⟨h1, h2⟩, ⟨h3, h4⟩⟩
    exact ⟨⟨(j 0).val - off 0, by omega, by omega⟩, ⟨(j 1).val - off 1, by omega, by omega⟩⟩

theorem set_oSlice (r : Rect S8192x512) (hr : ∀ a, r.stride a = 1) : ((oV).slice r hr).view.set = r.set := by
  show ((View.whole (main_v19_scv : Ref sig .scVector)).slice r).set = _
  rw [View.set_slice]; exact Finset.map_refl

theorem mem_oSlice (off size : Fin 2 → ℕ) (inb : ∀ a, off a + size a ≤ S8192x512.size a) (j : S8192x512.Idx) :
    j ∈ ((oV).slice (Rect.unit (s := S8192x512) off size inb) (fun _ => rfl)).view.set
      ↔ ((off 0 ≤ (j 0).val ∧ (j 0).val < off 0 + size 0) ∧ (off 1 ≤ (j 1).val ∧ (j 1).val < off 1 + size 1)) :=
  (Finset.ext_iff.mp (set_oSlice (Rect.unit (s := S8192x512) off size inb) (fun _ => rfl)) j).trans (mem_unit2 off size inb j)

/-- The rectangles as a family over the eight units. -/
def oSet (L : grid2.Coords) : Fin 8 → Finset S8192x512.Idx :=
  ![(oS0 L).view.set, (oS1 L).view.set, (oS2 L).view.set, (oS3 L).view.set, (oS4 L).view.set, (oS5 L).view.set, (oS6 L).view.set, (oS7 L).view.set]

theorem mem_oSet (u : Fin 8) (j : S8192x512.Idx) :
    j ∈ oSet L u ↔ ((512 * (L 1).val + 256 * (L 0).val + 128 * (u.val % 2) ≤ (j 0).val ∧ (j 0).val < 512 * (L 1).val + 256 * (L 0).val + 128 * (u.val % 2) + 128)
      ∧ (128 * (u.val / 2) ≤ (j 1).val ∧ (j 1).val < 128 * (u.val / 2) + 128)) := by
  fin_cases u
  all_goals simp only [oSet, Matrix.cons_val_zero, Matrix.cons_val_one, Matrix.cons_val, Fin.zero_eta, Fin.mk_one, Fin.reduceFinMk]
  · have e : k2_off2 L 0#32 = ![512 * (L 1).val + 256 * (L 0).val + 128 * 0, 0] := k2_off2_eq L 0
    refine (mem_oSlice _ _ _ j).trans ?_; rw [e]; simp
  · have e : k2_off2 L 128#32 = ![512 * (L 1).val + 256 * (L 0).val + 128 * 1, 0] := k2_off2_eq L 1
    refine (mem_oSlice _ _ _ j).trans ?_; rw [e]; simp
  · have e : k2_off3 L 0#32 = ![512 * (L 1).val + 256 * (L 0).val + 128 * 0, 128] := k2_off3_eq L 0
    refine (mem_oSlice _ _ _ j).trans ?_; rw [e]; simp
  · have e : k2_off3 L 128#32 = ![512 * (L 1).val + 256 * (L 0).val + 128 * 1, 128] := k2_off3_eq L 1
    refine (mem_oSlice _ _ _ j).trans ?_; rw [e]; simp
  · have e : k2_off4 L 0#32 = ![512 * (L 1).val + 256 * (L 0).val + 128 * 0, 256] := k2_off4_eq L 0
    refine (mem_oSlice _ _ _ j).trans ?_; rw [e]; simp
  · have e : k2_off4 L 128#32 = ![512 * (L 1).val + 256 * (L 0).val + 128 * 1, 256] := k2_off4_eq L 1
    refine (mem_oSlice _ _ _ j).trans ?_; rw [e]; simp
  · have e : k2_off5 L 0#32 = ![512 * (L 1).val + 256 * (L 0).val + 128 * 0, 384] := k2_off5_eq L 0
    refine (mem_oSlice _ _ _ j).trans ?_; rw [e]; simp
  · have e : k2_off5 L 128#32 = ![512 * (L 1).val + 256 * (L 0).val + 128 * 1, 384] := k2_off5_eq L 1
    refine (mem_oSlice _ _ _ j).trans ?_; rw [e]; simp

theorem oSet_disjoint : ∀ u ∈ (Finset.univ : Finset (Fin 8)), ∀ u' ∈ (Finset.univ : Finset (Fin 8)), u ≠ u' → Disjoint (oSet L u) (oSet L u') := by
  intro u _ u' _ hne
  rw [Finset.disjoint_left]
  intro j h1 h2
  rw [mem_oSet] at h1 h2
  exact hne (Fin.ext (by omega))

/-- The worker's strip of the feature array is the eight rectangles. -/
theorem oSet_cover : oRowSet (wid (cL L) (iL L)) = Finset.univ.biUnion (oSet L) := by
  ext j
  rw [Finset.mem_biUnion]
  simp only [Finset.mem_univ, true_and, mem_oSet]
  have h0 : (j 0).val < 8192 := (j 0).isLt
  have h1 : (j 1).val < 512 := (j 1).isLt
  have hw : j ∈ oRowSet (wid (cL L) (iL L))
      ↔ (256 * (2 * (L 1).val + (L 0).val) ≤ (j 0).val ∧ (j 0).val < 256 * (2 * (L 1).val + (L 0).val) + 256) := by
    show j ∈ (Rect.unit (s := S8192x512) _ _ _).set ↔ _
    rw [mem_unit2]
    simp [Shape.partIx, Shape.partSize, wid]
    omega
  rw [hw]
  constructor
  · intro h
    have hn : 2 * ((j 1).val / 128) + ((j 0).val - (512 * (L 1).val + 256 * (L 0).val)) / 128 < 8 := by omega
    refine ⟨⟨_, hn⟩, ?_⟩
    simp only []
    omega
  · rintro ⟨u, hu⟩
    have := u.isLt
    omega

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]; rfl

/-- The strip held at one contents is the eight rectangles held at it, each through its own slice. -/
theorem strip_split (d : Dev nD) (f : S8192x512.Idx → Elt F .f32) :
    ((TT d).loc main_v19 ↦[oRowSet (wid (cL L) (iL L))]{fullShare} f : sProp 𝕄)
      = iprop(((oS0 L).view.loc (V d (cV L) (jV L)) ↦[(oS0 L).view.set]{fullShare} f) ∗ ((oS1 L).view.loc (V d (cV L) (jV L)) ↦[(oS1 L).view.set]{fullShare} f)
          ∗ ((oS2 L).view.loc (V d (cV L) (jV L)) ↦[(oS2 L).view.set]{fullShare} f) ∗ ((oS3 L).view.loc (V d (cV L) (jV L)) ↦[(oS3 L).view.set]{fullShare} f)
          ∗ ((oS4 L).view.loc (V d (cV L) (jV L)) ↦[(oS4 L).view.set]{fullShare} f) ∗ ((oS5 L).view.loc (V d (cV L) (jV L)) ↦[(oS5 L).view.set]{fullShare} f)
          ∗ ((oS6 L).view.loc (V d (cV L) (jV L)) ↦[(oS6 L).view.set]{fullShare} f) ∗ ((oS7 L).view.loc (V d (cV L) (jV L)) ↦[(oS7 L).view.set]{fullShare} f)) := by
  rw [oSet_cover, pointsTo_biUnion _ _ (oSet_disjoint L), bigSep_fin8]; rfl

end Geo

section Scratch
variable (L : grid2.Coords)

local notation "i0V" => (Memref.whole Cert.KernelIdeal.main_v15_scv : Memref Cert.KernelIdeal.sig Kind.scVector Space.hbm Cert.KernelIdeal.S8192 EltTy.i32)
local notation "i1V" => (Memref.whole Cert.KernelIdeal.main_v16_scv : Memref Cert.KernelIdeal.sig Kind.scVector Space.hbm Cert.KernelIdeal.S8192 EltTy.i32)
local notation "i2V" => (Memref.whole Cert.KernelIdeal.main_v17_scv : Memref Cert.KernelIdeal.sig Kind.scVector Space.hbm Cert.KernelIdeal.S8192 EltTy.i32)
local notation "i3V" => (Memref.whole Cert.KernelIdeal.main_v18_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v19_scv : Memref Cert.KernelIdeal.sig Kind.scVector Space.hbm Cert.KernelIdeal.S8192x512 EltTy.f32)
local notation "xV" => (Memref.whole Cert.KernelIdeal.cc2_scratch0 : Memref Cert.KernelIdeal.sig Kind.scVector Space.vmem Cert.KernelIdeal.S4x256 EltTy.i32)
local notation "b0V" => (Memref.whole Cert.KernelIdeal.cc2_scratch1 : Memref Cert.KernelIdeal.sig Kind.scVector Space.vmem Cert.KernelIdeal.S128x128 EltTy.f32)
local notation "b1V" => (Memref.whole Cert.KernelIdeal.cc2_scratch2 : Memref Cert.KernelIdeal.sig Kind.scVector Space.vmem Cert.KernelIdeal.S128x128 EltTy.f32)
local notation "b2V" => (Memref.whole Cert.KernelIdeal.cc2_scratch3 : Memref Cert.KernelIdeal.sig Kind.scVector Space.vmem Cert.KernelIdeal.S128x128 EltTy.f32)
local notation "b3V" => (Memref.whole Cert.KernelIdeal.cc2_scratch4 : Memref Cert.KernelIdeal.sig Kind.scVector Space.vmem Cert.KernelIdeal.S128x128 EltTy.f32)

/-- Where a squeezed one-row slice of the index scratch puts its words: row `t`, columns from `c`. -/
theorem xRow_emb (t c n : ℕ) (inb : ∀ a, (![t, c] : Fin 2 → ℕ) a + (![1, n] : Fin 2 → ℕ) a ≤ S4x256.size a)
    (hq : (Rect.unit (s := S4x256) ![t, c] ![1, n] inb).shape.Squeezes ⟨1, ![n]⟩) (x : (⟨1, ![n]⟩ : Shape).Idx) :
    (((((xV).slice (Rect.unit (s := S4x256) ![t, c] ![1, n] inb) (fun _ => rfl)).squeeze ⟨1, ![n]⟩ hq).view.emb x) 0).val = t
      ∧ (((((xV).slice (Rect.unit (s := S4x256) ![t, c] ![1, n] inb) (fun _ => rfl)).squeeze ⟨1, ![n]⟩ hq).view.emb x) 1).val = c + (x 0).val := by
  have e : Shape.reshapeEquiv (s := (Rect.unit (s := S4x256) ![t, c] ![1, n] inb).shape) (s' := ⟨1, ![n]⟩) hq.numel_eq x = Fin.cons ⟨0, Nat.one_pos⟩ x :=
    Shape.reshapeEquiv_cons_one (n := 1) (d := ![n]) hq.numel_eq x
  show (((Rect.unit (s := S4x256) ![t, c] ![1, n] inb).emb (Shape.reshapeEquiv hq.numel_eq x)) 0).val = t
    ∧ (((Rect.unit (s := S4x256) ![t, c] ![1, n] inb).emb (Shape.reshapeEquiv hq.numel_eq x)) 1).val = c + (x 0).val
  rw [e]
  simp only [Rect.emb_apply, Rect.off_unit, Rect.stride_unit, Nat.one_mul]
  refine ⟨?_, ?_⟩
  · exact Nat.add_zero t
  · rfl

/-- Writing one row of the index scratch through its squeezed slice: row `t` takes the payload, the other rows keep theirs. -/
theorem xRow_write (t : ℕ) (inb : ∀ a, (![t, 0] : Fin 2 → ℕ) a + (![1, 256] : Fin 2 → ℕ) a ≤ S4x256.size a)
    (hq : (Rect.unit (s := S4x256) ![t, 0] ![1, 256] inb).shape.Squeezes S256)
    (f : S4x256.Idx → Elt F .i32) (w : S256.Idx → Elt F .i32) (j : S4x256.Idx) :
    View.write (Elt F) (((xV).slice (Rect.unit (s := S4x256) ![t, 0] ![1, 256] inb) (fun _ => rfl)).squeeze S256 hq).view f w Finset.univ j
      = if (j 0).val = t then w (ix1 (j 1)) else f j := by
  by_cases h : (j 0).val = t
  · rw [if_pos h]
    have hj : (((xV).slice (Rect.unit (s := S4x256) ![t, 0] ![1, 256] inb) (fun _ => rfl)).squeeze S256 hq).view.emb (ix1 (j 1)) = j := by
      obtain ⟨h0, h1⟩ := xRow_emb t 0 256 inb hq (ix1 (j 1))
      funext a
      refine Fin.ext ?_
      match a with
      | 0 => exact h0.trans h.symm
      | 1 => rw [h1]; simp [ix1]
    conv_lhs => rw [← hj]
    rw [View.write_emb_of_mem _ _ (Finset.mem_univ _)]
    rfl
  · rw [if_neg h]
    refine View.write_of_not_mem _ _ _ fun hm => h ?_
    rw [View.setOn_univ] at hm
    obtain ⟨x, _, rfl⟩ := Finset.mem_map.mp hm
    exact (xRow_emb t 0 256 inb hq x).1

/-- The index scratch once the four copies have landed: row `t` holds the payload of copy `t`. -/
def xFill (p0 p1 p2 p3 : S256.Idx → Elt F .i32) : S4x256.Idx → Elt F .i32 := fun j =>
  if (j 0).val = 3 then p3 (ix1 (j 1)) else if (j 0).val = 2 then p2 (ix1 (j 1)) else if (j 0).val = 1 then p1 (ix1 (j 1)) else p0 (ix1 (j 1))

theorem xFill_le (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999) (j : S4x256.Idx) : (xFill p0 p1 p2 p3 j).toNat ≤ 99999 := by
  unfold xFill; split_ifs <;> first | exact h0 _ | exact h1 _ | exact h2 _ | exact h3 _

/-- The four copies, one after the other, fill the scratch. -/
theorem scratch_eq (fx : S4x256.Idx → Elt F .i32) (p0 p1 p2 p3 : S256.Idx → Elt F .i32) (j : S4x256.Idx) :
    View.write (Elt F) (((xV).slice (Rect.unit (s := S4x256) ![3, 0] S1x256.size inb_S4x256_S1x256_3_0) (fun _ => rfl)).squeeze S256 squeezes_S1x256_S256).view
      (View.write (Elt F) (((xV).slice (Rect.unit (s := S4x256) ![2, 0] S1x256.size inb_S4x256_S1x256_2_0) (fun _ => rfl)).squeeze S256 squeezes_S1x256_S256).view
        (View.write (Elt F) (((xV).slice (Rect.unit (s := S4x256) ![1, 0] S1x256.size inb_S4x256_S1x256_1_0) (fun _ => rfl)).squeeze S256 squeezes_S1x256_S256).view
          (View.write (Elt F) (((xV).slice (Rect.unit (s := S4x256) ![0, 0] S1x256.size inb_S4x256_S1x256_0_0) (fun _ => rfl)).squeeze S256 squeezes_S1x256_S256).view fx p0 Finset.univ) p1 Finset.univ) p2 Finset.univ) p3 Finset.univ j
      = xFill p0 p1 p2 p3 j := by
  have hj : (j 0).val < 4 := (j 0).isLt
  unfold xFill
  refine (xRow_write 3 _ _ _ _ j).trans ?_
  by_cases h3 : (j 0).val = 3
  · rw [if_pos h3, if_pos h3]
  rw [if_neg h3, if_neg h3]
  refine (xRow_write 2 _ _ _ _ j).trans ?_
  by_cases h2 : (j 0).val = 2
  · rw [if_pos h2, if_pos h2]
  rw [if_neg h2, if_neg h2]
  refine (xRow_write 1 _ _ _ _ j).trans ?_
  by_cases h1 : (j 0).val = 1
  · rw [if_pos h1, if_pos h1]
  rw [if_neg h1, if_neg h1]
  refine (xRow_write 0 _ _ _ _ j).trans ?_
  rw [if_pos (by omega)]

theorem idxOf_le (hpre : PreOK m) (d : Dev nD) (q : Fin 2) (k : Fin 4) (j : S8192.Idx) : (idxOf m d q k j).toNat ≤ 99999 := hpre d k _

/-- An offset list read out of the filled scratch names rows of a table. -/
theorem hin_xFill (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999)
    (r : Rect S4x256) (hr : ∀ a, r.stride a = 1) (hq : r.shape.Squeezes S128) :
    ∀ x, ((((xV).slice r hr).squeeze S128 hq).view.read (Elt F) (xFill p0 p1 p2 p3) x).toNat < S100001x128.size gathers_S100001x128_S128x128.axis := by
  intro x
  rw [show (((xV).slice r hr).squeeze S128 hq).view.read (Elt F) (xFill p0 p1 p2 p3) x = xFill p0 p1 p2 p3 ((((xV).slice r hr).squeeze S128 hq).view.emb x)
    from (View.read_apply _ _).trans (cast_eq _ _)]
  exact Nat.lt_of_le_of_lt (xFill_le p0 p1 p2 p3 h0 h1 h2 h3 _) (by decide)

end Scratch

section Value
variable (d : Dev nD) (L : grid2.Coords)

local notation "i0V" => (Memref.whole Cert.KernelIdeal.main_v15_scv : Memref Cert.KernelIdeal.sig Kind.scVector Space.hbm Cert.KernelIdeal.S8192 EltTy.i32)
local notation "i1V" => (Memref.whole Cert.KernelIdeal.main_v16_scv : Memref Cert.KernelIdeal.sig Kind.scVector Space.hbm Cert.KernelIdeal.S8192 EltTy.i32)
local notation "i2V" => (Memref.whole Cert.KernelIdeal.main_v17_scv : Memref Cert.KernelIdeal.sig Kind.scVector Space.hbm Cert.KernelIdeal.S8192 EltTy.i32)
local notation "i3V" => (Memref.whole Cert.KernelIdeal.main_v18_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v19_scv : Memref Cert.KernelIdeal.sig Kind.scVector Space.hbm Cert.KernelIdeal.S8192x512 EltTy.f32)
local notation "xV" => (Memref.whole Cert.KernelIdeal.cc2_scratch0 : Memref Cert.KernelIdeal.sig Kind.scVector Space.vmem Cert.KernelIdeal.S4x256 EltTy.i32)
local notation "b0V" => (Memref.whole Cert.KernelIdeal.cc2_scratch1 : Memref Cert.KernelIdeal.sig Kind.scVector Space.vmem Cert.KernelIdeal.S128x128 EltTy.f32)
local notation "b1V" => (Memref.whole Cert.KernelIdeal.cc2_scratch2 : Memref Cert.KernelIdeal.sig Kind.scVector Space.vmem Cert.KernelIdeal.S128x128 EltTy.f32)
local notation "b2V" => (Memref.whole Cert.KernelIdeal.cc2_scratch3 : Memref Cert.KernelIdeal.sig Kind.scVector Space.vmem Cert.KernelIdeal.S128x128 EltTy.f32)
local notation "b3V" => (Memref.whole Cert.KernelIdeal.cc2_scratch4 : Memref Cert.KernelIdeal.sig Kind.scVector Space.vmem Cert.KernelIdeal.S128x128 EltTy.f32)

/-- Word `r` of an index slice as a number, and column `c` of row `r` of a table, total on the naturals. -/
def rowOf (i : S8192.Idx → BitVec 32) (r : ℕ) : ℕ := if h : r < 8192 then (i (ix1 ⟨r, h⟩)).toNat else 0
def tabAt (e : S100001x128.Idx → Elt F .f32) (r c : ℕ) : Elt F .f32 :=
  if h : r < 100001 ∧ c < 128 then e (ix2 ⟨r, h.1⟩ ⟨c, h.2⟩) else e (ix2 ⟨0, by decide⟩ ⟨0, by decide⟩)
/-- Column `c` of the row of table `t` that word `r` of call 1's index slice `t` names. -/
def valAt (t : Fin 4) (r c : ℕ) : Elt F .f32 := tabAt (tabOf m d t) (rowOf (idxOf m d 1 t) r) c

/-- The call's feature array at an index, through `valAt`. -/
theorem featOf_eq (hpre : PreOK m) (j : S8192x512.Idx) (t : Fin 4) (ht : (j 1).val / 128 = t.val) :
    featOf m d 1 j = valAt m d t (j 0).val ((j 1).val % 128) := by
  have h0 : (j 0).val < 8192 := (j 0).isLt
  have h1 : (j 1).val < 512 := (j 1).isLt
  have et : (⟨(j 1).val / 128, by omega⟩ : Fin 4) = t := Fin.ext ht
  have hle : (idxOf m d 1 t (ix1 ⟨(j 0).val, h0⟩)).toNat ≤ 99999 := idxOf_le m hpre d 1 t _
  unfold valAt tabAt rowOf
  rw [dif_pos h0, dif_pos ⟨by omega, Nat.mod_lt _ (by decide)⟩]
  show tabOf m d ⟨(j 1).val / 128, _⟩ (ix2 ⟨min (idxOf m d 1 ⟨(j 1).val / 128, _⟩ (ix1 ⟨(j 0).val, _⟩)).toNat 100000, _⟩ ⟨(j 1).val % 128, _⟩) = _
  simp only [et]
  congr 2
  exact Fin.ext (Nat.min_eq_left (by omega))

/-- The gather's payload at an index: the source at the row the list's word names, same column. -/
theorem gather_val (g : S100001x128.Idx → Elt F .f32) (idf : S128.Idx → Elt F .i32)
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = g (ix2 ⟨(idf (ix1 (x 0))).toNat, hin _⟩ (x 1)) := by
  unfold SparseCore.gatherPayload
  congr 1
  funext a
  refine Fin.ext ?_
  match a with
  | 0 =>
    have h1 := Shape.Gathers.idx_axis gathers_S100001x128_S128x128 (SparseCore.rows idf hn hin) x
    have h2 : S128.rowMajor.symm ((x gathers_S100001x128_S128x128.axis').cast hn.symm) = ix1 (x 0) := by
      exact (Equiv.symm_apply_eq _).mpr (Fin.ext (Shape.rowMajor_val_one (d := ![128]) (ix1 (x 0))).symm)
    show ((gathers_S100001x128_S128x128.idx (SparseCore.rows idf hn hin) x) gathers_S100001x128_S128x128.axis).val = (idf (ix1 (x 0))).toNat
    rw [h1]
    show (idf (S128.rowMajor.symm ((x gathers_S100001x128_S128x128.axis').cast hn.symm))).toNat = _
    rw [h2]
    rfl
  | 1 =>
    exact Shape.Gathers.idx_of_ne gathers_S100001x128_S128x128 _ x 1 (by decide)

/-- A whole-shape piece at the head of a list of writes is what the view reads back. -/
theorem read_writes_whole {sig' : RefSig} {κ : Kind} {sp : Space} {s : Shape} {e : EltTy} {Val : EltTy → Type}
    (v : View sig' κ sp s e) (f : v.ty.Contents Val) (w : (Rect.whole s).shape.Idx → Val e) (Ls : List (View.Piece Val s e)) (x : (Rect.whole s).shape.Idx) :
    v.read Val (v.writes Val f (⟨Rect.whole s, w⟩ :: Ls)) x = w x := by
  have := View.read_writes_cons_emb v f (Rect.whole s) w Ls x
  rwa [Rect.emb_whole_apply] at this

/-- One of the eight rectangles after its write-out, where the payload is the gathered rows: the call's feature array there. -/
theorem rect_val (hpre : PreOK m) (off : Fin 2 → ℕ) (inb : ∀ a, off a + S128x128.size a ≤ S8192x512.size a) (t : Fin 4) (ch : ℕ)
    (hoff0 : off 0 = 512 * (L 1).val + 256 * (L 0).val + 128 * ch) (hoff1 : off 1 = 128 * t.val)
    (w : S128x128.Idx → Elt F .f32) (hw : ∀ x, w x = valAt m d t (512 * (L 1).val + 256 * (L 0).val + 128 * ch + (x 0).val) (x 1).val)
    (f : S8192x512.Idx → Elt F .f32) :
    ∀ j ∈ ((oV).slice (Rect.unit (s := S8192x512) off S128x128.size inb) (fun _ => rfl)).view.set,
      ((oV).slice (Rect.unit (s := S8192x512) off S128x128.size inb) (fun _ => rfl)).view.writes (Elt F) f [⟨Rect.whole S128x128, w⟩] j = featOf m d 1 j := by
  intro j hj
  obtain ⟨x, _, rfl⟩ := Finset.mem_map.mp hj
  have e0 : ((((oV).slice (Rect.unit (s := S8192x512) off S128x128.size inb) (fun _ => rfl)).view.emb x) 0).val = off 0 + (x 0).val := by
    show off 0 + 1 * (x 0).val = _; rw [Nat.one_mul]
  have e1 : ((((oV).slice (Rect.unit (s := S8192x512) off S128x128.size inb) (fun _ => rfl)).view.emb x) 1).val = off 1 + (x 1).val := by
    show off 1 + 1 * (x 1).val = _; rw [Nat.one_mul]
  have hx1 : (x 1).val < 128 := (x 1).isLt
  have hr := read_writes_whole ((oV).slice (Rect.unit (s := S8192x512) off S128x128.size inb) (fun _ => rfl)).view f w [] x
  rw [View.read_apply] at hr
  rw [featOf_eq m d hpre _ t (by rw [e1, hoff1]; omega), e0, e1, hoff0, hoff1]
  refine Eq.trans ?_ ((hw x).trans ?_)
  · exact (cast_eq _ _).symm.trans hr
  · congr 1; omega

theorem Lbounds : (L 0).val < 2 ∧ (L 1).val < 16 := ⟨(L 0).isLt, (L 1).isLt⟩

theorem tabRead0 (inb : ∀ a, (![0, 0] : Fin 2 → ℕ) a + S100001x128.size a ≤ S100001x128.size a) (y : S100001x128.Idx) :
    View.read (Elt F) ((t0V).slice (Rect.unit (s := S100001x128) ![0, 0] S100001x128.size inb) (fun _ => rfl)).view (tabOf m d 0) y = tabOf m d 0 y := by
  rw [View.read_apply]
  refine (cast_eq _ _).trans (congrArg (tabOf m d 0) ?_)
  funext a; refine Fin.ext ?_
  show (![0, 0] : Fin 2 → ℕ) a + 1 * (y a).val = (y a).val
  match a with
  | 0 => simp
  | 1 => simp
theorem tabRead1 (inb : ∀ a, (![0, 0] : Fin 2 → ℕ) a + S100001x128.size a ≤ S100001x128.size a) (y : S100001x128.Idx) :
    View.read (Elt F) ((t1V).slice (Rect.unit (s := S100001x128) ![0, 0] S100001x128.size inb) (fun _ => rfl)).view (tabOf m d 1) y = tabOf m d 1 y := by
  rw [View.read_apply]
  refine (cast_eq _ _).trans (congrArg (tabOf m d 1) ?_)
  funext a; refine Fin.ext ?_
  show (![0, 0] : Fin 2 → ℕ) a + 1 * (y a).val = (y a).val
  match a with
  | 0 => simp
  | 1 => simp
theorem tabRead2 (inb : ∀ a, (![0, 0] : Fin 2 → ℕ) a + S100001x128.size a ≤ S100001x128.size a) (y : S100001x128.Idx) :
    View.read (Elt F) ((t2V).slice (Rect.unit (s := S100001x128) ![0, 0] S100001x128.size inb) (fun _ => rfl)).view (tabOf m d 2) y = tabOf m d 2 y := by
  rw [View.read_apply]
  refine (cast_eq _ _).trans (congrArg (tabOf m d 2) ?_)
  funext a; refine Fin.ext ?_
  show (![0, 0] : Fin 2 → ℕ) a + 1 * (y a).val = (y a).val
  match a with
  | 0 => simp
  | 1 => simp
theorem tabRead3 (inb : ∀ a, (![0, 0] : Fin 2 → ℕ) a + S100001x128.size a ≤ S100001x128.size a) (y : S100001x128.Idx) :
    View.read (Elt F) ((t3V).slice (Rect.unit (s := S100001x128) ![0, 0] S100001x128.size inb) (fun _ => rfl)).view (tabOf m d 3) y = tabOf m d 3 y := by
  rw [View.read_apply]
  refine (cast_eq _ _).trans (congrArg (tabOf m d 3) ?_)
  funext a; refine Fin.ext ?_
  show (![0, 0] : Fin 2 → ℕ) a + 1 * (y a).val = (y a).val
  match a with
  | 0 => simp
  | 1 => simp

theorem idxRead0 (y : S256.Idx) :
    (View.read (Elt F) ((i0V).slice (Rect.unit (s := S8192) (k2_off1 L) S256.size (k2_off1_inb L)) (fun _ => rfl)).view (idxOf m d 1 0) y).toNat
      = rowOf (idxOf m d 1 0) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 0) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead1 (y : S256.Idx) :
    (View.read (Elt F) ((i1V).slice (Rect.unit (s := S8192) (k2_off1 L) S256.size (k2_off1_inb L)) (fun _ => rfl)).view (idxOf m d 1 1) y).toNat
      = rowOf (idxOf m d 1 1) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 1) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead2 (y : S256.Idx) :
    (View.read (Elt F) ((i2V).slice (Rect.unit (s := S8192) (k2_off1 L) S256.size (k2_off1_inb L)) (fun _ => rfl)).view (idxOf m d 1 2) y).toNat
      = rowOf (idxOf m d 1 2) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 2) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead3 (y : S256.Idx) :
    (View.read (Elt F) ((i3V).slice (Rect.unit (s := S8192) (k2_off1 L) S256.size (k2_off1_inb L)) (fun _ => rfl)).view (idxOf m d 1 3) y).toNat
      = rowOf (idxOf m d 1 3) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 3) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega

/-- A squeezed one-row slice of the index scratch reads the scratch at its row, from its column. -/
theorem offsRead (t c : ℕ) (inb : ∀ a, (![t, c] : Fin 2 → ℕ) a + (![1, 128] : Fin 2 → ℕ) a ≤ S4x256.size a)
    (hq : (Rect.unit (s := S4x256) ![t, c] ![1, 128] inb).shape.Squeezes S128)
    (X : S4x256.Idx → Elt F .i32) (y : S128.Idx) (J : S4x256.Idx) (hJ0 : (J 0).val = t) (hJ1 : (J 1).val = c + (y 0).val) :
    View.read (Elt F) (((xV).slice (Rect.unit (s := S4x256) ![t, c] ![1, 128] inb) (fun _ => rfl)).squeeze S128 hq).view X y = X J := by
  rw [View.read_apply]
  refine (cast_eq _ _).trans (congrArg X ?_)
  obtain ⟨h0, h1⟩ := xRow_emb t c 128 inb hq y
  funext a; refine Fin.ext ?_
  match a with
  | 0 => exact h0.trans hJ0.symm
  | 1 => exact h1.trans hJ1.symm

/-- One unit's gather: with the source reading table `t` and the list reading the words `128 ch ..` of the worker's part of
    index slice `t`, the payload is `valAt` of those words. -/
theorem unit_val (t : Fin 4) (ch : ℕ)
    (g : S100001x128.Idx → Elt F .f32) (hg : ∀ y, g y = tabOf m d t y)
    (idf : S128.Idx → Elt F .i32)
    (hidf : ∀ y, (idf y).toNat = rowOf (idxOf m d 1 t) (512 * (L 1).val + 256 * (L 0).val + 128 * ch + (y 0).val))
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = valAt m d t (512 * (L 1).val + 256 * (L 0).val + 128 * ch + (x 0).val) (x 1).val := by
  have hx1 : (x 1).val < 128 := (x 1).isLt
  have hlt : (idf (ix1 (x 0))).toNat < 100001 := hin _
  rw [gather_val, hg, valAt, ← hidf (ix1 (x 0)), tabAt, dif_pos ⟨hlt, hx1⟩]
  rfl

end Value

end Cert.KernelIdeal.Sc.C1

end
-- ==== Proof.ScTile1.lean ====
/-
  One vector subcore's task of the second SparseCore call: run from its first copy to its return, it leaves the index
  slices and the tables as they were and its strip of the feature array at the gathered rows.

  The four index copies and their waits, the eight indirect gathers (two in flight at a time, each on its own semaphore,
  each reading its table through one half of the task's read share and its offsets through its own 128 words of the
  index scratch), the eight write-outs and all the waits are stepped in program order; the offsets are in range
  because the scratch then holds words of the index slices, which the precondition bounds. Each rectangle of the strip
  is written once, by its own unit, with the payload of that unit's gather; the eight rectangles tile the strip.
-/
import proofs.«212020_g4707284156877_cont_8to1c4_553_54_alg».proof.Proof.ScTile1Lib

noncomputable section

namespace Cert.KernelIdeal.Sc.C1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

section Body
variable [FloatOps F] (d : Dev nD) (L : grid2.Coords)

local notation "i0V" => (Memref.whole Cert.KernelIdeal.main_v15_scv : Memref Cert.KernelIdeal.sig Kind.scVector Space.hbm Cert.KernelIdeal.S8192 EltTy.i32)
local notation "i1V" => (Memref.whole Cert.KernelIdeal.main_v16_scv : Memref Cert.KernelIdeal.sig Kind.scVector Space.hbm Cert.KernelIdeal.S8192 EltTy.i32)
local notation "i2V" => (Memref.whole Cert.KernelIdeal.main_v17_scv : Memref Cert.KernelIdeal.sig Kind.scVector Space.hbm Cert.KernelIdeal.S8192 EltTy.i32)
local notation "i3V" => (Memref.whole Cert.KernelIdeal.main_v18_scv : Memref Cert.KernelIdeal.sig Kind.scVector Space.hbm Cert.KernelIdeal.S8192 EltTy.i32)
local notation "t0V" => (Memref.whole Cert.KernelIdeal.main_arg4_scv : Memref Cert.KernelIdeal.sig Kind.scVector Space.hbm Cert.KernelIdeal.S100001x128 EltTy.f32)
local notation "t1V" => (Memref.whole Cert.KernelIdeal.main_arg5_scv : Memref Cert.KernelIdeal.sig Kind.scVector Space.hbm Cert.KernelIdeal.S100001x128 EltTy.f32)
local notation "t2V" => (Memref.whole Cert.KernelIdeal.main_arg6_scv : Memref Cert.KernelIdeal.sig Kind.scVector Space.hbm Cert.KernelIdeal.S100001x128 EltTy.f32)
local notation "t3V" => (Memref.whole Cert.KernelIdeal.main_arg7_scv : Memref Cert.KernelIdeal.sig Kind.scVector Space.hbm Cert.KernelIdeal.S100001x128 EltTy.f32)
local notation "oV" => (Memref.whole Cert.KernelIdeal.main_v19_scv : Memref Cert.KernelIdeal.sig Kind.scVector Space.hbm Cert.KernelIdeal.S8192x512 EltTy.f32)
local notation "xV" => (Memref.whole Cert.KernelIdeal.cc2_scratch0 : Memref Cert.KernelIdeal.sig Kind.scVector Space.vmem Cert.KernelIdeal.S4x256 EltTy.i32)
local notation "b0V" => (Memref.whole Cert.KernelIdeal.cc2_scratch1 : Memref Cert.KernelIdeal.sig Kind.scVector Space.vmem Cert.KernelIdeal.S128x128 EltTy.f32)
local notation "b1V" => (Memref.whole Cert.KernelIdeal.cc2_scratch2 : Memref Cert.KernelIdeal.sig Kind.scVector Space.vmem Cert.KernelIdeal.S128x128 EltTy.f32)
local notation "b2V" => (Memref.whole Cert.KernelIdeal.cc2_scratch3 : Memref Cert.KernelIdeal.sig Kind.scVector Space.vmem Cert.KernelIdeal.S128x128 EltTy.f32)
local notation "b3V" => (Memref.whole Cert.KernelIdeal.cc2_scratch4 : Memref Cert.KernelIdeal.sig Kind.scVector Space.vmem Cert.KernelIdeal.S128x128 EltTy.f32)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]; rfl

/-- A task's operands, one by one: the four index slices, the four tables, its strip of the feature array. -/
theorem goAt0_eq (c : Fin 2) (i : Fin 16) (f : S8192x512.Idx → Elt F .f32) :
    (iprop(readsPts m d 1 (shV c i) ∗ stripPts d (wid c i) f 1) : sProp 𝕄)
      = iprop(((((TT d).loc main_v15 ↦{shV c i} idxOf m d 1 0) ∗ ((TT d).loc main_v16 ↦{shV c i} idxOf m d 1 1)
            ∗ ((TT d).loc main_v17 ↦{shV c i} idxOf m d 1 2) ∗ ((TT d).loc main_v18 ↦{shV c i} idxOf m d 1 3))
          ∗ (((TT d).loc main_arg4 ↦{shV c i} tabOf m d 0) ∗ ((TT d).loc main_arg5 ↦{shV c i} tabOf m d 1)
            ∗ ((TT d).loc main_arg6 ↦{shV c i} tabOf m d 2) ∗ ((TT d).loc main_arg7 ↦{shV c i} tabOf m d 3)))
          ∗ ((TT d).loc main_v19 ↦[oRowSet (wid c i)]{fullShare} f)) := by
  unfold readsPts; rw [bigSep_fin4, bigSep_fin4]; rfl

omit [FloatOps F] in
theorem waits_ins {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with rfl | hp
  · exact .inr rfl
  · exact h p hp

set_option maxHeartbeats 8000000 in
theorem tile_run1 (hF : (K (F := F)).Facts) (hpre : PreOK m) (O : CellTallies nD τ sig (HIx 2)) (W : Waits sig (HIx 2)) (hO : ∀ g, O g none = 0) :
    iprop(levAts (K (F := F)).L (K (F := F)).lev ∗ emp ∗ goAt m d 1 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_gather_body_eq_skeleton]; unfold cc2__sc_gather_body_skel
  rw [(K (F := F)).scopedBufs_V hF d (cV L) (jV L), SparseCore.Cfg.scopedSems0_V (Val := Elt F) d (cV L) (jV L), ownSems0_V, ownBufs_V]
  simp only [cellList, semList, List.map_cons, List.map_nil, List.foldr_cons, List.foldr_nil, cellOf]
  unfold goAt tdAt
  rw [goAt0_eq, goAt0_eq, strip_split L d (feat0 m d 1), strip_split L d (featOf m d 1)]
  iintro ⟨#Hlv, -, ⟨⟨⟨Hi0, Hi1, Hi2, Hi3⟩, ⟨Ht0, Ht1, Ht2, Ht3⟩⟩, ⟨Ho0, Ho1, Ho2, Ho3, Ho4, Ho5, Ho6, Ho7⟩⟩, ⟨⟨%fx, Hx⟩, ⟨%fb0, Hb0⟩, ⟨%fb1, Hb1⟩, ⟨%fb2, Hb2⟩, ⟨%fb3, Hb3⟩, Hbufs⟩,
    ⟨Hg0, Hg1, Hg2, Hg3, Hw0, Hw1, Hw2, Hw3, Hs0, Hs1, Hs2, Hs3, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi0' := (Entails.of_eq (show ((TT d).loc main_v15 ↦{shV (cL L) (iL L)} idxOf m d 1 0 : sProp 𝕄) = (i0V).view.loc (V d (cV L) (jV L)) ↦{shV (cL L) (iL L)} idxOf m d 1 0 from rfl)) $$ Hi0
  ihave Hi1' := (Entails.of_eq (show ((TT d).loc main_v16 ↦{shV (cL L) (iL L)} idxOf m d 1 1 : sProp 𝕄) = (i1V).view.loc (V d (cV L) (jV L)) ↦{shV (cL L) (iL L)} idxOf m d 1 1 from rfl)) $$ Hi1
  ihave Hi2' := (Entails.of_eq (show ((TT d).loc main_v17 ↦{shV (cL L) (iL L)} idxOf m d 1 2 : sProp 𝕄) = (i2V).view.loc (V d (cV L) (jV L)) ↦{shV (cL L) (iL L)} idxOf m d 1 2 from rfl)) $$ Hi2
  ihave Hi3' := (Entails.of_eq (show ((TT d).loc main_v18 ↦{shV (cL L) (iL L)} idxOf m d 1 3 : sProp 𝕄) = (i3V).view.loc (V d (cV L) (jV L)) ↦{shV (cL L) (iL L)} idxOf m d 1 3 from rfl)) $$ Hi3
  ihave Ht0' := (Entails.of_eq (show ((TT d).loc main_arg4 ↦{shV (cL L) (iL L)} tabOf m d 0 : sProp 𝕄) = (t0V).view.loc (V d (cV L) (jV L)) ↦{shV (cL L) (iL L)} tabOf m d 0 from rfl)) $$ Ht0
  ihave Ht1' := (Entails.of_eq (show ((TT d).loc main_arg5 ↦{shV (cL L) (iL L)} tabOf m d 1 : sProp 𝕄) = (t1V).view.loc (V d (cV L) (jV L)) ↦{shV (cL L) (iL L)} tabOf m d 1 from rfl)) $$ Ht1
  ihave Ht2' := (Entails.of_eq (show ((TT d).loc main_arg6 ↦{shV (cL L) (iL L)} tabOf m d 2 : sProp 𝕄) = (t2V).view.loc (V d (cV L) (jV L)) ↦{shV (cL L) (iL L)} tabOf m d 2 from rfl)) $$ Ht2
  ihave Ht3' := (Entails.of_eq (show ((TT d).loc main_arg7 ↦{shV (cL L) (iL L)} tabOf m d 3 : sProp 𝕄) = (t3V).view.loc (V d (cV L) (jV L)) ↦{shV (cL L) (iL L)} tabOf m d 3 from rfl)) $$ Ht3
  ihave Hx' := (Entails.of_eq (show ((V d (cV L) (jV L)).loc cc2_scratch0 ↦{fullShare} fx : sProp 𝕄) = (xV).view.loc (V d (cV L) (jV L)) ↦{fullShare} fx from rfl)) $$ Hx
  ihave Hb0' := (Entails.of_eq (show ((V d (cV L) (jV L)).loc cc2_scratch1 ↦{fullShare} fb0 : sProp 𝕄) = (b0V).view.loc (V d (cV L) (jV L)) ↦{fullShare} fb0 from rfl)) $$ Hb0
  ihave Hb1' := (Entails.of_eq (show ((V d (cV L) (jV L)).loc cc2_scratch2 ↦{fullShare} fb1 : sProp 𝕄) = (b1V).view.loc (V d (cV L) (jV L)) ↦{fullShare} fb1 from rfl)) $$ Hb1
  ihave Hb2' := (Entails.of_eq (show ((V d (cV L) (jV L)).loc cc2_scratch3 ↦{fullShare} fb2 : sProp 𝕄) = (b2V).view.loc (V d (cV L) (jV L)) ↦{fullShare} fb2 from rfl)) $$ Hb2
  ihave Hb3' := (Entails.of_eq (show ((V d (cV L) (jV L)).loc cc2_scratch4 ↦{fullShare} fb3 : sProp 𝕄) = (b3V).view.loc (V d (cV L) (jV L)) ↦{fullShare} fb3 from rfl)) $$ Hb3
  ihave Ht0s := (pointsTo_share (PosShare.mem_left_op_right (shV (cL L) (iL L)))).1 $$ Ht0'
  icases Ht0s with ⟨Ht0a, Ht0b⟩
  ihave Ht1s := (pointsTo_share (PosShare.mem_left_op_right (shV (cL L) (iL L)))).1 $$ Ht1'
  icases Ht1s with ⟨Ht1a, Ht1b⟩
  ihave Ht2s := (pointsTo_share (PosShare.mem_left_op_right (shV (cL L) (iL L)))).1 $$ Ht2'
  icases Ht2s with ⟨Ht2a, Ht2b⟩
  ihave Ht3s := (pointsTo_share (PosShare.mem_left_op_right (shV (cL L) (iL L)))).1 $$ Ht3'
  icases Ht3s with ⟨Ht3a, Ht3b⟩
  sl_exec
  ihave Hx2 := (Entails.of_eq (pointsTo_congr (q := fullShare) (I := Finset.univ) (fun j _ => scratch_eq fx (tile_run1.sl.dma0 m d L) (tile_run1.sl.dma0_1 m d L) (tile_run1.sl.dma0_2 m d L) (tile_run1.sl.dma0_3 m d L) j))) $$ Hx'
  have hp0 : ∀ x, (tile_run1.sl.dma0 m d L x).toNat ≤ 99999 := fun x => by
    show (idxOf m d 1 0 (((i0V).slice (Rect.unit (s := S8192) (k2_off1 L) S256.size (k2_off1_inb L)) (fun _ => rfl)).view.emb x)).toNat ≤ 99999
    exact idxOf_le m hpre d 1 0 _
  have hp1 : ∀ x, (tile_run1.sl.dma0_1 m d L x).toNat ≤ 99999 := fun x => by
    show (idxOf m d 1 1 (((i1V).slice (Rect.unit (s := S8192) (k2_off1 L) S256.size (k2_off1_inb L)) (fun _ => rfl)).view.emb x)).toNat ≤ 99999
    exact idxOf_le m hpre d 1 1 _
  have hp2 : ∀ x, (tile_run1.sl.dma0_2 m d L x).toNat ≤ 99999 := fun x => by
    show (idxOf m d 1 2 (((i2V).slice (Rect.unit (s := S8192) (k2_off1 L) S256.size (k2_off1_inb L)) (fun _ => rfl)).view.emb x)).toNat ≤ 99999
    exact idxOf_le m hpre d 1 2 _
  have hp3 : ∀ x, (tile_run1.sl.dma0_3 m d L x).toNat ≤ 99999 := fun x => by
    show (idxOf m d 1 3 (((i3V).slice (Rect.unit (s := S8192) (k2_off1 L) S256.size (k2_off1_inb L)) (fun _ => rfl)).view.emb x)).toNat ≤ 99999
    exact idxOf_le m hpre d 1 3 _
  have hin0 := hin_xFill (tile_run1.sl.dma0 m d L) (tile_run1.sl.dma0_1 m d L) (tile_run1.sl.dma0_2 m d L) (tile_run1.sl.dma0_3 m d L) hp0 hp1 hp2 hp3 (Rect.unit (s := S4x256) ![0, 0] S1x128.size inb_S4x256_S1x128_0_0) (fun _ => rfl) squeezes_S1x128_S128
  have hin1 := hin_xFill (tile_run1.sl.dma0 m d L) (tile_run1.sl.dma0_1 m d L) (tile_run1.sl.dma0_2 m d L) (tile_run1.sl.dma0_3 m d L) hp0 hp1 hp2 hp3 (Rect.unit (s := S4x256) ![0, 128] S1x128.size inb_S4x256_S1x128_0_128) (fun _ => rfl) squeezes_S1x128_S128
  have hin2 := hin_xFill (tile_run1.sl.dma0 m d L) (tile_run1.sl.dma0_1 m d L) (tile_run1.sl.dma0_2 m d L) (tile_run1.sl.dma0_3 m d L) hp0 hp1 hp2 hp3 (Rect.unit (s := S4x256) ![1, 0] S1x128.size inb_S4x256_S1x128_1_0) (fun _ => rfl) squeezes_S1x128_S128
  have hin3 := hin_xFill (tile_run1.sl.dma0 m d L) (tile_run1.sl.dma0_1 m d L) (tile_run1.sl.dma0_2 m d L) (tile_run1.sl.dma0_3 m d L) hp0 hp1 hp2 hp3 (Rect.unit (s := S4x256) ![1, 128] S1x128.size inb_S4x256_S1x128_1_128) (fun _ => rfl) squeezes_S1x128_S128
  have hin4 := hin_xFill (tile_run1.sl.dma0 m d L) (tile_run1.sl.dma0_1 m d L) (tile_run1.sl.dma0_2 m d L) (tile_run1.sl.dma0_3 m d L) hp0 hp1 hp2 hp3 (Rect.unit (s := S4x256) ![2, 0] S1x128.size inb_S4x256_S1x128_2_0) (fun _ => rfl) squeezes_S1x128_S128
  have hin5 := hin_xFill (tile_run1.sl.dma0 m d L) (tile_run1.sl.dma0_1 m d L) (tile_run1.sl.dma0_2 m d L) (tile_run1.sl.dma0_3 m d L) hp0 hp1 hp2 hp3 (Rect.unit (s := S4x256) ![2, 128] S1x128.size inb_S4x256_S1x128_2_128) (fun _ => rfl) squeezes_S1x128_S128
  have hin6 := hin_xFill (tile_run1.sl.dma0 m d L) (tile_run1.sl.dma0_1 m d L) (tile_run1.sl.dma0_2 m d L) (tile_run1.sl.dma0_3 m d L) hp0 hp1 hp2 hp3 (Rect.unit (s := S4x256) ![3, 0] S1x128.size inb_S4x256_S1x128_3_0) (fun _ => rfl) squeezes_S1x128_S128
  have hin7 := hin_xFill (tile_run1.sl.dma0 m d L) (tile_run1.sl.dma0_1 m d L) (tile_run1.sl.dma0_2 m d L) (tile_run1.sl.dma0_3 m d L) hp0 hp1 hp2 hp3 (Rect.unit (s := S4x256) ![3, 128] S1x128.size inb_S4x256_S1x128_3_128) (fun _ => rfl) squeezes_S1x128_S128
  sl_exec
  sl_step
  have hw0 : ∀ x, tile_run1.sl.dma0_4 m d L fb0 hin0 x
      = valAt m d 0 (512 * (L 1).val + 256 * (L 0).val + 128 * 0 + (x 0).val) (x 1).val := fun x =>
    (read_writes_whole (b0V).view fb0 _ _ x).trans
      (unit_val m d L 0 0 _ (tabRead0 m d inb_S100001x128_S100001x128_0_0) _
        (fun y => (congrArg BitVec.toNat (offsRead 0 0 inb_S4x256_S1x128_0_0 squeezes_S1x128_S128
              (xFill (tile_run1.sl.dma0 m d L) (tile_run1.sl.dma0_1 m d L) (tile_run1.sl.dma0_2 m d L) (tile_run1.sl.dma0_3 m d L)) y
              (ix2 ⟨0, by decide⟩ ⟨0 + (y 0).val, by have h : (y 0).val < 128 := (y 0).isLt; omega⟩) rfl rfl)).trans
          ((idxRead0 m d L _).trans (congrArg (rowOf (idxOf m d 1 0))
            (by show 512 * (L 1).val + 256 * (L 0).val + (0 + (y 0).val) = _; omega)))) _ hin0 x)
  have hw1 : ∀ x, tile_run1.sl.dma0_5 m d L fb1 hin1 x
      = valAt m d 0 (512 * (L 1).val + 256 * (L 0).val + 128 * 1 + (x 0).val) (x 1).val := fun x =>
    (read_writes_whole (b1V).view fb1 _ _ x).trans
      (unit_val m d L 0 1 _ (tabRead0 m d inb_S100001x128_S100001x128_0_0) _
        (fun y => (congrArg BitVec.toNat (offsRead 0 128 inb_S4x256_S1x128_0_128 squeezes_S1x128_S128
              (xFill (tile_run1.sl.dma0 m d L) (tile_run1.sl.dma0_1 m d L) (tile_run1.sl.dma0_2 m d L) (tile_run1.sl.dma0_3 m d L)) y
              (ix2 ⟨0, by decide⟩ ⟨128 + (y 0).val, by have h : (y 0).val < 128 := (y 0).isLt; omega⟩) rfl rfl)).trans
          ((idxRead0 m d L _).trans (congrArg (rowOf (idxOf m d 1 0))
            (by show 512 * (L 1).val + 256 * (L 0).val + (128 + (y 0).val) = _; omega)))) _ hin1 x)
  have hw2 : ∀ x, tile_run1.sl.dma0_6 m d L fb2 hin2 x
      = valAt m d 1 (512 * (L 1).val + 256 * (L 0).val + 128 * 0 + (x 0).val) (x 1).val := fun x =>
    (read_writes_whole (b2V).view fb2 _ _ x).trans
      (unit_val m d L 1 0 _ (tabRead1 m d inb_S100001x128_S100001x128_0_0) _
        (fun y => (congrArg BitVec.toNat (offsRead 1 0 inb_S4x256_S1x128_1_0 squeezes_S1x128_S128
              (xFill (tile_run1.sl.dma0 m d L) (tile_run1.sl.dma0_1 m d L) (tile_run1.sl.dma0_2 m d L) (tile_run1.sl.dma0_3 m d L)) y
              (ix2 ⟨1, by decide⟩ ⟨0 + (y 0).val, by have h : (y 0).val < 128 := (y 0).isLt; omega⟩) rfl rfl)).trans
          ((idxRead1 m d L _).trans (congrArg (rowOf (idxOf m d 1 1))
            (by show 512 * (L 1).val + 256 * (L 0).val + (0 + (y 0).val) = _; omega)))) _ hin2 x)
  have hw3 : ∀ x, tile_run1.sl.dma0_7 m d L fb3 hin3 x
      = valAt m d 1 (512 * (L 1).val + 256 * (L 0).val + 128 * 1 + (x 0).val) (x 1).val := fun x =>
    (read_writes_whole (b3V).view fb3 _ _ x).trans
      (unit_val m d L 1 1 _ (tabRead1 m d inb_S100001x128_S100001x128_0_0) _
        (fun y => (congrArg BitVec.toNat (offsRead 1 128 inb_S4x256_S1x128_1_128 squeezes_S1x128_S128
              (xFill (tile_run1.sl.dma0 m d L) (tile_run1.sl.dma0_1 m d L) (tile_run1.sl.dma0_2 m d L) (tile_run1.sl.dma0_3 m d L)) y
              (ix2 ⟨1, by decide⟩ ⟨128 + (y 0).val, by have h : (y 0).val < 128 := (y 0).isLt; omega⟩) rfl rfl)).trans
          ((idxRead1 m d L _).trans (congrArg (rowOf (idxOf m d 1 1))
            (by show 512 * (L 1).val + 256 * (L 0).val + (128 + (y 0).val) = _; omega)))) _ hin3 x)
  have hw4 : ∀ x, tile_run1.sl.dma0_8 m d L fb0 hin0 hin4 x
      = valAt m d 2 (512 * (L 1).val + 256 * (L 0).val + 128 * 0 + (x 0).val) (x 1).val := fun x =>
    (read_writes_whole (b0V).view fb0 _ _ x).trans
      (unit_val m d L 2 0 _ (tabRead2 m d inb_S100001x128_S100001x128_0_0) _
        (fun y => (congrArg BitVec.toNat (offsRead 2 0 inb_S4x256_S1x128_2_0 squeezes_S1x128_S128
              (xFill (tile_run1.sl.dma0 m d L) (tile_run1.sl.dma0_1 m d L) (tile_run1.sl.dma0_2 m d L) (tile_run1.sl.dma0_3 m d L)) y
              (ix2 ⟨2, by decide⟩ ⟨0 + (y 0).val, by have h : (y 0).val < 128 := (y 0).isLt; omega⟩) rfl rfl)).trans
          ((idxRead2 m d L _).trans (congrArg (rowOf (idxOf m d 1 2))
            (by show 512 * (L 1).val + 256 * (L 0).val + (0 + (y 0).val) = _; omega)))) _ hin4 x)
  have hw5 : ∀ x, tile_run1.sl.dma0_9 m d L fb1 hin1 hin5 x
      = valAt m d 2 (512 * (L 1).val + 256 * (L 0).val + 128 * 1 + (x 0).val) (x 1).val := fun x =>
    (read_writes_whole (b1V).view fb1 _ _ x).trans
      (unit_val m d L 2 1 _ (tabRead2 m d inb_S100001x128_S100001x128_0_0) _
        (fun y => (congrArg BitVec.toNat (offsRead 2 128 inb_S4x256_S1x128_2_128 squeezes_S1x128_S128
              (xFill (tile_run1.sl.dma0 m d L) (tile_run1.sl.dma0_1 m d L) (tile_run1.sl.dma0_2 m d L) (tile_run1.sl.dma0_3 m d L)) y
              (ix2 ⟨2, by decide⟩ ⟨128 + (y 0).val, by have h : (y 0).val < 128 := (y 0).isLt; omega⟩) rfl rfl)).trans
          ((idxRead2 m d L _).trans (congrArg (rowOf (idxOf m d 1 2))
            (by show 512 * (L 1).val + 256 * (L 0).val + (128 + (y 0).val) = _; omega)))) _ hin5 x)
  have hw6 : ∀ x, tile_run1.sl.dma0_10 m d L fb2 hin2 hin6 x
      = valAt m d 3 (512 * (L 1).val + 256 * (L 0).val + 128 * 0 + (x 0).val) (x 1).val := fun x =>
    (read_writes_whole (b2V).view fb2 _ _ x).trans
      (unit_val m d L 3 0 _ (tabRead3 m d inb_S100001x128_S100001x128_0_0) _
        (fun y => (congrArg BitVec.toNat (offsRead 3 0 inb_S4x256_S1x128_3_0 squeezes_S1x128_S128
              (xFill (tile_run1.sl.dma0 m d L) (tile_run1.sl.dma0_1 m d L) (tile_run1.sl.dma0_2 m d L) (tile_run1.sl.dma0_3 m d L)) y
              (ix2 ⟨3, by decide⟩ ⟨0 + (y 0).val, by have h : (y 0).val < 128 := (y 0).isLt; omega⟩) rfl rfl)).trans
          ((idxRead3 m d L _).trans (congrArg (rowOf (idxOf m d 1 3))
            (by show 512 * (L 1).val + 256 * (L 0).val + (0 + (y 0).val) = _; omega)))) _ hin6 x)
  have hw7 : ∀ x, tile_run1.sl.dma0_11 m d L fb3 hin3 hin7 x
      = valAt m d 3 (512 * (L 1).val + 256 * (L 0).val + 128 * 1 + (x 0).val) (x 1).val := fun x =>
    (read_writes_whole (b3V).view fb3 _ _ x).trans
      (unit_val m d L 3 1 _ (tabRead3 m d inb_S100001x128_S100001x128_0_0) _
        (fun y => (congrArg BitVec.toNat (offsRead 3 128 inb_S4x256_S1x128_3_128 squeezes_S1x128_S128
              (xFill (tile_run1.sl.dma0 m d L) (tile_run1.sl.dma0_1 m d L) (tile_run1.sl.dma0_2 m d L) (tile_run1.sl.dma0_3 m d L)) y
              (ix2 ⟨3, by decide⟩ ⟨128 + (y 0).val, by have h : (y 0).val < 128 := (y 0).isLt; omega⟩) rfl rfl)).trans
          ((idxRead3 m d L _).trans (congrArg (rowOf (idxOf m d 1 3))
            (by show 512 * (L 1).val + 256 * (L 0).val + (128 + (y 0).val) = _; omega)))) _ hin7 x)
  isplitl [Hi0' Hi1' Hi2' Hi3' Ht0a Ht0b Ht1a Ht1b Ht2a Ht2b Ht3a Ht3b Ho0 Ho1 Ho2 Ho3 Ho4 Ho5 Ho6 Ho7]
  · isplitl [Hi0' Hi1' Hi2' Hi3' Ht0a Ht0b Ht1a Ht1b Ht2a Ht2b Ht3a Ht3b]
    · isplitl [Hi0' Hi1' Hi2' Hi3']
      · isplitl [Hi0']; · iexact Hi0'
        isplitl [Hi1']; · iexact Hi1'
        isplitl [Hi2']; · iexact Hi2'
        iexact Hi3'
      isplitl [Ht0a Ht0b]
      · iapply (pointsTo_share (PosShare.mem_left_op_right (shV (cL L) (iL L)))).2
        isplitl [Ht0a]; · iexact Ht0a
        iexact Ht0b
      isplitl [Ht1a Ht1b]
      · iapply (pointsTo_share (PosShare.mem_left_op_right (shV (cL L) (iL L)))).2
        isplitl [Ht1a]; · iexact Ht1a
        iexact Ht1b
      isplitl [Ht2a Ht2b]
      · iapply (pointsTo_share (PosShare.mem_left_op_right (shV (cL L) (iL L)))).2
        isplitl [Ht2a]; · iexact Ht2a
        iexact Ht2b
      iapply (pointsTo_share (PosShare.mem_left_op_right (shV (cL L) (iL L)))).2
      isplitl [Ht3a]; · iexact Ht3a
      iexact Ht3b
    isplitl [Ho0]
    · iapply (Entails.of_eq (pointsTo_congr (rect_val m d L hpre (k2_off2 L 0#32) (k2_off2_inb L 0) 0 0
          (congrFun (k2_off2_eq L 0) 0) (congrFun (k2_off2_eq L 0) 1) _ hw0 (feat0 m d 1))))
      iexact Ho0
    isplitl [Ho1]
    · iapply (Entails.of_eq (pointsTo_congr (rect_val m d L hpre (k2_off2 L 128#32) (k2_off2_inb L 1) 0 1
          (congrFun (k2_off2_eq L 1) 0) (congrFun (k2_off2_eq L 1) 1) _ hw1 (feat0 m d 1))))
      iexact Ho1
    isplitl [Ho2]
    · iapply (Entails.of_eq (pointsTo_congr (rect_val m d L hpre (k2_off3 L 0#32) (k2_off3_inb L 0) 1 0
          (congrFun (k2_off3_eq L 0) 0) (congrFun (k2_off3_eq L 0) 1) _ hw2 (feat0 m d 1))))
      iexact Ho2
    isplitl [Ho3]
    · iapply (Entails.of_eq (pointsTo_congr (rect_val m d L hpre (k2_off3 L 128#32) (k2_off3_inb L 1) 1 1
          (congrFun (k2_off3_eq L 1) 0) (congrFun (k2_off3_eq L 1) 1) _ hw3 (feat0 m d 1))))
      iexact Ho3
    isplitl [Ho4]
    · iapply (Entails.of_eq (pointsTo_congr (rect_val m d L hpre (k2_off4 L 0#32) (k2_off4_inb L 0) 2 0
          (congrFun (k2_off4_eq L 0) 0) (congrFun (k2_off4_eq L 0) 1) _ hw4 (feat0 m d 1))))
      iexact Ho4
    isplitl [Ho5]
    · iapply (Entails.of_eq (pointsTo_congr (rect_val m d L hpre (k2_off4 L 128#32) (k2_off4_inb L 1) 2 1
          (congrFun (k2_off4_eq L 1) 0) (congrFun (k2_off4_eq L 1) 1) _ hw5 (feat0 m d 1))))
      iexact Ho5
    isplitl [Ho6]
    · iapply (Entails.of_eq (pointsTo_congr (rect_val m d L hpre (k2_off5 L 0#32) (k2_off5_inb L 0) 3 0
          (congrFun (k2_off5_eq L 0) 0) (congrFun (k2_off5_eq L 0) 1) _ hw6 (feat0 m d 1))))
      iexact Ho6
    iapply (Entails.of_eq (pointsTo_congr (rect_val m d L hpre (k2_off5 L 128#32) (k2_off5_inb L 1) 3 1
        (congrFun (k2_off5_eq L 1) 0) (congrFun (k2_off5_eq L 1) 1) _ hw7 (feat0 m d 1))))
    iexact Ho7
  isplitl [Hx2 Hb0' Hb1' Hb2' Hb3' Hbufs]
  · isplitl [Hx2]; · iexists _; iexact Hx2
    isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hg0 Hg1 Hg2 Hg3 Hw0 Hw1 Hw2 Hw3 Hs0 Hs1 Hs2 Hs3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    isplitl [Hs2]; · iexact Hs2
    isplitl [Hs3]; · iexact Hs3
    iexact Hsems
  iexists _; isplitr
  swap; · iexact HO
  ipureintro
  repeat (first | exact fun p hp => Or.inl hp | refine waits_ins ?_ _)

/-- The task's obligation, in the order of arguments the launch applies it at. -/
theorem tile_body1 (m : (ℓ : Loc nD τ sig) → Buf (Elt F) ℓ) (hF : (K (F := F)).Facts) (hpre : PreOK m) (d : Dev nD) (L : grid2.Coords) (O : CellTallies nD τ sig (HIx 2)) (W : Waits sig (HIx 2)) (hO : ∀ g, O g none = 0) :
    iprop(levAts (K (F := F)).L (K (F := F)).lev ∗ emp ∗ goAt m d 1 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_run1 m d L hF hpre O W hO

end Body
end Cert.KernelIdeal.Sc.C1

end
-- ==== Proof.BScTile0Lib.lean ====
/-
  One vector subcore's task of the first SparseCore call, the pieces its proof is made of.

  The task owns rows `[256 w, 256 w + 256)` of the call's 8192 × 512 feature array, `w = 2 s + c`. It copies its 256
  words of each of the four index slices into the four rows of its index scratch, and then, eight times, gathers 128
  table rows named by 128 of those words into a row buffer and writes the buffer out to one 128 × 128 rectangle of its
  strip: unit `2 t + ch` reads table `t` at the words `128 ch .. 128 ch + 128` of row `t` of the scratch and writes
  rows `256 w + 128 ch ..`, columns `128 t ..` of the feature array.

  Here: the subcore's own buffers and semaphores opened into the task's five scratch buffers and twelve DMA semaphores;
  the strip as the disjoint union of the eight rectangles; what the index scratch holds once the four copies have
  landed, and that every word of it names a table row; and the value of a rectangle after its write-out — column
  `k mod 128` of the row of table `k / 128` that the example's index word names, the call's feature array there.
-/
import proofs.«212020_g4707284156877_cont_8to1c4_553_54_alg».proof.Proof.BScSetup

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-- A separating conjunction over a finite set, with the terms of a duplicate-free list of its members taken out in order. -/
theorem bigSep_list_split {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by simp
  | a :: l, s, hnd, hs => by
    have ha : a ∈ s := hs a (List.mem_cons_self)
    have hnd' := List.nodup_cons.mp hnd
    rw [bigSep_erase ha, bigSep_list_split Φ l (s.erase a) hnd'.2 (fun x hx => Finset.mem_erase.mpr
      ⟨fun e => hnd'.1 (e ▸ hx), hs x (List.mem_cons_of_mem _ hx)⟩)]
    have : s.erase a \ l.toFinset = s \ (a :: l).toFinset := by
      ext x; simp only [Finset.mem_sdiff, Finset.mem_erase, List.toFinset_cons, Finset.mem_insert, List.mem_toFinset]; tauto
    rw [this]; rfl

section Tile

variable (d : Dev nD) (L : grid0.Coords)

/-- The SparseCore and the vector subcore a grid point names, as the thread's coordinates and as numbers below the grid's bounds. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

local notation "i0V" => (Memref.whole Cert.Kernel.main_v0_scv : Memref Cert.Kernel.sig Kind.scVector Space.hbm Cert.Kernel.S8192 EltTy.i32)
local notation "i1V" => (Memref.whole Cert.Kernel.main_v1_scv : Memref Cert.Kernel.sig Kind.scVector Space.hbm Cert.Kernel.S8192 EltTy.i32)
local notation "i2V" => (Memref.whole Cert.Kernel.main_v2_scv : Memref Cert.Kernel.sig Kind.scVector Space.hbm Cert.Kernel.S8192 EltTy.i32)
local notation "i3V" => (Memref.whole Cert.Kernel.main_v3_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v4_scv : Memref Cert.Kernel.sig Kind.scVector Space.hbm Cert.Kernel.S8192x512 EltTy.f32)
local notation "xV" => (Memref.whole Cert.Kernel.cc0_scratch0 : Memref Cert.Kernel.sig Kind.scVector Space.vmem Cert.Kernel.S4x256 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

/-- The twelve DMA semaphores of the task, in the order of its parameters: the four gather semaphores, the four write-out
    semaphores, the four scoped semaphores of the index copies. -/
def semList : List (DmaSem sig) :=
  [cc0_scratch5.sem, cc0_scratch6.sem, cc0_scratch7.sem, cc0_scratch8.sem, cc0_scratch9.sem, cc0_scratch10.sem,
   cc0_scratch11.sem, cc0_scratch12.sem, cc0_scoped0.sem, cc0_scoped1.sem, cc0_scoped2.sem, cc0_scoped3.sem]
def cellOf (thr : Thread nD τ) (x : DmaSem sig) : GSem nD τ sig := (thr, SemLoc.dma x)
def cellList (thr : Thread nD τ) : List (GSem nD τ sig) := semList.map (cellOf thr)

theorem cellList_nodup (thr : Thread nD τ) : (cellList thr).Nodup :=
  List.Nodup.map (fun a b h => by simpa [cellOf] using h) (by decide)

theorem cellList_mem (c : Fin τ.nSC) (j : Fin τ.nSub) : ∀ g ∈ cellList (V d c j), g ∈ ownCells (V d c j) := by
  intro g hg
  obtain ⟨x, hx, rfl⟩ := List.mem_map.mp hg
  refine mem_ownCells.mpr ⟨rfl, ?_⟩
  show (SemLoc.dma x : SemLoc sig).isScoped .scVector = true
  clear hg; revert x; unfold semList; decide

/-- The subcore's own semaphores at zero are the task's twelve and the rest. -/
theorem ownSems0_V :
    (ownSems0 (V d (cV L) (jV L)) : sProp 𝕄)
      = (cellList (V d (cV L) (jV L))).foldr (fun x acc => iprop(semVal x 0 ∗ acc))
          (bigSep (ownCells (V d (cV L) (jV L)) \ (cellList (V d (cV L) (jV L))).toFinset) fun g => semVal g 0) := by
  unfold SparseCore.Cfg.ownSems0
  exact bigSep_list_split _ _ _ (cellList_nodup _) (cellList_mem d _ _)

def refList (c : Fin τ.nSC) (j : Fin τ.nSub) : List (DevRef τ sig) :=
  ([cc0_scratch0, cc0_scratch1, cc0_scratch2, cc0_scratch3, cc0_scratch4] : List (Ref sig .scVector)).map (Proc.scVector c j).devRef

theorem scratch_nodup : ([cc0_scratch0, cc0_scratch1, cc0_scratch2, cc0_scratch3, cc0_scratch4] : List (Ref sig .scVector)).Nodup := by decide

theorem refList_nodup (c : Fin τ.nSC) (j : Fin τ.nSub) : (refList c j).Nodup :=
  List.Nodup.map (Proc.devRef_injective _) scratch_nodup

theorem refList_mem (c : Fin τ.nSC) (j : Fin τ.nSub) : ∀ b ∈ refList c j, b ∈ ownRefs (τ := τ) (.scVector c j) := by
  intro b hb
  simp only [refList, List.map_cons, List.map_nil, List.mem_cons, List.not_mem_nil, or_false] at hb
  rcases hb with rfl | rfl | rfl | rfl | rfl <;> exact SparseCore.Cfg.mem_ownRefs_of_owner (p := Proc.scVector c j) rfl

/-- The subcore's own buffers are the task's five scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (ownRefs (τ := τ) (.scVector (cV L) (jV L)) \ (refList (cV L) (jV L)).toFinset)
              fun b => iprop(∃ f, ((d, b) : Loc nD τ sig) ↦{fullShare} f)) := by
  unfold SparseCore.Cfg.ownBufs
  exact bigSep_list_split _ _ _ (refList_nodup _ _) (refList_mem _ _)

end Tile

section Geo
variable (L : grid0.Coords)

local notation "i0V" => (Memref.whole Cert.Kernel.main_v0_scv : Memref Cert.Kernel.sig Kind.scVector Space.hbm Cert.Kernel.S8192 EltTy.i32)
local notation "i1V" => (Memref.whole Cert.Kernel.main_v1_scv : Memref Cert.Kernel.sig Kind.scVector Space.hbm Cert.Kernel.S8192 EltTy.i32)
local notation "i2V" => (Memref.whole Cert.Kernel.main_v2_scv : Memref Cert.Kernel.sig Kind.scVector Space.hbm Cert.Kernel.S8192 EltTy.i32)
local notation "i3V" => (Memref.whole Cert.Kernel.main_v3_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v4_scv : Memref Cert.Kernel.sig Kind.scVector Space.hbm Cert.Kernel.S8192x512 EltTy.f32)
local notation "xV" => (Memref.whole Cert.Kernel.cc0_scratch0 : Memref Cert.Kernel.sig Kind.scVector Space.vmem Cert.Kernel.S4x256 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

/-- The eight 128 × 128 rectangles of the feature array the task writes, unit `2 t + ch` at rows
    `256 w + 128 ch` and columns `128 t`, as the program slices them. -/
abbrev oS0 (L : grid0.Coords) : Memref sig .scVector .hbm S128x128 .f32 := (oV).slice (Rect.unit (s := S8192x512) (k0_off2 L 0#32) S128x128.size (k0_off2_inb L 0)) (fun _ => rfl)
abbrev oS1 (L : grid0.Coords) : Memref sig .scVector .hbm S128x128 .f32 := (oV).slice (Rect.unit (s := S8192x512) (k0_off2 L 128#32) S128x128.size (k0_off2_inb L 1)) (fun _ => rfl)
abbrev oS2 (L : grid0.Coords) : Memref sig .scVector .hbm S128x128 .f32 := (oV).slice (Rect.unit (s := S8192x512) (k0_off3 L 0#32) S128x128.size (k0_off3_inb L 0)) (fun _ => rfl)
abbrev oS3 (L : grid0.Coords) : Memref sig .scVector .hbm S128x128 .f32 := (oV).slice (Rect.unit (s := S8192x512) (k0_off3 L 128#32) S128x128.size (k0_off3_inb L 1)) (fun _ => rfl)
abbrev oS4 (L : grid0.Coords) : Memref sig .scVector .hbm S128x128 .f32 := (oV).slice (Rect.unit (s := S8192x512) (k0_off4 L 0#32) S128x128.size (k0_off4_inb L 0)) (fun _ => rfl)
abbrev oS5 (L : grid0.Coords) : Memref sig .scVector .hbm S128x128 .f32 := (oV).slice (Rect.unit (s := S8192x512) (k0_off4 L 128#32) S128x128.size (k0_off4_inb L 1)) (fun _ => rfl)
abbrev oS6 (L : grid0.Coords) : Memref sig .scVector .hbm S128x128 .f32 := (oV).slice (Rect.unit (s := S8192x512) (k0_off5 L 0#32) S128x128.size (k0_off5_inb L 0)) (fun _ => rfl)
abbrev oS7 (L : grid0.Coords) : Memref sig .scVector .hbm S128x128 .f32 := (oV).slice (Rect.unit (s := S8192x512) (k0_off5 L 128#32) S128x128.size (k0_off5_inb L 1)) (fun _ => rfl)

/-- Membership in a unit-stride rectangle of the feature array, coordinate by coordinate. -/
theorem mem_unit2 (off size : Fin 2 → ℕ) (inb : ∀ a, off a + size a ≤ S8192x512.size a) (j : S8192x512.Idx) :
    j ∈ (Rect.unit (s := S8192x512) off size inb).set
      ↔ ((off 0 ≤ (j 0).val ∧ (j 0).val < off 0 + size 0) ∧ (off 1 ≤ (j 1).val ∧ (j 1).val < off 1 + size 1)) := by
  rw [(Rect.unit (s := S8192x512) off size inb).mem_set]
  simp only [Rect.off_unit, Rect.size_unit, Rect.stride_unit, Nat.one_mul]
  rw [Fin.forall_fin_two]
  constructor
  · rintro ⟨⟨k0, hk0, e0⟩, ⟨k1, hk1, e1⟩⟩; omega
  · rintro ⟨⟨h1, h2⟩, ⟨h3, h4⟩⟩
    exact ⟨⟨(j 0).val - off 0, by omega, by omega⟩, ⟨(j 1).val - off 1, by omega, by omega⟩⟩

theorem set_oSlice (r : Rect S8192x512) (hr : ∀ a, r.stride a = 1) : ((oV).slice r hr).view.set = r.set := by
  show ((View.whole (main_v4_scv : Ref sig .scVector)).slice r).set = _
  rw [View.set_slice]; exact Finset.map_refl

theorem mem_oSlice (off size : Fin 2 → ℕ) (inb : ∀ a, off a + size a ≤ S8192x512.size a) (j : S8192x512.Idx) :
    j ∈ ((oV).slice (Rect.unit (s := S8192x512) off size inb) (fun _ => rfl)).view.set
      ↔ ((off 0 ≤ (j 0).val ∧ (j 0).val < off 0 + size 0) ∧ (off 1 ≤ (j 1).val ∧ (j 1).val < off 1 + size 1)) :=
  (Finset.ext_iff.mp (set_oSlice (Rect.unit (s := S8192x512) off size inb) (fun _ => rfl)) j).trans (mem_unit2 off size inb j)

/-- The rectangles as a family over the eight units. -/
def oSet (L : grid0.Coords) : Fin 8 → Finset S8192x512.Idx :=
  ![(oS0 L).view.set, (oS1 L).view.set, (oS2 L).view.set, (oS3 L).view.set, (oS4 L).view.set, (oS5 L).view.set, (oS6 L).view.set, (oS7 L).view.set]

theorem mem_oSet (u : Fin 8) (j : S8192x512.Idx) :
    j ∈ oSet L u ↔ ((512 * (L 1).val + 256 * (L 0).val + 128 * (u.val % 2) ≤ (j 0).val ∧ (j 0).val < 512 * (L 1).val + 256 * (L 0).val + 128 * (u.val % 2) + 128)
      ∧ (128 * (u.val / 2) ≤ (j 1).val ∧ (j 1).val < 128 * (u.val / 2) + 128)) := by
  fin_cases u
  all_goals simp only [oSet, Matrix.cons_val_zero, Matrix.cons_val_one, Matrix.cons_val, Fin.zero_eta, Fin.mk_one, Fin.reduceFinMk]
  · have e : k0_off2 L 0#32 = ![512 * (L 1).val + 256 * (L 0).val + 128 * 0, 0] := k0_off2_eq L 0
    refine (mem_oSlice _ _ _ j).trans ?_; rw [e]; simp
  · have e : k0_off2 L 128#32 = ![512 * (L 1).val + 256 * (L 0).val + 128 * 1, 0] := k0_off2_eq L 1
    refine (mem_oSlice _ _ _ j).trans ?_; rw [e]; simp
  · have e : k0_off3 L 0#32 = ![512 * (L 1).val + 256 * (L 0).val + 128 * 0, 128] := k0_off3_eq L 0
    refine (mem_oSlice _ _ _ j).trans ?_; rw [e]; simp
  · have e : k0_off3 L 128#32 = ![512 * (L 1).val + 256 * (L 0).val + 128 * 1, 128] := k0_off3_eq L 1
    refine (mem_oSlice _ _ _ j).trans ?_; rw [e]; simp
  · have e : k0_off4 L 0#32 = ![512 * (L 1).val + 256 * (L 0).val + 128 * 0, 256] := k0_off4_eq L 0
    refine (mem_oSlice _ _ _ j).trans ?_; rw [e]; simp
  · have e : k0_off4 L 128#32 = ![512 * (L 1).val + 256 * (L 0).val + 128 * 1, 256] := k0_off4_eq L 1
    refine (mem_oSlice _ _ _ j).trans ?_; rw [e]; simp
  · have e : k0_off5 L 0#32 = ![512 * (L 1).val + 256 * (L 0).val + 128 * 0, 384] := k0_off5_eq L 0
    refine (mem_oSlice _ _ _ j).trans ?_; rw [e]; simp
  · have e : k0_off5 L 128#32 = ![512 * (L 1).val + 256 * (L 0).val + 128 * 1, 384] := k0_off5_eq L 1
    refine (mem_oSlice _ _ _ j).trans ?_; rw [e]; simp

theorem oSet_disjoint : ∀ u ∈ (Finset.univ : Finset (Fin 8)), ∀ u' ∈ (Finset.univ : Finset (Fin 8)), u ≠ u' → Disjoint (oSet L u) (oSet L u') := by
  intro u _ u' _ hne
  rw [Finset.disjoint_left]
  intro j h1 h2
  rw [mem_oSet] at h1 h2
  exact hne (Fin.ext (by omega))

/-- The worker's strip of the feature array is the eight rectangles. -/
theorem oSet_cover : oRowSet (wid (cL L) (iL L)) = Finset.univ.biUnion (oSet L) := by
  ext j
  rw [Finset.mem_biUnion]
  simp only [Finset.mem_univ, true_and, mem_oSet]
  have h0 : (j 0).val < 8192 := (j 0).isLt
  have h1 : (j 1).val < 512 := (j 1).isLt
  have hw : j ∈ oRowSet (wid (cL L) (iL L))
      ↔ (256 * (2 * (L 1).val + (L 0).val) ≤ (j 0).val ∧ (j 0).val < 256 * (2 * (L 1).val + (L 0).val) + 256) := by
    show j ∈ (Rect.unit (s := S8192x512) _ _ _).set ↔ _
    rw [mem_unit2]
    simp [Shape.partIx, Shape.partSize, wid]
    omega
  rw [hw]
  constructor
  · intro h
    have hn : 2 * ((j 1).val / 128) + ((j 0).val - (512 * (L 1).val + 256 * (L 0).val)) / 128 < 8 := by omega
    refine ⟨⟨_, hn⟩, ?_⟩
    simp only []
    omega
  · rintro ⟨u, hu⟩
    have := u.isLt
    omega

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]; rfl

/-- The strip held at one contents is the eight rectangles held at it, each through its own slice. -/
theorem strip_split (d : Dev nD) (f : S8192x512.Idx → Elt F .f32) :
    ((TT d).loc main_v4 ↦[oRowSet (wid (cL L) (iL L))]{fullShare} f : sProp 𝕄)
      = iprop(((oS0 L).view.loc (V d (cV L) (jV L)) ↦[(oS0 L).view.set]{fullShare} f) ∗ ((oS1 L).view.loc (V d (cV L) (jV L)) ↦[(oS1 L).view.set]{fullShare} f)
          ∗ ((oS2 L).view.loc (V d (cV L) (jV L)) ↦[(oS2 L).view.set]{fullShare} f) ∗ ((oS3 L).view.loc (V d (cV L) (jV L)) ↦[(oS3 L).view.set]{fullShare} f)
          ∗ ((oS4 L).view.loc (V d (cV L) (jV L)) ↦[(oS4 L).view.set]{fullShare} f) ∗ ((oS5 L).view.loc (V d (cV L) (jV L)) ↦[(oS5 L).view.set]{fullShare} f)
          ∗ ((oS6 L).view.loc (V d (cV L) (jV L)) ↦[(oS6 L).view.set]{fullShare} f) ∗ ((oS7 L).view.loc (V d (cV L) (jV L)) ↦[(oS7 L).view.set]{fullShare} f)) := by
  rw [oSet_cover, pointsTo_biUnion _ _ (oSet_disjoint L), bigSep_fin8]; rfl

end Geo

section Scratch
variable (L : grid0.Coords)

local notation "i0V" => (Memref.whole Cert.Kernel.main_v0_scv : Memref Cert.Kernel.sig Kind.scVector Space.hbm Cert.Kernel.S8192 EltTy.i32)
local notation "i1V" => (Memref.whole Cert.Kernel.main_v1_scv : Memref Cert.Kernel.sig Kind.scVector Space.hbm Cert.Kernel.S8192 EltTy.i32)
local notation "i2V" => (Memref.whole Cert.Kernel.main_v2_scv : Memref Cert.Kernel.sig Kind.scVector Space.hbm Cert.Kernel.S8192 EltTy.i32)
local notation "i3V" => (Memref.whole Cert.Kernel.main_v3_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v4_scv : Memref Cert.Kernel.sig Kind.scVector Space.hbm Cert.Kernel.S8192x512 EltTy.f32)
local notation "xV" => (Memref.whole Cert.Kernel.cc0_scratch0 : Memref Cert.Kernel.sig Kind.scVector Space.vmem Cert.Kernel.S4x256 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

/-- Where a squeezed one-row slice of the index scratch puts its words: row `t`, columns from `c`. -/
theorem xRow_emb (t c n : ℕ) (inb : ∀ a, (![t, c] : Fin 2 → ℕ) a + (![1, n] : Fin 2 → ℕ) a ≤ S4x256.size a)
    (hq : (Rect.unit (s := S4x256) ![t, c] ![1, n] inb).shape.Squeezes ⟨1, ![n]⟩) (x : (⟨1, ![n]⟩ : Shape).Idx) :
    (((((xV).slice (Rect.unit (s := S4x256) ![t, c] ![1, n] inb) (fun _ => rfl)).squeeze ⟨1, ![n]⟩ hq).view.emb x) 0).val = t
      ∧ (((((xV).slice (Rect.unit (s := S4x256) ![t, c] ![1, n] inb) (fun _ => rfl)).squeeze ⟨1, ![n]⟩ hq).view.emb x) 1).val = c + (x 0).val := by
  have e : Shape.reshapeEquiv (s := (Rect.unit (s := S4x256) ![t, c] ![1, n] inb).shape) (s' := ⟨1, ![n]⟩) hq.numel_eq x = Fin.cons ⟨0, Nat.one_pos⟩ x :=
    Shape.reshapeEquiv_cons_one (n := 1) (d := ![n]) hq.numel_eq x
  show (((Rect.unit (s := S4x256) ![t, c] ![1, n] inb).emb (Shape.reshapeEquiv hq.numel_eq x)) 0).val = t
    ∧ (((Rect.unit (s := S4x256) ![t, c] ![1, n] inb).emb (Shape.reshapeEquiv hq.numel_eq x)) 1).val = c + (x 0).val
  rw [e]
  simp only [Rect.emb_apply, Rect.off_unit, Rect.stride_unit, Nat.one_mul]
  refine ⟨?_, ?_⟩
  · exact Nat.add_zero t
  · rfl

/-- Writing one row of the index scratch through its squeezed slice: row `t` takes the payload, the other rows keep theirs. -/
theorem xRow_write (t : ℕ) (inb : ∀ a, (![t, 0] : Fin 2 → ℕ) a + (![1, 256] : Fin 2 → ℕ) a ≤ S4x256.size a)
    (hq : (Rect.unit (s := S4x256) ![t, 0] ![1, 256] inb).shape.Squeezes S256)
    (f : S4x256.Idx → Elt F .i32) (w : S256.Idx → Elt F .i32) (j : S4x256.Idx) :
    View.write (Elt F) (((xV).slice (Rect.unit (s := S4x256) ![t, 0] ![1, 256] inb) (fun _ => rfl)).squeeze S256 hq).view f w Finset.univ j
      = if (j 0).val = t then w (ix1 (j 1)) else f j := by
  by_cases h : (j 0).val = t
  · rw [if_pos h]
    have hj : (((xV).slice (Rect.unit (s := S4x256) ![t, 0] ![1, 256] inb) (fun _ => rfl)).squeeze S256 hq).view.emb (ix1 (j 1)) = j := by
      obtain ⟨h0, h1⟩ := xRow_emb t 0 256 inb hq (ix1 (j 1))
      funext a
      refine Fin.ext ?_
      match a with
      | 0 => exact h0.trans h.symm
      | 1 => rw [h1]; simp [ix1]
    conv_lhs => rw [← hj]
    rw [View.write_emb_of_mem _ _ (Finset.mem_univ _)]
    rfl
  · rw [if_neg h]
    refine View.write_of_not_mem _ _ _ fun hm => h ?_
    rw [View.setOn_univ] at hm
    obtain ⟨x, _, rfl⟩ := Finset.mem_map.mp hm
    exact (xRow_emb t 0 256 inb hq x).1

/-- The index scratch once the four copies have landed: row `t` holds the payload of copy `t`. -/
def xFill (p0 p1 p2 p3 : S256.Idx → Elt F .i32) : S4x256.Idx → Elt F .i32 := fun j =>
  if (j 0).val = 3 then p3 (ix1 (j 1)) else if (j 0).val = 2 then p2 (ix1 (j 1)) else if (j 0).val = 1 then p1 (ix1 (j 1)) else p0 (ix1 (j 1))

theorem xFill_le (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999) (j : S4x256.Idx) : (xFill p0 p1 p2 p3 j).toNat ≤ 99999 := by
  unfold xFill; split_ifs <;> first | exact h0 _ | exact h1 _ | exact h2 _ | exact h3 _

/-- The four copies, one after the other, fill the scratch. -/
theorem scratch_eq (fx : S4x256.Idx → Elt F .i32) (p0 p1 p2 p3 : S256.Idx → Elt F .i32) (j : S4x256.Idx) :
    View.write (Elt F) (((xV).slice (Rect.unit (s := S4x256) ![3, 0] S1x256.size inb_S4x256_S1x256_3_0) (fun _ => rfl)).squeeze S256 squeezes_S1x256_S256).view
      (View.write (Elt F) (((xV).slice (Rect.unit (s := S4x256) ![2, 0] S1x256.size inb_S4x256_S1x256_2_0) (fun _ => rfl)).squeeze S256 squeezes_S1x256_S256).view
        (View.write (Elt F) (((xV).slice (Rect.unit (s := S4x256) ![1, 0] S1x256.size inb_S4x256_S1x256_1_0) (fun _ => rfl)).squeeze S256 squeezes_S1x256_S256).view
          (View.write (Elt F) (((xV).slice (Rect.unit (s := S4x256) ![0, 0] S1x256.size inb_S4x256_S1x256_0_0) (fun _ => rfl)).squeeze S256 squeezes_S1x256_S256).view fx p0 Finset.univ) p1 Finset.univ) p2 Finset.univ) p3 Finset.univ j
      = xFill p0 p1 p2 p3 j := by
  have hj : (j 0).val < 4 := (j 0).isLt
  unfold xFill
  refine (xRow_write 3 _ _ _ _ j).trans ?_
  by_cases h3 : (j 0).val = 3
  · rw [if_pos h3, if_pos h3]
  rw [if_neg h3, if_neg h3]
  refine (xRow_write 2 _ _ _ _ j).trans ?_
  by_cases h2 : (j 0).val = 2
  · rw [if_pos h2, if_pos h2]
  rw [if_neg h2, if_neg h2]
  refine (xRow_write 1 _ _ _ _ j).trans ?_
  by_cases h1 : (j 0).val = 1
  · rw [if_pos h1, if_pos h1]
  rw [if_neg h1, if_neg h1]
  refine (xRow_write 0 _ _ _ _ j).trans ?_
  rw [if_pos (by omega)]

theorem idxOf_le (hpre : PreOK m) (d : Dev nD) (q : Fin 2) (k : Fin 4) (j : S8192.Idx) : (idxOf m d q k j).toNat ≤ 99999 := hpre d k _

/-- An offset list read out of the filled scratch names rows of a table. -/
theorem hin_xFill (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999)
    (r : Rect S4x256) (hr : ∀ a, r.stride a = 1) (hq : r.shape.Squeezes S128) :
    ∀ x, ((((xV).slice r hr).squeeze S128 hq).view.read (Elt F) (xFill p0 p1 p2 p3) x).toNat < S100001x128.size gathers_S100001x128_S128x128.axis := by
  intro x
  rw [show (((xV).slice r hr).squeeze S128 hq).view.read (Elt F) (xFill p0 p1 p2 p3) x = xFill p0 p1 p2 p3 ((((xV).slice r hr).squeeze S128 hq).view.emb x)
    from (View.read_apply _ _).trans (cast_eq _ _)]
  exact Nat.lt_of_le_of_lt (xFill_le p0 p1 p2 p3 h0 h1 h2 h3 _) (by decide)

end Scratch

section Value
variable (d : Dev nD) (L : grid0.Coords)

local notation "i0V" => (Memref.whole Cert.Kernel.main_v0_scv : Memref Cert.Kernel.sig Kind.scVector Space.hbm Cert.Kernel.S8192 EltTy.i32)
local notation "i1V" => (Memref.whole Cert.Kernel.main_v1_scv : Memref Cert.Kernel.sig Kind.scVector Space.hbm Cert.Kernel.S8192 EltTy.i32)
local notation "i2V" => (Memref.whole Cert.Kernel.main_v2_scv : Memref Cert.Kernel.sig Kind.scVector Space.hbm Cert.Kernel.S8192 EltTy.i32)
local notation "i3V" => (Memref.whole Cert.Kernel.main_v3_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v4_scv : Memref Cert.Kernel.sig Kind.scVector Space.hbm Cert.Kernel.S8192x512 EltTy.f32)
local notation "xV" => (Memref.whole Cert.Kernel.cc0_scratch0 : Memref Cert.Kernel.sig Kind.scVector Space.vmem Cert.Kernel.S4x256 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

/-- Word `r` of an index slice as a number, and column `c` of row `r` of a table, total on the naturals. -/
def rowOf (i : S8192.Idx → BitVec 32) (r : ℕ) : ℕ := if h : r < 8192 then (i (ix1 ⟨r, h⟩)).toNat else 0
def tabAt (e : S100001x128.Idx → Elt F .f32) (r c : ℕ) : Elt F .f32 :=
  if h : r < 100001 ∧ c < 128 then e (ix2 ⟨r, h.1⟩ ⟨c, h.2⟩) else e (ix2 ⟨0, by decide⟩ ⟨0, by decide⟩)
/-- Column `c` of the row of table `t` that word `r` of call 0's index slice `t` names. -/
def valAt (t : Fin 4) (r c : ℕ) : Elt F .f32 := tabAt (tabOf m d t) (rowOf (idxOf m d 0 t) r) c

/-- The call's feature array at an index, through `valAt`. -/
theorem featOf_eq (hpre : PreOK m) (j : S8192x512.Idx) (t : Fin 4) (ht : (j 1).val / 128 = t.val) :
    featOf m d 0 j = valAt m d t (j 0).val ((j 1).val % 128) := by
  have h0 : (j 0).val < 8192 := (j 0).isLt
  have h1 : (j 1).val < 512 := (j 1).isLt
  have et : (⟨(j 1).val / 128, by omega⟩ : Fin 4) = t := Fin.ext ht
  have hle : (idxOf m d 0 t (ix1 ⟨(j 0).val, h0⟩)).toNat ≤ 99999 := idxOf_le m hpre d 0 t _
  unfold valAt tabAt rowOf
  rw [dif_pos h0, dif_pos ⟨by omega, Nat.mod_lt _ (by decide)⟩]
  show tabOf m d ⟨(j 1).val / 128, _⟩ (ix2 ⟨min (idxOf m d 0 ⟨(j 1).val / 128, _⟩ (ix1 ⟨(j 0).val, _⟩)).toNat 100000, _⟩ ⟨(j 1).val % 128, _⟩) = _
  simp only [et]
  congr 2
  exact Fin.ext (Nat.min_eq_left (by omega))

/-- The gather's payload at an index: the source at the row the list's word names, same column. -/
theorem gather_val (g : S100001x128.Idx → Elt F .f32) (idf : S128.Idx → Elt F .i32)
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = g (ix2 ⟨(idf (ix1 (x 0))).toNat, hin _⟩ (x 1)) := by
  unfold SparseCore.gatherPayload
  congr 1
  funext a
  refine Fin.ext ?_
  match a with
  | 0 =>
    have h1 := Shape.Gathers.idx_axis gathers_S100001x128_S128x128 (SparseCore.rows idf hn hin) x
    have h2 : S128.rowMajor.symm ((x gathers_S100001x128_S128x128.axis').cast hn.symm) = ix1 (x 0) := by
      exact (Equiv.symm_apply_eq _).mpr (Fin.ext (Shape.rowMajor_val_one (d := ![128]) (ix1 (x 0))).symm)
    show ((gathers_S100001x128_S128x128.idx (SparseCore.rows idf hn hin) x) gathers_S100001x128_S128x128.axis).val = (idf (ix1 (x 0))).toNat
    rw [h1]
    show (idf (S128.rowMajor.symm ((x gathers_S100001x128_S128x128.axis').cast hn.symm))).toNat = _
    rw [h2]
    rfl
  | 1 =>
    exact Shape.Gathers.idx_of_ne gathers_S100001x128_S128x128 _ x 1 (by decide)

/-- A whole-shape piece at the head of a list of writes is what the view reads back. -/
theorem read_writes_whole {sig' : RefSig} {κ : Kind} {sp : Space} {s : Shape} {e : EltTy} {Val : EltTy → Type}
    (v : View sig' κ sp s e) (f : v.ty.Contents Val) (w : (Rect.whole s).shape.Idx → Val e) (Ls : List (View.Piece Val s e)) (x : (Rect.whole s).shape.Idx) :
    v.read Val (v.writes Val f (⟨Rect.whole s, w⟩ :: Ls)) x = w x := by
  have := View.read_writes_cons_emb v f (Rect.whole s) w Ls x
  rwa [Rect.emb_whole_apply] at this

/-- One of the eight rectangles after its write-out, where the payload is the gathered rows: the call's feature array there. -/
theorem rect_val (hpre : PreOK m) (off : Fin 2 → ℕ) (inb : ∀ a, off a + S128x128.size a ≤ S8192x512.size a) (t : Fin 4) (ch : ℕ)
    (hoff0 : off 0 = 512 * (L 1).val + 256 * (L 0).val + 128 * ch) (hoff1 : off 1 = 128 * t.val)
    (w : S128x128.Idx → Elt F .f32) (hw : ∀ x, w x = valAt m d t (512 * (L 1).val + 256 * (L 0).val + 128 * ch + (x 0).val) (x 1).val)
    (f : S8192x512.Idx → Elt F .f32) :
    ∀ j ∈ ((oV).slice (Rect.unit (s := S8192x512) off S128x128.size inb) (fun _ => rfl)).view.set,
      ((oV).slice (Rect.unit (s := S8192x512) off S128x128.size inb) (fun _ => rfl)).view.writes (Elt F) f [⟨Rect.whole S128x128, w⟩] j = featOf m d 0 j := by
  intro j hj
  obtain ⟨x, _, rfl⟩ := Finset.mem_map.mp hj
  have e0 : ((((oV).slice (Rect.unit (s := S8192x512) off S128x128.size inb) (fun _ => rfl)).view.emb x) 0).val = off 0 + (x 0).val := by
    show off 0 + 1 * (x 0).val = _; rw [Nat.one_mul]
  have e1 : ((((oV).slice (Rect.unit (s := S8192x512) off S128x128.size inb) (fun _ => rfl)).view.emb x) 1).val = off 1 + (x 1).val := by
    show off 1 + 1 * (x 1).val = _; rw [Nat.one_mul]
  have hx1 : (x 1).val < 128 := (x 1).isLt
  have hr := read_writes_whole ((oV).slice (Rect.unit (s := S8192x512) off S128x128.size inb) (fun _ => rfl)).view f w [] x
  rw [View.read_apply] at hr
  rw [featOf_eq m d hpre _ t (by rw [e1, hoff1]; omega), e0, e1, hoff0, hoff1]
  refine Eq.trans ?_ ((hw x).trans ?_)
  · exact (cast_eq _ _).symm.trans hr
  · congr 1; omega

theorem Lbounds : (L 0).val < 2 ∧ (L 1).val < 16 := ⟨(L 0).isLt, (L 1).isLt⟩

theorem tabRead0 (inb : ∀ a, (![0, 0] : Fin 2 → ℕ) a + S100001x128.size a ≤ S100001x128.size a) (y : S100001x128.Idx) :
    View.read (Elt F) ((t0V).slice (Rect.unit (s := S100001x128) ![0, 0] S100001x128.size inb) (fun _ => rfl)).view (tabOf m d 0) y = tabOf m d 0 y := by
  rw [View.read_apply]
  refine (cast_eq _ _).trans (congrArg (tabOf m d 0) ?_)
  funext a; refine Fin.ext ?_
  show (![0, 0] : Fin 2 → ℕ) a + 1 * (y a).val = (y a).val
  match a with
  | 0 => simp
  | 1 => simp
theorem tabRead1 (inb : ∀ a, (![0, 0] : Fin 2 → ℕ) a + S100001x128.size a ≤ S100001x128.size a) (y : S100001x128.Idx) :
    View.read (Elt F) ((t1V).slice (Rect.unit (s := S100001x128) ![0, 0] S100001x128.size inb) (fun _ => rfl)).view (tabOf m d 1) y = tabOf m d 1 y := by
  rw [View.read_apply]
  refine (cast_eq _ _).trans (congrArg (tabOf m d 1) ?_)
  funext a; refine Fin.ext ?_
  show (![0, 0] : Fin 2 → ℕ) a + 1 * (y a).val = (y a).val
  match a with
  | 0 => simp
  | 1 => simp
theorem tabRead2 (inb : ∀ a, (![0, 0] : Fin 2 → ℕ) a + S100001x128.size a ≤ S100001x128.size a) (y : S100001x128.Idx) :
    View.read (Elt F) ((t2V).slice (Rect.unit (s := S100001x128) ![0, 0] S100001x128.size inb) (fun _ => rfl)).view (tabOf m d 2) y = tabOf m d 2 y := by
  rw [View.read_apply]
  refine (cast_eq _ _).trans (congrArg (tabOf m d 2) ?_)
  funext a; refine Fin.ext ?_
  show (![0, 0] : Fin 2 → ℕ) a + 1 * (y a).val = (y a).val
  match a with
  | 0 => simp
  | 1 => simp
theorem tabRead3 (inb : ∀ a, (![0, 0] : Fin 2 → ℕ) a + S100001x128.size a ≤ S100001x128.size a) (y : S100001x128.Idx) :
    View.read (Elt F) ((t3V).slice (Rect.unit (s := S100001x128) ![0, 0] S100001x128.size inb) (fun _ => rfl)).view (tabOf m d 3) y = tabOf m d 3 y := by
  rw [View.read_apply]
  refine (cast_eq _ _).trans (congrArg (tabOf m d 3) ?_)
  funext a; refine Fin.ext ?_
  show (![0, 0] : Fin 2 → ℕ) a + 1 * (y a).val = (y a).val
  match a with
  | 0 => simp
  | 1 => simp

theorem idxRead0 (y : S256.Idx) :
    (View.read (Elt F) ((i0V).slice (Rect.unit (s := S8192) (k0_off1 L) S256.size (k0_off1_inb L)) (fun _ => rfl)).view (idxOf m d 0 0) y).toNat
      = rowOf (idxOf m d 0 0) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 0) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead1 (y : S256.Idx) :
    (View.read (Elt F) ((i1V).slice (Rect.unit (s := S8192) (k0_off1 L) S256.size (k0_off1_inb L)) (fun _ => rfl)).view (idxOf m d 0 1) y).toNat
      = rowOf (idxOf m d 0 1) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 1) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead2 (y : S256.Idx) :
    (View.read (Elt F) ((i2V).slice (Rect.unit (s := S8192) (k0_off1 L) S256.size (k0_off1_inb L)) (fun _ => rfl)).view (idxOf m d 0 2) y).toNat
      = rowOf (idxOf m d 0 2) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 2) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega
theorem idxRead3 (y : S256.Idx) :
    (View.read (Elt F) ((i3V).slice (Rect.unit (s := S8192) (k0_off1 L) S256.size (k0_off1_inb L)) (fun _ => rfl)).view (idxOf m d 0 3) y).toNat
      = rowOf (idxOf m d 0 3) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 0 3) ?_))
  funext a; refine Fin.ext ?_
  match a with
  | 0 =>
    have e : k0_off1 L 0 = 512 * (L 1).val + 256 * (L 0).val := congrFun (k0_off1_eq L) 0
    show k0_off1 L 0 + 1 * (y 0).val = 512 * (L 1).val + 256 * (L 0).val + (y 0).val
    omega

/-- A squeezed one-row slice of the index scratch reads the scratch at its row, from its column. -/
theorem offsRead (t c : ℕ) (inb : ∀ a, (![t, c] : Fin 2 → ℕ) a + (![1, 128] : Fin 2 → ℕ) a ≤ S4x256.size a)
    (hq : (Rect.unit (s := S4x256) ![t, c] ![1, 128] inb).shape.Squeezes S128)
    (X : S4x256.Idx → Elt F .i32) (y : S128.Idx) (J : S4x256.Idx) (hJ0 : (J 0).val = t) (hJ1 : (J 1).val = c + (y 0).val) :
    View.read (Elt F) (((xV).slice (Rect.unit (s := S4x256) ![t, c] ![1, 128] inb) (fun _ => rfl)).squeeze S128 hq).view X y = X J := by
  rw [View.read_apply]
  refine (cast_eq _ _).trans (congrArg X ?_)
  obtain ⟨h0, h1⟩ := xRow_emb t c 128 inb hq y
  funext a; refine Fin.ext ?_
  match a with
  | 0 => exact h0.trans hJ0.symm
  | 1 => exact h1.trans hJ1.symm

/-- One unit's gather: with the source reading table `t` and the list reading the words `128 ch ..` of the worker's part of
    index slice `t`, the payload is `valAt` of those words. -/
theorem unit_val (t : Fin 4) (ch : ℕ)
    (g : S100001x128.Idx → Elt F .f32) (hg : ∀ y, g y = tabOf m d t y)
    (idf : S128.Idx → Elt F .i32)
    (hidf : ∀ y, (idf y).toNat = rowOf (idxOf m d 0 t) (512 * (L 1).val + 256 * (L 0).val + 128 * ch + (y 0).val))
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = valAt m d t (512 * (L 1).val + 256 * (L 0).val + 128 * ch + (x 0).val) (x 1).val := by
  have hx1 : (x 1).val < 128 := (x 1).isLt
  have hlt : (idf (ix1 (x 0))).toNat < 100001 := hin _
  rw [gather_val, hg, valAt, ← hidf (ix1 (x 0)), tabAt, dif_pos ⟨hlt, hx1⟩]
  rfl

end Value

end Cert.Kernel.Sc

end
-- ==== Proof.BScTile0.lean ====
/-
  One vector subcore's task of the first SparseCore call: run from its first copy to its return, it leaves the index
  slices and the tables as they were and its strip of the feature array at the gathered rows.

  The four index copies and their waits, the eight indirect gathers (two in flight at a time, each on its own semaphore,
  each reading its table through one half of the task's read share and its offsets through its own 128 words of the
  index scratch), the eight write-outs and all the waits are stepped in program order; the offsets are in range
  because the scratch then holds words of the index slices, which the precondition bounds. Each rectangle of the strip
  is written once, by its own unit, with the payload of that unit's gather; the eight rectangles tile the strip.
-/
import proofs.«212020_g4707284156877_cont_8to1c4_553_54_alg».proof.Proof.BScTile0Lib

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

section Body
variable [FloatOps F] (d : Dev nD) (L : grid0.Coords)

local notation "i0V" => (Memref.whole Cert.Kernel.main_v0_scv : Memref Cert.Kernel.sig Kind.scVector Space.hbm Cert.Kernel.S8192 EltTy.i32)
local notation "i1V" => (Memref.whole Cert.Kernel.main_v1_scv : Memref Cert.Kernel.sig Kind.scVector Space.hbm Cert.Kernel.S8192 EltTy.i32)
local notation "i2V" => (Memref.whole Cert.Kernel.main_v2_scv : Memref Cert.Kernel.sig Kind.scVector Space.hbm Cert.Kernel.S8192 EltTy.i32)
local notation "i3V" => (Memref.whole Cert.Kernel.main_v3_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v4_scv : Memref Cert.Kernel.sig Kind.scVector Space.hbm Cert.Kernel.S8192x512 EltTy.f32)
local notation "xV" => (Memref.whole Cert.Kernel.cc0_scratch0 : Memref Cert.Kernel.sig Kind.scVector Space.vmem Cert.Kernel.S4x256 EltTy.i32)
local notation "b0V" => (Memref.whole Cert.Kernel.cc0_scratch1 : Memref Cert.Kernel.sig Kind.scVector Space.vmem Cert.Kernel.S128x128 EltTy.f32)
local notation "b1V" => (Memref.whole Cert.Kernel.cc0_scratch2 : Memref Cert.Kernel.sig Kind.scVector Space.vmem Cert.Kernel.S128x128 EltTy.f32)
local notation "b2V" => (Memref.whole Cert.Kernel.cc0_scratch3 : Memref Cert.Kernel.sig Kind.scVector Space.vmem Cert.Kernel.S128x128 EltTy.f32)
local notation "b3V" => (Memref.whole Cert.Kernel.cc0_scratch4 : Memref Cert.Kernel.sig Kind.scVector Space.vmem Cert.Kernel.S128x128 EltTy.f32)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]; rfl

/-- A task's operands, one by one: the four index slices, the four tables, its strip of the feature array. -/
theorem goAt0_eq (c : Fin 2) (i : Fin 16) (f : S8192x512.Idx → Elt F .f32) :
    (iprop(readsPts m d 0 (shV c i) ∗ stripPts d (wid c i) f 0) : sProp 𝕄)
      = iprop(((((TT d).loc main_v0 ↦{shV c i} idxOf m d 0 0) ∗ ((TT d).loc main_v1 ↦{shV c i} idxOf m d 0 1)
            ∗ ((TT d).loc main_v2 ↦{shV c i} idxOf m d 0 2) ∗ ((TT d).loc main_v3 ↦{shV c i} idxOf m d 0 3))
          ∗ (((TT d).loc main_arg4 ↦{shV c i} tabOf m d 0) ∗ ((TT d).loc main_arg5 ↦{shV c i} tabOf m d 1)
            ∗ ((TT d).loc main_arg6 ↦{shV c i} tabOf m d 2) ∗ ((TT d).loc main_arg7 ↦{shV c i} tabOf m d 3)))
          ∗ ((TT d).loc main_v4 ↦[oRowSet (wid c i)]{fullShare} f)) := by
  unfold readsPts; rw [bigSep_fin4, bigSep_fin4]; rfl

omit [FloatOps F] in
theorem waits_ins {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with rfl | hp
  · exact .inr rfl
  · exact h p hp

set_option maxHeartbeats 8000000 in
theorem tile_run0 (hF : (K (F := F)).Facts) (hpre : PreOK m) (O : CellTallies nD τ sig (HIx 2)) (W : Waits sig (HIx 2)) (hO : ∀ g, O g none = 0) :
    iprop(levAts (K (F := F)).L (K (F := F)).lev ∗ emp ∗ goAt m d 0 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  simp only [cellList, semList, List.map_cons, List.map_nil, List.foldr_cons, List.foldr_nil, cellOf]
  unfold goAt tdAt
  rw [goAt0_eq, goAt0_eq, strip_split L d (feat0 m d 0), strip_split L d (featOf m d 0)]
  iintro ⟨#Hlv, -, ⟨⟨⟨Hi0, Hi1, Hi2, Hi3⟩, ⟨Ht0, Ht1, Ht2, Ht3⟩⟩, ⟨Ho0, Ho1, Ho2, Ho3, Ho4, Ho5, Ho6, Ho7⟩⟩, ⟨⟨%fx, Hx⟩, ⟨%fb0, Hb0⟩, ⟨%fb1, Hb1⟩, ⟨%fb2, Hb2⟩, ⟨%fb3, Hb3⟩, Hbufs⟩,
    ⟨Hg0, Hg1, Hg2, Hg3, Hw0, Hw1, Hw2, Hw3, Hs0, Hs1, Hs2, Hs3, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi0' := (Entails.of_eq (show ((TT d).loc main_v0 ↦{shV (cL L) (iL L)} idxOf m d 0 0 : sProp 𝕄) = (i0V).view.loc (V d (cV L) (jV L)) ↦{shV (cL L) (iL L)} idxOf m d 0 0 from rfl)) $$ Hi0
  ihave Hi1' := (Entails.of_eq (show ((TT d).loc main_v1 ↦{shV (cL L) (iL L)} idxOf m d 0 1 : sProp 𝕄) = (i1V).view.loc (V d (cV L) (jV L)) ↦{shV (cL L) (iL L)} idxOf m d 0 1 from rfl)) $$ Hi1
  ihave Hi2' := (Entails.of_eq (show ((TT d).loc main_v2 ↦{shV (cL L) (iL L)} idxOf m d 0 2 : sProp 𝕄) = (i2V).view.loc (V d (cV L) (jV L)) ↦{shV (cL L) (iL L)} idxOf m d 0 2 from rfl)) $$ Hi2
  ihave Hi3' := (Entails.of_eq (show ((TT d).loc main_v3 ↦{shV (cL L) (iL L)} idxOf m d 0 3 : sProp 𝕄) = (i3V).view.loc (V d (cV L) (jV L)) ↦{shV (cL L) (iL L)} idxOf m d 0 3 from rfl)) $$ Hi3
  ihave Ht0' := (Entails.of_eq (show ((TT d).loc main_arg4 ↦{shV (cL L) (iL L)} tabOf m d 0 : sProp 𝕄) = (t0V).view.loc (V d (cV L) (jV L)) ↦{shV (cL L) (iL L)} tabOf m d 0 from rfl)) $$ Ht0
  ihave Ht1' := (Entails.of_eq (show ((TT d).loc main_arg5 ↦{shV (cL L) (iL L)} tabOf m d 1 : sProp 𝕄) = (t1V).view.loc (V d (cV L) (jV L)) ↦{shV (cL L) (iL L)} tabOf m d 1 from rfl)) $$ Ht1
  ihave Ht2' := (Entails.of_eq (show ((TT d).loc main_arg6 ↦{shV (cL L) (iL L)} tabOf m d 2 : sProp 𝕄) = (t2V).view.loc (V d (cV L) (jV L)) ↦{shV (cL L) (iL L)} tabOf m d 2 from rfl)) $$ Ht2
  ihave Ht3' := (Entails.of_eq (show ((TT d).loc main_arg7 ↦{shV (cL L) (iL L)} tabOf m d 3 : sProp 𝕄) = (t3V).view.loc (V d (cV L) (jV L)) ↦{shV (cL L) (iL L)} tabOf m d 3 from rfl)) $$ Ht3
  ihave Hx' := (Entails.of_eq (show ((V d (cV L) (jV L)).loc cc0_scratch0 ↦{fullShare} fx : sProp 𝕄) = (xV).view.loc (V d (cV L) (jV L)) ↦{fullShare} fx from rfl)) $$ Hx
  ihave Hb0' := (Entails.of_eq (show ((V d (cV L) (jV L)).loc cc0_scratch1 ↦{fullShare} fb0 : sProp 𝕄) = (b0V).view.loc (V d (cV L) (jV L)) ↦{fullShare} fb0 from rfl)) $$ Hb0
  ihave Hb1' := (Entails.of_eq (show ((V d (cV L) (jV L)).loc cc0_scratch2 ↦{fullShare} fb1 : sProp 𝕄) = (b1V).view.loc (V d (cV L) (jV L)) ↦{fullShare} fb1 from rfl)) $$ Hb1
  ihave Hb2' := (Entails.of_eq (show ((V d (cV L) (jV L)).loc cc0_scratch3 ↦{fullShare} fb2 : sProp 𝕄) = (b2V).view.loc (V d (cV L) (jV L)) ↦{fullShare} fb2 from rfl)) $$ Hb2
  ihave Hb3' := (Entails.of_eq (show ((V d (cV L) (jV L)).loc cc0_scratch4 ↦{fullShare} fb3 : sProp 𝕄) = (b3V).view.loc (V d (cV L) (jV L)) ↦{fullShare} fb3 from rfl)) $$ Hb3
  ihave Ht0s := (pointsTo_share (PosShare.mem_left_op_right (shV (cL L) (iL L)))).1 $$ Ht0'
  icases Ht0s with ⟨Ht0a, Ht0b⟩
  ihave Ht1s := (pointsTo_share (PosShare.mem_left_op_right (shV (cL L) (iL L)))).1 $$ Ht1'
  icases Ht1s with ⟨Ht1a, Ht1b⟩
  ihave Ht2s := (pointsTo_share (PosShare.mem_left_op_right (shV (cL L) (iL L)))).1 $$ Ht2'
  icases Ht2s with ⟨Ht2a, Ht2b⟩
  ihave Ht3s := (pointsTo_share (PosShare.mem_left_op_right (shV (cL L) (iL L)))).1 $$ Ht3'
  icases Ht3s with ⟨Ht3a, Ht3b⟩
  sl_exec
  ihave Hx2 := (Entails.of_eq (pointsTo_congr (q := fullShare) (I := Finset.univ) (fun j _ => scratch_eq fx (tile_run0.sl.dma0 m d L) (tile_run0.sl.dma0_1 m d L) (tile_run0.sl.dma0_2 m d L) (tile_run0.sl.dma0_3 m d L) j))) $$ Hx'
  have hp0 : ∀ x, (tile_run0.sl.dma0 m d L x).toNat ≤ 99999 := fun x => by
    show (idxOf m d 0 0 (((i0V).slice (Rect.unit (s := S8192) (k0_off1 L) S256.size (k0_off1_inb L)) (fun _ => rfl)).view.emb x)).toNat ≤ 99999
    exact idxOf_le m hpre d 0 0 _
  have hp1 : ∀ x, (tile_run0.sl.dma0_1 m d L x).toNat ≤ 99999 := fun x => by
    show (idxOf m d 0 1 (((i1V).slice (Rect.unit (s := S8192) (k0_off1 L) S256.size (k0_off1_inb L)) (fun _ => rfl)).view.emb x)).toNat ≤ 99999
    exact idxOf_le m hpre d 0 1 _
  have hp2 : ∀ x, (tile_run0.sl.dma0_2 m d L x).toNat ≤ 99999 := fun x => by
    show (idxOf m d 0 2 (((i2V).slice (Rect.unit (s := S8192) (k0_off1 L) S256.size (k0_off1_inb L)) (fun _ => rfl)).view.emb x)).toNat ≤ 99999
    exact idxOf_le m hpre d 0 2 _
  have hp3 : ∀ x, (tile_run0.sl.dma0_3 m d L x).toNat ≤ 99999 := fun x => by
    show (idxOf m d 0 3 (((i3V).slice (Rect.unit (s := S8192) (k0_off1 L) S256.size (k0_off1_inb L)) (fun _ => rfl)).view.emb x)).toNat ≤ 99999
    exact idxOf_le m hpre d 0 3 _
  have hin0 := hin_xFill (tile_run0.sl.dma0 m d L) (tile_run0.sl.dma0_1 m d L) (tile_run0.sl.dma0_2 m d L) (tile_run0.sl.dma0_3 m d L) hp0 hp1 hp2 hp3 (Rect.unit (s := S4x256) ![0, 0] S1x128.size inb_S4x256_S1x128_0_0) (fun _ => rfl) squeezes_S1x128_S128
  have hin1 := hin_xFill (tile_run0.sl.dma0 m d L) (tile_run0.sl.dma0_1 m d L) (tile_run0.sl.dma0_2 m d L) (tile_run0.sl.dma0_3 m d L) hp0 hp1 hp2 hp3 (Rect.unit (s := S4x256) ![0, 128] S1x128.size inb_S4x256_S1x128_0_128) (fun _ => rfl) squeezes_S1x128_S128
  have hin2 := hin_xFill (tile_run0.sl.dma0 m d L) (tile_run0.sl.dma0_1 m d L) (tile_run0.sl.dma0_2 m d L) (tile_run0.sl.dma0_3 m d L) hp0 hp1 hp2 hp3 (Rect.unit (s := S4x256) ![1, 0] S1x128.size inb_S4x256_S1x128_1_0) (fun _ => rfl) squeezes_S1x128_S128
  have hin3 := hin_xFill (tile_run0.sl.dma0 m d L) (tile_run0.sl.dma0_1 m d L) (tile_run0.sl.dma0_2 m d L) (tile_run0.sl.dma0_3 m d L) hp0 hp1 hp2 hp3 (Rect.unit (s := S4x256) ![1, 128] S1x128.size inb_S4x256_S1x128_1_128) (fun _ => rfl) squeezes_S1x128_S128
  have hin4 := hin_xFill (tile_run0.sl.dma0 m d L) (tile_run0.sl.dma0_1 m d L) (tile_run0.sl.dma0_2 m d L) (tile_run0.sl.dma0_3 m d L) hp0 hp1 hp2 hp3 (Rect.unit (s := S4x256) ![2, 0] S1x128.size inb_S4x256_S1x128_2_0) (fun _ => rfl) squeezes_S1x128_S128
  have hin5 := hin_xFill (tile_run0.sl.dma0 m d L) (tile_run0.sl.dma0_1 m d L) (tile_run0.sl.dma0_2 m d L) (tile_run0.sl.dma0_3 m d L) hp0 hp1 hp2 hp3 (Rect.unit (s := S4x256) ![2, 128] S1x128.size inb_S4x256_S1x128_2_128) (fun _ => rfl) squeezes_S1x128_S128
  have hin6 := hin_xFill (tile_run0.sl.dma0 m d L) (tile_run0.sl.dma0_1 m d L) (tile_run0.sl.dma0_2 m d L) (tile_run0.sl.dma0_3 m d L) hp0 hp1 hp2 hp3 (Rect.unit (s := S4x256) ![3, 0] S1x128.size inb_S4x256_S1x128_3_0) (fun _ => rfl) squeezes_S1x128_S128
  have hin7 := hin_xFill (tile_run0.sl.dma0 m d L) (tile_run0.sl.dma0_1 m d L) (tile_run0.sl.dma0_2 m d L) (tile_run0.sl.dma0_3 m d L) hp0 hp1 hp2 hp3 (Rect.unit (s := S4x256) ![3, 128] S1x128.size inb_S4x256_S1x128_3_128) (fun _ => rfl) squeezes_S1x128_S128
  sl_exec
  sl_step
  have hw0 : ∀ x, tile_run0.sl.dma0_4 m d L fb0 hin0 x
      = valAt m d 0 (512 * (L 1).val + 256 * (L 0).val + 128 * 0 + (x 0).val) (x 1).val := fun x =>
    (read_writes_whole (b0V).view fb0 _ _ x).trans
      (unit_val m d L 0 0 _ (tabRead0 m d inb_S100001x128_S100001x128_0_0) _
        (fun y => (congrArg BitVec.toNat (offsRead 0 0 inb_S4x256_S1x128_0_0 squeezes_S1x128_S128
              (xFill (tile_run0.sl.dma0 m d L) (tile_run0.sl.dma0_1 m d L) (tile_run0.sl.dma0_2 m d L) (tile_run0.sl.dma0_3 m d L)) y
              (ix2 ⟨0, by decide⟩ ⟨0 + (y 0).val, by have h : (y 0).val < 128 := (y 0).isLt; omega⟩) rfl rfl)).trans
          ((idxRead0 m d L _).trans (congrArg (rowOf (idxOf m d 0 0))
            (by show 512 * (L 1).val + 256 * (L 0).val + (0 + (y 0).val) = _; omega)))) _ hin0 x)
  have hw1 : ∀ x, tile_run0.sl.dma0_5 m d L fb1 hin1 x
      = valAt m d 0 (512 * (L 1).val + 256 * (L 0).val + 128 * 1 + (x 0).val) (x 1).val := fun x =>
    (read_writes_whole (b1V).view fb1 _ _ x).trans
      (unit_val m d L 0 1 _ (tabRead0 m d inb_S100001x128_S100001x128_0_0) _
        (fun y => (congrArg BitVec.toNat (offsRead 0 128 inb_S4x256_S1x128_0_128 squeezes_S1x128_S128
              (xFill (tile_run0.sl.dma0 m d L) (tile_run0.sl.dma0_1 m d L) (tile_run0.sl.dma0_2 m d L) (tile_run0.sl.dma0_3 m d L)) y
              (ix2 ⟨0, by decide⟩ ⟨128 + (y 0).val, by have h : (y 0).val < 128 := (y 0).isLt; omega⟩) rfl rfl)).trans
          ((idxRead0 m d L _).trans (congrArg (rowOf (idxOf m d 0 0))
            (by show 512 * (L 1).val + 256 * (L 0).val + (128 + (y 0).val) = _; omega)))) _ hin1 x)
  have hw2 : ∀ x, tile_run0.sl.dma0_6 m d L fb2 hin2 x
      = valAt m d 1 (512 * (L 1).val + 256 * (L 0).val + 128 * 0 + (x 0).val) (x 1).val := fun x =>
    (read_writes_whole (b2V).view fb2 _ _ x).trans
      (unit_val m d L 1 0 _ (tabRead1 m d inb_S100001x128_S100001x128_0_0) _
        (fun y => (congrArg BitVec.toNat (offsRead 1 0 inb_S4x256_S1x128_1_0 squeezes_S1x128_S128
              (xFill (tile_run0.sl.dma0 m d L) (tile_run0.sl.dma0_1 m d L) (tile_run0.sl.dma0_2 m d L) (tile_run0.sl.dma0_3 m d L)) y
              (ix2 ⟨1, by decide⟩ ⟨0 + (y 0).val, by have h : (y 0).val < 128 := (y 0).isLt; omega⟩) rfl rfl)).trans
          ((idxRead1 m d L _).trans (congrArg (rowOf (idxOf m d 0 1))
            (by show 512 * (L 1).val + 256 * (L 0).val + (0 + (y 0).val) = _; omega)))) _ hin2 x)
  have hw3 : ∀ x, tile_run0.sl.dma0_7 m d L fb3 hin3 x
      = valAt m d 1 (512 * (L 1).val + 256 * (L 0).val + 128 * 1 + (x 0).val) (x 1).val := fun x =>
    (read_writes_whole (b3V).view fb3 _ _ x).trans
      (unit_val m d L 1 1 _ (tabRead1 m d inb_S100001x128_S100001x128_0_0) _
        (fun y => (congrArg BitVec.toNat (offsRead 1 128 inb_S4x256_S1x128_1_128 squeezes_S1x128_S128
              (xFill (tile_run0.sl.dma0 m d L) (tile_run0.sl.dma0_1 m d L) (tile_run0.sl.dma0_2 m d L) (tile_run0.sl.dma0_3 m d L)) y
              (ix2 ⟨1, by decide⟩ ⟨128 + (y 0).val, by have h : (y 0).val < 128 := (y 0).isLt; omega⟩) rfl rfl)).trans
          ((idxRead1 m d L _).trans (congrArg (rowOf (idxOf m d 0 1))
            (by show 512 * (L 1).val + 256 * (L 0).val + (128 + (y 0).val) = _; omega)))) _ hin3 x)
  have hw4 : ∀ x, tile_run0.sl.dma0_8 m d L fb0 hin0 hin4 x
      = valAt m d 2 (512 * (L 1).val + 256 * (L 0).val + 128 * 0 + (x 0).val) (x 1).val := fun x =>
    (read_writes_whole (b0V).view fb0 _ _ x).trans
      (unit_val m d L 2 0 _ (tabRead2 m d inb_S100001x128_S100001x128_0_0) _
        (fun y => (congrArg BitVec.toNat (offsRead 2 0 inb_S4x256_S1x128_2_0 squeezes_S1x128_S128
              (xFill (tile_run0.sl.dma0 m d L) (tile_run0.sl.dma0_1 m d L) (tile_run0.sl.dma0_2 m d L) (tile_run0.sl.dma0_3 m d L)) y
              (ix2 ⟨2, by decide⟩ ⟨0 + (y 0).val, by have h : (y 0).val < 128 := (y 0).isLt; omega⟩) rfl rfl)).trans
          ((idxRead2 m d L _).trans (congrArg (rowOf (idxOf m d 0 2))
            (by show 512 * (L 1).val + 256 * (L 0).val + (0 + (y 0).val) = _; omega)))) _ hin4 x)
  have hw5 : ∀ x, tile_run0.sl.dma0_9 m d L fb1 hin1 hin5 x
      = valAt m d 2 (512 * (L 1).val + 256 * (L 0).val + 128 * 1 + (x 0).val) (x 1).val := fun x =>
    (read_writes_whole (b1V).view fb1 _ _ x).trans
      (unit_val m d L 2 1 _ (tabRead2 m d inb_S100001x128_S100001x128_0_0) _
        (fun y => (congrArg BitVec.toNat (offsRead 2 128 inb_S4x256_S1x128_2_128 squeezes_S1x128_S128
              (xFill (tile_run0.sl.dma0 m d L) (tile_run0.sl.dma0_1 m d L) (tile_run0.sl.dma0_2 m d L) (tile_run0.sl.dma0_3 m d L)) y
              (ix2 ⟨2, by decide⟩ ⟨128 + (y 0).val, by have h : (y 0).val < 128 := (y 0).isLt; omega⟩) rfl rfl)).trans
          ((idxRead2 m d L _).trans (congrArg (rowOf (idxOf m d 0 2))
            (by show 512 * (L 1).val + 256 * (L 0).val + (128 + (y 0).val) = _; omega)))) _ hin5 x)
  have hw6 : ∀ x, tile_run0.sl.dma0_10 m d L fb2 hin2 hin6 x
      = valAt m d 3 (512 * (L 1).val + 256 * (L 0).val + 128 * 0 + (x 0).val) (x 1).val := fun x =>
    (read_writes_whole (b2V).view fb2 _ _ x).trans
      (unit_val m d L 3 0 _ (tabRead3 m d inb_S100001x128_S100001x128_0_0) _
        (fun y => (congrArg BitVec.toNat (offsRead 3 0 inb_S4x256_S1x128_3_0 squeezes_S1x128_S128
              (xFill (tile_run0.sl.dma0 m d L) (tile_run0.sl.dma0_1 m d L) (tile_run0.sl.dma0_2 m d L) (tile_run0.sl.dma0_3 m d L)) y
              (ix2 ⟨3, by decide⟩ ⟨0 + (y 0).val, by have h : (y 0).val < 128 := (y 0).isLt; omega⟩) rfl rfl)).trans
          ((idxRead3 m d L _).trans (congrArg (rowOf (idxOf m d 0 3))
            (by show 512 * (L 1).val + 256 * (L 0).val + (0 + (y 0).val) = _; omega)))) _ hin6 x)
  have hw7 : ∀ x, tile_run0.sl.dma0_11 m d L fb3 hin3 hin7 x
      = valAt m d 3 (512 * (L 1).val + 256 * (L 0).val + 128 * 1 + (x 0).val) (x 1).val := fun x =>
    (read_writes_whole (b3V).view fb3 _ _ x).trans
      (unit_val m d L 3 1 _ (tabRead3 m d inb_S100001x128_S100001x128_0_0) _
        (fun y => (congrArg BitVec.toNat (offsRead 3 128 inb_S4x256_S1x128_3_128 squeezes_S1x128_S128
              (xFill (tile_run0.sl.dma0 m d L) (tile_run0.sl.dma0_1 m d L) (tile_run0.sl.dma0_2 m d L) (tile_run0.sl.dma0_3 m d L)) y
              (ix2 ⟨3, by decide⟩ ⟨128 + (y 0).val, by have h : (y 0).val < 128 := (y 0).isLt; omega⟩) rfl rfl)).trans
          ((idxRead3 m d L _).trans (congrArg (rowOf (idxOf m d 0 3))
            (by show 512 * (L 1).val + 256 * (L 0).val + (128 + (y 0).val) = _; omega)))) _ hin7 x)
  isplitl [Hi0' Hi1' Hi2' Hi3' Ht0a Ht0b Ht1a Ht1b Ht2a Ht2b Ht3a Ht3b Ho0 Ho1 Ho2 Ho3 Ho4 Ho5 Ho6 Ho7]
  · isplitl [Hi0' Hi1' Hi2' Hi3' Ht0a Ht0b Ht1a Ht1b Ht2a Ht2b Ht3a Ht3b]
    · isplitl [Hi0' Hi1' Hi2' Hi3']
      · isplitl [Hi0']; · iexact Hi0'
        isplitl [Hi1']; · iexact Hi1'
        isplitl [Hi2']; · iexact Hi2'
        iexact Hi3'
      isplitl [Ht0a Ht0b]
      · iapply (pointsTo_share (PosShare.mem_left_op_right (shV (cL L) (iL L)))).2
        isplitl [Ht0a]; · iexact Ht0a
        iexact Ht0b
      isplitl [Ht1a Ht1b]
      · iapply (pointsTo_share (PosShare.mem_left_op_right (shV (cL L) (iL L)))).2
        isplitl [Ht1a]; · iexact Ht1a
        iexact Ht1b
      isplitl [Ht2a Ht2b]
      · iapply (pointsTo_share (PosShare.mem_left_op_right (shV (cL L) (iL L)))).2
        isplitl [Ht2a]; · iexact Ht2a
        iexact Ht2b
      iapply (pointsTo_share (PosShare.mem_left_op_right (shV (cL L) (iL L)))).2
      isplitl [Ht3a]; · iexact Ht3a
      iexact Ht3b
    isplitl [Ho0]
    · iapply (Entails.of_eq (pointsTo_congr (rect_val m d L hpre (k0_off2 L 0#32) (k0_off2_inb L 0) 0 0
          (congrFun (k0_off2_eq L 0) 0) (congrFun (k0_off2_eq L 0) 1) _ hw0 (feat0 m d 0))))
      iexact Ho0
    isplitl [Ho1]
    · iapply (Entails.of_eq (pointsTo_congr (rect_val m d L hpre (k0_off2 L 128#32) (k0_off2_inb L 1) 0 1
          (congrFun (k0_off2_eq L 1) 0) (congrFun (k0_off2_eq L 1) 1) _ hw1 (feat0 m d 0))))
      iexact Ho1
    isplitl [Ho2]
    · iapply (Entails.of_eq (pointsTo_congr (rect_val m d L hpre (k0_off3 L 0#32) (k0_off3_inb L 0) 1 0
          (congrFun (k0_off3_eq L 0) 0) (congrFun (k0_off3_eq L 0) 1) _ hw2 (feat0 m d 0))))
      iexact Ho2
    isplitl [Ho3]
    · iapply (Entails.of_eq (pointsTo_congr (rect_val m d L hpre (k0_off3 L 128#32) (k0_off3_inb L 1) 1 1
          (congrFun (k0_off3_eq L 1) 0) (congrFun (k0_off3_eq L 1) 1) _ hw3 (feat0 m d 0))))
      iexact Ho3
    isplitl [Ho4]
    · iapply (Entails.of_eq (pointsTo_congr (rect_val m d L hpre (k0_off4 L 0#32) (k0_off4_inb L 0) 2 0
          (congrFun (k0_off4_eq L 0) 0) (congrFun (k0_off4_eq L 0) 1) _ hw4 (feat0 m d 0))))
      iexact Ho4
    isplitl [Ho5]
    · iapply (Entails.of_eq (pointsTo_congr (rect_val m d L hpre (k0_off4 L 128#32) (k0_off4_inb L 1) 2 1
          (congrFun (k0_off4_eq L 1) 0) (congrFun (k0_off4_eq L 1) 1) _ hw5 (feat0 m d 0))))
      iexact Ho5
    isplitl [Ho6]
    · iapply (Entails.of_eq (pointsTo_congr (rect_val m d L hpre (k0_off5 L 0#32) (k0_off5_inb L 0) 3 0
          (congrFun (k0_off5_eq L 0) 0) (congrFun (k0_off5_eq L 0) 1) _ hw6 (feat0 m d 0))))
      iexact Ho6
    iapply (Entails.of_eq (pointsTo_congr (rect_val m d L hpre (k0_off5 L 128#32) (k0_off5_inb L 1) 3 1
        (congrFun (k0_off5_eq L 1) 0) (congrFun (k0_off5_eq L 1) 1) _ hw7 (feat0 m d 0))))
    iexact Ho7
  isplitl [Hx2 Hb0' Hb1' Hb2' Hb3' Hbufs]
  · isplitl [Hx2]; · iexists _; iexact Hx2
    isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hg0 Hg1 Hg2 Hg3 Hw0 Hw1 Hw2 Hw3 Hs0 Hs1 Hs2 Hs3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    isplitl [Hs2]; · iexact Hs2
    isplitl [Hs3]; · iexact Hs3
    iexact Hsems
  iexists _; isplitr
  swap; · iexact HO
  ipureintro
  repeat (first | exact fun p hp => Or.inl hp | refine waits_ins ?_ _)

/-- The task's obligation, in the order of arguments the launch applies it at. -/
theorem tile_body0 (m : (ℓ : Loc nD τ sig) → Buf (Elt F) ℓ) (hF : (K (F := F)).Facts) (hpre : PreOK m) (d : Dev nD) (L : grid0.Coords) (O : CellTallies nD τ sig (HIx 2)) (W : Waits sig (HIx 2)) (hO : ∀ g, O g none = 0) :
    iprop(levAts (K (F := F)).L (K (F := F)).lev ∗ emp ∗ goAt m d 0 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc0_scratch5 cc0_scratch6 cc0_scratch7 cc0_scratch8 cc0_scratch9 cc0_scratch10 cc0_scratch11 cc0_scratch12 cc0_scoped0 cc0_scoped1 cc0_scoped2 cc0_scoped3)
          fun _ => iprop(tdAt m d 0 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_run0 m d L hF hpre O W hO

end Body
end Cert.Kernel.Sc

end
-- ==== Proof.BScTile1Lib.lean ====
/-
  One vector subcore's task of the second SparseCore call, the pieces its proof is made of.

  The task owns rows `[256 w, 256 w + 256)` of the call's 8192 × 512 feature array, `w = 2 s + c`. It copies its 256
  words of each of the four index slices into the four rows of its index scratch, and then, eight times, gathers 128
  table rows named by 128 of those words into a row buffer and writes the buffer out to one 128 × 128 rectangle of its
  strip: unit `2 t + ch` reads table `t` at the words `128 ch .. 128 ch + 128` of row `t` of the scratch and writes
  rows `256 w + 128 ch ..`, columns `128 t ..` of the feature array.

  Here: the subcore's own buffers and semaphores opened into the task's five scratch buffers and twelve DMA semaphores;
  the strip as the disjoint union of the eight rectangles; what the index scratch holds once the four copies have
  landed, and that every word of it names a table row; and the value of a rectangle after its write-out — column
  `k mod 128` of the row of table `k / 128` that the example's index word names, the call's feature array there.
-/
import proofs.«212020_g4707284156877_cont_8to1c4_553_54_alg».proof.Proof.BScSetup

noncomputable section

namespace Cert.Kernel.Sc.C1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-- A separating conjunction over a finite set, with the terms of a duplicate-free list of its members taken out in order. -/
theorem bigSep_list_split {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by simp
  | a :: l, s, hnd, hs => by
    have ha : a ∈ s := hs a (List.mem_cons_self)
    have hnd' := List.nodup_cons.mp hnd
    rw [bigSep_erase ha, bigSep_list_split Φ l (s.erase a) hnd'.2 (fun x hx => Finset.mem_erase.mpr
      ⟨fun e => hnd'.1 (e ▸ hx), hs x (List.mem_cons_of_mem _ hx)⟩)]
    have : s.erase a \ l.toFinset = s \ (a :: l).toFinset := by
      ext x; simp only [Finset.mem_sdiff, Finset.mem_erase, List.toFinset_cons, Finset.mem_insert, List.mem_toFinset]; tauto
    rw [this]; rfl

section Tile

variable (d : Dev nD) (L : grid2.Coords)

/-- The SparseCore and the vector subcore a grid point names, as the thread's coordinates and as numbers below the grid's bounds. -/
abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

local notation "i0V" => (Memref.whole Cert.Kernel.main_v15_scv : Memref Cert.Kernel.sig Kind.scVector Space.hbm Cert.Kernel.S8192 EltTy.i32)
local notation "i1V" => (Memref.whole Cert.Kernel.main_v16_scv : Memref Cert.Kernel.sig Kind.scVector Space.hbm Cert.Kernel.S8192 EltTy.i32)
local notation "i2V" => (Memref.whole Cert.Kernel.main_v17_scv : Memref Cert.Kernel.sig Kind.scVector Space.hbm Cert.Kernel.S8192 EltTy.i32)
local notation "i3V" => (Memref.whole Cert.Kernel.main_v18_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v19_scv : Memref Cert.Kernel.sig Kind.scVector Space.hbm Cert.Kernel.S8192x512 EltTy.f32)
local notation "xV" => (Memref.whole Cert.Kernel.cc2_scratch0 : Memref Cert.Kernel.sig Kind.scVector Space.vmem Cert.Kernel.S4x256 EltTy.i32)
local notation "b0V" => (Memref.whole Cert.Kernel.cc2_scratch1 : Memref Cert.Kernel.sig Kind.scVector Space.vmem Cert.Kernel.S128x128 EltTy.f32)
local notation "b1V" => (Memref.whole Cert.Kernel.cc2_scratch2 : Memref Cert.Kernel.sig Kind.scVector Space.vmem Cert.Kernel.S128x128 EltTy.f32)
local notation "b2V" => (Memref.whole Cert.Kernel.cc2_scratch3 : Memref Cert.Kernel.sig Kind.scVector Space.vmem Cert.Kernel.S128x128 EltTy.f32)
local notation "b3V" => (Memref.whole Cert.Kernel.cc2_scratch4 : Memref Cert.Kernel.sig Kind.scVector Space.vmem Cert.Kernel.S128x128 EltTy.f32)

/-- The twelve DMA semaphores of the task, in the order of its parameters: the four gather semaphores, the four write-out
    semaphores, the four scoped semaphores of the index copies. -/
def semList : List (DmaSem sig) :=
  [cc2_scratch5.sem, cc2_scratch6.sem, cc2_scratch7.sem, cc2_scratch8.sem, cc2_scratch9.sem, cc2_scratch10.sem,
   cc2_scratch11.sem, cc2_scratch12.sem, cc2_scoped0.sem, cc2_scoped1.sem, cc2_scoped2.sem, cc2_scoped3.sem]
def cellOf (thr : Thread nD τ) (x : DmaSem sig) : GSem nD τ sig := (thr, SemLoc.dma x)
def cellList (thr : Thread nD τ) : List (GSem nD τ sig) := semList.map (cellOf thr)

theorem cellList_nodup (thr : Thread nD τ) : (cellList thr).Nodup :=
  List.Nodup.map (fun a b h => by simpa [cellOf] using h) (by decide)

theorem cellList_mem (c : Fin τ.nSC) (j : Fin τ.nSub) : ∀ g ∈ cellList (V d c j), g ∈ ownCells (V d c j) := by
  intro g hg
  obtain ⟨x, hx, rfl⟩ := List.mem_map.mp hg
  refine mem_ownCells.mpr ⟨rfl, ?_⟩
  show (SemLoc.dma x : SemLoc sig).isScoped .scVector = true
  clear hg; revert x; unfold semList; decide

/-- The subcore's own semaphores at zero are the task's twelve and the rest. -/
theorem ownSems0_V :
    (ownSems0 (V d (cV L) (jV L)) : sProp 𝕄)
      = (cellList (V d (cV L) (jV L))).foldr (fun x acc => iprop(semVal x 0 ∗ acc))
          (bigSep (ownCells (V d (cV L) (jV L)) \ (cellList (V d (cV L) (jV L))).toFinset) fun g => semVal g 0) := by
  unfold SparseCore.Cfg.ownSems0
  exact bigSep_list_split _ _ _ (cellList_nodup _) (cellList_mem d _ _)

def refList (c : Fin τ.nSC) (j : Fin τ.nSub) : List (DevRef τ sig) :=
  ([cc2_scratch0, cc2_scratch1, cc2_scratch2, cc2_scratch3, cc2_scratch4] : List (Ref sig .scVector)).map (Proc.scVector c j).devRef

theorem scratch_nodup : ([cc2_scratch0, cc2_scratch1, cc2_scratch2, cc2_scratch3, cc2_scratch4] : List (Ref sig .scVector)).Nodup := by decide

theorem refList_nodup (c : Fin τ.nSC) (j : Fin τ.nSub) : (refList c j).Nodup :=
  List.Nodup.map (Proc.devRef_injective _) scratch_nodup

theorem refList_mem (c : Fin τ.nSC) (j : Fin τ.nSub) : ∀ b ∈ refList c j, b ∈ ownRefs (τ := τ) (.scVector c j) := by
  intro b hb
  simp only [refList, List.map_cons, List.map_nil, List.mem_cons, List.not_mem_nil, or_false] at hb
  rcases hb with rfl | rfl | rfl | rfl | rfl <;> exact SparseCore.Cfg.mem_ownRefs_of_owner (p := Proc.scVector c j) rfl

/-- The subcore's own buffers are the task's five scratch buffers, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ (∃ f, (V d (cV L) (jV L)).loc cc2_scratch4 ↦{fullShare} f)
          ∗ bigSep (ownRefs (τ := τ) (.scVector (cV L) (jV L)) \ (refList (cV L) (jV L)).toFinset)
              fun b => iprop(∃ f, ((d, b) : Loc nD τ sig) ↦{fullShare} f)) := by
  unfold SparseCore.Cfg.ownBufs
  exact bigSep_list_split _ _ _ (refList_nodup _ _) (refList_mem _ _)

end Tile

section Geo
variable (L : grid2.Coords)

local notation "i0V" => (Memref.whole Cert.Kernel.main_v15_scv : Memref Cert.Kernel.sig Kind.scVector Space.hbm Cert.Kernel.S8192 EltTy.i32)
local notation "i1V" => (Memref.whole Cert.Kernel.main_v16_scv : Memref Cert.Kernel.sig Kind.scVector Space.hbm Cert.Kernel.S8192 EltTy.i32)
local notation "i2V" => (Memref.whole Cert.Kernel.main_v17_scv : Memref Cert.Kernel.sig Kind.scVector Space.hbm Cert.Kernel.S8192 EltTy.i32)
local notation "i3V" => (Memref.whole Cert.Kernel.main_v18_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v19_scv : Memref Cert.Kernel.sig Kind.scVector Space.hbm Cert.Kernel.S8192x512 EltTy.f32)
local notation "xV" => (Memref.whole Cert.Kernel.cc2_scratch0 : Memref Cert.Kernel.sig Kind.scVector Space.vmem Cert.Kernel.S4x256 EltTy.i32)
local notation "b0V" => (Memref.whole Cert.Kernel.cc2_scratch1 : Memref Cert.Kernel.sig Kind.scVector Space.vmem Cert.Kernel.S128x128 EltTy.f32)
local notation "b1V" => (Memref.whole Cert.Kernel.cc2_scratch2 : Memref Cert.Kernel.sig Kind.scVector Space.vmem Cert.Kernel.S128x128 EltTy.f32)
local notation "b2V" => (Memref.whole Cert.Kernel.cc2_scratch3 : Memref Cert.Kernel.sig Kind.scVector Space.vmem Cert.Kernel.S128x128 EltTy.f32)
local notation "b3V" => (Memref.whole Cert.Kernel.cc2_scratch4 : Memref Cert.Kernel.sig Kind.scVector Space.vmem Cert.Kernel.S128x128 EltTy.f32)

/-- The eight 128 × 128 rectangles of the feature array the task writes, unit `2 t + ch` at rows
    `256 w + 128 ch` and columns `128 t`, as the program slices them. -/
abbrev oS0 (L : grid2.Coords) : Memref sig .scVector .hbm S128x128 .f32 := (oV).slice (Rect.unit (s := S8192x512) (k2_off2 L 0#32) S128x128.size (k2_off2_inb L 0)) (fun _ => rfl)
abbrev oS1 (L : grid2.Coords) : Memref sig .scVector .hbm S128x128 .f32 := (oV).slice (Rect.unit (s := S8192x512) (k2_off2 L 128#32) S128x128.size (k2_off2_inb L 1)) (fun _ => rfl)
abbrev oS2 (L : grid2.Coords) : Memref sig .scVector .hbm S128x128 .f32 := (oV).slice (Rect.unit (s := S8192x512) (k2_off3 L 0#32) S128x128.size (k2_off3_inb L 0)) (fun _ => rfl)
abbrev oS3 (L : grid2.Coords) : Memref sig .scVector .hbm S128x128 .f32 := (oV).slice (Rect.unit (s := S8192x512) (k2_off3 L 128#32) S128x128.size (k2_off3_inb L 1)) (fun _ => rfl)
abbrev oS4 (L : grid2.Coords) : Memref sig .scVector .hbm S128x128 .f32 := (oV).slice (Rect.unit (s := S8192x512) (k2_off4 L 0#32) S128x128.size (k2_off4_inb L 0)) (fun _ => rfl)
abbrev oS5 (L : grid2.Coords) : Memref sig .scVector .hbm S128x128 .f32 := (oV).slice (Rect.unit (s := S8192x512) (k2_off4 L 128#32) S128x128.size (k2_off4_inb L 1)) (fun _ => rfl)
abbrev oS6 (L : grid2.Coords) : Memref sig .scVector .hbm S128x128 .f32 := (oV).slice (Rect.unit (s := S8192x512) (k2_off5 L 0#32) S128x128.size (k2_off5_inb L 0)) (fun _ => rfl)
abbrev oS7 (L : grid2.Coords) : Memref sig .scVector .hbm S128x128 .f32 := (oV).slice (Rect.unit (s := S8192x512) (k2_off5 L 128#32) S128x128.size (k2_off5_inb L 1)) (fun _ => rfl)

/-- Membership in a unit-stride rectangle of the feature array, coordinate by coordinate. -/
theorem mem_unit2 (off size : Fin 2 → ℕ) (inb : ∀ a, off a + size a ≤ S8192x512.size a) (j : S8192x512.Idx) :
    j ∈ (Rect.unit (s := S8192x512) off size inb).set
      ↔ ((off 0 ≤ (j 0).val ∧ (j 0).val < off 0 + size 0) ∧ (off 1 ≤ (j 1).val ∧ (j 1).val < off 1 + size 1)) := by
  rw [(Rect.unit (s := S8192x512) off size inb).mem_set]
  simp only [Rect.off_unit, Rect.size_unit, Rect.stride_unit, Nat.one_mul]
  rw [Fin.forall_fin_two]
  constructor
  · rintro ⟨⟨k0, hk0, e0⟩, ⟨k1, hk1, e1⟩⟩; omega
  · rintro ⟨⟨h1, h2⟩, ⟨h3, h4⟩⟩
    exact ⟨⟨(j 0).val - off 0, by omega, by omega⟩, ⟨(j 1).val - off 1, by omega, by omega⟩⟩

theorem set_oSlice (r : Rect S8192x512) (hr : ∀ a, r.stride a = 1) : ((oV).slice r hr).view.set = r.set := by
  show ((View.whole (main_v19_scv : Ref sig .scVector)).slice r).set = _
  rw [View.set_slice]; exact Finset.map_refl

theorem mem_oSlice (off size : Fin 2 → ℕ) (inb : ∀ a, off a + size a ≤ S8192x512.size a) (j : S8192x512.Idx) :
    j ∈ ((oV).slice (Rect.unit (s := S8192x512) off size inb) (fun _ => rfl)).view.set
      ↔ ((off 0 ≤ (j 0).val ∧ (j 0).val < off 0 + size 0) ∧ (off 1 ≤ (j 1).val ∧ (j 1).val < off 1 + size 1)) :=
  (Finset.ext_iff.mp (set_oSlice (Rect.unit (s := S8192x512) off size inb) (fun _ => rfl)) j).trans (mem_unit2 off size inb j)

/-- The rectangles as a family over the eight units. -/
def oSet (L : grid2.Coords) : Fin 8 → Finset S8192x512.Idx :=
  ![(oS0 L).view.set, (oS1 L).view.set, (oS2 L).view.set, (oS3 L).view.set, (oS4 L).view.set, (oS5 L).view.set, (oS6 L).view.set, (oS7 L).view.set]

theorem mem_oSet (u : Fin 8) (j : S8192x512.Idx) :
    j ∈ oSet L u ↔ ((512 * (L 1).val + 256 * (L 0).val + 128 * (u.val % 2) ≤ (j 0).val ∧ (j 0).val < 512 * (L 1).val + 256 * (L 0).val + 128 * (u.val % 2) + 128)
      ∧ (128 * (u.val / 2) ≤ (j 1).val ∧ (j 1).val < 128 * (u.val / 2) + 128)) := by
  fin_cases u
  all_goals simp only [oSet, Matrix.cons_val_zero, Matrix.cons_val_one, Matrix.cons_val, Fin.zero_eta, Fin.mk_one, Fin.reduceFinMk]
  · have e : k2_off2 L 0#32 = ![512 * (L 1).val + 256 * (L 0).val + 128 * 0, 0] := k2_off2_eq L 0
    refine (mem_oSlice _ _ _ j).trans ?_; rw [e]; simp
  · have e : k2_off2 L 128#32 = ![512 * (L 1).val + 256 * (L 0).val + 128 * 1, 0] := k2_off2_eq L 1
    refine (mem_oSlice _ _ _ j).trans ?_; rw [e]; simp
  · have e : k2_off3 L 0#32 = ![512 * (L 1).val + 256 * (L 0).val + 128 * 0, 128] := k2_off3_eq L 0
    refine (mem_oSlice _ _ _ j).trans ?_; rw [e]; simp
  · have e : k2_off3 L 128#32 = ![512 * (L 1).val + 256 * (L 0).val + 128 * 1, 128] := k2_off3_eq L 1
    refine (mem_oSlice _ _ _ j).trans ?_; rw [e]; simp
  · have e : k2_off4 L 0#32 = ![512 * (L 1).val + 256 * (L 0).val + 128 * 0, 256] := k2_off4_eq L 0
    refine (mem_oSlice _ _ _ j).trans ?_; rw [e]; simp
  · have e : k2_off4 L 128#32 = ![512 * (L 1).val + 256 * (L 0).val + 128 * 1, 256] := k2_off4_eq L 1
    refine (mem_oSlice _ _ _ j).trans ?_; rw [e]; simp
  · have e : k2_off5 L 0#32 = ![512 * (L 1).val + 256 * (L 0).val + 128 * 0, 384] := k2_off5_eq L 0
    refine (mem_oSlice _ _ _ j).trans ?_; rw [e]; simp
  · have e : k2_off5 L 128#32 = ![512 * (L 1).val + 256 * (L 0).val + 128 * 1, 384] := k2_off5_eq L 1
    refine (mem_oSlice _ _ _ j).trans ?_; rw [e]; simp

theorem oSet_disjoint : ∀ u ∈ (Finset.univ : Finset (Fin 8)), ∀ u' ∈ (Finset.univ : Finset (Fin 8)), u ≠ u' → Disjoint (oSet L u) (oSet L u') := by
  intro u _ u' _ hne
  rw [Finset.disjoint_left]
  intro j h1 h2
  rw [mem_oSet] at h1 h2
  exact hne (Fin.ext (by omega))

/-- The worker's strip of the feature array is the eight rectangles. -/
theorem oSet_cover : oRowSet (wid (cL L) (iL L)) = Finset.univ.biUnion (oSet L) := by
  ext j
  rw [Finset.mem_biUnion]
  simp only [Finset.mem_univ, true_and, mem_oSet]
  have h0 : (j 0).val < 8192 := (j 0).isLt
  have h1 : (j 1).val < 512 := (j 1).isLt
  have hw : j ∈ oRowSet (wid (cL L) (iL L))
      ↔ (256 * (2 * (L 1).val + (L 0).val) ≤ (j 0).val ∧ (j 0).val < 256 * (2 * (L 1).val + (L 0).val) + 256) := by
    show j ∈ (Rect.unit (s := S8192x512) _ _ _).set ↔ _
    rw [mem_unit2]
    simp [Shape.partIx, Shape.partSize, wid]
    omega
  rw [hw]
  constructor
  · intro h
    have hn : 2 * ((j 1).val / 128) + ((j 0).val - (512 * (L 1).val + 256 * (L 0).val)) / 128 < 8 := by omega
    refine ⟨⟨_, hn⟩, ?_⟩
    simp only []
    omega
  · rintro ⟨u, hu⟩
    have := u.isLt
    omega

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide), bigSep_singleton]; rfl

/-- The strip held at one contents is the eight rectangles held at it, each through its own slice. -/
theorem strip_split (d : Dev nD) (f : S8192x512.Idx → Elt F .f32) :
    ((TT d).loc main_v19 ↦[oRowSet (wid (cL L) (iL L))]{fullShare} f : sProp 𝕄)
      = iprop(((oS0 L).view.loc (V d (cV L) (jV L)) ↦[(oS0 L).view.set]{fullShare} f) ∗ ((oS1 L).view.loc (V d (cV L) (jV L)) ↦[(oS1 L).view.set]{fullShare} f)
          ∗ ((oS2 L).view.loc (V d (cV L) (jV L)) ↦[(oS2 L).view.set]{fullShare} f) ∗ ((oS3 L).view.loc (V d (cV L) (jV L)) ↦[(oS3 L).view.set]{fullShare} f)
          ∗ ((oS4 L).view.loc (V d (cV L) (jV L)) ↦[(oS4 L).view.set]{fullShare} f) ∗ ((oS5 L).view.loc (V d (cV L) (jV L)) ↦[(oS5 L).view.set]{fullShare} f)
          ∗ ((oS6 L).view.loc (V d (cV L) (jV L)) ↦[(oS6 L).view.set]{fullShare} f) ∗ ((oS7 L).view.loc (V d (cV L) (jV L)) ↦[(oS7 L).view.set]{fullShare} f)) := by
  rw [oSet_cover, pointsTo_biUnion _ _ (oSet_disjoint L), bigSep_fin8]; rfl

end Geo

section Scratch
variable (L : grid2.Coords)

local notation "i0V" => (Memref.whole Cert.Kernel.main_v15_scv : Memref Cert.Kernel.sig Kind.scVector Space.hbm Cert.Kernel.S8192 EltTy.i32)
local notation "i1V" => (Memref.whole Cert.Kernel.main_v16_scv : Memref Cert.Kernel.sig Kind.scVector Space.hbm Cert.Kernel.S8192 EltTy.i32)
local notation "i2V" => (Memref.whole Cert.Kernel.main_v17_scv : Memref Cert.Kernel.sig Kind.scVector Space.hbm Cert.Kernel.S8192 EltTy.i32)
local notation "i3V" => (Memref.whole Cert.Kernel.main_v18_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v19_scv : Memref Cert.Kernel.sig Kind.scVector Space.hbm Cert.Kernel.S8192x512 EltTy.f32)
local notation "xV" => (Memref.whole Cert.Kernel.cc2_scratch0 : Memref Cert.Kernel.sig Kind.scVector Space.vmem Cert.Kernel.S4x256 EltTy.i32)
local notation "b0V" => (Memref.whole Cert.Kernel.cc2_scratch1 : Memref Cert.Kernel.sig Kind.scVector Space.vmem Cert.Kernel.S128x128 EltTy.f32)
local notation "b1V" => (Memref.whole Cert.Kernel.cc2_scratch2 : Memref Cert.Kernel.sig Kind.scVector Space.vmem Cert.Kernel.S128x128 EltTy.f32)
local notation "b2V" => (Memref.whole Cert.Kernel.cc2_scratch3 : Memref Cert.Kernel.sig Kind.scVector Space.vmem Cert.Kernel.S128x128 EltTy.f32)
local notation "b3V" => (Memref.whole Cert.Kernel.cc2_scratch4 : Memref Cert.Kernel.sig Kind.scVector Space.vmem Cert.Kernel.S128x128 EltTy.f32)

/-- Where a squeezed one-row slice of the index scratch puts its words: row `t`, columns from `c`. -/
theorem xRow_emb (t c n : ℕ) (inb : ∀ a, (![t, c] : Fin 2 → ℕ) a + (![1, n] : Fin 2 → ℕ) a ≤ S4x256.size a)
    (hq : (Rect.unit (s := S4x256) ![t, c] ![1, n] inb).shape.Squeezes ⟨1, ![n]⟩) (x : (⟨1, ![n]⟩ : Shape).Idx) :
    (((((xV).slice (Rect.unit (s := S4x256) ![t, c] ![1, n] inb) (fun _ => rfl)).squeeze ⟨1, ![n]⟩ hq).view.emb x) 0).val = t
      ∧ (((((xV).slice (Rect.unit (s := S4x256) ![t, c] ![1, n] inb) (fun _ => rfl)).squeeze ⟨1, ![n]⟩ hq).view.emb x) 1).val = c + (x 0).val := by
  have e : Shape.reshapeEquiv (s := (Rect.unit (s := S4x256) ![t, c] ![1, n] inb).shape) (s' := ⟨1, ![n]⟩) hq.numel_eq x = Fin.cons ⟨0, Nat.one_pos⟩ x :=
    Shape.reshapeEquiv_cons_one (n := 1) (d := ![n]) hq.numel_eq x
  show (((Rect.unit (s := S4x256) ![t, c] ![1, n] inb).emb (Shape.reshapeEquiv hq.numel_eq x)) 0).val = t
    ∧ (((Rect.unit (s := S4x256) ![t, c] ![1, n] inb).emb (Shape.reshapeEquiv hq.numel_eq x)) 1).val = c + (x 0).val
  rw [e]
  simp only [Rect.emb_apply, Rect.off_unit, Rect.stride_unit, Nat.one_mul]
  refine ⟨?_, ?_⟩
  · exact Nat.add_zero t
  · rfl

/-- Writing one row of the index scratch through its squeezed slice: row `t` takes the payload, the other rows keep theirs. -/
theorem xRow_write (t : ℕ) (inb : ∀ a, (![t, 0] : Fin 2 → ℕ) a + (![1, 256] : Fin 2 → ℕ) a ≤ S4x256.size a)
    (hq : (Rect.unit (s := S4x256) ![t, 0] ![1, 256] inb).shape.Squeezes S256)
    (f : S4x256.Idx → Elt F .i32) (w : S256.Idx → Elt F .i32) (j : S4x256.Idx) :
    View.write (Elt F) (((xV).slice (Rect.unit (s := S4x256) ![t, 0] ![1, 256] inb) (fun _ => rfl)).squeeze S256 hq).view f w Finset.univ j
      = if (j 0).val = t then w (ix1 (j 1)) else f j := by
  by_cases h : (j 0).val = t
  · rw [if_pos h]
    have hj : (((xV).slice (Rect.unit (s := S4x256) ![t, 0] ![1, 256] inb) (fun _ => rfl)).squeeze S256 hq).view.emb (ix1 (j 1)) = j := by
      obtain ⟨h0, h1⟩ := xRow_emb t 0 256 inb hq (ix1 (j 1))
      funext a
      refine Fin.ext ?_
      match a with
      | 0 => exact h0.trans h.symm
      | 1 => rw [h1]; simp [ix1]
    conv_lhs => rw [← hj]
    rw [View.write_emb_of_mem _ _ (Finset.mem_univ _)]
    rfl
  · rw [if_neg h]
    refine View.write_of_not_mem _ _ _ fun hm => h ?_
    rw [View.setOn_univ] at hm
    obtain ⟨x, _, rfl⟩ := Finset.mem_map.mp hm
    exact (xRow_emb t 0 256 inb hq x).1

/-- The index scratch once the four copies have landed: row `t` holds the payload of copy `t`. -/
def xFill (p0 p1 p2 p3 : S256.Idx → Elt F .i32) : S4x256.Idx → Elt F .i32 := fun j =>
  if (j 0).val = 3 then p3 (ix1 (j 1)) else if (j 0).val = 2 then p2 (ix1 (j 1)) else if (j 0).val = 1 then p1 (ix1 (j 1)) else p0 (ix1 (j 1))

theorem xFill_le (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999) (j : S4x256.Idx) : (xFill p0 p1 p2 p3 j).toNat ≤ 99999 := by
  unfold xFill; split_ifs <;> first | exact h0 _ | exact h1 _ | exact h2 _ | exact h3 _

/-- The four copies, one after the other, fill the scratch. -/
theorem scratch_eq (fx : S4x256.Idx → Elt F .i32) (p0 p1 p2 p3 : S256.Idx → Elt F .i32) (j : S4x256.Idx) :
    View.write (Elt F) (((xV).slice (Rect.unit (s := S4x256) ![3, 0] S1x256.size inb_S4x256_S1x256_3_0) (fun _ => rfl)).squeeze S256 squeezes_S1x256_S256).view
      (View.write (Elt F) (((xV).slice (Rect.unit (s := S4x256) ![2, 0] S1x256.size inb_S4x256_S1x256_2_0) (fun _ => rfl)).squeeze S256 squeezes_S1x256_S256).view
        (View.write (Elt F) (((xV).slice (Rect.unit (s := S4x256) ![1, 0] S1x256.size inb_S4x256_S1x256_1_0) (fun _ => rfl)).squeeze S256 squeezes_S1x256_S256).view
          (View.write (Elt F) (((xV).slice (Rect.unit (s := S4x256) ![0, 0] S1x256.size inb_S4x256_S1x256_0_0) (fun _ => rfl)).squeeze S256 squeezes_S1x256_S256).view fx p0 Finset.univ) p1 Finset.univ) p2 Finset.univ) p3 Finset.univ j
      = xFill p0 p1 p2 p3 j := by
  have hj : (j 0).val < 4 := (j 0).isLt
  unfold xFill
  refine (xRow_write 3 _ _ _ _ j).trans ?_
  by_cases h3 : (j 0).val = 3
  · rw [if_pos h3, if_pos h3]
  rw [if_neg h3, if_neg h3]
  refine (xRow_write 2 _ _ _ _ j).trans ?_
  by_cases h2 : (j 0).val = 2
  · rw [if_pos h2, if_pos h2]
  rw [if_neg h2, if_neg h2]
  refine (xRow_write 1 _ _ _ _ j).trans ?_
  by_cases h1 : (j 0).val = 1
  · rw [if_pos h1, if_pos h1]
  rw [if_neg h1, if_neg h1]
  refine (xRow_write 0 _ _ _ _ j).trans ?_
  rw [if_pos (by omega)]

theorem idxOf_le (hpre : PreOK m) (d : Dev nD) (q : Fin 2) (k : Fin 4) (j : S8192.Idx) : (idxOf m d q k j).toNat ≤ 99999 := hpre d k _

/-- An offset list read out of the filled scratch names rows of a table. -/
theorem hin_xFill (p0 p1 p2 p3 : S256.Idx → Elt F .i32) (h0 : ∀ x, (p0 x).toNat ≤ 99999) (h1 : ∀ x, (p1 x).toNat ≤ 99999)
    (h2 : ∀ x, (p2 x).toNat ≤ 99999) (h3 : ∀ x, (p3 x).toNat ≤ 99999)
    (r : Rect S4x256) (hr : ∀ a, r.stride a = 1) (hq : r.shape.Squeezes S128) :
    ∀ x, ((((xV).slice r hr).squeeze S128 hq).view.read (Elt F) (xFill p0 p1 p2 p3) x).toNat < S100001x128.size gathers_S100001x128_S128x128.axis := by
  intro x
  rw [show (((xV).slice r hr).squeeze S128 hq).view.read (Elt F) (xFill p0 p1 p2 p3) x = xFill p0 p1 p2 p3 ((((xV).slice r hr).squeeze S128 hq).view.emb x)
    from (View.read_apply _ _).trans (cast_eq _ _)]
  exact Nat.lt_of_le_of_lt (xFill_le p0 p1 p2 p3 h0 h1 h2 h3 _) (by decide)

end Scratch

section Value
variable (d : Dev nD) (L : grid2.Coords)

local notation "i0V" => (Memref.whole Cert.Kernel.main_v15_scv : Memref Cert.Kernel.sig Kind.scVector Space.hbm Cert.Kernel.S8192 EltTy.i32)
local notation "i1V" => (Memref.whole Cert.Kernel.main_v16_scv : Memref Cert.Kernel.sig Kind.scVector Space.hbm Cert.Kernel.S8192 EltTy.i32)
local notation "i2V" => (Memref.whole Cert.Kernel.main_v17_scv : Memref Cert.Kernel.sig Kind.scVector Space.hbm Cert.Kernel.S8192 EltTy.i32)
local notation "i3V" => (Memref.whole Cert.Kernel.main_v18_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v19_scv : Memref Cert.Kernel.sig Kind.scVector Space.hbm Cert.Kernel.S8192x512 EltTy.f32)
local notation "xV" => (Memref.whole Cert.Kernel.cc2_scratch0 : Memref Cert.Kernel.sig Kind.scVector Space.vmem Cert.Kernel.S4x256 EltTy.i32)
local notation "b0V" => (Memref.whole Cert.Kernel.cc2_scratch1 : Memref Cert.Kernel.sig Kind.scVector Space.vmem Cert.Kernel.S128x128 EltTy.f32)
local notation "b1V" => (Memref.whole Cert.Kernel.cc2_scratch2 : Memref Cert.Kernel.sig Kind.scVector Space.vmem Cert.Kernel.S128x128 EltTy.f32)
local notation "b2V" => (Memref.whole Cert.Kernel.cc2_scratch3 : Memref Cert.Kernel.sig Kind.scVector Space.vmem Cert.Kernel.S128x128 EltTy.f32)
local notation "b3V" => (Memref.whole Cert.Kernel.cc2_scratch4 : Memref Cert.Kernel.sig Kind.scVector Space.vmem Cert.Kernel.S128x128 EltTy.f32)

/-- Word `r` of an index slice as a number, and column `c` of row `r` of a table, total on the naturals. -/
def rowOf (i : S8192.Idx → BitVec 32) (r : ℕ) : ℕ := if h : r < 8192 then (i (ix1 ⟨r, h⟩)).toNat else 0
def tabAt (e : S100001x128.Idx → Elt F .f32) (r c : ℕ) : Elt F .f32 :=
  if h : r < 100001 ∧ c < 128 then e (ix2 ⟨r, h.1⟩ ⟨c, h.2⟩) else e (ix2 ⟨0, by decide⟩ ⟨0, by decide⟩)
/-- Column `c` of the row of table `t` that word `r` of call 1's index slice `t` names. -/
def valAt (t : Fin 4) (r c : ℕ) : Elt F .f32 := tabAt (tabOf m d t) (rowOf (idxOf m d 1 t) r) c

/-- The call's feature array at an index, through `valAt`. -/
theorem featOf_eq (hpre : PreOK m) (j : S8192x512.Idx) (t : Fin 4) (ht : (j 1).val / 128 = t.val) :
    featOf m d 1 j = valAt m d t (j 0).val ((j 1).val % 128) := by
  have h0 : (j 0).val < 8192 := (j 0).isLt
  have h1 : (j 1).val < 512 := (j 1).isLt
  have et : (⟨(j 1).val / 128, by omega⟩ : Fin 4) = t := Fin.ext ht
  have hle : (idxOf m d 1 t (ix1 ⟨(j 0).val, h0⟩)).toNat ≤ 99999 := idxOf_le m hpre d 1 t _
  unfold valAt tabAt rowOf
  rw [dif_pos h0, dif_pos ⟨by omega, Nat.mod_lt _ (by decide)⟩]
  show tabOf m d ⟨(j 1).val / 128, _⟩ (ix2 ⟨min (idxOf m d 1 ⟨(j 1).val / 128, _⟩ (ix1 ⟨(j 0).val, _⟩)).toNat 100000, _⟩ ⟨(j 1).val % 128, _⟩) = _
  simp only [et]
  congr 2
  exact Fin.ext (Nat.min_eq_left (by omega))

/-- The gather's payload at an index: the source at the row the list's word names, same column. -/
theorem gather_val (g : S100001x128.Idx → Elt F .f32) (idf : S128.Idx → Elt F .i32)
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = g (ix2 ⟨(idf (ix1 (x 0))).toNat, hin _⟩ (x 1)) := by
  unfold SparseCore.gatherPayload
  congr 1
  funext a
  refine Fin.ext ?_
  match a with
  | 0 =>
    have h1 := Shape.Gathers.idx_axis gathers_S100001x128_S128x128 (SparseCore.rows idf hn hin) x
    have h2 : S128.rowMajor.symm ((x gathers_S100001x128_S128x128.axis').cast hn.symm) = ix1 (x 0) := by
      exact (Equiv.symm_apply_eq _).mpr (Fin.ext (Shape.rowMajor_val_one (d := ![128]) (ix1 (x 0))).symm)
    show ((gathers_S100001x128_S128x128.idx (SparseCore.rows idf hn hin) x) gathers_S100001x128_S128x128.axis).val = (idf (ix1 (x 0))).toNat
    rw [h1]
    show (idf (S128.rowMajor.symm ((x gathers_S100001x128_S128x128.axis').cast hn.symm))).toNat = _
    rw [h2]
    rfl
  | 1 =>
    exact Shape.Gathers.idx_of_ne gathers_S100001x128_S128x128 _ x 1 (by decide)

/-- A whole-shape piece at the head of a list of writes is what the view reads back. -/
theorem read_writes_whole {sig' : RefSig} {κ : Kind} {sp : Space} {s : Shape} {e : EltTy} {Val : EltTy → Type}
    (v : View sig' κ sp s e) (f : v.ty.Contents Val) (w : (Rect.whole s).shape.Idx → Val e) (Ls : List (View.Piece Val s e)) (x : (Rect.whole s).shape.Idx) :
    v.read Val (v.writes Val f (⟨Rect.whole s, w⟩ :: Ls)) x = w x := by
  have := View.read_writes_cons_emb v f (Rect.whole s) w Ls x
  rwa [Rect.emb_whole_apply] at this

/-- One of the eight rectangles after its write-out, where the payload is the gathered rows: the call's feature array there. -/
theorem rect_val (hpre : PreOK m) (off : Fin 2 → ℕ) (inb : ∀ a, off a + S128x128.size a ≤ S8192x512.size a) (t : Fin 4) (ch : ℕ)
    (hoff0 : off 0 = 512 * (L 1).val + 256 * (L 0).val + 128 * ch) (hoff1 : off 1 = 128 * t.val)
    (w : S128x128.Idx → Elt F .f32) (hw : ∀ x, w x = valAt m d t (512 * (L 1).val + 256 * (L 0).val + 128 * ch + (x 0).val) (x 1).val)
    (f : S8192x512.Idx → Elt F .f32) :
    ∀ j ∈ ((oV).slice (Rect.unit (s := S8192x512) off S128x128.size inb) (fun _ => rfl)).view.set,
      ((oV).slice (Rect.unit (s := S8192x512) off S128x128.size inb) (fun _ => rfl)).view.writes (Elt F) f [⟨Rect.whole S128x128, w⟩] j = featOf m d 1 j := by
  intro j hj
  obtain ⟨x, _, rfl⟩ := Finset.mem_map.mp hj
  have e0 : ((((oV).slice (Rect.unit (s := S8192x512) off S128x128.size inb) (fun _ => rfl)).view.emb x) 0).val = off 0 + (x 0).val := by
    show off 0 + 1 * (x 0).val = _; rw [Nat.one_mul]
  have e1 : ((((oV).slice (Rect.unit (s := S8192x512) off S128x128.size inb) (fun _ => rfl)).view.emb x) 1).val = off 1 + (x 1).val := by
    show off 1 + 1 * (x 1).val = _; rw [Nat.one_mul]
  have hx1 : (x 1).val < 128 := (x 1).isLt
  have hr := read_writes_whole ((oV).slice (Rect.unit (s := S8192x512) off S128x128.size inb) (fun _ => rfl)).view f w [] x
  rw [View.read_apply] at hr
  rw [featOf_eq m d hpre _ t (by rw [e1, hoff1]; omega), e0, e1, hoff0, hoff1]
  refine Eq.trans ?_ ((hw x).trans ?_)
  · exact (cast_eq _ _).symm.trans hr
  · congr 1; omega

theorem Lbounds : (L 0).val < 2 ∧ (L 1).val < 16 := ⟨(L 0).isLt, (L 1).isLt⟩

theorem tabRead0 (inb : ∀ a, (![0, 0] : Fin 2 → ℕ) a + S100001x128.size a ≤ S100001x128.size a) (y : S100001x128.Idx) :
    View.read (Elt F) ((t0V).slice (Rect.unit (s := S100001x128) ![0, 0] S100001x128.size inb) (fun _ => rfl)).view (tabOf m d 0) y = tabOf m d 0 y := by
  rw [View.read_apply]
  refine (cast_eq _ _).trans (congrArg (tabOf m d 0) ?_)
  funext a; refine Fin.ext ?_
  show (![0, 0] : Fin 2 → ℕ) a + 1 * (y a).val = (y a).val
  match a with
  | 0 => simp
  | 1 => simp
theorem tabRead1 (inb : ∀ a, (![0, 0] : Fin 2 → ℕ) a + S100001x128.size a ≤ S100001x128.size a) (y : S100001x128.Idx) :
    View.read (Elt F) ((t1V).slice (Rect.unit (s := S100001x128) ![0, 0] S100001x128.size inb) (fun _ => rfl)).view (tabOf m d 1) y = tabOf m d 1 y := by
  rw [View.read_apply]
  refine (cast_eq _ _).trans (congrArg (tabOf m d 1) ?_)
  funext a; refine Fin.ext ?_
  show (![0, 0] : Fin 2 → ℕ) a + 1 * (y a).val = (y a).val
  match a with
  | 0 => simp
  | 1 => simp
theorem tabRead2 (inb : ∀ a, (![0, 0] : Fin 2 → ℕ) a + S100001x128.size a ≤ S100001x128.size a) (y : S100001x128.Idx) :
    View.read (Elt F) ((t2V).slice (Rect.unit (s := S100001x128) ![0, 0] S100001x128.size inb) (fun _ => rfl)).view (tabOf m d 2) y = tabOf m d 2 y := by
  rw [View.read_apply]
  refine (cast_eq _ _).trans (congrArg (tabOf m d 2) ?_)
  funext a; refine Fin.ext ?_
  show (![0, 0] : Fin 2 → ℕ) a + 1 * (y a).val = (y a).val
  match a with
  | 0 => simp
  | 1 => simp
theorem tabRead3 (inb : ∀ a, (![0, 0] : Fin 2 → ℕ) a + S100001x128.size a ≤ S100001x128.size a) (y : S100001x128.Idx) :
    View.read (Elt F) ((t3V).slice (Rect.unit (s := S100001x128) ![0, 0] S100001x128.size inb) (fun _ => rfl)).view (tabOf m d 3) y = tabOf m d 3 y := by
  rw [View.read_apply]
  refine (cast_eq _ _).trans (congrArg (tabOf m d 3) ?_)
  funext a; refine Fin.ext ?_
  show (![0, 0] : Fin 2 → ℕ) a + 1 * (y a).val = (y a).val
  match a with
  | 0 => simp
  | 1 => simp

theorem idxRead0 (y : S256.Idx) :
    (View.read (Elt F) ((i0V).slice (Rect.unit (s := S8192) (k2_off1 L) S256.size (k2_off1_inb L)) (fun _ => rfl)).view (idxOf m d 1 0) y).toNat
      = rowOf (idxOf m d 1 0) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 0) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead1 (y : S256.Idx) :
    (View.read (Elt F) ((i1V).slice (Rect.unit (s := S8192) (k2_off1 L) S256.size (k2_off1_inb L)) (fun _ => rfl)).view (idxOf m d 1 1) y).toNat
      = rowOf (idxOf m d 1 1) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 1) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead2 (y : S256.Idx) :
    (View.read (Elt F) ((i2V).slice (Rect.unit (s := S8192) (k2_off1 L) S256.size (k2_off1_inb L)) (fun _ => rfl)).view (idxOf m d 1 2) y).toNat
      = rowOf (idxOf m d 1 2) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 2) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega
theorem idxRead3 (y : S256.Idx) :
    (View.read (Elt F) ((i3V).slice (Rect.unit (s := S8192) (k2_off1 L) S256.size (k2_off1_inb L)) (fun _ => rfl)).view (idxOf m d 1 3) y).toNat
      = rowOf (idxOf m d 1 3) (512 * (L 1).val + 256 * (L 0).val + (y 0).val) := by
  have hL := Lbounds L
  have hy : (y 0).val < 256 := (y 0).isLt
  rw [View.read_apply, rowOf, dif_pos (by omega)]
  refine congrArg BitVec.toNat ((cast_eq _ _).trans (congrArg (idxOf m d 1 3) ?_))
  funext a; refine Fin.ext ?_
  match a with
  | 0 =>
    have e : k2_off1 L 0 = 512 * (L 1).val + 256 * (L 0).val := congrFun (k2_off1_eq L) 0
    show k2_off1 L 0 + 1 * (y 0).val = 512 * (L 1).val + 256 * (L 0).val + (y 0).val
    omega

/-- A squeezed one-row slice of the index scratch reads the scratch at its row, from its column. -/
theorem offsRead (t c : ℕ) (inb : ∀ a, (![t, c] : Fin 2 → ℕ) a + (![1, 128] : Fin 2 → ℕ) a ≤ S4x256.size a)
    (hq : (Rect.unit (s := S4x256) ![t, c] ![1, 128] inb).shape.Squeezes S128)
    (X : S4x256.Idx → Elt F .i32) (y : S128.Idx) (J : S4x256.Idx) (hJ0 : (J 0).val = t) (hJ1 : (J 1).val = c + (y 0).val) :
    View.read (Elt F) (((xV).slice (Rect.unit (s := S4x256) ![t, c] ![1, 128] inb) (fun _ => rfl)).squeeze S128 hq).view X y = X J := by
  rw [View.read_apply]
  refine (cast_eq _ _).trans (congrArg X ?_)
  obtain ⟨h0, h1⟩ := xRow_emb t c 128 inb hq y
  funext a; refine Fin.ext ?_
  match a with
  | 0 => exact h0.trans hJ0.symm
  | 1 => exact h1.trans hJ1.symm

/-- One unit's gather: with the source reading table `t` and the list reading the words `128 ch ..` of the worker's part of
    index slice `t`, the payload is `valAt` of those words. -/
theorem unit_val (t : Fin 4) (ch : ℕ)
    (g : S100001x128.Idx → Elt F .f32) (hg : ∀ y, g y = tabOf m d t y)
    (idf : S128.Idx → Elt F .i32)
    (hidf : ∀ y, (idf y).toNat = rowOf (idxOf m d 1 t) (512 * (L 1).val + 256 * (L 0).val + 128 * ch + (y 0).val))
    (hn : S128.numel = S128x128.size gathers_S100001x128_S128x128.axis')
    (hin : ∀ x, (idf x).toNat < S100001x128.size gathers_S100001x128_S128x128.axis) (x : S128x128.Idx) :
    SparseCore.gatherPayload gathers_S100001x128_S128x128 g (SparseCore.rows idf hn hin) x
      = valAt m d t (512 * (L 1).val + 256 * (L 0).val + 128 * ch + (x 0).val) (x 1).val := by
  have hx1 : (x 1).val < 128 := (x 1).isLt
  have hlt : (idf (ix1 (x 0))).toNat < 100001 := hin _
  rw [gather_val, hg, valAt, ← hidf (ix1 (x 0)), tabAt, dif_pos ⟨hlt, hx1⟩]
  rfl

end Value

end Cert.Kernel.Sc.C1

end
-- ==== Proof.BScTile1.lean ====
/-
  One vector subcore's task of the second SparseCore call: run from its first copy to its return, it leaves the index
  slices and the tables as they were and its strip of the feature array at the gathered rows.

  The four index copies and their waits, the eight indirect gathers (two in flight at a time, each on its own semaphore,
  each reading its table through one half of the task's read share and its offsets through its own 128 words of the
  index scratch), the eight write-outs and all the waits are stepped in program order; the offsets are in range
  because the scratch then holds words of the index slices, which the precondition bounds. Each rectangle of the strip
  is written once, by its own unit, with the payload of that unit's gather; the eight rectangles tile the strip.
-/
import proofs.«212020_g4707284156877_cont_8to1c4_553_54_alg».proof.Proof.BScTile1Lib

noncomputable section

namespace Cert.Kernel.Sc.C1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

section Body
variable [FloatOps F] (d : Dev nD) (L : grid2.Coords)

local notation "i0V" => (Memref.whole Cert.Kernel.main_v15_scv : Memref Cert.Kernel.sig Kind.scVector Space.hbm Cert.Kernel.S8192 EltTy.i32)
local notation "i1V" => (Memref.whole Cert.Kernel.main_v16_scv : Memref Cert.Kernel.sig Kind.scVector Space.hbm Cert.Kernel.S8192 EltTy.i32)
local notation "i2V" => (Memref.whole Cert.Kernel.main_v17_scv : Memref Cert.Kernel.sig Kind.scVector Space.hbm Cert.Kernel.S8192 EltTy.i32)
local notation "i3V" => (Memref.whole Cert.Kernel.main_v18_scv : Memref Cert.Kernel.sig Kind.scVector Space.hbm Cert.Kernel.S8192 EltTy.i32)
local notation "t0V" => (Memref.whole Cert.Kernel.main_arg4_scv : Memref Cert.Kernel.sig Kind.scVector Space.hbm Cert.Kernel.S100001x128 EltTy.f32)
local notation "t1V" => (Memref.whole Cert.Kernel.main_arg5_scv : Memref Cert.Kernel.sig Kind.scVector Space.hbm Cert.Kernel.S100001x128 EltTy.f32)
local notation "t2V" => (Memref.whole Cert.Kernel.main_arg6_scv : Memref Cert.Kernel.sig Kind.scVector Space.hbm Cert.Kernel.S100001x128 EltTy.f32)
local notation "t3V" => (Memref.whole Cert.Kernel.main_arg7_scv : Memref Cert.Kernel.sig Kind.scVector Space.hbm Cert.Kernel.S100001x128 EltTy.f32)
local notation "oV" => (Memref.whole Cert.Kernel.main_v19_scv : Memref Cert.Kernel.sig Kind.scVector Space.hbm Cert.Kernel.S8192x512 EltTy.f32)
local notation "xV" => (Memref.whole Cert.Kernel.cc2_scratch0 : Memref Cert.Kernel.sig Kind.scVector Space.vmem Cert.Kernel.S4x256 EltTy.i32)
local notation "b0V" => (Memref.whole Cert.Kernel.cc2_scratch1 : Memref Cert.Kernel.sig Kind.scVector Space.vmem Cert.Kernel.S128x128 EltTy.f32)
local notation "b1V" => (Memref.whole Cert.Kernel.cc2_scratch2 : Memref Cert.Kernel.sig Kind.scVector Space.vmem Cert.Kernel.S128x128 EltTy.f32)
local notation "b2V" => (Memref.whole Cert.Kernel.cc2_scratch3 : Memref Cert.Kernel.sig Kind.scVector Space.vmem Cert.Kernel.S128x128 EltTy.f32)
local notation "b3V" => (Memref.whole Cert.Kernel.cc2_scratch4 : Memref Cert.Kernel.sig Kind.scVector Space.vmem Cert.Kernel.S128x128 EltTy.f32)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]; rfl

/-- A task's operands, one by one: the four index slices, the four tables, its strip of the feature array. -/
theorem goAt0_eq (c : Fin 2) (i : Fin 16) (f : S8192x512.Idx → Elt F .f32) :
    (iprop(readsPts m d 1 (shV c i) ∗ stripPts d (wid c i) f 1) : sProp 𝕄)
      = iprop(((((TT d).loc main_v15 ↦{shV c i} idxOf m d 1 0) ∗ ((TT d).loc main_v16 ↦{shV c i} idxOf m d 1 1)
            ∗ ((TT d).loc main_v17 ↦{shV c i} idxOf m d 1 2) ∗ ((TT d).loc main_v18 ↦{shV c i} idxOf m d 1 3))
          ∗ (((TT d).loc main_arg4 ↦{shV c i} tabOf m d 0) ∗ ((TT d).loc main_arg5 ↦{shV c i} tabOf m d 1)
            ∗ ((TT d).loc main_arg6 ↦{shV c i} tabOf m d 2) ∗ ((TT d).loc main_arg7 ↦{shV c i} tabOf m d 3)))
          ∗ ((TT d).loc main_v19 ↦[oRowSet (wid c i)]{fullShare} f)) := by
  unfold readsPts; rw [bigSep_fin4, bigSep_fin4]; rfl

omit [FloatOps F] in
theorem waits_ins {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with rfl | hp
  · exact .inr rfl
  · exact h p hp

set_option maxHeartbeats 8000000 in
theorem tile_run1 (hF : (K (F := F)).Facts) (hpre : PreOK m) (O : CellTallies nD τ sig (HIx 2)) (W : Waits sig (HIx 2)) (hO : ∀ g, O g none = 0) :
    iprop(levAts (K (F := F)).L (K (F := F)).lev ∗ emp ∗ goAt m d 1 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_gather_body_eq_skeleton]; unfold cc2__sc_gather_body_skel
  rw [(K (F := F)).scopedBufs_V hF d (cV L) (jV L), SparseCore.Cfg.scopedSems0_V (Val := Elt F) d (cV L) (jV L), ownSems0_V, ownBufs_V]
  simp only [cellList, semList, List.map_cons, List.map_nil, List.foldr_cons, List.foldr_nil, cellOf]
  unfold goAt tdAt
  rw [goAt0_eq, goAt0_eq, strip_split L d (feat0 m d 1), strip_split L d (featOf m d 1)]
  iintro ⟨#Hlv, -, ⟨⟨⟨Hi0, Hi1, Hi2, Hi3⟩, ⟨Ht0, Ht1, Ht2, Ht3⟩⟩, ⟨Ho0, Ho1, Ho2, Ho3, Ho4, Ho5, Ho6, Ho7⟩⟩, ⟨⟨%fx, Hx⟩, ⟨%fb0, Hb0⟩, ⟨%fb1, Hb1⟩, ⟨%fb2, Hb2⟩, ⟨%fb3, Hb3⟩, Hbufs⟩,
    ⟨Hg0, Hg1, Hg2, Hg3, Hw0, Hw1, Hw2, Hw3, Hs0, Hs1, Hs2, Hs3, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi0' := (Entails.of_eq (show ((TT d).loc main_v15 ↦{shV (cL L) (iL L)} idxOf m d 1 0 : sProp 𝕄) = (i0V).view.loc (V d (cV L) (jV L)) ↦{shV (cL L) (iL L)} idxOf m d 1 0 from rfl)) $$ Hi0
  ihave Hi1' := (Entails.of_eq (show ((TT d).loc main_v16 ↦{shV (cL L) (iL L)} idxOf m d 1 1 : sProp 𝕄) = (i1V).view.loc (V d (cV L) (jV L)) ↦{shV (cL L) (iL L)} idxOf m d 1 1 from rfl)) $$ Hi1
  ihave Hi2' := (Entails.of_eq (show ((TT d).loc main_v17 ↦{shV (cL L) (iL L)} idxOf m d 1 2 : sProp 𝕄) = (i2V).view.loc (V d (cV L) (jV L)) ↦{shV (cL L) (iL L)} idxOf m d 1 2 from rfl)) $$ Hi2
  ihave Hi3' := (Entails.of_eq (show ((TT d).loc main_v18 ↦{shV (cL L) (iL L)} idxOf m d 1 3 : sProp 𝕄) = (i3V).view.loc (V d (cV L) (jV L)) ↦{shV (cL L) (iL L)} idxOf m d 1 3 from rfl)) $$ Hi3
  ihave Ht0' := (Entails.of_eq (show ((TT d).loc main_arg4 ↦{shV (cL L) (iL L)} tabOf m d 0 : sProp 𝕄) = (t0V).view.loc (V d (cV L) (jV L)) ↦{shV (cL L) (iL L)} tabOf m d 0 from rfl)) $$ Ht0
  ihave Ht1' := (Entails.of_eq (show ((TT d).loc main_arg5 ↦{shV (cL L) (iL L)} tabOf m d 1 : sProp 𝕄) = (t1V).view.loc (V d (cV L) (jV L)) ↦{shV (cL L) (iL L)} tabOf m d 1 from rfl)) $$ Ht1
  ihave Ht2' := (Entails.of_eq (show ((TT d).loc main_arg6 ↦{shV (cL L) (iL L)} tabOf m d 2 : sProp 𝕄) = (t2V).view.loc (V d (cV L) (jV L)) ↦{shV (cL L) (iL L)} tabOf m d 2 from rfl)) $$ Ht2
  ihave Ht3' := (Entails.of_eq (show ((TT d).loc main_arg7 ↦{shV (cL L) (iL L)} tabOf m d 3 : sProp 𝕄) = (t3V).view.loc (V d (cV L) (jV L)) ↦{shV (cL L) (iL L)} tabOf m d 3 from rfl)) $$ Ht3
  ihave Hx' := (Entails.of_eq (show ((V d (cV L) (jV L)).loc cc2_scratch0 ↦{fullShare} fx : sProp 𝕄) = (xV).view.loc (V d (cV L) (jV L)) ↦{fullShare} fx from rfl)) $$ Hx
  ihave Hb0' := (Entails.of_eq (show ((V d (cV L) (jV L)).loc cc2_scratch1 ↦{fullShare} fb0 : sProp 𝕄) = (b0V).view.loc (V d (cV L) (jV L)) ↦{fullShare} fb0 from rfl)) $$ Hb0
  ihave Hb1' := (Entails.of_eq (show ((V d (cV L) (jV L)).loc cc2_scratch2 ↦{fullShare} fb1 : sProp 𝕄) = (b1V).view.loc (V d (cV L) (jV L)) ↦{fullShare} fb1 from rfl)) $$ Hb1
  ihave Hb2' := (Entails.of_eq (show ((V d (cV L) (jV L)).loc cc2_scratch3 ↦{fullShare} fb2 : sProp 𝕄) = (b2V).view.loc (V d (cV L) (jV L)) ↦{fullShare} fb2 from rfl)) $$ Hb2
  ihave Hb3' := (Entails.of_eq (show ((V d (cV L) (jV L)).loc cc2_scratch4 ↦{fullShare} fb3 : sProp 𝕄) = (b3V).view.loc (V d (cV L) (jV L)) ↦{fullShare} fb3 from rfl)) $$ Hb3
  ihave Ht0s := (pointsTo_share (PosShare.mem_left_op_right (shV (cL L) (iL L)))).1 $$ Ht0'
  icases Ht0s with ⟨Ht0a, Ht0b⟩
  ihave Ht1s := (pointsTo_share (PosShare.mem_left_op_right (shV (cL L) (iL L)))).1 $$ Ht1'
  icases Ht1s with ⟨Ht1a, Ht1b⟩
  ihave Ht2s := (pointsTo_share (PosShare.mem_left_op_right (shV (cL L) (iL L)))).1 $$ Ht2'
  icases Ht2s with ⟨Ht2a, Ht2b⟩
  ihave Ht3s := (pointsTo_share (PosShare.mem_left_op_right (shV (cL L) (iL L)))).1 $$ Ht3'
  icases Ht3s with ⟨Ht3a, Ht3b⟩
  sl_exec
  ihave Hx2 := (Entails.of_eq (pointsTo_congr (q := fullShare) (I := Finset.univ) (fun j _ => scratch_eq fx (tile_run1.sl.dma0 m d L) (tile_run1.sl.dma0_1 m d L) (tile_run1.sl.dma0_2 m d L) (tile_run1.sl.dma0_3 m d L) j))) $$ Hx'
  have hp0 : ∀ x, (tile_run1.sl.dma0 m d L x).toNat ≤ 99999 := fun x => by
    show (idxOf m d 1 0 (((i0V).slice (Rect.unit (s := S8192) (k2_off1 L) S256.size (k2_off1_inb L)) (fun _ => rfl)).view.emb x)).toNat ≤ 99999
    exact idxOf_le m hpre d 1 0 _
  have hp1 : ∀ x, (tile_run1.sl.dma0_1 m d L x).toNat ≤ 99999 := fun x => by
    show (idxOf m d 1 1 (((i1V).slice (Rect.unit (s := S8192) (k2_off1 L) S256.size (k2_off1_inb L)) (fun _ => rfl)).view.emb x)).toNat ≤ 99999
    exact idxOf_le m hpre d 1 1 _
  have hp2 : ∀ x, (tile_run1.sl.dma0_2 m d L x).toNat ≤ 99999 := fun x => by
    show (idxOf m d 1 2 (((i2V).slice (Rect.unit (s := S8192) (k2_off1 L) S256.size (k2_off1_inb L)) (fun _ => rfl)).view.emb x)).toNat ≤ 99999
    exact idxOf_le m hpre d 1 2 _
  have hp3 : ∀ x, (tile_run1.sl.dma0_3 m d L x).toNat ≤ 99999 := fun x => by
    show (idxOf m d 1 3 (((i3V).slice (Rect.unit (s := S8192) (k2_off1 L) S256.size (k2_off1_inb L)) (fun _ => rfl)).view.emb x)).toNat ≤ 99999
    exact idxOf_le m hpre d 1 3 _
  have hin0 := hin_xFill (tile_run1.sl.dma0 m d L) (tile_run1.sl.dma0_1 m d L) (tile_run1.sl.dma0_2 m d L) (tile_run1.sl.dma0_3 m d L) hp0 hp1 hp2 hp3 (Rect.unit (s := S4x256) ![0, 0] S1x128.size inb_S4x256_S1x128_0_0) (fun _ => rfl) squeezes_S1x128_S128
  have hin1 := hin_xFill (tile_run1.sl.dma0 m d L) (tile_run1.sl.dma0_1 m d L) (tile_run1.sl.dma0_2 m d L) (tile_run1.sl.dma0_3 m d L) hp0 hp1 hp2 hp3 (Rect.unit (s := S4x256) ![0, 128] S1x128.size inb_S4x256_S1x128_0_128) (fun _ => rfl) squeezes_S1x128_S128
  have hin2 := hin_xFill (tile_run1.sl.dma0 m d L) (tile_run1.sl.dma0_1 m d L) (tile_run1.sl.dma0_2 m d L) (tile_run1.sl.dma0_3 m d L) hp0 hp1 hp2 hp3 (Rect.unit (s := S4x256) ![1, 0] S1x128.size inb_S4x256_S1x128_1_0) (fun _ => rfl) squeezes_S1x128_S128
  have hin3 := hin_xFill (tile_run1.sl.dma0 m d L) (tile_run1.sl.dma0_1 m d L) (tile_run1.sl.dma0_2 m d L) (tile_run1.sl.dma0_3 m d L) hp0 hp1 hp2 hp3 (Rect.unit (s := S4x256) ![1, 128] S1x128.size inb_S4x256_S1x128_1_128) (fun _ => rfl) squeezes_S1x128_S128
  have hin4 := hin_xFill (tile_run1.sl.dma0 m d L) (tile_run1.sl.dma0_1 m d L) (tile_run1.sl.dma0_2 m d L) (tile_run1.sl.dma0_3 m d L) hp0 hp1 hp2 hp3 (Rect.unit (s := S4x256) ![2, 0] S1x128.size inb_S4x256_S1x128_2_0) (fun _ => rfl) squeezes_S1x128_S128
  have hin5 := hin_xFill (tile_run1.sl.dma0 m d L) (tile_run1.sl.dma0_1 m d L) (tile_run1.sl.dma0_2 m d L) (tile_run1.sl.dma0_3 m d L) hp0 hp1 hp2 hp3 (Rect.unit (s := S4x256) ![2, 128] S1x128.size inb_S4x256_S1x128_2_128) (fun _ => rfl) squeezes_S1x128_S128
  have hin6 := hin_xFill (tile_run1.sl.dma0 m d L) (tile_run1.sl.dma0_1 m d L) (tile_run1.sl.dma0_2 m d L) (tile_run1.sl.dma0_3 m d L) hp0 hp1 hp2 hp3 (Rect.unit (s := S4x256) ![3, 0] S1x128.size inb_S4x256_S1x128_3_0) (fun _ => rfl) squeezes_S1x128_S128
  have hin7 := hin_xFill (tile_run1.sl.dma0 m d L) (tile_run1.sl.dma0_1 m d L) (tile_run1.sl.dma0_2 m d L) (tile_run1.sl.dma0_3 m d L) hp0 hp1 hp2 hp3 (Rect.unit (s := S4x256) ![3, 128] S1x128.size inb_S4x256_S1x128_3_128) (fun _ => rfl) squeezes_S1x128_S128
  sl_exec
  sl_step
  have hw0 : ∀ x, tile_run1.sl.dma0_4 m d L fb0 hin0 x
      = valAt m d 0 (512 * (L 1).val + 256 * (L 0).val + 128 * 0 + (x 0).val) (x 1).val := fun x =>
    (read_writes_whole (b0V).view fb0 _ _ x).trans
      (unit_val m d L 0 0 _ (tabRead0 m d inb_S100001x128_S100001x128_0_0) _
        (fun y => (congrArg BitVec.toNat (offsRead 0 0 inb_S4x256_S1x128_0_0 squeezes_S1x128_S128
              (xFill (tile_run1.sl.dma0 m d L) (tile_run1.sl.dma0_1 m d L) (tile_run1.sl.dma0_2 m d L) (tile_run1.sl.dma0_3 m d L)) y
              (ix2 ⟨0, by decide⟩ ⟨0 + (y 0).val, by have h : (y 0).val < 128 := (y 0).isLt; omega⟩) rfl rfl)).trans
          ((idxRead0 m d L _).trans (congrArg (rowOf (idxOf m d 1 0))
            (by show 512 * (L 1).val + 256 * (L 0).val + (0 + (y 0).val) = _; omega)))) _ hin0 x)
  have hw1 : ∀ x, tile_run1.sl.dma0_5 m d L fb1 hin1 x
      = valAt m d 0 (512 * (L 1).val + 256 * (L 0).val + 128 * 1 + (x 0).val) (x 1).val := fun x =>
    (read_writes_whole (b1V).view fb1 _ _ x).trans
      (unit_val m d L 0 1 _ (tabRead0 m d inb_S100001x128_S100001x128_0_0) _
        (fun y => (congrArg BitVec.toNat (offsRead 0 128 inb_S4x256_S1x128_0_128 squeezes_S1x128_S128
              (xFill (tile_run1.sl.dma0 m d L) (tile_run1.sl.dma0_1 m d L) (tile_run1.sl.dma0_2 m d L) (tile_run1.sl.dma0_3 m d L)) y
              (ix2 ⟨0, by decide⟩ ⟨128 + (y 0).val, by have h : (y 0).val < 128 := (y 0).isLt; omega⟩) rfl rfl)).trans
          ((idxRead0 m d L _).trans (congrArg (rowOf (idxOf m d 1 0))
            (by show 512 * (L 1).val + 256 * (L 0).val + (128 + (y 0).val) = _; omega)))) _ hin1 x)
  have hw2 : ∀ x, tile_run1.sl.dma0_6 m d L fb2 hin2 x
      = valAt m d 1 (512 * (L 1).val + 256 * (L 0).val + 128 * 0 + (x 0).val) (x 1).val := fun x =>
    (read_writes_whole (b2V).view fb2 _ _ x).trans
      (unit_val m d L 1 0 _ (tabRead1 m d inb_S100001x128_S100001x128_0_0) _
        (fun y => (congrArg BitVec.toNat (offsRead 1 0 inb_S4x256_S1x128_1_0 squeezes_S1x128_S128
              (xFill (tile_run1.sl.dma0 m d L) (tile_run1.sl.dma0_1 m d L) (tile_run1.sl.dma0_2 m d L) (tile_run1.sl.dma0_3 m d L)) y
              (ix2 ⟨1, by decide⟩ ⟨0 + (y 0).val, by have h : (y 0).val < 128 := (y 0).isLt; omega⟩) rfl rfl)).trans
          ((idxRead1 m d L _).trans (congrArg (rowOf (idxOf m d 1 1))
            (by show 512 * (L 1).val + 256 * (L 0).val + (0 + (y 0).val) = _; omega)))) _ hin2 x)
  have hw3 : ∀ x, tile_run1.sl.dma0_7 m d L fb3 hin3 x
      = valAt m d 1 (512 * (L 1).val + 256 * (L 0).val + 128 * 1 + (x 0).val) (x 1).val := fun x =>
    (read_writes_whole (b3V).view fb3 _ _ x).trans
      (unit_val m d L 1 1 _ (tabRead1 m d inb_S100001x128_S100001x128_0_0) _
        (fun y => (congrArg BitVec.toNat (offsRead 1 128 inb_S4x256_S1x128_1_128 squeezes_S1x128_S128
              (xFill (tile_run1.sl.dma0 m d L) (tile_run1.sl.dma0_1 m d L) (tile_run1.sl.dma0_2 m d L) (tile_run1.sl.dma0_3 m d L)) y
              (ix2 ⟨1, by decide⟩ ⟨128 + (y 0).val, by have h : (y 0).val < 128 := (y 0).isLt; omega⟩) rfl rfl)).trans
          ((idxRead1 m d L _).trans (congrArg (rowOf (idxOf m d 1 1))
            (by show 512 * (L 1).val + 256 * (L 0).val + (128 + (y 0).val) = _; omega)))) _ hin3 x)
  have hw4 : ∀ x, tile_run1.sl.dma0_8 m d L fb0 hin0 hin4 x
      = valAt m d 2 (512 * (L 1).val + 256 * (L 0).val + 128 * 0 + (x 0).val) (x 1).val := fun x =>
    (read_writes_whole (b0V).view fb0 _ _ x).trans
      (unit_val m d L 2 0 _ (tabRead2 m d inb_S100001x128_S100001x128_0_0) _
        (fun y => (congrArg BitVec.toNat (offsRead 2 0 inb_S4x256_S1x128_2_0 squeezes_S1x128_S128
              (xFill (tile_run1.sl.dma0 m d L) (tile_run1.sl.dma0_1 m d L) (tile_run1.sl.dma0_2 m d L) (tile_run1.sl.dma0_3 m d L)) y
              (ix2 ⟨2, by decide⟩ ⟨0 + (y 0).val, by have h : (y 0).val < 128 := (y 0).isLt; omega⟩) rfl rfl)).trans
          ((idxRead2 m d L _).trans (congrArg (rowOf (idxOf m d 1 2))
            (by show 512 * (L 1).val + 256 * (L 0).val + (0 + (y 0).val) = _; omega)))) _ hin4 x)
  have hw5 : ∀ x, tile_run1.sl.dma0_9 m d L fb1 hin1 hin5 x
      = valAt m d 2 (512 * (L 1).val + 256 * (L 0).val + 128 * 1 + (x 0).val) (x 1).val := fun x =>
    (read_writes_whole (b1V).view fb1 _ _ x).trans
      (unit_val m d L 2 1 _ (tabRead2 m d inb_S100001x128_S100001x128_0_0) _
        (fun y => (congrArg BitVec.toNat (offsRead 2 128 inb_S4x256_S1x128_2_128 squeezes_S1x128_S128
              (xFill (tile_run1.sl.dma0 m d L) (tile_run1.sl.dma0_1 m d L) (tile_run1.sl.dma0_2 m d L) (tile_run1.sl.dma0_3 m d L)) y
              (ix2 ⟨2, by decide⟩ ⟨128 + (y 0).val, by have h : (y 0).val < 128 := (y 0).isLt; omega⟩) rfl rfl)).trans
          ((idxRead2 m d L _).trans (congrArg (rowOf (idxOf m d 1 2))
            (by show 512 * (L 1).val + 256 * (L 0).val + (128 + (y 0).val) = _; omega)))) _ hin5 x)
  have hw6 : ∀ x, tile_run1.sl.dma0_10 m d L fb2 hin2 hin6 x
      = valAt m d 3 (512 * (L 1).val + 256 * (L 0).val + 128 * 0 + (x 0).val) (x 1).val := fun x =>
    (read_writes_whole (b2V).view fb2 _ _ x).trans
      (unit_val m d L 3 0 _ (tabRead3 m d inb_S100001x128_S100001x128_0_0) _
        (fun y => (congrArg BitVec.toNat (offsRead 3 0 inb_S4x256_S1x128_3_0 squeezes_S1x128_S128
              (xFill (tile_run1.sl.dma0 m d L) (tile_run1.sl.dma0_1 m d L) (tile_run1.sl.dma0_2 m d L) (tile_run1.sl.dma0_3 m d L)) y
              (ix2 ⟨3, by decide⟩ ⟨0 + (y 0).val, by have h : (y 0).val < 128 := (y 0).isLt; omega⟩) rfl rfl)).trans
          ((idxRead3 m d L _).trans (congrArg (rowOf (idxOf m d 1 3))
            (by show 512 * (L 1).val + 256 * (L 0).val + (0 + (y 0).val) = _; omega)))) _ hin6 x)
  have hw7 : ∀ x, tile_run1.sl.dma0_11 m d L fb3 hin3 hin7 x
      = valAt m d 3 (512 * (L 1).val + 256 * (L 0).val + 128 * 1 + (x 0).val) (x 1).val := fun x =>
    (read_writes_whole (b3V).view fb3 _ _ x).trans
      (unit_val m d L 3 1 _ (tabRead3 m d inb_S100001x128_S100001x128_0_0) _
        (fun y => (congrArg BitVec.toNat (offsRead 3 128 inb_S4x256_S1x128_3_128 squeezes_S1x128_S128
              (xFill (tile_run1.sl.dma0 m d L) (tile_run1.sl.dma0_1 m d L) (tile_run1.sl.dma0_2 m d L) (tile_run1.sl.dma0_3 m d L)) y
              (ix2 ⟨3, by decide⟩ ⟨128 + (y 0).val, by have h : (y 0).val < 128 := (y 0).isLt; omega⟩) rfl rfl)).trans
          ((idxRead3 m d L _).trans (congrArg (rowOf (idxOf m d 1 3))
            (by show 512 * (L 1).val + 256 * (L 0).val + (128 + (y 0).val) = _; omega)))) _ hin7 x)
  isplitl [Hi0' Hi1' Hi2' Hi3' Ht0a Ht0b Ht1a Ht1b Ht2a Ht2b Ht3a Ht3b Ho0 Ho1 Ho2 Ho3 Ho4 Ho5 Ho6 Ho7]
  · isplitl [Hi0' Hi1' Hi2' Hi3' Ht0a Ht0b Ht1a Ht1b Ht2a Ht2b Ht3a Ht3b]
    · isplitl [Hi0' Hi1' Hi2' Hi3']
      · isplitl [Hi0']; · iexact Hi0'
        isplitl [Hi1']; · iexact Hi1'
        isplitl [Hi2']; · iexact Hi2'
        iexact Hi3'
      isplitl [Ht0a Ht0b]
      · iapply (pointsTo_share (PosShare.mem_left_op_right (shV (cL L) (iL L)))).2
        isplitl [Ht0a]; · iexact Ht0a
        iexact Ht0b
      isplitl [Ht1a Ht1b]
      · iapply (pointsTo_share (PosShare.mem_left_op_right (shV (cL L) (iL L)))).2
        isplitl [Ht1a]; · iexact Ht1a
        iexact Ht1b
      isplitl [Ht2a Ht2b]
      · iapply (pointsTo_share (PosShare.mem_left_op_right (shV (cL L) (iL L)))).2
        isplitl [Ht2a]; · iexact Ht2a
        iexact Ht2b
      iapply (pointsTo_share (PosShare.mem_left_op_right (shV (cL L) (iL L)))).2
      isplitl [Ht3a]; · iexact Ht3a
      iexact Ht3b
    isplitl [Ho0]
    · iapply (Entails.of_eq (pointsTo_congr (rect_val m d L hpre (k2_off2 L 0#32) (k2_off2_inb L 0) 0 0
          (congrFun (k2_off2_eq L 0) 0) (congrFun (k2_off2_eq L 0) 1) _ hw0 (feat0 m d 1))))
      iexact Ho0
    isplitl [Ho1]
    · iapply (Entails.of_eq (pointsTo_congr (rect_val m d L hpre (k2_off2 L 128#32) (k2_off2_inb L 1) 0 1
          (congrFun (k2_off2_eq L 1) 0) (congrFun (k2_off2_eq L 1) 1) _ hw1 (feat0 m d 1))))
      iexact Ho1
    isplitl [Ho2]
    · iapply (Entails.of_eq (pointsTo_congr (rect_val m d L hpre (k2_off3 L 0#32) (k2_off3_inb L 0) 1 0
          (congrFun (k2_off3_eq L 0) 0) (congrFun (k2_off3_eq L 0) 1) _ hw2 (feat0 m d 1))))
      iexact Ho2
    isplitl [Ho3]
    · iapply (Entails.of_eq (pointsTo_congr (rect_val m d L hpre (k2_off3 L 128#32) (k2_off3_inb L 1) 1 1
          (congrFun (k2_off3_eq L 1) 0) (congrFun (k2_off3_eq L 1) 1) _ hw3 (feat0 m d 1))))
      iexact Ho3
    isplitl [Ho4]
    · iapply (Entails.of_eq (pointsTo_congr (rect_val m d L hpre (k2_off4 L 0#32) (k2_off4_inb L 0) 2 0
          (congrFun (k2_off4_eq L 0) 0) (congrFun (k2_off4_eq L 0) 1) _ hw4 (feat0 m d 1))))
      iexact Ho4
    isplitl [Ho5]
    · iapply (Entails.of_eq (pointsTo_congr (rect_val m d L hpre (k2_off4 L 128#32) (k2_off4_inb L 1) 2 1
          (congrFun (k2_off4_eq L 1) 0) (congrFun (k2_off4_eq L 1) 1) _ hw5 (feat0 m d 1))))
      iexact Ho5
    isplitl [Ho6]
    · iapply (Entails.of_eq (pointsTo_congr (rect_val m d L hpre (k2_off5 L 0#32) (k2_off5_inb L 0) 3 0
          (congrFun (k2_off5_eq L 0) 0) (congrFun (k2_off5_eq L 0) 1) _ hw6 (feat0 m d 1))))
      iexact Ho6
    iapply (Entails.of_eq (pointsTo_congr (rect_val m d L hpre (k2_off5 L 128#32) (k2_off5_inb L 1) 3 1
        (congrFun (k2_off5_eq L 1) 0) (congrFun (k2_off5_eq L 1) 1) _ hw7 (feat0 m d 1))))
    iexact Ho7
  isplitl [Hx2 Hb0' Hb1' Hb2' Hb3' Hbufs]
  · isplitl [Hx2]; · iexists _; iexact Hx2
    isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hg0 Hg1 Hg2 Hg3 Hw0 Hw1 Hw2 Hw3 Hs0 Hs1 Hs2 Hs3 Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hs0]; · iexact Hs0
    isplitl [Hs1]; · iexact Hs1
    isplitl [Hs2]; · iexact Hs2
    isplitl [Hs3]; · iexact Hs3
    iexact Hsems
  iexists _; isplitr
  swap; · iexact HO
  ipureintro
  repeat (first | exact fun p hp => Or.inl hp | refine waits_ins ?_ _)

/-- The task's obligation, in the order of arguments the launch applies it at. -/
theorem tile_body1 (m : (ℓ : Loc nD τ sig) → Buf (Elt F) ℓ) (hF : (K (F := F)).Facts) (hpre : PreOK m) (d : Dev nD) (L : grid2.Coords) (O : CellTallies nD τ sig (HIx 2)) (W : Waits sig (HIx 2)) (hO : ∀ g, O g none = 0) :
    iprop(levAts (K (F := F)).L (K (F := F)).lev ∗ emp ∗ goAt m d 1 (cL L) (iL L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_gather_body L i0V (Memref.isWhole_whole _) i1V (Memref.isWhole_whole _) i2V (Memref.isWhole_whole _) i3V (Memref.isWhole_whole _)
             t0V (Memref.isWhole_whole _) t1V (Memref.isWhole_whole _) t2V (Memref.isWhole_whole _) t3V (Memref.isWhole_whole _) oV (Memref.isWhole_whole _)
             xV (Memref.isWhole_whole _) b0V (Memref.isWhole_whole _) b1V (Memref.isWhole_whole _) b2V (Memref.isWhole_whole _) b3V (Memref.isWhole_whole _)
             cc2_scratch5 cc2_scratch6 cc2_scratch7 cc2_scratch8 cc2_scratch9 cc2_scratch10 cc2_scratch11 cc2_scratch12 cc2_scoped0 cc2_scoped1 cc2_scoped2 cc2_scoped3)
          fun _ => iprop(tdAt m d 1 (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_run1 m d L hF hpre O W hO

end Body
end Cert.Kernel.Sc.C1

end
-- ==== Proof.KValStages.lean ====
/-
  What each TensorCore region finds in its eleven input arrays, as functions of the launch memory: the call's feature
  array at the gathered rows; each weight array cast; each bias reshaped to one row; the output row as launched. And
  what the last line leaves in the result array: the two regions' results joined.
-/
import proofs.«212020_g4707284156877_cont_8to1c4_553_54_alg».proof.Proof.ScVals

noncomputable section

namespace Cert.KernelIdeal.Sc

open Cert.KernelIdeal Cert.KernelIdeal.Gen

open Idealize.ShloMosaic Idealize.ShloMosaic.ValueIdx
open Idealize.ShloMosaic.StableHlo
open Idealize.SL Idealize.SL.Sem

variable {F : FTy → Type} (m : (ℓ : Loc nD τ sig) → Buf (Elt F) ℓ) [FloatOps F] (G : MlpFn F)

/-! ## What region 0 finds -/

theorem VB_v4 (d : Dev nD) : VB m d (rf main_v4) = featOf m d 0 := by
  rw [VB_keep m d main_v4]; exact Function.update_self ..
theorem VB_v5 (d : Dev nD) : VB m d (rf main_v5) = truncf .bf16 (m ((TT d).loc main_arg8)) bitsLt_bf16_f32 := by
  unfold VB; dsimp only [opsB]; after_results
  rw [VA'_keep m d main_arg8, VA_keep m d main_arg8]; rfl
theorem VB_v7 (d : Dev nD) : VB m d (rf main_v7) = truncf .bf16 (m ((TT d).loc main_arg10)) bitsLt_bf16_f32 := by
  unfold VB; dsimp only [opsB]; after_results
  rw [VA'_keep m d main_arg10, VA_keep m d main_arg10]; rfl
theorem VB_v9 (d : Dev nD) : VB m d (rf main_v9) = truncf .bf16 (m ((TT d).loc main_arg12)) bitsLt_bf16_f32 := by
  unfold VB; dsimp only [opsB]; after_results
  rw [VA'_keep m d main_arg12, VA_keep m d main_arg12]; rfl
theorem VB_v11 (d : Dev nD) : VB m d (rf main_v11) = truncf .bf16 (m ((TT d).loc main_arg14)) bitsLt_bf16_f32 := by
  unfold VB; dsimp only [opsB]; after_results
  rw [VA'_keep m d main_arg14, VA_keep m d main_arg14]; rfl
theorem VB_v6 (d : Dev nD) : VB m d (rf main_v6) = shapeCast S1x512 (m ((TT d).loc main_arg9)) shapeCasts_S512_S1x512 := by
  unfold VB; dsimp only [opsB]; after_results
  rw [VA'_keep m d main_arg9, VA_keep m d main_arg9]; rfl
theorem VB_v8 (d : Dev nD) : VB m d (rf main_v8) = shapeCast S1x256 (m ((TT d).loc main_arg11)) shapeCasts_S256_S1x256 := by
  unfold VB; dsimp only [opsB]; after_results
  rw [VA'_keep m d main_arg11, VA_keep m d main_arg11]; rfl
theorem VB_v10 (d : Dev nD) : VB m d (rf main_v10) = shapeCast S1x128 (m ((TT d).loc main_arg13)) shapeCasts_S128_S1x128 := by
  unfold VB; dsimp only [opsB]; after_results
  rw [VA'_keep m d main_arg13, VA_keep m d main_arg13]; rfl
theorem VB_v12 (d : Dev nD) : VB m d (rf main_v12) = shapeCast S1x64 (m ((TT d).loc main_arg15)) shapeCasts_S64_S1x64 := by
  unfold VB; dsimp only [opsB]; after_results
  rw [VA'_keep m d main_arg15, VA_keep m d main_arg15]; rfl
theorem VB_v13 (d : Dev nD) : VB m d (rf main_v13) = shapeCast S1x1 (m ((TT d).loc main_arg17)) shapeCasts_S1_S1x1 := by
  unfold VB; dsimp only [opsB]; after_results
  rw [VA'_keep m d main_arg17, VA_keep m d main_arg17]; rfl
theorem VB_arg16 (d : Dev nD) : VB m d (rf main_arg16) = (m ((TT d).loc main_arg16)) := by
  rw [VB_keep m d main_arg16, VA'_keep m d main_arg16, VA_keep m d main_arg16]; rfl

/-! ## What region 1 finds -/

theorem VD_v19 (d : Dev nD) : VD m G d (rf main_v19) = featOf m d 1 := by
  rw [VD_keep m G d main_v19]; exact Function.update_self ..
theorem VD_v20 (d : Dev nD) : VD m G d (rf main_v20) = truncf .bf16 (m ((TT d).loc main_arg8)) bitsLt_bf16_f32 := by
  unfold VD; dsimp only [opsD]; after_results
  rw [VC'_keep m G d main_arg8, VC_launch m G d main_arg8]; rfl
theorem VD_v22 (d : Dev nD) : VD m G d (rf main_v22) = truncf .bf16 (m ((TT d).loc main_arg10)) bitsLt_bf16_f32 := by
  unfold VD; dsimp only [opsD]; after_results
  rw [VC'_keep m G d main_arg10, VC_launch m G d main_arg10]; rfl
theorem VD_v24 (d : Dev nD) : VD m G d (rf main_v24) = truncf .bf16 (m ((TT d).loc main_arg12)) bitsLt_bf16_f32 := by
  unfold VD; dsimp only [opsD]; after_results
  rw [VC'_keep m G d main_arg12, VC_launch m G d main_arg12]; rfl
theorem VD_v26 (d : Dev nD) : VD m G d (rf main_v26) = truncf .bf16 (m ((TT d).loc main_arg14)) bitsLt_bf16_f32 := by
  unfold VD; dsimp only [opsD]; after_results
  rw [VC'_keep m G d main_arg14, VC_launch m G d main_arg14]; rfl
theorem VD_v21 (d : Dev nD) : VD m G d (rf main_v21) = shapeCast S1x512 (m ((TT d).loc main_arg9)) shapeCasts_S512_S1x512 := by
  unfold VD; dsimp only [opsD]; after_results
  rw [VC'_keep m G d main_arg9, VC_launch m G d main_arg9]; rfl
theorem VD_v23 (d : Dev nD) : VD m G d (rf main_v23) = shapeCast S1x256 (m ((TT d).loc main_arg11)) shapeCasts_S256_S1x256 := by
  unfold VD; dsimp only [opsD]; after_results
  rw [VC'_keep m G d main_arg11, VC_launch m G d main_arg11]; rfl
theorem VD_v25 (d : Dev nD) : VD m G d (rf main_v25) = shapeCast S1x128 (m ((TT d).loc main_arg13)) shapeCasts_S128_S1x128 := by
  unfold VD; dsimp only [opsD]; after_results
  rw [VC'_keep m G d main_arg13, VC_launch m G d main_arg13]; rfl
theorem VD_v27 (d : Dev nD) : VD m G d (rf main_v27) = shapeCast S1x64 (m ((TT d).loc main_arg15)) shapeCasts_S64_S1x64 := by
  unfold VD; dsimp only [opsD]; after_results
  rw [VC'_keep m G d main_arg15, VC_launch m G d main_arg15]; rfl
theorem VD_v28 (d : Dev nD) : VD m G d (rf main_v28) = shapeCast S1x1 (m ((TT d).loc main_arg17)) shapeCasts_S1_S1x1 := by
  unfold VD; dsimp only [opsD]; after_results
  rw [VC'_keep m G d main_arg17, VC_launch m G d main_arg17]; rfl
theorem VD_arg16 (d : Dev nD) : VD m G d (rf main_arg16) = (m ((TT d).loc main_arg16)) := by
  rw [VD_keep m G d main_arg16, VC'_keep m G d main_arg16, VC_launch m G d main_arg16]; rfl

/-! ## What the last line leaves -/

/-- The first region's result is still in its array before the last line. -/
theorem VD'_v14 (d : Dev nD) : VD' m G d (rf main_v14) = res0 m G d := by
  rw [VD'_keep m G d main_v14, VD_keep m G d main_v14, VC'_keep m G d main_v14, VC_keep m G d main_v14]
  exact Function.update_self ..

theorem VD'_v29 (d : Dev nD) : VD' m G d (rf main_v29) = res1 m G d := Function.update_self ..

/-- The result array: the two regions' results joined. -/
theorem VE_v30 (d : Dev nD) :
    VE m G d (rf main_v30)
      = concatenate S16384 0 [⟨S8192, res0 m G d⟩, ⟨S8192, res1 m G d⟩] concatenates_S8192_S8192_S16384_d0 := by
  unfold VE; dsimp only [opsE]; after_results
  rw [VD'_v14, VD'_v29]

end Cert.KernelIdeal.Sc

end
-- ==== Proof.Spec.lean ====
/-
  The function both programs compute, stated once over the extended reals, index by index.

  An example `r` (one of 16384) has four index words, one per embedding table. Its feature row has 512 entries:
  entry `k` is column `k mod 128` of row `idx_t[r]` of table `t = k / 128` — the four gathered rows side by side.
  The prediction is a four-layer perceptron on that row, each layer `x ↦ max (x · Wᵀ + b) 0`, followed by the
  inner product with the one output row and the output bias. Every sum is a finite sum over the contracted
  coordinate; nothing here depends on an order or a tiling of the sums.
-/
import Idealize.ShloMosaic.PureOps.Ideal
import Idealize.ShloMosaic.Lib.ValueIdx

noncomputable section

open scoped BigOperators

namespace Cert.Spec

open Idealize.ShloMosaic Idealize.ShloMosaic.ValueIdx

/-- The shape of one embedding table: 100001 rows of 128 columns. -/
abbrev Tbl : Shape := ⟨2, ![100001, 128]⟩
/-- The shape of one index array and of the result: 16384 examples. -/
abbrev Ex : Shape := ⟨1, ![16384]⟩

/-- Column `col` of the row of table `e` that the index word of example `r` names (zero if the word names no row,
    which the precondition excludes). -/
def pick (i : Ex.Idx → BitVec 32) (e : Tbl.Idx → EReal) (r : Fin 16384) (col : Fin 128) : EReal :=
  if h : (i (ix1 r)).toNat < 100001 then e (ix2 ⟨(i (ix1 r)).toNat, h⟩ col) else 0

/-- Entry `k` of example `r`'s feature row: the four gathered rows side by side. -/
def feat (i0 i1 i2 i3 : Ex.Idx → BitVec 32) (e0 e1 e2 e3 : Tbl.Idx → EReal) (r : Fin 16384) (k : Fin 512) : EReal :=
  let col : Fin 128 := ⟨k.val % 128, Nat.mod_lt _ (by decide)⟩
  if k.val / 128 = 0 then pick i0 e0 r col
  else if k.val / 128 = 1 then pick i1 e1 r col
  else if k.val / 128 = 2 then pick i2 e2 r col
  else pick i3 e3 r col

/-- One layer on one row: `max (∑ₖ x k · W j k + b j) 0`. -/
def dense {ni no : Nat} (W : (⟨2, ![no, ni]⟩ : Shape).Idx → EReal) (b : (⟨1, ![no]⟩ : Shape).Idx → EReal)
    (x : Fin ni → EReal) : Fin no → EReal :=
  fun j => max ((∑ k : Fin ni, x k * W (ix2 j k)) + b (ix1 j)) 0

/-- The hidden row after the four layers, for one feature row. -/
def hidden (W0 : (⟨2, ![512, 512]⟩ : Shape).Idx → EReal) (b0 : (⟨1, ![512]⟩ : Shape).Idx → EReal)
    (W1 : (⟨2, ![256, 512]⟩ : Shape).Idx → EReal) (b1 : (⟨1, ![256]⟩ : Shape).Idx → EReal)
    (W2 : (⟨2, ![128, 256]⟩ : Shape).Idx → EReal) (b2 : (⟨1, ![128]⟩ : Shape).Idx → EReal)
    (W3 : (⟨2, ![64, 128]⟩ : Shape).Idx → EReal) (b3 : (⟨1, ![64]⟩ : Shape).Idx → EReal)
    (x : Fin 512 → EReal) : Fin 64 → EReal :=
  dense W3 b3 (dense W2 b2 (dense W1 b1 (dense W0 b0 x)))

/-- The output for one feature row: the hidden row against the output row, plus the output bias. -/
def head (Wo : (⟨2, ![1, 64]⟩ : Shape).Idx → EReal) (bo : (⟨1, ![1]⟩ : Shape).Idx → EReal) (h : Fin 64 → EReal) : EReal :=
  (∑ k : Fin 64, h k * Wo (ix2 0 k)) + bo (ix1 0)

/-- The perceptron on one feature row. -/
def mlp (W0 : (⟨2, ![512, 512]⟩ : Shape).Idx → EReal) (b0 : (⟨1, ![512]⟩ : Shape).Idx → EReal)
    (W1 : (⟨2, ![256, 512]⟩ : Shape).Idx → EReal) (b1 : (⟨1, ![256]⟩ : Shape).Idx → EReal)
    (W2 : (⟨2, ![128, 256]⟩ : Shape).Idx → EReal) (b2 : (⟨1, ![128]⟩ : Shape).Idx → EReal)
    (W3 : (⟨2, ![64, 128]⟩ : Shape).Idx → EReal) (b3 : (⟨1, ![64]⟩ : Shape).Idx → EReal)
    (Wo : (⟨2, ![1, 64]⟩ : Shape).Idx → EReal) (bo : (⟨1, ![1]⟩ : Shape).Idx → EReal)
    (x : Fin 512 → EReal) : EReal :=
  head Wo bo (hidden W0 b0 W1 b1 W2 b2 W3 b3 x)

/-- The whole result: example `i`'s prediction from its gathered feature row. -/
def pred (i0 i1 i2 i3 : Ex.Idx → BitVec 32) (e0 e1 e2 e3 : Tbl.Idx → EReal)
    (W0 : (⟨2, ![512, 512]⟩ : Shape).Idx → EReal) (b0 : (⟨1, ![512]⟩ : Shape).Idx → EReal)
    (W1 : (⟨2, ![256, 512]⟩ : Shape).Idx → EReal) (b1 : (⟨1, ![256]⟩ : Shape).Idx → EReal)
    (W2 : (⟨2, ![128, 256]⟩ : Shape).Idx → EReal) (b2 : (⟨1, ![128]⟩ : Shape).Idx → EReal)
    (W3 : (⟨2, ![64, 128]⟩ : Shape).Idx → EReal) (b3 : (⟨1, ![64]⟩ : Shape).Idx → EReal)
    (Wo : (⟨2, ![1, 64]⟩ : Shape).Idx → EReal) (bo : (⟨1, ![1]⟩ : Shape).Idx → EReal) : Ex.Idx → EReal :=
  fun i => mlp W0 b0 W1 b1 W2 b2 W3 b3 Wo bo (feat i0 i1 i2 i3 e0 e1 e2 e3 (i 0))

end Cert.Spec

end
-- ==== Proof.KValIdeal.lean ====
/-
  The kernel program's result array is the specification of the launch contents of its eighteen argument arrays,
  over the extended reals, when every index word is at most 99999 and each region's function is the perceptron.

  A region's function is asked to be the specification's perceptron on each row of the feature array, with each bias
  read off its one-row array. The arrays a region finds are the gathered rows, the weights (a cast is the identity
  over the extended reals) and the biases reshaped to one row, so a region's result at example i of its half is the
  perceptron on the gathered row i. Entry k of gathered row r of half q is column k mod 128 of the row of table k / 128
  that word 8192 q + r of index array k / 128 names: the specification's feature entry of example 8192 q + r. The
  result array joins the two halves' results: example R is example R of the first half when R < 8192 and example
  R - 8192 of the second otherwise.
-/
import proofs.«212020_g4707284156877_cont_8to1c4_553_54_alg».proof.Proof.KValStages
import proofs.«212020_g4707284156877_cont_8to1c4_553_54_alg».proof.Proof.Spec
import Idealize.ShloMosaic.Lib.Pipeline.Value

noncomputable section

namespace Cert.KernelIdeal.Sc

open Cert.KernelIdeal Cert.KernelIdeal.Gen

open Idealize.ShloMosaic Idealize.ShloMosaic.ValueIdx
open Idealize.ShloMosaic.StableHlo
open Idealize.SL Idealize.SL.Sem

/-- What is asked of a region's function: the specification's perceptron on each row of the feature array, each bias
    read off its one-row array. -/
abbrev GSpec (G : MlpFn Ideal) : Prop :=
  ∀ (x : S8192x512.Idx → EReal) (w0 : S512x512.Idx → EReal) (b0 : S1x512.Idx → EReal) (w1 : S256x512.Idx → EReal)
    (b1 : S1x256.Idx → EReal) (w2 : S128x256.Idx → EReal) (b2 : S1x128.Idx → EReal) (w3 : S64x128.Idx → EReal)
    (b3 : S1x64.Idx → EReal) (wo : S1x64.Idx → EReal) (bo : S1x1.Idx → EReal),
    G x w0 b0 w1 b1 w2 b2 w3 b3 wo bo
      = fun i => Cert.Spec.mlp w0 (fun j => b0 (ix2 0 (j 0))) w1 (fun j => b1 (ix2 0 (j 0))) w2 (fun j => b2 (ix2 0 (j 0)))
          w3 (fun j => b3 (ix2 0 (j 0))) wo (fun _ => bo (ix2 0 0)) (fun k => x (ix2 (i 0) k))

/-! ## A bias reshaped to one row, read back -/

/-- A vector reshaped to one row, read at column j 0 of row 0, is the vector at j. -/
theorem row_of_reshape {α : Type} {n : Nat} (a : (⟨1, ![n]⟩ : Shape).Idx → α)
    (h : (⟨1, ![n]⟩ : Shape).ShapeCasts ⟨2, ![1, n]⟩) (j : (⟨1, ![n]⟩ : Shape).Idx) :
    shapeCast ⟨2, ![1, n]⟩ a h (ix2 (0 : Fin 1) (j 0)) = a j :=
  shapeCast_apply a h _ j (by
    rw [Shape.rowMajor_val_one, Shape.rowMajor_val_two]
    show (j 0).val = 0 * n + (j 0).val
    omega)

/-! ## A region's result -/

/-- THE ONE USE of what is asked of a region's function: on the cast weights and the reshaped biases it is the
    specification's perceptron on the weights and biases themselves. -/
theorem G_reshaped (G : MlpFn Ideal) (hG : GSpec G) (x : FVec Ideal S8192x512 .f32)
    (w0 : FVec Ideal S512x512 .f32) (c0 : FVec Ideal S512 .f32) (w1 : FVec Ideal S256x512 .f32) (c1 : FVec Ideal S256 .f32)
    (w2 : FVec Ideal S128x256 .f32) (c2 : FVec Ideal S128 .f32) (w3 : FVec Ideal S64x128 .f32) (c3 : FVec Ideal S64 .f32)
    (wo : FVec Ideal S1x64 .f32) (co : FVec Ideal S1 .f32) (i : S8192.Idx) :
    G x (truncf .bf16 w0 bitsLt_bf16_f32) (shapeCast S1x512 c0 shapeCasts_S512_S1x512)
        (truncf .bf16 w1 bitsLt_bf16_f32) (shapeCast S1x256 c1 shapeCasts_S256_S1x256)
        (truncf .bf16 w2 bitsLt_bf16_f32) (shapeCast S1x128 c2 shapeCasts_S128_S1x128)
        (truncf .bf16 w3 bitsLt_bf16_f32) (shapeCast S1x64 c3 shapeCasts_S64_S1x64)
        wo (shapeCast S1x1 co shapeCasts_S1_S1x1) i
      = Cert.Spec.mlp w0 c0 w1 c1 w2 c2 w3 c3 wo co (fun k => x (ix2 (i 0) k)) := by
  rw [hG]
  have e0 : (fun j : S512.Idx => shapeCast S1x512 c0 shapeCasts_S512_S1x512 (ix2 (0 : Fin 1) (j 0))) = c0 :=
    funext fun j => row_of_reshape c0 _ j
  have e1 : (fun j : S256.Idx => shapeCast S1x256 c1 shapeCasts_S256_S1x256 (ix2 (0 : Fin 1) (j 0))) = c1 :=
    funext fun j => row_of_reshape c1 _ j
  have e2 : (fun j : S128.Idx => shapeCast S1x128 c2 shapeCasts_S128_S1x128 (ix2 (0 : Fin 1) (j 0))) = c2 :=
    funext fun j => row_of_reshape c2 _ j
  have e3 : (fun j : S64.Idx => shapeCast S1x64 c3 shapeCasts_S64_S1x64 (ix2 (0 : Fin 1) (j 0))) = c3 :=
    funext fun j => row_of_reshape c3 _ j
  have eo : (fun _ : S1.Idx => shapeCast S1x1 co shapeCasts_S1_S1x1 (ix2 (0 : Fin 1) (0 : Fin 1))) = co :=
    funext fun j => by
      have hj : j = ix1 (0 : Fin 1) := by
        funext a
        match a with
        | ⟨0, h0⟩ =>
          refine Fin.ext ?_
          have h1 : (j ⟨0, h0⟩).val < 1 := (j ⟨0, h0⟩).isLt
          show (j ⟨0, h0⟩).val = 0
          omega
      rw [hj]
      exact row_of_reshape co _ (ix1 (0 : Fin 1))
  show Cert.Spec.mlp w0 (fun j : S512.Idx => shapeCast S1x512 c0 shapeCasts_S512_S1x512 (ix2 (0 : Fin 1) (j 0)))
      w1 (fun j : S256.Idx => shapeCast S1x256 c1 shapeCasts_S256_S1x256 (ix2 (0 : Fin 1) (j 0)))
      w2 (fun j : S128.Idx => shapeCast S1x128 c2 shapeCasts_S128_S1x128 (ix2 (0 : Fin 1) (j 0)))
      w3 (fun j : S64.Idx => shapeCast S1x64 c3 shapeCasts_S64_S1x64 (ix2 (0 : Fin 1) (j 0)))
      wo (fun _ : S1.Idx => shapeCast S1x1 co shapeCasts_S1_S1x1 (ix2 (0 : Fin 1) (0 : Fin 1))) (fun k => x (ix2 (i 0) k)) = _
  rw [e0, e1, e2, e3, eo]

variable (m : (ℓ : Loc nD τ sig) → Buf (Elt Ideal) ℓ) (G : MlpFn Ideal)

/-- Region 0's result at example i of the first half: the perceptron on gathered row i. -/
theorem res0_apply (hG : GSpec G) (d : Dev nD) (i : S8192.Idx) :
    res0 m G d i = Cert.Spec.mlp (m ((TT d).loc main_arg8)) (m ((TT d).loc main_arg9)) (m ((TT d).loc main_arg10)) (m ((TT d).loc main_arg11)) (m ((TT d).loc main_arg12)) (m ((TT d).loc main_arg13)) (m ((TT d).loc main_arg14)) (m ((TT d).loc main_arg15)) (m ((TT d).loc main_arg16)) (m ((TT d).loc main_arg17))
      (fun k => featOf m d 0 (ix2 (i 0) k)) := by
  unfold res0
  rw [VB_v4, VB_v5, VB_v6, VB_v7, VB_v8, VB_v9, VB_v10, VB_v11, VB_v12, VB_v13, VB_arg16]
  exact G_reshaped G hG _ _ _ _ _ _ _ _ _ _ _ i

/-- Region 1's result at example i of the second half. -/
theorem res1_apply (hG : GSpec G) (d : Dev nD) (i : S8192.Idx) :
    res1 m G d i = Cert.Spec.mlp (m ((TT d).loc main_arg8)) (m ((TT d).loc main_arg9)) (m ((TT d).loc main_arg10)) (m ((TT d).loc main_arg11)) (m ((TT d).loc main_arg12)) (m ((TT d).loc main_arg13)) (m ((TT d).loc main_arg14)) (m ((TT d).loc main_arg15)) (m ((TT d).loc main_arg16)) (m ((TT d).loc main_arg17))
      (fun k => featOf m d 1 (ix2 (i 0) k)) := by
  unfold res1
  rw [VD_v19, VD_v20, VD_v21, VD_v22, VD_v23, VD_v24, VD_v25, VD_v26, VD_v27, VD_v28, VD_arg16]
  exact G_reshaped G hG _ _ _ _ _ _ _ _ _ _ _ i

end Cert.KernelIdeal.Sc

end
-- ==== Proof.KValOut.lean ====
/-
  The kernel program's result array is the specification, over the extended reals.

  Entry k of gathered row r of half q is column k mod 128 of the row of table k / 128 that word 8192 q + r of index
  array k / 128 names (the clamp to the last row changes nothing for a word at most 99999): the specification's feature
  entry k of example 8192 q + r. The result array joins the two halves' results: example R is example R of the first
  half when R < 8192 and example R - 8192 of the second otherwise; either way it is the perceptron on the feature row of
  example R.
-/
import proofs.«212020_g4707284156877_cont_8to1c4_553_54_alg».proof.Proof.KValIdeal

noncomputable section

namespace Cert.KernelIdeal.Sc

open Cert.KernelIdeal Cert.KernelIdeal.Gen

open Idealize.ShloMosaic Idealize.ShloMosaic.ValueIdx
open Idealize.ShloMosaic.StableHlo
open Idealize.SL Idealize.SL.Sem

/-- A call's feature array at row r and entry k: the specification's feature entry k of example 8192 q + r. -/
theorem gout_half_apply (I : Fin 4 → S16384.Idx → BitVec 32) (E : Fin 4 → S100001x128.Idx → EReal)
    (hI : ∀ k j, (I k j).toNat ≤ 99999) (q : Fin 2) (r : Fin 8192) (k : Fin 512)
    (hR : 8192 * q.val + r.val < 16384) :
    gout (F := Ideal) (fun kk => half q (I kk)) E (ix2 r k)
      = Cert.Spec.feat (I 0) (I 1) (I 2) (I 3) (E 0) (E 1) (E 2) (E 3) ⟨8192 * q.val + r.val, hR⟩ k := by
  have hk := k.isLt
  have hlt : k.val / 128 < 4 := by omega
  have key : ∀ n : Fin 4, n.val = k.val / 128 →
      gout (F := Ideal) (fun kk => half q (I kk)) E (ix2 r k)
        = E n (ix2 ⟨(I n (ix1 ⟨8192 * q.val + r.val, hR⟩)).toNat, by
            have := hI n (ix1 ⟨8192 * q.val + r.val, hR⟩); omega⟩ ⟨k.val % 128, Nat.mod_lt _ (by decide)⟩) := by
    intro n hn
    obtain rfl : n = ⟨k.val / 128, hlt⟩ := Fin.ext hn
    unfold gout gat half
    refine congrArg (E _) (funext fun a => Fin.ext ?_)
    match a with
    | ⟨0, _⟩ =>
      show min (I ⟨k.val / 128, _⟩ (ix1 ⟨8192 * q.val + r.val, _⟩)).toNat 100000 = _
      exact Nat.min_eq_left (Nat.le_trans (hI _ _) (by decide))
    | ⟨1, _⟩ => rfl
  have hcases : k.val / 128 = 0 ∨ k.val / 128 = 1 ∨ k.val / 128 = 2 ∨ k.val / 128 = 3 := by omega
  rcases hcases with hq | hq | hq | hq
  · have hn : ((⟨0, by decide⟩ : Fin 4) : ℕ) = k.val / 128 := hq.symm
    rw [key ⟨0, by decide⟩ hn]
    unfold Cert.Spec.feat
    simp only [hq]
    show _ = Cert.Spec.pick (I 0) (E 0) _ _
    unfold Cert.Spec.pick
    rw [dif_pos (by have := hI 0 (ix1 ⟨8192 * q.val + r.val, hR⟩); omega)]
    rfl
  · have hn : ((⟨1, by decide⟩ : Fin 4) : ℕ) = k.val / 128 := hq.symm
    rw [key ⟨1, by decide⟩ hn]
    unfold Cert.Spec.feat
    simp only [hq]
    show _ = Cert.Spec.pick (I 1) (E 1) _ _
    unfold Cert.Spec.pick
    rw [dif_pos (by have := hI 1 (ix1 ⟨8192 * q.val + r.val, hR⟩); omega)]
    rfl
  · have hn : ((⟨2, by decide⟩ : Fin 4) : ℕ) = k.val / 128 := hq.symm
    rw [key ⟨2, by decide⟩ hn]
    unfold Cert.Spec.feat
    simp only [hq]
    show _ = Cert.Spec.pick (I 2) (E 2) _ _
    unfold Cert.Spec.pick
    rw [dif_pos (by have := hI 2 (ix1 ⟨8192 * q.val + r.val, hR⟩); omega)]
    rfl
  · have hn : ((⟨3, by decide⟩ : Fin 4) : ℕ) = k.val / 128 := hq.symm
    rw [key ⟨3, by decide⟩ hn]
    unfold Cert.Spec.feat
    simp only [hq]
    show _ = Cert.Spec.pick (I 3) (E 3) _ _
    unfold Cert.Spec.pick
    rw [dif_pos (by have := hI 3 (ix1 ⟨8192 * q.val + r.val, hR⟩); omega)]
    rfl

variable (m : (ℓ : Loc nD τ sig) → Buf (Elt Ideal) ℓ) (G : MlpFn Ideal)

/-- Gathered row r of half q, entry k: the specification's feature entry of example 8192 q + r. -/
theorem featOf_apply (hpre : PreOK m) (d : Dev nD) (q : Fin 2) (r : Fin 8192) (k : Fin 512)
    (hR : 8192 * q.val + r.val < 16384) :
    featOf m d q (ix2 r k)
      = Cert.Spec.feat (m ((TT d).loc main_arg0)) (m ((TT d).loc main_arg1)) (m ((TT d).loc main_arg2)) (m ((TT d).loc main_arg3)) (m ((TT d).loc main_arg4)) (m ((TT d).loc main_arg5)) (m ((TT d).loc main_arg6)) (m ((TT d).loc main_arg7))
          ⟨8192 * q.val + r.val, hR⟩ k :=
  gout_half_apply (argI m d) (tabOf m d) (hpre d) q r k hR

/-- THE RESULT ARRAY after the last line: the specification of the launch contents of the eighteen argument arrays. -/
theorem VE_out (hG : GSpec G) (hpre : PreOK m) (d : Dev nD) :
    (VE m G d (rf main_v30) : S16384.Idx → EReal)
      = Cert.Spec.pred (m ((TT d).loc main_arg0)) (m ((TT d).loc main_arg1)) (m ((TT d).loc main_arg2)) (m ((TT d).loc main_arg3)) (m ((TT d).loc main_arg4)) (m ((TT d).loc main_arg5)) (m ((TT d).loc main_arg6)) (m ((TT d).loc main_arg7)) (m ((TT d).loc main_arg8)) (m ((TT d).loc main_arg9)) (m ((TT d).loc main_arg10)) (m ((TT d).loc main_arg11)) (m ((TT d).loc main_arg12)) (m ((TT d).loc main_arg13)) (m ((TT d).loc main_arg14)) (m ((TT d).loc main_arg15)) (m ((TT d).loc main_arg16)) (m ((TT d).loc main_arg17)) := by
  rw [VE_v30]
  funext i
  obtain ⟨R, rfl⟩ : ∃ R : Fin 16384, i = ix1 R := ⟨i 0, eq_ix1 i⟩
  have hRlt := R.isLt
  unfold Cert.Spec.pred
  by_cases hR : R.val < 8192
  · rw [concatenate_pair_apply_left (t := S16384) (s₁ := S8192) (s₂ := S8192) (0 : Fin 1) _ _ _ (ix1 R) rfl (ix1 (⟨R.val, hR⟩ : Fin 8192)) (fun b => by
      match b with
      | ⟨0, _⟩ => rfl)]
    rw [res0_apply m G hG d]
    refine congrArg (Cert.Spec.mlp (m ((TT d).loc main_arg8)) (m ((TT d).loc main_arg9)) (m ((TT d).loc main_arg10)) (m ((TT d).loc main_arg11)) (m ((TT d).loc main_arg12)) (m ((TT d).loc main_arg13)) (m ((TT d).loc main_arg14)) (m ((TT d).loc main_arg15)) (m ((TT d).loc main_arg16)) (m ((TT d).loc main_arg17))) (funext fun k => ?_)
    refine (featOf_apply m hpre d 0 ⟨R.val, hR⟩ k (by show 8192 * 0 + R.val < 16384; omega)).trans ?_
    refine congrArg (fun e => Cert.Spec.feat (m ((TT d).loc main_arg0)) (m ((TT d).loc main_arg1)) (m ((TT d).loc main_arg2)) (m ((TT d).loc main_arg3)) (m ((TT d).loc main_arg4)) (m ((TT d).loc main_arg5)) (m ((TT d).loc main_arg6)) (m ((TT d).loc main_arg7)) e k) (Fin.ext ?_)
    show 8192 * 0 + R.val = R.val
    omega
  · rw [concatenate_pair_apply_right (t := S16384) (s₁ := S8192) (s₂ := S8192) (0 : Fin 1) _ _ _ (ix1 R) rfl rfl (ix1 (⟨R.val - 8192, by omega⟩ : Fin 8192))
      (fun b hb => by
        match b with
        | ⟨0, _⟩ => exact absurd rfl hb)
      (by show R.val - 8192 + 8192 = R.val; omega)]
    rw [res1_apply m G hG d]
    refine congrArg (Cert.Spec.mlp (m ((TT d).loc main_arg8)) (m ((TT d).loc main_arg9)) (m ((TT d).loc main_arg10)) (m ((TT d).loc main_arg11)) (m ((TT d).loc main_arg12)) (m ((TT d).loc main_arg13)) (m ((TT d).loc main_arg14)) (m ((TT d).loc main_arg15)) (m ((TT d).loc main_arg16)) (m ((TT d).loc main_arg17))) (funext fun k => ?_)
    refine (featOf_apply m hpre d 1 ⟨R.val - 8192, by omega⟩ k (by show 8192 * 1 + (R.val - 8192) < 16384; omega)).trans ?_
    refine congrArg (fun e => Cert.Spec.feat (m ((TT d).loc main_arg0)) (m ((TT d).loc main_arg1)) (m ((TT d).loc main_arg2)) (m ((TT d).loc main_arg3)) (m ((TT d).loc main_arg4)) (m ((TT d).loc main_arg5)) (m ((TT d).loc main_arg6)) (m ((TT d).loc main_arg7)) e k) (Fin.ext ?_)
    show 8192 * 1 + (R.val - 8192) = R.val
    omega

end Cert.KernelIdeal.Sc

end
-- ==== Proof.MlpIdeal.lean ====
/-
  At the extended reals the body's arithmetic on a block of rows is the specification's perceptron, row by row.

  A change of float format is the identity and a cast to the same shape does nothing, so the body's first product reads
  the feature block itself. A product against a weight array contracted on its last axis, into the zero accumulator, is
  at row `r` and output `j` the sum `∑ₖ x r k · W j k`; adding the bias row broadcast over the rows and taking the
  maximum with the zero splat gives the layer `max (∑ₖ x r k · W j k + b j) 0` (`layerB`). Four layers, the product with
  the output row summed over the 64 lanes, and the output bias read at its one entry: entry `r` of the block's
  predictions is the specification's perceptron of row `r`, and so entry `i` of the whole array's predictions is the
  perceptron of feature row `i`.
-/
import proofs.«212020_g4707284156877_cont_8to1c4_553_54_alg».proof.Proof.MlpFn
import proofs.«212020_g4707284156877_cont_8to1c4_553_54_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Mlp

open Cert.KernelIdeal Cert.KernelIdeal.Gen
open Idealize.ShloMosaic Idealize.ShloMosaic.ValueIdx

/-! ## A product against a transposed right operand -/

/-- Into the zero accumulator, at row `a` and column `b`: the sum over the contracted coordinate of the products. -/
theorem matmulT_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    matmul (DotDims.transposedRhs M K N) prec A B (constant (F := Ideal) ⟨2, ![M, N]⟩ .f32 0x00000000#32) (ix2 a b)
      = ∑ c : Fin K, A (ix2 a c) * B (ix2 b c) := by
  show FloatOps.matmul (DotDims.transposedRhs M K N) prec A B (constant (F := Ideal) ⟨2, ![M, N]⟩ .f32 0x00000000#32) (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The body's four products contract both operands' last axes. -/
theorem dot0_eq : dot_S2048x512_S512x512_S2048x512_1_1_0_0_n_n = DotDims.transposedRhs 2048 512 512 := rfl
theorem dot1_eq : dot_S2048x512_S256x512_S2048x256_1_1_0_0_n_n = DotDims.transposedRhs 2048 512 256 := rfl
theorem dot2_eq : dot_S2048x256_S128x256_S2048x128_1_1_0_0_n_n = DotDims.transposedRhs 2048 256 128 := rfl
theorem dot3_eq : dot_S2048x128_S64x128_S2048x64_1_1_0_0_n_n = DotDims.transposedRhs 2048 128 64 := rfl

/-! ## One layer on a block of rows -/

/-- One layer on a block of `M` rows: row `r`'s is the specification's layer on row `r`. -/
def layerB {M ni no : Nat} (W : (⟨2, ![no, ni]⟩ : Shape).Idx → EReal) (b : (⟨2, ![1, no]⟩ : Shape).Idx → EReal)
    (X : (⟨2, ![M, ni]⟩ : Shape).Idx → EReal) : (⟨2, ![M, no]⟩ : Shape).Idx → EReal :=
  fun i => Cert.Spec.dense W (fun j => b (ix2 0 (j 0))) (fun k => X (ix2 (i 0) k)) (i 1)

/-- A format change of a same-shape cast is the vector itself. -/
theorem truncf_cast_self {s : Shape} {φ ψ : FTy} (v : FVec Ideal s φ) (h : s.ShapeCasts s) (hlt : ψ.bits < φ.bits) :
    (truncf ψ (shapeCast s v h) hlt : FVec Ideal s ψ) = v := by
  funext i; rw [truncf_apply, shapeCast_self]

/-- A format change is the vector itself. -/
theorem truncf_self {s : Shape} {φ ψ : FTy} (v : FVec Ideal s φ) (hlt : ψ.bits < φ.bits) :
    (truncf ψ v hlt : FVec Ideal s ψ) = v := by
  funext i; rw [truncf_apply]

/-- The body's spelling of a layer — the product with the weights into the zero accumulator, plus the bias row broadcast
    over the rows, maximum with the zero splat — is the layer. -/
theorem layer_eq {M ni no : Nat} {φ₁ φ₂ : FTy} (X : FVec Ideal ⟨2, ![M, ni]⟩ φ₁) (W : FVec Ideal ⟨2, ![no, ni]⟩ φ₂) (b : FVec Ideal ⟨2, ![1, no]⟩ .f32)
    (hW : (⟨2, ![no, ni]⟩ : Shape).ShapeCasts ⟨2, ![no, ni]⟩) (hb : (⟨2, ![1, no]⟩ : Shape).ShapeCasts ⟨2, ![1, no]⟩)
    (hbc : (⟨2, ![1, no]⟩ : Shape).Broadcasts ⟨2, ![M, no]⟩) :
    maximumf (addf (matmul (DotDims.transposedRhs M ni no) none X (shapeCast ⟨2, ![no, ni]⟩ W hW) (constant (F := Ideal) ⟨2, ![M, no]⟩ .f32 0x00000000#32))
        (broadcastTo ⟨2, ![M, no]⟩ (shapeCast ⟨2, ![1, no]⟩ b hb) hbc))
      (broadcast ⟨2, ![M, no]⟩ (Scalar.ofBits (F := Ideal) .f32 0x00000000#32))
      = layerB W b X := by
  funext i
  obtain ⟨r, j, rfl⟩ : ∃ (r : Fin M) (j : Fin no), i = ix2 r j := ⟨i 0, i 1, eq_ix2 i⟩
  rw [maximumf_apply, addf_apply, broadcast_apply, shapeCast_self, shapeCast_self, matmulT_apply, broadcastTo_1b_ab_apply]
  show max (_ + b (ix2 0 j)) (Ideal.ofBits .f32 0x00000000#32) = _
  rw [Ideal.ofBits_zero_f32]
  rfl

/-- Row `r` of a layer on a block is the specification's layer on row `r`. -/
theorem layerB_row {M ni no : Nat} (W : (⟨2, ![no, ni]⟩ : Shape).Idx → EReal) (b : (⟨2, ![1, no]⟩ : Shape).Idx → EReal)
    (X : (⟨2, ![M, ni]⟩ : Shape).Idx → EReal) (r : Fin M) :
    (fun k => layerB W b X (ix2 r k)) = Cert.Spec.dense W (fun j => b (ix2 0 (j 0))) (fun k => X (ix2 r k)) := rfl

/-! ## The lane sum and the output bias -/

/-- Over row `r`, the lane with coordinate `k`. -/
theorem lift_row {M N : Nat} (h : (⟨2, ![M, N]⟩ : Shape).Reduces [1] ⟨1, ![M]⟩) (r : Fin M) (k : Fin N) :
    h.lift (ix1 r) k = ix2 r k := by
  funext c; apply Fin.ext
  match c with
  | ⟨0, _⟩ => simp [Shape.Reduces.lift_val, Shape.Reduces.liftVal]; rfl
  | ⟨1, _⟩ => simp [Shape.Reduces.lift_val, Shape.Reduces.liftVal]; rfl

/-- The sum over the lanes of a block, at row `r`. -/
theorem laneSum_apply {M N : Nat} (src : FVec Ideal ⟨2, ![M, N]⟩ .f32) (h : (⟨2, ![M, N]⟩ : Shape).Reduces [1] ⟨1, ![M]⟩)
    (hφ : FKind.Formats .f32) (hacc : (0x00000000#32 : BitVec (FTy.bits .f32)) = FKind.add.neutral .f32 hφ) (r : Fin M) :
    multiReduction (F := Ideal) .add [1] ⟨1, ![M]⟩ src 0x00000000#32 h hφ hacc (ix1 r) = ∑ k : Fin N, src (ix2 r k) := by
  refine (Ideal.multiReduction_add_single src 0x00000000#32 h hφ hacc (ix1 r)).trans ?_
  exact Finset.sum_congr rfl fun k _ => congrArg src (lift_row h r k)

/-- The one entry of a 1 × 1 array. -/
theorem extract_00 (bo : (⟨2, ![1, 1]⟩ : Shape).Idx → EReal) (h : ∀ a, (![0, 0] : Fin 2 → Nat) a < (⟨2, ![1, 1]⟩ : Shape).size a) :
    extractAt ![0, 0] bo h = bo (ix2 0 0) := by
  unfold extractAt
  refine congrArg bo (funext fun a => Fin.ext ?_)
  match a with
  | ⟨0, _⟩ => rfl
  | ⟨1, _⟩ => rfl

/-! ## The block's predictions, and the whole array's -/

/-- Entry `r` of a block's predictions is the specification's perceptron of the block's row `r`. -/
theorem blockFn_apply (xb : S2048x512.Idx → Elt Ideal .f32) (w0 : S512x512.Idx → Elt Ideal .bf16) (b0 : S1x512.Idx → Elt Ideal .f32)
    (w1 : S256x512.Idx → Elt Ideal .bf16) (b1 : S1x256.Idx → Elt Ideal .f32) (w2 : S128x256.Idx → Elt Ideal .bf16) (b2 : S1x128.Idx → Elt Ideal .f32)
    (w3 : S64x128.Idx → Elt Ideal .bf16) (b3 : S1x64.Idx → Elt Ideal .f32) (wo : S1x64.Idx → Elt Ideal .f32) (bo : S1x1.Idx → Elt Ideal .f32) (r : Fin 2048) :
    blockFn (F := Ideal) xb w0 b0 w1 b1 w2 b2 w3 b3 wo bo (ix1 r)
      = Cert.Spec.mlp w0 (fun j => b0 (ix2 0 (j 0))) w1 (fun j => b1 (ix2 0 (j 0))) w2 (fun j => b2 (ix2 0 (j 0)))
          w3 (fun j => b3 (ix2 0 (j 0))) wo (fun _ => bo (ix2 0 0)) (fun k => xb (ix2 r k)) := by
  unfold blockFn k1_pay1 k1_pay2
  dsimp only
  rw [dot0_eq, dot1_eq, dot2_eq, dot3_eq]
  rw [truncf_cast_self, layer_eq, truncf_self, layer_eq, truncf_self, layer_eq, truncf_self, layer_eq]
  rw [addf_apply, broadcast_apply, extract_00]
  unfold Cert.Spec.mlp Cert.Spec.head Cert.Spec.hidden
  refine congrArg (· + bo (ix2 0 0)) ?_
  refine (laneSum_apply _ _ _ _ r).trans (Finset.sum_congr rfl fun k _ => ?_)
  rw [mulf_apply, broadcastTo_1b_ab_apply]
  rfl

/-- The whole array's predictions, entry by entry: the specification's perceptron of the entry's feature row. -/
theorem mlpG_eq (x : S8192x512.Idx → Elt Ideal .f32) (w0 : S512x512.Idx → Elt Ideal .bf16) (b0 : S1x512.Idx → Elt Ideal .f32)
    (w1 : S256x512.Idx → Elt Ideal .bf16) (b1 : S1x256.Idx → Elt Ideal .f32) (w2 : S128x256.Idx → Elt Ideal .bf16) (b2 : S1x128.Idx → Elt Ideal .f32)
    (w3 : S64x128.Idx → Elt Ideal .bf16) (b3 : S1x64.Idx → Elt Ideal .f32) (wo : S1x64.Idx → Elt Ideal .f32) (bo : S1x1.Idx → Elt Ideal .f32) :
    mlpG (F := Ideal) x w0 b0 w1 b1 w2 b2 w3 b3 wo bo
      = fun i => Cert.Spec.mlp w0 (fun j => b0 (ix2 0 (j 0))) w1 (fun j => b1 (ix2 0 (j 0))) w2 (fun j => b2 (ix2 0 (j 0)))
          w3 (fun j => b3 (ix2 0 (j 0))) wo (fun _ => bo (ix2 0 0)) (fun k => x (ix2 (i 0) k)) := by
  funext i
  have h : (i 0).val < 8192 := (i 0).isLt
  unfold mlpG
  dsimp only
  rw [blockFn_apply]
  refine congrArg _ (funext fun k => ?_)
  unfold rowsOf
  refine congrArg x (funext fun a => Fin.ext ?_)
  match a with
  | ⟨0, _⟩ => show 2048 * ((i 0).val / 2048) + (i 0).val % 2048 = (i 0).val; omega
  | ⟨1, _⟩ => rfl

end Cert.KernelIdeal.Mlp

end
-- ==== Proof.RefOps.lean ====
/-
  The reference program as one straight line of operations.

  The reference's entry function calls auxiliary functions (the clamp of an index array, the row lookup
  with its index wrap-around and its out-of-range mask, the four rectifiers); a call executes the callee's operations
  on the call's own buffers. Written out at each call, the entry function is a line of 163 operations; this module
  lists them in order, shows the entry function is that line, and reads off the run of a line: every weakly fair
  execution terminates with every buffer at the fold of the operations over the launch contents.
-/
import proofs.«212020_g4707284156877_cont_8to1c4_553_54_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 163 operations, in order, each call written out over that call's buffers. -/
abbrev ops : List (HloOp τ sig (Elt F)) :=
  [ nullary main_c (constantI S_ 32 0#32),
    nullary main_c_0 (constantI S_ 32 100000#32),
    TRef.unary (.of main_c) main_call0.v0 id,
    TRef.unary main_call0.v0 main_call0.v1 (broadcastInDim S16384 ![] bcast_S_S16384),
    TRef.binary main_call0.v1 (.of main_arg0) main_call0.v2 maxsi,
    TRef.unary (.of main_c_0) main_call0.v3 id,
    TRef.unary main_call0.v3 main_call0.v4 (broadcastInDim S16384 ![] bcast_S_S16384),
    TRef.binary main_call0.v4 main_call0.v2 main_call0.v5 minsi,
    nullary main_c_1 (constantI S_ 32 0#32),
    nullary main_c_2 (constantI S_ 32 100000#32),
    TRef.unary (.of main_c_1) main_call1.v0 id,
    TRef.unary main_call1.v0 main_call1.v1 (broadcastInDim S16384 ![] bcast_S_S16384),
    TRef.binary main_call1.v1 (.of main_arg1) main_call1.v2 maxsi,
    TRef.unary (.of main_c_2) main_call1.v3 id,
    TRef.unary main_call1.v3 main_call1.v4 (broadcastInDim S16384 ![] bcast_S_S16384),
    TRef.binary main_call1.v4 main_call1.v2 main_call1.v5 minsi,
    nullary main_c_3 (constantI S_ 32 0#32),
    nullary main_c_4 (constantI S_ 32 100000#32),
    TRef.unary (.of main_c_3) main_call2.v0 id,
    TRef.unary main_call2.v0 main_call2.v1 (broadcastInDim S16384 ![] bcast_S_S16384),
    TRef.binary main_call2.v1 (.of main_arg2) main_call2.v2 maxsi,
    TRef.unary (.of main_c_4) main_call2.v3 id,
    TRef.unary main_call2.v3 main_call2.v4 (broadcastInDim S16384 ![] bcast_S_S16384),
    TRef.binary main_call2.v4 main_call2.v2 main_call2.v5 minsi,
    nullary main_c_5 (constantI S_ 32 0#32),
    nullary main_c_6 (constantI S_ 32 100000#32),
    TRef.unary (.of main_c_5) main_call3.v0 id,
    TRef.unary main_call3.v0 main_call3.v1 (broadcastInDim S16384 ![] bcast_S_S16384),
    TRef.binary main_call3.v1 (.of main_arg3) main_call3.v2 maxsi,
    TRef.unary (.of main_c_6) main_call3.v3 id,
    TRef.unary main_call3.v3 main_call3.v4 (broadcastInDim S16384 ![] bcast_S_S16384),
    TRef.binary main_call3.v4 main_call3.v2 main_call3.v5 minsi,
    TRef.nullary main_call4.c (constantI S_ 32 0#32),
    TRef.unary main_call4.c main_call4.v0 (broadcastInDim S16384 ![] bcast_S_S16384),
    TRef.binary (.of main_v0) main_call4.v0 main_call4.v1 (cmpi .slt),
    TRef.nullary main_call4.c_0 (constantI S_ 32 100001#32),
    TRef.unary main_call4.c_0 main_call4.v2 (broadcastInDim S16384 ![] bcast_S_S16384),
    TRef.binary (.of main_v0) main_call4.v2 main_call4.v3 addi,
    TRef.ternary main_call4.v1 main_call4.v3 (.of main_v0) main_call4.call0.v0 select,
    TRef.unary main_call4.call0.v0 main_call4.v5 (broadcastInDim S16384x1 ![0] bcast_S16384_S16384x1_0),
    TRef.nullary main_call4.c_1 (constantI S1 32 100000#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg4) main_call4.v5 main_call4.v13 (fun x i => Host.gather gather_S100001x128_S16384x1_S16384x128_1_0_n_n_0_1_1128 x i),
    TRef.unary main_call4.v12 main_call4.v14 (broadcastInDim S16384x128 ![0] bcast_S16384_S16384x128_0),
    TRef.nullary main_call4.cst (constant S_ .f32 0x7FC00000#32),
    TRef.unary main_call4.cst main_call4.v15 (broadcastInDim S16384x128 ![] bcast_S_S16384x128),
    TRef.ternary main_call4.v14 main_call4.v13 main_call4.v15 main_call4.v16 select,
    TRef.nullary main_call5.c (constantI S_ 32 0#32),
    TRef.unary main_call5.c main_call5.v0 (broadcastInDim S16384 ![] bcast_S_S16384),
    TRef.binary (.of main_v1) main_call5.v0 main_call5.v1 (cmpi .slt),
    TRef.nullary main_call5.c_0 (constantI S_ 32 100001#32),
    TRef.unary main_call5.c_0 main_call5.v2 (broadcastInDim S16384 ![] bcast_S_S16384),
    TRef.binary (.of main_v1) main_call5.v2 main_call5.v3 addi,
    TRef.ternary main_call5.v1 main_call5.v3 (.of main_v1) main_call5.call0.v0 select,
    TRef.unary main_call5.call0.v0 main_call5.v5 (broadcastInDim S16384x1 ![0] bcast_S16384_S16384x1_0),
    TRef.nullary main_call5.c_1 (constantI S1 32 100000#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg5) main_call5.v5 main_call5.v13 (fun x i => Host.gather gather_S100001x128_S16384x1_S16384x128_1_0_n_n_0_1_1128 x i),
    TRef.unary main_call5.v12 main_call5.v14 (broadcastInDim S16384x128 ![0] bcast_S16384_S16384x128_0),
    TRef.nullary main_call5.cst (constant S_ .f32 0x7FC00000#32),
    TRef.unary main_call5.cst main_call5.v15 (broadcastInDim S16384x128 ![] bcast_S_S16384x128),
    TRef.ternary main_call5.v14 main_call5.v13 main_call5.v15 main_call5.v16 select,
    TRef.nullary main_call6.c (constantI S_ 32 0#32),
    TRef.unary main_call6.c main_call6.v0 (broadcastInDim S16384 ![] bcast_S_S16384),
    TRef.binary (.of main_v2) main_call6.v0 main_call6.v1 (cmpi .slt),
    TRef.nullary main_call6.c_0 (constantI S_ 32 100001#32),
    TRef.unary main_call6.c_0 main_call6.v2 (broadcastInDim S16384 ![] bcast_S_S16384),
    TRef.binary (.of main_v2) main_call6.v2 main_call6.v3 addi,
    TRef.ternary main_call6.v1 main_call6.v3 (.of main_v2) main_call6.call0.v0 select,
    TRef.unary main_call6.call0.v0 main_call6.v5 (broadcastInDim S16384x1 ![0] bcast_S16384_S16384x1_0),
    TRef.nullary main_call6.c_1 (constantI S1 32 100000#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg6) main_call6.v5 main_call6.v13 (fun x i => Host.gather gather_S100001x128_S16384x1_S16384x128_1_0_n_n_0_1_1128 x i),
    TRef.unary main_call6.v12 main_call6.v14 (broadcastInDim S16384x128 ![0] bcast_S16384_S16384x128_0),
    TRef.nullary main_call6.cst (constant S_ .f32 0x7FC00000#32),
    TRef.unary main_call6.cst main_call6.v15 (broadcastInDim S16384x128 ![] bcast_S_S16384x128),
    TRef.ternary main_call6.v14 main_call6.v13 main_call6.v15 main_call6.v16 select,
    TRef.nullary main_call7.c (constantI S_ 32 0#32),
    TRef.unary main_call7.c main_call7.v0 (broadcastInDim S16384 ![] bcast_S_S16384),
    TRef.binary (.of main_v3) main_call7.v0 main_call7.v1 (cmpi .slt),
    TRef.nullary main_call7.c_0 (constantI S_ 32 100001#32),
    TRef.unary main_call7.c_0 main_call7.v2 (broadcastInDim S16384 ![] bcast_S_S16384),
    TRef.binary (.of main_v3) main_call7.v2 main_call7.v3 addi,
    TRef.ternary main_call7.v1 main_call7.v3 (.of main_v3) main_call7.call0.v0 select,
    TRef.unary main_call7.call0.v0 main_call7.v5 (broadcastInDim S16384x1 ![0] bcast_S16384_S16384x1_0),
    TRef.nullary main_call7.c_1 (constantI S1 32 100000#32),
    TRef.nullary main_call7.c_2 (constantI S_ 32 0#32),
    TRef.unary main_call7.c_2 main_call7.v6 (broadcastInDim S16384x1 ![] bcast_S_S16384x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S16384x1 ![0, 1] bcast_S1x1_S16384x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S16384x1_S16384_d1 h_S_),
    TRef.binary (.of main_arg7) main_call7.v5 main_call7.v13 (fun x i => Host.gather gather_S100001x128_S16384x1_S16384x128_1_0_n_n_0_1_1128 x i),
    TRef.unary main_call7.v12 main_call7.v14 (broadcastInDim S16384x128 ![0] bcast_S16384_S16384x128_0),
    TRef.nullary main_call7.cst (constant S_ .f32 0x7FC00000#32),
    TRef.unary main_call7.cst main_call7.v15 (broadcastInDim S16384x128 ![] bcast_S_S16384x128),
    TRef.ternary main_call7.v14 main_call7.v13 main_call7.v15 main_call7.v16 select,
    nary ![main_v4, main_v5, main_v6, main_v7] main_v8 (fun u => concatenate S16384x512 1 [⟨S16384x128, u 0⟩, ⟨S16384x128, u 1⟩, ⟨S16384x128, u 2⟩, ⟨S16384x128, u 3⟩] concatenates_S16384x128_S16384x128_S16384x128_S16384x128_S16384x512_d1),
    unary main_arg8 main_v9 ((transpose S512x512 [1, 0] · transposes_S512x512_S512x512_1_0) : (⟨S512x512, .f32⟩ : BufTy).Contents (Elt F) → (⟨S512x512, .f32⟩ : BufTy).Contents (Elt F)),
    binary main_v8 main_v9 main_v10 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    unary main_arg9 main_v11 (broadcastInDim S1x512 ![1] bcast_S512_S1x512_1 : (⟨S512, .f32⟩ : BufTy).Contents (Elt F) → (⟨S1x512, .f32⟩ : BufTy).Contents (Elt F)),
    unary main_v11 main_v12 (broadcastInDim S16384x512 ![0, 1] bcast_S1x512_S16384x512_0_1 : (⟨S1x512, .f32⟩ : BufTy).Contents (Elt F) → (⟨S16384x512, .f32⟩ : BufTy).Contents (Elt F)),
    binary main_v10 main_v12 main_v13 (addf : (⟨S16384x512, .f32⟩ : BufTy).Contents (Elt F) → (⟨S16384x512, .f32⟩ : BufTy).Contents (Elt F) → (⟨S16384x512, .f32⟩ : BufTy).Contents (Elt F)),
    TRef.nullary main_call8.cst (constant S_ .f32 0x00000000#32),
    TRef.unary main_call8.cst main_call8.v0 (broadcastInDim S16384x512 ![] bcast_S_S16384x512),
    TRef.binary (.of main_v13) main_call8.v0 main_call8.v1 maximumf,
    unary main_arg10 main_v15 ((transpose S512x256 [1, 0] · transposes_S256x512_S512x256_1_0) : (⟨S256x512, .f32⟩ : BufTy).Contents (Elt F) → (⟨S512x256, .f32⟩ : BufTy).Contents (Elt F)),
    binary main_v14 main_v15 main_v16 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg11 main_v17 (broadcastInDim S1x256 ![1] bcast_S256_S1x256_1 : (⟨S256, .f32⟩ : BufTy).Contents (Elt F) → (⟨S1x256, .f32⟩ : BufTy).Contents (Elt F)),
    unary main_v17 main_v18 (broadcastInDim S16384x256 ![0, 1] bcast_S1x256_S16384x256_0_1 : (⟨S1x256, .f32⟩ : BufTy).Contents (Elt F) → (⟨S16384x256, .f32⟩ : BufTy).Contents (Elt F)),
    binary main_v16 main_v18 main_v19 (addf : (⟨S16384x256, .f32⟩ : BufTy).Contents (Elt F) → (⟨S16384x256, .f32⟩ : BufTy).Contents (Elt F) → (⟨S16384x256, .f32⟩ : BufTy).Contents (Elt F)),
    TRef.nullary main_call9.cst (constant S_ .f32 0x00000000#32),
    TRef.unary main_call9.cst main_call9.v0 (broadcastInDim S16384x256 ![] bcast_S_S16384x256),
    TRef.binary (.of main_v19) main_call9.v0 main_call9.v1 maximumf,
    unary main_arg12 main_v21 ((transpose S256x128 [1, 0] · transposes_S128x256_S256x128_1_0) : (⟨S128x256, .f32⟩ : BufTy).Contents (Elt F) → (⟨S256x128, .f32⟩ : BufTy).Contents (Elt F)),
    binary main_v20 main_v21 main_v22 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg13 main_v23 (broadcastInDim S1x128 ![1] bcast_S128_S1x128_1 : (⟨S128, .f32⟩ : BufTy).Contents (Elt F) → (⟨S1x128, .f32⟩ : BufTy).Contents (Elt F)),
    unary main_v23 main_v24 (broadcastInDim S16384x128 ![0, 1] bcast_S1x128_S16384x128_0_1 : (⟨S1x128, .f32⟩ : BufTy).Contents (Elt F) → (⟨S16384x128, .f32⟩ : BufTy).Contents (Elt F)),
    binary main_v22 main_v24 main_v25 (addf : (⟨S16384x128, .f32⟩ : BufTy).Contents (Elt F) → (⟨S16384x128, .f32⟩ : BufTy).Contents (Elt F) → (⟨S16384x128, .f32⟩ : BufTy).Contents (Elt F)),
    TRef.nullary main_call10.cst (constant S_ .f32 0x00000000#32),
    TRef.unary main_call10.cst main_call10.v0 (broadcastInDim S16384x128 ![] bcast_S_S16384x128),
    TRef.binary (.of main_v25) main_call10.v0 main_call10.v1 maximumf,
    unary main_arg14 main_v27 ((transpose S128x64 [1, 0] · transposes_S64x128_S128x64_1_0) : (⟨S64x128, .f32⟩ : BufTy).Contents (Elt F) → (⟨S128x64, .f32⟩ : BufTy).Contents (Elt F)),
    binary main_v26 main_v27 main_v28 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg15 main_v29 (broadcastInDim S1x64 ![1] bcast_S64_S1x64_1 : (⟨S64, .f32⟩ : BufTy).Contents (Elt F) → (⟨S1x64, .f32⟩ : BufTy).Contents (Elt F)),
    unary main_v29 main_v30 (broadcastInDim S16384x64 ![0, 1] bcast_S1x64_S16384x64_0_1 : (⟨S1x64, .f32⟩ : BufTy).Contents (Elt F) → (⟨S16384x64, .f32⟩ : BufTy).Contents (Elt F)),
    binary main_v28 main_v30 main_v31 (addf : (⟨S16384x64, .f32⟩ : BufTy).Contents (Elt F) → (⟨S16384x64, .f32⟩ : BufTy).Contents (Elt F) → (⟨S16384x64, .f32⟩ : BufTy).Contents (Elt F)),
    TRef.nullary main_call11.cst (constant S_ .f32 0x00000000#32),
    TRef.unary main_call11.cst main_call11.v0 (broadcastInDim S16384x64 ![] bcast_S_S16384x64),
    TRef.binary (.of main_v31) main_call11.v0 main_call11.v1 maximumf,
    unary main_arg16 main_v33 ((transpose S64x1 [1, 0] · transposes_S1x64_S64x1_1_0) : (⟨S1x64, .f32⟩ : BufTy).Contents (Elt F) → (⟨S64x1, .f32⟩ : BufTy).Contents (Elt F)),
    binary main_v32 main_v33 main_v34 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg17 main_v35 (broadcastInDim S1x1 ![1] bcast_S1_S1x1_1 : (⟨S1, .f32⟩ : BufTy).Contents (Elt F) → (⟨S1x1, .f32⟩ : BufTy).Contents (Elt F)),
    unary main_v35 main_v36 (broadcastInDim S16384x1 ![0, 1] bcast_S1x1_S16384x1_0_1 : (⟨S1x1, .f32⟩ : BufTy).Contents (Elt F) → (⟨S16384x1, .f32⟩ : BufTy).Contents (Elt F)),
    binary main_v34 main_v36 main_v37 (addf : (⟨S16384x1, .f32⟩ : BufTy).Contents (Elt F) → (⟨S16384x1, .f32⟩ : BufTy).Contents (Elt F) → (⟨S16384x1, .f32⟩ : BufTy).Contents (Elt F)),
    reshape main_v37 main_v38 rfl shapeCasts_S16384x1_S16384 ]

set_option maxRecDepth 8192 in
/-- The entry function is that line: the callees' definitions unfolded at their calls, sequencing reassociated. -/
theorem main_eq (c : Dev nD) : main (F := F) c = seq ops := by
  simp only [main, fn_clip.body, fn_where.body, fn_take.body, fn_relu.body, fn_relu_0.body, fn_relu_1.body, fn_relu_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    reshape_bufs_sub ..⟩

/-- From any memory with zero counters every weakly fair execution of the entry function terminates, and every
    TensorCore buffer ends at the fold of the 163 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefDefs.lean ====
/-
  The reference's result as one function of its eighteen arguments.

  The function is written in stages that follow the program: the clamp of an index array into [0, 100000]; the row
  lookup (a negative index wrapped by the row count, a mask of the indices that name a row, the gathered rows, and a
  not-a-number fill where the mask is 0); the four looked-up arrays side by side; four layers, each the rows against
  the transposed weights plus the bias and then the larger of that and 0; and the output row with its bias, read as
  a vector.
-/
import proofs.«212020_g4707284156877_cont_8to1c4_553_54_alg».proof.Proof.Gen.ReferenceIdeal

noncomputable section

namespace Cert.RefRun

open Cert.ReferenceIdeal Cert.ReferenceIdeal.Gen Idealize.ShloMosaic

variable {F : FTy → Type} [FloatOps F]

/-- The clamp of an index array into [0, 100000]. -/
def clipv (i : IVec S16384 32) : IVec S16384 32 :=
  minsi (broadcastInDim S16384 ![] bcast_S_S16384 (constantI S_ 32 100000#32))
    (maxsi (broadcastInDim S16384 ![] bcast_S_S16384 (constantI S_ 32 0#32)) i)

/-- The lookup's start indices, as one column: a negative word has the row count added. -/
def wrapv (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 100001#32))) i)

/-- The lookup's mask: 1 where the start index is between 0 and 100000. -/
def okv (j : IVec S16384x1 32) : IVec S16384 1 :=
  Host.reduce IntOp.andi
    (andi (cmpi .sge j (broadcastInDim S16384x1 ![] bcast_S_S16384x1 (constantI S_ 32 0#32)))
      (cmpi .sle j (broadcastInDim S16384x1 ![0, 1] bcast_S1x1_S16384x1_0_1
        (broadcastInDim S1x1 ![1] bcast_S1_S1x1_1 (constantI S1 32 100000#32)))))
    (constantI S_ 1 1#1) reducesTo_S16384x1_S16384_d1 h_S_

/-- The row lookup: the gathered rows where the mask is 1, the not-a-number fill elsewhere. -/
def takev (e : FVec F S100001x128 .f32) (i : IVec S16384 32) : FVec F S16384x128 .f32 :=
  select (broadcastInDim S16384x128 ![0] bcast_S16384_S16384x128_0 (okv (wrapv i)))
    (Host.gather gather_S100001x128_S16384x1_S16384x128_1_0_n_n_0_1_1128 e (wrapv i))
    (broadcastInDim S16384x128 ![] bcast_S_S16384x128 (constant S_ .f32 0x7FC00000#32))

/-- The four looked-up arrays side by side. -/
def featv (i0 i1 i2 i3 : IVec S16384 32) (e0 e1 e2 e3 : FVec F S100001x128 .f32) : FVec F S16384x512 .f32 :=
  concatenate S16384x512 1
    [⟨S16384x128, takev e0 (clipv i0)⟩, ⟨S16384x128, takev e1 (clipv i1)⟩, ⟨S16384x128, takev e2 (clipv i2)⟩,
      ⟨S16384x128, takev e3 (clipv i3)⟩]
    concatenates_S16384x128_S16384x128_S16384x128_S16384x128_S16384x512_d1

/-- Layer 0: the rows against the transposed weights, plus the bias on every row, then the larger of that and 0. -/
def layer0 (x : FVec F S16384x512 .f32) (W : FVec F S512x512 .f32) (b : FVec F S512 .f32) : FVec F S16384x512 .f32 :=
  maximumf
    (addf (Host.dotGeneral dot_S16384x512_S512x512_S16384x512_1_0_0_1_n_n none x (transpose S512x512 [1, 0] W transposes_S512x512_S512x512_1_0))
      (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- Layer 1: the rows against the transposed weights, plus the bias on every row, then the larger of that and 0. -/
def layer1 (x : FVec F S16384x512 .f32) (W : FVec F S256x512 .f32) (b : FVec F S256 .f32) : FVec F S16384x256 .f32 :=
  maximumf
    (addf (Host.dotGeneral dot_S16384x512_S512x256_S16384x256_1_0_0_1_n_n none x (transpose S512x256 [1, 0] W transposes_S256x512_S512x256_1_0))
      (broadcastInDim S16384x256 ![0, 1] bcast_S1x256_S16384x256_0_1 (broadcastInDim S1x256 ![1] bcast_S256_S1x256_1 b)))
    (broadcastInDim S16384x256 ![] bcast_S_S16384x256 (constant S_ .f32 0x00000000#32))

/-- Layer 2: the rows against the transposed weights, plus the bias on every row, then the larger of that and 0. -/
def layer2 (x : FVec F S16384x256 .f32) (W : FVec F S128x256 .f32) (b : FVec F S128 .f32) : FVec F S16384x128 .f32 :=
  maximumf
    (addf (Host.dotGeneral dot_S16384x256_S256x128_S16384x128_1_0_0_1_n_n none x (transpose S256x128 [1, 0] W transposes_S128x256_S256x128_1_0))
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- Layer 3: the rows against the transposed weights, plus the bias on every row, then the larger of that and 0. -/
def layer3 (x : FVec F S16384x128 .f32) (W : FVec F S64x128 .f32) (b : FVec F S64 .f32) : FVec F S16384x64 .f32 :=
  maximumf
    (addf (Host.dotGeneral dot_S16384x128_S128x64_S16384x64_1_0_0_1_n_n none x (transpose S128x64 [1, 0] W transposes_S64x128_S128x64_1_0))
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

/-- The output: the rows against the transposed output row, plus the output bias, read as a vector. -/
def headv (x : FVec F S16384x64 .f32) (Wo : FVec F S1x64 .f32) (bo : FVec F S1 .f32) : FVec F S16384 .f32 :=
  shapeCast S16384
    (addf (Host.dotGeneral dot_S16384x64_S64x1_S16384x1_1_0_0_1_n_n none x (transpose S64x1 [1, 0] Wo transposes_S1x64_S64x1_1_0))
      (broadcastInDim S16384x1 ![0, 1] bcast_S1x1_S16384x1_0_1 (broadcastInDim S1x1 ![1] bcast_S1_S1x1_1 bo)))
    shapeCasts_S16384x1_S16384

/-- The layers and the output on a feature array. -/
def mlpv (x : FVec F S16384x512 .f32) (W0 : FVec F S512x512 .f32) (b0 : FVec F S512 .f32) (W1 : FVec F S256x512 .f32) (b1 : FVec F S256 .f32) (W2 : FVec F S128x256 .f32) (b2 : FVec F S128 .f32) (W3 : FVec F S64x128 .f32) (b3 : FVec F S64 .f32) (Wo : FVec F S1x64 .f32) (bo : FVec F S1 .f32) : FVec F S16384 .f32 :=
  headv (layer3 (layer2 (layer1 (layer0 x W0 b0) W1 b1) W2 b2) W3 b3) Wo bo

/-- The reference's result as a function of its eighteen arguments. -/
def refVal (i0 : IVec S16384 32) (i1 : IVec S16384 32) (i2 : IVec S16384 32) (i3 : IVec S16384 32) (e0 : FVec F S100001x128 .f32) (e1 : FVec F S100001x128 .f32) (e2 : FVec F S100001x128 .f32) (e3 : FVec F S100001x128 .f32) (W0 : FVec F S512x512 .f32) (b0 : FVec F S512 .f32) (W1 : FVec F S256x512 .f32) (b1 : FVec F S256 .f32) (W2 : FVec F S128x256 .f32) (b2 : FVec F S128 .f32) (W3 : FVec F S64x128 .f32) (b3 : FVec F S64 .f32) (Wo : FVec F S1x64 .f32) (bo : FVec F S1 .f32) : FVec F S16384 .f32 :=
  mlpv (featv i0 i1 i2 i3 e0 e1 e2 e3) W0 b0 W1 b1 W2 b2 W3 b3 Wo bo

end Cert.RefRun

end
-- ==== Proof.RefTerm.lean ====
/-
  What the reference's line of operations leaves in its result buffer.

  The line is cut in two: the first 124 operations clamp the four index arrays and look the four tables up; the last
  39 put the four looked-up arrays side by side and run the layers and the output. After the first part each
  looked-up array is the lookup stage of its table and clamped index array, and the weights and biases are as
  launched; after the second part the result buffer is the layers and the output on the four arrays side by side.
  Together: the fold of the 163 operations at the result buffer is the reference's function of the launch contents
  of the eighteen argument buffers.
-/
import proofs.«212020_g4707284156877_cont_8to1c4_553_54_alg».proof.Proof.RefOps
import proofs.«212020_g4707284156877_cont_8to1c4_553_54_alg».proof.Proof.RefDefs

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The first 124 operations: the four clamps and the four lookups. -/
abbrev opsA : List (HloOp τ sig (Elt F)) :=
  [ nullary main_c (constantI S_ 32 0#32),
    nullary main_c_0 (constantI S_ 32 100000#32),
    TRef.unary (.of main_c) main_call0.v0 id,
    TRef.unary main_call0.v0 main_call0.v1 (broadcastInDim S16384 ![] bcast_S_S16384),
    TRef.binary main_call0.v1 (.of main_arg0) main_call0.v2 maxsi,
    TRef.unary (.of main_c_0) main_call0.v3 id,
    TRef.unary main_call0.v3 main_call0.v4 (broadcastInDim S16384 ![] bcast_S_S16384),
    TRef.binary main_call0.v4 main_call0.v2 main_call0.v5 minsi,
    nullary main_c_1 (constantI S_ 32 0#32),
    nullary main_c_2 (constantI S_ 32 100000#32),
    TRef.unary (.of main_c_1) main_call1.v0 id,
    TRef.unary main_call1.v0 main_call1.v1 (broadcastInDim S16384 ![] bcast_S_S16384),
    TRef.binary main_call1.v1 (.of main_arg1) main_call1.v2 maxsi,
    TRef.unary (.of main_c_2) main_call1.v3 id,
    TRef.unary main_call1.v3 main_call1.v4 (broadcastInDim S16384 ![] bcast_S_S16384),
    TRef.binary main_call1.v4 main_call1.v2 main_call1.v5 minsi,
    nullary main_c_3 (constantI S_ 32 0#32),
    nullary main_c_4 (constantI S_ 32 100000#32),
    TRef.unary (.of main_c_3) main_call2.v0 id,
    TRef.unary main_call2.v0 main_call2.v1 (broadcastInDim S16384 ![] bcast_S_S16384),
    TRef.binary main_call2.v1 (.of main_arg2) main_call2.v2 maxsi,
    TRef.unary (.of main_c_4) main_call2.v3 id,
    TRef.unary main_call2.v3 main_call2.v4 (broadcastInDim S16384 ![] bcast_S_S16384),
    TRef.binary main_call2.v4 main_call2.v2 main_call2.v5 minsi,
    nullary main_c_5 (constantI S_ 32 0#32),
    nullary main_c_6 (constantI S_ 32 100000#32),
    TRef.unary (.of main_c_5) main_call3.v0 id,
    TRef.unary main_call3.v0 main_call3.v1 (broadcastInDim S16384 ![] bcast_S_S16384),
    TRef.binary main_call3.v1 (.of main_arg3) main_call3.v2 maxsi,
    TRef.unary (.of main_c_6) main_call3.v3 id,
    TRef.unary main_call3.v3 main_call3.v4 (broadcastInDim S16384 ![] bcast_S_S16384),
    TRef.binary main_call3.v4 main_call3.v2 main_call3.v5 minsi,
    TRef.nullary main_call4.c (constantI S_ 32 0#32),
    TRef.unary main_call4.c main_call4.v0 (broadcastInDim S16384 ![] bcast_S_S16384),
    TRef.binary (.of main_v0) main_call4.v0 main_call4.v1 (cmpi .slt),
    TRef.nullary main_call4.c_0 (constantI S_ 32 100001#32),
    TRef.unary main_call4.c_0 main_call4.v2 (broadcastInDim S16384 ![] bcast_S_S16384),
    TRef.binary (.of main_v0) main_call4.v2 main_call4.v3 addi,
    TRef.ternary main_call4.v1 main_call4.v3 (.of main_v0) main_call4.call0.v0 select,
    TRef.unary main_call4.call0.v0 main_call4.v5 (broadcastInDim S16384x1 ![0] bcast_S16384_S16384x1_0),
    TRef.nullary main_call4.c_1 (constantI S1 32 100000#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg4) main_call4.v5 main_call4.v13 (fun x i => Host.gather gather_S100001x128_S16384x1_S16384x128_1_0_n_n_0_1_1128 x i),
    TRef.unary main_call4.v12 main_call4.v14 (broadcastInDim S16384x128 ![0] bcast_S16384_S16384x128_0),
    TRef.nullary main_call4.cst (constant S_ .f32 0x7FC00000#32),
    TRef.unary main_call4.cst main_call4.v15 (broadcastInDim S16384x128 ![] bcast_S_S16384x128),
    TRef.ternary main_call4.v14 main_call4.v13 main_call4.v15 main_call4.v16 select,
    TRef.nullary main_call5.c (constantI S_ 32 0#32),
    TRef.unary main_call5.c main_call5.v0 (broadcastInDim S16384 ![] bcast_S_S16384),
    TRef.binary (.of main_v1) main_call5.v0 main_call5.v1 (cmpi .slt),
    TRef.nullary main_call5.c_0 (constantI S_ 32 100001#32),
    TRef.unary main_call5.c_0 main_call5.v2 (broadcastInDim S16384 ![] bcast_S_S16384),
    TRef.binary (.of main_v1) main_call5.v2 main_call5.v3 addi,
    TRef.ternary main_call5.v1 main_call5.v3 (.of main_v1) main_call5.call0.v0 select,
    TRef.unary main_call5.call0.v0 main_call5.v5 (broadcastInDim S16384x1 ![0] bcast_S16384_S16384x1_0),
    TRef.nullary main_call5.c_1 (constantI S1 32 100000#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg5) main_call5.v5 main_call5.v13 (fun x i => Host.gather gather_S100001x128_S16384x1_S16384x128_1_0_n_n_0_1_1128 x i),
    TRef.unary main_call5.v12 main_call5.v14 (broadcastInDim S16384x128 ![0] bcast_S16384_S16384x128_0),
    TRef.nullary main_call5.cst (constant S_ .f32 0x7FC00000#32),
    TRef.unary main_call5.cst main_call5.v15 (broadcastInDim S16384x128 ![] bcast_S_S16384x128),
    TRef.ternary main_call5.v14 main_call5.v13 main_call5.v15 main_call5.v16 select,
    TRef.nullary main_call6.c (constantI S_ 32 0#32),
    TRef.unary main_call6.c main_call6.v0 (broadcastInDim S16384 ![] bcast_S_S16384),
    TRef.binary (.of main_v2) main_call6.v0 main_call6.v1 (cmpi .slt),
    TRef.nullary main_call6.c_0 (constantI S_ 32 100001#32),
    TRef.unary main_call6.c_0 main_call6.v2 (broadcastInDim S16384 ![] bcast_S_S16384),
    TRef.binary (.of main_v2) main_call6.v2 main_call6.v3 addi,
    TRef.ternary main_call6.v1 main_call6.v3 (.of main_v2) main_call6.call0.v0 select,
    TRef.unary main_call6.call0.v0 main_call6.v5 (broadcastInDim S16384x1 ![0] bcast_S16384_S16384x1_0),
    TRef.nullary main_call6.c_1 (constantI S1 32 100000#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg6) main_call6.v5 main_call6.v13 (fun x i => Host.gather gather_S100001x128_S16384x1_S16384x128_1_0_n_n_0_1_1128 x i),
    TRef.unary main_call6.v12 main_call6.v14 (broadcastInDim S16384x128 ![0] bcast_S16384_S16384x128_0),
    TRef.nullary main_call6.cst (constant S_ .f32 0x7FC00000#32),
    TRef.unary main_call6.cst main_call6.v15 (broadcastInDim S16384x128 ![] bcast_S_S16384x128),
    TRef.ternary main_call6.v14 main_call6.v13 main_call6.v15 main_call6.v16 select,
    TRef.nullary main_call7.c (constantI S_ 32 0#32),
    TRef.unary main_call7.c main_call7.v0 (broadcastInDim S16384 ![] bcast_S_S16384),
    TRef.binary (.of main_v3) main_call7.v0 main_call7.v1 (cmpi .slt),
    TRef.nullary main_call7.c_0 (constantI S_ 32 100001#32),
    TRef.unary main_call7.c_0 main_call7.v2 (broadcastInDim S16384 ![] bcast_S_S16384),
    TRef.binary (.of main_v3) main_call7.v2 main_call7.v3 addi,
    TRef.ternary main_call7.v1 main_call7.v3 (.of main_v3) main_call7.call0.v0 select,
    TRef.unary main_call7.call0.v0 main_call7.v5 (broadcastInDim S16384x1 ![0] bcast_S16384_S16384x1_0),
    TRef.nullary main_call7.c_1 (constantI S1 32 100000#32),
    TRef.nullary main_call7.c_2 (constantI S_ 32 0#32),
    TRef.unary main_call7.c_2 main_call7.v6 (broadcastInDim S16384x1 ![] bcast_S_S16384x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S16384x1 ![0, 1] bcast_S1x1_S16384x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S16384x1_S16384_d1 h_S_),
    TRef.binary (.of main_arg7) main_call7.v5 main_call7.v13 (fun x i => Host.gather gather_S100001x128_S16384x1_S16384x128_1_0_n_n_0_1_1128 x i),
    TRef.unary main_call7.v12 main_call7.v14 (broadcastInDim S16384x128 ![0] bcast_S16384_S16384x128_0),
    TRef.nullary main_call7.cst (constant S_ .f32 0x7FC00000#32),
    TRef.unary main_call7.cst main_call7.v15 (broadcastInDim S16384x128 ![] bcast_S_S16384x128),
    TRef.ternary main_call7.v14 main_call7.v13 main_call7.v15 main_call7.v16 select ]

/-- The last 39 operations: the four arrays side by side, the layers, the output. -/
abbrev opsB : List (HloOp τ sig (Elt F)) :=
  [ nary ![main_v4, main_v5, main_v6, main_v7] main_v8 (fun u => concatenate S16384x512 1 [⟨S16384x128, u 0⟩, ⟨S16384x128, u 1⟩, ⟨S16384x128, u 2⟩, ⟨S16384x128, u 3⟩] concatenates_S16384x128_S16384x128_S16384x128_S16384x128_S16384x512_d1),
    unary main_arg8 main_v9 ((transpose S512x512 [1, 0] · transposes_S512x512_S512x512_1_0) : (⟨S512x512, .f32⟩ : BufTy).Contents (Elt F) → (⟨S512x512, .f32⟩ : BufTy).Contents (Elt F)),
    binary main_v8 main_v9 main_v10 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    unary main_arg9 main_v11 (broadcastInDim S1x512 ![1] bcast_S512_S1x512_1 : (⟨S512, .f32⟩ : BufTy).Contents (Elt F) → (⟨S1x512, .f32⟩ : BufTy).Contents (Elt F)),
    unary main_v11 main_v12 (broadcastInDim S16384x512 ![0, 1] bcast_S1x512_S16384x512_0_1 : (⟨S1x512, .f32⟩ : BufTy).Contents (Elt F) → (⟨S16384x512, .f32⟩ : BufTy).Contents (Elt F)),
    binary main_v10 main_v12 main_v13 (addf : (⟨S16384x512, .f32⟩ : BufTy).Contents (Elt F) → (⟨S16384x512, .f32⟩ : BufTy).Contents (Elt F) → (⟨S16384x512, .f32⟩ : BufTy).Contents (Elt F)),
    TRef.nullary main_call8.cst (constant S_ .f32 0x00000000#32),
    TRef.unary main_call8.cst main_call8.v0 (broadcastInDim S16384x512 ![] bcast_S_S16384x512),
    TRef.binary (.of main_v13) main_call8.v0 main_call8.v1 maximumf,
    unary main_arg10 main_v15 ((transpose S512x256 [1, 0] · transposes_S256x512_S512x256_1_0) : (⟨S256x512, .f32⟩ : BufTy).Contents (Elt F) → (⟨S512x256, .f32⟩ : BufTy).Contents (Elt F)),
    binary main_v14 main_v15 main_v16 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg11 main_v17 (broadcastInDim S1x256 ![1] bcast_S256_S1x256_1 : (⟨S256, .f32⟩ : BufTy).Contents (Elt F) → (⟨S1x256, .f32⟩ : BufTy).Contents (Elt F)),
    unary main_v17 main_v18 (broadcastInDim S16384x256 ![0, 1] bcast_S1x256_S16384x256_0_1 : (⟨S1x256, .f32⟩ : BufTy).Contents (Elt F) → (⟨S16384x256, .f32⟩ : BufTy).Contents (Elt F)),
    binary main_v16 main_v18 main_v19 (addf : (⟨S16384x256, .f32⟩ : BufTy).Contents (Elt F) → (⟨S16384x256, .f32⟩ : BufTy).Contents (Elt F) → (⟨S16384x256, .f32⟩ : BufTy).Contents (Elt F)),
    TRef.nullary main_call9.cst (constant S_ .f32 0x00000000#32),
    TRef.unary main_call9.cst main_call9.v0 (broadcastInDim S16384x256 ![] bcast_S_S16384x256),
    TRef.binary (.of main_v19) main_call9.v0 main_call9.v1 maximumf,
    unary main_arg12 main_v21 ((transpose S256x128 [1, 0] · transposes_S128x256_S256x128_1_0) : (⟨S128x256, .f32⟩ : BufTy).Contents (Elt F) → (⟨S256x128, .f32⟩ : BufTy).Contents (Elt F)),
    binary main_v20 main_v21 main_v22 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg13 main_v23 (broadcastInDim S1x128 ![1] bcast_S128_S1x128_1 : (⟨S128, .f32⟩ : BufTy).Contents (Elt F) → (⟨S1x128, .f32⟩ : BufTy).Contents (Elt F)),
    unary main_v23 main_v24 (broadcastInDim S16384x128 ![0, 1] bcast_S1x128_S16384x128_0_1 : (⟨S1x128, .f32⟩ : BufTy).Contents (Elt F) → (⟨S16384x128, .f32⟩ : BufTy).Contents (Elt F)),
    binary main_v22 main_v24 main_v25 (addf : (⟨S16384x128, .f32⟩ : BufTy).Contents (Elt F) → (⟨S16384x128, .f32⟩ : BufTy).Contents (Elt F) → (⟨S16384x128, .f32⟩ : BufTy).Contents (Elt F)),
    TRef.nullary main_call10.cst (constant S_ .f32 0x00000000#32),
    TRef.unary main_call10.cst main_call10.v0 (broadcastInDim S16384x128 ![] bcast_S_S16384x128),
    TRef.binary (.of main_v25) main_call10.v0 main_call10.v1 maximumf,
    unary main_arg14 main_v27 ((transpose S128x64 [1, 0] · transposes_S64x128_S128x64_1_0) : (⟨S64x128, .f32⟩ : BufTy).Contents (Elt F) → (⟨S128x64, .f32⟩ : BufTy).Contents (Elt F)),
    binary main_v26 main_v27 main_v28 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg15 main_v29 (broadcastInDim S1x64 ![1] bcast_S64_S1x64_1 : (⟨S64, .f32⟩ : BufTy).Contents (Elt F) → (⟨S1x64, .f32⟩ : BufTy).Contents (Elt F)),
    unary main_v29 main_v30 (broadcastInDim S16384x64 ![0, 1] bcast_S1x64_S16384x64_0_1 : (⟨S1x64, .f32⟩ : BufTy).Contents (Elt F) → (⟨S16384x64, .f32⟩ : BufTy).Contents (Elt F)),
    binary main_v28 main_v30 main_v31 (addf : (⟨S16384x64, .f32⟩ : BufTy).Contents (Elt F) → (⟨S16384x64, .f32⟩ : BufTy).Contents (Elt F) → (⟨S16384x64, .f32⟩ : BufTy).Contents (Elt F)),
    TRef.nullary main_call11.cst (constant S_ .f32 0x00000000#32),
    TRef.unary main_call11.cst main_call11.v0 (broadcastInDim S16384x64 ![] bcast_S_S16384x64),
    TRef.binary (.of main_v31) main_call11.v0 main_call11.v1 maximumf,
    unary main_arg16 main_v33 ((transpose S64x1 [1, 0] · transposes_S1x64_S64x1_1_0) : (⟨S1x64, .f32⟩ : BufTy).Contents (Elt F) → (⟨S64x1, .f32⟩ : BufTy).Contents (Elt F)),
    binary main_v32 main_v33 main_v34 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg17 main_v35 (broadcastInDim S1x1 ![1] bcast_S1_S1x1_1 : (⟨S1, .f32⟩ : BufTy).Contents (Elt F) → (⟨S1x1, .f32⟩ : BufTy).Contents (Elt F)),
    unary main_v35 main_v36 (broadcastInDim S16384x1 ![0, 1] bcast_S1x1_S16384x1_0_1 : (⟨S1x1, .f32⟩ : BufTy).Contents (Elt F) → (⟨S16384x1, .f32⟩ : BufTy).Contents (Elt F)),
    binary main_v34 main_v36 main_v37 (addf : (⟨S16384x1, .f32⟩ : BufTy).Contents (Elt F) → (⟨S16384x1, .f32⟩ : BufTy).Contents (Elt F) → (⟨S16384x1, .f32⟩ : BufTy).Contents (Elt F)),
    reshape main_v37 main_v38 rfl shapeCasts_S16384x1_S16384 ]

theorem ops_split : (ops : List (HloOp τ sig (Elt F))) = opsA ++ opsB := rfl

/-- Running two lines one after the other folds the second over the first's result. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 16384 in
set_option maxHeartbeats 2000000 in
/-- After the first part, looked-up array 0 is the lookup of table 0 at the clamped index array 0. -/
theorem take0_eq (V : Valuation τ sig (Elt F)) :
    after opsA V (main_v4 : DevRef τ sig) = takev (V (main_arg4 : DevRef τ sig)) (clipv (V (main_arg0 : DevRef τ sig))) := by
  simp (disch := decide) only [after_cons, after_nil, nullary_result', unary_result', binary_result', ternary_result',
    nullary_result_ne', unary_result_ne', binary_result_ne', ternary_result_ne']
  simp only [TRef.toBuf, TRef.ofBuf, cast_eq, id_eq]
  unfold takev okv wrapv clipv
  rfl

set_option maxRecDepth 16384 in
set_option maxHeartbeats 2000000 in
/-- After the first part, looked-up array 1 is the lookup of table 1 at the clamped index array 1. -/
theorem take1_eq (V : Valuation τ sig (Elt F)) :
    after opsA V (main_v5 : DevRef τ sig) = takev (V (main_arg5 : DevRef τ sig)) (clipv (V (main_arg1 : DevRef τ sig))) := by
  simp (disch := decide) only [after_cons, after_nil, nullary_result', unary_result', binary_result', ternary_result',
    nullary_result_ne', unary_result_ne', binary_result_ne', ternary_result_ne']
  simp only [TRef.toBuf, TRef.ofBuf, cast_eq, id_eq]
  unfold takev okv wrapv clipv
  rfl

set_option maxRecDepth 16384 in
set_option maxHeartbeats 2000000 in
/-- After the first part, looked-up array 2 is the lookup of table 2 at the clamped index array 2. -/
theorem take2_eq (V : Valuation τ sig (Elt F)) :
    after opsA V (main_v6 : DevRef τ sig) = takev (V (main_arg6 : DevRef τ sig)) (clipv (V (main_arg2 : DevRef τ sig))) := by
  simp (disch := decide) only [after_cons, after_nil, nullary_result', unary_result', binary_result', ternary_result',
    nullary_result_ne', unary_result_ne', binary_result_ne', ternary_result_ne']
  simp only [TRef.toBuf, TRef.ofBuf, cast_eq, id_eq]
  unfold takev okv wrapv clipv
  rfl

set_option maxRecDepth 16384 in
set_option maxHeartbeats 2000000 in
/-- After the first part, looked-up array 3 is the lookup of table 3 at the clamped index array 3. -/
theorem take3_eq (V : Valuation τ sig (Elt F)) :
    after opsA V (main_v7 : DevRef τ sig) = takev (V (main_arg7 : DevRef τ sig)) (clipv (V (main_arg3 : DevRef τ sig))) := by
  simp (disch := decide) only [after_cons, after_nil, nullary_result', unary_result', binary_result', ternary_result',
    nullary_result_ne', unary_result_ne', binary_result_ne', ternary_result_ne']
  simp only [TRef.toBuf, TRef.ofBuf, cast_eq, id_eq]
  unfold takev okv wrapv clipv
  rfl

set_option maxRecDepth 16384 in
theorem keepA8 (V : Valuation τ sig (Elt F)) : after opsA V (main_arg8 : DevRef τ sig) = V (main_arg8 : DevRef τ sig) := by
  simp (disch := decide) only [after_cons, after_nil, nullary_result', unary_result', binary_result', ternary_result',
    nullary_result_ne', unary_result_ne', binary_result_ne', ternary_result_ne']
set_option maxRecDepth 16384 in
theorem keepA9 (V : Valuation τ sig (Elt F)) : after opsA V (main_arg9 : DevRef τ sig) = V (main_arg9 : DevRef τ sig) := by
  simp (disch := decide) only [after_cons, after_nil, nullary_result', unary_result', binary_result', ternary_result',
    nullary_result_ne', unary_result_ne', binary_result_ne', ternary_result_ne']
set_option maxRecDepth 16384 in
theorem keepA10 (V : Valuation τ sig (Elt F)) : after opsA V (main_arg10 : DevRef τ sig) = V (main_arg10 : DevRef τ sig) := by
  simp (disch := decide) only [after_cons, after_nil, nullary_result', unary_result', binary_result', ternary_result',
    nullary_result_ne', unary_result_ne', binary_result_ne', ternary_result_ne']
set_option maxRecDepth 16384 in
theorem keepA11 (V : Valuation τ sig (Elt F)) : after opsA V (main_arg11 : DevRef τ sig) = V (main_arg11 : DevRef τ sig) := by
  simp (disch := decide) only [after_cons, after_nil, nullary_result', unary_result', binary_result', ternary_result',
    nullary_result_ne', unary_result_ne', binary_result_ne', ternary_result_ne']
set_option maxRecDepth 16384 in
theorem keepA12 (V : Valuation τ sig (Elt F)) : after opsA V (main_arg12 : DevRef τ sig) = V (main_arg12 : DevRef τ sig) := by
  simp (disch := decide) only [after_cons, after_nil, nullary_result', unary_result', binary_result', ternary_result',
    nullary_result_ne', unary_result_ne', binary_result_ne', ternary_result_ne']
set_option maxRecDepth 16384 in
theorem keepA13 (V : Valuation τ sig (Elt F)) : after opsA V (main_arg13 : DevRef τ sig) = V (main_arg13 : DevRef τ sig) := by
  simp (disch := decide) only [after_cons, after_nil, nullary_result', unary_result', binary_result', ternary_result',
    nullary_result_ne', unary_result_ne', binary_result_ne', ternary_result_ne']
set_option maxRecDepth 16384 in
theorem keepA14 (V : Valuation τ sig (Elt F)) : after opsA V (main_arg14 : DevRef τ sig) = V (main_arg14 : DevRef τ sig) := by
  simp (disch := decide) only [after_cons, after_nil, nullary_result', unary_result', binary_result', ternary_result',
    nullary_result_ne', unary_result_ne', binary_result_ne', ternary_result_ne']
set_option maxRecDepth 16384 in
theorem keepA15 (V : Valuation τ sig (Elt F)) : after opsA V (main_arg15 : DevRef τ sig) = V (main_arg15 : DevRef τ sig) := by
  simp (disch := decide) only [after_cons, after_nil, nullary_result', unary_result', binary_result', ternary_result',
    nullary_result_ne', unary_result_ne', binary_result_ne', ternary_result_ne']
set_option maxRecDepth 16384 in
theorem keepA16 (V : Valuation τ sig (Elt F)) : after opsA V (main_arg16 : DevRef τ sig) = V (main_arg16 : DevRef τ sig) := by
  simp (disch := decide) only [after_cons, after_nil, nullary_result', unary_result', binary_result', ternary_result',
    nullary_result_ne', unary_result_ne', binary_result_ne', ternary_result_ne']
set_option maxRecDepth 16384 in
theorem keepA17 (V : Valuation τ sig (Elt F)) : after opsA V (main_arg17 : DevRef τ sig) = V (main_arg17 : DevRef τ sig) := by
  simp (disch := decide) only [after_cons, after_nil, nullary_result', unary_result', binary_result', ternary_result',
    nullary_result_ne', unary_result_ne', binary_result_ne', ternary_result_ne']

set_option maxRecDepth 16384 in
set_option maxHeartbeats 2000000 in
/-- After the second part the result buffer is the layers and the output on the four looked-up arrays side by side. -/
theorem mlp_eq (V : Valuation τ sig (Elt F)) :
    after opsB V (main_v38 : DevRef τ sig)
      = mlpv (concatenate S16384x512 1
          [⟨S16384x128, V (main_v4 : DevRef τ sig)⟩, ⟨S16384x128, V (main_v5 : DevRef τ sig)⟩,
            ⟨S16384x128, V (main_v6 : DevRef τ sig)⟩, ⟨S16384x128, V (main_v7 : DevRef τ sig)⟩]
          concatenates_S16384x128_S16384x128_S16384x128_S16384x128_S16384x512_d1)
        (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  simp (disch := decide) only [after_cons, after_nil, nullary_result', unary_result', binary_result', ternary_result', reshape_result', nary_result',
    nullary_result_ne', unary_result_ne', binary_result_ne', ternary_result_ne', reshape_result_ne', nary_result_ne']
  rfl

/-- The fold of the 163 operations at the result buffer is the reference's function of the arguments' contents. -/
theorem out_eq (V : Valuation τ sig (Elt F)) :
    after ops V (main_v38 : DevRef τ sig)
      = refVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_split, after_append', mlp_eq, take0_eq, take1_eq, take2_eq, take3_eq,
    keepA8, keepA9, keepA10, keepA11, keepA12, keepA13, keepA14, keepA15, keepA16, keepA17]
  rfl

end Cert.RefRun

end
-- ==== Proof.RefArgs.lean ====
/-
  The reference's line of operations writes no argument buffer: after it each of the eighteen argument buffers holds
  its launch contents. Shown for the two parts of the line in turn.
-/
import proofs.«212020_g4707284156877_cont_8to1c4_553_54_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem keepA0 (V : Valuation τ sig (Elt F)) : after opsA V (main_arg0 : DevRef τ sig) = V (main_arg0 : DevRef τ sig) := by
  simp (disch := decide) only [after_cons, after_nil, nullary_result', unary_result', binary_result', ternary_result',
    nullary_result_ne', unary_result_ne', binary_result_ne', ternary_result_ne']
set_option maxRecDepth 16384 in
theorem keepA1 (V : Valuation τ sig (Elt F)) : after opsA V (main_arg1 : DevRef τ sig) = V (main_arg1 : DevRef τ sig) := by
  simp (disch := decide) only [after_cons, after_nil, nullary_result', unary_result', binary_result', ternary_result',
    nullary_result_ne', unary_result_ne', binary_result_ne', ternary_result_ne']
set_option maxRecDepth 16384 in
theorem keepA2 (V : Valuation τ sig (Elt F)) : after opsA V (main_arg2 : DevRef τ sig) = V (main_arg2 : DevRef τ sig) := by
  simp (disch := decide) only [after_cons, after_nil, nullary_result', unary_result', binary_result', ternary_result',
    nullary_result_ne', unary_result_ne', binary_result_ne', ternary_result_ne']
set_option maxRecDepth 16384 in
theorem keepA3 (V : Valuation τ sig (Elt F)) : after opsA V (main_arg3 : DevRef τ sig) = V (main_arg3 : DevRef τ sig) := by
  simp (disch := decide) only [after_cons, after_nil, nullary_result', unary_result', binary_result', ternary_result',
    nullary_result_ne', unary_result_ne', binary_result_ne', ternary_result_ne']
set_option maxRecDepth 16384 in
theorem keepA4 (V : Valuation τ sig (Elt F)) : after opsA V (main_arg4 : DevRef τ sig) = V (main_arg4 : DevRef τ sig) := by
  simp (disch := decide) only [after_cons, after_nil, nullary_result', unary_result', binary_result', ternary_result',
    nullary_result_ne', unary_result_ne', binary_result_ne', ternary_result_ne']
set_option maxRecDepth 16384 in
theorem keepA5 (V : Valuation τ sig (Elt F)) : after opsA V (main_arg5 : DevRef τ sig) = V (main_arg5 : DevRef τ sig) := by
  simp (disch := decide) only [after_cons, after_nil, nullary_result', unary_result', binary_result', ternary_result',
    nullary_result_ne', unary_result_ne', binary_result_ne', ternary_result_ne']
set_option maxRecDepth 16384 in
theorem keepA6 (V : Valuation τ sig (Elt F)) : after opsA V (main_arg6 : DevRef τ sig) = V (main_arg6 : DevRef τ sig) := by
  simp (disch := decide) only [after_cons, after_nil, nullary_result', unary_result', binary_result', ternary_result',
    nullary_result_ne', unary_result_ne', binary_result_ne', ternary_result_ne']
set_option maxRecDepth 16384 in
theorem keepA7 (V : Valuation τ sig (Elt F)) : after opsA V (main_arg7 : DevRef τ sig) = V (main_arg7 : DevRef τ sig) := by
  simp (disch := decide) only [after_cons, after_nil, nullary_result', unary_result', binary_result', ternary_result',
    nullary_result_ne', unary_result_ne', binary_result_ne', ternary_result_ne']

set_option maxRecDepth 16384 in
theorem keepB0 (V : Valuation τ sig (Elt F)) : after opsB V (main_arg0 : DevRef τ sig) = V (main_arg0 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB1 (V : Valuation τ sig (Elt F)) : after opsB V (main_arg1 : DevRef τ sig) = V (main_arg1 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB2 (V : Valuation τ sig (Elt F)) : after opsB V (main_arg2 : DevRef τ sig) = V (main_arg2 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB3 (V : Valuation τ sig (Elt F)) : after opsB V (main_arg3 : DevRef τ sig) = V (main_arg3 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB4 (V : Valuation τ sig (Elt F)) : after opsB V (main_arg4 : DevRef τ sig) = V (main_arg4 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB5 (V : Valuation τ sig (Elt F)) : after opsB V (main_arg5 : DevRef τ sig) = V (main_arg5 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB6 (V : Valuation τ sig (Elt F)) : after opsB V (main_arg6 : DevRef τ sig) = V (main_arg6 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB7 (V : Valuation τ sig (Elt F)) : after opsB V (main_arg7 : DevRef τ sig) = V (main_arg7 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB8 (V : Valuation τ sig (Elt F)) : after opsB V (main_arg8 : DevRef τ sig) = V (main_arg8 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB9 (V : Valuation τ sig (Elt F)) : after opsB V (main_arg9 : DevRef τ sig) = V (main_arg9 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB10 (V : Valuation τ sig (Elt F)) : after opsB V (main_arg10 : DevRef τ sig) = V (main_arg10 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB11 (V : Valuation τ sig (Elt F)) : after opsB V (main_arg11 : DevRef τ sig) = V (main_arg11 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB12 (V : Valuation τ sig (Elt F)) : after opsB V (main_arg12 : DevRef τ sig) = V (main_arg12 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB13 (V : Valuation τ sig (Elt F)) : after opsB V (main_arg13 : DevRef τ sig) = V (main_arg13 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB14 (V : Valuation τ sig (Elt F)) : after opsB V (main_arg14 : DevRef τ sig) = V (main_arg14 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB15 (V : Valuation τ sig (Elt F)) : after opsB V (main_arg15 : DevRef τ sig) = V (main_arg15 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB16 (V : Valuation τ sig (Elt F)) : after opsB V (main_arg16 : DevRef τ sig) = V (main_arg16 : DevRef τ sig) := by
  simp (disch := decide) only [after_cons, after_nil, nullary_result', unary_result', binary_result', ternary_result', reshape_result', nary_result',
    nullary_result_ne', unary_result_ne', binary_result_ne', ternary_result_ne', reshape_result_ne', nary_result_ne']
set_option maxRecDepth 16384 in
theorem keepB17 (V : Valuation τ sig (Elt F)) : after opsB V (main_arg17 : DevRef τ sig) = V (main_arg17 : DevRef τ sig) := by
  simp (disch := decide) only [after_cons, after_nil, nullary_result', unary_result', binary_result', ternary_result', reshape_result', nary_result',
    nullary_result_ne', unary_result_ne', binary_result_ne', ternary_result_ne', reshape_result_ne', nary_result_ne']

theorem arg0_eq (V : Valuation τ sig (Elt F)) : after ops V (main_arg0 : DevRef τ sig) = V (main_arg0 : DevRef τ sig) := by
  rw [ops_split, after_append', keepB0, keepA0]
theorem arg1_eq (V : Valuation τ sig (Elt F)) : after ops V (main_arg1 : DevRef τ sig) = V (main_arg1 : DevRef τ sig) := by
  rw [ops_split, after_append', keepB1, keepA1]
theorem arg2_eq (V : Valuation τ sig (Elt F)) : after ops V (main_arg2 : DevRef τ sig) = V (main_arg2 : DevRef τ sig) := by
  rw [ops_split, after_append', keepB2, keepA2]
theorem arg3_eq (V : Valuation τ sig (Elt F)) : after ops V (main_arg3 : DevRef τ sig) = V (main_arg3 : DevRef τ sig) := by
  rw [ops_split, after_append', keepB3, keepA3]
theorem arg4_eq (V : Valuation τ sig (Elt F)) : after ops V (main_arg4 : DevRef τ sig) = V (main_arg4 : DevRef τ sig) := by
  rw [ops_split, after_append', keepB4, keepA4]
theorem arg5_eq (V : Valuation τ sig (Elt F)) : after ops V (main_arg5 : DevRef τ sig) = V (main_arg5 : DevRef τ sig) := by
  rw [ops_split, after_append', keepB5, keepA5]
theorem arg6_eq (V : Valuation τ sig (Elt F)) : after ops V (main_arg6 : DevRef τ sig) = V (main_arg6 : DevRef τ sig) := by
  rw [ops_split, after_append', keepB6, keepA6]
theorem arg7_eq (V : Valuation τ sig (Elt F)) : after ops V (main_arg7 : DevRef τ sig) = V (main_arg7 : DevRef τ sig) := by
  rw [ops_split, after_append', keepB7, keepA7]
theorem arg8_eq (V : Valuation τ sig (Elt F)) : after ops V (main_arg8 : DevRef τ sig) = V (main_arg8 : DevRef τ sig) := by
  rw [ops_split, after_append', keepB8, keepA8]
theorem arg9_eq (V : Valuation τ sig (Elt F)) : after ops V (main_arg9 : DevRef τ sig) = V (main_arg9 : DevRef τ sig) := by
  rw [ops_split, after_append', keepB9, keepA9]
theorem arg10_eq (V : Valuation τ sig (Elt F)) : after ops V (main_arg10 : DevRef τ sig) = V (main_arg10 : DevRef τ sig) := by
  rw [ops_split, after_append', keepB10, keepA10]
theorem arg11_eq (V : Valuation τ sig (Elt F)) : after ops V (main_arg11 : DevRef τ sig) = V (main_arg11 : DevRef τ sig) := by
  rw [ops_split, after_append', keepB11, keepA11]
theorem arg12_eq (V : Valuation τ sig (Elt F)) : after ops V (main_arg12 : DevRef τ sig) = V (main_arg12 : DevRef τ sig) := by
  rw [ops_split, after_append', keepB12, keepA12]
theorem arg13_eq (V : Valuation τ sig (Elt F)) : after ops V (main_arg13 : DevRef τ sig) = V (main_arg13 : DevRef τ sig) := by
  rw [ops_split, after_append', keepB13, keepA13]
theorem arg14_eq (V : Valuation τ sig (Elt F)) : after ops V (main_arg14 : DevRef τ sig) = V (main_arg14 : DevRef τ sig) := by
  rw [ops_split, after_append', keepB14, keepA14]
theorem arg15_eq (V : Valuation τ sig (Elt F)) : after ops V (main_arg15 : DevRef τ sig) = V (main_arg15 : DevRef τ sig) := by
  rw [ops_split, after_append', keepB15, keepA15]
theorem arg16_eq (V : Valuation τ sig (Elt F)) : after ops V (main_arg16 : DevRef τ sig) = V (main_arg16 : DevRef τ sig) := by
  rw [ops_split, after_append', keepB16, keepA16]
theorem arg17_eq (V : Valuation τ sig (Elt F)) : after ops V (main_arg17 : DevRef τ sig) = V (main_arg17 : DevRef τ sig) := by
  rw [ops_split, after_append', keepB17, keepA17]

end Cert.RefRun

end
-- ==== Proof.RefRunTerm.lean ====
/-
  The reference's run with its result as the composed function of the arguments: from any memory with zero counters
  every weakly fair execution of the reference terminates with the result buffer at the reference's function of the
  launch contents of the eighteen argument buffers, and with those buffers unchanged.
-/
import proofs.«212020_g4707284156877_cont_8to1c4_553_54_alg».proof.Proof.RefTerm
import proofs.«212020_g4707284156877_cont_8to1c4_553_54_alg».proof.Proof.RefArgs

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _)⟩)
    (run_main m ρ)

end Cert.RefRun

end
-- ==== Proof.RefLookup.lean ====
/-
  The lookup stage read at an index, for index words between 0 and 99999.

  For such a word the clamp into [0, 100000] changes nothing; the word is not negative, so the wrap-around leaves it;
  it names a row, so the mask is 1 everywhere and the not-a-number fill is never chosen; and the gather's own clamp of
  the start index into [0, 100000] changes nothing either. What is left at example r and column c is the table at
  row (the index word of r) and column c.
-/
import proofs.«212020_g4707284156877_cont_8to1c4_553_54_alg».proof.Proof.RefDefs
import Idealize.ShloMosaic.Lib.ValueIdx
import Idealize.ShloMosaic.Lib.Pipeline.Value
import Idealize.ShloMosaic.PureOps.Reduce

noncomputable section

namespace Cert.RefRun

open Cert.ReferenceIdeal Cert.ReferenceIdeal.Gen Idealize.ShloMosaic Idealize.ShloMosaic.ValueIdx

variable {F : FTy → Type} [FloatOps F]

/-! ## Words -/

theorem ofBool_eq_one (p : Bool) : (BitVec.ofBool p = 1#1) ↔ p = true := by cases p <;> decide

/-- A word at most 99999 as an unsigned number is not negative as a signed one. -/
theorem not_slt_zero (w : BitVec 32) (h : w.toNat ≤ 99999) : w.slt 0#32 = false := by
  simp only [BitVec.slt_eq_decide, decide_eq_false_iff_not, BitVec.toInt_eq_toNat_cond, BitVec.toNat_ofNat,
    Nat.reducePow, Nat.reduceMod]
  omega

/-- … and is not above 100000 as a signed one. -/
theorem not_big_slt (w : BitVec 32) (h : w.toNat ≤ 99999) : (100000#32).slt w = false := by
  simp only [BitVec.slt_eq_decide, decide_eq_false_iff_not, BitVec.toInt_eq_toNat_cond, BitVec.toNat_ofNat,
    Nat.reducePow, Nat.reduceMod]
  omega

/-- The clamp into [0, 100000] leaves such a word. -/
theorem clip_word (w : BitVec 32) (h : w.toNat ≤ 99999) : IntOp.minsi 100000#32 (IntOp.maxsi 0#32 w) = w := by
  unfold IntOp.minsi IntOp.maxsi
  rw [not_slt_zero w h]
  simp only [Bool.false_eq_true, if_false]
  rw [not_big_slt w h]
  simp only [Bool.false_eq_true, if_false]

/-- The wrap-around leaves such a word. -/
theorem wrap_word (w : BitVec 32) (h : w.toNat ≤ 99999) :
    Scalar.select (IntOp.cmpi .slt w 0#32) (IntOp.addi w 100001#32) w = w := by
  unfold Scalar.select IntOp.cmpi
  simp only [not_slt_zero w h]
  rfl

/-- Such a word passes the lookup's range test. -/
theorem ok_word (w : BitVec 32) (h : w.toNat ≤ 99999) :
    IntOp.andi (IntOp.cmpi .sge w 0#32) (IntOp.cmpi .sle w 100000#32) = 1#1 := by
  have h0 : IntOp.cmpi .sge w 0#32 = 1#1 := by
    simp only [IntOp.cmpi, ofBool_eq_one, BitVec.sle_eq_decide, decide_eq_true_eq, BitVec.toInt_eq_toNat_cond,
      BitVec.toNat_ofNat, Nat.reducePow, Nat.reduceMod]
    omega
  have h1 : IntOp.cmpi .sle w 100000#32 = 1#1 := by
    simp only [IntOp.cmpi, ofBool_eq_one, BitVec.sle_eq_decide, decide_eq_true_eq, BitVec.toInt_eq_toNat_cond,
      BitVec.toNat_ofNat, Nat.reducePow, Nat.reduceMod]
    omega
  rw [h0, h1]; decide

/-- Its signed value, clamped into [0, 100000], is its unsigned value. -/
theorem start_word (w : BitVec 32) (h : w.toNat ≤ 99999) : min w.toInt.toNat (100001 - 1) = w.toNat := by
  have : w.toInt = w.toNat := by
    rw [BitVec.toInt_eq_toNat_cond]; simp only [Nat.reducePow]; split <;> omega
  rw [this]; simp only [Int.toNat_natCast]; omega

/-! ## A reduction by `and` of all ones -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- A reduction by `and`, from 1, of an array of ones is 1 at every index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x _ fun n _ => hx n

/-! ## The stages -/

/-- The clamp is the identity on index arrays of such words. -/
theorem clipv_eq (i : IVec S16384 32) (h : ∀ j, (i j).toNat ≤ 99999) : clipv i = i := by
  funext j
  exact clip_word (i j) (h j)

/-- The start index of example r is its index word. -/
theorem wrapv_apply (i : IVec S16384 32) (h : ∀ j, (i j).toNat ≤ 99999) (r : Fin 16384) (c : Fin 1) :
    wrapv i (ix2 r c) = i (ix1 r) := by
  unfold wrapv
  rw [broadcastInDim_apply _ _ _ (ix2 r c) (ix1 r) (fun a => by
    match a with
    | ⟨0, _⟩ => rfl)]
  exact wrap_word _ (h _)

/-- The mask is 1 everywhere. -/
theorem okv_wrapv (i : IVec S16384 32) (h : ∀ j, (i j).toNat ≤ 99999) (j : S16384.Idx) : okv (wrapv i) j = 1#1 := by
  unfold okv
  refine reduce_andi_one _ _ _ _ j (fun k => ?_) (fun _ => rfl)
  obtain ⟨r, c, rfl⟩ : ∃ (r : Fin 16384) (c : Fin 1), k = ix2 r c := ⟨k 0, k 1, eq_ix2 k⟩
  show IntOp.andi (IntOp.cmpi .sge (wrapv i (ix2 r c)) 0#32) (IntOp.cmpi .sle (wrapv i (ix2 r c)) 100000#32) = 1#1
  rw [wrapv_apply i h r c]
  exact ok_word _ (h _)

/-- The gather of rows, read at example r and column c: the table at the row the start index names, the start index read
    signed and clamped into [0, 100000]. -/
theorem gather_row_apply {α : Type} (x : S100001x128.Idx → α) (idx : IVec S16384x1 32) (r : Fin 16384) (c : Fin 128) :
    Host.gather gather_S100001x128_S16384x1_S16384x128_1_0_n_n_0_1_1128 x idx (ix2 r c)
      = x (ix2 ⟨min (idx (ix2 r 0)).toInt.toNat (100001 - 1), by omega⟩ c) := by
  unfold Host.gather
  congr 1
  funext a
  refine Fin.ext ?_
  match a with
  | ⟨0, _⟩ =>
    show gather_S100001x128_S16384x1_S16384x128_1_0_n_n_0_1_1128.start (ix2 r c) idx 0 + gather_S100001x128_S16384x1_S16384x128_1_0_n_n_0_1_1128.batchCoord (ix2 r c) 0 + gather_S100001x128_S16384x1_S16384x128_1_0_n_n_0_1_1128.offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S16384x1_S16384x128_1_0_n_n_0_1_1128.startIndexMap from List.mem_singleton.mpr rfl)]
    have hsi : gather_S100001x128_S16384x1_S16384x128_1_0_n_n_0_1_1128.siIdx (ix2 r c) ⟨List.idxOf (0 : Fin 2) gather_S100001x128_S16384x1_S16384x128_1_0_n_n_0_1_1128.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S100001x128_S16384x1_S16384x128_1_0_n_n_0_1_1128.start (ix2 r c) idx 1 + gather_S100001x128_S16384x1_S16384x128_1_0_n_n_0_1_1128.batchCoord (ix2 r c) 1 + gather_S100001x128_S16384x1_S16384x128_1_0_n_n_0_1_1128.offCoord (ix2 r c) 1 = _
    rw [GatherDims.batchCoord_eq_zero _ _ _ List.not_mem_nil]
    unfold GatherDims.start
    rw [dif_neg (by decide)]
    unfold GatherDims.offCoord
    rw [dif_pos ((GatherDims.mem_sKept _ _).mpr ⟨by decide, List.not_mem_nil⟩)]
    simp only [Nat.zero_add, Nat.add_zero]
    rfl

/-- THE LOOKUP at example r and column c: the table at row (index word of r), column c. -/
theorem takev_apply (e : FVec F S100001x128 .f32) (i : IVec S16384 32) (h : ∀ j, (i j).toNat ≤ 99999) (r : Fin 16384)
    (c : Fin 128) :
    takev e (clipv i) (ix2 r c) = e (ix2 ⟨(i (ix1 r)).toNat, by have := h (ix1 r); omega⟩ c) := by
  rw [clipv_eq i h]
  unfold takev
  rw [select_apply]
  rw [broadcastInDim_apply _ _ _ (ix2 r c) (ix1 r) (fun a => by
    match a with
    | ⟨0, _⟩ => rfl)]
  rw [okv_wrapv i h, select_one, gather_row_apply]
  congr 1
  funext a
  refine Fin.ext ?_
  match a with
  | ⟨0, _⟩ =>
    show min (wrapv i (ix2 r 0)).toInt.toNat (100001 - 1) = (i (ix1 r)).toNat
    rw [wrapv_apply i h r 0]
    exact start_word _ (h _)
  | ⟨1, _⟩ => rfl

end Cert.RefRun

end
-- ==== Proof.RefLayers.lean ====
/-
  The layers and the output read at an index, over the extended reals.

  A layer's product with the transposed weights, read at example r and unit j, is the sum over the contracted
  coordinate k of (the row's entry k) times (weight row j's entry k); the bias broadcast over the rows reads as bias j;
  the rectifier is the larger of that and 0. The output is the same with one output row, read as a vector.
-/
import proofs.«212020_g4707284156877_cont_8to1c4_553_54_alg».proof.Proof.RefDefs
import proofs.«212020_g4707284156877_cont_8to1c4_553_54_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.RefRun

open Cert.ReferenceIdeal Cert.ReferenceIdeal.Gen Idealize.ShloMosaic Idealize.ShloMosaic.ValueIdx

/-- Layer 0 at example r and unit j: the larger of 0 and the row against weight row j plus bias j. -/
theorem layer0_apply (x : FVec Ideal S16384x512 .f32) (W : FVec Ideal S512x512 .f32) (b : FVec Ideal S512 .f32)
    (r : Fin 16384) (j : Fin 512) :
    layer0 (F := Ideal) x W b (ix2 r j) = Cert.Spec.dense W b (fun k => x (ix2 r k)) j := by
  unfold layer0 Cert.Spec.dense
  rw [maximumf_apply, addf_apply, broadcastInDim_scalar_apply, constant_apply, Ideal.ofBits_zero_f32]
  rw [broadcastInDim_apply _ _ _ (ix2 r j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]
  simp only [Host.dotGeneral]
  rw [Ideal.dotGeneral_apply]
  refine congrArg (fun s => max (s + b (ix1 j)) 0) ?_
  refine (Equiv.sum_comp (contrEquiv1 dot_S16384x512_S512x512_S16384x512_1_0_0_1_n_n 512 rfl rfl).symm _).symm.trans
    (Finset.sum_congr rfl fun k _ => ?_)
  have hk : ((((contrEquiv1 dot_S16384x512_S512x512_S16384x512_1_0_0_1_n_n 512 rfl rfl).symm k) ⟨0, by decide⟩ : Fin _) : ℕ) = k.val :=
    contrEquiv1_symm_val dot_S16384x512_S512x512_S16384x512_1_0_0_1_n_n 512 rfl rfl k
  congr 1
  · refine congrArg x (funext fun a => Fin.ext ?_)
    match a with
    | ⟨0, _⟩ => rfl
    | ⟨1, _⟩ => exact hk
  · refine transpose_apply _ W _ _ (ix2 j k) (fun a => ?_)
    match a with
    | ⟨0, _⟩ => exact hk.symm
    | ⟨1, _⟩ => rfl

/-- Layer 1 at example r and unit j: the larger of 0 and the row against weight row j plus bias j. -/
theorem layer1_apply (x : FVec Ideal S16384x512 .f32) (W : FVec Ideal S256x512 .f32) (b : FVec Ideal S256 .f32)
    (r : Fin 16384) (j : Fin 256) :
    layer1 (F := Ideal) x W b (ix2 r j) = Cert.Spec.dense W b (fun k => x (ix2 r k)) j := by
  unfold layer1 Cert.Spec.dense
  rw [maximumf_apply, addf_apply, broadcastInDim_scalar_apply, constant_apply, Ideal.ofBits_zero_f32]
  rw [broadcastInDim_apply _ _ _ (ix2 r j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]
  simp only [Host.dotGeneral]
  rw [Ideal.dotGeneral_apply]
  refine congrArg (fun s => max (s + b (ix1 j)) 0) ?_
  refine (Equiv.sum_comp (contrEquiv1 dot_S16384x512_S512x256_S16384x256_1_0_0_1_n_n 512 rfl rfl).symm _).symm.trans
    (Finset.sum_congr rfl fun k _ => ?_)
  have hk : ((((contrEquiv1 dot_S16384x512_S512x256_S16384x256_1_0_0_1_n_n 512 rfl rfl).symm k) ⟨0, by decide⟩ : Fin _) : ℕ) = k.val :=
    contrEquiv1_symm_val dot_S16384x512_S512x256_S16384x256_1_0_0_1_n_n 512 rfl rfl k
  congr 1
  · refine congrArg x (funext fun a => Fin.ext ?_)
    match a with
    | ⟨0, _⟩ => rfl
    | ⟨1, _⟩ => exact hk
  · refine transpose_apply _ W _ _ (ix2 j k) (fun a => ?_)
    match a with
    | ⟨0, _⟩ => exact hk.symm
    | ⟨1, _⟩ => rfl

/-- Layer 2 at example r and unit j: the larger of 0 and the row against weight row j plus bias j. -/
theorem layer2_apply (x : FVec Ideal S16384x256 .f32) (W : FVec Ideal S128x256 .f32) (b : FVec Ideal S128 .f32)
    (r : Fin 16384) (j : Fin 128) :
    layer2 (F := Ideal) x W b (ix2 r j) = Cert.Spec.dense W b (fun k => x (ix2 r k)) j := by
  unfold layer2 Cert.Spec.dense
  rw [maximumf_apply, addf_apply, broadcastInDim_scalar_apply, constant_apply, Ideal.ofBits_zero_f32]
  rw [broadcastInDim_apply _ _ _ (ix2 r j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]
  simp only [Host.dotGeneral]
  rw [Ideal.dotGeneral_apply]
  refine congrArg (fun s => max (s + b (ix1 j)) 0) ?_
  refine (Equiv.sum_comp (contrEquiv1 dot_S16384x256_S256x128_S16384x128_1_0_0_1_n_n 256 rfl rfl).symm _).symm.trans
    (Finset.sum_congr rfl fun k _ => ?_)
  have hk : ((((contrEquiv1 dot_S16384x256_S256x128_S16384x128_1_0_0_1_n_n 256 rfl rfl).symm k) ⟨0, by decide⟩ : Fin _) : ℕ) = k.val :=
    contrEquiv1_symm_val dot_S16384x256_S256x128_S16384x128_1_0_0_1_n_n 256 rfl rfl k
  congr 1
  · refine congrArg x (funext fun a => Fin.ext ?_)
    match a with
    | ⟨0, _⟩ => rfl
    | ⟨1, _⟩ => exact hk
  · refine transpose_apply _ W _ _ (ix2 j k) (fun a => ?_)
    match a with
    | ⟨0, _⟩ => exact hk.symm
    | ⟨1, _⟩ => rfl

/-- Layer 3 at example r and unit j: the larger of 0 and the row against weight row j plus bias j. -/
theorem layer3_apply (x : FVec Ideal S16384x128 .f32) (W : FVec Ideal S64x128 .f32) (b : FVec Ideal S64 .f32)
    (r : Fin 16384) (j : Fin 64) :
    layer3 (F := Ideal) x W b (ix2 r j) = Cert.Spec.dense W b (fun k => x (ix2 r k)) j := by
  unfold layer3 Cert.Spec.dense
  rw [maximumf_apply, addf_apply, broadcastInDim_scalar_apply, constant_apply, Ideal.ofBits_zero_f32]
  rw [broadcastInDim_apply _ _ _ (ix2 r j) (ix2 (0 : Fin 1) j) (fun a => by
    match a with
    | ⟨0, _⟩ => rfl
    | ⟨1, _⟩ => rfl)]
  rw [broadcastInDim_apply _ _ _ (ix2 (0 : Fin 1) j) (ix1 j) (fun a => by
    match a with
    | ⟨0, _⟩ => rfl)]
  simp only [Host.dotGeneral]
  rw [Ideal.dotGeneral_apply]
  refine congrArg (fun s => max (s + b (ix1 j)) 0) ?_
  refine (Equiv.sum_comp (contrEquiv1 dot_S16384x128_S128x64_S16384x64_1_0_0_1_n_n 128 rfl rfl).symm _).symm.trans
    (Finset.sum_congr rfl fun k _ => ?_)
  have hk : ((((contrEquiv1 dot_S16384x128_S128x64_S16384x64_1_0_0_1_n_n 128 rfl rfl).symm k) ⟨0, by decide⟩ : Fin _) : ℕ) = k.val :=
    contrEquiv1_symm_val dot_S16384x128_S128x64_S16384x64_1_0_0_1_n_n 128 rfl rfl k
  congr 1
  · refine congrArg x (funext fun a => Fin.ext ?_)
    match a with
    | ⟨0, _⟩ => rfl
    | ⟨1, _⟩ => exact hk
  · refine transpose_apply _ W _ _ (ix2 j k) (fun a => ?_)
    match a with
    | ⟨0, _⟩ => exact hk.symm
    | ⟨1, _⟩ => rfl

/-- The output at example r: the hidden row against the output row, plus the output bias. -/
theorem headv_apply (x : FVec Ideal S16384x64 .f32) (Wo : FVec Ideal S1x64 .f32) (bo : FVec Ideal S1 .f32) (r : Fin 16384) :
    headv (F := Ideal) x Wo bo (ix1 r) = Cert.Spec.head Wo bo (fun k => x (ix2 r k)) := by
  unfold headv Cert.Spec.head
  rw [shapeCast_apply _ _ (ix1 r) (ix2 r (0 : Fin 1)) (by
    rw [Shape.rowMajor_val_two, Shape.rowMajor_val_one]
    show r.val * 1 + 0 = r.val
    omega)]
  rw [addf_apply]
  rw [broadcastInDim_apply _ _ _ (ix2 r (0 : Fin 1)) (ix2 (0 : Fin 1) (0 : Fin 1)) (fun a => by
    match a with
    | ⟨0, _⟩ => rfl
    | ⟨1, _⟩ => rfl)]
  rw [broadcastInDim_apply _ _ _ (ix2 (0 : Fin 1) (0 : Fin 1)) (ix1 (0 : Fin 1)) (fun a => by
    match a with
    | ⟨0, _⟩ => rfl)]
  simp only [Host.dotGeneral]
  rw [Ideal.dotGeneral_apply]
  refine congrArg (fun s => s + bo (ix1 0)) ?_
  refine (Equiv.sum_comp (contrEquiv1 dot_S16384x64_S64x1_S16384x1_1_0_0_1_n_n 64 rfl rfl).symm _).symm.trans
    (Finset.sum_congr rfl fun k _ => ?_)
  have hk : ((((contrEquiv1 dot_S16384x64_S64x1_S16384x1_1_0_0_1_n_n 64 rfl rfl).symm k) ⟨0, by decide⟩ : Fin _) : ℕ) = k.val :=
    contrEquiv1_symm_val dot_S16384x64_S64x1_S16384x1_1_0_0_1_n_n 64 rfl rfl k
  congr 1
  · refine congrArg x (funext fun a => Fin.ext ?_)
    match a with
    | ⟨0, _⟩ => rfl
    | ⟨1, _⟩ => exact hk
  · refine transpose_apply _ Wo _ _ (ix2 (0 : Fin 1) k) (fun a => ?_)
    match a with
    | ⟨0, _⟩ => exact hk.symm
    | ⟨1, _⟩ => rfl

end Cert.RefRun

end
-- ==== Proof.RefValue.lean ====
/-
  The reference's function is the specification, for index words between 0 and 99999.

  Entry k of example r's feature row lies in piece k / 128 of the four looked-up arrays side by side, at column
  k mod 128; the lookup there is the table's entry at the row the index word names; each layer and the output read at
  an index are the specification's layer and output on the row. So at every example the reference's function and
  the specification agree.
-/
import proofs.«212020_g4707284156877_cont_8to1c4_553_54_alg».proof.Proof.RefLookup
import proofs.«212020_g4707284156877_cont_8to1c4_553_54_alg».proof.Proof.RefLayers

noncomputable section

open scoped BigOperators

namespace Cert.RefRun

open Cert.ReferenceIdeal Cert.ReferenceIdeal.Gen Idealize.ShloMosaic Idealize.ShloMosaic.ValueIdx

/-- The four looked-up arrays side by side, at example r and entry k: the specification's feature entry. -/
theorem featv_apply (i0 i1 i2 i3 : IVec S16384 32) (e0 e1 e2 e3 : FVec Ideal S100001x128 .f32)
    (h0 : ∀ j, (i0 j).toNat ≤ 99999) (h1 : ∀ j, (i1 j).toNat ≤ 99999) (h2 : ∀ j, (i2 j).toNat ≤ 99999)
    (h3 : ∀ j, (i3 j).toNat ≤ 99999) (r : Fin 16384) (k : Fin 512) :
    featv (F := Ideal) i0 i1 i2 i3 e0 e1 e2 e3 (ix2 r k) = Cert.Spec.feat i0 i1 i2 i3 e0 e1 e2 e3 r k := by
  unfold featv
  have hk := k.isLt
  have hcases : k.val / 128 = 0 ∨ k.val / 128 = 1 ∨ k.val / 128 = 2 ∨ k.val / 128 = 3 := by omega
  rcases hcases with hq | hq | hq | hq
  · -- the coordinate falls in piece 0
    refine (concatenate_apply_piece (1 : Fin 2) _ _ (ix2 r k) 0 (by show 0 < 4; omega) S16384x128 _ rfl rfl 0 rfl
      (ix2 r ⟨k.val % 128, Nat.mod_lt _ (by decide)⟩) (fun b hb => ?_) ?_).trans ?_
    · match b with
      | ⟨0, _⟩ => rfl
      | ⟨1, _⟩ => exact absurd rfl hb
    · show 0 + k.val % 128 = k.val
      omega
    · rw [takev_apply e0 i0 h0]
      unfold Cert.Spec.feat
      simp only [hq]
      show _ = Cert.Spec.pick i0 e0 r _
      unfold Cert.Spec.pick
      rw [dif_pos (by have := h0 (ix1 r); omega)]
  · -- the coordinate falls in piece 1
    refine (concatenate_apply_piece (1 : Fin 2) _ _ (ix2 r k) 1 (by show 1 < 4; omega) S16384x128 _ rfl rfl 128 rfl
      (ix2 r ⟨k.val % 128, Nat.mod_lt _ (by decide)⟩) (fun b hb => ?_) ?_).trans ?_
    · match b with
      | ⟨0, _⟩ => rfl
      | ⟨1, _⟩ => exact absurd rfl hb
    · show 128 + k.val % 128 = k.val
      omega
    · rw [takev_apply e1 i1 h1]
      unfold Cert.Spec.feat
      simp only [hq]
      show _ = Cert.Spec.pick i1 e1 r _
      unfold Cert.Spec.pick
      rw [dif_pos (by have := h1 (ix1 r); omega)]
  · -- the coordinate falls in piece 2
    refine (concatenate_apply_piece (1 : Fin 2) _ _ (ix2 r k) 2 (by show 2 < 4; omega) S16384x128 _ rfl rfl 256 rfl
      (ix2 r ⟨k.val % 128, Nat.mod_lt _ (by decide)⟩) (fun b hb => ?_) ?_).trans ?_
    · match b with
      | ⟨0, _⟩ => rfl
      | ⟨1, _⟩ => exact absurd rfl hb
    · show 256 + k.val % 128 = k.val
      omega
    · rw [takev_apply e2 i2 h2]
      unfold Cert.Spec.feat
      simp only [hq]
      show _ = Cert.Spec.pick i2 e2 r _
      unfold Cert.Spec.pick
      rw [dif_pos (by have := h2 (ix1 r); omega)]
  · -- the coordinate falls in piece 3
    refine (concatenate_apply_piece (1 : Fin 2) _ _ (ix2 r k) 3 (by show 3 < 4; omega) S16384x128 _ rfl rfl 384 rfl
      (ix2 r ⟨k.val % 128, Nat.mod_lt _ (by decide)⟩) (fun b hb => ?_) ?_).trans ?_
    · match b with
      | ⟨0, _⟩ => rfl
      | ⟨1, _⟩ => exact absurd rfl hb
    · show 384 + k.val % 128 = k.val
      omega
    · rw [takev_apply e3 i3 h3]
      unfold Cert.Spec.feat
      simp only [hq]
      show _ = Cert.Spec.pick i3 e3 r _
      unfold Cert.Spec.pick
      rw [dif_pos (by have := h3 (ix1 r); omega)]

/-- THE VALUE: on index arrays of such words the reference's function is the specification. -/
theorem refVal_eq_pred (i0 i1 i2 i3 : IVec S16384 32) (e0 e1 e2 e3 : FVec Ideal S100001x128 .f32)
    (W0 : FVec Ideal S512x512 .f32) (b0 : FVec Ideal S512 .f32) (W1 : FVec Ideal S256x512 .f32) (b1 : FVec Ideal S256 .f32)
    (W2 : FVec Ideal S128x256 .f32) (b2 : FVec Ideal S128 .f32) (W3 : FVec Ideal S64x128 .f32) (b3 : FVec Ideal S64 .f32)
    (Wo : FVec Ideal S1x64 .f32) (bo : FVec Ideal S1 .f32)
    (h0 : ∀ j, (i0 j).toNat ≤ 99999) (h1 : ∀ j, (i1 j).toNat ≤ 99999) (h2 : ∀ j, (i2 j).toNat ≤ 99999)
    (h3 : ∀ j, (i3 j).toNat ≤ 99999) :
    refVal (F := Ideal) i0 i1 i2 i3 e0 e1 e2 e3 W0 b0 W1 b1 W2 b2 W3 b3 Wo bo
      = Cert.Spec.pred i0 i1 i2 i3 e0 e1 e2 e3 W0 b0 W1 b1 W2 b2 W3 b3 Wo bo := by
  funext i
  obtain ⟨r, rfl⟩ : ∃ r : Fin 16384, i = ix1 r := ⟨i 0, eq_ix1 i⟩
  unfold refVal mlpv Cert.Spec.pred Cert.Spec.mlp Cert.Spec.hidden
  rw [headv_apply]
  refine congrArg (Cert.Spec.head Wo bo) (funext fun k3 => ?_)
  rw [layer3_apply]
  refine congrArg (fun f => Cert.Spec.dense W3 b3 f k3) (funext fun k2 => ?_)
  rw [layer2_apply]
  refine congrArg (fun f => Cert.Spec.dense W2 b2 f k2) (funext fun k1 => ?_)
  rw [layer1_apply]
  refine congrArg (fun f => Cert.Spec.dense W1 b1 f k1) (funext fun k0 => ?_)
  rw [layer0_apply]
  refine congrArg (fun f => Cert.Spec.dense W0 b0 f k0) (funext fun k => ?_)
  exact featv_apply i0 i1 i2 i3 e0 e1 e2 e3 h0 h1 h2 h3 r k

end Cert.RefRun

end
-- ==== Proof.RefRun.lean ====
/-
  The reference's run under the precondition: every weakly fair execution of the reference terminates with the result
  buffer at the specification of the launch contents of the eighteen argument buffers, and with those buffers
  unchanged. The run leaves the reference's composed function there; the precondition bounds every index word by 99999;
  and on such index arrays the composed function is the specification.
-/
import proofs.«212020_g4707284156877_cont_8to1c4_553_54_alg».proof.Defs
import proofs.«212020_g4707284156877_cont_8to1c4_553_54_alg».proof.Proof.PreFacts
import proofs.«212020_g4707284156877_cont_8to1c4_553_54_alg».proof.Proof.RefRunTerm
import proofs.«212020_g4707284156877_cont_8to1c4_553_54_alg».proof.Proof.RefValue

noncomputable section

namespace Cert.RefRun

open Idealize.ShloMosaic Idealize.ShloMosaic.TcCoe Idealize.SL.Sem

theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v38)
            = Cert.Spec.pred (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run (Cert.ReferenceIdeal.defs (F := Ideal)) _ _).mono (fun _ h c => by
      obtain ⟨h0, h1, h2, h3⟩ := Cert.PreFacts.idx_range (F := Ideal) _ _ _ _ _ _ _ _ _ _ _ _ _ _ _ _ _ _ (hpre c)
      exact ⟨(h c).1.trans (refVal_eq_pred _ _ _ _ _ _ _ _ _ _ _ _ _ _ _ _ _ _ h0 h1 h2 h3), (h c).2⟩)
    (run_val (F := Ideal) m g)

end Cert.RefRun

end
-- ==== Proof.RefFrame.lean ====
/-
  The reference's frame: under the precondition every weakly fair execution of the reference terminates without a
  fault and leaves the eighteen argument buffers unchanged. It is the reference's run with the result dropped.
-/
import proofs.«212020_g4707284156877_cont_8to1c4_553_54_alg».proof.Defs
import proofs.«212020_g4707284156877_cont_8to1c4_553_54_alg».proof.Proof.RefRunTerm

noncomputable section

namespace Cert.RefRun

open Idealize.ShloMosaic Idealize.ShloMosaic.TcCoe Idealize.SL.Sem

theorem frame [Cert.ReferenceIdeal.Facts] [Cert.Pre_input_domain.Facts] : Cert.frame_ReferenceIdeal :=
  fun m g _ => (θ_run (Cert.ReferenceIdeal.defs (F := Ideal)) _ _).mono (fun _ h c => (h c).2) (run_val (F := Ideal) m g)

end Cert.RefRun

end
-- ==== Proof.lean ====
/-
  The certificate's five claims. The kernel program (two SparseCore gather calls, each followed by a TensorCore
  perceptron region, then a concatenation) and the reference (clip, take, concatenate, four dense layers with the
  rectifier, the output row) both compute, at the ideal instance, `Cert.Spec.pred` of the eighteen arguments: the
  gathers are index equations (every index word names a row of its table, by the precondition), a change of float
  format is the identity, and the blocked matrix products and lane sum are the same finite sums as the reference's
  contractions. Each program's frame is its run with the values dropped; the idealization rewrote nothing.
-/
import proofs.«212020_g4707284156877_cont_8to1c4_553_54_alg».proof.Defs
import proofs.«212020_g4707284156877_cont_8to1c4_553_54_alg».proof.Proof.Gen.Kernel
import proofs.«212020_g4707284156877_cont_8to1c4_553_54_alg».proof.Proof.Gen.KernelIdeal
import proofs.«212020_g4707284156877_cont_8to1c4_553_54_alg».proof.Proof.Gen.ReferenceIdeal
import proofs.«212020_g4707284156877_cont_8to1c4_553_54_alg».proof.Proof.Gen.Pre_input_domain
import proofs.«212020_g4707284156877_cont_8to1c4_553_54_alg».proof.Proof.ScAll
import proofs.«212020_g4707284156877_cont_8to1c4_553_54_alg».proof.Proof.BScAll
import proofs.«212020_g4707284156877_cont_8to1c4_553_54_alg».proof.Proof.ScTile0
import proofs.«212020_g4707284156877_cont_8to1c4_553_54_alg».proof.Proof.ScTile1
import proofs.«212020_g4707284156877_cont_8to1c4_553_54_alg».proof.Proof.BScTile0
import proofs.«212020_g4707284156877_cont_8to1c4_553_54_alg».proof.Proof.BScTile1
import proofs.«212020_g4707284156877_cont_8to1c4_553_54_alg».proof.Proof.KValOut
import proofs.«212020_g4707284156877_cont_8to1c4_553_54_alg».proof.Proof.MlpIdeal
import proofs.«212020_g4707284156877_cont_8to1c4_553_54_alg».proof.Proof.RefRun
import proofs.«212020_g4707284156877_cont_8to1c4_553_54_alg».proof.Proof.RefFrame
import Idealize.ShloMosaic.Adequacy
import Idealize.ShloMosaic.Init

noncomputable section

namespace Cert.Proof

open Idealize.ShloMosaic Idealize.SL.Sem

/-- The region's whole-array function is the specification's perceptron, row by row. -/
theorem mlp_spec : Cert.KernelIdeal.Sc.GSpec (Cert.KernelIdeal.Mlp.mlpG (F := Ideal)) :=
  fun x w0 b0 w1 b1 w2 b2 w3 b3 wo bo => Cert.KernelIdeal.Mlp.mlpG_eq x w0 b0 w1 b1 w2 b2 w3 b3 wo bo

theorem frame_k : Cert.frame_Kernel := fun m ρ hpre =>
  (θ_run (Cert.Kernel.defs (F := Bits)) _ _).mono (fun r h c => Cert.Kernel.Sc.frame_of_QC m r h c)
    (Cert.Kernel.Sc.run_all (F := Bits) m ρ (Cert.Kernel.Sc.tile_body0 m) (Cert.Kernel.Sc.C1.tile_body1 m) (Cert.Kernel.Sc.preOK_of_pre m hpre))

theorem frame_ki : Cert.frame_KernelIdeal := fun m ρ hpre =>
  (θ_run (Cert.KernelIdeal.defs (F := Ideal)) _ _).mono (fun r h c => Cert.KernelIdeal.Sc.frame_of_QC m r h c)
    (Cert.KernelIdeal.Sc.run_all (F := Ideal) m ρ (Cert.KernelIdeal.Sc.tile_body0 m) (Cert.KernelIdeal.Sc.C1.tile_body1 m) (Cert.KernelIdeal.Sc.preOK_of_pre m hpre))

theorem algebraic : Cert.algebraic_KernelIdeal_ReferenceIdeal := by
  intro m g m' g' hpre hagree
  have hok : Cert.KernelIdeal.Sc.PreOK m := Cert.KernelIdeal.Sc.preOK_of_pre m hpre
  refine ⟨fun c => Cert.Spec.pred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run (Cert.KernelIdeal.defs (F := Ideal)) _ _).mono
      (fun r h c => ⟨(h c (Cert.KernelIdeal.Sc.rf Cert.KernelIdeal.main_v30) (Cert.KernelIdeal.Sc.rf_mem _)).trans
          (Cert.KernelIdeal.Sc.VE_out m _ mlp_spec hok c), Cert.KernelIdeal.Sc.frame_of_QC m r h c⟩)
      (Cert.KernelIdeal.Sc.run_all (F := Ideal) m g (Cert.KernelIdeal.Sc.tile_body0 m) (Cert.KernelIdeal.Sc.C1.tile_body1 m) hok)
  · have hpre' : Cert.Pre_ReferenceIdeal m' := fun c => by
      obtain ⟨e0, e1, e2, e3, e4, e5, e6, e7, e8, e9, e10, e11, e12, e13, e14, e15, e16, e17⟩ := hagree c
      rw [e0, e1, e2, e3, e4, e5, e6, e7, e8, e9, e10, e11, e12, e13, e14, e15, e16, e17]; exact hpre c
    refine (θ_run (Cert.ReferenceIdeal.defs (F := Ideal)) _ _).mono (fun r h c => ⟨(h c).1.trans ?_, (h c).2⟩) (Cert.RefRun.run m' g' hpre')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_input_domain.Gen.facts,
    frame_k, frame_ki, Cert.RefRun.frame, trivial, algebraic⟩

end Cert.Proof

end
